-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S512 : Shape := ⟨1, ![512]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : IVec S512 32) (main_arg2 : IVec S512 32) (main_arg3 : FVec F S8192x8192 .f32) (main_arg4 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg3
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg4
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x128 : Shape := ⟨2, ![8192, 128]⟩
abbrev S512 : Shape := ⟨1, ![512]⟩
abbrev S8192x8192 : Shape := ⟨2, ![8192, 8192]⟩
abbrev S2 : Shape := ⟨1, ![2]⟩
abbrev S8192x1 : Shape := ⟨2, ![8192, 1]⟩
abbrev S1024x512 : Shape := ⟨2, ![1024, 512]⟩
abbrev S1024x1 : Shape := ⟨2, ![1024, 1]⟩
abbrev S1024 : Shape := ⟨1, ![1024]⟩
abbrev S_ : Shape := ⟨0, ![]⟩
abbrev S8192x2 : Shape := ⟨2, ![8192, 2]⟩
abbrev S512x1 : Shape := ⟨2, ![512, 1]⟩
abbrev S512x2 : Shape := ⟨2, ![512, 2]⟩
abbrev S1024x8192 : Shape := ⟨2, ![1024, 8192]⟩
abbrev S1024x2 : Shape := ⟨2, ![1024, 2]⟩

abbrev nBuf : Space → Nat
  | .hbm => 106
  | .vmem => 104
  | .smem => 0
  | _ => 0

abbrev bufTy : (tb : Table) → Fin (tcTables nBuf tb) → BufTy
  | .hbm, ⟨0, _⟩ => ⟨S8192x128, .f32⟩
  | .hbm, ⟨1, _⟩ => ⟨S512, .i32⟩
  | .hbm, ⟨2, _⟩ => ⟨S512, .i32⟩
  | .hbm, ⟨3, _⟩ => ⟨S8192x8192, .f32⟩
  | .hbm, ⟨4, _⟩ => ⟨S8192x8192, .f32⟩
  | .hbm, ⟨5, _⟩ => ⟨S2, .f32⟩
  | .hbm, ⟨6, _⟩ => ⟨S2, .f32⟩
  | .hbm, ⟨7, _⟩ => ⟨S8192x8192, .f32⟩
  | .hbm, ⟨8, _⟩ => ⟨S8192x8192, .bf16⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x2, .f32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512x2, .f32⟩
  | .hbm, ⟨28, _⟩ => ⟨S8192x2, .f32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S_, .i32⟩
  | .hbm, ⟨33, _⟩ => ⟨S512, .i32⟩
  | .hbm, ⟨34, _⟩ => ⟨S512, .i32⟩
  | .hbm, ⟨35, _⟩ => ⟨S512, .i32⟩
  | .hbm, ⟨36, _⟩ => ⟨S512x1, .i32⟩
  | .hbm, ⟨37, _⟩ => ⟨S512x2, .f32⟩
  | .hbm, ⟨38, _⟩ => ⟨S8192x2, .f32⟩
  | .hbm, ⟨39, _⟩ => ⟨S8192x2, .f32⟩
  | .hbm, ⟨40, _⟩ => ⟨S8192x2, .f32⟩
  | .hbm, ⟨41, _⟩ => ⟨S8192x2, .f32⟩
  | .hbm, ⟨42, _⟩ => ⟨S8192x2, .f32⟩
  | .hbm, ⟨43, _⟩ => ⟨S8192x2, .f32⟩
  | .hbm, ⟨44, _⟩ => ⟨S8192x2, .f32⟩
  | .hbm, ⟨45, _⟩ => ⟨S8192x2, .f32⟩
  | .hbm, ⟨46, _⟩ => ⟨S8192x2, .f32⟩
  | .hbm, ⟨47, _⟩ => ⟨S8192x2, .f32⟩
  | .hbm, ⟨48, _⟩ => ⟨S8192x2, .f32⟩
  | .hbm, ⟨49, _⟩ => ⟨S_, .i32⟩
  | .hbm, ⟨50, _⟩ => ⟨S512, .i32⟩
  | .hbm, ⟨51, _⟩ => ⟨S512, .i1⟩
  | .hbm, ⟨52, _⟩ => ⟨S_, .i32⟩
  | .hbm, ⟨53, _⟩ => ⟨S512, .i32⟩
  | .hbm, ⟨54, _⟩ => ⟨S512, .i32⟩
  | .hbm, ⟨55, _⟩ => ⟨S512, .i32⟩
  | .hbm, ⟨56, _⟩ => ⟨S_, .i32⟩
  | .hbm, ⟨57, _⟩ => ⟨S512, .i32⟩
  | .hbm, ⟨58, _⟩ => ⟨S512, .i32⟩
  | .hbm, ⟨59, _⟩ => ⟨S512x1, .i32⟩
  | .hbm, ⟨60, _⟩ => ⟨S512x1, .i32⟩
  | .hbm, ⟨61, _⟩ => ⟨S512x2, .i32⟩
  | .hbm, ⟨62, _⟩ => ⟨S512, .f32⟩
  | .hbm, ⟨63, _⟩ => ⟨S_, .i32⟩
  | .hbm, ⟨64, _⟩ => ⟨S512, .i32⟩
  | .hbm, ⟨65, _⟩ => ⟨S512, .i1⟩
  | .hbm, ⟨66, _⟩ => ⟨S_, .i32⟩
  | .hbm, ⟨67, _⟩ => ⟨S512, .i32⟩
  | .hbm, ⟨68, _⟩ => ⟨S512, .i32⟩
  | .hbm, ⟨69, _⟩ => ⟨S512, .i32⟩
  | .hbm, ⟨70, _⟩ => ⟨S_, .i32⟩
  | .hbm, ⟨71, _⟩ => ⟨S512, .i32⟩
  | .hbm, ⟨72, _⟩ => ⟨S512, .i32⟩
  | .hbm, ⟨73, _⟩ => ⟨S512x1, .i32⟩
  | .hbm, ⟨74, _⟩ => ⟨S512x1, .i32⟩
  | .hbm, ⟨75, _⟩ => ⟨S512x2, .i32⟩
  | .hbm, ⟨76, _⟩ => ⟨S512, .f32⟩
  | .hbm, ⟨77, _⟩ => ⟨S_, .f32⟩
  | .hbm, ⟨78, _⟩ => ⟨S512, .f32⟩
  | .hbm, ⟨79, _⟩ => ⟨S512, .f32⟩
  | .hbm, ⟨80, _⟩ => ⟨S512, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S512, .f32⟩
  | .hbm, ⟨88, _⟩ => ⟨S512, .f32⟩
  | .hbm, ⟨89, _⟩ => ⟨S512, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x8192, .bf16⟩
  | .local _ .vmem, ⟨15, _⟩ => ⟨S1024x8192, .bf16⟩
  | .local _ .vmem, ⟨16, _⟩ => ⟨S8192x2, .f32⟩
  | .local _ .vmem, ⟨17, _⟩ => ⟨S1024x1, .f32⟩
  | .local _ .vmem, ⟨18, _⟩ => ⟨S1024x1, .f32⟩
  | .local _ .vmem, ⟨19, _⟩ => ⟨S1024x2, .f32⟩
  | .local _ .vmem, ⟨20, _⟩ => ⟨S1024x2, .f32⟩
  | .local _ .vmem, ⟨21, _⟩ => ⟨S1024x2, .f32⟩
  | .local _ .vmem, ⟨22, _⟩ => ⟨S1024x2, .f32⟩
  | .local _ .vmem, ⟨23, _⟩ => ⟨S1024x8192, .bf16⟩
  | .local _ .vmem, ⟨24, _⟩ => ⟨S1024x8192, .bf16⟩
  | .local _ .vmem, ⟨25, _⟩ => ⟨S8192x2, .f32⟩
  | .local _ .vmem, ⟨26, _⟩ => ⟨S1024x1, .f32⟩
  | .local _ .vmem, ⟨27, _⟩ => ⟨S1024x1, .f32⟩
  | .local _ .vmem, ⟨28, _⟩ => ⟨S1024x2, .f32⟩
  | .local _ .vmem, ⟨29, _⟩ => ⟨S1024x2, .f32⟩
  | .local _ .vmem, ⟨30, _⟩ => ⟨S1024x2, .f32⟩
  | .local _ .vmem, ⟨31, _⟩ => ⟨S1024x2, .f32⟩
  | .local _ .vmem, ⟨32, _⟩ => ⟨S1024x8192, .bf16⟩
  | .local _ .vmem, ⟨33, _⟩ => ⟨S1024x8192, .bf16⟩
  | .local _ .vmem, ⟨34, _⟩ => ⟨S8192x2, .f32⟩
  | .local _ .vmem, ⟨35, _⟩ => ⟨S1024x1, .f32⟩
  | .local _ .vmem, ⟨36, _⟩ => ⟨S1024x1, .f32⟩
  | .local _ .vmem, ⟨37, _⟩ => ⟨S1024x2, .f32⟩
  | .local _ .vmem, ⟨38, _⟩ => ⟨S1024x2, .f32⟩
  | .local _ .vmem, ⟨39, _⟩ => ⟨S1024x2, .f32⟩
  | .local _ .vmem, ⟨40, _⟩ => ⟨S1024x2, .f32⟩
  | .local _ .vmem, ⟨41, _⟩ => ⟨S1024x8192, .bf16⟩
  | .local _ .vmem, ⟨42, _⟩ => ⟨S1024x8192, .bf16⟩
  | .local _ .vmem, ⟨43, _⟩ => ⟨S8192x2, .f32⟩
  | .local _ .vmem, ⟨44, _⟩ => ⟨S1024x1, .f32⟩
  | .local _ .vmem, ⟨45, _⟩ => ⟨S1024x1, .f32⟩
  | .local _ .vmem, ⟨46, _⟩ => ⟨S1024x2, .f32⟩
  | .local _ .vmem, ⟨47, _⟩ => ⟨S1024x2, .f32⟩
  | .local _ .vmem, ⟨48, _⟩ => ⟨S1024x2, .f32⟩
  | .local _ .vmem, ⟨49, _⟩ => ⟨S1024x2, .f32⟩
  | .local _ .vmem, ⟨50, _⟩ => ⟨S1024x8192, .bf16⟩
  | .local _ .vmem, ⟨51, _⟩ => ⟨S1024x8192, .bf16⟩
  | .local _ .vmem, ⟨52, _⟩ => ⟨S8192x2, .f32⟩
  | .local _ .vmem, ⟨53, _⟩ => ⟨S1024x1, .f32⟩
  | .local _ .vmem, ⟨54, _⟩ => ⟨S1024x1, .f32⟩
  | .local _ .vmem, ⟨55, _⟩ => ⟨S1024x2, .f32⟩
  | .local _ .vmem, ⟨56, _⟩ => ⟨S1024x2, .f32⟩
  | .local _ .vmem, ⟨57, _⟩ => ⟨S1024x2, .f32⟩
  | .local _ .vmem, ⟨58, _⟩ => ⟨S1024x2, .f32⟩
  | .local _ .vmem, ⟨59, _⟩ => ⟨S1024x8192, .bf16⟩
  | .local _ .vmem, ⟨60, _⟩ => ⟨S1024x8192, .bf16⟩
  | .local _ .vmem, ⟨61, _⟩ => ⟨S8192x2, .f32⟩
  | .local _ .vmem, ⟨62, _⟩ => ⟨S1024x1, .f32⟩
  | .local _ .vmem, ⟨63, _⟩ => ⟨S1024x1, .f32⟩
  | .local _ .vmem, ⟨64, _⟩ => ⟨S1024x2, .f32⟩
  | .local _ .vmem, ⟨65, _⟩ => ⟨S1024x2, .f32⟩
  | .local _ .vmem, ⟨66, _⟩ => ⟨S1024x2, .f32⟩
  | .local _ .vmem, ⟨67, _⟩ => ⟨S1024x2, .f32⟩
  | .local _ .vmem, ⟨68, _⟩ => ⟨S1024x8192, .bf16⟩
  | .local _ .vmem, ⟨69, _⟩ => ⟨S1024x8192, .bf16⟩
  | .local _ .vmem, ⟨70, _⟩ => ⟨S8192x2, .f32⟩
  | .local _ .vmem, ⟨71, _⟩ => ⟨S1024x1, .f32⟩
  | .local _ .vmem, ⟨72, _⟩ => ⟨S1024x1, .f32⟩
  | .local _ .vmem, ⟨73, _⟩ => ⟨S1024x2, .f32⟩
  | .local _ .vmem, ⟨74, _⟩ => ⟨S1024x2, .f32⟩
  | .local _ .vmem, ⟨75, _⟩ => ⟨S1024x2, .f32⟩
  | .local _ .vmem, ⟨76, _⟩ => ⟨S1024x2, .f32⟩
  | .local _ .vmem, ⟨77, _⟩ => ⟨S1024x8192, .bf16⟩
  | .local _ .vmem, ⟨78, _⟩ => ⟨S1024x8192, .bf16⟩
  | .local _ .vmem, ⟨79, _⟩ => ⟨S8192x2, .f32⟩
  | .local _ .vmem, ⟨80, _⟩ => ⟨S1024x1, .f32⟩
  | .local _ .vmem, ⟨81, _⟩ => ⟨S1024x1, .f32⟩
  | .local _ .vmem, ⟨82, _⟩ => ⟨S1024x2, .f32⟩
  | .local _ .vmem, ⟨83, _⟩ => ⟨S1024x2, .f32⟩
  | .local _ .vmem, ⟨84, _⟩ => ⟨S1024x2, .f32⟩
  | .local _ .vmem, ⟨85, _⟩ => ⟨S1024x2, .f32⟩
  | .local _ .vmem, ⟨86, _⟩ => ⟨S1024x8192, .bf16⟩
  | .local _ .vmem, ⟨87, _⟩ => ⟨S1024x8192, .bf16⟩
  | .local _ .vmem, ⟨88, _⟩ => ⟨S8192x2, .f32⟩
  | .local _ .vmem, ⟨89, _⟩ => ⟨S1024x1, .f32⟩
  | .local _ .vmem, ⟨90, _⟩ => ⟨S1024x1, .f32⟩
  | .local _ .vmem, ⟨91, _⟩ => ⟨S1024x2, .f32⟩
  | .local _ .vmem, ⟨92, _⟩ => ⟨S1024x2, .f32⟩
  | .local _ .vmem, ⟨93, _⟩ => ⟨S1024x2, .f32⟩
  | .local _ .vmem, ⟨94, _⟩ => ⟨S1024x2, .f32⟩
  | .local _ .vmem, ⟨95, _⟩ => ⟨S1024x8192, .bf16⟩
  | .local _ .vmem, ⟨96, _⟩ => ⟨S1024x8192, .bf16⟩
  | .local _ .vmem, ⟨97, _⟩ => ⟨S8192x2, .f32⟩
  | .local _ .vmem, ⟨98, _⟩ => ⟨S1024x1, .f32⟩
  | .local _ .vmem, ⟨99, _⟩ => ⟨S1024x1, .f32⟩
  | .local _ .vmem, ⟨100, _⟩ => ⟨S1024x2, .f32⟩
  | .local _ .vmem, ⟨101, _⟩ => ⟨S1024x2, .f32⟩
  | .local _ .vmem, ⟨102, _⟩ => ⟨S1024x2, .f32⟩
  | .local _ .vmem, ⟨103, _⟩ => ⟨S1024x2, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_v4 : Ref sig .tc := ⟨.hbm, 16, rfl⟩
abbrev main_cst_3 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_c_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_v59 : Ref sig .tc := ⟨.hbm, 85, rfl⟩
abbrev main_cst_16 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_17 : Ref sig .tc := ⟨.hbm, 90, rfl⟩
abbrev main_v63 : Ref sig .tc := ⟨.hbm, 91, rfl⟩
abbrev main_cst_18 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_19 : Ref sig .tc := ⟨.hbm, 96, rfl⟩
abbrev main_v67 : Ref sig .tc := ⟨.hbm, 97, rfl⟩
abbrev main_v68 : Ref sig .tc := ⟨.hbm, 98, rfl⟩
abbrev main_cst_20 : Ref sig .tc := ⟨.hbm, 99, rfl⟩
abbrev main_v69 : Ref sig .tc := ⟨.hbm, 100, rfl⟩
abbrev main_cst_21 : Ref sig .tc := ⟨.hbm, 101, rfl⟩
abbrev main_v70 : Ref sig .tc := ⟨.hbm, 102, rfl⟩
abbrev main_cst_22 : Ref sig .tc := ⟨.hbm, 103, rfl⟩
abbrev main_v71 : Ref sig .tc := ⟨.hbm, 104, rfl⟩
abbrev main_v72 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg4_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg3_1 : Ref sig .tc := ⟨.vmem, 56, rfl⟩
abbrev cc5_stg4_0 : Ref sig .tc := ⟨.vmem, 57, rfl⟩
abbrev cc5_stg4_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg2_1 : Ref sig .tc := ⟨.vmem, 63, rfl⟩
abbrev cc6_stg3_0 : Ref sig .tc := ⟨.vmem, 64, rfl⟩
abbrev cc6_stg3_1 : Ref sig .tc := ⟨.vmem, 65, rfl⟩
abbrev cc6_stg4_0 : Ref sig .tc := ⟨.vmem, 66, rfl⟩
abbrev cc6_stg4_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg2_0 : Ref sig .tc := ⟨.vmem, 71, rfl⟩
abbrev cc7_stg2_1 : Ref sig .tc := ⟨.vmem, 72, rfl⟩
abbrev cc7_stg3_0 : Ref sig .tc := ⟨.vmem, 73, rfl⟩
abbrev cc7_stg3_1 : Ref sig .tc := ⟨.vmem, 74, rfl⟩
abbrev cc7_stg4_0 : Ref sig .tc := ⟨.vmem, 75, rfl⟩
abbrev cc7_stg4_1 : Ref sig .tc := ⟨.vmem, 76, rfl⟩
abbrev cc8_stg0_0 : Ref sig .tc := ⟨.vmem, 77, rfl⟩
abbrev cc8_stg0_1 : Ref sig .tc := ⟨.vmem, 78, rfl⟩
abbrev cc8_stg1_0 : Ref sig .tc := ⟨.vmem, 79, rfl⟩
abbrev cc8_stg2_0 : Ref sig .tc := ⟨.vmem, 80, rfl⟩
abbrev cc8_stg2_1 : Ref sig .tc := ⟨.vmem, 81, rfl⟩
abbrev cc8_stg3_0 : Ref sig .tc := ⟨.vmem, 82, rfl⟩
abbrev cc8_stg3_1 : Ref sig .tc := ⟨.vmem, 83, rfl⟩
abbrev cc8_stg4_0 : Ref sig .tc := ⟨.vmem, 84, rfl⟩
abbrev cc8_stg4_1 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg2_0 : Ref sig .tc := ⟨.vmem, 89, rfl⟩
abbrev cc9_stg2_1 : Ref sig .tc := ⟨.vmem, 90, rfl⟩
abbrev cc9_stg3_0 : Ref sig .tc := ⟨.vmem, 91, rfl⟩
abbrev cc9_stg3_1 : Ref sig .tc := ⟨.vmem, 92, rfl⟩
abbrev cc9_stg4_0 : Ref sig .tc := ⟨.vmem, 93, rfl⟩
abbrev cc9_stg4_1 : Ref sig .tc := ⟨.vmem, 94, rfl⟩
abbrev cc10_stg0_0 : Ref sig .tc := ⟨.vmem, 95, rfl⟩
abbrev cc10_stg0_1 : Ref sig .tc := ⟨.vmem, 96, rfl⟩
abbrev cc10_stg1_0 : Ref sig .tc := ⟨.vmem, 97, rfl⟩
abbrev cc10_stg2_0 : Ref sig .tc := ⟨.vmem, 98, rfl⟩
abbrev cc10_stg2_1 : Ref sig .tc := ⟨.vmem, 99, rfl⟩
abbrev cc10_stg3_0 : Ref sig .tc := ⟨.vmem, 100, rfl⟩
abbrev cc10_stg3_1 : Ref sig .tc := ⟨.vmem, 101, rfl⟩
abbrev cc10_stg4_0 : Ref sig .tc := ⟨.vmem, 102, rfl⟩
abbrev cc10_stg4_1 : Ref sig .tc := ⟨.vmem, 103, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem2_1 : DmaSem sig := 43
abbrev cc4_sem3_0 : DmaSem sig := 44
abbrev cc4_sem3_1 : DmaSem sig := 45
abbrev cc4_sem4_0 : DmaSem sig := 46
abbrev cc4_sem4_1 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem2_1 : DmaSem sig := 52
abbrev cc5_sem3_0 : DmaSem sig := 53
abbrev cc5_sem3_1 : DmaSem sig := 54
abbrev cc5_sem4_0 : DmaSem sig := 55
abbrev cc5_sem4_1 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem2_1 : DmaSem sig := 61
abbrev cc6_sem3_0 : DmaSem sig := 62
abbrev cc6_sem3_1 : DmaSem sig := 63
abbrev cc6_sem4_0 : DmaSem sig := 64
abbrev cc6_sem4_1 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem2_1 : DmaSem sig := 70
abbrev cc7_sem3_0 : DmaSem sig := 71
abbrev cc7_sem3_1 : DmaSem sig := 72
abbrev cc7_sem4_0 : DmaSem sig := 73
abbrev cc7_sem4_1 : DmaSem sig := 74
abbrev cc8_sem0_0 : DmaSem sig := 75
abbrev cc8_sem0_1 : DmaSem sig := 76
abbrev cc8_sem1_0 : DmaSem sig := 77
abbrev cc8_sem2_0 : DmaSem sig := 78
abbrev cc8_sem2_1 : DmaSem sig := 79
abbrev cc8_sem3_0 : DmaSem sig := 80
abbrev cc8_sem3_1 : DmaSem sig := 81
abbrev cc8_sem4_0 : DmaSem sig := 82
abbrev cc8_sem4_1 : DmaSem sig := 83
abbrev cc9_sem0_0 : DmaSem sig := 84
abbrev cc9_sem0_1 : DmaSem sig := 85
abbrev cc9_sem1_0 : DmaSem sig := 86
abbrev cc9_sem2_0 : DmaSem sig := 87
abbrev cc9_sem2_1 : DmaSem sig := 88
abbrev cc9_sem3_0 : DmaSem sig := 89
abbrev cc9_sem3_1 : DmaSem sig := 90
abbrev cc9_sem4_0 : DmaSem sig := 91
abbrev cc9_sem4_1 : DmaSem sig := 92
abbrev cc10_sem0_0 : DmaSem sig := 93
abbrev cc10_sem0_1 : DmaSem sig := 94
abbrev cc10_sem1_0 : DmaSem sig := 95
abbrev cc10_sem2_0 : DmaSem sig := 96
abbrev cc10_sem2_1 : DmaSem sig := 97
abbrev cc10_sem3_0 : DmaSem sig := 98
abbrev cc10_sem3_1 : DmaSem sig := 99
abbrev cc10_sem4_0 : DmaSem sig := 100
abbrev cc10_sem4_1 : DmaSem sig := 101

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1024x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1024x2 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x8192 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8192x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1024x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1024x2 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1024x2 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x8192 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8192x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1024x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1024x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1024x2 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x8192 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S8192x2 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1024x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1024x2 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1024x2 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x8192 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S8192x2 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1024x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1024x2 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S1024x2 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1024x8192 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S8192x2 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S1024x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S1024x2 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S1024x2 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1024x8192 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S8192x2 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S1024x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S1024x2 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S1024x2 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x512_d0_w32 : S1024x512.Iotas .tc 32 [0]
  iota_S1024x512_d1_w32 : S1024x512.Iotas .tc 32 [1]
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  reduces_S1024x512_S1024 : S1024x512.Reduces [1] S1024
  shapeCasts_S1024_S1024x1 : S1024.ShapeCasts S1024x1
  bcast_S_S8192x1 : S_.BroadcastsInDim S8192x1 (![] : Fin 0 → Fin S8192x1.rank)
  bcast_S_S8192x2 : S_.BroadcastsInDim S8192x2 (![] : Fin 0 → Fin S8192x2.rank)
  bcast_S_S512 : S_.BroadcastsInDim S512 (![] : Fin 0 → Fin S512.rank)
  bcast_S512_S512x1_0 : S512.BroadcastsInDim S512x1 (![0] : Fin 1 → Fin S512x1.rank)
  bcast_S2_S512x2_1 : S2.BroadcastsInDim S512x2 (![1] : Fin 1 → Fin S512x2.rank)
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  broadcasts_S1024x1_S1024x2 : S1024x1.Broadcasts S1024x2
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  concatenates_S512x1_S512x1_S512x2_d1 : Shape.Concatenates [S512x1, S512x1] S512x2 1
  reducesTo_S512_S_d0 : S512.ReducesTo [0] S_
  h_S_ : 0 < S_.numel
  reducesTo_S8192x1_S_d0_1 : S8192x1.ReducesTo [0, 1] S_
  scatter_S8192x2_S512x1_S512x2_1_0_0_1_wf : ScatterDims.WF S8192x2 S512x1 S512x2 [1] [0] [0] 1
  dot_S1024x8192_S8192x2_S1024x2_1_0_0_1_n_n_wf : DotDims.WF S1024x8192 S8192x2 S1024x2 [1] [0] [0] [1] [] []
  gather_S8192x2_S512x2_S512_n_01_n_n_01_1_11_wf : GatherDims.WF S8192x2 S512x2 S512 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x8192.size a
  hwx0_0 : ∀ i : grid0.Coords, EltTy.bits .f32 = 32 ∨ (Rect.block (s := S8192x8192) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x8192.size a
  hwx0_1 : ∀ i : grid0.Coords, EltTy.bits .f32 = 32 ∨ (Rect.block (s := S8192x8192) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x8192.size a
  hwx0_2 : ∀ i : grid0.Coords, EltTy.bits .f32 = 32 ∨ (Rect.block (s := S8192x8192) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x8192.size a
  hwx0_3 : ∀ i : grid0.Coords, EltTy.bits .bf16 = 32 ∨ (Rect.block (s := S8192x8192) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x8192.size a ≤ S8192x8192.size a
  hwx1_0 : ∀ i : grid1.Coords, EltTy.bits .bf16 = 32 ∨ (Rect.block (s := S8192x8192) S1024x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x2.size a ≤ S8192x2.size a
  hwx1_1 : ∀ i : grid1.Coords, EltTy.bits .f32 = 32 ∨ (Rect.block (s := S8192x2) S8192x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2.size a ≤ S8192x2.size a
  hwx1_3 : ∀ i : grid1.Coords, EltTy.bits .f32 = 32 ∨ (Rect.block (s := S8192x2) S1024x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x2.size a ≤ S8192x2.size a
  hwx1_4 : ∀ i : grid1.Coords, EltTy.bits .f32 = 32 ∨ (Rect.block (s := S8192x2) S1024x2.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x8192.size a ≤ S8192x8192.size a
  hwx2_0 : ∀ i : grid2.Coords, EltTy.bits .bf16 = 32 ∨ (Rect.block (s := S8192x8192) S1024x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x2.size a ≤ S8192x2.size a
  hwx2_1 : ∀ i : grid2.Coords, EltTy.bits .f32 = 32 ∨ (Rect.block (s := S8192x2) S8192x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x2.size a ≤ S8192x2.size a
  hwx2_3 : ∀ i : grid2.Coords, EltTy.bits .f32 = 32 ∨ (Rect.block (s := S8192x2) S1024x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x2.size a ≤ S8192x2.size a
  hwx2_4 : ∀ i : grid2.Coords, EltTy.bits .f32 = 32 ∨ (Rect.block (s := S8192x2) S1024x2.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x8192.size a ≤ S8192x8192.size a
  hwx3_0 : ∀ i : grid3.Coords, EltTy.bits .bf16 = 32 ∨ (Rect.block (s := S8192x8192) S1024x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x2.size a ≤ S8192x2.size a
  hwx3_1 : ∀ i : grid3.Coords, EltTy.bits .f32 = 32 ∨ (Rect.block (s := S8192x2) S8192x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .f32 = 32 ∨ (Rect.block (s := S8192x1) S1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x2.size a ≤ S8192x2.size a
  hwx3_3 : ∀ i : grid3.Coords, EltTy.bits .f32 = 32 ∨ (Rect.block (s := S8192x2) S1024x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x2.size a ≤ S8192x2.size a
  hwx3_4 : ∀ i : grid3.Coords, EltTy.bits .f32 = 32 ∨ (Rect.block (s := S8192x2) S1024x2.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x8192.size a ≤ S8192x8192.size a
  hwx4_0 : ∀ i : grid4.Coords, EltTy.bits .bf16 = 32 ∨ (Rect.block (s := S8192x8192) S1024x8192.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x2.size a ≤ S8192x2.size a
  hwx4_1 : ∀ i : grid4.Coords, EltTy.bits .f32 = 32 ∨ (Rect.block (s := S8192x2) S8192x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1.size a ≤ S8192x1.size a
  hwx4_2 : ∀ i : grid4.Coords, EltTy.bits .f32 = 32 ∨ (Rect.block (s := S8192x1) S1024x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x2.size a ≤ S8192x2.size a
  hwx4_3 : ∀ i : grid4.Coords, EltTy.bits .f32 = 32 ∨ (Rect.block (s := S8192x2) S1024x2.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x2.size a ≤ S8192x2.size a
  hwx4_4 : ∀ i : grid4.Coords, EltTy.bits .f32 = 32 ∨ (Rect.block (s := S8192x2) S1024x2.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x8192.size a ≤ S8192x8192.size a
  hwx5_0 : ∀ i : grid5.Coords, EltTy.bits .bf16 = 32 ∨ (Rect.block (s := S8192x8192) S1024x8192.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S8192x2.size a ≤ S8192x2.size a
  hwx5_1 : ∀ i : grid5.Coords, EltTy.bits .f32 = 32 ∨ (Rect.block (s := S8192x2) S8192x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1.size a ≤ S8192x1.size a
  hwx5_2 : ∀ i : grid5.Coords, EltTy.bits .f32 = 32 ∨ (Rect.block (s := S8192x1) S1024x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x2.size a ≤ S8192x2.size a
  hwx5_3 : ∀ i : grid5.Coords, EltTy.bits .f32 = 32 ∨ (Rect.block (s := S8192x2) S1024x2.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1024x2.size a ≤ S8192x2.size a
  hwx5_4 : ∀ i : grid5.Coords, EltTy.bits .f32 = 32 ∨ (Rect.block (s := S8192x2) S1024x2.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x8192.size a ≤ S8192x8192.size a
  hwx6_0 : ∀ i : grid6.Coords, EltTy.bits .bf16 = 32 ∨ (Rect.block (s := S8192x8192) S1024x8192.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8192x2.size a ≤ S8192x2.size a
  hwx6_1 : ∀ i : grid6.Coords, EltTy.bits .f32 = 32 ∨ (Rect.block (s := S8192x2) S8192x2.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x1.size a ≤ S8192x1.size a
  hwx6_2 : ∀ i : grid6.Coords, EltTy.bits .f32 = 32 ∨ (Rect.block (s := S8192x1) S1024x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x2.size a ≤ S8192x2.size a
  hwx6_3 : ∀ i : grid6.Coords, EltTy.bits .f32 = 32 ∨ (Rect.block (s := S8192x2) S1024x2.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1024x2.size a ≤ S8192x2.size a
  hwx6_4 : ∀ i : grid6.Coords, EltTy.bits .f32 = 32 ∨ (Rect.block (s := S8192x2) S1024x2.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x8192.size a ≤ S8192x8192.size a
  hwx7_0 : ∀ i : grid7.Coords, EltTy.bits .bf16 = 32 ∨ (Rect.block (s := S8192x8192) S1024x8192.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S8192x2.size a ≤ S8192x2.size a
  hwx7_1 : ∀ i : grid7.Coords, EltTy.bits .f32 = 32 ∨ (Rect.block (s := S8192x2) S8192x2.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x1.size a ≤ S8192x1.size a
  hwx7_2 : ∀ i : grid7.Coords, EltTy.bits .f32 = 32 ∨ (Rect.block (s := S8192x1) S1024x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x2.size a ≤ S8192x2.size a
  hwx7_3 : ∀ i : grid7.Coords, EltTy.bits .f32 = 32 ∨ (Rect.block (s := S8192x2) S1024x2.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1024x2.size a ≤ S8192x2.size a
  hwx7_4 : ∀ i : grid7.Coords, EltTy.bits .f32 = 32 ∨ (Rect.block (s := S8192x2) S1024x2.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x8192.size a ≤ S8192x8192.size a
  hwx8_0 : ∀ i : grid8.Coords, EltTy.bits .bf16 = 32 ∨ (Rect.block (s := S8192x8192) S1024x8192.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S8192x2.size a ≤ S8192x2.size a
  hwx8_1 : ∀ i : grid8.Coords, EltTy.bits .f32 = 32 ∨ (Rect.block (s := S8192x2) S8192x2.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x1.size a ≤ S8192x1.size a
  hwx8_2 : ∀ i : grid8.Coords, EltTy.bits .f32 = 32 ∨ (Rect.block (s := S8192x1) S1024x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1024x2.size a ≤ S8192x2.size a
  hwx8_3 : ∀ i : grid8.Coords, EltTy.bits .f32 = 32 ∨ (Rect.block (s := S8192x2) S1024x2.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1024x2.size a ≤ S8192x2.size a
  hwx8_4 : ∀ i : grid8.Coords, EltTy.bits .f32 = 32 ∨ (Rect.block (s := S8192x2) S1024x2.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x8192.size a ≤ S8192x8192.size a
  hwx9_0 : ∀ i : grid9.Coords, EltTy.bits .bf16 = 32 ∨ (Rect.block (s := S8192x8192) S1024x8192.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S8192x2.size a ≤ S8192x2.size a
  hwx9_1 : ∀ i : grid9.Coords, EltTy.bits .f32 = 32 ∨ (Rect.block (s := S8192x2) S8192x2.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x1.size a ≤ S8192x1.size a
  hwx9_2 : ∀ i : grid9.Coords, EltTy.bits .f32 = 32 ∨ (Rect.block (s := S8192x1) S1024x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S1024x2.size a ≤ S8192x2.size a
  hwx9_3 : ∀ i : grid9.Coords, EltTy.bits .f32 = 32 ∨ (Rect.block (s := S8192x2) S1024x2.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1024x2.size a ≤ S8192x2.size a
  hwx9_4 : ∀ i : grid9.Coords, EltTy.bits .f32 = 32 ∨ (Rect.block (s := S8192x2) S1024x2.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x8192.size a ≤ S8192x8192.size a
  hwx10_0 : ∀ i : grid10.Coords, EltTy.bits .bf16 = 32 ∨ (Rect.block (s := S8192x8192) S1024x8192.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S8192x2.size a ≤ S8192x2.size a
  hwx10_1 : ∀ i : grid10.Coords, EltTy.bits .f32 = 32 ∨ (Rect.block (s := S8192x2) S8192x2.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x1.size a ≤ S8192x1.size a
  hwx10_2 : ∀ i : grid10.Coords, EltTy.bits .f32 = 32 ∨ (Rect.block (s := S8192x1) S1024x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1024x2.size a ≤ S8192x2.size a
  hwx10_3 : ∀ i : grid10.Coords, EltTy.bits .f32 = 32 ∨ (Rect.block (s := S8192x2) S1024x2.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1024x2.size a ≤ S8192x2.size a
  hwx10_4 : ∀ i : grid10.Coords, EltTy.bits .f32 = 32 ∨ (Rect.block (s := S8192x2) S1024x2.size (cc10_transform_4 i) (hinb10_4 i)).WholeWords (EltTy.packing .f32)

variable [Facts₀]

def scatter_S8192x2_S512x1_S512x2_1_0_0_1 : ScatterDims S8192x2 S512x1 S512x2 where
  updateWindowDims := [1]
  insertedWindowDims := [0]
  scatterDimsToOperandDims := [0]
  indexVectorDim := 1
  wf := scatter_S8192x2_S512x1_S512x2_1_0_0_1_wf
def dot_S1024x8192_S8192x2_S1024x2_1_0_0_1_n_n : DotDims S1024x8192 S8192x2 S1024x2 where
  lhsContracting := [1]
  rhsContracting := [0]
  lhsNonContracting := [0]
  rhsNonContracting := [1]
  lhsBatch := []
  rhsBatch := []
  wf := dot_S1024x8192_S8192x2_S1024x2_1_0_0_1_n_n_wf
def gather_S8192x2_S512x2_S512_n_01_n_n_01_1_11 : GatherDims S8192x2 S512x2 S512 where
  offsetDims := []
  collapsedSliceDims := [0, 1]
  operandBatchingDims := []
  startIndicesBatchingDims := []
  startIndexMap := [0, 1]
  indexVectorDim := 1
  sliceSizes := ![1, 1]
  wf := gather_S8192x2_S512x2_S512_n_01_n_n_01_1_11_wf

abbrev win0_0 : Pipeline.Window sig grid0 :=
  Pipeline.Window.ofSpec (Memref.whole main_arg3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0_1) S1024x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S8192x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1024x2.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1024x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0_1) S1024x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S8192x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1024x2.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1024x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v0_1) S1024x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S8192x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v23) S1024x2.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v24) S1024x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v0_1) S1024x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S8192x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1024x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v24) S1024x2.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v25) S1024x2.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v0_1) S1024x8192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S8192x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v4) S1024x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v25) S1024x2.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v26) S1024x2.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v0_1) S1024x8192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v26) S8192x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v4) S1024x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v26) S1024x2.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v27) S1024x2.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v0_1) S1024x8192.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v27) S8192x2.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v4) S1024x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v27) S1024x2.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v28) S1024x2.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v0_1) S1024x8192.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v28) S8192x2.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v4) S1024x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v28) S1024x2.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v29) S1024x2.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v0_1) S1024x8192.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v29) S8192x2.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v4) S1024x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v29) S1024x2.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v30) S1024x2.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v0_1) S1024x8192.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v30) S8192x2.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v4) S1024x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v30) S1024x2.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v31) S1024x2.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

class Facts : Prop extends Facts₀ where

variable [Facts]
-- ==== ReferenceIdeal.lean ====
abbrev S8192x128 : Shape := ⟨2, ![8192, 128]⟩
abbrev S512 : Shape := ⟨1, ![512]⟩
abbrev S8192x8192 : Shape := ⟨2, ![8192, 8192]⟩
abbrev S2 : Shape := ⟨1, ![2]⟩
abbrev S_ : Shape := ⟨0, ![]⟩
abbrev S8192 : Shape := ⟨1, ![8192]⟩
abbrev S8192x2 : Shape := ⟨2, ![8192, 2]⟩
abbrev S512x1 : Shape := ⟨2, ![512, 1]⟩
abbrev S512x2 : Shape := ⟨2, ![512, 2]⟩
abbrev S8192x1 : Shape := ⟨2, ![8192, 1]⟩

abbrev nBuf : Space → Nat
  | .hbm => 214
  | .vmem => 0
  | .smem => 0
  | _ => 0

abbrev hbmTy0_0 (i : Nat) : BufTy := match i % 128 with
  | 0 => ⟨S8192x128, .f32⟩
  | 1 => ⟨S512, .i32⟩
  | 2 => ⟨S512, .i32⟩
  | 3 => ⟨S8192x8192, .f32⟩
  | 4 => ⟨S8192x8192, .f32⟩
  | 5 => ⟨S2, .f32⟩
  | 6 => ⟨S2, .f32⟩
  | 7 => ⟨S8192x8192, .i32⟩
  | 8 => ⟨S8192x8192, .i32⟩
  | 9 => ⟨S_, .i32⟩
  | 10 => ⟨S8192x8192, .i32⟩
  | 11 => ⟨S8192x8192, .i32⟩
  | 12 => ⟨S8192x8192, .i1⟩
  | 13 => ⟨S8192x8192, .f32⟩
  | 14 => ⟨S8192x8192, .f32⟩
  | 15 => ⟨S_, .f32⟩
  | 16 => ⟨S8192, .f32⟩
  | 17 => ⟨S_, .f32⟩
  | 18 => ⟨S8192, .f32⟩
  | 19 => ⟨S8192, .f32⟩
  | 20 => ⟨S_, .f32⟩
  | 21 => ⟨S8192, .f32⟩
  | 22 => ⟨S8192, .f32⟩
  | 23 => ⟨S_, .f32⟩
  | 24 => ⟨S8192x2, .f32⟩
  | 25 => ⟨S_, .i32⟩
  | 26 => ⟨S512, .i32⟩
  | 27 => ⟨S512, .i1⟩
  | 28 => ⟨S_, .i32⟩
  | 29 => ⟨S512, .i32⟩
  | 30 => ⟨S512, .i32⟩
  | 31 => ⟨S512, .i32⟩
  | 32 => ⟨S512x1, .i32⟩
  | 33 => ⟨S512x2, .f32⟩
  | 34 => ⟨S8192x2, .f32⟩
  | 35 => ⟨S_, .i32⟩
  | 36 => ⟨S512, .i32⟩
  | 37 => ⟨S512, .i1⟩
  | 38 => ⟨S_, .i32⟩
  | 39 => ⟨S512, .i32⟩
  | 40 => ⟨S512, .i32⟩
  | 41 => ⟨S512, .i32⟩
  | 42 => ⟨S512x1, .i32⟩
  | 43 => ⟨S512x2, .f32⟩
  | 44 => ⟨S8192x2, .f32⟩
  | 45 => ⟨S8192x8192, .f32⟩
  | 46 => ⟨S8192x1, .f32⟩
  | 47 => ⟨S8192x2, .f32⟩
  | 48 => ⟨S8192x2, .f32⟩
  | 49 => ⟨S8192x2, .f32⟩
  | 50 => ⟨S_, .f32⟩
  | 51 => ⟨S8192x2, .f32⟩
  | 52 => ⟨S8192x2, .f32⟩
  | 53 => ⟨S_, .f32⟩
  | 54 => ⟨S8192x2, .f32⟩
  | 55 => ⟨S8192x2, .f32⟩
  | 56 => ⟨S8192x2, .f32⟩
  | 57 => ⟨S8192x1, .f32⟩
  | 58 => ⟨S8192x2, .f32⟩
  | 59 => ⟨S8192x2, .f32⟩
  | 60 => ⟨S8192x2, .f32⟩
  | 61 => ⟨S_, .f32⟩
  | 62 => ⟨S8192x2, .f32⟩
  | 63 => ⟨S8192x2, .f32⟩
  | 64 => ⟨S_, .f32⟩
  | 65 => ⟨S8192x2, .f32⟩
  | 66 => ⟨S8192x2, .f32⟩
  | 67 => ⟨S8192x2, .f32⟩
  | 68 => ⟨S8192x1, .f32⟩
  | 69 => ⟨S8192x2, .f32⟩
  | 70 => ⟨S8192x2, .f32⟩
  | 71 => ⟨S8192x2, .f32⟩
  | 72 => ⟨S_, .f32⟩
  | 73 => ⟨S8192x2, .f32⟩
  | 74 => ⟨S8192x2, .f32⟩
  | 75 => ⟨S_, .f32⟩
  | 76 => ⟨S8192x2, .f32⟩
  | 77 => ⟨S8192x2, .f32⟩
  | 78 => ⟨S8192x2, .f32⟩
  | 79 => ⟨S8192x1, .f32⟩
  | 80 => ⟨S8192x2, .f32⟩
  | 81 => ⟨S8192x2, .f32⟩
  | 82 => ⟨S8192x2, .f32⟩
  | 83 => ⟨S_, .f32⟩
  | 84 => ⟨S8192x2, .f32⟩
  | 85 => ⟨S8192x2, .f32⟩
  | 86 => ⟨S_, .f32⟩
  | 87 => ⟨S8192x2, .f32⟩
  | 88 => ⟨S8192x2, .f32⟩
  | 89 => ⟨S8192x2, .f32⟩
  | 90 => ⟨S8192x1, .f32⟩
  | 91 => ⟨S8192x2, .f32⟩
  | 92 => ⟨S8192x2, .f32⟩
  | 93 => ⟨S8192x2, .f32⟩
  | 94 => ⟨S_, .f32⟩
  | 95 => ⟨S8192x2, .f32⟩
  | 96 => ⟨S8192x2, .f32⟩
  | 97 => ⟨S_, .f32⟩
  | 98 => ⟨S8192x2, .f32⟩
  | 99 => ⟨S8192x2, .f32⟩
  | 100 => ⟨S8192x2, .f32⟩
  | 101 => ⟨S8192x1, .f32⟩
  | 102 => ⟨S8192x2, .f32⟩
  | 103 => ⟨S8192x2, .f32⟩
  | 104 => ⟨S8192x2, .f32⟩
  | 105 => ⟨S_, .f32⟩
  | 106 => ⟨S8192x2, .f32⟩
  | 107 => ⟨S8192x2, .f32⟩
  | 108 => ⟨S_, .f32⟩
  | 109 => ⟨S8192x2, .f32⟩
  | 110 => ⟨S8192x2, .f32⟩
  | 111 => ⟨S8192x2, .f32⟩
  | 112 => ⟨S8192x1, .f32⟩
  | 113 => ⟨S8192x2, .f32⟩
  | 114 => ⟨S8192x2, .f32⟩
  | 115 => ⟨S8192x2, .f32⟩
  | 116 => ⟨S_, .f32⟩
  | 117 => ⟨S8192x2, .f32⟩
  | 118 => ⟨S8192x2, .f32⟩
  | 119 => ⟨S_, .f32⟩
  | 120 => ⟨S8192x2, .f32⟩
  | 121 => ⟨S8192x2, .f32⟩
  | 122 => ⟨S8192x2, .f32⟩
  | 123 => ⟨S8192x1, .f32⟩
  | 124 => ⟨S8192x2, .f32⟩
  | 125 => ⟨S8192x2, .f32⟩
  | 126 => ⟨S8192x2, .f32⟩
  | 127 => ⟨S_, .f32⟩
  | _ => ⟨S8192x128, .f32⟩

abbrev hbmTy0_1 (i : Nat) : BufTy := match i % 128 with
  | 0 => ⟨S8192x2, .f32⟩
  | 1 => ⟨S8192x2, .f32⟩
  | 2 => ⟨S_, .f32⟩
  | 3 => ⟨S8192x2, .f32⟩
  | 4 => ⟨S8192x2, .f32⟩
  | 5 => ⟨S8192x2, .f32⟩
  | 6 => ⟨S8192x1, .f32⟩
  | 7 => ⟨S8192x2, .f32⟩
  | 8 => ⟨S8192x2, .f32⟩
  | 9 => ⟨S8192x2, .f32⟩
  | 10 => ⟨S_, .f32⟩
  | 11 => ⟨S8192x2, .f32⟩
  | 12 => ⟨S8192x2, .f32⟩
  | 13 => ⟨S_, .f32⟩
  | 14 => ⟨S8192x2, .f32⟩
  | 15 => ⟨S8192x2, .f32⟩
  | 16 => ⟨S8192x2, .f32⟩
  | 17 => ⟨S8192x1, .f32⟩
  | 18 => ⟨S8192x2, .f32⟩
  | 19 => ⟨S8192x2, .f32⟩
  | 20 => ⟨S8192x2, .f32⟩
  | 21 => ⟨S_, .f32⟩
  | 22 => ⟨S8192x2, .f32⟩
  | 23 => ⟨S8192x2, .f32⟩
  | 24 => ⟨S_, .f32⟩
  | 25 => ⟨S8192x2, .f32⟩
  | 26 => ⟨S8192x2, .f32⟩
  | 27 => ⟨S8192x2, .f32⟩
  | 28 => ⟨S_, .i32⟩
  | 29 => ⟨S512, .i32⟩
  | 30 => ⟨S512, .i1⟩
  | 31 => ⟨S_, .i32⟩
  | 32 => ⟨S512, .i32⟩
  | 33 => ⟨S512, .i32⟩
  | 34 => ⟨S512, .i32⟩
  | 35 => ⟨S_, .i32⟩
  | 36 => ⟨S512, .i32⟩
  | 37 => ⟨S512, .i32⟩
  | 38 => ⟨S512x1, .i32⟩
  | 39 => ⟨S512x1, .i32⟩
  | 40 => ⟨S512x2, .i32⟩
  | 41 => ⟨S512, .f32⟩
  | 42 => ⟨S_, .i32⟩
  | 43 => ⟨S512, .i32⟩
  | 44 => ⟨S512, .i1⟩
  | 45 => ⟨S_, .i32⟩
  | 46 => ⟨S512, .i32⟩
  | 47 => ⟨S512, .i32⟩
  | 48 => ⟨S512, .i32⟩
  | 49 => ⟨S_, .i32⟩
  | 50 => ⟨S512, .i32⟩
  | 51 => ⟨S512, .i32⟩
  | 52 => ⟨S512x1, .i32⟩
  | 53 => ⟨S512x1, .i32⟩
  | 54 => ⟨S512x2, .i32⟩
  | 55 => ⟨S512, .f32⟩
  | 56 => ⟨S_, .f32⟩
  | 57 => ⟨S512, .f32⟩
  | 58 => ⟨S512, .f32⟩
  | 59 => ⟨S512, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S512, .f32⟩
  | 67 => ⟨S512, .f32⟩
  | 68 => ⟨S512, .f32⟩
  | 69 => ⟨S_, .f32⟩
  | 70 => ⟨S_, .f32⟩
  | 71 => ⟨S_, .f32⟩
  | 72 => ⟨S_, .f32⟩
  | 73 => ⟨S_, .f32⟩
  | 74 => ⟨S_, .i1⟩
  | 75 => ⟨S_, .f32⟩
  | 76 => ⟨S_, .f32⟩
  | 77 => ⟨S_, .f32⟩
  | 78 => ⟨S8192x8192, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_7 : Ref sig .tc := ⟨.hbm, 35, rfl⟩
abbrev main_v21 : Ref sig .tc := ⟨.hbm, 36, rfl⟩
abbrev main_v22 : Ref sig .tc := ⟨.hbm, 37, rfl⟩
abbrev main_c_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_cst_18 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_19 : Ref sig .tc := ⟨.hbm, 105, rfl⟩
abbrev main_v79 : Ref sig .tc := ⟨.hbm, 106, rfl⟩
abbrev main_v80 : Ref sig .tc := ⟨.hbm, 107, rfl⟩
abbrev main_cst_20 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_21 : Ref sig .tc := ⟨.hbm, 116, rfl⟩
abbrev main_v88 : Ref sig .tc := ⟨.hbm, 117, rfl⟩
abbrev main_v89 : Ref sig .tc := ⟨.hbm, 118, rfl⟩
abbrev main_cst_22 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_23 : Ref sig .tc := ⟨.hbm, 127, rfl⟩
abbrev main_v97 : Ref sig .tc := ⟨.hbm, 128, rfl⟩
abbrev main_v98 : Ref sig .tc := ⟨.hbm, 129, rfl⟩
abbrev main_cst_24 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_25 : Ref sig .tc := ⟨.hbm, 138, rfl⟩
abbrev main_v106 : Ref sig .tc := ⟨.hbm, 139, rfl⟩
abbrev main_v107 : Ref sig .tc := ⟨.hbm, 140, rfl⟩
abbrev main_cst_26 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_27 : Ref sig .tc := ⟨.hbm, 149, rfl⟩
abbrev main_v115 : Ref sig .tc := ⟨.hbm, 150, rfl⟩
abbrev main_v116 : Ref sig .tc := ⟨.hbm, 151, rfl⟩
abbrev main_cst_28 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_c_29 : Ref sig .tc := ⟨.hbm, 156, rfl⟩
abbrev main_v120 : Ref sig .tc := ⟨.hbm, 157, rfl⟩
abbrev main_v121 : Ref sig .tc := ⟨.hbm, 158, rfl⟩
abbrev main_c_30 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_c_31 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_c_32 : Ref sig .tc := ⟨.hbm, 170, rfl⟩
abbrev main_v131 : Ref sig .tc := ⟨.hbm, 171, rfl⟩
abbrev main_v132 : Ref sig .tc := ⟨.hbm, 172, rfl⟩
abbrev main_c_33 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_c_34 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_35 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_36 : Ref sig .tc := ⟨.hbm, 188, rfl⟩
abbrev main_v145 : Ref sig .tc := ⟨.hbm, 189, rfl⟩
abbrev main_cst_37 : Ref sig .tc := ⟨.hbm, 190, rfl⟩
abbrev main_v146 : Ref sig .tc := ⟨.hbm, 191, rfl⟩
abbrev main_v147 : Ref sig .tc := ⟨.hbm, 192, rfl⟩
abbrev main_cst_38 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_39 : Ref sig .tc := ⟨.hbm, 197, rfl⟩
abbrev main_v151 : Ref sig .tc := ⟨.hbm, 198, rfl⟩
abbrev main_cst_40 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_41 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_cst_42 : Ref sig .tc := ⟨.hbm, 207, rfl⟩
abbrev main_v158 : Ref sig .tc := ⟨.hbm, 208, rfl⟩
abbrev main_cst_43 : Ref sig .tc := ⟨.hbm, 209, rfl⟩
abbrev main_v159 : Ref sig .tc := ⟨.hbm, 210, rfl⟩
abbrev main_cst_44 : Ref sig .tc := ⟨.hbm, 211, rfl⟩
abbrev main_v160 : Ref sig .tc := ⟨.hbm, 212, rfl⟩
abbrev main_v161 : Ref sig .tc := ⟨.hbm, 213, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S_S8192x2 : S_.BroadcastsInDim S8192x2 (![] : Fin 0 → Fin S8192x2.rank)
  bcast_S_S512 : S_.BroadcastsInDim S512 (![] : Fin 0 → Fin S512.rank)
  bcast_S512_S512x1_0 : S512.BroadcastsInDim S512x1 (![0] : Fin 1 → Fin S512x1.rank)
  bcast_S2_S512x2_1 : S2.BroadcastsInDim S512x2 (![1] : Fin 1 → Fin S512x2.rank)
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  concatenates_S512x1_S512x1_S512x2_d1 : Shape.Concatenates [S512x1, S512x1] S512x2 1
  reducesTo_S512_S_d0 : S512.ReducesTo [0] S_
  reducesTo_S8192x8192_S_d0_1 : S8192x8192.ReducesTo [0, 1] S_
  scatter_S8192x2_S512x1_S512x2_1_0_0_1_wf : ScatterDims.WF S8192x2 S512x1 S512x2 [1] [0] [0] 1
  dot_S8192x8192_S8192x2_S8192x2_1_0_0_1_n_n_wf : DotDims.WF S8192x8192 S8192x2 S8192x2 [1] [0] [0] [1] [] []
  gather_S8192x2_S512x2_S512_n_01_n_n_01_1_11_wf : GatherDims.WF S8192x2 S512x2 S512 [] [0, 1] [] [0, 1] [] 1 ![1, 1]

variable [Facts₀]

def scatter_S8192x2_S512x1_S512x2_1_0_0_1 : ScatterDims S8192x2 S512x1 S512x2 where
  updateWindowDims := [1]
  insertedWindowDims := [0]
  scatterDimsToOperandDims := [0]
  indexVectorDim := 1
  wf := scatter_S8192x2_S512x1_S512x2_1_0_0_1_wf
def dot_S8192x8192_S8192x2_S8192x2_1_0_0_1_n_n : DotDims S8192x8192 S8192x2 S8192x2 where
  lhsContracting := [1]
  rhsContracting := [0]
  lhsNonContracting := [0]
  rhsNonContracting := [1]
  lhsBatch := []
  rhsBatch := []
  wf := dot_S8192x8192_S8192x2_S8192x2_1_0_0_1_n_n_wf
def gather_S8192x2_S512x2_S512_n_01_n_n_01_1_11 : GatherDims S8192x2 S512x2 S512 where
  offsetDims := []
  collapsedSliceDims := [0, 1]
  operandBatchingDims := []
  startIndicesBatchingDims := []
  startIndexMap := [0, 1]
  indexVectorDim := 1
  sliceSizes := ![1, 1]
  wf := gather_S8192x2_S512x2_S512_n_01_n_n_01_1_11_wf

class Facts : Prop extends Facts₀ where

variable [Facts]
-- ==== Proof.BA0Runs.lean ====
/-
  The first region: the tile kernel that builds M * (A + I) tile by tile, and accumulates over the 16 column tiles of a
  row tile, in two scratch columns, the row sums of A + I and of M * M, which it writes out at the last column tile.
  Here: the windows' blocks, the two branch conditions in closed form over the grid (first column tile: the scratch
  columns are reset; last column tile: they are written out), where the two conditionally stored output windows are
  idle, and the region invariant with the two scratch columns named.
-/
import proofs.«111186_j27504970563868_1_alg».proof.Proof.Gen.Kernel.Launch
import proofs.«111186_j27504970563868_1_alg».proof.Proof.Gen.Kernel.Skeleton
import proofs.«111186_j27504970563868_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- The body's first conditional (the scratch columns are reset): the column tile is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The body's second conditional (the scratch columns are written out): the column tile is the last. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-! ## The staging memrefs and the scratch columns -/

abbrev VO0_2 : View sig .tc .vmem S1024x512 .f32 := (Memref.whole cc0_stg2_0 : Memref sig .tc .vmem S1024x512 .f32).view
abbrev VO0_3 : View sig .tc .vmem S1024x512 .bf16 := (Memref.whole cc0_stg3_0 : Memref sig .tc .vmem S1024x512 .bf16).view
abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The scoped buffers of the core that are neither a staging buffer of this region nor one of its two scratch columns. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The class's invariant with the two scratch columns as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 c) ∗ (∃ r, prngReg c r)) := by
  unfold Pipeline.ΦA; rw [scopedRest0_split]; simp only [scM0_0, scM0_1, owns_whole]; try rfl
-- ==== Proof.BA0RunA.lean ====
/-
  The tile kernel's body at a first column tile: the scratch columns are reset, then accumulated into; nothing is written
  out. What each store leaves is found by running the body.
-/
import proofs.«111186_j27504970563868_1_alg».proof.Proof.BA0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the two tile outputs and in the two scratch columns at a FIRST column tile, with
    the body's triple: the inputs' staging buffers at their blocks, the two column outputs (idle here) handed back
    untouched, the scratch columns at anything. -/
noncomputable def kernelRun0_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : cond0_0 i) (hc1 : ¬cond0_1 i) (x0 x1 : Vec F S1024x512 .f32) :
    Σ' (L2 : List (View.Piece (Elt F) S1024x512 .f32)) (L3 : List (View.Piece (Elt F) S1024x512 .bf16)) (LS0 : List (View.Piece (Elt F) S1024x1 .f32)),
      { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__ahat_kernel i arg2 harg2 arg3 harg3 arg4 harg4 arg5 harg5 arg6 harg6 arg7 harg7 arg8 harg8 arg9 harg9) K } := by
  refine ⟨?_, ?_, ?_, ?_, fun xi4 xi5 E K => ?run⟩
  case run =>
    simp only [cc0__ahat_kernel_eq_skeleton]; unfold cc0__ahat_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.BA0RunB.lean ====
/-
  The tile kernel's body at a column tile that is neither the first nor the last: the scratch columns, at what the
  column tile before left in them, are accumulated into; nothing is reset, nothing is written out.
-/
import proofs.«111186_j27504970563868_1_alg».proof.Proof.BA0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave at an INNER column tile, with the body's triple: the scratch columns at the
    contents `xs0`, `xs1` the tile before left, the two column outputs (idle here) handed back untouched. -/
noncomputable def kernelRun0_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬cond0_0 i) (hc1 : ¬cond0_1 i) (x0 x1 : Vec F S1024x512 .f32) (xs0 xs1 : Vec F S1024x1 .f32) :
    Σ' (L2 : List (View.Piece (Elt F) S1024x512 .f32)) (L3 : List (View.Piece (Elt F) S1024x512 .bf16)) (LS0 : List (View.Piece (Elt F) S1024x1 .f32)),
      { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xi4 ∗ owns (c : Thread nD τ) arg7 fullShare xi5
            ∗ owns (c : Thread nD τ) arg8 fullShare xs0 ∗ owns (c : Thread nD τ) arg9 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__ahat_kernel i arg2 harg2 arg3 harg3 arg4 harg4 arg5 harg5 arg6 harg6 arg7 harg7 arg8 harg8 arg9 harg9) K } := by
  refine ⟨?_, ?_, ?_, ?_, fun xi4 xi5 E K => ?run⟩
  case run =>
    simp only [cc0__ahat_kernel_eq_skeleton]; unfold cc0__ahat_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.BA0RunC.lean ====
/-
  The tile kernel's body at a last column tile: the scratch columns are accumulated into and then written out into the
  two column outputs.
-/
import proofs.«111186_j27504970563868_1_alg».proof.Proof.BA0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave at a LAST column tile, with the body's triple: the scratch columns at the
    contents `xs0`, `xs1` the tile before left, every output at anything. -/
noncomputable def kernelRun0_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬cond0_0 i) (hc1 : cond0_1 i) (x0 x1 : Vec F S1024x512 .f32) (xs0 xs1 : Vec F S1024x1 .f32) :
    Σ' (L2 : List (View.Piece (Elt F) S1024x512 .f32)) (L3 : List (View.Piece (Elt F) S1024x512 .bf16))
       (L4 : List (View.Piece (Elt F) S1024x1 .f32)) (L5 : List (View.Piece (Elt F) S1024x1 .f32)) (LS0 : List (View.Piece (Elt F) S1024x1 .f32)),
      { LS1 : List (View.Piece (Elt F) S1024x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__ahat_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__ahat_kernel_eq_skeleton]; unfold cc0__ahat_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    isplitl [HS0]; · iexists _; iexact HS0
    iexists _; iexact HS1

end Cert.Kernel.Hand

end
-- ==== Proof.BA0.lean ====
/-
  The first region as a whole: what each of the three kinds of grid point (first, inner, last column tile) leaves in the
  outputs' staging buffers and in the two scratch columns; the scratch columns' contents point by point (reset at a
  first column tile, accumulated at every tile); the region invariant that carries them; the proof data; and the body's
  obligation at every point.
-/
import proofs.«111186_j27504970563868_1_alg».proof.Proof.BA0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's run at a grid point, by the kind of the point -/

/-- At a first column tile. -/
noncomputable def runA (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t)
/-- At an inner column tile, the scratch columns at `xs`. -/
noncomputable def runB (c : Dev nD) (t : Fin cfg0.N) (h0 : ¬t.val % 16 = 0) (h1 : ¬t.val % 16 = 15) (xs : Vec F S1024x1 .f32 × Vec F S1024x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) xs.1 xs.2
/-- At a last column tile, the scratch columns at `xs`. -/
noncomputable def runC (c : Dev nD) (t : Fin cfg0.N) (h0 : ¬t.val % 16 = 0) (h1 : t.val % 16 = 15) (xs : Vec F S1024x1 .f32 × Vec F S1024x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs.1 xs.2

/-! ## Each run's pieces cover the buffer they are stored into -/

theorem coverA_2 (c : Dev nD) (t : Fin cfg0.N) (h0 h1) (y : S1024x512.Idx) : ∃ pc ∈ (runA V c t h0 h1).1, y ∈ pc.1.set :=
  View.cover_of_tiledL (runA V c t h0 h1).1 S1024x512.size (by sl_kernel_rfl) y
theorem coverA_3 (c : Dev nD) (t : Fin cfg0.N) (h0 h1) (y : S1024x512.Idx) : ∃ pc ∈ (runA V c t h0 h1).2.1, y ∈ pc.1.set :=
  View.cover_of_tiledL (runA V c t h0 h1).2.1 S1024x512.size (by sl_kernel_rfl) y
theorem coverA_s0 (c : Dev nD) (t : Fin cfg0.N) (h0 h1) (y : S1024x1.Idx) : ∃ pc ∈ (runA V c t h0 h1).2.2.1, y ∈ pc.1.set :=
  View.cover_of_tiledL (runA V c t h0 h1).2.2.1 S1024x1.size (by sl_kernel_rfl) y
theorem coverA_s1 (c : Dev nD) (t : Fin cfg0.N) (h0 h1) (y : S1024x1.Idx) : ∃ pc ∈ (runA V c t h0 h1).2.2.2.1, y ∈ pc.1.set :=
  View.cover_of_tiledL (runA V c t h0 h1).2.2.2.1 S1024x1.size (by sl_kernel_rfl) y
theorem coverB_2 (c : Dev nD) (t : Fin cfg0.N) (h0 h1 xs) (y : S1024x512.Idx) : ∃ pc ∈ (runB V c t h0 h1 xs).1, y ∈ pc.1.set :=
  View.cover_of_tiledL (runB V c t h0 h1 xs).1 S1024x512.size (by sl_kernel_rfl) y
theorem coverB_3 (c : Dev nD) (t : Fin cfg0.N) (h0 h1 xs) (y : S1024x512.Idx) : ∃ pc ∈ (runB V c t h0 h1 xs).2.1, y ∈ pc.1.set :=
  View.cover_of_tiledL (runB V c t h0 h1 xs).2.1 S1024x512.size (by sl_kernel_rfl) y
theorem coverB_s0 (c : Dev nD) (t : Fin cfg0.N) (h0 h1 xs) (y : S1024x1.Idx) : ∃ pc ∈ (runB V c t h0 h1 xs).2.2.1, y ∈ pc.1.set :=
  View.cover_of_tiledL (runB V c t h0 h1 xs).2.2.1 S1024x1.size (by sl_kernel_rfl) y
theorem coverB_s1 (c : Dev nD) (t : Fin cfg0.N) (h0 h1 xs) (y : S1024x1.Idx) : ∃ pc ∈ (runB V c t h0 h1 xs).2.2.2.1, y ∈ pc.1.set :=
  View.cover_of_tiledL (runB V c t h0 h1 xs).2.2.2.1 S1024x1.size (by sl_kernel_rfl) y
theorem coverC_2 (c : Dev nD) (t : Fin cfg0.N) (h0 h1 xs) (y : S1024x512.Idx) : ∃ pc ∈ (runC V c t h0 h1 xs).1, y ∈ pc.1.set :=
  View.cover_of_tiledL (runC V c t h0 h1 xs).1 S1024x512.size (by sl_kernel_rfl) y
theorem coverC_3 (c : Dev nD) (t : Fin cfg0.N) (h0 h1 xs) (y : S1024x512.Idx) : ∃ pc ∈ (runC V c t h0 h1 xs).2.1, y ∈ pc.1.set :=
  View.cover_of_tiledL (runC V c t h0 h1 xs).2.1 S1024x512.size (by sl_kernel_rfl) y
theorem coverC_4 (c : Dev nD) (t : Fin cfg0.N) (h0 h1 xs) (y : S1024x1.Idx) : ∃ pc ∈ (runC V c t h0 h1 xs).2.2.1, y ∈ pc.1.set :=
  View.cover_of_tiledL (runC V c t h0 h1 xs).2.2.1 S1024x1.size (by sl_kernel_rfl) y
theorem coverC_5 (c : Dev nD) (t : Fin cfg0.N) (h0 h1 xs) (y : S1024x1.Idx) : ∃ pc ∈ (runC V c t h0 h1 xs).2.2.2.1, y ∈ pc.1.set :=
  View.cover_of_tiledL (runC V c t h0 h1 xs).2.2.2.1 S1024x1.size (by sl_kernel_rfl) y
theorem coverC_s0 (c : Dev nD) (t : Fin cfg0.N) (h0 h1 xs) (y : S1024x1.Idx) : ∃ pc ∈ (runC V c t h0 h1 xs).2.2.2.2.1, y ∈ pc.1.set :=
  View.cover_of_tiledL (runC V c t h0 h1 xs).2.2.2.2.1 S1024x1.size (by sl_kernel_rfl) y
theorem coverC_s1 (c : Dev nD) (t : Fin cfg0.N) (h0 h1 xs) (y : S1024x1.Idx) : ∃ pc ∈ (runC V c t h0 h1 xs).2.2.2.2.2.1, y ∈ pc.1.set :=
  View.cover_of_tiledL (runC V c t h0 h1 xs).2.2.2.2.2.1 S1024x1.size (by sl_kernel_rfl) y

/-! ## What a point leaves: the four outputs' staging buffers and the two scratch columns -/

/-- A list of pieces read back through a whole buffer's view. -/
abbrev rb2 (L : List (View.Piece (Elt F) S1024x512 .f32)) : Vec F S1024x512 .f32 := VO0_2.read (Elt F) (VO0_2.writes (Elt F) VO0_2.junk L)
abbrev rb3 (L : List (View.Piece (Elt F) S1024x512 .bf16)) : Vec F S1024x512 .bf16 := VO0_3.read (Elt F) (VO0_3.writes (Elt F) VO0_3.junk L)
abbrev rbc (L : List (View.Piece (Elt F) S1024x1 .f32)) : Vec F S1024x1 .f32 := VO0_4.read (Elt F) (VO0_4.writes (Elt F) VO0_4.junk L)

/-- What the body leaves at point `t`, the scratch columns holding `xs` before it: the two tile outputs, the two column
    outputs (a placeholder where the point stores nothing into them: the windows are idle there), and the scratch
    columns. -/
noncomputable def leaves0 (c : Dev nD) (t : Fin cfg0.N) (xs : Vec F S1024x1 .f32 × Vec F S1024x1 .f32) :
    Vec F S1024x512 .f32 × Vec F S1024x512 .bf16 × Vec F S1024x1 .f32 × Vec F S1024x1 .f32 × Vec F S1024x1 .f32 × Vec F S1024x1 .f32 :=
  if h0 : t.val % 16 = 0 then
    if h1 : t.val % 16 = 15 then False.elim (absurd (h0.symm.trans h1) (by decide))
    else (rb2 (runA V c t h0 h1).1, rb3 (runA V c t h0 h1).2.1, rbc [], rbc [], rbc (runA V c t h0 h1).2.2.1, rbc (runA V c t h0 h1).2.2.2.1)
  else
    if h1 : t.val % 16 = 15 then
      (rb2 (runC V c t h0 h1 xs).1, rb3 (runC V c t h0 h1 xs).2.1, rbc (runC V c t h0 h1 xs).2.2.1, rbc (runC V c t h0 h1 xs).2.2.2.1,
        rbc (runC V c t h0 h1 xs).2.2.2.2.1, rbc (runC V c t h0 h1 xs).2.2.2.2.2.1)
    else (rb2 (runB V c t h0 h1 xs).1, rb3 (runB V c t h0 h1 xs).2.1, rbc [], rbc [], rbc (runB V c t h0 h1 xs).2.2.1, rbc (runB V c t h0 h1 xs).2.2.2.1)

set_option maxHeartbeats 4000000 in
theorem leaves0_A (c : Dev nD) (t : Fin cfg0.N) (xs) (h0 : t.val % 16 = 0) (h1 : ¬t.val % 16 = 15) :
    leaves0 V c t xs = (rb2 (runA V c t h0 h1).1, rb3 (runA V c t h0 h1).2.1, rbc [], rbc [], rbc (runA V c t h0 h1).2.2.1, rbc (runA V c t h0 h1).2.2.2.1) := by
  unfold leaves0; exact (dif_pos h0).trans (dif_neg h1)
set_option maxHeartbeats 4000000 in
theorem leaves0_B (c : Dev nD) (t : Fin cfg0.N) (xs) (h0 : ¬t.val % 16 = 0) (h1 : ¬t.val % 16 = 15) :
    leaves0 V c t xs = (rb2 (runB V c t h0 h1 xs).1, rb3 (runB V c t h0 h1 xs).2.1, rbc [], rbc [], rbc (runB V c t h0 h1 xs).2.2.1, rbc (runB V c t h0 h1 xs).2.2.2.1) := by
  unfold leaves0; exact (dif_neg h0).trans (dif_neg h1)
set_option maxHeartbeats 4000000 in
theorem leaves0_C (c : Dev nD) (t : Fin cfg0.N) (xs) (h0 : ¬t.val % 16 = 0) (h1 : t.val % 16 = 15) :
    leaves0 V c t xs = (rb2 (runC V c t h0 h1 xs).1, rb3 (runC V c t h0 h1 xs).2.1, rbc (runC V c t h0 h1 xs).2.2.1, rbc (runC V c t h0 h1 xs).2.2.2.1,
        rbc (runC V c t h0 h1 xs).2.2.2.2.1, rbc (runC V c t h0 h1 xs).2.2.2.2.2.1) := by
  unfold leaves0; exact (dif_neg h0).trans (dif_pos h1)

/-- THE ACCUMULATION: the two scratch columns after the body at position `n`, by recursion on the position (at a first
    column tile what was there before does not matter: the columns are reset). -/
noncomputable def scrAt0 (c : Dev nD) : (n : ℕ) → n < cfg0.N → Vec F S1024x1 .f32 × Vec F S1024x1 .f32
  | 0, hn => ((leaves0 V c ⟨0, hn⟩ (rbc [], rbc [])).2.2.2.2.1, (leaves0 V c ⟨0, hn⟩ (rbc [], rbc [])).2.2.2.2.2)
  | n + 1, hn => ((leaves0 V c ⟨n + 1, hn⟩ (scrAt0 c n (Nat.lt_of_succ_lt hn))).2.2.2.2.1, (leaves0 V c ⟨n + 1, hn⟩ (scrAt0 c n (Nat.lt_of_succ_lt hn))).2.2.2.2.2)

/-- The scratch columns as point `t` finds them. -/
noncomputable def scrBefore0 (c : Dev nD) (t : Fin cfg0.N) : Vec F S1024x1 .f32 × Vec F S1024x1 .f32 :=
  if h : t.val = 0 then (rbc [], rbc []) else scrAt0 V c (t.val - 1) (Nat.lt_of_le_of_lt (Nat.sub_le _ _) t.isLt)

theorem scrAt0_eq (c : Dev nD) (t : Fin cfg0.N) :
    scrAt0 V c t.val t.isLt = ((leaves0 V c t (scrBefore0 V c t)).2.2.2.2.1, (leaves0 V c t (scrBefore0 V c t)).2.2.2.2.2) := by
  obtain ⟨n, hn⟩ := t
  cases n with
  | zero => unfold scrBefore0; rw [dif_pos rfl]; rfl
  | succ n => unfold scrBefore0; rw [dif_neg (Nat.succ_ne_zero n)]; rfl

/-! ## The region invariant -/

/-- Before the first point the class's invariant (every scratch at anything); afterwards the scoped rest with the two
    scratch columns at what the point before left in them, and the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare (scrAt0 V c n hn).1 ∗ owns (c : Thread nD τ) scM0_1 fullShare (scrAt0 V c n hn).2) ∗ restBut0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) scM0_0 fullShare (scrAt0 V c n hn).1 ∗ owns (c : Thread nD τ) scM0_1 fullShare (scrAt0 V c n hn).2) ∗ restBut0 c) ∗ (∃ r, prngReg c r)) := rfl
theorem PhiS_pos (c : Dev nD) (n : ℕ) (h : n ≤ cfg0.N) (hz : n ≠ 0) :
    PhiS V c n h = iprop(iprop(iprop(owns (c : Thread nD τ) scM0_0 fullShare (scrAt0 V c (n - 1) (by omega)).1 ∗ owns (c : Thread nD τ) scM0_1 fullShare (scrAt0 V c (n - 1) (by omega)).2) ∗ restBut0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (leaves0 V c t (scrBefore0 V c t)).1
    | ⟨3, _⟩ => (leaves0 V c t (scrBefore0 V c t)).2.1
    | ⟨4, _⟩ => (leaves0 V c t (scrBefore0 V c t)).2.2.1
    | ⟨5, _⟩ => (leaves0 V c t (scrBefore0 V c t)).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (leaves0 V c t (scrBefore0 V c t)).1 := by dsimp only [dat0]
theorem after0_3 (c : Dev nD) (t : Fin cfg0.N) : (dat0 V c).after 3 t = (leaves0 V c t (scrBefore0 V c t)).2.1 := by dsimp only [dat0]
theorem after0_4 (c : Dev nD) (t : Fin cfg0.N) : (dat0 V c).after 4 t = (leaves0 V c t (scrBefore0 V c t)).2.2.1 := by dsimp only [dat0]
theorem after0_5 (c : Dev nD) (t : Fin cfg0.N) : (dat0 V c).after 5 t = (leaves0 V c t (scrBefore0 V c t)).2.2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem scrBefore0_pos (c : Dev nD) (t : Fin cfg0.N) (hz : t.val ≠ 0) :
    scrBefore0 V c t = scrAt0 V c (t.val - 1) (Nat.lt_of_le_of_lt (Nat.sub_le _ _) t.isLt) := by
  unfold scrBefore0; rw [dif_neg hz]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the closed forms say which kind of point it is; the invariant hands the body the scratch
    columns at what the point before left (at anything at the first point) and takes them back at this point's
    contents; a column output stays as found where the point stores nothing into it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ, scrAt0_eq V c t]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 16 = 0
  · have h1 : ¬t.val % 16 = 15 := by omega
    rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
    rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
    rw [leaves0_A V c t _ h0 h1]
    (try dsimp only)
    by_cases hz : t.val = 0
    · rw [PhiS_castSucc V c t, PhiS_zero V c _ _ hz, PhiA0_eq]
      iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2 _ _ Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexact HS0
      isplitl [HS1]; · iexact HS1
      iintro ⟨H0, H1, ⟨%e2, H2⟩, ⟨%e3, H3⟩, H4, H5, ⟨%es0, HS0⟩, ⟨%es1, HS1⟩⟩
      isplitl [HS0 HS1 Hrb Hg]
      · isplitl [HS0 HS1 Hrb]
        · isplitl [HS0 HS1]
          · isplitl [HS0]
            · unfold owns; iexists _; isplitr
              swap; · iexact HS0
              ipureintro; exact View.read_writes_of_cover _ _ _ _ _ (coverA_s0 V c t h0 h1)
            · unfold owns; iexists _; isplitr
              swap; · iexact HS1
              ipureintro; exact View.read_writes_of_cover _ _ _ _ _ (coverA_s1 V c t h0 h1)
          iexact Hrb
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverA_2 V c t h0 h1)
      isplitl [H3]
      · unfold owns; iexists _; isplitr
        swap; · iexact H3
        ipureintro; exact View.read_writes_of_cover _ _ _ _ _ (coverA_3 V c t h0 h1)
      isplitl [H4]; · iexists _; iexact H4
      iexists _; iexact H5
    · rw [PhiS_castSucc V c t, PhiS_pos V c _ _ hz]
      iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2 _ _ Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexists _; iexact HS0
      isplitl [HS1]; · iexists _; iexact HS1
      iintro ⟨H0, H1, ⟨%e2, H2⟩, ⟨%e3, H3⟩, H4, H5, ⟨%es0, HS0⟩, ⟨%es1, HS1⟩⟩
      isplitl [HS0 HS1 Hrb Hg]
      · isplitl [HS0 HS1 Hrb]
        · isplitl [HS0 HS1]
          · isplitl [HS0]
            · unfold owns; iexists _; isplitr
              swap; · iexact HS0
              ipureintro; exact View.read_writes_of_cover _ _ _ _ _ (coverA_s0 V c t h0 h1)
            · unfold owns; iexists _; isplitr
              swap; · iexact HS1
              ipureintro; exact View.read_writes_of_cover _ _ _ _ _ (coverA_s1 V c t h0 h1)
          iexact Hrb
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverA_2 V c t h0 h1)
      isplitl [H3]
      · unfold owns; iexists _; isplitr
        swap; · iexact H3
        ipureintro; exact View.read_writes_of_cover _ _ _ _ _ (coverA_3 V c t h0 h1)
      isplitl [H4]; · iexists _; iexact H4
      iexists _; iexact H5
  · have hz : t.val ≠ 0 := fun e => h0 (by rw [e])
    by_cases h1 : t.val % 16 = 15
    · rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [leaves0_C V c t _ h0 h1]
      (try dsimp only)
      rw [PhiS_castSucc V c t, PhiS_pos V c _ _ hz, ← scrBefore0_pos V c t hz]
      iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩⟩
      iapply ((runC V c t h0 h1 (scrBefore0 V c t)).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      isplitl [HS1]; · iexact HS1
      iintro ⟨H0, H1, ⟨%e2, H2⟩, ⟨%e3, H3⟩, ⟨%e4, H4⟩, ⟨%e5, H5⟩, ⟨%es0, HS0⟩, ⟨%es1, HS1⟩⟩
      isplitl [HS0 HS1 Hrb Hg]
      · isplitl [HS0 HS1 Hrb]
        · isplitl [HS0 HS1]
          · isplitl [HS0]
            · unfold owns; iexists _; isplitr
              swap; · iexact HS0
              ipureintro; exact View.read_writes_of_cover _ _ _ _ _ (coverC_s0 V c t h0 h1 _)
            · unfold owns; iexists _; isplitr
              swap; · iexact HS1
              ipureintro; exact View.read_writes_of_cover _ _ _ _ _ (coverC_s1 V c t h0 h1 _)
          iexact Hrb
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_2 V c t h0 h1 _)
      isplitl [H3]
      · unfold owns; iexists _; isplitr
        swap; · iexact H3
        ipureintro; exact View.read_writes_of_cover _ _ _ _ _ (coverC_3 V c t h0 h1 _)
      isplitl [H4]
      · unfold owns; iexists _; isplitr
        swap; · iexact H4
        ipureintro; exact View.read_writes_of_cover _ _ _ _ _ (coverC_4 V c t h0 h1 _)
      unfold owns; iexists _; isplitr
      swap; · iexact H5
      ipureintro; exact View.read_writes_of_cover _ _ _ _ _ (coverC_5 V c t h0 h1 _)
    · rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [leaves0_B V c t _ h0 h1]
      (try dsimp only)
      rw [PhiS_castSucc V c t, PhiS_pos V c _ _ hz, ← scrBefore0_pos V c t hz]
      iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩⟩
      iapply ((runB V c t h0 h1 (scrBefore0 V c t)).2.2.2.2 _ _ Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexact HS0
      isplitl [HS1]; · iexact HS1
      iintro ⟨H0, H1, ⟨%e2, H2⟩, ⟨%e3, H3⟩, H4, H5, ⟨%es0, HS0⟩, ⟨%es1, HS1⟩⟩
      isplitl [HS0 HS1 Hrb Hg]
      · isplitl [HS0 HS1 Hrb]
        · isplitl [HS0 HS1]
          · isplitl [HS0]
            · unfold owns; iexists _; isplitr
              swap; · iexact HS0
              ipureintro; exact View.read_writes_of_cover _ _ _ _ _ (coverB_s0 V c t h0 h1 _)
            · unfold owns; iexists _; isplitr
              swap; · iexact HS1
              ipureintro; exact View.read_writes_of_cover _ _ _ _ _ (coverB_s1 V c t h0 h1 _)
          iexact Hrb
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverB_2 V c t h0 h1 _)
      isplitl [H3]
      · unfold owns; iexists _; isplitr
        swap; · iexact H3
        ipureintro; exact View.read_writes_of_cover _ _ _ _ _ (coverB_3 V c t h0 h1 _)
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

/-- After the last point the invariant gives the class's back: the scratch columns' named contents are forgotten. -/
theorem hout0 (c : Dev nD) : (dat0 V c).Φ (Fin.last cfg0.N) ⊢ (Pipeline.ΦA spec0 c : sProp 𝕄) := by
  have hN : cfg0.N = 128 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨⟨⟨HS0, HS1⟩, Hrb⟩, Hg⟩
  isplitl [HS0 HS1 Hrb]
  · isplitl [HS0 HS1]
    · isplitl [HS0]
      · iexists _; iexact HS0
      · iexists _; iexact HS1
    iexact Hrb
  iexact Hg

end Cert.Kernel.Hand

end
-- ==== Proof.BProp1.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.Kernel.Launch
import proofs.«111186_j27504970563868_1_alg».proof.Proof.Gen.Kernel.Skeleton
import proofs.«111186_j27504970563868_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_A : Rect S1024x8192 := Rect.unit (s := S1024x8192) ![0, 0] S1024x8192.size inb_S1024x8192_S1024x8192_0_0
abbrev r1_E : Rect S8192x2 := Rect.unit (s := S8192x2) ![0, 0] S8192x2.size inb_S8192x2_S8192x2_0_0
abbrev r1_d : Rect S1024x1 := Rect.unit (s := S1024x1) ![0, 0] S1024x1.size inb_S1024x1_S1024x1_0_0
abbrev r1_o : Rect S1024x2 := Rect.unit (s := S1024x2) ![0, 0] S1024x2.size inb_S1024x2_S1024x2_0_0

/-- The output window's staging buffer after the body, from the input windows' blocks: its one store read back. -/
def out1_4 (x0 : Vec F S1024x8192 .bf16) (x1 : Vec F S8192x2 .f32) (x2 : Vec F S1024x1 .f32) (x3 : Vec F S1024x2 .f32) : Vec F S1024x2 .f32 :=
  View.canon [⟨r1_o, k1_pay1 (View.ld x1 r1_E) (View.ld x0 r1_A) (View.ld x2 r1_d) (View.ld x3 r1_o)⟩]

/-- The store covers the buffer. -/
theorem cover1_4 (p0 : Vec F S1024x2 .f32) (y : S1024x2.Idx) :
    ∃ pc ∈ ([⟨r1_o, p0⟩] : List (View.Piece (Elt F) S1024x2 .f32)), y ∈ pc.1.set :=
  View.cover_of_tiled [⟨r1_o, p0⟩] S1024x2.size (by rfl) y

set_option maxHeartbeats 2000000 in
/-- The body on whole staging memrefs, the inputs' at contents `xW` and the output's at anything, runs to the
    continuation holding the inputs' as they were and the output's at `out1_4` of them. -/
theorem sound_kernel1 (c : Dev nD) (E : Set ℕ) (i : grid1.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__prop_kernel i arg1 harg1 arg2 harg2 arg3 harg3 arg4 harg4 arg5 harg5) K := by
  simp only [cc1__prop_kernel_eq_skeleton]; unfold cc1__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of the region, at the contents `V` it is entered from -/

/-- The arrays as the region finds them; after the body each input's buffer at its block and the output's at
    `out1_4` of the input blocks; the invariant the scoped rest and the generator register, untouched; nothing owed.
    The posterior array is read through windows 1 and 3: each holds one half of the full share of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BPropEnds1.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.BProp1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr1_0 : Pipeline.arrRef spec1 0 = main_v0_1 := rfl
theorem arr1_1 : Pipeline.arrRef spec1 1 = main_v21 := rfl
theorem arr1_2 : Pipeline.arrRef spec1 2 = main_v4 := rfl
theorem arr1_3 : Pipeline.arrRef spec1 3 = main_v21 := rfl
theorem arr1_4 : Pipeline.arrRef spec1 4 = main_v22 := rfl

/-- The distinct buffers behind the five windows' arrays: four. -/
theorem image_arr1 : (Finset.univ.image (Pipeline.arrRef spec1) : Finset (Ref sig .tc))
    = insert main_v0_1 (insert main_v21 (insert main_v4 {main_v22})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem1_a : (main_v0_1 : Ref sig .tc) ∉ insert main_v21 (insert main_v4 ({main_v22} : Finset (Ref sig .tc))) := by
  simp only [Finset.mem_insert, Finset.mem_singleton, not_or]; exact ⟨by decide, by decide, by decide⟩
theorem notMem1_b : (main_v21 : Ref sig .tc) ∉ insert main_v4 ({main_v22} : Finset (Ref sig .tc)) := by
  simp only [Finset.mem_insert, Finset.mem_singleton, not_or]; exact ⟨by decide, by decide⟩
theorem notMem1_c : (main_v4 : Ref sig .tc) ∉ ({main_v22} : Finset (Ref sig .tc)) := by
  simp only [Finset.mem_singleton]; decide

/-- The distinct buffers, one by one. -/
theorem arrBufs_eq1 (c : Dev nD) (W : (b : Ref sig .tc) → Buf (Elt F) ((c : Thread nD τ).loc b)) :
    (Pipeline.arrBufs spec1 c W : sProp 𝕄)
      = iprop((((c : Thread nD τ).loc main_v0_1) ↦{fullShare} W main_v0_1) ∗ (((c : Thread nD τ).loc main_v21) ↦{fullShare} W main_v21)
          ∗ (((c : Thread nD τ).loc main_v4) ↦{fullShare} W main_v4) ∗ (((c : Thread nD τ).loc main_v22) ↦{fullShare} W main_v22)) := by
  unfold Pipeline.arrBufs
  rw [image_arr1, bigSep_insert notMem1_a, bigSep_insert notMem1_b, bigSep_insert notMem1_c, bigSep_singleton]
  rfl

/-- Window 0's array at contents `W` of its buffer, at the window's share. -/
theorem arrW1_0 (c : Dev nD) (W : (b : Ref sig .tc) → Buf (Elt F) ((c : Thread nD τ).loc b)) :
    (((cfg1.win 0).arr.view.loc (c : Thread nD τ)) ↦[(cfg1.win 0).arr.view.set]{(dat1 V c).share 0} W (Pipeline.arrRef spec1 0) : sProp 𝕄)
      = (((c : Thread nD τ).loc main_v0_1) ↦{fullShare} W main_v0_1) := by
  rw [(arr_whole1 0).set_eq_univ]; rfl

/-- Window 1's array at contents `W` of its buffer, at the window's share. -/
theorem arrW1_1 (c : Dev nD) (W : (b : Ref sig .tc) → Buf (Elt F) ((c : Thread nD τ).loc b)) :
    (((cfg1.win 1).arr.view.loc (c : Thread nD τ)) ↦[(cfg1.win 1).arr.view.set]{(dat1 V c).share 1} W (Pipeline.arrRef spec1 1) : sProp 𝕄)
      = (((c : Thread nD τ).loc main_v21) ↦{fullShare.left} W main_v21) := by
  rw [(arr_whole1 1).set_eq_univ]; rfl

/-- Window 2's array at contents `W` of its buffer, at the window's share. -/
theorem arrW1_2 (c : Dev nD) (W : (b : Ref sig .tc) → Buf (Elt F) ((c : Thread nD τ).loc b)) :
    (((cfg1.win 2).arr.view.loc (c : Thread nD τ)) ↦[(cfg1.win 2).arr.view.set]{(dat1 V c).share 2} W (Pipeline.arrRef spec1 2) : sProp 𝕄)
      = (((c : Thread nD τ).loc main_v4) ↦{fullShare} W main_v4) := by
  rw [(arr_whole1 2).set_eq_univ]; rfl

/-- Window 3's array at contents `W` of its buffer, at the window's share. -/
theorem arrW1_3 (c : Dev nD) (W : (b : Ref sig .tc) → Buf (Elt F) ((c : Thread nD τ).loc b)) :
    (((cfg1.win 3).arr.view.loc (c : Thread nD τ)) ↦[(cfg1.win 3).arr.view.set]{(dat1 V c).share 3} W (Pipeline.arrRef spec1 3) : sProp 𝕄)
      = (((c : Thread nD τ).loc main_v21) ↦{fullShare.right} W main_v21) := by
  rw [(arr_whole1 3).set_eq_univ]; rfl

/-- Window 4's array at contents `W` of its buffer, at the window's share. -/
theorem arrW1_4 (c : Dev nD) (W : (b : Ref sig .tc) → Buf (Elt F) ((c : Thread nD τ).loc b)) :
    (((cfg1.win 4).arr.view.loc (c : Thread nD τ)) ↦[(cfg1.win 4).arr.view.set]{(dat1 V c).share 4} W (Pipeline.arrRef spec1 4) : sProp 𝕄)
      = (((c : Thread nD τ).loc main_v22) ↦{fullShare} W main_v22) := by
  rw [(arr_whole1 4).set_eq_univ]; rfl

/-- The windows' arrays at contents `W` of the buffers behind them, window by window. -/
theorem arrays_eq1 (c : Dev nD) (W : (b : Ref sig .tc) → Buf (Elt F) ((c : Thread nD τ).loc b)) :
    ((dat1 V c).arrays (fun w => W (Pipeline.arrRef spec1 w)) : sProp 𝕄)
      = iprop((((c : Thread nD τ).loc main_v0_1) ↦{fullShare} W main_v0_1) ∗ (((c : Thread nD τ).loc main_v21) ↦{fullShare.left} W main_v21)
          ∗ (((c : Thread nD τ).loc main_v4) ↦{fullShare} W main_v4) ∗ (((c : Thread nD τ).loc main_v21) ↦{fullShare.right} W main_v21)
          ∗ (((c : Thread nD τ).loc main_v22) ↦{fullShare} W main_v22)) := by
  unfold Dat.arrays
  rw [bigSep_W1]
  exact congrArg₂ BI.sep (arrW1_0 V c W) (congrArg₂ BI.sep (arrW1_1 V c W) (congrArg₂ BI.sep (arrW1_2 V c W) (congrArg₂ BI.sep (arrW1_3 V c W) (arrW1_4 V c W))))

/-- The posterior's buffer whole is its two halves. -/
theorem halves1 (c : Dev nD) (W : (b : Ref sig .tc) → Buf (Elt F) ((c : Thread nD τ).loc b)) :
    ((((c : Thread nD τ).loc main_v21) ↦{fullShare} W main_v21) : sProp 𝕄)
      ⊣⊢ iprop((((c : Thread nD τ).loc main_v21) ↦{fullShare.left} W main_v21) ∗ (((c : Thread nD τ).loc main_v21) ↦{fullShare.right} W main_v21)) :=
  pointsTo_share (PosShare.mem_left_op_right fullShare)

/-- The buffers behind the arrays, each whole at the full share, dealt among the windows. -/
theorem arrays_of_bufs1 (c : Dev nD) (W : (b : Ref sig .tc) → Buf (Elt F) ((c : Thread nD τ).loc b)) :
    (Pipeline.arrBufs spec1 c W : sProp 𝕄) ⊢ (dat1 V c).arrays (fun w => W (Pipeline.arrRef spec1 w)) := by
  rw [arrBufs_eq1, arrays_eq1 V c W]
  iintro ⟨H0, H1, H2, H4⟩
  ihave H13 := (halves1 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays1 (c : Dev nD) (W : (b : Ref sig .tc) → Buf (Elt F) ((c : Thread nD τ).loc b)) :
    ((dat1 V c).arrays (fun w => W (Pipeline.arrRef spec1 w)) : sProp 𝕄) ⊢ Pipeline.arrBufs spec1 c W := by
  rw [arrBufs_eq1, arrays_eq1 V c W]
  iintro ⟨H0, H1, H2, H3, H4⟩
  ihave H13 := (halves1 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  exact sep_mono (arrays_of_bufs1 V c (V c)) .rfl

/-- What the region's arrays hold after the last point, array by array: an input as the region found it. -/
theorem arrAtN1 (c : Dev nD) (W' : (b : Ref sig .tc) → Buf (Elt F) ((c : Thread nD τ).loc b))
    (hnew : W' main_v22 = (dat1 V c).arrAt 4 cfg1.N) (hrest : ∀ b : Ref sig .tc, b ≠ main_v22 → W' b = V c b) :
    ((dat1 V c).arrAt · cfg1.N) = fun w => W' (Pipeline.arrRef spec1 w) := by
  funext w
  fin_cases w
  · exact ((dat1 V c).arrAt_in 0 rfl _).trans ((A_eq1 V c 0).trans (hrest _ (by decide)).symm)
  · exact ((dat1 V c).arrAt_in 1 rfl _).trans ((A_eq1 V c 1).trans (hrest _ (by decide)).symm)
  · exact ((dat1 V c).arrAt_in 2 rfl _).trans ((A_eq1 V c 2).trans (hrest _ (by decide)).symm)
  · exact ((dat1 V c).arrAt_in 3 rfl _).trans ((A_eq1 V c 3).trans (hrest _ (by decide)).symm)
  · exact hnew.symm

/-- EXIT: the windows' arrays at what the write-backs left and the rest make the unscoped buffers at contents `W'` that
    hold the new posterior at what the region left and every other buffer as the region found it. -/
theorem exit1 (c : Dev nD) (W' : (b : Ref sig .tc) → Buf (Elt F) ((c : Thread nD τ).loc b))
    (hnew : W' main_v22 = (dat1 V c).arrAt 4 cfg1.N) (hrest : ∀ b : Ref sig .tc, b ≠ main_v22 → W' b = V c b) :
    iprop((dat1 V c).arrays ((dat1 V c).arrAt · cfg1.N) ∗ Pipeline.unscopedRest spec1 c (V c)) ⊢ (unscopedBufs c W' : sProp 𝕄) := by
  rw [Pipeline.unscopedBufs_split₀ cfgs 1 winFacts₀1.arr_unscoped c W', arrAtN1 V c W' hnew hrest]
  refine sep_mono (bufs_of_arrays1 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.Kernel.Hand

end
-- ==== Proof.BProp2.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.Kernel.Launch
import proofs.«111186_j27504970563868_1_alg».proof.Proof.Gen.Kernel.Skeleton
import proofs.«111186_j27504970563868_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_A : Rect S1024x8192 := Rect.unit (s := S1024x8192) ![0, 0] S1024x8192.size inb_S1024x8192_S1024x8192_0_0
abbrev r2_E : Rect S8192x2 := Rect.unit (s := S8192x2) ![0, 0] S8192x2.size inb_S8192x2_S8192x2_0_0
abbrev r2_d : Rect S1024x1 := Rect.unit (s := S1024x1) ![0, 0] S1024x1.size inb_S1024x1_S1024x1_0_0
abbrev r2_o : Rect S1024x2 := Rect.unit (s := S1024x2) ![0, 0] S1024x2.size inb_S1024x2_S1024x2_0_0

/-- The output window's staging buffer after the body, from the input windows' blocks: its one store read back. -/
def out2_4 (x0 : Vec F S1024x8192 .bf16) (x1 : Vec F S8192x2 .f32) (x2 : Vec F S1024x1 .f32) (x3 : Vec F S1024x2 .f32) : Vec F S1024x2 .f32 :=
  View.canon [⟨r2_o, k2_pay1 (View.ld x1 r2_E) (View.ld x0 r2_A) (View.ld x2 r2_d) (View.ld x3 r2_o)⟩]

/-- The store covers the buffer. -/
theorem cover2_4 (p0 : Vec F S1024x2 .f32) (y : S1024x2.Idx) :
    ∃ pc ∈ ([⟨r2_o, p0⟩] : List (View.Piece (Elt F) S1024x2 .f32)), y ∈ pc.1.set :=
  View.cover_of_tiled [⟨r2_o, p0⟩] S1024x2.size (by rfl) y

set_option maxHeartbeats 2000000 in
/-- The body on whole staging memrefs, the inputs' at contents `xW` and the output's at anything, runs to the
    continuation holding the inputs' as they were and the output's at `out2_4` of them. -/
theorem sound_kernel2 (c : Dev nD) (E : Set ℕ) (i : grid2.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__prop_kernel i arg1 harg1 arg2 harg2 arg3 harg3 arg4 harg4 arg5 harg5) K := by
  simp only [cc2__prop_kernel_eq_skeleton]; unfold cc2__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The proof data of the region, at the contents `V` it is entered from -/

/-- The arrays as the region finds them; after the body each input's buffer at its block and the output's at
    `out2_4` of the input blocks; the invariant the scoped rest and the generator register, untouched; nothing owed.
    The posterior array is read through windows 1 and 3: each holds one half of the full share of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BPropEnds2.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.BProp2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr2_0 : Pipeline.arrRef spec2 0 = main_v0_1 := rfl
theorem arr2_1 : Pipeline.arrRef spec2 1 = main_v22 := rfl
theorem arr2_2 : Pipeline.arrRef spec2 2 = main_v4 := rfl
theorem arr2_3 : Pipeline.arrRef spec2 3 = main_v22 := rfl
theorem arr2_4 : Pipeline.arrRef spec2 4 = main_v23 := rfl

/-- The distinct buffers behind the five windows' arrays: four. -/
theorem image_arr2 : (Finset.univ.image (Pipeline.arrRef spec2) : Finset (Ref sig .tc))
    = insert main_v0_1 (insert main_v22 (insert main_v4 {main_v23})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem2_a : (main_v0_1 : Ref sig .tc) ∉ insert main_v22 (insert main_v4 ({main_v23} : Finset (Ref sig .tc))) := by
  simp only [Finset.mem_insert, Finset.mem_singleton, not_or]; exact ⟨by decide, by decide, by decide⟩
theorem notMem2_b : (main_v22 : Ref sig .tc) ∉ insert main_v4 ({main_v23} : Finset (Ref sig .tc)) := by
  simp only [Finset.mem_insert, Finset.mem_singleton, not_or]; exact ⟨by decide, by decide⟩
theorem notMem2_c : (main_v4 : Ref sig .tc) ∉ ({main_v23} : Finset (Ref sig .tc)) := by
  simp only [Finset.mem_singleton]; decide

/-- The distinct buffers, one by one. -/
theorem arrBufs_eq2 (c : Dev nD) (W : (b : Ref sig .tc) → Buf (Elt F) ((c : Thread nD τ).loc b)) :
    (Pipeline.arrBufs spec2 c W : sProp 𝕄)
      = iprop((((c : Thread nD τ).loc main_v0_1) ↦{fullShare} W main_v0_1) ∗ (((c : Thread nD τ).loc main_v22) ↦{fullShare} W main_v22)
          ∗ (((c : Thread nD τ).loc main_v4) ↦{fullShare} W main_v4) ∗ (((c : Thread nD τ).loc main_v23) ↦{fullShare} W main_v23)) := by
  unfold Pipeline.arrBufs
  rw [image_arr2, bigSep_insert notMem2_a, bigSep_insert notMem2_b, bigSep_insert notMem2_c, bigSep_singleton]
  rfl

/-- Window 0's array at contents `W` of its buffer, at the window's share. -/
theorem arrW2_0 (c : Dev nD) (W : (b : Ref sig .tc) → Buf (Elt F) ((c : Thread nD τ).loc b)) :
    (((cfg2.win 0).arr.view.loc (c : Thread nD τ)) ↦[(cfg2.win 0).arr.view.set]{(dat2 V c).share 0} W (Pipeline.arrRef spec2 0) : sProp 𝕄)
      = (((c : Thread nD τ).loc main_v0_1) ↦{fullShare} W main_v0_1) := by
  rw [(arr_whole2 0).set_eq_univ]; rfl

/-- Window 1's array at contents `W` of its buffer, at the window's share. -/
theorem arrW2_1 (c : Dev nD) (W : (b : Ref sig .tc) → Buf (Elt F) ((c : Thread nD τ).loc b)) :
    (((cfg2.win 1).arr.view.loc (c : Thread nD τ)) ↦[(cfg2.win 1).arr.view.set]{(dat2 V c).share 1} W (Pipeline.arrRef spec2 1) : sProp 𝕄)
      = (((c : Thread nD τ).loc main_v22) ↦{fullShare.left} W main_v22) := by
  rw [(arr_whole2 1).set_eq_univ]; rfl

/-- Window 2's array at contents `W` of its buffer, at the window's share. -/
theorem arrW2_2 (c : Dev nD) (W : (b : Ref sig .tc) → Buf (Elt F) ((c : Thread nD τ).loc b)) :
    (((cfg2.win 2).arr.view.loc (c : Thread nD τ)) ↦[(cfg2.win 2).arr.view.set]{(dat2 V c).share 2} W (Pipeline.arrRef spec2 2) : sProp 𝕄)
      = (((c : Thread nD τ).loc main_v4) ↦{fullShare} W main_v4) := by
  rw [(arr_whole2 2).set_eq_univ]; rfl

/-- Window 3's array at contents `W` of its buffer, at the window's share. -/
theorem arrW2_3 (c : Dev nD) (W : (b : Ref sig .tc) → Buf (Elt F) ((c : Thread nD τ).loc b)) :
    (((cfg2.win 3).arr.view.loc (c : Thread nD τ)) ↦[(cfg2.win 3).arr.view.set]{(dat2 V c).share 3} W (Pipeline.arrRef spec2 3) : sProp 𝕄)
      = (((c : Thread nD τ).loc main_v22) ↦{fullShare.right} W main_v22) := by
  rw [(arr_whole2 3).set_eq_univ]; rfl

/-- Window 4's array at contents `W` of its buffer, at the window's share. -/
theorem arrW2_4 (c : Dev nD) (W : (b : Ref sig .tc) → Buf (Elt F) ((c : Thread nD τ).loc b)) :
    (((cfg2.win 4).arr.view.loc (c : Thread nD τ)) ↦[(cfg2.win 4).arr.view.set]{(dat2 V c).share 4} W (Pipeline.arrRef spec2 4) : sProp 𝕄)
      = (((c : Thread nD τ).loc main_v23) ↦{fullShare} W main_v23) := by
  rw [(arr_whole2 4).set_eq_univ]; rfl

/-- The windows' arrays at contents `W` of the buffers behind them, window by window. -/
theorem arrays_eq2 (c : Dev nD) (W : (b : Ref sig .tc) → Buf (Elt F) ((c : Thread nD τ).loc b)) :
    ((dat2 V c).arrays (fun w => W (Pipeline.arrRef spec2 w)) : sProp 𝕄)
      = iprop((((c : Thread nD τ).loc main_v0_1) ↦{fullShare} W main_v0_1) ∗ (((c : Thread nD τ).loc main_v22) ↦{fullShare.left} W main_v22)
          ∗ (((c : Thread nD τ).loc main_v4) ↦{fullShare} W main_v4) ∗ (((c : Thread nD τ).loc main_v22) ↦{fullShare.right} W main_v22)
          ∗ (((c : Thread nD τ).loc main_v23) ↦{fullShare} W main_v23)) := by
  unfold Dat.arrays
  rw [bigSep_W2]
  exact congrArg₂ BI.sep (arrW2_0 V c W) (congrArg₂ BI.sep (arrW2_1 V c W) (congrArg₂ BI.sep (arrW2_2 V c W) (congrArg₂ BI.sep (arrW2_3 V c W) (arrW2_4 V c W))))

/-- The posterior's buffer whole is its two halves. -/
theorem halves2 (c : Dev nD) (W : (b : Ref sig .tc) → Buf (Elt F) ((c : Thread nD τ).loc b)) :
    ((((c : Thread nD τ).loc main_v22) ↦{fullShare} W main_v22) : sProp 𝕄)
      ⊣⊢ iprop((((c : Thread nD τ).loc main_v22) ↦{fullShare.left} W main_v22) ∗ (((c : Thread nD τ).loc main_v22) ↦{fullShare.right} W main_v22)) :=
  pointsTo_share (PosShare.mem_left_op_right fullShare)

/-- The buffers behind the arrays, each whole at the full share, dealt among the windows. -/
theorem arrays_of_bufs2 (c : Dev nD) (W : (b : Ref sig .tc) → Buf (Elt F) ((c : Thread nD τ).loc b)) :
    (Pipeline.arrBufs spec2 c W : sProp 𝕄) ⊢ (dat2 V c).arrays (fun w => W (Pipeline.arrRef spec2 w)) := by
  rw [arrBufs_eq2, arrays_eq2 V c W]
  iintro ⟨H0, H1, H2, H4⟩
  ihave H13 := (halves2 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays2 (c : Dev nD) (W : (b : Ref sig .tc) → Buf (Elt F) ((c : Thread nD τ).loc b)) :
    ((dat2 V c).arrays (fun w => W (Pipeline.arrRef spec2 w)) : sProp 𝕄) ⊢ Pipeline.arrBufs spec2 c W := by
  rw [arrBufs_eq2, arrays_eq2 V c W]
  iintro ⟨H0, H1, H2, H3, H4⟩
  ihave H13 := (halves2 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry2 (c : Dev nD) :
    (unscopedBufs c (V c) : sProp 𝕄) ⊢ iprop((dat2 V c).arrays ((dat2 V c).arrAt · 0) ∗ Pipeline.unscopedRest spec2 c (V c)) := by
  rw [Pipeline.unscopedBufs_split₀ cfgs 2 winFacts₀2.arr_unscoped c (V c)]
  exact sep_mono (arrays_of_bufs2 V c (V c)) .rfl

/-- What the region's arrays hold after the last point, array by array: an input as the region found it. -/
theorem arrAtN2 (c : Dev nD) (W' : (b : Ref sig .tc) → Buf (Elt F) ((c : Thread nD τ).loc b))
    (hnew : W' main_v23 = (dat2 V c).arrAt 4 cfg2.N) (hrest : ∀ b : Ref sig .tc, b ≠ main_v23 → W' b = V c b) :
    ((dat2 V c).arrAt · cfg2.N) = fun w => W' (Pipeline.arrRef spec2 w) := by
  funext w
  fin_cases w
  · exact ((dat2 V c).arrAt_in 0 rfl _).trans ((A_eq2 V c 0).trans (hrest _ (by decide)).symm)
  · exact ((dat2 V c).arrAt_in 1 rfl _).trans ((A_eq2 V c 1).trans (hrest _ (by decide)).symm)
  · exact ((dat2 V c).arrAt_in 2 rfl _).trans ((A_eq2 V c 2).trans (hrest _ (by decide)).symm)
  · exact ((dat2 V c).arrAt_in 3 rfl _).trans ((A_eq2 V c 3).trans (hrest _ (by decide)).symm)
  · exact hnew.symm

/-- EXIT: the windows' arrays at what the write-backs left and the rest make the unscoped buffers at contents `W'` that
    hold the new posterior at what the region left and every other buffer as the region found it. -/
theorem exit2 (c : Dev nD) (W' : (b : Ref sig .tc) → Buf (Elt F) ((c : Thread nD τ).loc b))
    (hnew : W' main_v23 = (dat2 V c).arrAt 4 cfg2.N) (hrest : ∀ b : Ref sig .tc, b ≠ main_v23 → W' b = V c b) :
    iprop((dat2 V c).arrays ((dat2 V c).arrAt · cfg2.N) ∗ Pipeline.unscopedRest spec2 c (V c)) ⊢ (unscopedBufs c W' : sProp 𝕄) := by
  rw [Pipeline.unscopedBufs_split₀ cfgs 2 winFacts₀2.arr_unscoped c W', arrAtN2 V c W' hnew hrest]
  refine sep_mono (bufs_of_arrays2 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.Kernel.Hand

end
-- ==== Proof.BProp3.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.Kernel.Launch
import proofs.«111186_j27504970563868_1_alg».proof.Proof.Gen.Kernel.Skeleton
import proofs.«111186_j27504970563868_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_A : Rect S1024x8192 := Rect.unit (s := S1024x8192) ![0, 0] S1024x8192.size inb_S1024x8192_S1024x8192_0_0
abbrev r3_E : Rect S8192x2 := Rect.unit (s := S8192x2) ![0, 0] S8192x2.size inb_S8192x2_S8192x2_0_0
abbrev r3_d : Rect S1024x1 := Rect.unit (s := S1024x1) ![0, 0] S1024x1.size inb_S1024x1_S1024x1_0_0
abbrev r3_o : Rect S1024x2 := Rect.unit (s := S1024x2) ![0, 0] S1024x2.size inb_S1024x2_S1024x2_0_0

/-- The output window's staging buffer after the body, from the input windows' blocks: its one store read back. -/
def out3_4 (x0 : Vec F S1024x8192 .bf16) (x1 : Vec F S8192x2 .f32) (x2 : Vec F S1024x1 .f32) (x3 : Vec F S1024x2 .f32) : Vec F S1024x2 .f32 :=
  View.canon [⟨r3_o, k3_pay1 (View.ld x1 r3_E) (View.ld x0 r3_A) (View.ld x2 r3_d) (View.ld x3 r3_o)⟩]

/-- The store covers the buffer. -/
theorem cover3_4 (p0 : Vec F S1024x2 .f32) (y : S1024x2.Idx) :
    ∃ pc ∈ ([⟨r3_o, p0⟩] : List (View.Piece (Elt F) S1024x2 .f32)), y ∈ pc.1.set :=
  View.cover_of_tiled [⟨r3_o, p0⟩] S1024x2.size (by rfl) y

set_option maxHeartbeats 2000000 in
/-- The body on whole staging memrefs, the inputs' at contents `xW` and the output's at anything, runs to the
    continuation holding the inputs' as they were and the output's at `out3_4` of them. -/
theorem sound_kernel3 (c : Dev nD) (E : Set ℕ) (i : grid3.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__prop_kernel i arg1 harg1 arg2 harg2 arg3 harg3 arg4 harg4 arg5 harg5) K := by
  simp only [cc3__prop_kernel_eq_skeleton]; unfold cc3__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The proof data of the region, at the contents `V` it is entered from -/

/-- The arrays as the region finds them; after the body each input's buffer at its block and the output's at
    `out3_4` of the input blocks; the invariant the scoped rest and the generator register, untouched; nothing owed.
    The posterior array is read through windows 1 and 3: each holds one half of the full share of it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BPropEnds3.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.BProp3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr3_0 : Pipeline.arrRef spec3 0 = main_v0_1 := rfl
theorem arr3_1 : Pipeline.arrRef spec3 1 = main_v23 := rfl
theorem arr3_2 : Pipeline.arrRef spec3 2 = main_v4 := rfl
theorem arr3_3 : Pipeline.arrRef spec3 3 = main_v23 := rfl
theorem arr3_4 : Pipeline.arrRef spec3 4 = main_v24 := rfl

/-- The distinct buffers behind the five windows' arrays: four. -/
theorem image_arr3 : (Finset.univ.image (Pipeline.arrRef spec3) : Finset (Ref sig .tc))
    = insert main_v0_1 (insert main_v23 (insert main_v4 {main_v24})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem3_a : (main_v0_1 : Ref sig .tc) ∉ insert main_v23 (insert main_v4 ({main_v24} : Finset (Ref sig .tc))) := by
  simp only [Finset.mem_insert, Finset.mem_singleton, not_or]; exact ⟨by decide, by decide, by decide⟩
theorem notMem3_b : (main_v23 : Ref sig .tc) ∉ insert main_v4 ({main_v24} : Finset (Ref sig .tc)) := by
  simp only [Finset.mem_insert, Finset.mem_singleton, not_or]; exact ⟨by decide, by decide⟩
theorem notMem3_c : (main_v4 : Ref sig .tc) ∉ ({main_v24} : Finset (Ref sig .tc)) := by
  simp only [Finset.mem_singleton]; decide

/-- The distinct buffers, one by one. -/
theorem arrBufs_eq3 (c : Dev nD) (W : (b : Ref sig .tc) → Buf (Elt F) ((c : Thread nD τ).loc b)) :
    (Pipeline.arrBufs spec3 c W : sProp 𝕄)
      = iprop((((c : Thread nD τ).loc main_v0_1) ↦{fullShare} W main_v0_1) ∗ (((c : Thread nD τ).loc main_v23) ↦{fullShare} W main_v23)
          ∗ (((c : Thread nD τ).loc main_v4) ↦{fullShare} W main_v4) ∗ (((c : Thread nD τ).loc main_v24) ↦{fullShare} W main_v24)) := by
  unfold Pipeline.arrBufs
  rw [image_arr3, bigSep_insert notMem3_a, bigSep_insert notMem3_b, bigSep_insert notMem3_c, bigSep_singleton]
  rfl

/-- Window 0's array at contents `W` of its buffer, at the window's share. -/
theorem arrW3_0 (c : Dev nD) (W : (b : Ref sig .tc) → Buf (Elt F) ((c : Thread nD τ).loc b)) :
    (((cfg3.win 0).arr.view.loc (c : Thread nD τ)) ↦[(cfg3.win 0).arr.view.set]{(dat3 V c).share 0} W (Pipeline.arrRef spec3 0) : sProp 𝕄)
      = (((c : Thread nD τ).loc main_v0_1) ↦{fullShare} W main_v0_1) := by
  rw [(arr_whole3 0).set_eq_univ]; rfl

/-- Window 1's array at contents `W` of its buffer, at the window's share. -/
theorem arrW3_1 (c : Dev nD) (W : (b : Ref sig .tc) → Buf (Elt F) ((c : Thread nD τ).loc b)) :
    (((cfg3.win 1).arr.view.loc (c : Thread nD τ)) ↦[(cfg3.win 1).arr.view.set]{(dat3 V c).share 1} W (Pipeline.arrRef spec3 1) : sProp 𝕄)
      = (((c : Thread nD τ).loc main_v23) ↦{fullShare.left} W main_v23) := by
  rw [(arr_whole3 1).set_eq_univ]; rfl

/-- Window 2's array at contents `W` of its buffer, at the window's share. -/
theorem arrW3_2 (c : Dev nD) (W : (b : Ref sig .tc) → Buf (Elt F) ((c : Thread nD τ).loc b)) :
    (((cfg3.win 2).arr.view.loc (c : Thread nD τ)) ↦[(cfg3.win 2).arr.view.set]{(dat3 V c).share 2} W (Pipeline.arrRef spec3 2) : sProp 𝕄)
      = (((c : Thread nD τ).loc main_v4) ↦{fullShare} W main_v4) := by
  rw [(arr_whole3 2).set_eq_univ]; rfl

/-- Window 3's array at contents `W` of its buffer, at the window's share. -/
theorem arrW3_3 (c : Dev nD) (W : (b : Ref sig .tc) → Buf (Elt F) ((c : Thread nD τ).loc b)) :
    (((cfg3.win 3).arr.view.loc (c : Thread nD τ)) ↦[(cfg3.win 3).arr.view.set]{(dat3 V c).share 3} W (Pipeline.arrRef spec3 3) : sProp 𝕄)
      = (((c : Thread nD τ).loc main_v23) ↦{fullShare.right} W main_v23) := by
  rw [(arr_whole3 3).set_eq_univ]; rfl

/-- Window 4's array at contents `W` of its buffer, at the window's share. -/
theorem arrW3_4 (c : Dev nD) (W : (b : Ref sig .tc) → Buf (Elt F) ((c : Thread nD τ).loc b)) :
    (((cfg3.win 4).arr.view.loc (c : Thread nD τ)) ↦[(cfg3.win 4).arr.view.set]{(dat3 V c).share 4} W (Pipeline.arrRef spec3 4) : sProp 𝕄)
      = (((c : Thread nD τ).loc main_v24) ↦{fullShare} W main_v24) := by
  rw [(arr_whole3 4).set_eq_univ]; rfl

/-- The windows' arrays at contents `W` of the buffers behind them, window by window. -/
theorem arrays_eq3 (c : Dev nD) (W : (b : Ref sig .tc) → Buf (Elt F) ((c : Thread nD τ).loc b)) :
    ((dat3 V c).arrays (fun w => W (Pipeline.arrRef spec3 w)) : sProp 𝕄)
      = iprop((((c : Thread nD τ).loc main_v0_1) ↦{fullShare} W main_v0_1) ∗ (((c : Thread nD τ).loc main_v23) ↦{fullShare.left} W main_v23)
          ∗ (((c : Thread nD τ).loc main_v4) ↦{fullShare} W main_v4) ∗ (((c : Thread nD τ).loc main_v23) ↦{fullShare.right} W main_v23)
          ∗ (((c : Thread nD τ).loc main_v24) ↦{fullShare} W main_v24)) := by
  unfold Dat.arrays
  rw [bigSep_W3]
  exact congrArg₂ BI.sep (arrW3_0 V c W) (congrArg₂ BI.sep (arrW3_1 V c W) (congrArg₂ BI.sep (arrW3_2 V c W) (congrArg₂ BI.sep (arrW3_3 V c W) (arrW3_4 V c W))))

/-- The posterior's buffer whole is its two halves. -/
theorem halves3 (c : Dev nD) (W : (b : Ref sig .tc) → Buf (Elt F) ((c : Thread nD τ).loc b)) :
    ((((c : Thread nD τ).loc main_v23) ↦{fullShare} W main_v23) : sProp 𝕄)
      ⊣⊢ iprop((((c : Thread nD τ).loc main_v23) ↦{fullShare.left} W main_v23) ∗ (((c : Thread nD τ).loc main_v23) ↦{fullShare.right} W main_v23)) :=
  pointsTo_share (PosShare.mem_left_op_right fullShare)

/-- The buffers behind the arrays, each whole at the full share, dealt among the windows. -/
theorem arrays_of_bufs3 (c : Dev nD) (W : (b : Ref sig .tc) → Buf (Elt F) ((c : Thread nD τ).loc b)) :
    (Pipeline.arrBufs spec3 c W : sProp 𝕄) ⊢ (dat3 V c).arrays (fun w => W (Pipeline.arrRef spec3 w)) := by
  rw [arrBufs_eq3, arrays_eq3 V c W]
  iintro ⟨H0, H1, H2, H4⟩
  ihave H13 := (halves3 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays3 (c : Dev nD) (W : (b : Ref sig .tc) → Buf (Elt F) ((c : Thread nD τ).loc b)) :
    ((dat3 V c).arrays (fun w => W (Pipeline.arrRef spec3 w)) : sProp 𝕄) ⊢ Pipeline.arrBufs spec3 c W := by
  rw [arrBufs_eq3, arrays_eq3 V c W]
  iintro ⟨H0, H1, H2, H3, H4⟩
  ihave H13 := (halves3 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry3 (c : Dev nD) :
    (unscopedBufs c (V c) : sProp 𝕄) ⊢ iprop((dat3 V c).arrays ((dat3 V c).arrAt · 0) ∗ Pipeline.unscopedRest spec3 c (V c)) := by
  rw [Pipeline.unscopedBufs_split₀ cfgs 3 winFacts₀3.arr_unscoped c (V c)]
  exact sep_mono (arrays_of_bufs3 V c (V c)) .rfl

/-- What the region's arrays hold after the last point, array by array: an input as the region found it. -/
theorem arrAtN3 (c : Dev nD) (W' : (b : Ref sig .tc) → Buf (Elt F) ((c : Thread nD τ).loc b))
    (hnew : W' main_v24 = (dat3 V c).arrAt 4 cfg3.N) (hrest : ∀ b : Ref sig .tc, b ≠ main_v24 → W' b = V c b) :
    ((dat3 V c).arrAt · cfg3.N) = fun w => W' (Pipeline.arrRef spec3 w) := by
  funext w
  fin_cases w
  · exact ((dat3 V c).arrAt_in 0 rfl _).trans ((A_eq3 V c 0).trans (hrest _ (by decide)).symm)
  · exact ((dat3 V c).arrAt_in 1 rfl _).trans ((A_eq3 V c 1).trans (hrest _ (by decide)).symm)
  · exact ((dat3 V c).arrAt_in 2 rfl _).trans ((A_eq3 V c 2).trans (hrest _ (by decide)).symm)
  · exact ((dat3 V c).arrAt_in 3 rfl _).trans ((A_eq3 V c 3).trans (hrest _ (by decide)).symm)
  · exact hnew.symm

/-- EXIT: the windows' arrays at what the write-backs left and the rest make the unscoped buffers at contents `W'` that
    hold the new posterior at what the region left and every other buffer as the region found it. -/
theorem exit3 (c : Dev nD) (W' : (b : Ref sig .tc) → Buf (Elt F) ((c : Thread nD τ).loc b))
    (hnew : W' main_v24 = (dat3 V c).arrAt 4 cfg3.N) (hrest : ∀ b : Ref sig .tc, b ≠ main_v24 → W' b = V c b) :
    iprop((dat3 V c).arrays ((dat3 V c).arrAt · cfg3.N) ∗ Pipeline.unscopedRest spec3 c (V c)) ⊢ (unscopedBufs c W' : sProp 𝕄) := by
  rw [Pipeline.unscopedBufs_split₀ cfgs 3 winFacts₀3.arr_unscoped c W', arrAtN3 V c W' hnew hrest]
  refine sep_mono (bufs_of_arrays3 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.Kernel.Hand

end
-- ==== Proof.BProp4.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.Kernel.Launch
import proofs.«111186_j27504970563868_1_alg».proof.Proof.Gen.Kernel.Skeleton
import proofs.«111186_j27504970563868_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_A : Rect S1024x8192 := Rect.unit (s := S1024x8192) ![0, 0] S1024x8192.size inb_S1024x8192_S1024x8192_0_0
abbrev r4_E : Rect S8192x2 := Rect.unit (s := S8192x2) ![0, 0] S8192x2.size inb_S8192x2_S8192x2_0_0
abbrev r4_d : Rect S1024x1 := Rect.unit (s := S1024x1) ![0, 0] S1024x1.size inb_S1024x1_S1024x1_0_0
abbrev r4_o : Rect S1024x2 := Rect.unit (s := S1024x2) ![0, 0] S1024x2.size inb_S1024x2_S1024x2_0_0

/-- The output window's staging buffer after the body, from the input windows' blocks: its one store read back. -/
def out4_4 (x0 : Vec F S1024x8192 .bf16) (x1 : Vec F S8192x2 .f32) (x2 : Vec F S1024x1 .f32) (x3 : Vec F S1024x2 .f32) : Vec F S1024x2 .f32 :=
  View.canon [⟨r4_o, k4_pay1 (View.ld x1 r4_E) (View.ld x0 r4_A) (View.ld x2 r4_d) (View.ld x3 r4_o)⟩]

/-- The store covers the buffer. -/
theorem cover4_4 (p0 : Vec F S1024x2 .f32) (y : S1024x2.Idx) :
    ∃ pc ∈ ([⟨r4_o, p0⟩] : List (View.Piece (Elt F) S1024x2 .f32)), y ∈ pc.1.set :=
  View.cover_of_tiled [⟨r4_o, p0⟩] S1024x2.size (by rfl) y

set_option maxHeartbeats 2000000 in
/-- The body on whole staging memrefs, the inputs' at contents `xW` and the output's at anything, runs to the
    continuation holding the inputs' as they were and the output's at `out4_4` of them. -/
theorem sound_kernel4 (c : Dev nD) (E : Set ℕ) (i : grid4.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__prop_kernel i arg1 harg1 arg2 harg2 arg3 harg3 arg4 harg4 arg5 harg5) K := by
  simp only [cc4__prop_kernel_eq_skeleton]; unfold cc4__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The proof data of the region, at the contents `V` it is entered from -/

/-- The arrays as the region finds them; after the body each input's buffer at its block and the output's at
    `out4_4` of the input blocks; the invariant the scoped rest and the generator register, untouched; nothing owed.
    The posterior array is read through windows 1 and 3: each holds one half of the full share of it. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.BPropEnds4.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.BProp4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr4_0 : Pipeline.arrRef spec4 0 = main_v0_1 := rfl
theorem arr4_1 : Pipeline.arrRef spec4 1 = main_v24 := rfl
theorem arr4_2 : Pipeline.arrRef spec4 2 = main_v4 := rfl
theorem arr4_3 : Pipeline.arrRef spec4 3 = main_v24 := rfl
theorem arr4_4 : Pipeline.arrRef spec4 4 = main_v25 := rfl

/-- The distinct buffers behind the five windows' arrays: four. -/
theorem image_arr4 : (Finset.univ.image (Pipeline.arrRef spec4) : Finset (Ref sig .tc))
    = insert main_v0_1 (insert main_v24 (insert main_v4 {main_v25})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem4_a : (main_v0_1 : Ref sig .tc) ∉ insert main_v24 (insert main_v4 ({main_v25} : Finset (Ref sig .tc))) := by
  simp only [Finset.mem_insert, Finset.mem_singleton, not_or]; exact ⟨by decide, by decide, by decide⟩
theorem notMem4_b : (main_v24 : Ref sig .tc) ∉ insert main_v4 ({main_v25} : Finset (Ref sig .tc)) := by
  simp only [Finset.mem_insert, Finset.mem_singleton, not_or]; exact ⟨by decide, by decide⟩
theorem notMem4_c : (main_v4 : Ref sig .tc) ∉ ({main_v25} : Finset (Ref sig .tc)) := by
  simp only [Finset.mem_singleton]; decide

/-- The distinct buffers, one by one. -/
theorem arrBufs_eq4 (c : Dev nD) (W : (b : Ref sig .tc) → Buf (Elt F) ((c : Thread nD τ).loc b)) :
    (Pipeline.arrBufs spec4 c W : sProp 𝕄)
      = iprop((((c : Thread nD τ).loc main_v0_1) ↦{fullShare} W main_v0_1) ∗ (((c : Thread nD τ).loc main_v24) ↦{fullShare} W main_v24)
          ∗ (((c : Thread nD τ).loc main_v4) ↦{fullShare} W main_v4) ∗ (((c : Thread nD τ).loc main_v25) ↦{fullShare} W main_v25)) := by
  unfold Pipeline.arrBufs
  rw [image_arr4, bigSep_insert notMem4_a, bigSep_insert notMem4_b, bigSep_insert notMem4_c, bigSep_singleton]
  rfl

/-- Window 0's array at contents `W` of its buffer, at the window's share. -/
theorem arrW4_0 (c : Dev nD) (W : (b : Ref sig .tc) → Buf (Elt F) ((c : Thread nD τ).loc b)) :
    (((cfg4.win 0).arr.view.loc (c : Thread nD τ)) ↦[(cfg4.win 0).arr.view.set]{(dat4 V c).share 0} W (Pipeline.arrRef spec4 0) : sProp 𝕄)
      = (((c : Thread nD τ).loc main_v0_1) ↦{fullShare} W main_v0_1) := by
  rw [(arr_whole4 0).set_eq_univ]; rfl

/-- Window 1's array at contents `W` of its buffer, at the window's share. -/
theorem arrW4_1 (c : Dev nD) (W : (b : Ref sig .tc) → Buf (Elt F) ((c : Thread nD τ).loc b)) :
    (((cfg4.win 1).arr.view.loc (c : Thread nD τ)) ↦[(cfg4.win 1).arr.view.set]{(dat4 V c).share 1} W (Pipeline.arrRef spec4 1) : sProp 𝕄)
      = (((c : Thread nD τ).loc main_v24) ↦{fullShare.left} W main_v24) := by
  rw [(arr_whole4 1).set_eq_univ]; rfl

/-- Window 2's array at contents `W` of its buffer, at the window's share. -/
theorem arrW4_2 (c : Dev nD) (W : (b : Ref sig .tc) → Buf (Elt F) ((c : Thread nD τ).loc b)) :
    (((cfg4.win 2).arr.view.loc (c : Thread nD τ)) ↦[(cfg4.win 2).arr.view.set]{(dat4 V c).share 2} W (Pipeline.arrRef spec4 2) : sProp 𝕄)
      = (((c : Thread nD τ).loc main_v4) ↦{fullShare} W main_v4) := by
  rw [(arr_whole4 2).set_eq_univ]; rfl

/-- Window 3's array at contents `W` of its buffer, at the window's share. -/
theorem arrW4_3 (c : Dev nD) (W : (b : Ref sig .tc) → Buf (Elt F) ((c : Thread nD τ).loc b)) :
    (((cfg4.win 3).arr.view.loc (c : Thread nD τ)) ↦[(cfg4.win 3).arr.view.set]{(dat4 V c).share 3} W (Pipeline.arrRef spec4 3) : sProp 𝕄)
      = (((c : Thread nD τ).loc main_v24) ↦{fullShare.right} W main_v24) := by
  rw [(arr_whole4 3).set_eq_univ]; rfl

/-- Window 4's array at contents `W` of its buffer, at the window's share. -/
theorem arrW4_4 (c : Dev nD) (W : (b : Ref sig .tc) → Buf (Elt F) ((c : Thread nD τ).loc b)) :
    (((cfg4.win 4).arr.view.loc (c : Thread nD τ)) ↦[(cfg4.win 4).arr.view.set]{(dat4 V c).share 4} W (Pipeline.arrRef spec4 4) : sProp 𝕄)
      = (((c : Thread nD τ).loc main_v25) ↦{fullShare} W main_v25) := by
  rw [(arr_whole4 4).set_eq_univ]; rfl

/-- The windows' arrays at contents `W` of the buffers behind them, window by window. -/
theorem arrays_eq4 (c : Dev nD) (W : (b : Ref sig .tc) → Buf (Elt F) ((c : Thread nD τ).loc b)) :
    ((dat4 V c).arrays (fun w => W (Pipeline.arrRef spec4 w)) : sProp 𝕄)
      = iprop((((c : Thread nD τ).loc main_v0_1) ↦{fullShare} W main_v0_1) ∗ (((c : Thread nD τ).loc main_v24) ↦{fullShare.left} W main_v24)
          ∗ (((c : Thread nD τ).loc main_v4) ↦{fullShare} W main_v4) ∗ (((c : Thread nD τ).loc main_v24) ↦{fullShare.right} W main_v24)
          ∗ (((c : Thread nD τ).loc main_v25) ↦{fullShare} W main_v25)) := by
  unfold Dat.arrays
  rw [bigSep_W4]
  exact congrArg₂ BI.sep (arrW4_0 V c W) (congrArg₂ BI.sep (arrW4_1 V c W) (congrArg₂ BI.sep (arrW4_2 V c W) (congrArg₂ BI.sep (arrW4_3 V c W) (arrW4_4 V c W))))

/-- The posterior's buffer whole is its two halves. -/
theorem halves4 (c : Dev nD) (W : (b : Ref sig .tc) → Buf (Elt F) ((c : Thread nD τ).loc b)) :
    ((((c : Thread nD τ).loc main_v24) ↦{fullShare} W main_v24) : sProp 𝕄)
      ⊣⊢ iprop((((c : Thread nD τ).loc main_v24) ↦{fullShare.left} W main_v24) ∗ (((c : Thread nD τ).loc main_v24) ↦{fullShare.right} W main_v24)) :=
  pointsTo_share (PosShare.mem_left_op_right fullShare)

/-- The buffers behind the arrays, each whole at the full share, dealt among the windows. -/
theorem arrays_of_bufs4 (c : Dev nD) (W : (b : Ref sig .tc) → Buf (Elt F) ((c : Thread nD τ).loc b)) :
    (Pipeline.arrBufs spec4 c W : sProp 𝕄) ⊢ (dat4 V c).arrays (fun w => W (Pipeline.arrRef spec4 w)) := by
  rw [arrBufs_eq4, arrays_eq4 V c W]
  iintro ⟨H0, H1, H2, H4⟩
  ihave H13 := (halves4 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays4 (c : Dev nD) (W : (b : Ref sig .tc) → Buf (Elt F) ((c : Thread nD τ).loc b)) :
    ((dat4 V c).arrays (fun w => W (Pipeline.arrRef spec4 w)) : sProp 𝕄) ⊢ Pipeline.arrBufs spec4 c W := by
  rw [arrBufs_eq4, arrays_eq4 V c W]
  iintro ⟨H0, H1, H2, H3, H4⟩
  ihave H13 := (halves4 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry4 (c : Dev nD) :
    (unscopedBufs c (V c) : sProp 𝕄) ⊢ iprop((dat4 V c).arrays ((dat4 V c).arrAt · 0) ∗ Pipeline.unscopedRest spec4 c (V c)) := by
  rw [Pipeline.unscopedBufs_split₀ cfgs 4 winFacts₀4.arr_unscoped c (V c)]
  exact sep_mono (arrays_of_bufs4 V c (V c)) .rfl

/-- What the region's arrays hold after the last point, array by array: an input as the region found it. -/
theorem arrAtN4 (c : Dev nD) (W' : (b : Ref sig .tc) → Buf (Elt F) ((c : Thread nD τ).loc b))
    (hnew : W' main_v25 = (dat4 V c).arrAt 4 cfg4.N) (hrest : ∀ b : Ref sig .tc, b ≠ main_v25 → W' b = V c b) :
    ((dat4 V c).arrAt · cfg4.N) = fun w => W' (Pipeline.arrRef spec4 w) := by
  funext w
  fin_cases w
  · exact ((dat4 V c).arrAt_in 0 rfl _).trans ((A_eq4 V c 0).trans (hrest _ (by decide)).symm)
  · exact ((dat4 V c).arrAt_in 1 rfl _).trans ((A_eq4 V c 1).trans (hrest _ (by decide)).symm)
  · exact ((dat4 V c).arrAt_in 2 rfl _).trans ((A_eq4 V c 2).trans (hrest _ (by decide)).symm)
  · exact ((dat4 V c).arrAt_in 3 rfl _).trans ((A_eq4 V c 3).trans (hrest _ (by decide)).symm)
  · exact hnew.symm

/-- EXIT: the windows' arrays at what the write-backs left and the rest make the unscoped buffers at contents `W'` that
    hold the new posterior at what the region left and every other buffer as the region found it. -/
theorem exit4 (c : Dev nD) (W' : (b : Ref sig .tc) → Buf (Elt F) ((c : Thread nD τ).loc b))
    (hnew : W' main_v25 = (dat4 V c).arrAt 4 cfg4.N) (hrest : ∀ b : Ref sig .tc, b ≠ main_v25 → W' b = V c b) :
    iprop((dat4 V c).arrays ((dat4 V c).arrAt · cfg4.N) ∗ Pipeline.unscopedRest spec4 c (V c)) ⊢ (unscopedBufs c W' : sProp 𝕄) := by
  rw [Pipeline.unscopedBufs_split₀ cfgs 4 winFacts₀4.arr_unscoped c W', arrAtN4 V c W' hnew hrest]
  refine sep_mono (bufs_of_arrays4 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.Kernel.Hand

end
-- ==== Proof.BProp5.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.Kernel.Launch
import proofs.«111186_j27504970563868_1_alg».proof.Proof.Gen.Kernel.Skeleton
import proofs.«111186_j27504970563868_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_A : Rect S1024x8192 := Rect.unit (s := S1024x8192) ![0, 0] S1024x8192.size inb_S1024x8192_S1024x8192_0_0
abbrev r5_E : Rect S8192x2 := Rect.unit (s := S8192x2) ![0, 0] S8192x2.size inb_S8192x2_S8192x2_0_0
abbrev r5_d : Rect S1024x1 := Rect.unit (s := S1024x1) ![0, 0] S1024x1.size inb_S1024x1_S1024x1_0_0
abbrev r5_o : Rect S1024x2 := Rect.unit (s := S1024x2) ![0, 0] S1024x2.size inb_S1024x2_S1024x2_0_0

/-- The output window's staging buffer after the body, from the input windows' blocks: its one store read back. -/
def out5_4 (x0 : Vec F S1024x8192 .bf16) (x1 : Vec F S8192x2 .f32) (x2 : Vec F S1024x1 .f32) (x3 : Vec F S1024x2 .f32) : Vec F S1024x2 .f32 :=
  View.canon [⟨r5_o, k5_pay1 (View.ld x1 r5_E) (View.ld x0 r5_A) (View.ld x2 r5_d) (View.ld x3 r5_o)⟩]

/-- The store covers the buffer. -/
theorem cover5_4 (p0 : Vec F S1024x2 .f32) (y : S1024x2.Idx) :
    ∃ pc ∈ ([⟨r5_o, p0⟩] : List (View.Piece (Elt F) S1024x2 .f32)), y ∈ pc.1.set :=
  View.cover_of_tiled [⟨r5_o, p0⟩] S1024x2.size (by rfl) y

set_option maxHeartbeats 2000000 in
/-- The body on whole staging memrefs, the inputs' at contents `xW` and the output's at anything, runs to the
    continuation holding the inputs' as they were and the output's at `out5_4` of them. -/
theorem sound_kernel5 (c : Dev nD) (E : Set ℕ) (i : grid5.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__prop_kernel i arg1 harg1 arg2 harg2 arg3 harg3 arg4 harg4 arg5 harg5) K := by
  simp only [cc5__prop_kernel_eq_skeleton]; unfold cc5__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The proof data of the region, at the contents `V` it is entered from -/

/-- The arrays as the region finds them; after the body each input's buffer at its block and the output's at
    `out5_4` of the input blocks; the invariant the scoped rest and the generator register, untouched; nothing owed.
    The posterior array is read through windows 1 and 3: each holds one half of the full share of it. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so the body's triple applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.BPropEnds5.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.BProp5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr5_0 : Pipeline.arrRef spec5 0 = main_v0_1 := rfl
theorem arr5_1 : Pipeline.arrRef spec5 1 = main_v25 := rfl
theorem arr5_2 : Pipeline.arrRef spec5 2 = main_v4 := rfl
theorem arr5_3 : Pipeline.arrRef spec5 3 = main_v25 := rfl
theorem arr5_4 : Pipeline.arrRef spec5 4 = main_v26 := rfl

/-- The distinct buffers behind the five windows' arrays: four. -/
theorem image_arr5 : (Finset.univ.image (Pipeline.arrRef spec5) : Finset (Ref sig .tc))
    = insert main_v0_1 (insert main_v25 (insert main_v4 {main_v26})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem5_a : (main_v0_1 : Ref sig .tc) ∉ insert main_v25 (insert main_v4 ({main_v26} : Finset (Ref sig .tc))) := by
  simp only [Finset.mem_insert, Finset.mem_singleton, not_or]; exact ⟨by decide, by decide, by decide⟩
theorem notMem5_b : (main_v25 : Ref sig .tc) ∉ insert main_v4 ({main_v26} : Finset (Ref sig .tc)) := by
  simp only [Finset.mem_insert, Finset.mem_singleton, not_or]; exact ⟨by decide, by decide⟩
theorem notMem5_c : (main_v4 : Ref sig .tc) ∉ ({main_v26} : Finset (Ref sig .tc)) := by
  simp only [Finset.mem_singleton]; decide

/-- The distinct buffers, one by one. -/
theorem arrBufs_eq5 (c : Dev nD) (W : (b : Ref sig .tc) → Buf (Elt F) ((c : Thread nD τ).loc b)) :
    (Pipeline.arrBufs spec5 c W : sProp 𝕄)
      = iprop((((c : Thread nD τ).loc main_v0_1) ↦{fullShare} W main_v0_1) ∗ (((c : Thread nD τ).loc main_v25) ↦{fullShare} W main_v25)
          ∗ (((c : Thread nD τ).loc main_v4) ↦{fullShare} W main_v4) ∗ (((c : Thread nD τ).loc main_v26) ↦{fullShare} W main_v26)) := by
  unfold Pipeline.arrBufs
  rw [image_arr5, bigSep_insert notMem5_a, bigSep_insert notMem5_b, bigSep_insert notMem5_c, bigSep_singleton]
  rfl

/-- Window 0's array at contents `W` of its buffer, at the window's share. -/
theorem arrW5_0 (c : Dev nD) (W : (b : Ref sig .tc) → Buf (Elt F) ((c : Thread nD τ).loc b)) :
    (((cfg5.win 0).arr.view.loc (c : Thread nD τ)) ↦[(cfg5.win 0).arr.view.set]{(dat5 V c).share 0} W (Pipeline.arrRef spec5 0) : sProp 𝕄)
      = (((c : Thread nD τ).loc main_v0_1) ↦{fullShare} W main_v0_1) := by
  rw [(arr_whole5 0).set_eq_univ]; rfl

/-- Window 1's array at contents `W` of its buffer, at the window's share. -/
theorem arrW5_1 (c : Dev nD) (W : (b : Ref sig .tc) → Buf (Elt F) ((c : Thread nD τ).loc b)) :
    (((cfg5.win 1).arr.view.loc (c : Thread nD τ)) ↦[(cfg5.win 1).arr.view.set]{(dat5 V c).share 1} W (Pipeline.arrRef spec5 1) : sProp 𝕄)
      = (((c : Thread nD τ).loc main_v25) ↦{fullShare.left} W main_v25) := by
  rw [(arr_whole5 1).set_eq_univ]; rfl

/-- Window 2's array at contents `W` of its buffer, at the window's share. -/
theorem arrW5_2 (c : Dev nD) (W : (b : Ref sig .tc) → Buf (Elt F) ((c : Thread nD τ).loc b)) :
    (((cfg5.win 2).arr.view.loc (c : Thread nD τ)) ↦[(cfg5.win 2).arr.view.set]{(dat5 V c).share 2} W (Pipeline.arrRef spec5 2) : sProp 𝕄)
      = (((c : Thread nD τ).loc main_v4) ↦{fullShare} W main_v4) := by
  rw [(arr_whole5 2).set_eq_univ]; rfl

/-- Window 3's array at contents `W` of its buffer, at the window's share. -/
theorem arrW5_3 (c : Dev nD) (W : (b : Ref sig .tc) → Buf (Elt F) ((c : Thread nD τ).loc b)) :
    (((cfg5.win 3).arr.view.loc (c : Thread nD τ)) ↦[(cfg5.win 3).arr.view.set]{(dat5 V c).share 3} W (Pipeline.arrRef spec5 3) : sProp 𝕄)
      = (((c : Thread nD τ).loc main_v25) ↦{fullShare.right} W main_v25) := by
  rw [(arr_whole5 3).set_eq_univ]; rfl

/-- Window 4's array at contents `W` of its buffer, at the window's share. -/
theorem arrW5_4 (c : Dev nD) (W : (b : Ref sig .tc) → Buf (Elt F) ((c : Thread nD τ).loc b)) :
    (((cfg5.win 4).arr.view.loc (c : Thread nD τ)) ↦[(cfg5.win 4).arr.view.set]{(dat5 V c).share 4} W (Pipeline.arrRef spec5 4) : sProp 𝕄)
      = (((c : Thread nD τ).loc main_v26) ↦{fullShare} W main_v26) := by
  rw [(arr_whole5 4).set_eq_univ]; rfl

/-- The windows' arrays at contents `W` of the buffers behind them, window by window. -/
theorem arrays_eq5 (c : Dev nD) (W : (b : Ref sig .tc) → Buf (Elt F) ((c : Thread nD τ).loc b)) :
    ((dat5 V c).arrays (fun w => W (Pipeline.arrRef spec5 w)) : sProp 𝕄)
      = iprop((((c : Thread nD τ).loc main_v0_1) ↦{fullShare} W main_v0_1) ∗ (((c : Thread nD τ).loc main_v25) ↦{fullShare.left} W main_v25)
          ∗ (((c : Thread nD τ).loc main_v4) ↦{fullShare} W main_v4) ∗ (((c : Thread nD τ).loc main_v25) ↦{fullShare.right} W main_v25)
          ∗ (((c : Thread nD τ).loc main_v26) ↦{fullShare} W main_v26)) := by
  unfold Dat.arrays
  rw [bigSep_W5]
  exact congrArg₂ BI.sep (arrW5_0 V c W) (congrArg₂ BI.sep (arrW5_1 V c W) (congrArg₂ BI.sep (arrW5_2 V c W) (congrArg₂ BI.sep (arrW5_3 V c W) (arrW5_4 V c W))))

/-- The posterior's buffer whole is its two halves. -/
theorem halves5 (c : Dev nD) (W : (b : Ref sig .tc) → Buf (Elt F) ((c : Thread nD τ).loc b)) :
    ((((c : Thread nD τ).loc main_v25) ↦{fullShare} W main_v25) : sProp 𝕄)
      ⊣⊢ iprop((((c : Thread nD τ).loc main_v25) ↦{fullShare.left} W main_v25) ∗ (((c : Thread nD τ).loc main_v25) ↦{fullShare.right} W main_v25)) :=
  pointsTo_share (PosShare.mem_left_op_right fullShare)

/-- The buffers behind the arrays, each whole at the full share, dealt among the windows. -/
theorem arrays_of_bufs5 (c : Dev nD) (W : (b : Ref sig .tc) → Buf (Elt F) ((c : Thread nD τ).loc b)) :
    (Pipeline.arrBufs spec5 c W : sProp 𝕄) ⊢ (dat5 V c).arrays (fun w => W (Pipeline.arrRef spec5 w)) := by
  rw [arrBufs_eq5, arrays_eq5 V c W]
  iintro ⟨H0, H1, H2, H4⟩
  ihave H13 := (halves5 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays5 (c : Dev nD) (W : (b : Ref sig .tc) → Buf (Elt F) ((c : Thread nD τ).loc b)) :
    ((dat5 V c).arrays (fun w => W (Pipeline.arrRef spec5 w)) : sProp 𝕄) ⊢ Pipeline.arrBufs spec5 c W := by
  rw [arrBufs_eq5, arrays_eq5 V c W]
  iintro ⟨H0, H1, H2, H3, H4⟩
  ihave H13 := (halves5 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry5 (c : Dev nD) :
    (unscopedBufs c (V c) : sProp 𝕄) ⊢ iprop((dat5 V c).arrays ((dat5 V c).arrAt · 0) ∗ Pipeline.unscopedRest spec5 c (V c)) := by
  rw [Pipeline.unscopedBufs_split₀ cfgs 5 winFacts₀5.arr_unscoped c (V c)]
  exact sep_mono (arrays_of_bufs5 V c (V c)) .rfl

/-- What the region's arrays hold after the last point, array by array: an input as the region found it. -/
theorem arrAtN5 (c : Dev nD) (W' : (b : Ref sig .tc) → Buf (Elt F) ((c : Thread nD τ).loc b))
    (hnew : W' main_v26 = (dat5 V c).arrAt 4 cfg5.N) (hrest : ∀ b : Ref sig .tc, b ≠ main_v26 → W' b = V c b) :
    ((dat5 V c).arrAt · cfg5.N) = fun w => W' (Pipeline.arrRef spec5 w) := by
  funext w
  fin_cases w
  · exact ((dat5 V c).arrAt_in 0 rfl _).trans ((A_eq5 V c 0).trans (hrest _ (by decide)).symm)
  · exact ((dat5 V c).arrAt_in 1 rfl _).trans ((A_eq5 V c 1).trans (hrest _ (by decide)).symm)
  · exact ((dat5 V c).arrAt_in 2 rfl _).trans ((A_eq5 V c 2).trans (hrest _ (by decide)).symm)
  · exact ((dat5 V c).arrAt_in 3 rfl _).trans ((A_eq5 V c 3).trans (hrest _ (by decide)).symm)
  · exact hnew.symm

/-- EXIT: the windows' arrays at what the write-backs left and the rest make the unscoped buffers at contents `W'` that
    hold the new posterior at what the region left and every other buffer as the region found it. -/
theorem exit5 (c : Dev nD) (W' : (b : Ref sig .tc) → Buf (Elt F) ((c : Thread nD τ).loc b))
    (hnew : W' main_v26 = (dat5 V c).arrAt 4 cfg5.N) (hrest : ∀ b : Ref sig .tc, b ≠ main_v26 → W' b = V c b) :
    iprop((dat5 V c).arrays ((dat5 V c).arrAt · cfg5.N) ∗ Pipeline.unscopedRest spec5 c (V c)) ⊢ (unscopedBufs c W' : sProp 𝕄) := by
  rw [Pipeline.unscopedBufs_split₀ cfgs 5 winFacts₀5.arr_unscoped c W', arrAtN5 V c W' hnew hrest]
  refine sep_mono (bufs_of_arrays5 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.Kernel.Hand

end
-- ==== Proof.BProp6.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.Kernel.Launch
import proofs.«111186_j27504970563868_1_alg».proof.Proof.Gen.Kernel.Skeleton
import proofs.«111186_j27504970563868_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev r6_A : Rect S1024x8192 := Rect.unit (s := S1024x8192) ![0, 0] S1024x8192.size inb_S1024x8192_S1024x8192_0_0
abbrev r6_E : Rect S8192x2 := Rect.unit (s := S8192x2) ![0, 0] S8192x2.size inb_S8192x2_S8192x2_0_0
abbrev r6_d : Rect S1024x1 := Rect.unit (s := S1024x1) ![0, 0] S1024x1.size inb_S1024x1_S1024x1_0_0
abbrev r6_o : Rect S1024x2 := Rect.unit (s := S1024x2) ![0, 0] S1024x2.size inb_S1024x2_S1024x2_0_0

/-- The output window's staging buffer after the body, from the input windows' blocks: its one store read back. -/
def out6_4 (x0 : Vec F S1024x8192 .bf16) (x1 : Vec F S8192x2 .f32) (x2 : Vec F S1024x1 .f32) (x3 : Vec F S1024x2 .f32) : Vec F S1024x2 .f32 :=
  View.canon [⟨r6_o, k6_pay1 (View.ld x1 r6_E) (View.ld x0 r6_A) (View.ld x2 r6_d) (View.ld x3 r6_o)⟩]

/-- The store covers the buffer. -/
theorem cover6_4 (p0 : Vec F S1024x2 .f32) (y : S1024x2.Idx) :
    ∃ pc ∈ ([⟨r6_o, p0⟩] : List (View.Piece (Elt F) S1024x2 .f32)), y ∈ pc.1.set :=
  View.cover_of_tiled [⟨r6_o, p0⟩] S1024x2.size (by rfl) y

set_option maxHeartbeats 2000000 in
/-- The body on whole staging memrefs, the inputs' at contents `xW` and the output's at anything, runs to the
    continuation holding the inputs' as they were and the output's at `out6_4` of them. -/
theorem sound_kernel6 (c : Dev nD) (E : Set ℕ) (i : grid6.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__prop_kernel i arg1 harg1 arg2 harg2 arg3 harg3 arg4 harg4 arg5 harg5) K := by
  simp only [cc6__prop_kernel_eq_skeleton]; unfold cc6__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-! ## The proof data of the region, at the contents `V` it is entered from -/

/-- The arrays as the region finds them; after the body each input's buffer at its block and the output's at
    `out6_4` of the input blocks; the invariant the scoped rest and the generator register, untouched; nothing owed.
    The posterior array is read through windows 1 and 3: each holds one half of the full share of it. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.BPropEnds6.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.BProp6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr6_0 : Pipeline.arrRef spec6 0 = main_v0_1 := rfl
theorem arr6_1 : Pipeline.arrRef spec6 1 = main_v26 := rfl
theorem arr6_2 : Pipeline.arrRef spec6 2 = main_v4 := rfl
theorem arr6_3 : Pipeline.arrRef spec6 3 = main_v26 := rfl
theorem arr6_4 : Pipeline.arrRef spec6 4 = main_v27 := rfl

/-- The distinct buffers behind the five windows' arrays: four. -/
theorem image_arr6 : (Finset.univ.image (Pipeline.arrRef spec6) : Finset (Ref sig .tc))
    = insert main_v0_1 (insert main_v26 (insert main_v4 {main_v27})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem6_a : (main_v0_1 : Ref sig .tc) ∉ insert main_v26 (insert main_v4 ({main_v27} : Finset (Ref sig .tc))) := by
  simp only [Finset.mem_insert, Finset.mem_singleton, not_or]; exact ⟨by decide, by decide, by decide⟩
theorem notMem6_b : (main_v26 : Ref sig .tc) ∉ insert main_v4 ({main_v27} : Finset (Ref sig .tc)) := by
  simp only [Finset.mem_insert, Finset.mem_singleton, not_or]; exact ⟨by decide, by decide⟩
theorem notMem6_c : (main_v4 : Ref sig .tc) ∉ ({main_v27} : Finset (Ref sig .tc)) := by
  simp only [Finset.mem_singleton]; decide

/-- The distinct buffers, one by one. -/
theorem arrBufs_eq6 (c : Dev nD) (W : (b : Ref sig .tc) → Buf (Elt F) ((c : Thread nD τ).loc b)) :
    (Pipeline.arrBufs spec6 c W : sProp 𝕄)
      = iprop((((c : Thread nD τ).loc main_v0_1) ↦{fullShare} W main_v0_1) ∗ (((c : Thread nD τ).loc main_v26) ↦{fullShare} W main_v26)
          ∗ (((c : Thread nD τ).loc main_v4) ↦{fullShare} W main_v4) ∗ (((c : Thread nD τ).loc main_v27) ↦{fullShare} W main_v27)) := by
  unfold Pipeline.arrBufs
  rw [image_arr6, bigSep_insert notMem6_a, bigSep_insert notMem6_b, bigSep_insert notMem6_c, bigSep_singleton]
  rfl

/-- Window 0's array at contents `W` of its buffer, at the window's share. -/
theorem arrW6_0 (c : Dev nD) (W : (b : Ref sig .tc) → Buf (Elt F) ((c : Thread nD τ).loc b)) :
    (((cfg6.win 0).arr.view.loc (c : Thread nD τ)) ↦[(cfg6.win 0).arr.view.set]{(dat6 V c).share 0} W (Pipeline.arrRef spec6 0) : sProp 𝕄)
      = (((c : Thread nD τ).loc main_v0_1) ↦{fullShare} W main_v0_1) := by
  rw [(arr_whole6 0).set_eq_univ]; rfl

/-- Window 1's array at contents `W` of its buffer, at the window's share. -/
theorem arrW6_1 (c : Dev nD) (W : (b : Ref sig .tc) → Buf (Elt F) ((c : Thread nD τ).loc b)) :
    (((cfg6.win 1).arr.view.loc (c : Thread nD τ)) ↦[(cfg6.win 1).arr.view.set]{(dat6 V c).share 1} W (Pipeline.arrRef spec6 1) : sProp 𝕄)
      = (((c : Thread nD τ).loc main_v26) ↦{fullShare.left} W main_v26) := by
  rw [(arr_whole6 1).set_eq_univ]; rfl

/-- Window 2's array at contents `W` of its buffer, at the window's share. -/
theorem arrW6_2 (c : Dev nD) (W : (b : Ref sig .tc) → Buf (Elt F) ((c : Thread nD τ).loc b)) :
    (((cfg6.win 2).arr.view.loc (c : Thread nD τ)) ↦[(cfg6.win 2).arr.view.set]{(dat6 V c).share 2} W (Pipeline.arrRef spec6 2) : sProp 𝕄)
      = (((c : Thread nD τ).loc main_v4) ↦{fullShare} W main_v4) := by
  rw [(arr_whole6 2).set_eq_univ]; rfl

/-- Window 3's array at contents `W` of its buffer, at the window's share. -/
theorem arrW6_3 (c : Dev nD) (W : (b : Ref sig .tc) → Buf (Elt F) ((c : Thread nD τ).loc b)) :
    (((cfg6.win 3).arr.view.loc (c : Thread nD τ)) ↦[(cfg6.win 3).arr.view.set]{(dat6 V c).share 3} W (Pipeline.arrRef spec6 3) : sProp 𝕄)
      = (((c : Thread nD τ).loc main_v26) ↦{fullShare.right} W main_v26) := by
  rw [(arr_whole6 3).set_eq_univ]; rfl

/-- Window 4's array at contents `W` of its buffer, at the window's share. -/
theorem arrW6_4 (c : Dev nD) (W : (b : Ref sig .tc) → Buf (Elt F) ((c : Thread nD τ).loc b)) :
    (((cfg6.win 4).arr.view.loc (c : Thread nD τ)) ↦[(cfg6.win 4).arr.view.set]{(dat6 V c).share 4} W (Pipeline.arrRef spec6 4) : sProp 𝕄)
      = (((c : Thread nD τ).loc main_v27) ↦{fullShare} W main_v27) := by
  rw [(arr_whole6 4).set_eq_univ]; rfl

/-- The windows' arrays at contents `W` of the buffers behind them, window by window. -/
theorem arrays_eq6 (c : Dev nD) (W : (b : Ref sig .tc) → Buf (Elt F) ((c : Thread nD τ).loc b)) :
    ((dat6 V c).arrays (fun w => W (Pipeline.arrRef spec6 w)) : sProp 𝕄)
      = iprop((((c : Thread nD τ).loc main_v0_1) ↦{fullShare} W main_v0_1) ∗ (((c : Thread nD τ).loc main_v26) ↦{fullShare.left} W main_v26)
          ∗ (((c : Thread nD τ).loc main_v4) ↦{fullShare} W main_v4) ∗ (((c : Thread nD τ).loc main_v26) ↦{fullShare.right} W main_v26)
          ∗ (((c : Thread nD τ).loc main_v27) ↦{fullShare} W main_v27)) := by
  unfold Dat.arrays
  rw [bigSep_W6]
  exact congrArg₂ BI.sep (arrW6_0 V c W) (congrArg₂ BI.sep (arrW6_1 V c W) (congrArg₂ BI.sep (arrW6_2 V c W) (congrArg₂ BI.sep (arrW6_3 V c W) (arrW6_4 V c W))))

/-- The posterior's buffer whole is its two halves. -/
theorem halves6 (c : Dev nD) (W : (b : Ref sig .tc) → Buf (Elt F) ((c : Thread nD τ).loc b)) :
    ((((c : Thread nD τ).loc main_v26) ↦{fullShare} W main_v26) : sProp 𝕄)
      ⊣⊢ iprop((((c : Thread nD τ).loc main_v26) ↦{fullShare.left} W main_v26) ∗ (((c : Thread nD τ).loc main_v26) ↦{fullShare.right} W main_v26)) :=
  pointsTo_share (PosShare.mem_left_op_right fullShare)

/-- The buffers behind the arrays, each whole at the full share, dealt among the windows. -/
theorem arrays_of_bufs6 (c : Dev nD) (W : (b : Ref sig .tc) → Buf (Elt F) ((c : Thread nD τ).loc b)) :
    (Pipeline.arrBufs spec6 c W : sProp 𝕄) ⊢ (dat6 V c).arrays (fun w => W (Pipeline.arrRef spec6 w)) := by
  rw [arrBufs_eq6, arrays_eq6 V c W]
  iintro ⟨H0, H1, H2, H4⟩
  ihave H13 := (halves6 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays6 (c : Dev nD) (W : (b : Ref sig .tc) → Buf (Elt F) ((c : Thread nD τ).loc b)) :
    ((dat6 V c).arrays (fun w => W (Pipeline.arrRef spec6 w)) : sProp 𝕄) ⊢ Pipeline.arrBufs spec6 c W := by
  rw [arrBufs_eq6, arrays_eq6 V c W]
  iintro ⟨H0, H1, H2, H3, H4⟩
  ihave H13 := (halves6 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry6 (c : Dev nD) :
    (unscopedBufs c (V c) : sProp 𝕄) ⊢ iprop((dat6 V c).arrays ((dat6 V c).arrAt · 0) ∗ Pipeline.unscopedRest spec6 c (V c)) := by
  rw [Pipeline.unscopedBufs_split₀ cfgs 6 winFacts₀6.arr_unscoped c (V c)]
  exact sep_mono (arrays_of_bufs6 V c (V c)) .rfl

/-- What the region's arrays hold after the last point, array by array: an input as the region found it. -/
theorem arrAtN6 (c : Dev nD) (W' : (b : Ref sig .tc) → Buf (Elt F) ((c : Thread nD τ).loc b))
    (hnew : W' main_v27 = (dat6 V c).arrAt 4 cfg6.N) (hrest : ∀ b : Ref sig .tc, b ≠ main_v27 → W' b = V c b) :
    ((dat6 V c).arrAt · cfg6.N) = fun w => W' (Pipeline.arrRef spec6 w) := by
  funext w
  fin_cases w
  · exact ((dat6 V c).arrAt_in 0 rfl _).trans ((A_eq6 V c 0).trans (hrest _ (by decide)).symm)
  · exact ((dat6 V c).arrAt_in 1 rfl _).trans ((A_eq6 V c 1).trans (hrest _ (by decide)).symm)
  · exact ((dat6 V c).arrAt_in 2 rfl _).trans ((A_eq6 V c 2).trans (hrest _ (by decide)).symm)
  · exact ((dat6 V c).arrAt_in 3 rfl _).trans ((A_eq6 V c 3).trans (hrest _ (by decide)).symm)
  · exact hnew.symm

/-- EXIT: the windows' arrays at what the write-backs left and the rest make the unscoped buffers at contents `W'` that
    hold the new posterior at what the region left and every other buffer as the region found it. -/
theorem exit6 (c : Dev nD) (W' : (b : Ref sig .tc) → Buf (Elt F) ((c : Thread nD τ).loc b))
    (hnew : W' main_v27 = (dat6 V c).arrAt 4 cfg6.N) (hrest : ∀ b : Ref sig .tc, b ≠ main_v27 → W' b = V c b) :
    iprop((dat6 V c).arrays ((dat6 V c).arrAt · cfg6.N) ∗ Pipeline.unscopedRest spec6 c (V c)) ⊢ (unscopedBufs c W' : sProp 𝕄) := by
  rw [Pipeline.unscopedBufs_split₀ cfgs 6 winFacts₀6.arr_unscoped c W', arrAtN6 V c W' hnew hrest]
  refine sep_mono (bufs_of_arrays6 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.Kernel.Hand

end
-- ==== Proof.BProp7.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.Kernel.Launch
import proofs.«111186_j27504970563868_1_alg».proof.Proof.Gen.Kernel.Skeleton
import proofs.«111186_j27504970563868_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body loads and stores through. -/
abbrev r7_A : Rect S1024x8192 := Rect.unit (s := S1024x8192) ![0, 0] S1024x8192.size inb_S1024x8192_S1024x8192_0_0
abbrev r7_E : Rect S8192x2 := Rect.unit (s := S8192x2) ![0, 0] S8192x2.size inb_S8192x2_S8192x2_0_0
abbrev r7_d : Rect S1024x1 := Rect.unit (s := S1024x1) ![0, 0] S1024x1.size inb_S1024x1_S1024x1_0_0
abbrev r7_o : Rect S1024x2 := Rect.unit (s := S1024x2) ![0, 0] S1024x2.size inb_S1024x2_S1024x2_0_0

/-- The output window's staging buffer after the body, from the input windows' blocks: its one store read back. -/
def out7_4 (x0 : Vec F S1024x8192 .bf16) (x1 : Vec F S8192x2 .f32) (x2 : Vec F S1024x1 .f32) (x3 : Vec F S1024x2 .f32) : Vec F S1024x2 .f32 :=
  View.canon [⟨r7_o, k7_pay1 (View.ld x1 r7_E) (View.ld x0 r7_A) (View.ld x2 r7_d) (View.ld x3 r7_o)⟩]

/-- The store covers the buffer. -/
theorem cover7_4 (p0 : Vec F S1024x2 .f32) (y : S1024x2.Idx) :
    ∃ pc ∈ ([⟨r7_o, p0⟩] : List (View.Piece (Elt F) S1024x2 .f32)), y ∈ pc.1.set :=
  View.cover_of_tiled [⟨r7_o, p0⟩] S1024x2.size (by rfl) y

set_option maxHeartbeats 2000000 in
/-- The body on whole staging memrefs, the inputs' at contents `xW` and the output's at anything, runs to the
    continuation holding the inputs' as they were and the output's at `out7_4` of them. -/
theorem sound_kernel7 (c : Dev nD) (E : Set ℕ) (i : grid7.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7_4 x0 x1 x2 x3)) -∗ K ⟨⟩))
      ⊢ wp frame (wpE (defs₀ (F := F)) Variants.none c none) E (cc7__prop_kernel i arg1 harg1 arg2 harg2 arg3 harg3 arg4 harg4 arg5 harg5) K := by
  simp only [cc7__prop_kernel_eq_skeleton]; unfold cc7__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The proof data of the region, at the contents `V` it is entered from -/

/-- The arrays as the region finds them; after the body each input's buffer at its block and the output's at
    `out7_4` of the input blocks; the invariant the scoped rest and the generator register, untouched; nothing owed.
    The posterior array is read through windows 1 and 3: each holds one half of the full share of it. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks, so the body's triple applies; the invariant and what
    the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.BPropEnds7.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.BProp7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr7_0 : Pipeline.arrRef spec7 0 = main_v0_1 := rfl
theorem arr7_1 : Pipeline.arrRef spec7 1 = main_v27 := rfl
theorem arr7_2 : Pipeline.arrRef spec7 2 = main_v4 := rfl
theorem arr7_3 : Pipeline.arrRef spec7 3 = main_v27 := rfl
theorem arr7_4 : Pipeline.arrRef spec7 4 = main_v28 := rfl

/-- The distinct buffers behind the five windows' arrays: four. -/
theorem image_arr7 : (Finset.univ.image (Pipeline.arrRef spec7) : Finset (Ref sig .tc))
    = insert main_v0_1 (insert main_v27 (insert main_v4 {main_v28})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem7_a : (main_v0_1 : Ref sig .tc) ∉ insert main_v27 (insert main_v4 ({main_v28} : Finset (Ref sig .tc))) := by
  simp only [Finset.mem_insert, Finset.mem_singleton, not_or]; exact ⟨by decide, by decide, by decide⟩
theorem notMem7_b : (main_v27 : Ref sig .tc) ∉ insert main_v4 ({main_v28} : Finset (Ref sig .tc)) := by
  simp only [Finset.mem_insert, Finset.mem_singleton, not_or]; exact ⟨by decide, by decide⟩
theorem notMem7_c : (main_v4 : Ref sig .tc) ∉ ({main_v28} : Finset (Ref sig .tc)) := by
  simp only [Finset.mem_singleton]; decide

/-- The distinct buffers, one by one. -/
theorem arrBufs_eq7 (c : Dev nD) (W : (b : Ref sig .tc) → Buf (Elt F) ((c : Thread nD τ).loc b)) :
    (Pipeline.arrBufs spec7 c W : sProp 𝕄)
      = iprop((((c : Thread nD τ).loc main_v0_1) ↦{fullShare} W main_v0_1) ∗ (((c : Thread nD τ).loc main_v27) ↦{fullShare} W main_v27)
          ∗ (((c : Thread nD τ).loc main_v4) ↦{fullShare} W main_v4) ∗ (((c : Thread nD τ).loc main_v28) ↦{fullShare} W main_v28)) := by
  unfold Pipeline.arrBufs
  rw [image_arr7, bigSep_insert notMem7_a, bigSep_insert notMem7_b, bigSep_insert notMem7_c, bigSep_singleton]
  rfl

/-- Window 0's array at contents `W` of its buffer, at the window's share. -/
theorem arrW7_0 (c : Dev nD) (W : (b : Ref sig .tc) → Buf (Elt F) ((c : Thread nD τ).loc b)) :
    (((cfg7.win 0).arr.view.loc (c : Thread nD τ)) ↦[(cfg7.win 0).arr.view.set]{(dat7 V c).share 0} W (Pipeline.arrRef spec7 0) : sProp 𝕄)
      = (((c : Thread nD τ).loc main_v0_1) ↦{fullShare} W main_v0_1) := by
  rw [(arr_whole7 0).set_eq_univ]; rfl

/-- Window 1's array at contents `W` of its buffer, at the window's share. -/
theorem arrW7_1 (c : Dev nD) (W : (b : Ref sig .tc) → Buf (Elt F) ((c : Thread nD τ).loc b)) :
    (((cfg7.win 1).arr.view.loc (c : Thread nD τ)) ↦[(cfg7.win 1).arr.view.set]{(dat7 V c).share 1} W (Pipeline.arrRef spec7 1) : sProp 𝕄)
      = (((c : Thread nD τ).loc main_v27) ↦{fullShare.left} W main_v27) := by
  rw [(arr_whole7 1).set_eq_univ]; rfl

/-- Window 2's array at contents `W` of its buffer, at the window's share. -/
theorem arrW7_2 (c : Dev nD) (W : (b : Ref sig .tc) → Buf (Elt F) ((c : Thread nD τ).loc b)) :
    (((cfg7.win 2).arr.view.loc (c : Thread nD τ)) ↦[(cfg7.win 2).arr.view.set]{(dat7 V c).share 2} W (Pipeline.arrRef spec7 2) : sProp 𝕄)
      = (((c : Thread nD τ).loc main_v4) ↦{fullShare} W main_v4) := by
  rw [(arr_whole7 2).set_eq_univ]; rfl

/-- Window 3's array at contents `W` of its buffer, at the window's share. -/
theorem arrW7_3 (c : Dev nD) (W : (b : Ref sig .tc) → Buf (Elt F) ((c : Thread nD τ).loc b)) :
    (((cfg7.win 3).arr.view.loc (c : Thread nD τ)) ↦[(cfg7.win 3).arr.view.set]{(dat7 V c).share 3} W (Pipeline.arrRef spec7 3) : sProp 𝕄)
      = (((c : Thread nD τ).loc main_v27) ↦{fullShare.right} W main_v27) := by
  rw [(arr_whole7 3).set_eq_univ]; rfl

/-- Window 4's array at contents `W` of its buffer, at the window's share. -/
theorem arrW7_4 (c : Dev nD) (W : (b : Ref sig .tc) → Buf (Elt F) ((c : Thread nD τ).loc b)) :
    (((cfg7.win 4).arr.view.loc (c : Thread nD τ)) ↦[(cfg7.win 4).arr.view.set]{(dat7 V c).share 4} W (Pipeline.arrRef spec7 4) : sProp 𝕄)
      = (((c : Thread nD τ).loc main_v28) ↦{fullShare} W main_v28) := by
  rw [(arr_whole7 4).set_eq_univ]; rfl

/-- The windows' arrays at contents `W` of the buffers behind them, window by window. -/
theorem arrays_eq7 (c : Dev nD) (W : (b : Ref sig .tc) → Buf (Elt F) ((c : Thread nD τ).loc b)) :
    ((dat7 V c).arrays (fun w => W (Pipeline.arrRef spec7 w)) : sProp 𝕄)
      = iprop((((c : Thread nD τ).loc main_v0_1) ↦{fullShare} W main_v0_1) ∗ (((c : Thread nD τ).loc main_v27) ↦{fullShare.left} W main_v27)
          ∗ (((c : Thread nD τ).loc main_v4) ↦{fullShare} W main_v4) ∗ (((c : Thread nD τ).loc main_v27) ↦{fullShare.right} W main_v27)
          ∗ (((c : Thread nD τ).loc main_v28) ↦{fullShare} W main_v28)) := by
  unfold Dat.arrays
  rw [bigSep_W7]
  exact congrArg₂ BI.sep (arrW7_0 V c W) (congrArg₂ BI.sep (arrW7_1 V c W) (congrArg₂ BI.sep (arrW7_2 V c W) (congrArg₂ BI.sep (arrW7_3 V c W) (arrW7_4 V c W))))

/-- The posterior's buffer whole is its two halves. -/
theorem halves7 (c : Dev nD) (W : (b : Ref sig .tc) → Buf (Elt F) ((c : Thread nD τ).loc b)) :
    ((((c : Thread nD τ).loc main_v27) ↦{fullShare} W main_v27) : sProp 𝕄)
      ⊣⊢ iprop((((c : Thread nD τ).loc main_v27) ↦{fullShare.left} W main_v27) ∗ (((c : Thread nD τ).loc main_v27) ↦{fullShare.right} W main_v27)) :=
  pointsTo_share (PosShare.mem_left_op_right fullShare)

/-- The buffers behind the arrays, each whole at the full share, dealt among the windows. -/
theorem arrays_of_bufs7 (c : Dev nD) (W : (b : Ref sig .tc) → Buf (Elt F) ((c : Thread nD τ).loc b)) :
    (Pipeline.arrBufs spec7 c W : sProp 𝕄) ⊢ (dat7 V c).arrays (fun w => W (Pipeline.arrRef spec7 w)) := by
  rw [arrBufs_eq7, arrays_eq7 V c W]
  iintro ⟨H0, H1, H2, H4⟩
  ihave H13 := (halves7 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays7 (c : Dev nD) (W : (b : Ref sig .tc) → Buf (Elt F) ((c : Thread nD τ).loc b)) :
    ((dat7 V c).arrays (fun w => W (Pipeline.arrRef spec7 w)) : sProp 𝕄) ⊢ Pipeline.arrBufs spec7 c W := by
  rw [arrBufs_eq7, arrays_eq7 V c W]
  iintro ⟨H0, H1, H2, H3, H4⟩
  ihave H13 := (halves7 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry7 (c : Dev nD) :
    (unscopedBufs c (V c) : sProp 𝕄) ⊢ iprop((dat7 V c).arrays ((dat7 V c).arrAt · 0) ∗ Pipeline.unscopedRest spec7 c (V c)) := by
  rw [Pipeline.unscopedBufs_split₀ cfgs 7 winFacts₀7.arr_unscoped c (V c)]
  exact sep_mono (arrays_of_bufs7 V c (V c)) .rfl

/-- What the region's arrays hold after the last point, array by array: an input as the region found it. -/
theorem arrAtN7 (c : Dev nD) (W' : (b : Ref sig .tc) → Buf (Elt F) ((c : Thread nD τ).loc b))
    (hnew : W' main_v28 = (dat7 V c).arrAt 4 cfg7.N) (hrest : ∀ b : Ref sig .tc, b ≠ main_v28 → W' b = V c b) :
    ((dat7 V c).arrAt · cfg7.N) = fun w => W' (Pipeline.arrRef spec7 w) := by
  funext w
  fin_cases w
  · exact ((dat7 V c).arrAt_in 0 rfl _).trans ((A_eq7 V c 0).trans (hrest _ (by decide)).symm)
  · exact ((dat7 V c).arrAt_in 1 rfl _).trans ((A_eq7 V c 1).trans (hrest _ (by decide)).symm)
  · exact ((dat7 V c).arrAt_in 2 rfl _).trans ((A_eq7 V c 2).trans (hrest _ (by decide)).symm)
  · exact ((dat7 V c).arrAt_in 3 rfl _).trans ((A_eq7 V c 3).trans (hrest _ (by decide)).symm)
  · exact hnew.symm

/-- EXIT: the windows' arrays at what the write-backs left and the rest make the unscoped buffers at contents `W'` that
    hold the new posterior at what the region left and every other buffer as the region found it. -/
theorem exit7 (c : Dev nD) (W' : (b : Ref sig .tc) → Buf (Elt F) ((c : Thread nD τ).loc b))
    (hnew : W' main_v28 = (dat7 V c).arrAt 4 cfg7.N) (hrest : ∀ b : Ref sig .tc, b ≠ main_v28 → W' b = V c b) :
    iprop((dat7 V c).arrays ((dat7 V c).arrAt · cfg7.N) ∗ Pipeline.unscopedRest spec7 c (V c)) ⊢ (unscopedBufs c W' : sProp 𝕄) := by
  rw [Pipeline.unscopedBufs_split₀ cfgs 7 winFacts₀7.arr_unscoped c W', arrAtN7 V c W' hnew hrest]
  refine sep_mono (bufs_of_arrays7 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.Kernel.Hand

end
-- ==== Proof.BProp8.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.Kernel.Launch
import proofs.«111186_j27504970563868_1_alg».proof.Proof.Gen.Kernel.Skeleton
import proofs.«111186_j27504970563868_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The whole-buffer rectangles the body loads and stores through. -/
abbrev r8_A : Rect S1024x8192 := Rect.unit (s := S1024x8192) ![0, 0] S1024x8192.size inb_S1024x8192_S1024x8192_0_0
abbrev r8_E : Rect S8192x2 := Rect.unit (s := S8192x2) ![0, 0] S8192x2.size inb_S8192x2_S8192x2_0_0
abbrev r8_d : Rect S1024x1 := Rect.unit (s := S1024x1) ![0, 0] S1024x1.size inb_S1024x1_S1024x1_0_0
abbrev r8_o : Rect S1024x2 := Rect.unit (s := S1024x2) ![0, 0] S1024x2.size inb_S1024x2_S1024x2_0_0

/-- The output window's staging buffer after the body, from the input windows' blocks: its one store read back. -/
def out8_4 (x0 : Vec F S1024x8192 .bf16) (x1 : Vec F S8192x2 .f32) (x2 : Vec F S1024x1 .f32) (x3 : Vec F S1024x2 .f32) : Vec F S1024x2 .f32 :=
  View.canon [⟨r8_o, k8_pay1 (View.ld x1 r8_E) (View.ld x0 r8_A) (View.ld x2 r8_d) (View.ld x3 r8_o)⟩]

/-- The store covers the buffer. -/
theorem cover8_4 (p0 : Vec F S1024x2 .f32) (y : S1024x2.Idx) :
    ∃ pc ∈ ([⟨r8_o, p0⟩] : List (View.Piece (Elt F) S1024x2 .f32)), y ∈ pc.1.set :=
  View.cover_of_tiled [⟨r8_o, p0⟩] S1024x2.size (by rfl) y

set_option maxHeartbeats 2000000 in
/-- The body on whole staging memrefs, the inputs' at contents `xW` and the output's at anything, runs to the
    continuation holding the inputs' as they were and the output's at `out8_4` of them. -/
theorem sound_kernel8 (c : Dev nD) (E : Set ℕ) (i : grid8.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out8_4 x0 x1 x2 x3)) -∗ K ⟨⟩))
      ⊢ wp frame (wpE (defs₀ (F := F)) Variants.none c none) E (cc8__prop_kernel i arg1 harg1 arg2 harg2 arg3 harg3 arg4 harg4 arg5 harg5) K := by
  simp only [cc8__prop_kernel_eq_skeleton]; unfold cc8__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-! ## The proof data of the region, at the contents `V` it is entered from -/

/-- The arrays as the region finds them; after the body each input's buffer at its block and the output's at
    `out8_4` of the input blocks; the invariant the scoped rest and the generator register, untouched; nothing owed.
    The posterior array is read through windows 1 and 3: each holds one half of the full share of it. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) :
    (dat8 V c).after 4 t = out8_4 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' memrefs hold their blocks, so the body's triple applies; the invariant and what
    the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.BPropEnds8.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.BProp8

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr8_0 : Pipeline.arrRef spec8 0 = main_v0_1 := rfl
theorem arr8_1 : Pipeline.arrRef spec8 1 = main_v28 := rfl
theorem arr8_2 : Pipeline.arrRef spec8 2 = main_v4 := rfl
theorem arr8_3 : Pipeline.arrRef spec8 3 = main_v28 := rfl
theorem arr8_4 : Pipeline.arrRef spec8 4 = main_v29 := rfl

/-- The distinct buffers behind the five windows' arrays: four. -/
theorem image_arr8 : (Finset.univ.image (Pipeline.arrRef spec8) : Finset (Ref sig .tc))
    = insert main_v0_1 (insert main_v28 (insert main_v4 {main_v29})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem8_a : (main_v0_1 : Ref sig .tc) ∉ insert main_v28 (insert main_v4 ({main_v29} : Finset (Ref sig .tc))) := by
  simp only [Finset.mem_insert, Finset.mem_singleton, not_or]; exact ⟨by decide, by decide, by decide⟩
theorem notMem8_b : (main_v28 : Ref sig .tc) ∉ insert main_v4 ({main_v29} : Finset (Ref sig .tc)) := by
  simp only [Finset.mem_insert, Finset.mem_singleton, not_or]; exact ⟨by decide, by decide⟩
theorem notMem8_c : (main_v4 : Ref sig .tc) ∉ ({main_v29} : Finset (Ref sig .tc)) := by
  simp only [Finset.mem_singleton]; decide

/-- The distinct buffers, one by one. -/
theorem arrBufs_eq8 (c : Dev nD) (W : (b : Ref sig .tc) → Buf (Elt F) ((c : Thread nD τ).loc b)) :
    (Pipeline.arrBufs spec8 c W : sProp 𝕄)
      = iprop((((c : Thread nD τ).loc main_v0_1) ↦{fullShare} W main_v0_1) ∗ (((c : Thread nD τ).loc main_v28) ↦{fullShare} W main_v28)
          ∗ (((c : Thread nD τ).loc main_v4) ↦{fullShare} W main_v4) ∗ (((c : Thread nD τ).loc main_v29) ↦{fullShare} W main_v29)) := by
  unfold Pipeline.arrBufs
  rw [image_arr8, bigSep_insert notMem8_a, bigSep_insert notMem8_b, bigSep_insert notMem8_c, bigSep_singleton]
  rfl

/-- Window 0's array at contents `W` of its buffer, at the window's share. -/
theorem arrW8_0 (c : Dev nD) (W : (b : Ref sig .tc) → Buf (Elt F) ((c : Thread nD τ).loc b)) :
    (((cfg8.win 0).arr.view.loc (c : Thread nD τ)) ↦[(cfg8.win 0).arr.view.set]{(dat8 V c).share 0} W (Pipeline.arrRef spec8 0) : sProp 𝕄)
      = (((c : Thread nD τ).loc main_v0_1) ↦{fullShare} W main_v0_1) := by
  rw [(arr_whole8 0).set_eq_univ]; rfl

/-- Window 1's array at contents `W` of its buffer, at the window's share. -/
theorem arrW8_1 (c : Dev nD) (W : (b : Ref sig .tc) → Buf (Elt F) ((c : Thread nD τ).loc b)) :
    (((cfg8.win 1).arr.view.loc (c : Thread nD τ)) ↦[(cfg8.win 1).arr.view.set]{(dat8 V c).share 1} W (Pipeline.arrRef spec8 1) : sProp 𝕄)
      = (((c : Thread nD τ).loc main_v28) ↦{fullShare.left} W main_v28) := by
  rw [(arr_whole8 1).set_eq_univ]; rfl

/-- Window 2's array at contents `W` of its buffer, at the window's share. -/
theorem arrW8_2 (c : Dev nD) (W : (b : Ref sig .tc) → Buf (Elt F) ((c : Thread nD τ).loc b)) :
    (((cfg8.win 2).arr.view.loc (c : Thread nD τ)) ↦[(cfg8.win 2).arr.view.set]{(dat8 V c).share 2} W (Pipeline.arrRef spec8 2) : sProp 𝕄)
      = (((c : Thread nD τ).loc main_v4) ↦{fullShare} W main_v4) := by
  rw [(arr_whole8 2).set_eq_univ]; rfl

/-- Window 3's array at contents `W` of its buffer, at the window's share. -/
theorem arrW8_3 (c : Dev nD) (W : (b : Ref sig .tc) → Buf (Elt F) ((c : Thread nD τ).loc b)) :
    (((cfg8.win 3).arr.view.loc (c : Thread nD τ)) ↦[(cfg8.win 3).arr.view.set]{(dat8 V c).share 3} W (Pipeline.arrRef spec8 3) : sProp 𝕄)
      = (((c : Thread nD τ).loc main_v28) ↦{fullShare.right} W main_v28) := by
  rw [(arr_whole8 3).set_eq_univ]; rfl

/-- Window 4's array at contents `W` of its buffer, at the window's share. -/
theorem arrW8_4 (c : Dev nD) (W : (b : Ref sig .tc) → Buf (Elt F) ((c : Thread nD τ).loc b)) :
    (((cfg8.win 4).arr.view.loc (c : Thread nD τ)) ↦[(cfg8.win 4).arr.view.set]{(dat8 V c).share 4} W (Pipeline.arrRef spec8 4) : sProp 𝕄)
      = (((c : Thread nD τ).loc main_v29) ↦{fullShare} W main_v29) := by
  rw [(arr_whole8 4).set_eq_univ]; rfl

/-- The windows' arrays at contents `W` of the buffers behind them, window by window. -/
theorem arrays_eq8 (c : Dev nD) (W : (b : Ref sig .tc) → Buf (Elt F) ((c : Thread nD τ).loc b)) :
    ((dat8 V c).arrays (fun w => W (Pipeline.arrRef spec8 w)) : sProp 𝕄)
      = iprop((((c : Thread nD τ).loc main_v0_1) ↦{fullShare} W main_v0_1) ∗ (((c : Thread nD τ).loc main_v28) ↦{fullShare.left} W main_v28)
          ∗ (((c : Thread nD τ).loc main_v4) ↦{fullShare} W main_v4) ∗ (((c : Thread nD τ).loc main_v28) ↦{fullShare.right} W main_v28)
          ∗ (((c : Thread nD τ).loc main_v29) ↦{fullShare} W main_v29)) := by
  unfold Dat.arrays
  rw [bigSep_W8]
  exact congrArg₂ BI.sep (arrW8_0 V c W) (congrArg₂ BI.sep (arrW8_1 V c W) (congrArg₂ BI.sep (arrW8_2 V c W) (congrArg₂ BI.sep (arrW8_3 V c W) (arrW8_4 V c W))))

/-- The posterior's buffer whole is its two halves. -/
theorem halves8 (c : Dev nD) (W : (b : Ref sig .tc) → Buf (Elt F) ((c : Thread nD τ).loc b)) :
    ((((c : Thread nD τ).loc main_v28) ↦{fullShare} W main_v28) : sProp 𝕄)
      ⊣⊢ iprop((((c : Thread nD τ).loc main_v28) ↦{fullShare.left} W main_v28) ∗ (((c : Thread nD τ).loc main_v28) ↦{fullShare.right} W main_v28)) :=
  pointsTo_share (PosShare.mem_left_op_right fullShare)

/-- The buffers behind the arrays, each whole at the full share, dealt among the windows. -/
theorem arrays_of_bufs8 (c : Dev nD) (W : (b : Ref sig .tc) → Buf (Elt F) ((c : Thread nD τ).loc b)) :
    (Pipeline.arrBufs spec8 c W : sProp 𝕄) ⊢ (dat8 V c).arrays (fun w => W (Pipeline.arrRef spec8 w)) := by
  rw [arrBufs_eq8, arrays_eq8 V c W]
  iintro ⟨H0, H1, H2, H4⟩
  ihave H13 := (halves8 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays8 (c : Dev nD) (W : (b : Ref sig .tc) → Buf (Elt F) ((c : Thread nD τ).loc b)) :
    ((dat8 V c).arrays (fun w => W (Pipeline.arrRef spec8 w)) : sProp 𝕄) ⊢ Pipeline.arrBufs spec8 c W := by
  rw [arrBufs_eq8, arrays_eq8 V c W]
  iintro ⟨H0, H1, H2, H3, H4⟩
  ihave H13 := (halves8 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry8 (c : Dev nD) :
    (unscopedBufs c (V c) : sProp 𝕄) ⊢ iprop((dat8 V c).arrays ((dat8 V c).arrAt · 0) ∗ Pipeline.unscopedRest spec8 c (V c)) := by
  rw [Pipeline.unscopedBufs_split₀ cfgs 8 winFacts₀8.arr_unscoped c (V c)]
  exact sep_mono (arrays_of_bufs8 V c (V c)) .rfl

/-- What the region's arrays hold after the last point, array by array: an input as the region found it. -/
theorem arrAtN8 (c : Dev nD) (W' : (b : Ref sig .tc) → Buf (Elt F) ((c : Thread nD τ).loc b))
    (hnew : W' main_v29 = (dat8 V c).arrAt 4 cfg8.N) (hrest : ∀ b : Ref sig .tc, b ≠ main_v29 → W' b = V c b) :
    ((dat8 V c).arrAt · cfg8.N) = fun w => W' (Pipeline.arrRef spec8 w) := by
  funext w
  fin_cases w
  · exact ((dat8 V c).arrAt_in 0 rfl _).trans ((A_eq8 V c 0).trans (hrest _ (by decide)).symm)
  · exact ((dat8 V c).arrAt_in 1 rfl _).trans ((A_eq8 V c 1).trans (hrest _ (by decide)).symm)
  · exact ((dat8 V c).arrAt_in 2 rfl _).trans ((A_eq8 V c 2).trans (hrest _ (by decide)).symm)
  · exact ((dat8 V c).arrAt_in 3 rfl _).trans ((A_eq8 V c 3).trans (hrest _ (by decide)).symm)
  · exact hnew.symm

/-- EXIT: the windows' arrays at what the write-backs left and the rest make the unscoped buffers at contents `W'` that
    hold the new posterior at what the region left and every other buffer as the region found it. -/
theorem exit8 (c : Dev nD) (W' : (b : Ref sig .tc) → Buf (Elt F) ((c : Thread nD τ).loc b))
    (hnew : W' main_v29 = (dat8 V c).arrAt 4 cfg8.N) (hrest : ∀ b : Ref sig .tc, b ≠ main_v29 → W' b = V c b) :
    iprop((dat8 V c).arrays ((dat8 V c).arrAt · cfg8.N) ∗ Pipeline.unscopedRest spec8 c (V c)) ⊢ (unscopedBufs c W' : sProp 𝕄) := by
  rw [Pipeline.unscopedBufs_split₀ cfgs 8 winFacts₀8.arr_unscoped c W', arrAtN8 V c W' hnew hrest]
  refine sep_mono (bufs_of_arrays8 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.Kernel.Hand

end
-- ==== Proof.BProp9.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.Kernel.Launch
import proofs.«111186_j27504970563868_1_alg».proof.Proof.Gen.Kernel.Skeleton
import proofs.«111186_j27504970563868_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- The whole-buffer rectangles the body loads and stores through. -/
abbrev r9_A : Rect S1024x8192 := Rect.unit (s := S1024x8192) ![0, 0] S1024x8192.size inb_S1024x8192_S1024x8192_0_0
abbrev r9_E : Rect S8192x2 := Rect.unit (s := S8192x2) ![0, 0] S8192x2.size inb_S8192x2_S8192x2_0_0
abbrev r9_d : Rect S1024x1 := Rect.unit (s := S1024x1) ![0, 0] S1024x1.size inb_S1024x1_S1024x1_0_0
abbrev r9_o : Rect S1024x2 := Rect.unit (s := S1024x2) ![0, 0] S1024x2.size inb_S1024x2_S1024x2_0_0

/-- The output window's staging buffer after the body, from the input windows' blocks: its one store read back. -/
def out9_4 (x0 : Vec F S1024x8192 .bf16) (x1 : Vec F S8192x2 .f32) (x2 : Vec F S1024x1 .f32) (x3 : Vec F S1024x2 .f32) : Vec F S1024x2 .f32 :=
  View.canon [⟨r9_o, k9_pay1 (View.ld x1 r9_E) (View.ld x0 r9_A) (View.ld x2 r9_d) (View.ld x3 r9_o)⟩]

/-- The store covers the buffer. -/
theorem cover9_4 (p0 : Vec F S1024x2 .f32) (y : S1024x2.Idx) :
    ∃ pc ∈ ([⟨r9_o, p0⟩] : List (View.Piece (Elt F) S1024x2 .f32)), y ∈ pc.1.set :=
  View.cover_of_tiled [⟨r9_o, p0⟩] S1024x2.size (by rfl) y

set_option maxHeartbeats 2000000 in
/-- The body on whole staging memrefs, the inputs' at contents `xW` and the output's at anything, runs to the
    continuation holding the inputs' as they were and the output's at `out9_4` of them. -/
theorem sound_kernel9 (c : Dev nD) (E : Set ℕ) (i : grid9.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out9_4 x0 x1 x2 x3)) -∗ K ⟨⟩))
      ⊢ wp frame (wpE (defs₀ (F := F)) Variants.none c none) E (cc9__prop_kernel i arg1 harg1 arg2 harg2 arg3 harg3 arg4 harg4 arg5 harg5) K := by
  simp only [cc9__prop_kernel_eq_skeleton]; unfold cc9__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-! ## The proof data of the region, at the contents `V` it is entered from -/

/-- The arrays as the region finds them; after the body each input's buffer at its block and the output's at
    `out9_4` of the input blocks; the invariant the scoped rest and the generator register, untouched; nothing owed.
    The posterior array is read through windows 1 and 3: each holds one half of the full share of it. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' memrefs hold their blocks, so the body's triple applies; the invariant and what
    the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.BPropEnds9.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.BProp9

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr9_0 : Pipeline.arrRef spec9 0 = main_v0_1 := rfl
theorem arr9_1 : Pipeline.arrRef spec9 1 = main_v29 := rfl
theorem arr9_2 : Pipeline.arrRef spec9 2 = main_v4 := rfl
theorem arr9_3 : Pipeline.arrRef spec9 3 = main_v29 := rfl
theorem arr9_4 : Pipeline.arrRef spec9 4 = main_v30 := rfl

/-- The distinct buffers behind the five windows' arrays: four. -/
theorem image_arr9 : (Finset.univ.image (Pipeline.arrRef spec9) : Finset (Ref sig .tc))
    = insert main_v0_1 (insert main_v29 (insert main_v4 {main_v30})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem9_a : (main_v0_1 : Ref sig .tc) ∉ insert main_v29 (insert main_v4 ({main_v30} : Finset (Ref sig .tc))) := by
  simp only [Finset.mem_insert, Finset.mem_singleton, not_or]; exact ⟨by decide, by decide, by decide⟩
theorem notMem9_b : (main_v29 : Ref sig .tc) ∉ insert main_v4 ({main_v30} : Finset (Ref sig .tc)) := by
  simp only [Finset.mem_insert, Finset.mem_singleton, not_or]; exact ⟨by decide, by decide⟩
theorem notMem9_c : (main_v4 : Ref sig .tc) ∉ ({main_v30} : Finset (Ref sig .tc)) := by
  simp only [Finset.mem_singleton]; decide

/-- The distinct buffers, one by one. -/
theorem arrBufs_eq9 (c : Dev nD) (W : (b : Ref sig .tc) → Buf (Elt F) ((c : Thread nD τ).loc b)) :
    (Pipeline.arrBufs spec9 c W : sProp 𝕄)
      = iprop((((c : Thread nD τ).loc main_v0_1) ↦{fullShare} W main_v0_1) ∗ (((c : Thread nD τ).loc main_v29) ↦{fullShare} W main_v29)
          ∗ (((c : Thread nD τ).loc main_v4) ↦{fullShare} W main_v4) ∗ (((c : Thread nD τ).loc main_v30) ↦{fullShare} W main_v30)) := by
  unfold Pipeline.arrBufs
  rw [image_arr9, bigSep_insert notMem9_a, bigSep_insert notMem9_b, bigSep_insert notMem9_c, bigSep_singleton]
  rfl

/-- Window 0's array at contents `W` of its buffer, at the window's share. -/
theorem arrW9_0 (c : Dev nD) (W : (b : Ref sig .tc) → Buf (Elt F) ((c : Thread nD τ).loc b)) :
    (((cfg9.win 0).arr.view.loc (c : Thread nD τ)) ↦[(cfg9.win 0).arr.view.set]{(dat9 V c).share 0} W (Pipeline.arrRef spec9 0) : sProp 𝕄)
      = (((c : Thread nD τ).loc main_v0_1) ↦{fullShare} W main_v0_1) := by
  rw [(arr_whole9 0).set_eq_univ]; rfl

/-- Window 1's array at contents `W` of its buffer, at the window's share. -/
theorem arrW9_1 (c : Dev nD) (W : (b : Ref sig .tc) → Buf (Elt F) ((c : Thread nD τ).loc b)) :
    (((cfg9.win 1).arr.view.loc (c : Thread nD τ)) ↦[(cfg9.win 1).arr.view.set]{(dat9 V c).share 1} W (Pipeline.arrRef spec9 1) : sProp 𝕄)
      = (((c : Thread nD τ).loc main_v29) ↦{fullShare.left} W main_v29) := by
  rw [(arr_whole9 1).set_eq_univ]; rfl

/-- Window 2's array at contents `W` of its buffer, at the window's share. -/
theorem arrW9_2 (c : Dev nD) (W : (b : Ref sig .tc) → Buf (Elt F) ((c : Thread nD τ).loc b)) :
    (((cfg9.win 2).arr.view.loc (c : Thread nD τ)) ↦[(cfg9.win 2).arr.view.set]{(dat9 V c).share 2} W (Pipeline.arrRef spec9 2) : sProp 𝕄)
      = (((c : Thread nD τ).loc main_v4) ↦{fullShare} W main_v4) := by
  rw [(arr_whole9 2).set_eq_univ]; rfl

/-- Window 3's array at contents `W` of its buffer, at the window's share. -/
theorem arrW9_3 (c : Dev nD) (W : (b : Ref sig .tc) → Buf (Elt F) ((c : Thread nD τ).loc b)) :
    (((cfg9.win 3).arr.view.loc (c : Thread nD τ)) ↦[(cfg9.win 3).arr.view.set]{(dat9 V c).share 3} W (Pipeline.arrRef spec9 3) : sProp 𝕄)
      = (((c : Thread nD τ).loc main_v29) ↦{fullShare.right} W main_v29) := by
  rw [(arr_whole9 3).set_eq_univ]; rfl

/-- Window 4's array at contents `W` of its buffer, at the window's share. -/
theorem arrW9_4 (c : Dev nD) (W : (b : Ref sig .tc) → Buf (Elt F) ((c : Thread nD τ).loc b)) :
    (((cfg9.win 4).arr.view.loc (c : Thread nD τ)) ↦[(cfg9.win 4).arr.view.set]{(dat9 V c).share 4} W (Pipeline.arrRef spec9 4) : sProp 𝕄)
      = (((c : Thread nD τ).loc main_v30) ↦{fullShare} W main_v30) := by
  rw [(arr_whole9 4).set_eq_univ]; rfl

/-- The windows' arrays at contents `W` of the buffers behind them, window by window. -/
theorem arrays_eq9 (c : Dev nD) (W : (b : Ref sig .tc) → Buf (Elt F) ((c : Thread nD τ).loc b)) :
    ((dat9 V c).arrays (fun w => W (Pipeline.arrRef spec9 w)) : sProp 𝕄)
      = iprop((((c : Thread nD τ).loc main_v0_1) ↦{fullShare} W main_v0_1) ∗ (((c : Thread nD τ).loc main_v29) ↦{fullShare.left} W main_v29)
          ∗ (((c : Thread nD τ).loc main_v4) ↦{fullShare} W main_v4) ∗ (((c : Thread nD τ).loc main_v29) ↦{fullShare.right} W main_v29)
          ∗ (((c : Thread nD τ).loc main_v30) ↦{fullShare} W main_v30)) := by
  unfold Dat.arrays
  rw [bigSep_W9]
  exact congrArg₂ BI.sep (arrW9_0 V c W) (congrArg₂ BI.sep (arrW9_1 V c W) (congrArg₂ BI.sep (arrW9_2 V c W) (congrArg₂ BI.sep (arrW9_3 V c W) (arrW9_4 V c W))))

/-- The posterior's buffer whole is its two halves. -/
theorem halves9 (c : Dev nD) (W : (b : Ref sig .tc) → Buf (Elt F) ((c : Thread nD τ).loc b)) :
    ((((c : Thread nD τ).loc main_v29) ↦{fullShare} W main_v29) : sProp 𝕄)
      ⊣⊢ iprop((((c : Thread nD τ).loc main_v29) ↦{fullShare.left} W main_v29) ∗ (((c : Thread nD τ).loc main_v29) ↦{fullShare.right} W main_v29)) :=
  pointsTo_share (PosShare.mem_left_op_right fullShare)

/-- The buffers behind the arrays, each whole at the full share, dealt among the windows. -/
theorem arrays_of_bufs9 (c : Dev nD) (W : (b : Ref sig .tc) → Buf (Elt F) ((c : Thread nD τ).loc b)) :
    (Pipeline.arrBufs spec9 c W : sProp 𝕄) ⊢ (dat9 V c).arrays (fun w => W (Pipeline.arrRef spec9 w)) := by
  rw [arrBufs_eq9, arrays_eq9 V c W]
  iintro ⟨H0, H1, H2, H4⟩
  ihave H13 := (halves9 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays9 (c : Dev nD) (W : (b : Ref sig .tc) → Buf (Elt F) ((c : Thread nD τ).loc b)) :
    ((dat9 V c).arrays (fun w => W (Pipeline.arrRef spec9 w)) : sProp 𝕄) ⊢ Pipeline.arrBufs spec9 c W := by
  rw [arrBufs_eq9, arrays_eq9 V c W]
  iintro ⟨H0, H1, H2, H3, H4⟩
  ihave H13 := (halves9 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry9 (c : Dev nD) :
    (unscopedBufs c (V c) : sProp 𝕄) ⊢ iprop((dat9 V c).arrays ((dat9 V c).arrAt · 0) ∗ Pipeline.unscopedRest spec9 c (V c)) := by
  rw [Pipeline.unscopedBufs_split₀ cfgs 9 winFacts₀9.arr_unscoped c (V c)]
  exact sep_mono (arrays_of_bufs9 V c (V c)) .rfl

/-- What the region's arrays hold after the last point, array by array: an input as the region found it. -/
theorem arrAtN9 (c : Dev nD) (W' : (b : Ref sig .tc) → Buf (Elt F) ((c : Thread nD τ).loc b))
    (hnew : W' main_v30 = (dat9 V c).arrAt 4 cfg9.N) (hrest : ∀ b : Ref sig .tc, b ≠ main_v30 → W' b = V c b) :
    ((dat9 V c).arrAt · cfg9.N) = fun w => W' (Pipeline.arrRef spec9 w) := by
  funext w
  fin_cases w
  · exact ((dat9 V c).arrAt_in 0 rfl _).trans ((A_eq9 V c 0).trans (hrest _ (by decide)).symm)
  · exact ((dat9 V c).arrAt_in 1 rfl _).trans ((A_eq9 V c 1).trans (hrest _ (by decide)).symm)
  · exact ((dat9 V c).arrAt_in 2 rfl _).trans ((A_eq9 V c 2).trans (hrest _ (by decide)).symm)
  · exact ((dat9 V c).arrAt_in 3 rfl _).trans ((A_eq9 V c 3).trans (hrest _ (by decide)).symm)
  · exact hnew.symm

/-- EXIT: the windows' arrays at what the write-backs left and the rest make the unscoped buffers at contents `W'` that
    hold the new posterior at what the region left and every other buffer as the region found it. -/
theorem exit9 (c : Dev nD) (W' : (b : Ref sig .tc) → Buf (Elt F) ((c : Thread nD τ).loc b))
    (hnew : W' main_v30 = (dat9 V c).arrAt 4 cfg9.N) (hrest : ∀ b : Ref sig .tc, b ≠ main_v30 → W' b = V c b) :
    iprop((dat9 V c).arrays ((dat9 V c).arrAt · cfg9.N) ∗ Pipeline.unscopedRest spec9 c (V c)) ⊢ (unscopedBufs c W' : sProp 𝕄) := by
  rw [Pipeline.unscopedBufs_split₀ cfgs 9 winFacts₀9.arr_unscoped c W', arrAtN9 V c W' hnew hrest]
  refine sep_mono (bufs_of_arrays9 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.Kernel.Hand

end
-- ==== Proof.BProp10.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.Kernel.Launch
import proofs.«111186_j27504970563868_1_alg».proof.Proof.Gen.Kernel.Skeleton
import proofs.«111186_j27504970563868_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- The whole-buffer rectangles the body loads and stores through. -/
abbrev r10_A : Rect S1024x8192 := Rect.unit (s := S1024x8192) ![0, 0] S1024x8192.size inb_S1024x8192_S1024x8192_0_0
abbrev r10_E : Rect S8192x2 := Rect.unit (s := S8192x2) ![0, 0] S8192x2.size inb_S8192x2_S8192x2_0_0
abbrev r10_d : Rect S1024x1 := Rect.unit (s := S1024x1) ![0, 0] S1024x1.size inb_S1024x1_S1024x1_0_0
abbrev r10_o : Rect S1024x2 := Rect.unit (s := S1024x2) ![0, 0] S1024x2.size inb_S1024x2_S1024x2_0_0

/-- The output window's staging buffer after the body, from the input windows' blocks: its one store read back. -/
def out10_4 (x0 : Vec F S1024x8192 .bf16) (x1 : Vec F S8192x2 .f32) (x2 : Vec F S1024x1 .f32) (x3 : Vec F S1024x2 .f32) : Vec F S1024x2 .f32 :=
  View.canon [⟨r10_o, k10_pay1 (View.ld x1 r10_E) (View.ld x0 r10_A) (View.ld x2 r10_d) (View.ld x3 r10_o)⟩]

/-- The store covers the buffer. -/
theorem cover10_4 (p0 : Vec F S1024x2 .f32) (y : S1024x2.Idx) :
    ∃ pc ∈ ([⟨r10_o, p0⟩] : List (View.Piece (Elt F) S1024x2 .f32)), y ∈ pc.1.set :=
  View.cover_of_tiled [⟨r10_o, p0⟩] S1024x2.size (by rfl) y

set_option maxHeartbeats 2000000 in
/-- The body on whole staging memrefs, the inputs' at contents `xW` and the output's at anything, runs to the
    continuation holding the inputs' as they were and the output's at `out10_4` of them. -/
theorem sound_kernel10 (c : Dev nD) (E : Set ℕ) (i : grid10.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out10_4 x0 x1 x2 x3)) -∗ K ⟨⟩))
      ⊢ wp frame (wpE (defs₀ (F := F)) Variants.none c none) E (cc10__prop_kernel i arg1 harg1 arg2 harg2 arg3 harg3 arg4 harg4 arg5 harg5) K := by
  simp only [cc10__prop_kernel_eq_skeleton]; unfold cc10__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover10_4 _)

/-! ## The proof data of the region, at the contents `V` it is entered from -/

/-- The arrays as the region finds them; after the body each input's buffer at its block and the output's at
    `out10_4` of the input blocks; the invariant the scoped rest and the generator register, untouched; nothing owed.
    The posterior array is read through windows 1 and 3: each holds one half of the full share of it. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t) (iblk10 V c 3 t)
  Φ _ := Pipeline.ΦA spec10 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = out10_4 (iblk10 V c 0 t) (iblk10 V c 1 t) (iblk10 V c 2 t) (iblk10 V c 3 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-! ## The body obligation -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

/-- The body at any point: the inputs' memrefs hold their blocks, so the body's triple applies; the invariant and what
    the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ _ _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.BPropEnds10.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.BProp10

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr10_0 : Pipeline.arrRef spec10 0 = main_v0_1 := rfl
theorem arr10_1 : Pipeline.arrRef spec10 1 = main_v30 := rfl
theorem arr10_2 : Pipeline.arrRef spec10 2 = main_v4 := rfl
theorem arr10_3 : Pipeline.arrRef spec10 3 = main_v30 := rfl
theorem arr10_4 : Pipeline.arrRef spec10 4 = main_v31 := rfl

/-- The distinct buffers behind the five windows' arrays: four. -/
theorem image_arr10 : (Finset.univ.image (Pipeline.arrRef spec10) : Finset (Ref sig .tc))
    = insert main_v0_1 (insert main_v30 (insert main_v4 {main_v31})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem10_a : (main_v0_1 : Ref sig .tc) ∉ insert main_v30 (insert main_v4 ({main_v31} : Finset (Ref sig .tc))) := by
  simp only [Finset.mem_insert, Finset.mem_singleton, not_or]; exact ⟨by decide, by decide, by decide⟩
theorem notMem10_b : (main_v30 : Ref sig .tc) ∉ insert main_v4 ({main_v31} : Finset (Ref sig .tc)) := by
  simp only [Finset.mem_insert, Finset.mem_singleton, not_or]; exact ⟨by decide, by decide⟩
theorem notMem10_c : (main_v4 : Ref sig .tc) ∉ ({main_v31} : Finset (Ref sig .tc)) := by
  simp only [Finset.mem_singleton]; decide

/-- The distinct buffers, one by one. -/
theorem arrBufs_eq10 (c : Dev nD) (W : (b : Ref sig .tc) → Buf (Elt F) ((c : Thread nD τ).loc b)) :
    (Pipeline.arrBufs spec10 c W : sProp 𝕄)
      = iprop((((c : Thread nD τ).loc main_v0_1) ↦{fullShare} W main_v0_1) ∗ (((c : Thread nD τ).loc main_v30) ↦{fullShare} W main_v30)
          ∗ (((c : Thread nD τ).loc main_v4) ↦{fullShare} W main_v4) ∗ (((c : Thread nD τ).loc main_v31) ↦{fullShare} W main_v31)) := by
  unfold Pipeline.arrBufs
  rw [image_arr10, bigSep_insert notMem10_a, bigSep_insert notMem10_b, bigSep_insert notMem10_c, bigSep_singleton]
  rfl

/-- Window 0's array at contents `W` of its buffer, at the window's share. -/
theorem arrW10_0 (c : Dev nD) (W : (b : Ref sig .tc) → Buf (Elt F) ((c : Thread nD τ).loc b)) :
    (((cfg10.win 0).arr.view.loc (c : Thread nD τ)) ↦[(cfg10.win 0).arr.view.set]{(dat10 V c).share 0} W (Pipeline.arrRef spec10 0) : sProp 𝕄)
      = (((c : Thread nD τ).loc main_v0_1) ↦{fullShare} W main_v0_1) := by
  rw [(arr_whole10 0).set_eq_univ]; rfl

/-- Window 1's array at contents `W` of its buffer, at the window's share. -/
theorem arrW10_1 (c : Dev nD) (W : (b : Ref sig .tc) → Buf (Elt F) ((c : Thread nD τ).loc b)) :
    (((cfg10.win 1).arr.view.loc (c : Thread nD τ)) ↦[(cfg10.win 1).arr.view.set]{(dat10 V c).share 1} W (Pipeline.arrRef spec10 1) : sProp 𝕄)
      = (((c : Thread nD τ).loc main_v30) ↦{fullShare.left} W main_v30) := by
  rw [(arr_whole10 1).set_eq_univ]; rfl

/-- Window 2's array at contents `W` of its buffer, at the window's share. -/
theorem arrW10_2 (c : Dev nD) (W : (b : Ref sig .tc) → Buf (Elt F) ((c : Thread nD τ).loc b)) :
    (((cfg10.win 2).arr.view.loc (c : Thread nD τ)) ↦[(cfg10.win 2).arr.view.set]{(dat10 V c).share 2} W (Pipeline.arrRef spec10 2) : sProp 𝕄)
      = (((c : Thread nD τ).loc main_v4) ↦{fullShare} W main_v4) := by
  rw [(arr_whole10 2).set_eq_univ]; rfl

/-- Window 3's array at contents `W` of its buffer, at the window's share. -/
theorem arrW10_3 (c : Dev nD) (W : (b : Ref sig .tc) → Buf (Elt F) ((c : Thread nD τ).loc b)) :
    (((cfg10.win 3).arr.view.loc (c : Thread nD τ)) ↦[(cfg10.win 3).arr.view.set]{(dat10 V c).share 3} W (Pipeline.arrRef spec10 3) : sProp 𝕄)
      = (((c : Thread nD τ).loc main_v30) ↦{fullShare.right} W main_v30) := by
  rw [(arr_whole10 3).set_eq_univ]; rfl

/-- Window 4's array at contents `W` of its buffer, at the window's share. -/
theorem arrW10_4 (c : Dev nD) (W : (b : Ref sig .tc) → Buf (Elt F) ((c : Thread nD τ).loc b)) :
    (((cfg10.win 4).arr.view.loc (c : Thread nD τ)) ↦[(cfg10.win 4).arr.view.set]{(dat10 V c).share 4} W (Pipeline.arrRef spec10 4) : sProp 𝕄)
      = (((c : Thread nD τ).loc main_v31) ↦{fullShare} W main_v31) := by
  rw [(arr_whole10 4).set_eq_univ]; rfl

/-- The windows' arrays at contents `W` of the buffers behind them, window by window. -/
theorem arrays_eq10 (c : Dev nD) (W : (b : Ref sig .tc) → Buf (Elt F) ((c : Thread nD τ).loc b)) :
    ((dat10 V c).arrays (fun w => W (Pipeline.arrRef spec10 w)) : sProp 𝕄)
      = iprop((((c : Thread nD τ).loc main_v0_1) ↦{fullShare} W main_v0_1) ∗ (((c : Thread nD τ).loc main_v30) ↦{fullShare.left} W main_v30)
          ∗ (((c : Thread nD τ).loc main_v4) ↦{fullShare} W main_v4) ∗ (((c : Thread nD τ).loc main_v30) ↦{fullShare.right} W main_v30)
          ∗ (((c : Thread nD τ).loc main_v31) ↦{fullShare} W main_v31)) := by
  unfold Dat.arrays
  rw [bigSep_W10]
  exact congrArg₂ BI.sep (arrW10_0 V c W) (congrArg₂ BI.sep (arrW10_1 V c W) (congrArg₂ BI.sep (arrW10_2 V c W) (congrArg₂ BI.sep (arrW10_3 V c W) (arrW10_4 V c W))))

/-- The posterior's buffer whole is its two halves. -/
theorem halves10 (c : Dev nD) (W : (b : Ref sig .tc) → Buf (Elt F) ((c : Thread nD τ).loc b)) :
    ((((c : Thread nD τ).loc main_v30) ↦{fullShare} W main_v30) : sProp 𝕄)
      ⊣⊢ iprop((((c : Thread nD τ).loc main_v30) ↦{fullShare.left} W main_v30) ∗ (((c : Thread nD τ).loc main_v30) ↦{fullShare.right} W main_v30)) :=
  pointsTo_share (PosShare.mem_left_op_right fullShare)

/-- The buffers behind the arrays, each whole at the full share, dealt among the windows. -/
theorem arrays_of_bufs10 (c : Dev nD) (W : (b : Ref sig .tc) → Buf (Elt F) ((c : Thread nD τ).loc b)) :
    (Pipeline.arrBufs spec10 c W : sProp 𝕄) ⊢ (dat10 V c).arrays (fun w => W (Pipeline.arrRef spec10 w)) := by
  rw [arrBufs_eq10, arrays_eq10 V c W]
  iintro ⟨H0, H1, H2, H4⟩
  ihave H13 := (halves10 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays10 (c : Dev nD) (W : (b : Ref sig .tc) → Buf (Elt F) ((c : Thread nD τ).loc b)) :
    ((dat10 V c).arrays (fun w => W (Pipeline.arrRef spec10 w)) : sProp 𝕄) ⊢ Pipeline.arrBufs spec10 c W := by
  rw [arrBufs_eq10, arrays_eq10 V c W]
  iintro ⟨H0, H1, H2, H3, H4⟩
  ihave H13 := (halves10 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry10 (c : Dev nD) :
    (unscopedBufs c (V c) : sProp 𝕄) ⊢ iprop((dat10 V c).arrays ((dat10 V c).arrAt · 0) ∗ Pipeline.unscopedRest spec10 c (V c)) := by
  rw [Pipeline.unscopedBufs_split₀ cfgs 10 winFacts₀10.arr_unscoped c (V c)]
  exact sep_mono (arrays_of_bufs10 V c (V c)) .rfl

/-- What the region's arrays hold after the last point, array by array: an input as the region found it. -/
theorem arrAtN10 (c : Dev nD) (W' : (b : Ref sig .tc) → Buf (Elt F) ((c : Thread nD τ).loc b))
    (hnew : W' main_v31 = (dat10 V c).arrAt 4 cfg10.N) (hrest : ∀ b : Ref sig .tc, b ≠ main_v31 → W' b = V c b) :
    ((dat10 V c).arrAt · cfg10.N) = fun w => W' (Pipeline.arrRef spec10 w) := by
  funext w
  fin_cases w
  · exact ((dat10 V c).arrAt_in 0 rfl _).trans ((A_eq10 V c 0).trans (hrest _ (by decide)).symm)
  · exact ((dat10 V c).arrAt_in 1 rfl _).trans ((A_eq10 V c 1).trans (hrest _ (by decide)).symm)
  · exact ((dat10 V c).arrAt_in 2 rfl _).trans ((A_eq10 V c 2).trans (hrest _ (by decide)).symm)
  · exact ((dat10 V c).arrAt_in 3 rfl _).trans ((A_eq10 V c 3).trans (hrest _ (by decide)).symm)
  · exact hnew.symm

/-- EXIT: the windows' arrays at what the write-backs left and the rest make the unscoped buffers at contents `W'` that
    hold the new posterior at what the region left and every other buffer as the region found it. -/
theorem exit10 (c : Dev nD) (W' : (b : Ref sig .tc) → Buf (Elt F) ((c : Thread nD τ).loc b))
    (hnew : W' main_v31 = (dat10 V c).arrAt 4 cfg10.N) (hrest : ∀ b : Ref sig .tc, b ≠ main_v31 → W' b = V c b) :
    iprop((dat10 V c).arrays ((dat10 V c).arrAt · cfg10.N) ∗ Pipeline.unscopedRest spec10 c (V c)) ⊢ (unscopedBufs c W' : sProp 𝕄) := by
  rw [Pipeline.unscopedBufs_split₀ cfgs 10 winFacts₀10.arr_unscoped c W', arrAtN10 V c W' hnew hrest]
  refine sep_mono (bufs_of_arrays10 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.Kernel.Hand

end
-- ==== Proof.BRun.lean ====
/-
  The whole program as a list of segments — host operations, the tile region, host operations, the ten propagation
  regions, host operations — and its run: every weakly fair execution terminates, nothing faulting, and every unscoped
  buffer ends at the last of the boundary contents `W0 … W16` (the launch memory, then each stretch of host operations
  applied, then each region's outputs at what its write-backs left).
-/
import proofs.«111186_j27504970563868_1_alg».proof.Proof.BA0
import proofs.«111186_j27504970563868_1_alg».proof.Proof.BPropEnds1
import proofs.«111186_j27504970563868_1_alg».proof.Proof.BPropEnds2
import proofs.«111186_j27504970563868_1_alg».proof.Proof.BPropEnds3
import proofs.«111186_j27504970563868_1_alg».proof.Proof.BPropEnds4
import proofs.«111186_j27504970563868_1_alg».proof.Proof.BPropEnds5
import proofs.«111186_j27504970563868_1_alg».proof.Proof.BPropEnds6
import proofs.«111186_j27504970563868_1_alg».proof.Proof.BPropEnds7
import proofs.«111186_j27504970563868_1_alg».proof.Proof.BPropEnds8
import proofs.«111186_j27504970563868_1_alg».proof.Proof.BPropEnds9
import proofs.«111186_j27504970563868_1_alg».proof.Proof.BPropEnds10
import proofs.«111186_j27504970563868_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segments' boundaries -/

abbrev W0 : Dev nD → Valuation τ sig (Elt F) := fun c b => m (c, b)
abbrev W1 : Dev nD → Valuation τ sig (Elt F) := fun c => StableHlo.after hostOps0 (W0 m c)
abbrev T1 : (c : Dev nD) → (b : Ref sig .tc) → Buf (Elt F) ((c : Thread nD τ).loc b) := fun c b => W1 m c b
/-- After the tile region: its four output arrays at what the write-backs left, every other buffer as entered. -/
def W2 (c : Dev nD) : Valuation τ sig (Elt F) :=
  Pipeline.withArrays spec0 c (W1 m c) fun w => (dat0 (T1 m) c).arrAt w cfg0.N
theorem W2_arr (c : Dev nD) (w : Fin cfg0.W) :
    W2 m c (Proc.devRef .tc (Pipeline.arrRef spec0 w)) = (dat0 (T1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev T2 : (c : Dev nD) → (b : Ref sig .tc) → Buf (Elt F) ((c : Thread nD τ).loc b) := fun c b => W2 m c b
theorem hF0 (c : Dev nD) (w : Fin cfg0.W) : (dat0 (T1 m) c).arrAt w cfg0.N = T2 m c (Pipeline.arrRef spec0 w) :=
  (W2_arr m c w).symm
theorem hrest0 (c : Dev nD) : ∀ b, b ∉ Finset.univ.image (Pipeline.arrRef spec0) → T2 m c b = T1 m c b :=
  fun b hb => W2_of_ne m c b fun w e => hb (Finset.mem_image.mpr ⟨w, Finset.mem_univ _, e⟩)
abbrev W3 : Dev nD → Valuation τ sig (Elt F) := fun c => StableHlo.after hostOps1 (W2 m c)
abbrev T3 : (c : Dev nD) → (b : Ref sig .tc) → Buf (Elt F) ((c : Thread nD τ).loc b) := fun c b => W3 m c b

/-- After region 1 (one propagation step): the new posterior's buffer holds what the region's write-backs left, every
    other buffer what it held at entry. -/
def W4 (c : Dev nD) : Valuation τ sig (Elt F) :=
  Function.update (W3 m c) (Proc.devRef .tc main_v22) ((dat1 (T3 m) c).arrAt 4 cfg1.N)
abbrev T4 : (c : Dev nD) → (b : Ref sig .tc) → Buf (Elt F) ((c : Thread nD τ).loc b) := fun c b => W4 m c b
theorem T4_new (c : Dev nD) : T4 m c main_v22 = (dat1 (T3 m) c).arrAt 4 cfg1.N := by
  show W4 m c (Proc.devRef .tc main_v22) = _
  unfold W4; exact Function.update_self _ _ _
theorem T4_of_ne (c : Dev nD) (b : Ref sig .tc) (h : b ≠ main_v22) : T4 m c b = T3 m c b := by
  show W4 m c (Proc.devRef .tc b) = W3 m c (Proc.devRef .tc b)
  unfold W4; exact Function.update_of_ne (StableHlo.devRef_ne_of_ne h) _ _

/-- After region 2 (one propagation step): the new posterior's buffer holds what the region's write-backs left, every
    other buffer what it held at entry. -/
def W5 (c : Dev nD) : Valuation τ sig (Elt F) :=
  Function.update (W4 m c) (Proc.devRef .tc main_v23) ((dat2 (T4 m) c).arrAt 4 cfg2.N)
abbrev T5 : (c : Dev nD) → (b : Ref sig .tc) → Buf (Elt F) ((c : Thread nD τ).loc b) := fun c b => W5 m c b
theorem T5_new (c : Dev nD) : T5 m c main_v23 = (dat2 (T4 m) c).arrAt 4 cfg2.N := by
  show W5 m c (Proc.devRef .tc main_v23) = _
  unfold W5; exact Function.update_self _ _ _
theorem T5_of_ne (c : Dev nD) (b : Ref sig .tc) (h : b ≠ main_v23) : T5 m c b = T4 m c b := by
  show W5 m c (Proc.devRef .tc b) = W4 m c (Proc.devRef .tc b)
  unfold W5; exact Function.update_of_ne (StableHlo.devRef_ne_of_ne h) _ _

/-- After region 3 (one propagation step): the new posterior's buffer holds what the region's write-backs left, every
    other buffer what it held at entry. -/
def W6 (c : Dev nD) : Valuation τ sig (Elt F) :=
  Function.update (W5 m c) (Proc.devRef .tc main_v24) ((dat3 (T5 m) c).arrAt 4 cfg3.N)
abbrev T6 : (c : Dev nD) → (b : Ref sig .tc) → Buf (Elt F) ((c : Thread nD τ).loc b) := fun c b => W6 m c b
theorem T6_new (c : Dev nD) : T6 m c main_v24 = (dat3 (T5 m) c).arrAt 4 cfg3.N := by
  show W6 m c (Proc.devRef .tc main_v24) = _
  unfold W6; exact Function.update_self _ _ _
theorem T6_of_ne (c : Dev nD) (b : Ref sig .tc) (h : b ≠ main_v24) : T6 m c b = T5 m c b := by
  show W6 m c (Proc.devRef .tc b) = W5 m c (Proc.devRef .tc b)
  unfold W6; exact Function.update_of_ne (StableHlo.devRef_ne_of_ne h) _ _

/-- After region 4 (one propagation step): the new posterior's buffer holds what the region's write-backs left, every
    other buffer what it held at entry. -/
def W7 (c : Dev nD) : Valuation τ sig (Elt F) :=
  Function.update (W6 m c) (Proc.devRef .tc main_v25) ((dat4 (T6 m) c).arrAt 4 cfg4.N)
abbrev T7 : (c : Dev nD) → (b : Ref sig .tc) → Buf (Elt F) ((c : Thread nD τ).loc b) := fun c b => W7 m c b
theorem T7_new (c : Dev nD) : T7 m c main_v25 = (dat4 (T6 m) c).arrAt 4 cfg4.N := by
  show W7 m c (Proc.devRef .tc main_v25) = _
  unfold W7; exact Function.update_self _ _ _
theorem T7_of_ne (c : Dev nD) (b : Ref sig .tc) (h : b ≠ main_v25) : T7 m c b = T6 m c b := by
  show W7 m c (Proc.devRef .tc b) = W6 m c (Proc.devRef .tc b)
  unfold W7; exact Function.update_of_ne (StableHlo.devRef_ne_of_ne h) _ _

/-- After region 5 (one propagation step): the new posterior's buffer holds what the region's write-backs left, every
    other buffer what it held at entry. -/
def W8 (c : Dev nD) : Valuation τ sig (Elt F) :=
  Function.update (W7 m c) (Proc.devRef .tc main_v26) ((dat5 (T7 m) c).arrAt 4 cfg5.N)
abbrev T8 : (c : Dev nD) → (b : Ref sig .tc) → Buf (Elt F) ((c : Thread nD τ).loc b) := fun c b => W8 m c b
theorem T8_new (c : Dev nD) : T8 m c main_v26 = (dat5 (T7 m) c).arrAt 4 cfg5.N := by
  show W8 m c (Proc.devRef .tc main_v26) = _
  unfold W8; exact Function.update_self _ _ _
theorem T8_of_ne (c : Dev nD) (b : Ref sig .tc) (h : b ≠ main_v26) : T8 m c b = T7 m c b := by
  show W8 m c (Proc.devRef .tc b) = W7 m c (Proc.devRef .tc b)
  unfold W8; exact Function.update_of_ne (StableHlo.devRef_ne_of_ne h) _ _

/-- After region 6 (one propagation step): the new posterior's buffer holds what the region's write-backs left, every
    other buffer what it held at entry. -/
def W9 (c : Dev nD) : Valuation τ sig (Elt F) :=
  Function.update (W8 m c) (Proc.devRef .tc main_v27) ((dat6 (T8 m) c).arrAt 4 cfg6.N)
abbrev T9 : (c : Dev nD) → (b : Ref sig .tc) → Buf (Elt F) ((c : Thread nD τ).loc b) := fun c b => W9 m c b
theorem T9_new (c : Dev nD) : T9 m c main_v27 = (dat6 (T8 m) c).arrAt 4 cfg6.N := by
  show W9 m c (Proc.devRef .tc main_v27) = _
  unfold W9; exact Function.update_self _ _ _
theorem T9_of_ne (c : Dev nD) (b : Ref sig .tc) (h : b ≠ main_v27) : T9 m c b = T8 m c b := by
  show W9 m c (Proc.devRef .tc b) = W8 m c (Proc.devRef .tc b)
  unfold W9; exact Function.update_of_ne (StableHlo.devRef_ne_of_ne h) _ _

/-- After region 7 (one propagation step): the new posterior's buffer holds what the region's write-backs left, every
    other buffer what it held at entry. -/
def W10 (c : Dev nD) : Valuation τ sig (Elt F) :=
  Function.update (W9 m c) (Proc.devRef .tc main_v28) ((dat7 (T9 m) c).arrAt 4 cfg7.N)
abbrev T10 : (c : Dev nD) → (b : Ref sig .tc) → Buf (Elt F) ((c : Thread nD τ).loc b) := fun c b => W10 m c b
theorem T10_new (c : Dev nD) : T10 m c main_v28 = (dat7 (T9 m) c).arrAt 4 cfg7.N := by
  show W10 m c (Proc.devRef .tc main_v28) = _
  unfold W10; exact Function.update_self _ _ _
theorem T10_of_ne (c : Dev nD) (b : Ref sig .tc) (h : b ≠ main_v28) : T10 m c b = T9 m c b := by
  show W10 m c (Proc.devRef .tc b) = W9 m c (Proc.devRef .tc b)
  unfold W10; exact Function.update_of_ne (StableHlo.devRef_ne_of_ne h) _ _

/-- After region 8 (one propagation step): the new posterior's buffer holds what the region's write-backs left, every
    other buffer what it held at entry. -/
def W11 (c : Dev nD) : Valuation τ sig (Elt F) :=
  Function.update (W10 m c) (Proc.devRef .tc main_v29) ((dat8 (T10 m) c).arrAt 4 cfg8.N)
abbrev T11 : (c : Dev nD) → (b : Ref sig .tc) → Buf (Elt F) ((c : Thread nD τ).loc b) := fun c b => W11 m c b
theorem T11_new (c : Dev nD) : T11 m c main_v29 = (dat8 (T10 m) c).arrAt 4 cfg8.N := by
  show W11 m c (Proc.devRef .tc main_v29) = _
  unfold W11; exact Function.update_self _ _ _
theorem T11_of_ne (c : Dev nD) (b : Ref sig .tc) (h : b ≠ main_v29) : T11 m c b = T10 m c b := by
  show W11 m c (Proc.devRef .tc b) = W10 m c (Proc.devRef .tc b)
  unfold W11; exact Function.update_of_ne (StableHlo.devRef_ne_of_ne h) _ _

/-- After region 9 (one propagation step): the new posterior's buffer holds what the region's write-backs left, every
    other buffer what it held at entry. -/
def W12 (c : Dev nD) : Valuation τ sig (Elt F) :=
  Function.update (W11 m c) (Proc.devRef .tc main_v30) ((dat9 (T11 m) c).arrAt 4 cfg9.N)
abbrev T12 : (c : Dev nD) → (b : Ref sig .tc) → Buf (Elt F) ((c : Thread nD τ).loc b) := fun c b => W12 m c b
theorem T12_new (c : Dev nD) : T12 m c main_v30 = (dat9 (T11 m) c).arrAt 4 cfg9.N := by
  show W12 m c (Proc.devRef .tc main_v30) = _
  unfold W12; exact Function.update_self _ _ _
theorem T12_of_ne (c : Dev nD) (b : Ref sig .tc) (h : b ≠ main_v30) : T12 m c b = T11 m c b := by
  show W12 m c (Proc.devRef .tc b) = W11 m c (Proc.devRef .tc b)
  unfold W12; exact Function.update_of_ne (StableHlo.devRef_ne_of_ne h) _ _

/-- After region 10 (one propagation step): the new posterior's buffer holds what the region's write-backs left, every
    other buffer what it held at entry. -/
def W13 (c : Dev nD) : Valuation τ sig (Elt F) :=
  Function.update (W12 m c) (Proc.devRef .tc main_v31) ((dat10 (T12 m) c).arrAt 4 cfg10.N)
abbrev T13 : (c : Dev nD) → (b : Ref sig .tc) → Buf (Elt F) ((c : Thread nD τ).loc b) := fun c b => W13 m c b
theorem T13_new (c : Dev nD) : T13 m c main_v31 = (dat10 (T12 m) c).arrAt 4 cfg10.N := by
  show W13 m c (Proc.devRef .tc main_v31) = _
  unfold W13; exact Function.update_self _ _ _
theorem T13_of_ne (c : Dev nD) (b : Ref sig .tc) (h : b ≠ main_v31) : T13 m c b = T12 m c b := by
  show W13 m c (Proc.devRef .tc b) = W12 m c (Proc.devRef .tc b)
  unfold W13; exact Function.update_of_ne (StableHlo.devRef_ne_of_ne h) _ _

abbrev W14 : Dev nD → Valuation τ sig (Elt F) := fun c => StableHlo.after hostOps11 (W13 m c)
abbrev W15 : Dev nD → Valuation τ sig (Elt F) := fun c => StableHlo.after hostOps11_1 (W14 m c)
abbrev W16 : Dev nD → Valuation τ sig (Elt F) := fun c => StableHlo.after hostOps11_2 (W15 m c)

/-! ## The proof data family and the thread state -/

abbrev adm : (p : Fin 11) → (pcfgs (F := F) p).Adm := fun p => (cfgs p).toPCfg_adm
/-- Every pipeline's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T4 m) c
  | ⟨3, _⟩ => fun c => dat3 (T5 m) c
  | ⟨4, _⟩ => fun c => dat4 (T6 m) c
  | ⟨5, _⟩ => fun c => dat5 (T7 m) c
  | ⟨6, _⟩ => fun c => dat6 (T8 m) c
  | ⟨7, _⟩ => fun c => dat7 (T9 m) c
  | ⟨8, _⟩ => fun c => dat8 (T10 m) c
  | ⟨9, _⟩ => fun c => dat9 (T11 m) c
  | ⟨10, _⟩ => fun c => dat10 (T12 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 (the tile kernel) over the thread state: entered from every unscoped buffer at `W1`, left at `W2`. Its
    arrays are distinct buffers; the invariant carries the two scratch columns. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (T1 m) c).Φ 0 from rfl]
    iintro ⟨Hp, -, Hr⟩
    iapply (hin0 (T1 m) c)
    unfold Pipeline.ΦA
    isplitl [Hr]; · iexact Hr
    iexact Hp
  hout c := by
    rw [Pipeline.ownSems0_none, show (pdats m 0 c).Φ (Fin.last _) = (dat0 (T1 m) c).Φ (Fin.last cfg0.N) from rfl]
    refine (hout0 (T1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit : (unscopedBufs c (T3 m c) : sProp 𝕄) ⊢ iprop((pdats m 1 c).arrays ((pdats m 1 c).arrAt · 0) ∗ Pipeline.unscopedRest spec1 c (T3 m c)) :=
      entry1 (T3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (T3 m c)) ⊢ (unscopedBufs c (T4 m c) : sProp 𝕄) :=
      exit1 (T3 m) c (T4 m c) (T4_new m c) (T4_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (T4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (T4 m c)
  hentry c := by
    rw [Pipeline.ownSems0_none]
    have hsplit : (unscopedBufs c (T4 m c) : sProp 𝕄) ⊢ iprop((pdats m 2 c).arrays ((pdats m 2 c).arrAt · 0) ∗ Pipeline.unscopedRest spec2 c (T4 m c)) :=
      entry2 (T4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (T4 m c)) ⊢ (unscopedBufs c (T5 m c) : sProp 𝕄) :=
      exit2 (T4 m) c (T5 m c) (T5_new m c) (T5_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W5`, left at `W6`. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (T5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (T5 m c)
  hentry c := by
    rw [Pipeline.ownSems0_none]
    have hsplit : (unscopedBufs c (T5 m c) : sProp 𝕄) ⊢ iprop((pdats m 3 c).arrays ((pdats m 3 c).arrAt · 0) ∗ Pipeline.unscopedRest spec3 c (T5 m c)) :=
      entry3 (T5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (T5 m c)) ⊢ (unscopedBufs c (T6 m c) : sProp 𝕄) :=
      exit3 (T5 m) c (T6 m c) (T6_new m c) (T6_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W6`, left at `W7`. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (T6 m) c).loose
  hwaits := Pipeline.hwaits_of_owed_zero _ _ _ _ L lv 4 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec4 c (T6 m c)
  hentry c := by
    rw [Pipeline.ownSems0_none]
    have hsplit : (unscopedBufs c (T6 m c) : sProp 𝕄) ⊢ iprop((pdats m 4 c).arrays ((pdats m 4 c).arrAt · 0) ∗ Pipeline.unscopedRest spec4 c (T6 m c)) :=
      entry4 (T6 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest spec4 c (T6 m c)) ⊢ (unscopedBufs c (T7 m c) : sProp 𝕄) :=
      exit4 (T6 m) c (T7 m c) (T7_new m c) (T7_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W7`, left at `W8`. -/
def reg5 : Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (body_obligation5 (T7 m) c).loose
  hwaits := Pipeline.hwaits_of_owed_zero _ _ _ _ L lv 5 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec5 c (T7 m c)
  hentry c := by
    rw [Pipeline.ownSems0_none]
    have hsplit : (unscopedBufs c (T7 m c) : sProp 𝕄) ⊢ iprop((pdats m 5 c).arrays ((pdats m 5 c).arrAt · 0) ∗ Pipeline.unscopedRest spec5 c (T7 m c)) :=
      entry5 (T7 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin : iprop((pdats m 5 c).arrays ((pdats m 5 c).arrAt · cfg5.N) ∗ Pipeline.unscopedRest spec5 c (T7 m c)) ⊢ (unscopedBufs c (T8 m c) : sProp 𝕄) :=
      exit5 (T7 m) c (T8 m c) (T8_new m c) (T8_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W8`, left at `W9`. -/
def reg6 : Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (T8 m) c).loose
  hwaits := Pipeline.hwaits_of_owed_zero _ _ _ _ L lv 6 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec6 c (T8 m c)
  hentry c := by
    rw [Pipeline.ownSems0_none]
    have hsplit : (unscopedBufs c (T8 m c) : sProp 𝕄) ⊢ iprop((pdats m 6 c).arrays ((pdats m 6 c).arrAt · 0) ∗ Pipeline.unscopedRest spec6 c (T8 m c)) :=
      entry6 (T8 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin : iprop((pdats m 6 c).arrays ((pdats m 6 c).arrAt · cfg6.N) ∗ Pipeline.unscopedRest spec6 c (T8 m c)) ⊢ (unscopedBufs c (T9 m c) : sProp 𝕄) :=
      exit6 (T8 m) c (T9 m c) (T9_new m c) (T9_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W9`, left at `W10`. -/
def reg7 : Pipeline.RegionSeg (pcfgs (F := F)) adm (pdats m) () defs₀ 𝒱₀ L lv 7 where
  win := winFacts₀7
  block_pos := block_pos7
  stage_whole := stage_whole7
  K := PEmpty
  osem k := k.elim
  ho := Pipeline.OwnSemFacts.none _
  hbody c := (body_obligation7 (T9 m) c).loose
  hwaits := Pipeline.hwaits_of_owed_zero _ _ _ _ L lv 7 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec7 c (T9 m c)
  hentry c := by
    rw [Pipeline.ownSems0_none]
    have hsplit : (unscopedBufs c (T9 m c) : sProp 𝕄) ⊢ iprop((pdats m 7 c).arrays ((pdats m 7 c).arrAt · 0) ∗ Pipeline.unscopedRest spec7 c (T9 m c)) :=
      entry7 (T9 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin : iprop((pdats m 7 c).arrays ((pdats m 7 c).arrAt · cfg7.N) ∗ Pipeline.unscopedRest spec7 c (T9 m c)) ⊢ (unscopedBufs c (T10 m c) : sProp 𝕄) :=
      exit7 (T9 m) c (T10 m c) (T10_new m c) (T10_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W10`, left at `W11`. -/
def reg8 : Pipeline.RegionSeg (pcfgs (F := F)) adm (pdats m) () defs₀ 𝒱₀ L lv 8 where
  win := winFacts₀8
  block_pos := block_pos8
  stage_whole := stage_whole8
  K := PEmpty
  osem k := k.elim
  ho := Pipeline.OwnSemFacts.none _
  hbody c := (body_obligation8 (T10 m) c).loose
  hwaits := Pipeline.hwaits_of_owed_zero _ _ _ _ L lv 8 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec8 c (T10 m c)
  hentry c := by
    rw [Pipeline.ownSems0_none]
    have hsplit : (unscopedBufs c (T10 m c) : sProp 𝕄) ⊢ iprop((pdats m 8 c).arrays ((pdats m 8 c).arrAt · 0) ∗ Pipeline.unscopedRest spec8 c (T10 m c)) :=
      entry8 (T10 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin : iprop((pdats m 8 c).arrays ((pdats m 8 c).arrAt · cfg8.N) ∗ Pipeline.unscopedRest spec8 c (T10 m c)) ⊢ (unscopedBufs c (T11 m c) : sProp 𝕄) :=
      exit8 (T10 m) c (T11 m c) (T11_new m c) (T11_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered from every unscoped buffer at `W11`, left at `W12`. -/
def reg9 : Pipeline.RegionSeg (pcfgs (F := F)) adm (pdats m) () defs₀ 𝒱₀ L lv 9 where
  win := winFacts₀9
  block_pos := block_pos9
  stage_whole := stage_whole9
  K := PEmpty
  osem k := k.elim
  ho := Pipeline.OwnSemFacts.none _
  hbody c := (body_obligation9 (T11 m) c).loose
  hwaits := Pipeline.hwaits_of_owed_zero _ _ _ _ L lv 9 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec9 c (T11 m c)
  hentry c := by
    rw [Pipeline.ownSems0_none]
    have hsplit : (unscopedBufs c (T11 m c) : sProp 𝕄) ⊢ iprop((pdats m 9 c).arrays ((pdats m 9 c).arrAt · 0) ∗ Pipeline.unscopedRest spec9 c (T11 m c)) :=
      entry9 (T11 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin : iprop((pdats m 9 c).arrays ((pdats m 9 c).arrAt · cfg9.N) ∗ Pipeline.unscopedRest spec9 c (T11 m c)) ⊢ (unscopedBufs c (T12 m c) : sProp 𝕄) :=
      exit9 (T11 m) c (T12 m c) (T12_new m c) (T12_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 10 over the thread state: entered from every unscoped buffer at `W12`, left at `W13`. -/
def reg10 : Pipeline.RegionSeg (pcfgs (F := F)) adm (pdats m) () defs₀ 𝒱₀ L lv 10 where
  win := winFacts₀10
  block_pos := block_pos10
  stage_whole := stage_whole10
  K := PEmpty
  osem k := k.elim
  ho := Pipeline.OwnSemFacts.none _
  hbody c := (body_obligation10 (T12 m) c).loose
  hwaits := Pipeline.hwaits_of_owed_zero _ _ _ _ L lv 10 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec10 c (T12 m c)
  hentry c := by
    rw [Pipeline.ownSems0_none]
    have hsplit : (unscopedBufs c (T12 m c) : sProp 𝕄) ⊢ iprop((pdats m 10 c).arrays ((pdats m 10 c).arrAt · 0) ∗ Pipeline.unscopedRest spec10 c (T12 m c)) :=
      entry10 (T12 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin : iprop((pdats m 10 c).arrays ((pdats m 10 c).arrAt · cfg10.N) ∗ Pipeline.unscopedRest spec10 c (T12 m c)) ⊢ (unscopedBufs c (T13 m c) : sProp 𝕄) :=
      exit10 (T12 m) c (T13 m c) (T13_new m c) (T13_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .region (reg3 m),
    .region (reg4 m),
    .region (reg5 m),
    .region (reg6 m),
    .region (reg7 m),
    .region (reg8 m),
    .region (reg9 m),
    .region (reg10 m),
    .host (hseg hostOps11 hostOps11_sub hostOps11_fresh (W13 m)),
    .host (hseg hostOps11_1 hostOps11_1_sub hostOps11_1_fresh (W14 m)),
    .host (hseg hostOps11_2 hostOps11_2_sub hostOps11_2_fresh (W15 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer of every core ends at the last boundary's contents `W16`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W16 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W16 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W16 m c) ∗ R c)
        ⊢ iprop(iprop(StableHlo.held (c : Thread nD τ) (Pipeline.ucRefs τ sig) (W16 m c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c => h c)

end Cert.Kernel.Hand

end
-- ==== Proof.BRunReads.lean ====
/-
  The last boundary's contents read at the argument buffers (each as launched: no host operation and no region writes
  an argument) and at the matrix result (what the tile region's write-backs left), and the frame as a corollary of the run.
-/
import proofs.«111186_j27504970563868_1_alg».proof.Proof.BRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_keep (c : Dev nD) (r : Ref sig .tc) (h : r ∉ hostOps0_W) : W1 m c r = W0 m c r :=
  StableHlo.after_of_writes_sub hostOps0 _ hostOps0_writes h
theorem W3_keep (c : Dev nD) (r : Ref sig .tc) (h : r ∉ hostOps1_W) : W3 m c r = W2 m c r :=
  StableHlo.after_of_writes_sub hostOps1 _ hostOps1_writes h
theorem W14_keep (c : Dev nD) (r : Ref sig .tc) (h : r ∉ hostOps11_W) : W14 m c r = W13 m c r :=
  StableHlo.after_of_writes_sub hostOps11 _ hostOps11_writes h
theorem W15_keep (c : Dev nD) (r : Ref sig .tc) (h : r ∉ hostOps11_1_W) : W15 m c r = W14 m c r :=
  StableHlo.after_of_writes_sub hostOps11_1 _ hostOps11_1_writes h
theorem W16_keep (c : Dev nD) (r : Ref sig .tc) (h : r ∉ hostOps11_2_W) : W16 m c r = W15 m c r :=
  StableHlo.after_of_writes_sub hostOps11_2 _ hostOps11_2_writes h

/-- The ten propagation regions' outputs. -/
abbrev stepOuts : List (Ref sig .tc) := [main_v22, main_v23, main_v24, main_v25, main_v26, main_v27, main_v28, main_v29, main_v30, main_v31]

/-- From the end back to after the tile region, at a buffer that no later host stretch and no propagation region writes. -/
theorem W16_of_W2 (c : Dev nD) (r : Ref sig .tc) (h1 : r ∉ hostOps1_W) (hn : ∀ x ∈ stepOuts, r ≠ x)
    (h11 : r ∉ hostOps11_W) (h111 : r ∉ hostOps11_1_W) (h112 : r ∉ hostOps11_2_W) : W16 m c r = W2 m c r :=
  (W16_keep m c r h112).trans <| (W15_keep m c r h111).trans <| (W14_keep m c r h11).trans <|
    (T13_of_ne m c r (hn main_v31 (by decide))).trans <|
    (T12_of_ne m c r (hn main_v30 (by decide))).trans <|
    (T11_of_ne m c r (hn main_v29 (by decide))).trans <|
    (T10_of_ne m c r (hn main_v28 (by decide))).trans <|
    (T9_of_ne m c r (hn main_v27 (by decide))).trans <|
    (T8_of_ne m c r (hn main_v26 (by decide))).trans <|
    (T7_of_ne m c r (hn main_v25 (by decide))).trans <|
    (T6_of_ne m c r (hn main_v24 (by decide))).trans <|
    (T5_of_ne m c r (hn main_v23 (by decide))).trans <|
    (T4_of_ne m c r (hn main_v22 (by decide))).trans <|
    (W3_keep m c r h1)

theorem W16_main_arg0 (c : Dev nD) : W16 m c main_arg0 = m ((c : Thread nD τ).loc main_arg0) :=
  (W16_of_W2 m c main_arg0 (by decide) (fun x hx => by revert x; decide) (by decide) (by decide) (by decide)).trans <|
    (W2_of_ne m c main_arg0 (by decide)).trans <| (W1_keep m c main_arg0 (by decide)).trans rfl
theorem W16_main_arg1 (c : Dev nD) : W16 m c main_arg1 = m ((c : Thread nD τ).loc main_arg1) :=
  (W16_of_W2 m c main_arg1 (by decide) (fun x hx => by revert x; decide) (by decide) (by decide) (by decide)).trans <|
    (W2_of_ne m c main_arg1 (by decide)).trans <| (W1_keep m c main_arg1 (by decide)).trans rfl
theorem W16_main_arg2 (c : Dev nD) : W16 m c main_arg2 = m ((c : Thread nD τ).loc main_arg2) :=
  (W16_of_W2 m c main_arg2 (by decide) (fun x hx => by revert x; decide) (by decide) (by decide) (by decide)).trans <|
    (W2_of_ne m c main_arg2 (by decide)).trans <| (W1_keep m c main_arg2 (by decide)).trans rfl
theorem W16_main_arg3 (c : Dev nD) : W16 m c main_arg3 = m ((c : Thread nD τ).loc main_arg3) :=
  (W16_of_W2 m c main_arg3 (by decide) (fun x hx => by revert x; decide) (by decide) (by decide) (by decide)).trans <|
    (W2_arr m c 0).trans <| ((dat0 (T1 m) c).arrAt_in 0 rfl _).trans <| (A_eq0 (T1 m) c 0).trans <|
      (W1_keep m c main_arg3 (by decide)).trans rfl
theorem W16_main_arg4 (c : Dev nD) : W16 m c main_arg4 = m ((c : Thread nD τ).loc main_arg4) :=
  (W16_of_W2 m c main_arg4 (by decide) (fun x hx => by revert x; decide) (by decide) (by decide) (by decide)).trans <|
    (W2_arr m c 1).trans <| ((dat0 (T1 m) c).arrAt_in 1 rfl _).trans <| (A_eq0 (T1 m) c 1).trans <|
      (W1_keep m c main_arg4 (by decide)).trans rfl

/-- The matrix result's buffer ends at what the tile region's write-backs left in it. -/
theorem W16_main_v0_0 (c : Dev nD) : W16 m c main_v0_0 = (dat0 (T1 m) c).arrAt 2 cfg0.N :=
  (W16_of_W2 m c main_v0_0 (by decide) (fun x hx => by revert x; decide) (by decide) (by decide) (by decide)).trans (W2_arr m c 2)

/-- THE FRAME: every weakly fair execution terminates, nothing faulting, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W16_main_arg0 m c),
     (h c _ (mem_uc main_arg1 (by decide))).trans (W16_main_arg1 m c),
     (h c _ (mem_uc main_arg2 (by decide))).trans (W16_main_arg2 m c),
     (h c _ (mem_uc main_arg3 (by decide))).trans (W16_main_arg3 m c),
     (h c _ (mem_uc main_arg4 (by decide))).trans (W16_main_arg4 m c)⟩) (run m ρ)

end Cert.Kernel.Hand

end
-- ==== Proof.A0Runs.lean ====
/-
  The first region: the tile kernel that builds M * (A + I) tile by tile, and accumulates over the 16 column tiles of a
  row tile, in two scratch columns, the row sums of A + I and of M * M, which it writes out at the last column tile.
  Here: the windows' blocks, the two branch conditions in closed form over the grid (first column tile: the scratch
  columns are reset; last column tile: they are written out), where the two conditionally stored output windows are
  idle, and the region invariant with the two scratch columns named.
-/
import proofs.«111186_j27504970563868_1_alg».proof.Proof.Gen.KernelIdeal.Launch
import proofs.«111186_j27504970563868_1_alg».proof.Proof.Gen.KernelIdeal.Skeleton
import proofs.«111186_j27504970563868_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- The body's first conditional (the scratch columns are reset): the column tile is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The body's second conditional (the scratch columns are written out): the column tile is the last. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-! ## The staging memrefs and the scratch columns -/

abbrev VO0_2 : View sig .tc .vmem S1024x512 .f32 := (Memref.whole cc0_stg2_0 : Memref sig .tc .vmem S1024x512 .f32).view
abbrev VO0_3 : View sig .tc .vmem S1024x512 .bf16 := (Memref.whole cc0_stg3_0 : Memref sig .tc .vmem S1024x512 .bf16).view
abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The scoped buffers of the core that are neither a staging buffer of this region nor one of its two scratch columns. -/
abbrev restBut0 (c : Dev nD) : sProp 𝕄 :=
  Pipeline.scopedRestBut (Ix := Unit) (Name := ℕ) (U := UR sig nD τ) (Lvl := ℕ) (Val := Elt F) spec0 c [cc0_scratch0, cc0_scratch1]

/-- The class's invariant with the two scratch columns as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restBut0 c) ∗ (∃ r, prngReg c r)) := by
  unfold Pipeline.ΦA; rw [scopedRest0_split]; simp only [scM0_0, scM0_1, owns_whole]; try rfl
-- ==== Proof.A0RunA.lean ====
/-
  The tile kernel's body at a first column tile: the scratch columns are reset, then accumulated into; nothing is written
  out. What each store leaves is found by running the body.
-/
import proofs.«111186_j27504970563868_1_alg».proof.Proof.A0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave in the two tile outputs and in the two scratch columns at a FIRST column tile, with
    the body's triple: the inputs' staging buffers at their blocks, the two column outputs (idle here) handed back
    untouched, the scratch columns at anything. -/
noncomputable def kernelRun0_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : cond0_0 i) (hc1 : ¬cond0_1 i) (x0 x1 : Vec F S1024x512 .f32) :
    Σ' (L2 : List (View.Piece (Elt F) S1024x512 .f32)) (L3 : List (View.Piece (Elt F) S1024x512 .bf16)) (LS0 : List (View.Piece (Elt F) S1024x1 .f32)),
      { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__ahat_kernel i arg2 harg2 arg3 harg3 arg4 harg4 arg5 harg5 arg6 harg6 arg7 harg7 arg8 harg8 arg9 harg9) K } := by
  refine ⟨?_, ?_, ?_, ?_, fun xi4 xi5 E K => ?run⟩
  case run =>
    simp only [cc0__ahat_kernel_eq_skeleton]; unfold cc0__ahat_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.A0RunB.lean ====
/-
  The tile kernel's body at a column tile that is neither the first nor the last: the scratch columns, at what the
  column tile before left in them, are accumulated into; nothing is reset, nothing is written out.
-/
import proofs.«111186_j27504970563868_1_alg».proof.Proof.A0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave at an INNER column tile, with the body's triple: the scratch columns at the
    contents `xs0`, `xs1` the tile before left, the two column outputs (idle here) handed back untouched. -/
noncomputable def kernelRun0_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬cond0_0 i) (hc1 : ¬cond0_1 i) (x0 x1 : Vec F S1024x512 .f32) (xs0 xs1 : Vec F S1024x1 .f32) :
    Σ' (L2 : List (View.Piece (Elt F) S1024x512 .f32)) (L3 : List (View.Piece (Elt F) S1024x512 .bf16)) (LS0 : List (View.Piece (Elt F) S1024x1 .f32)),
      { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xi4 ∗ owns (c : Thread nD τ) arg7 fullShare xi5
            ∗ owns (c : Thread nD τ) arg8 fullShare xs0 ∗ owns (c : Thread nD τ) arg9 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__ahat_kernel i arg2 harg2 arg3 harg3 arg4 harg4 arg5 harg5 arg6 harg6 arg7 harg7 arg8 harg8 arg9 harg9) K } := by
  refine ⟨?_, ?_, ?_, ?_, fun xi4 xi5 E K => ?run⟩
  case run =>
    simp only [cc0__ahat_kernel_eq_skeleton]; unfold cc0__ahat_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.A0RunC.lean ====
/-
  The tile kernel's body at a last column tile: the scratch columns are accumulated into and then written out into the
  two column outputs.
-/
import proofs.«111186_j27504970563868_1_alg».proof.Proof.A0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces the body's stores leave at a LAST column tile, with the body's triple: the scratch columns at the
    contents `xs0`, `xs1` the tile before left, every output at anything. -/
noncomputable def kernelRun0_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬cond0_0 i) (hc1 : cond0_1 i) (x0 x1 : Vec F S1024x512 .f32) (xs0 xs1 : Vec F S1024x1 .f32) :
    Σ' (L2 : List (View.Piece (Elt F) S1024x512 .f32)) (L3 : List (View.Piece (Elt F) S1024x512 .bf16))
       (L4 : List (View.Piece (Elt F) S1024x1 .f32)) (L5 : List (View.Piece (Elt F) S1024x1 .f32)) (LS0 : List (View.Piece (Elt F) S1024x1 .f32)),
      { LS1 : List (View.Piece (Elt F) S1024x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__ahat_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__ahat_kernel_eq_skeleton]; unfold cc0__ahat_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    isplitl [HS0]; · iexists _; iexact HS0
    iexists _; iexact HS1

end Cert.KernelIdeal.Hand

end
-- ==== Proof.A0.lean ====
/-
  The first region as a whole: what each of the three kinds of grid point (first, inner, last column tile) leaves in the
  outputs' staging buffers and in the two scratch columns; the scratch columns' contents point by point (reset at a
  first column tile, accumulated at every tile); the region invariant that carries them; the proof data; and the body's
  obligation at every point.
-/
import proofs.«111186_j27504970563868_1_alg».proof.Proof.A0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's run at a grid point, by the kind of the point -/

/-- At a first column tile. -/
noncomputable def runA (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t)
/-- At an inner column tile, the scratch columns at `xs`. -/
noncomputable def runB (c : Dev nD) (t : Fin cfg0.N) (h0 : ¬t.val % 16 = 0) (h1 : ¬t.val % 16 = 15) (xs : Vec F S1024x1 .f32 × Vec F S1024x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) xs.1 xs.2
/-- At a last column tile, the scratch columns at `xs`. -/
noncomputable def runC (c : Dev nD) (t : Fin cfg0.N) (h0 : ¬t.val % 16 = 0) (h1 : t.val % 16 = 15) (xs : Vec F S1024x1 .f32 × Vec F S1024x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) xs.1 xs.2

/-! ## Each run's pieces cover the buffer they are stored into -/

theorem coverA_2 (c : Dev nD) (t : Fin cfg0.N) (h0 h1) (y : S1024x512.Idx) : ∃ pc ∈ (runA V c t h0 h1).1, y ∈ pc.1.set :=
  View.cover_of_tiledL (runA V c t h0 h1).1 S1024x512.size (by sl_kernel_rfl) y
theorem coverA_3 (c : Dev nD) (t : Fin cfg0.N) (h0 h1) (y : S1024x512.Idx) : ∃ pc ∈ (runA V c t h0 h1).2.1, y ∈ pc.1.set :=
  View.cover_of_tiledL (runA V c t h0 h1).2.1 S1024x512.size (by sl_kernel_rfl) y
theorem coverA_s0 (c : Dev nD) (t : Fin cfg0.N) (h0 h1) (y : S1024x1.Idx) : ∃ pc ∈ (runA V c t h0 h1).2.2.1, y ∈ pc.1.set :=
  View.cover_of_tiledL (runA V c t h0 h1).2.2.1 S1024x1.size (by sl_kernel_rfl) y
theorem coverA_s1 (c : Dev nD) (t : Fin cfg0.N) (h0 h1) (y : S1024x1.Idx) : ∃ pc ∈ (runA V c t h0 h1).2.2.2.1, y ∈ pc.1.set :=
  View.cover_of_tiledL (runA V c t h0 h1).2.2.2.1 S1024x1.size (by sl_kernel_rfl) y
theorem coverB_2 (c : Dev nD) (t : Fin cfg0.N) (h0 h1 xs) (y : S1024x512.Idx) : ∃ pc ∈ (runB V c t h0 h1 xs).1, y ∈ pc.1.set :=
  View.cover_of_tiledL (runB V c t h0 h1 xs).1 S1024x512.size (by sl_kernel_rfl) y
theorem coverB_3 (c : Dev nD) (t : Fin cfg0.N) (h0 h1 xs) (y : S1024x512.Idx) : ∃ pc ∈ (runB V c t h0 h1 xs).2.1, y ∈ pc.1.set :=
  View.cover_of_tiledL (runB V c t h0 h1 xs).2.1 S1024x512.size (by sl_kernel_rfl) y
theorem coverB_s0 (c : Dev nD) (t : Fin cfg0.N) (h0 h1 xs) (y : S1024x1.Idx) : ∃ pc ∈ (runB V c t h0 h1 xs).2.2.1, y ∈ pc.1.set :=
  View.cover_of_tiledL (runB V c t h0 h1 xs).2.2.1 S1024x1.size (by sl_kernel_rfl) y
theorem coverB_s1 (c : Dev nD) (t : Fin cfg0.N) (h0 h1 xs) (y : S1024x1.Idx) : ∃ pc ∈ (runB V c t h0 h1 xs).2.2.2.1, y ∈ pc.1.set :=
  View.cover_of_tiledL (runB V c t h0 h1 xs).2.2.2.1 S1024x1.size (by sl_kernel_rfl) y
theorem coverC_2 (c : Dev nD) (t : Fin cfg0.N) (h0 h1 xs) (y : S1024x512.Idx) : ∃ pc ∈ (runC V c t h0 h1 xs).1, y ∈ pc.1.set :=
  View.cover_of_tiledL (runC V c t h0 h1 xs).1 S1024x512.size (by sl_kernel_rfl) y
theorem coverC_3 (c : Dev nD) (t : Fin cfg0.N) (h0 h1 xs) (y : S1024x512.Idx) : ∃ pc ∈ (runC V c t h0 h1 xs).2.1, y ∈ pc.1.set :=
  View.cover_of_tiledL (runC V c t h0 h1 xs).2.1 S1024x512.size (by sl_kernel_rfl) y
theorem coverC_4 (c : Dev nD) (t : Fin cfg0.N) (h0 h1 xs) (y : S1024x1.Idx) : ∃ pc ∈ (runC V c t h0 h1 xs).2.2.1, y ∈ pc.1.set :=
  View.cover_of_tiledL (runC V c t h0 h1 xs).2.2.1 S1024x1.size (by sl_kernel_rfl) y
theorem coverC_5 (c : Dev nD) (t : Fin cfg0.N) (h0 h1 xs) (y : S1024x1.Idx) : ∃ pc ∈ (runC V c t h0 h1 xs).2.2.2.1, y ∈ pc.1.set :=
  View.cover_of_tiledL (runC V c t h0 h1 xs).2.2.2.1 S1024x1.size (by sl_kernel_rfl) y
theorem coverC_s0 (c : Dev nD) (t : Fin cfg0.N) (h0 h1 xs) (y : S1024x1.Idx) : ∃ pc ∈ (runC V c t h0 h1 xs).2.2.2.2.1, y ∈ pc.1.set :=
  View.cover_of_tiledL (runC V c t h0 h1 xs).2.2.2.2.1 S1024x1.size (by sl_kernel_rfl) y
theorem coverC_s1 (c : Dev nD) (t : Fin cfg0.N) (h0 h1 xs) (y : S1024x1.Idx) : ∃ pc ∈ (runC V c t h0 h1 xs).2.2.2.2.2.1, y ∈ pc.1.set :=
  View.cover_of_tiledL (runC V c t h0 h1 xs).2.2.2.2.2.1 S1024x1.size (by sl_kernel_rfl) y

/-! ## What a point leaves: the four outputs' staging buffers and the two scratch columns -/

/-- A list of pieces read back through a whole buffer's view. -/
abbrev rb2 (L : List (View.Piece (Elt F) S1024x512 .f32)) : Vec F S1024x512 .f32 := VO0_2.read (Elt F) (VO0_2.writes (Elt F) VO0_2.junk L)
abbrev rb3 (L : List (View.Piece (Elt F) S1024x512 .bf16)) : Vec F S1024x512 .bf16 := VO0_3.read (Elt F) (VO0_3.writes (Elt F) VO0_3.junk L)
abbrev rbc (L : List (View.Piece (Elt F) S1024x1 .f32)) : Vec F S1024x1 .f32 := VO0_4.read (Elt F) (VO0_4.writes (Elt F) VO0_4.junk L)

/-- What the body leaves at point `t`, the scratch columns holding `xs` before it: the two tile outputs, the two column
    outputs (a placeholder where the point stores nothing into them: the windows are idle there), and the scratch
    columns. -/
noncomputable def leaves0 (c : Dev nD) (t : Fin cfg0.N) (xs : Vec F S1024x1 .f32 × Vec F S1024x1 .f32) :
    Vec F S1024x512 .f32 × Vec F S1024x512 .bf16 × Vec F S1024x1 .f32 × Vec F S1024x1 .f32 × Vec F S1024x1 .f32 × Vec F S1024x1 .f32 :=
  if h0 : t.val % 16 = 0 then
    if h1 : t.val % 16 = 15 then False.elim (absurd (h0.symm.trans h1) (by decide))
    else (rb2 (runA V c t h0 h1).1, rb3 (runA V c t h0 h1).2.1, rbc [], rbc [], rbc (runA V c t h0 h1).2.2.1, rbc (runA V c t h0 h1).2.2.2.1)
  else
    if h1 : t.val % 16 = 15 then
      (rb2 (runC V c t h0 h1 xs).1, rb3 (runC V c t h0 h1 xs).2.1, rbc (runC V c t h0 h1 xs).2.2.1, rbc (runC V c t h0 h1 xs).2.2.2.1,
        rbc (runC V c t h0 h1 xs).2.2.2.2.1, rbc (runC V c t h0 h1 xs).2.2.2.2.2.1)
    else (rb2 (runB V c t h0 h1 xs).1, rb3 (runB V c t h0 h1 xs).2.1, rbc [], rbc [], rbc (runB V c t h0 h1 xs).2.2.1, rbc (runB V c t h0 h1 xs).2.2.2.1)

set_option maxHeartbeats 4000000 in
theorem leaves0_A (c : Dev nD) (t : Fin cfg0.N) (xs) (h0 : t.val % 16 = 0) (h1 : ¬t.val % 16 = 15) :
    leaves0 V c t xs = (rb2 (runA V c t h0 h1).1, rb3 (runA V c t h0 h1).2.1, rbc [], rbc [], rbc (runA V c t h0 h1).2.2.1, rbc (runA V c t h0 h1).2.2.2.1) := by
  unfold leaves0; exact (dif_pos h0).trans (dif_neg h1)
set_option maxHeartbeats 4000000 in
theorem leaves0_B (c : Dev nD) (t : Fin cfg0.N) (xs) (h0 : ¬t.val % 16 = 0) (h1 : ¬t.val % 16 = 15) :
    leaves0 V c t xs = (rb2 (runB V c t h0 h1 xs).1, rb3 (runB V c t h0 h1 xs).2.1, rbc [], rbc [], rbc (runB V c t h0 h1 xs).2.2.1, rbc (runB V c t h0 h1 xs).2.2.2.1) := by
  unfold leaves0; exact (dif_neg h0).trans (dif_neg h1)
set_option maxHeartbeats 4000000 in
theorem leaves0_C (c : Dev nD) (t : Fin cfg0.N) (xs) (h0 : ¬t.val % 16 = 0) (h1 : t.val % 16 = 15) :
    leaves0 V c t xs = (rb2 (runC V c t h0 h1 xs).1, rb3 (runC V c t h0 h1 xs).2.1, rbc (runC V c t h0 h1 xs).2.2.1, rbc (runC V c t h0 h1 xs).2.2.2.1,
        rbc (runC V c t h0 h1 xs).2.2.2.2.1, rbc (runC V c t h0 h1 xs).2.2.2.2.2.1) := by
  unfold leaves0; exact (dif_neg h0).trans (dif_pos h1)

/-- THE ACCUMULATION: the two scratch columns after the body at position `n`, by recursion on the position (at a first
    column tile what was there before does not matter: the columns are reset). -/
noncomputable def scrAt0 (c : Dev nD) : (n : ℕ) → n < cfg0.N → Vec F S1024x1 .f32 × Vec F S1024x1 .f32
  | 0, hn => ((leaves0 V c ⟨0, hn⟩ (rbc [], rbc [])).2.2.2.2.1, (leaves0 V c ⟨0, hn⟩ (rbc [], rbc [])).2.2.2.2.2)
  | n + 1, hn => ((leaves0 V c ⟨n + 1, hn⟩ (scrAt0 c n (Nat.lt_of_succ_lt hn))).2.2.2.2.1, (leaves0 V c ⟨n + 1, hn⟩ (scrAt0 c n (Nat.lt_of_succ_lt hn))).2.2.2.2.2)

/-- The scratch columns as point `t` finds them. -/
noncomputable def scrBefore0 (c : Dev nD) (t : Fin cfg0.N) : Vec F S1024x1 .f32 × Vec F S1024x1 .f32 :=
  if h : t.val = 0 then (rbc [], rbc []) else scrAt0 V c (t.val - 1) (Nat.lt_of_le_of_lt (Nat.sub_le _ _) t.isLt)

theorem scrAt0_eq (c : Dev nD) (t : Fin cfg0.N) :
    scrAt0 V c t.val t.isLt = ((leaves0 V c t (scrBefore0 V c t)).2.2.2.2.1, (leaves0 V c t (scrBefore0 V c t)).2.2.2.2.2) := by
  obtain ⟨n, hn⟩ := t
  cases n with
  | zero => unfold scrBefore0; rw [dif_pos rfl]; rfl
  | succ n => unfold scrBefore0; rw [dif_neg (Nat.succ_ne_zero n)]; rfl

/-! ## The region invariant -/

/-- Before the first point the class's invariant (every scratch at anything); afterwards the scoped rest with the two
    scratch columns at what the point before left in them, and the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare (scrAt0 V c n hn).1 ∗ owns (c : Thread nD τ) scM0_1 fullShare (scrAt0 V c n hn).2) ∗ restBut0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) scM0_0 fullShare (scrAt0 V c n hn).1 ∗ owns (c : Thread nD τ) scM0_1 fullShare (scrAt0 V c n hn).2) ∗ restBut0 c) ∗ (∃ r, prngReg c r)) := rfl
theorem PhiS_pos (c : Dev nD) (n : ℕ) (h : n ≤ cfg0.N) (hz : n ≠ 0) :
    PhiS V c n h = iprop(iprop(iprop(owns (c : Thread nD τ) scM0_0 fullShare (scrAt0 V c (n - 1) (by omega)).1 ∗ owns (c : Thread nD τ) scM0_1 fullShare (scrAt0 V c (n - 1) (by omega)).2) ∗ restBut0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (leaves0 V c t (scrBefore0 V c t)).1
    | ⟨3, _⟩ => (leaves0 V c t (scrBefore0 V c t)).2.1
    | ⟨4, _⟩ => (leaves0 V c t (scrBefore0 V c t)).2.2.1
    | ⟨5, _⟩ => (leaves0 V c t (scrBefore0 V c t)).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (leaves0 V c t (scrBefore0 V c t)).1 := by dsimp only [dat0]
theorem after0_3 (c : Dev nD) (t : Fin cfg0.N) : (dat0 V c).after 3 t = (leaves0 V c t (scrBefore0 V c t)).2.1 := by dsimp only [dat0]
theorem after0_4 (c : Dev nD) (t : Fin cfg0.N) : (dat0 V c).after 4 t = (leaves0 V c t (scrBefore0 V c t)).2.2.1 := by dsimp only [dat0]
theorem after0_5 (c : Dev nD) (t : Fin cfg0.N) : (dat0 V c).after 5 t = (leaves0 V c t (scrBefore0 V c t)).2.2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem scrBefore0_pos (c : Dev nD) (t : Fin cfg0.N) (hz : t.val ≠ 0) :
    scrBefore0 V c t = scrAt0 V c (t.val - 1) (Nat.lt_of_le_of_lt (Nat.sub_le _ _) t.isLt) := by
  unfold scrBefore0; rw [dif_neg hz]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the closed forms say which kind of point it is; the invariant hands the body the scratch
    columns at what the point before left (at anything at the first point) and takes them back at this point's
    contents; a column output stays as found where the point stores nothing into it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ, scrAt0_eq V c t]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 16 = 0
  · have h1 : ¬t.val % 16 = 15 := by omega
    rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
    rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
    rw [leaves0_A V c t _ h0 h1]
    (try dsimp only)
    by_cases hz : t.val = 0
    · rw [PhiS_castSucc V c t, PhiS_zero V c _ _ hz, PhiA0_eq]
      iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2 _ _ Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexact HS0
      isplitl [HS1]; · iexact HS1
      iintro ⟨H0, H1, ⟨%e2, H2⟩, ⟨%e3, H3⟩, H4, H5, ⟨%es0, HS0⟩, ⟨%es1, HS1⟩⟩
      isplitl [HS0 HS1 Hrb Hg]
      · isplitl [HS0 HS1 Hrb]
        · isplitl [HS0 HS1]
          · isplitl [HS0]
            · unfold owns; iexists _; isplitr
              swap; · iexact HS0
              ipureintro; exact View.read_writes_of_cover _ _ _ _ _ (coverA_s0 V c t h0 h1)
            · unfold owns; iexists _; isplitr
              swap; · iexact HS1
              ipureintro; exact View.read_writes_of_cover _ _ _ _ _ (coverA_s1 V c t h0 h1)
          iexact Hrb
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverA_2 V c t h0 h1)
      isplitl [H3]
      · unfold owns; iexists _; isplitr
        swap; · iexact H3
        ipureintro; exact View.read_writes_of_cover _ _ _ _ _ (coverA_3 V c t h0 h1)
      isplitl [H4]; · iexists _; iexact H4
      iexists _; iexact H5
    · rw [PhiS_castSucc V c t, PhiS_pos V c _ _ hz]
      iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2 _ _ Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexists _; iexact HS0
      isplitl [HS1]; · iexists _; iexact HS1
      iintro ⟨H0, H1, ⟨%e2, H2⟩, ⟨%e3, H3⟩, H4, H5, ⟨%es0, HS0⟩, ⟨%es1, HS1⟩⟩
      isplitl [HS0 HS1 Hrb Hg]
      · isplitl [HS0 HS1 Hrb]
        · isplitl [HS0 HS1]
          · isplitl [HS0]
            · unfold owns; iexists _; isplitr
              swap; · iexact HS0
              ipureintro; exact View.read_writes_of_cover _ _ _ _ _ (coverA_s0 V c t h0 h1)
            · unfold owns; iexists _; isplitr
              swap; · iexact HS1
              ipureintro; exact View.read_writes_of_cover _ _ _ _ _ (coverA_s1 V c t h0 h1)
          iexact Hrb
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverA_2 V c t h0 h1)
      isplitl [H3]
      · unfold owns; iexists _; isplitr
        swap; · iexact H3
        ipureintro; exact View.read_writes_of_cover _ _ _ _ _ (coverA_3 V c t h0 h1)
      isplitl [H4]; · iexists _; iexact H4
      iexists _; iexact H5
  · have hz : t.val ≠ 0 := fun e => h0 (by rw [e])
    by_cases h1 : t.val % 16 = 15
    · rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [leaves0_C V c t _ h0 h1]
      (try dsimp only)
      rw [PhiS_castSucc V c t, PhiS_pos V c _ _ hz, ← scrBefore0_pos V c t hz]
      iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩⟩
      iapply ((runC V c t h0 h1 (scrBefore0 V c t)).2.2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      isplitl [HS1]; · iexact HS1
      iintro ⟨H0, H1, ⟨%e2, H2⟩, ⟨%e3, H3⟩, ⟨%e4, H4⟩, ⟨%e5, H5⟩, ⟨%es0, HS0⟩, ⟨%es1, HS1⟩⟩
      isplitl [HS0 HS1 Hrb Hg]
      · isplitl [HS0 HS1 Hrb]
        · isplitl [HS0 HS1]
          · isplitl [HS0]
            · unfold owns; iexists _; isplitr
              swap; · iexact HS0
              ipureintro; exact View.read_writes_of_cover _ _ _ _ _ (coverC_s0 V c t h0 h1 _)
            · unfold owns; iexists _; isplitr
              swap; · iexact HS1
              ipureintro; exact View.read_writes_of_cover _ _ _ _ _ (coverC_s1 V c t h0 h1 _)
          iexact Hrb
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_2 V c t h0 h1 _)
      isplitl [H3]
      · unfold owns; iexists _; isplitr
        swap; · iexact H3
        ipureintro; exact View.read_writes_of_cover _ _ _ _ _ (coverC_3 V c t h0 h1 _)
      isplitl [H4]
      · unfold owns; iexists _; isplitr
        swap; · iexact H4
        ipureintro; exact View.read_writes_of_cover _ _ _ _ _ (coverC_4 V c t h0 h1 _)
      unfold owns; iexists _; isplitr
      swap; · iexact H5
      ipureintro; exact View.read_writes_of_cover _ _ _ _ _ (coverC_5 V c t h0 h1 _)
    · rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [leaves0_B V c t _ h0 h1]
      (try dsimp only)
      rw [PhiS_castSucc V c t, PhiS_pos V c _ _ hz, ← scrBefore0_pos V c t hz]
      iintro ⟨⟨⟨⟨HS0, HS1⟩, Hrb⟩, Hg⟩, Ho, ⟨%d0, H0⟩, ⟨%d1, H1⟩, ⟨%d2, H2⟩, ⟨%d3, H3⟩, ⟨%d4, H4⟩, ⟨%d5, H5⟩⟩
      iapply ((runB V c t h0 h1 (scrBefore0 V c t)).2.2.2.2 _ _ Set.univ _)
      isplitl [H0]; · iexact H0
      isplitl [H1]; · iexact H1
      isplitl [H2]; · iexists _; iexact H2
      isplitl [H3]; · iexists _; iexact H3
      isplitl [H4]; · iexact H4
      isplitl [H5]; · iexact H5
      isplitl [HS0]; · iexact HS0
      isplitl [HS1]; · iexact HS1
      iintro ⟨H0, H1, ⟨%e2, H2⟩, ⟨%e3, H3⟩, H4, H5, ⟨%es0, HS0⟩, ⟨%es1, HS1⟩⟩
      isplitl [HS0 HS1 Hrb Hg]
      · isplitl [HS0 HS1 Hrb]
        · isplitl [HS0 HS1]
          · isplitl [HS0]
            · unfold owns; iexists _; isplitr
              swap; · iexact HS0
              ipureintro; exact View.read_writes_of_cover _ _ _ _ _ (coverB_s0 V c t h0 h1 _)
            · unfold owns; iexists _; isplitr
              swap; · iexact HS1
              ipureintro; exact View.read_writes_of_cover _ _ _ _ _ (coverB_s1 V c t h0 h1 _)
          iexact Hrb
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverB_2 V c t h0 h1 _)
      isplitl [H3]
      · unfold owns; iexists _; isplitr
        swap; · iexact H3
        ipureintro; exact View.read_writes_of_cover _ _ _ _ _ (coverB_3 V c t h0 h1 _)
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

/-- After the last point the invariant gives the class's back: the scratch columns' named contents are forgotten. -/
theorem hout0 (c : Dev nD) : (dat0 V c).Φ (Fin.last cfg0.N) ⊢ (Pipeline.ΦA spec0 c : sProp 𝕄) := by
  have hN : cfg0.N = 128 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨⟨⟨HS0, HS1⟩, Hrb⟩, Hg⟩
  isplitl [HS0 HS1 Hrb]
  · isplitl [HS0 HS1]
    · isplitl [HS0]
      · iexists _; iexact HS0
      · iexists _; iexact HS1
    iexact Hrb
  iexact Hg

end Cert.KernelIdeal.Hand

end
-- ==== Proof.Prop1.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.KernelIdeal.Launch
import proofs.«111186_j27504970563868_1_alg».proof.Proof.Gen.KernelIdeal.Skeleton
import proofs.«111186_j27504970563868_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_A : Rect S1024x8192 := Rect.unit (s := S1024x8192) ![0, 0] S1024x8192.size inb_S1024x8192_S1024x8192_0_0
abbrev r1_E : Rect S8192x2 := Rect.unit (s := S8192x2) ![0, 0] S8192x2.size inb_S8192x2_S8192x2_0_0
abbrev r1_d : Rect S1024x1 := Rect.unit (s := S1024x1) ![0, 0] S1024x1.size inb_S1024x1_S1024x1_0_0
abbrev r1_o : Rect S1024x2 := Rect.unit (s := S1024x2) ![0, 0] S1024x2.size inb_S1024x2_S1024x2_0_0

/-- The output window's staging buffer after the body, from the input windows' blocks: its one store read back. -/
def out1_4 (x0 : Vec F S1024x8192 .bf16) (x1 : Vec F S8192x2 .f32) (x2 : Vec F S1024x1 .f32) (x3 : Vec F S1024x2 .f32) : Vec F S1024x2 .f32 :=
  View.canon [⟨r1_o, k1_pay1 (View.ld x1 r1_E) (View.ld x0 r1_A) (View.ld x2 r1_d) (View.ld x3 r1_o)⟩]

/-- The store covers the buffer. -/
theorem cover1_4 (p0 : Vec F S1024x2 .f32) (y : S1024x2.Idx) :
    ∃ pc ∈ ([⟨r1_o, p0⟩] : List (View.Piece (Elt F) S1024x2 .f32)), y ∈ pc.1.set :=
  View.cover_of_tiled [⟨r1_o, p0⟩] S1024x2.size (by rfl) y

set_option maxHeartbeats 2000000 in
/-- The body on whole staging memrefs, the inputs' at contents `xW` and the output's at anything, runs to the
    continuation holding the inputs' as they were and the output's at `out1_4` of them. -/
theorem sound_kernel1 (c : Dev nD) (E : Set ℕ) (i : grid1.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__prop_kernel i arg1 harg1 arg2 harg2 arg3 harg3 arg4 harg4 arg5 harg5) K := by
  simp only [cc1__prop_kernel_eq_skeleton]; unfold cc1__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data of the region, at the contents `V` it is entered from -/

/-- The arrays as the region finds them; after the body each input's buffer at its block and the output's at
    `out1_4` of the input blocks; the invariant the scoped rest and the generator register, untouched; nothing owed.
    The posterior array is read through windows 1 and 3: each holds one half of the full share of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.PropEnds1.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.Prop1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr1_0 : Pipeline.arrRef spec1 0 = main_v0_1 := rfl
theorem arr1_1 : Pipeline.arrRef spec1 1 = main_v21 := rfl
theorem arr1_2 : Pipeline.arrRef spec1 2 = main_v4 := rfl
theorem arr1_3 : Pipeline.arrRef spec1 3 = main_v21 := rfl
theorem arr1_4 : Pipeline.arrRef spec1 4 = main_v22 := rfl

/-- The distinct buffers behind the five windows' arrays: four. -/
theorem image_arr1 : (Finset.univ.image (Pipeline.arrRef spec1) : Finset (Ref sig .tc))
    = insert main_v0_1 (insert main_v21 (insert main_v4 {main_v22})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem1_a : (main_v0_1 : Ref sig .tc) ∉ insert main_v21 (insert main_v4 ({main_v22} : Finset (Ref sig .tc))) := by
  simp only [Finset.mem_insert, Finset.mem_singleton, not_or]; exact ⟨by decide, by decide, by decide⟩
theorem notMem1_b : (main_v21 : Ref sig .tc) ∉ insert main_v4 ({main_v22} : Finset (Ref sig .tc)) := by
  simp only [Finset.mem_insert, Finset.mem_singleton, not_or]; exact ⟨by decide, by decide⟩
theorem notMem1_c : (main_v4 : Ref sig .tc) ∉ ({main_v22} : Finset (Ref sig .tc)) := by
  simp only [Finset.mem_singleton]; decide

/-- The distinct buffers, one by one. -/
theorem arrBufs_eq1 (c : Dev nD) (W : (b : Ref sig .tc) → Buf (Elt F) ((c : Thread nD τ).loc b)) :
    (Pipeline.arrBufs spec1 c W : sProp 𝕄)
      = iprop((((c : Thread nD τ).loc main_v0_1) ↦{fullShare} W main_v0_1) ∗ (((c : Thread nD τ).loc main_v21) ↦{fullShare} W main_v21)
          ∗ (((c : Thread nD τ).loc main_v4) ↦{fullShare} W main_v4) ∗ (((c : Thread nD τ).loc main_v22) ↦{fullShare} W main_v22)) := by
  unfold Pipeline.arrBufs
  rw [image_arr1, bigSep_insert notMem1_a, bigSep_insert notMem1_b, bigSep_insert notMem1_c, bigSep_singleton]
  rfl

/-- Window 0's array at contents `W` of its buffer, at the window's share. -/
theorem arrW1_0 (c : Dev nD) (W : (b : Ref sig .tc) → Buf (Elt F) ((c : Thread nD τ).loc b)) :
    (((cfg1.win 0).arr.view.loc (c : Thread nD τ)) ↦[(cfg1.win 0).arr.view.set]{(dat1 V c).share 0} W (Pipeline.arrRef spec1 0) : sProp 𝕄)
      = (((c : Thread nD τ).loc main_v0_1) ↦{fullShare} W main_v0_1) := by
  rw [(arr_whole1 0).set_eq_univ]; rfl

/-- Window 1's array at contents `W` of its buffer, at the window's share. -/
theorem arrW1_1 (c : Dev nD) (W : (b : Ref sig .tc) → Buf (Elt F) ((c : Thread nD τ).loc b)) :
    (((cfg1.win 1).arr.view.loc (c : Thread nD τ)) ↦[(cfg1.win 1).arr.view.set]{(dat1 V c).share 1} W (Pipeline.arrRef spec1 1) : sProp 𝕄)
      = (((c : Thread nD τ).loc main_v21) ↦{fullShare.left} W main_v21) := by
  rw [(arr_whole1 1).set_eq_univ]; rfl

/-- Window 2's array at contents `W` of its buffer, at the window's share. -/
theorem arrW1_2 (c : Dev nD) (W : (b : Ref sig .tc) → Buf (Elt F) ((c : Thread nD τ).loc b)) :
    (((cfg1.win 2).arr.view.loc (c : Thread nD τ)) ↦[(cfg1.win 2).arr.view.set]{(dat1 V c).share 2} W (Pipeline.arrRef spec1 2) : sProp 𝕄)
      = (((c : Thread nD τ).loc main_v4) ↦{fullShare} W main_v4) := by
  rw [(arr_whole1 2).set_eq_univ]; rfl

/-- Window 3's array at contents `W` of its buffer, at the window's share. -/
theorem arrW1_3 (c : Dev nD) (W : (b : Ref sig .tc) → Buf (Elt F) ((c : Thread nD τ).loc b)) :
    (((cfg1.win 3).arr.view.loc (c : Thread nD τ)) ↦[(cfg1.win 3).arr.view.set]{(dat1 V c).share 3} W (Pipeline.arrRef spec1 3) : sProp 𝕄)
      = (((c : Thread nD τ).loc main_v21) ↦{fullShare.right} W main_v21) := by
  rw [(arr_whole1 3).set_eq_univ]; rfl

/-- Window 4's array at contents `W` of its buffer, at the window's share. -/
theorem arrW1_4 (c : Dev nD) (W : (b : Ref sig .tc) → Buf (Elt F) ((c : Thread nD τ).loc b)) :
    (((cfg1.win 4).arr.view.loc (c : Thread nD τ)) ↦[(cfg1.win 4).arr.view.set]{(dat1 V c).share 4} W (Pipeline.arrRef spec1 4) : sProp 𝕄)
      = (((c : Thread nD τ).loc main_v22) ↦{fullShare} W main_v22) := by
  rw [(arr_whole1 4).set_eq_univ]; rfl

/-- The windows' arrays at contents `W` of the buffers behind them, window by window. -/
theorem arrays_eq1 (c : Dev nD) (W : (b : Ref sig .tc) → Buf (Elt F) ((c : Thread nD τ).loc b)) :
    ((dat1 V c).arrays (fun w => W (Pipeline.arrRef spec1 w)) : sProp 𝕄)
      = iprop((((c : Thread nD τ).loc main_v0_1) ↦{fullShare} W main_v0_1) ∗ (((c : Thread nD τ).loc main_v21) ↦{fullShare.left} W main_v21)
          ∗ (((c : Thread nD τ).loc main_v4) ↦{fullShare} W main_v4) ∗ (((c : Thread nD τ).loc main_v21) ↦{fullShare.right} W main_v21)
          ∗ (((c : Thread nD τ).loc main_v22) ↦{fullShare} W main_v22)) := by
  unfold Dat.arrays
  rw [bigSep_W1]
  exact congrArg₂ BI.sep (arrW1_0 V c W) (congrArg₂ BI.sep (arrW1_1 V c W) (congrArg₂ BI.sep (arrW1_2 V c W) (congrArg₂ BI.sep (arrW1_3 V c W) (arrW1_4 V c W))))

/-- The posterior's buffer whole is its two halves. -/
theorem halves1 (c : Dev nD) (W : (b : Ref sig .tc) → Buf (Elt F) ((c : Thread nD τ).loc b)) :
    ((((c : Thread nD τ).loc main_v21) ↦{fullShare} W main_v21) : sProp 𝕄)
      ⊣⊢ iprop((((c : Thread nD τ).loc main_v21) ↦{fullShare.left} W main_v21) ∗ (((c : Thread nD τ).loc main_v21) ↦{fullShare.right} W main_v21)) :=
  pointsTo_share (PosShare.mem_left_op_right fullShare)

/-- The buffers behind the arrays, each whole at the full share, dealt among the windows. -/
theorem arrays_of_bufs1 (c : Dev nD) (W : (b : Ref sig .tc) → Buf (Elt F) ((c : Thread nD τ).loc b)) :
    (Pipeline.arrBufs spec1 c W : sProp 𝕄) ⊢ (dat1 V c).arrays (fun w => W (Pipeline.arrRef spec1 w)) := by
  rw [arrBufs_eq1, arrays_eq1 V c W]
  iintro ⟨H0, H1, H2, H4⟩
  ihave H13 := (halves1 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays1 (c : Dev nD) (W : (b : Ref sig .tc) → Buf (Elt F) ((c : Thread nD τ).loc b)) :
    ((dat1 V c).arrays (fun w => W (Pipeline.arrRef spec1 w)) : sProp 𝕄) ⊢ Pipeline.arrBufs spec1 c W := by
  rw [arrBufs_eq1, arrays_eq1 V c W]
  iintro ⟨H0, H1, H2, H3, H4⟩
  ihave H13 := (halves1 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  exact sep_mono (arrays_of_bufs1 V c (V c)) .rfl

/-- What the region's arrays hold after the last point, array by array: an input as the region found it. -/
theorem arrAtN1 (c : Dev nD) (W' : (b : Ref sig .tc) → Buf (Elt F) ((c : Thread nD τ).loc b))
    (hnew : W' main_v22 = (dat1 V c).arrAt 4 cfg1.N) (hrest : ∀ b : Ref sig .tc, b ≠ main_v22 → W' b = V c b) :
    ((dat1 V c).arrAt · cfg1.N) = fun w => W' (Pipeline.arrRef spec1 w) := by
  funext w
  fin_cases w
  · exact ((dat1 V c).arrAt_in 0 rfl _).trans ((A_eq1 V c 0).trans (hrest _ (by decide)).symm)
  · exact ((dat1 V c).arrAt_in 1 rfl _).trans ((A_eq1 V c 1).trans (hrest _ (by decide)).symm)
  · exact ((dat1 V c).arrAt_in 2 rfl _).trans ((A_eq1 V c 2).trans (hrest _ (by decide)).symm)
  · exact ((dat1 V c).arrAt_in 3 rfl _).trans ((A_eq1 V c 3).trans (hrest _ (by decide)).symm)
  · exact hnew.symm

/-- EXIT: the windows' arrays at what the write-backs left and the rest make the unscoped buffers at contents `W'` that
    hold the new posterior at what the region left and every other buffer as the region found it. -/
theorem exit1 (c : Dev nD) (W' : (b : Ref sig .tc) → Buf (Elt F) ((c : Thread nD τ).loc b))
    (hnew : W' main_v22 = (dat1 V c).arrAt 4 cfg1.N) (hrest : ∀ b : Ref sig .tc, b ≠ main_v22 → W' b = V c b) :
    iprop((dat1 V c).arrays ((dat1 V c).arrAt · cfg1.N) ∗ Pipeline.unscopedRest spec1 c (V c)) ⊢ (unscopedBufs c W' : sProp 𝕄) := by
  rw [Pipeline.unscopedBufs_split₀ cfgs 1 winFacts₀1.arr_unscoped c W', arrAtN1 V c W' hnew hrest]
  refine sep_mono (bufs_of_arrays1 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.KernelIdeal.Hand

end
-- ==== Proof.Prop2.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.KernelIdeal.Launch
import proofs.«111186_j27504970563868_1_alg».proof.Proof.Gen.KernelIdeal.Skeleton
import proofs.«111186_j27504970563868_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_A : Rect S1024x8192 := Rect.unit (s := S1024x8192) ![0, 0] S1024x8192.size inb_S1024x8192_S1024x8192_0_0
abbrev r2_E : Rect S8192x2 := Rect.unit (s := S8192x2) ![0, 0] S8192x2.size inb_S8192x2_S8192x2_0_0
abbrev r2_d : Rect S1024x1 := Rect.unit (s := S1024x1) ![0, 0] S1024x1.size inb_S1024x1_S1024x1_0_0
abbrev r2_o : Rect S1024x2 := Rect.unit (s := S1024x2) ![0, 0] S1024x2.size inb_S1024x2_S1024x2_0_0

/-- The output window's staging buffer after the body, from the input windows' blocks: its one store read back. -/
def out2_4 (x0 : Vec F S1024x8192 .bf16) (x1 : Vec F S8192x2 .f32) (x2 : Vec F S1024x1 .f32) (x3 : Vec F S1024x2 .f32) : Vec F S1024x2 .f32 :=
  View.canon [⟨r2_o, k2_pay1 (View.ld x1 r2_E) (View.ld x0 r2_A) (View.ld x2 r2_d) (View.ld x3 r2_o)⟩]

/-- The store covers the buffer. -/
theorem cover2_4 (p0 : Vec F S1024x2 .f32) (y : S1024x2.Idx) :
    ∃ pc ∈ ([⟨r2_o, p0⟩] : List (View.Piece (Elt F) S1024x2 .f32)), y ∈ pc.1.set :=
  View.cover_of_tiled [⟨r2_o, p0⟩] S1024x2.size (by rfl) y

set_option maxHeartbeats 2000000 in
/-- The body on whole staging memrefs, the inputs' at contents `xW` and the output's at anything, runs to the
    continuation holding the inputs' as they were and the output's at `out2_4` of them. -/
theorem sound_kernel2 (c : Dev nD) (E : Set ℕ) (i : grid2.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__prop_kernel i arg1 harg1 arg2 harg2 arg3 harg3 arg4 harg4 arg5 harg5) K := by
  simp only [cc2__prop_kernel_eq_skeleton]; unfold cc2__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The proof data of the region, at the contents `V` it is entered from -/

/-- The arrays as the region finds them; after the body each input's buffer at its block and the output's at
    `out2_4` of the input blocks; the invariant the scoped rest and the generator register, untouched; nothing owed.
    The posterior array is read through windows 1 and 3: each holds one half of the full share of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.PropEnds2.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.Prop2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr2_0 : Pipeline.arrRef spec2 0 = main_v0_1 := rfl
theorem arr2_1 : Pipeline.arrRef spec2 1 = main_v22 := rfl
theorem arr2_2 : Pipeline.arrRef spec2 2 = main_v4 := rfl
theorem arr2_3 : Pipeline.arrRef spec2 3 = main_v22 := rfl
theorem arr2_4 : Pipeline.arrRef spec2 4 = main_v23 := rfl

/-- The distinct buffers behind the five windows' arrays: four. -/
theorem image_arr2 : (Finset.univ.image (Pipeline.arrRef spec2) : Finset (Ref sig .tc))
    = insert main_v0_1 (insert main_v22 (insert main_v4 {main_v23})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem2_a : (main_v0_1 : Ref sig .tc) ∉ insert main_v22 (insert main_v4 ({main_v23} : Finset (Ref sig .tc))) := by
  simp only [Finset.mem_insert, Finset.mem_singleton, not_or]; exact ⟨by decide, by decide, by decide⟩
theorem notMem2_b : (main_v22 : Ref sig .tc) ∉ insert main_v4 ({main_v23} : Finset (Ref sig .tc)) := by
  simp only [Finset.mem_insert, Finset.mem_singleton, not_or]; exact ⟨by decide, by decide⟩
theorem notMem2_c : (main_v4 : Ref sig .tc) ∉ ({main_v23} : Finset (Ref sig .tc)) := by
  simp only [Finset.mem_singleton]; decide

/-- The distinct buffers, one by one. -/
theorem arrBufs_eq2 (c : Dev nD) (W : (b : Ref sig .tc) → Buf (Elt F) ((c : Thread nD τ).loc b)) :
    (Pipeline.arrBufs spec2 c W : sProp 𝕄)
      = iprop((((c : Thread nD τ).loc main_v0_1) ↦{fullShare} W main_v0_1) ∗ (((c : Thread nD τ).loc main_v22) ↦{fullShare} W main_v22)
          ∗ (((c : Thread nD τ).loc main_v4) ↦{fullShare} W main_v4) ∗ (((c : Thread nD τ).loc main_v23) ↦{fullShare} W main_v23)) := by
  unfold Pipeline.arrBufs
  rw [image_arr2, bigSep_insert notMem2_a, bigSep_insert notMem2_b, bigSep_insert notMem2_c, bigSep_singleton]
  rfl

/-- Window 0's array at contents `W` of its buffer, at the window's share. -/
theorem arrW2_0 (c : Dev nD) (W : (b : Ref sig .tc) → Buf (Elt F) ((c : Thread nD τ).loc b)) :
    (((cfg2.win 0).arr.view.loc (c : Thread nD τ)) ↦[(cfg2.win 0).arr.view.set]{(dat2 V c).share 0} W (Pipeline.arrRef spec2 0) : sProp 𝕄)
      = (((c : Thread nD τ).loc main_v0_1) ↦{fullShare} W main_v0_1) := by
  rw [(arr_whole2 0).set_eq_univ]; rfl

/-- Window 1's array at contents `W` of its buffer, at the window's share. -/
theorem arrW2_1 (c : Dev nD) (W : (b : Ref sig .tc) → Buf (Elt F) ((c : Thread nD τ).loc b)) :
    (((cfg2.win 1).arr.view.loc (c : Thread nD τ)) ↦[(cfg2.win 1).arr.view.set]{(dat2 V c).share 1} W (Pipeline.arrRef spec2 1) : sProp 𝕄)
      = (((c : Thread nD τ).loc main_v22) ↦{fullShare.left} W main_v22) := by
  rw [(arr_whole2 1).set_eq_univ]; rfl

/-- Window 2's array at contents `W` of its buffer, at the window's share. -/
theorem arrW2_2 (c : Dev nD) (W : (b : Ref sig .tc) → Buf (Elt F) ((c : Thread nD τ).loc b)) :
    (((cfg2.win 2).arr.view.loc (c : Thread nD τ)) ↦[(cfg2.win 2).arr.view.set]{(dat2 V c).share 2} W (Pipeline.arrRef spec2 2) : sProp 𝕄)
      = (((c : Thread nD τ).loc main_v4) ↦{fullShare} W main_v4) := by
  rw [(arr_whole2 2).set_eq_univ]; rfl

/-- Window 3's array at contents `W` of its buffer, at the window's share. -/
theorem arrW2_3 (c : Dev nD) (W : (b : Ref sig .tc) → Buf (Elt F) ((c : Thread nD τ).loc b)) :
    (((cfg2.win 3).arr.view.loc (c : Thread nD τ)) ↦[(cfg2.win 3).arr.view.set]{(dat2 V c).share 3} W (Pipeline.arrRef spec2 3) : sProp 𝕄)
      = (((c : Thread nD τ).loc main_v22) ↦{fullShare.right} W main_v22) := by
  rw [(arr_whole2 3).set_eq_univ]; rfl

/-- Window 4's array at contents `W` of its buffer, at the window's share. -/
theorem arrW2_4 (c : Dev nD) (W : (b : Ref sig .tc) → Buf (Elt F) ((c : Thread nD τ).loc b)) :
    (((cfg2.win 4).arr.view.loc (c : Thread nD τ)) ↦[(cfg2.win 4).arr.view.set]{(dat2 V c).share 4} W (Pipeline.arrRef spec2 4) : sProp 𝕄)
      = (((c : Thread nD τ).loc main_v23) ↦{fullShare} W main_v23) := by
  rw [(arr_whole2 4).set_eq_univ]; rfl

/-- The windows' arrays at contents `W` of the buffers behind them, window by window. -/
theorem arrays_eq2 (c : Dev nD) (W : (b : Ref sig .tc) → Buf (Elt F) ((c : Thread nD τ).loc b)) :
    ((dat2 V c).arrays (fun w => W (Pipeline.arrRef spec2 w)) : sProp 𝕄)
      = iprop((((c : Thread nD τ).loc main_v0_1) ↦{fullShare} W main_v0_1) ∗ (((c : Thread nD τ).loc main_v22) ↦{fullShare.left} W main_v22)
          ∗ (((c : Thread nD τ).loc main_v4) ↦{fullShare} W main_v4) ∗ (((c : Thread nD τ).loc main_v22) ↦{fullShare.right} W main_v22)
          ∗ (((c : Thread nD τ).loc main_v23) ↦{fullShare} W main_v23)) := by
  unfold Dat.arrays
  rw [bigSep_W2]
  exact congrArg₂ BI.sep (arrW2_0 V c W) (congrArg₂ BI.sep (arrW2_1 V c W) (congrArg₂ BI.sep (arrW2_2 V c W) (congrArg₂ BI.sep (arrW2_3 V c W) (arrW2_4 V c W))))

/-- The posterior's buffer whole is its two halves. -/
theorem halves2 (c : Dev nD) (W : (b : Ref sig .tc) → Buf (Elt F) ((c : Thread nD τ).loc b)) :
    ((((c : Thread nD τ).loc main_v22) ↦{fullShare} W main_v22) : sProp 𝕄)
      ⊣⊢ iprop((((c : Thread nD τ).loc main_v22) ↦{fullShare.left} W main_v22) ∗ (((c : Thread nD τ).loc main_v22) ↦{fullShare.right} W main_v22)) :=
  pointsTo_share (PosShare.mem_left_op_right fullShare)

/-- The buffers behind the arrays, each whole at the full share, dealt among the windows. -/
theorem arrays_of_bufs2 (c : Dev nD) (W : (b : Ref sig .tc) → Buf (Elt F) ((c : Thread nD τ).loc b)) :
    (Pipeline.arrBufs spec2 c W : sProp 𝕄) ⊢ (dat2 V c).arrays (fun w => W (Pipeline.arrRef spec2 w)) := by
  rw [arrBufs_eq2, arrays_eq2 V c W]
  iintro ⟨H0, H1, H2, H4⟩
  ihave H13 := (halves2 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays2 (c : Dev nD) (W : (b : Ref sig .tc) → Buf (Elt F) ((c : Thread nD τ).loc b)) :
    ((dat2 V c).arrays (fun w => W (Pipeline.arrRef spec2 w)) : sProp 𝕄) ⊢ Pipeline.arrBufs spec2 c W := by
  rw [arrBufs_eq2, arrays_eq2 V c W]
  iintro ⟨H0, H1, H2, H3, H4⟩
  ihave H13 := (halves2 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry2 (c : Dev nD) :
    (unscopedBufs c (V c) : sProp 𝕄) ⊢ iprop((dat2 V c).arrays ((dat2 V c).arrAt · 0) ∗ Pipeline.unscopedRest spec2 c (V c)) := by
  rw [Pipeline.unscopedBufs_split₀ cfgs 2 winFacts₀2.arr_unscoped c (V c)]
  exact sep_mono (arrays_of_bufs2 V c (V c)) .rfl

/-- What the region's arrays hold after the last point, array by array: an input as the region found it. -/
theorem arrAtN2 (c : Dev nD) (W' : (b : Ref sig .tc) → Buf (Elt F) ((c : Thread nD τ).loc b))
    (hnew : W' main_v23 = (dat2 V c).arrAt 4 cfg2.N) (hrest : ∀ b : Ref sig .tc, b ≠ main_v23 → W' b = V c b) :
    ((dat2 V c).arrAt · cfg2.N) = fun w => W' (Pipeline.arrRef spec2 w) := by
  funext w
  fin_cases w
  · exact ((dat2 V c).arrAt_in 0 rfl _).trans ((A_eq2 V c 0).trans (hrest _ (by decide)).symm)
  · exact ((dat2 V c).arrAt_in 1 rfl _).trans ((A_eq2 V c 1).trans (hrest _ (by decide)).symm)
  · exact ((dat2 V c).arrAt_in 2 rfl _).trans ((A_eq2 V c 2).trans (hrest _ (by decide)).symm)
  · exact ((dat2 V c).arrAt_in 3 rfl _).trans ((A_eq2 V c 3).trans (hrest _ (by decide)).symm)
  · exact hnew.symm

/-- EXIT: the windows' arrays at what the write-backs left and the rest make the unscoped buffers at contents `W'` that
    hold the new posterior at what the region left and every other buffer as the region found it. -/
theorem exit2 (c : Dev nD) (W' : (b : Ref sig .tc) → Buf (Elt F) ((c : Thread nD τ).loc b))
    (hnew : W' main_v23 = (dat2 V c).arrAt 4 cfg2.N) (hrest : ∀ b : Ref sig .tc, b ≠ main_v23 → W' b = V c b) :
    iprop((dat2 V c).arrays ((dat2 V c).arrAt · cfg2.N) ∗ Pipeline.unscopedRest spec2 c (V c)) ⊢ (unscopedBufs c W' : sProp 𝕄) := by
  rw [Pipeline.unscopedBufs_split₀ cfgs 2 winFacts₀2.arr_unscoped c W', arrAtN2 V c W' hnew hrest]
  refine sep_mono (bufs_of_arrays2 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.KernelIdeal.Hand

end
-- ==== Proof.Prop3.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.KernelIdeal.Launch
import proofs.«111186_j27504970563868_1_alg».proof.Proof.Gen.KernelIdeal.Skeleton
import proofs.«111186_j27504970563868_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_A : Rect S1024x8192 := Rect.unit (s := S1024x8192) ![0, 0] S1024x8192.size inb_S1024x8192_S1024x8192_0_0
abbrev r3_E : Rect S8192x2 := Rect.unit (s := S8192x2) ![0, 0] S8192x2.size inb_S8192x2_S8192x2_0_0
abbrev r3_d : Rect S1024x1 := Rect.unit (s := S1024x1) ![0, 0] S1024x1.size inb_S1024x1_S1024x1_0_0
abbrev r3_o : Rect S1024x2 := Rect.unit (s := S1024x2) ![0, 0] S1024x2.size inb_S1024x2_S1024x2_0_0

/-- The output window's staging buffer after the body, from the input windows' blocks: its one store read back. -/
def out3_4 (x0 : Vec F S1024x8192 .bf16) (x1 : Vec F S8192x2 .f32) (x2 : Vec F S1024x1 .f32) (x3 : Vec F S1024x2 .f32) : Vec F S1024x2 .f32 :=
  View.canon [⟨r3_o, k3_pay1 (View.ld x1 r3_E) (View.ld x0 r3_A) (View.ld x2 r3_d) (View.ld x3 r3_o)⟩]

/-- The store covers the buffer. -/
theorem cover3_4 (p0 : Vec F S1024x2 .f32) (y : S1024x2.Idx) :
    ∃ pc ∈ ([⟨r3_o, p0⟩] : List (View.Piece (Elt F) S1024x2 .f32)), y ∈ pc.1.set :=
  View.cover_of_tiled [⟨r3_o, p0⟩] S1024x2.size (by rfl) y

set_option maxHeartbeats 2000000 in
/-- The body on whole staging memrefs, the inputs' at contents `xW` and the output's at anything, runs to the
    continuation holding the inputs' as they were and the output's at `out3_4` of them. -/
theorem sound_kernel3 (c : Dev nD) (E : Set ℕ) (i : grid3.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__prop_kernel i arg1 harg1 arg2 harg2 arg3 harg3 arg4 harg4 arg5 harg5) K := by
  simp only [cc3__prop_kernel_eq_skeleton]; unfold cc3__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The proof data of the region, at the contents `V` it is entered from -/

/-- The arrays as the region finds them; after the body each input's buffer at its block and the output's at
    `out3_4` of the input blocks; the invariant the scoped rest and the generator register, untouched; nothing owed.
    The posterior array is read through windows 1 and 3: each holds one half of the full share of it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.PropEnds3.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.Prop3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr3_0 : Pipeline.arrRef spec3 0 = main_v0_1 := rfl
theorem arr3_1 : Pipeline.arrRef spec3 1 = main_v23 := rfl
theorem arr3_2 : Pipeline.arrRef spec3 2 = main_v4 := rfl
theorem arr3_3 : Pipeline.arrRef spec3 3 = main_v23 := rfl
theorem arr3_4 : Pipeline.arrRef spec3 4 = main_v24 := rfl

/-- The distinct buffers behind the five windows' arrays: four. -/
theorem image_arr3 : (Finset.univ.image (Pipeline.arrRef spec3) : Finset (Ref sig .tc))
    = insert main_v0_1 (insert main_v23 (insert main_v4 {main_v24})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem3_a : (main_v0_1 : Ref sig .tc) ∉ insert main_v23 (insert main_v4 ({main_v24} : Finset (Ref sig .tc))) := by
  simp only [Finset.mem_insert, Finset.mem_singleton, not_or]; exact ⟨by decide, by decide, by decide⟩
theorem notMem3_b : (main_v23 : Ref sig .tc) ∉ insert main_v4 ({main_v24} : Finset (Ref sig .tc)) := by
  simp only [Finset.mem_insert, Finset.mem_singleton, not_or]; exact ⟨by decide, by decide⟩
theorem notMem3_c : (main_v4 : Ref sig .tc) ∉ ({main_v24} : Finset (Ref sig .tc)) := by
  simp only [Finset.mem_singleton]; decide

/-- The distinct buffers, one by one. -/
theorem arrBufs_eq3 (c : Dev nD) (W : (b : Ref sig .tc) → Buf (Elt F) ((c : Thread nD τ).loc b)) :
    (Pipeline.arrBufs spec3 c W : sProp 𝕄)
      = iprop((((c : Thread nD τ).loc main_v0_1) ↦{fullShare} W main_v0_1) ∗ (((c : Thread nD τ).loc main_v23) ↦{fullShare} W main_v23)
          ∗ (((c : Thread nD τ).loc main_v4) ↦{fullShare} W main_v4) ∗ (((c : Thread nD τ).loc main_v24) ↦{fullShare} W main_v24)) := by
  unfold Pipeline.arrBufs
  rw [image_arr3, bigSep_insert notMem3_a, bigSep_insert notMem3_b, bigSep_insert notMem3_c, bigSep_singleton]
  rfl

/-- Window 0's array at contents `W` of its buffer, at the window's share. -/
theorem arrW3_0 (c : Dev nD) (W : (b : Ref sig .tc) → Buf (Elt F) ((c : Thread nD τ).loc b)) :
    (((cfg3.win 0).arr.view.loc (c : Thread nD τ)) ↦[(cfg3.win 0).arr.view.set]{(dat3 V c).share 0} W (Pipeline.arrRef spec3 0) : sProp 𝕄)
      = (((c : Thread nD τ).loc main_v0_1) ↦{fullShare} W main_v0_1) := by
  rw [(arr_whole3 0).set_eq_univ]; rfl

/-- Window 1's array at contents `W` of its buffer, at the window's share. -/
theorem arrW3_1 (c : Dev nD) (W : (b : Ref sig .tc) → Buf (Elt F) ((c : Thread nD τ).loc b)) :
    (((cfg3.win 1).arr.view.loc (c : Thread nD τ)) ↦[(cfg3.win 1).arr.view.set]{(dat3 V c).share 1} W (Pipeline.arrRef spec3 1) : sProp 𝕄)
      = (((c : Thread nD τ).loc main_v23) ↦{fullShare.left} W main_v23) := by
  rw [(arr_whole3 1).set_eq_univ]; rfl

/-- Window 2's array at contents `W` of its buffer, at the window's share. -/
theorem arrW3_2 (c : Dev nD) (W : (b : Ref sig .tc) → Buf (Elt F) ((c : Thread nD τ).loc b)) :
    (((cfg3.win 2).arr.view.loc (c : Thread nD τ)) ↦[(cfg3.win 2).arr.view.set]{(dat3 V c).share 2} W (Pipeline.arrRef spec3 2) : sProp 𝕄)
      = (((c : Thread nD τ).loc main_v4) ↦{fullShare} W main_v4) := by
  rw [(arr_whole3 2).set_eq_univ]; rfl

/-- Window 3's array at contents `W` of its buffer, at the window's share. -/
theorem arrW3_3 (c : Dev nD) (W : (b : Ref sig .tc) → Buf (Elt F) ((c : Thread nD τ).loc b)) :
    (((cfg3.win 3).arr.view.loc (c : Thread nD τ)) ↦[(cfg3.win 3).arr.view.set]{(dat3 V c).share 3} W (Pipeline.arrRef spec3 3) : sProp 𝕄)
      = (((c : Thread nD τ).loc main_v23) ↦{fullShare.right} W main_v23) := by
  rw [(arr_whole3 3).set_eq_univ]; rfl

/-- Window 4's array at contents `W` of its buffer, at the window's share. -/
theorem arrW3_4 (c : Dev nD) (W : (b : Ref sig .tc) → Buf (Elt F) ((c : Thread nD τ).loc b)) :
    (((cfg3.win 4).arr.view.loc (c : Thread nD τ)) ↦[(cfg3.win 4).arr.view.set]{(dat3 V c).share 4} W (Pipeline.arrRef spec3 4) : sProp 𝕄)
      = (((c : Thread nD τ).loc main_v24) ↦{fullShare} W main_v24) := by
  rw [(arr_whole3 4).set_eq_univ]; rfl

/-- The windows' arrays at contents `W` of the buffers behind them, window by window. -/
theorem arrays_eq3 (c : Dev nD) (W : (b : Ref sig .tc) → Buf (Elt F) ((c : Thread nD τ).loc b)) :
    ((dat3 V c).arrays (fun w => W (Pipeline.arrRef spec3 w)) : sProp 𝕄)
      = iprop((((c : Thread nD τ).loc main_v0_1) ↦{fullShare} W main_v0_1) ∗ (((c : Thread nD τ).loc main_v23) ↦{fullShare.left} W main_v23)
          ∗ (((c : Thread nD τ).loc main_v4) ↦{fullShare} W main_v4) ∗ (((c : Thread nD τ).loc main_v23) ↦{fullShare.right} W main_v23)
          ∗ (((c : Thread nD τ).loc main_v24) ↦{fullShare} W main_v24)) := by
  unfold Dat.arrays
  rw [bigSep_W3]
  exact congrArg₂ BI.sep (arrW3_0 V c W) (congrArg₂ BI.sep (arrW3_1 V c W) (congrArg₂ BI.sep (arrW3_2 V c W) (congrArg₂ BI.sep (arrW3_3 V c W) (arrW3_4 V c W))))

/-- The posterior's buffer whole is its two halves. -/
theorem halves3 (c : Dev nD) (W : (b : Ref sig .tc) → Buf (Elt F) ((c : Thread nD τ).loc b)) :
    ((((c : Thread nD τ).loc main_v23) ↦{fullShare} W main_v23) : sProp 𝕄)
      ⊣⊢ iprop((((c : Thread nD τ).loc main_v23) ↦{fullShare.left} W main_v23) ∗ (((c : Thread nD τ).loc main_v23) ↦{fullShare.right} W main_v23)) :=
  pointsTo_share (PosShare.mem_left_op_right fullShare)

/-- The buffers behind the arrays, each whole at the full share, dealt among the windows. -/
theorem arrays_of_bufs3 (c : Dev nD) (W : (b : Ref sig .tc) → Buf (Elt F) ((c : Thread nD τ).loc b)) :
    (Pipeline.arrBufs spec3 c W : sProp 𝕄) ⊢ (dat3 V c).arrays (fun w => W (Pipeline.arrRef spec3 w)) := by
  rw [arrBufs_eq3, arrays_eq3 V c W]
  iintro ⟨H0, H1, H2, H4⟩
  ihave H13 := (halves3 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays3 (c : Dev nD) (W : (b : Ref sig .tc) → Buf (Elt F) ((c : Thread nD τ).loc b)) :
    ((dat3 V c).arrays (fun w => W (Pipeline.arrRef spec3 w)) : sProp 𝕄) ⊢ Pipeline.arrBufs spec3 c W := by
  rw [arrBufs_eq3, arrays_eq3 V c W]
  iintro ⟨H0, H1, H2, H3, H4⟩
  ihave H13 := (halves3 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry3 (c : Dev nD) :
    (unscopedBufs c (V c) : sProp 𝕄) ⊢ iprop((dat3 V c).arrays ((dat3 V c).arrAt · 0) ∗ Pipeline.unscopedRest spec3 c (V c)) := by
  rw [Pipeline.unscopedBufs_split₀ cfgs 3 winFacts₀3.arr_unscoped c (V c)]
  exact sep_mono (arrays_of_bufs3 V c (V c)) .rfl

/-- What the region's arrays hold after the last point, array by array: an input as the region found it. -/
theorem arrAtN3 (c : Dev nD) (W' : (b : Ref sig .tc) → Buf (Elt F) ((c : Thread nD τ).loc b))
    (hnew : W' main_v24 = (dat3 V c).arrAt 4 cfg3.N) (hrest : ∀ b : Ref sig .tc, b ≠ main_v24 → W' b = V c b) :
    ((dat3 V c).arrAt · cfg3.N) = fun w => W' (Pipeline.arrRef spec3 w) := by
  funext w
  fin_cases w
  · exact ((dat3 V c).arrAt_in 0 rfl _).trans ((A_eq3 V c 0).trans (hrest _ (by decide)).symm)
  · exact ((dat3 V c).arrAt_in 1 rfl _).trans ((A_eq3 V c 1).trans (hrest _ (by decide)).symm)
  · exact ((dat3 V c).arrAt_in 2 rfl _).trans ((A_eq3 V c 2).trans (hrest _ (by decide)).symm)
  · exact ((dat3 V c).arrAt_in 3 rfl _).trans ((A_eq3 V c 3).trans (hrest _ (by decide)).symm)
  · exact hnew.symm

/-- EXIT: the windows' arrays at what the write-backs left and the rest make the unscoped buffers at contents `W'` that
    hold the new posterior at what the region left and every other buffer as the region found it. -/
theorem exit3 (c : Dev nD) (W' : (b : Ref sig .tc) → Buf (Elt F) ((c : Thread nD τ).loc b))
    (hnew : W' main_v24 = (dat3 V c).arrAt 4 cfg3.N) (hrest : ∀ b : Ref sig .tc, b ≠ main_v24 → W' b = V c b) :
    iprop((dat3 V c).arrays ((dat3 V c).arrAt · cfg3.N) ∗ Pipeline.unscopedRest spec3 c (V c)) ⊢ (unscopedBufs c W' : sProp 𝕄) := by
  rw [Pipeline.unscopedBufs_split₀ cfgs 3 winFacts₀3.arr_unscoped c W', arrAtN3 V c W' hnew hrest]
  refine sep_mono (bufs_of_arrays3 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.KernelIdeal.Hand

end
-- ==== Proof.Prop4.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.KernelIdeal.Launch
import proofs.«111186_j27504970563868_1_alg».proof.Proof.Gen.KernelIdeal.Skeleton
import proofs.«111186_j27504970563868_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_A : Rect S1024x8192 := Rect.unit (s := S1024x8192) ![0, 0] S1024x8192.size inb_S1024x8192_S1024x8192_0_0
abbrev r4_E : Rect S8192x2 := Rect.unit (s := S8192x2) ![0, 0] S8192x2.size inb_S8192x2_S8192x2_0_0
abbrev r4_d : Rect S1024x1 := Rect.unit (s := S1024x1) ![0, 0] S1024x1.size inb_S1024x1_S1024x1_0_0
abbrev r4_o : Rect S1024x2 := Rect.unit (s := S1024x2) ![0, 0] S1024x2.size inb_S1024x2_S1024x2_0_0

/-- The output window's staging buffer after the body, from the input windows' blocks: its one store read back. -/
def out4_4 (x0 : Vec F S1024x8192 .bf16) (x1 : Vec F S8192x2 .f32) (x2 : Vec F S1024x1 .f32) (x3 : Vec F S1024x2 .f32) : Vec F S1024x2 .f32 :=
  View.canon [⟨r4_o, k4_pay1 (View.ld x1 r4_E) (View.ld x0 r4_A) (View.ld x2 r4_d) (View.ld x3 r4_o)⟩]

/-- The store covers the buffer. -/
theorem cover4_4 (p0 : Vec F S1024x2 .f32) (y : S1024x2.Idx) :
    ∃ pc ∈ ([⟨r4_o, p0⟩] : List (View.Piece (Elt F) S1024x2 .f32)), y ∈ pc.1.set :=
  View.cover_of_tiled [⟨r4_o, p0⟩] S1024x2.size (by rfl) y

set_option maxHeartbeats 2000000 in
/-- The body on whole staging memrefs, the inputs' at contents `xW` and the output's at anything, runs to the
    continuation holding the inputs' as they were and the output's at `out4_4` of them. -/
theorem sound_kernel4 (c : Dev nD) (E : Set ℕ) (i : grid4.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__prop_kernel i arg1 harg1 arg2 harg2 arg3 harg3 arg4 harg4 arg5 harg5) K := by
  simp only [cc4__prop_kernel_eq_skeleton]; unfold cc4__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The proof data of the region, at the contents `V` it is entered from -/

/-- The arrays as the region finds them; after the body each input's buffer at its block and the output's at
    `out4_4` of the input blocks; the invariant the scoped rest and the generator register, untouched; nothing owed.
    The posterior array is read through windows 1 and 3: each holds one half of the full share of it. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.PropEnds4.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.Prop4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr4_0 : Pipeline.arrRef spec4 0 = main_v0_1 := rfl
theorem arr4_1 : Pipeline.arrRef spec4 1 = main_v24 := rfl
theorem arr4_2 : Pipeline.arrRef spec4 2 = main_v4 := rfl
theorem arr4_3 : Pipeline.arrRef spec4 3 = main_v24 := rfl
theorem arr4_4 : Pipeline.arrRef spec4 4 = main_v25 := rfl

/-- The distinct buffers behind the five windows' arrays: four. -/
theorem image_arr4 : (Finset.univ.image (Pipeline.arrRef spec4) : Finset (Ref sig .tc))
    = insert main_v0_1 (insert main_v24 (insert main_v4 {main_v25})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem4_a : (main_v0_1 : Ref sig .tc) ∉ insert main_v24 (insert main_v4 ({main_v25} : Finset (Ref sig .tc))) := by
  simp only [Finset.mem_insert, Finset.mem_singleton, not_or]; exact ⟨by decide, by decide, by decide⟩
theorem notMem4_b : (main_v24 : Ref sig .tc) ∉ insert main_v4 ({main_v25} : Finset (Ref sig .tc)) := by
  simp only [Finset.mem_insert, Finset.mem_singleton, not_or]; exact ⟨by decide, by decide⟩
theorem notMem4_c : (main_v4 : Ref sig .tc) ∉ ({main_v25} : Finset (Ref sig .tc)) := by
  simp only [Finset.mem_singleton]; decide

/-- The distinct buffers, one by one. -/
theorem arrBufs_eq4 (c : Dev nD) (W : (b : Ref sig .tc) → Buf (Elt F) ((c : Thread nD τ).loc b)) :
    (Pipeline.arrBufs spec4 c W : sProp 𝕄)
      = iprop((((c : Thread nD τ).loc main_v0_1) ↦{fullShare} W main_v0_1) ∗ (((c : Thread nD τ).loc main_v24) ↦{fullShare} W main_v24)
          ∗ (((c : Thread nD τ).loc main_v4) ↦{fullShare} W main_v4) ∗ (((c : Thread nD τ).loc main_v25) ↦{fullShare} W main_v25)) := by
  unfold Pipeline.arrBufs
  rw [image_arr4, bigSep_insert notMem4_a, bigSep_insert notMem4_b, bigSep_insert notMem4_c, bigSep_singleton]
  rfl

/-- Window 0's array at contents `W` of its buffer, at the window's share. -/
theorem arrW4_0 (c : Dev nD) (W : (b : Ref sig .tc) → Buf (Elt F) ((c : Thread nD τ).loc b)) :
    (((cfg4.win 0).arr.view.loc (c : Thread nD τ)) ↦[(cfg4.win 0).arr.view.set]{(dat4 V c).share 0} W (Pipeline.arrRef spec4 0) : sProp 𝕄)
      = (((c : Thread nD τ).loc main_v0_1) ↦{fullShare} W main_v0_1) := by
  rw [(arr_whole4 0).set_eq_univ]; rfl

/-- Window 1's array at contents `W` of its buffer, at the window's share. -/
theorem arrW4_1 (c : Dev nD) (W : (b : Ref sig .tc) → Buf (Elt F) ((c : Thread nD τ).loc b)) :
    (((cfg4.win 1).arr.view.loc (c : Thread nD τ)) ↦[(cfg4.win 1).arr.view.set]{(dat4 V c).share 1} W (Pipeline.arrRef spec4 1) : sProp 𝕄)
      = (((c : Thread nD τ).loc main_v24) ↦{fullShare.left} W main_v24) := by
  rw [(arr_whole4 1).set_eq_univ]; rfl

/-- Window 2's array at contents `W` of its buffer, at the window's share. -/
theorem arrW4_2 (c : Dev nD) (W : (b : Ref sig .tc) → Buf (Elt F) ((c : Thread nD τ).loc b)) :
    (((cfg4.win 2).arr.view.loc (c : Thread nD τ)) ↦[(cfg4.win 2).arr.view.set]{(dat4 V c).share 2} W (Pipeline.arrRef spec4 2) : sProp 𝕄)
      = (((c : Thread nD τ).loc main_v4) ↦{fullShare} W main_v4) := by
  rw [(arr_whole4 2).set_eq_univ]; rfl

/-- Window 3's array at contents `W` of its buffer, at the window's share. -/
theorem arrW4_3 (c : Dev nD) (W : (b : Ref sig .tc) → Buf (Elt F) ((c : Thread nD τ).loc b)) :
    (((cfg4.win 3).arr.view.loc (c : Thread nD τ)) ↦[(cfg4.win 3).arr.view.set]{(dat4 V c).share 3} W (Pipeline.arrRef spec4 3) : sProp 𝕄)
      = (((c : Thread nD τ).loc main_v24) ↦{fullShare.right} W main_v24) := by
  rw [(arr_whole4 3).set_eq_univ]; rfl

/-- Window 4's array at contents `W` of its buffer, at the window's share. -/
theorem arrW4_4 (c : Dev nD) (W : (b : Ref sig .tc) → Buf (Elt F) ((c : Thread nD τ).loc b)) :
    (((cfg4.win 4).arr.view.loc (c : Thread nD τ)) ↦[(cfg4.win 4).arr.view.set]{(dat4 V c).share 4} W (Pipeline.arrRef spec4 4) : sProp 𝕄)
      = (((c : Thread nD τ).loc main_v25) ↦{fullShare} W main_v25) := by
  rw [(arr_whole4 4).set_eq_univ]; rfl

/-- The windows' arrays at contents `W` of the buffers behind them, window by window. -/
theorem arrays_eq4 (c : Dev nD) (W : (b : Ref sig .tc) → Buf (Elt F) ((c : Thread nD τ).loc b)) :
    ((dat4 V c).arrays (fun w => W (Pipeline.arrRef spec4 w)) : sProp 𝕄)
      = iprop((((c : Thread nD τ).loc main_v0_1) ↦{fullShare} W main_v0_1) ∗ (((c : Thread nD τ).loc main_v24) ↦{fullShare.left} W main_v24)
          ∗ (((c : Thread nD τ).loc main_v4) ↦{fullShare} W main_v4) ∗ (((c : Thread nD τ).loc main_v24) ↦{fullShare.right} W main_v24)
          ∗ (((c : Thread nD τ).loc main_v25) ↦{fullShare} W main_v25)) := by
  unfold Dat.arrays
  rw [bigSep_W4]
  exact congrArg₂ BI.sep (arrW4_0 V c W) (congrArg₂ BI.sep (arrW4_1 V c W) (congrArg₂ BI.sep (arrW4_2 V c W) (congrArg₂ BI.sep (arrW4_3 V c W) (arrW4_4 V c W))))

/-- The posterior's buffer whole is its two halves. -/
theorem halves4 (c : Dev nD) (W : (b : Ref sig .tc) → Buf (Elt F) ((c : Thread nD τ).loc b)) :
    ((((c : Thread nD τ).loc main_v24) ↦{fullShare} W main_v24) : sProp 𝕄)
      ⊣⊢ iprop((((c : Thread nD τ).loc main_v24) ↦{fullShare.left} W main_v24) ∗ (((c : Thread nD τ).loc main_v24) ↦{fullShare.right} W main_v24)) :=
  pointsTo_share (PosShare.mem_left_op_right fullShare)

/-- The buffers behind the arrays, each whole at the full share, dealt among the windows. -/
theorem arrays_of_bufs4 (c : Dev nD) (W : (b : Ref sig .tc) → Buf (Elt F) ((c : Thread nD τ).loc b)) :
    (Pipeline.arrBufs spec4 c W : sProp 𝕄) ⊢ (dat4 V c).arrays (fun w => W (Pipeline.arrRef spec4 w)) := by
  rw [arrBufs_eq4, arrays_eq4 V c W]
  iintro ⟨H0, H1, H2, H4⟩
  ihave H13 := (halves4 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays4 (c : Dev nD) (W : (b : Ref sig .tc) → Buf (Elt F) ((c : Thread nD τ).loc b)) :
    ((dat4 V c).arrays (fun w => W (Pipeline.arrRef spec4 w)) : sProp 𝕄) ⊢ Pipeline.arrBufs spec4 c W := by
  rw [arrBufs_eq4, arrays_eq4 V c W]
  iintro ⟨H0, H1, H2, H3, H4⟩
  ihave H13 := (halves4 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry4 (c : Dev nD) :
    (unscopedBufs c (V c) : sProp 𝕄) ⊢ iprop((dat4 V c).arrays ((dat4 V c).arrAt · 0) ∗ Pipeline.unscopedRest spec4 c (V c)) := by
  rw [Pipeline.unscopedBufs_split₀ cfgs 4 winFacts₀4.arr_unscoped c (V c)]
  exact sep_mono (arrays_of_bufs4 V c (V c)) .rfl

/-- What the region's arrays hold after the last point, array by array: an input as the region found it. -/
theorem arrAtN4 (c : Dev nD) (W' : (b : Ref sig .tc) → Buf (Elt F) ((c : Thread nD τ).loc b))
    (hnew : W' main_v25 = (dat4 V c).arrAt 4 cfg4.N) (hrest : ∀ b : Ref sig .tc, b ≠ main_v25 → W' b = V c b) :
    ((dat4 V c).arrAt · cfg4.N) = fun w => W' (Pipeline.arrRef spec4 w) := by
  funext w
  fin_cases w
  · exact ((dat4 V c).arrAt_in 0 rfl _).trans ((A_eq4 V c 0).trans (hrest _ (by decide)).symm)
  · exact ((dat4 V c).arrAt_in 1 rfl _).trans ((A_eq4 V c 1).trans (hrest _ (by decide)).symm)
  · exact ((dat4 V c).arrAt_in 2 rfl _).trans ((A_eq4 V c 2).trans (hrest _ (by decide)).symm)
  · exact ((dat4 V c).arrAt_in 3 rfl _).trans ((A_eq4 V c 3).trans (hrest _ (by decide)).symm)
  · exact hnew.symm

/-- EXIT: the windows' arrays at what the write-backs left and the rest make the unscoped buffers at contents `W'` that
    hold the new posterior at what the region left and every other buffer as the region found it. -/
theorem exit4 (c : Dev nD) (W' : (b : Ref sig .tc) → Buf (Elt F) ((c : Thread nD τ).loc b))
    (hnew : W' main_v25 = (dat4 V c).arrAt 4 cfg4.N) (hrest : ∀ b : Ref sig .tc, b ≠ main_v25 → W' b = V c b) :
    iprop((dat4 V c).arrays ((dat4 V c).arrAt · cfg4.N) ∗ Pipeline.unscopedRest spec4 c (V c)) ⊢ (unscopedBufs c W' : sProp 𝕄) := by
  rw [Pipeline.unscopedBufs_split₀ cfgs 4 winFacts₀4.arr_unscoped c W', arrAtN4 V c W' hnew hrest]
  refine sep_mono (bufs_of_arrays4 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.KernelIdeal.Hand

end
-- ==== Proof.Prop5.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.KernelIdeal.Launch
import proofs.«111186_j27504970563868_1_alg».proof.Proof.Gen.KernelIdeal.Skeleton
import proofs.«111186_j27504970563868_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_A : Rect S1024x8192 := Rect.unit (s := S1024x8192) ![0, 0] S1024x8192.size inb_S1024x8192_S1024x8192_0_0
abbrev r5_E : Rect S8192x2 := Rect.unit (s := S8192x2) ![0, 0] S8192x2.size inb_S8192x2_S8192x2_0_0
abbrev r5_d : Rect S1024x1 := Rect.unit (s := S1024x1) ![0, 0] S1024x1.size inb_S1024x1_S1024x1_0_0
abbrev r5_o : Rect S1024x2 := Rect.unit (s := S1024x2) ![0, 0] S1024x2.size inb_S1024x2_S1024x2_0_0

/-- The output window's staging buffer after the body, from the input windows' blocks: its one store read back. -/
def out5_4 (x0 : Vec F S1024x8192 .bf16) (x1 : Vec F S8192x2 .f32) (x2 : Vec F S1024x1 .f32) (x3 : Vec F S1024x2 .f32) : Vec F S1024x2 .f32 :=
  View.canon [⟨r5_o, k5_pay1 (View.ld x1 r5_E) (View.ld x0 r5_A) (View.ld x2 r5_d) (View.ld x3 r5_o)⟩]

/-- The store covers the buffer. -/
theorem cover5_4 (p0 : Vec F S1024x2 .f32) (y : S1024x2.Idx) :
    ∃ pc ∈ ([⟨r5_o, p0⟩] : List (View.Piece (Elt F) S1024x2 .f32)), y ∈ pc.1.set :=
  View.cover_of_tiled [⟨r5_o, p0⟩] S1024x2.size (by rfl) y

set_option maxHeartbeats 2000000 in
/-- The body on whole staging memrefs, the inputs' at contents `xW` and the output's at anything, runs to the
    continuation holding the inputs' as they were and the output's at `out5_4` of them. -/
theorem sound_kernel5 (c : Dev nD) (E : Set ℕ) (i : grid5.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__prop_kernel i arg1 harg1 arg2 harg2 arg3 harg3 arg4 harg4 arg5 harg5) K := by
  simp only [cc5__prop_kernel_eq_skeleton]; unfold cc5__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The proof data of the region, at the contents `V` it is entered from -/

/-- The arrays as the region finds them; after the body each input's buffer at its block and the output's at
    `out5_4` of the input blocks; the invariant the scoped rest and the generator register, untouched; nothing owed.
    The posterior array is read through windows 1 and 3: each holds one half of the full share of it. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so the body's triple applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.PropEnds5.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.Prop5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr5_0 : Pipeline.arrRef spec5 0 = main_v0_1 := rfl
theorem arr5_1 : Pipeline.arrRef spec5 1 = main_v25 := rfl
theorem arr5_2 : Pipeline.arrRef spec5 2 = main_v4 := rfl
theorem arr5_3 : Pipeline.arrRef spec5 3 = main_v25 := rfl
theorem arr5_4 : Pipeline.arrRef spec5 4 = main_v26 := rfl

/-- The distinct buffers behind the five windows' arrays: four. -/
theorem image_arr5 : (Finset.univ.image (Pipeline.arrRef spec5) : Finset (Ref sig .tc))
    = insert main_v0_1 (insert main_v25 (insert main_v4 {main_v26})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem5_a : (main_v0_1 : Ref sig .tc) ∉ insert main_v25 (insert main_v4 ({main_v26} : Finset (Ref sig .tc))) := by
  simp only [Finset.mem_insert, Finset.mem_singleton, not_or]; exact ⟨by decide, by decide, by decide⟩
theorem notMem5_b : (main_v25 : Ref sig .tc) ∉ insert main_v4 ({main_v26} : Finset (Ref sig .tc)) := by
  simp only [Finset.mem_insert, Finset.mem_singleton, not_or]; exact ⟨by decide, by decide⟩
theorem notMem5_c : (main_v4 : Ref sig .tc) ∉ ({main_v26} : Finset (Ref sig .tc)) := by
  simp only [Finset.mem_singleton]; decide

/-- The distinct buffers, one by one. -/
theorem arrBufs_eq5 (c : Dev nD) (W : (b : Ref sig .tc) → Buf (Elt F) ((c : Thread nD τ).loc b)) :
    (Pipeline.arrBufs spec5 c W : sProp 𝕄)
      = iprop((((c : Thread nD τ).loc main_v0_1) ↦{fullShare} W main_v0_1) ∗ (((c : Thread nD τ).loc main_v25) ↦{fullShare} W main_v25)
          ∗ (((c : Thread nD τ).loc main_v4) ↦{fullShare} W main_v4) ∗ (((c : Thread nD τ).loc main_v26) ↦{fullShare} W main_v26)) := by
  unfold Pipeline.arrBufs
  rw [image_arr5, bigSep_insert notMem5_a, bigSep_insert notMem5_b, bigSep_insert notMem5_c, bigSep_singleton]
  rfl

/-- Window 0's array at contents `W` of its buffer, at the window's share. -/
theorem arrW5_0 (c : Dev nD) (W : (b : Ref sig .tc) → Buf (Elt F) ((c : Thread nD τ).loc b)) :
    (((cfg5.win 0).arr.view.loc (c : Thread nD τ)) ↦[(cfg5.win 0).arr.view.set]{(dat5 V c).share 0} W (Pipeline.arrRef spec5 0) : sProp 𝕄)
      = (((c : Thread nD τ).loc main_v0_1) ↦{fullShare} W main_v0_1) := by
  rw [(arr_whole5 0).set_eq_univ]; rfl

/-- Window 1's array at contents `W` of its buffer, at the window's share. -/
theorem arrW5_1 (c : Dev nD) (W : (b : Ref sig .tc) → Buf (Elt F) ((c : Thread nD τ).loc b)) :
    (((cfg5.win 1).arr.view.loc (c : Thread nD τ)) ↦[(cfg5.win 1).arr.view.set]{(dat5 V c).share 1} W (Pipeline.arrRef spec5 1) : sProp 𝕄)
      = (((c : Thread nD τ).loc main_v25) ↦{fullShare.left} W main_v25) := by
  rw [(arr_whole5 1).set_eq_univ]; rfl

/-- Window 2's array at contents `W` of its buffer, at the window's share. -/
theorem arrW5_2 (c : Dev nD) (W : (b : Ref sig .tc) → Buf (Elt F) ((c : Thread nD τ).loc b)) :
    (((cfg5.win 2).arr.view.loc (c : Thread nD τ)) ↦[(cfg5.win 2).arr.view.set]{(dat5 V c).share 2} W (Pipeline.arrRef spec5 2) : sProp 𝕄)
      = (((c : Thread nD τ).loc main_v4) ↦{fullShare} W main_v4) := by
  rw [(arr_whole5 2).set_eq_univ]; rfl

/-- Window 3's array at contents `W` of its buffer, at the window's share. -/
theorem arrW5_3 (c : Dev nD) (W : (b : Ref sig .tc) → Buf (Elt F) ((c : Thread nD τ).loc b)) :
    (((cfg5.win 3).arr.view.loc (c : Thread nD τ)) ↦[(cfg5.win 3).arr.view.set]{(dat5 V c).share 3} W (Pipeline.arrRef spec5 3) : sProp 𝕄)
      = (((c : Thread nD τ).loc main_v25) ↦{fullShare.right} W main_v25) := by
  rw [(arr_whole5 3).set_eq_univ]; rfl

/-- Window 4's array at contents `W` of its buffer, at the window's share. -/
theorem arrW5_4 (c : Dev nD) (W : (b : Ref sig .tc) → Buf (Elt F) ((c : Thread nD τ).loc b)) :
    (((cfg5.win 4).arr.view.loc (c : Thread nD τ)) ↦[(cfg5.win 4).arr.view.set]{(dat5 V c).share 4} W (Pipeline.arrRef spec5 4) : sProp 𝕄)
      = (((c : Thread nD τ).loc main_v26) ↦{fullShare} W main_v26) := by
  rw [(arr_whole5 4).set_eq_univ]; rfl

/-- The windows' arrays at contents `W` of the buffers behind them, window by window. -/
theorem arrays_eq5 (c : Dev nD) (W : (b : Ref sig .tc) → Buf (Elt F) ((c : Thread nD τ).loc b)) :
    ((dat5 V c).arrays (fun w => W (Pipeline.arrRef spec5 w)) : sProp 𝕄)
      = iprop((((c : Thread nD τ).loc main_v0_1) ↦{fullShare} W main_v0_1) ∗ (((c : Thread nD τ).loc main_v25) ↦{fullShare.left} W main_v25)
          ∗ (((c : Thread nD τ).loc main_v4) ↦{fullShare} W main_v4) ∗ (((c : Thread nD τ).loc main_v25) ↦{fullShare.right} W main_v25)
          ∗ (((c : Thread nD τ).loc main_v26) ↦{fullShare} W main_v26)) := by
  unfold Dat.arrays
  rw [bigSep_W5]
  exact congrArg₂ BI.sep (arrW5_0 V c W) (congrArg₂ BI.sep (arrW5_1 V c W) (congrArg₂ BI.sep (arrW5_2 V c W) (congrArg₂ BI.sep (arrW5_3 V c W) (arrW5_4 V c W))))

/-- The posterior's buffer whole is its two halves. -/
theorem halves5 (c : Dev nD) (W : (b : Ref sig .tc) → Buf (Elt F) ((c : Thread nD τ).loc b)) :
    ((((c : Thread nD τ).loc main_v25) ↦{fullShare} W main_v25) : sProp 𝕄)
      ⊣⊢ iprop((((c : Thread nD τ).loc main_v25) ↦{fullShare.left} W main_v25) ∗ (((c : Thread nD τ).loc main_v25) ↦{fullShare.right} W main_v25)) :=
  pointsTo_share (PosShare.mem_left_op_right fullShare)

/-- The buffers behind the arrays, each whole at the full share, dealt among the windows. -/
theorem arrays_of_bufs5 (c : Dev nD) (W : (b : Ref sig .tc) → Buf (Elt F) ((c : Thread nD τ).loc b)) :
    (Pipeline.arrBufs spec5 c W : sProp 𝕄) ⊢ (dat5 V c).arrays (fun w => W (Pipeline.arrRef spec5 w)) := by
  rw [arrBufs_eq5, arrays_eq5 V c W]
  iintro ⟨H0, H1, H2, H4⟩
  ihave H13 := (halves5 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays5 (c : Dev nD) (W : (b : Ref sig .tc) → Buf (Elt F) ((c : Thread nD τ).loc b)) :
    ((dat5 V c).arrays (fun w => W (Pipeline.arrRef spec5 w)) : sProp 𝕄) ⊢ Pipeline.arrBufs spec5 c W := by
  rw [arrBufs_eq5, arrays_eq5 V c W]
  iintro ⟨H0, H1, H2, H3, H4⟩
  ihave H13 := (halves5 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry5 (c : Dev nD) :
    (unscopedBufs c (V c) : sProp 𝕄) ⊢ iprop((dat5 V c).arrays ((dat5 V c).arrAt · 0) ∗ Pipeline.unscopedRest spec5 c (V c)) := by
  rw [Pipeline.unscopedBufs_split₀ cfgs 5 winFacts₀5.arr_unscoped c (V c)]
  exact sep_mono (arrays_of_bufs5 V c (V c)) .rfl

/-- What the region's arrays hold after the last point, array by array: an input as the region found it. -/
theorem arrAtN5 (c : Dev nD) (W' : (b : Ref sig .tc) → Buf (Elt F) ((c : Thread nD τ).loc b))
    (hnew : W' main_v26 = (dat5 V c).arrAt 4 cfg5.N) (hrest : ∀ b : Ref sig .tc, b ≠ main_v26 → W' b = V c b) :
    ((dat5 V c).arrAt · cfg5.N) = fun w => W' (Pipeline.arrRef spec5 w) := by
  funext w
  fin_cases w
  · exact ((dat5 V c).arrAt_in 0 rfl _).trans ((A_eq5 V c 0).trans (hrest _ (by decide)).symm)
  · exact ((dat5 V c).arrAt_in 1 rfl _).trans ((A_eq5 V c 1).trans (hrest _ (by decide)).symm)
  · exact ((dat5 V c).arrAt_in 2 rfl _).trans ((A_eq5 V c 2).trans (hrest _ (by decide)).symm)
  · exact ((dat5 V c).arrAt_in 3 rfl _).trans ((A_eq5 V c 3).trans (hrest _ (by decide)).symm)
  · exact hnew.symm

/-- EXIT: the windows' arrays at what the write-backs left and the rest make the unscoped buffers at contents `W'` that
    hold the new posterior at what the region left and every other buffer as the region found it. -/
theorem exit5 (c : Dev nD) (W' : (b : Ref sig .tc) → Buf (Elt F) ((c : Thread nD τ).loc b))
    (hnew : W' main_v26 = (dat5 V c).arrAt 4 cfg5.N) (hrest : ∀ b : Ref sig .tc, b ≠ main_v26 → W' b = V c b) :
    iprop((dat5 V c).arrays ((dat5 V c).arrAt · cfg5.N) ∗ Pipeline.unscopedRest spec5 c (V c)) ⊢ (unscopedBufs c W' : sProp 𝕄) := by
  rw [Pipeline.unscopedBufs_split₀ cfgs 5 winFacts₀5.arr_unscoped c W', arrAtN5 V c W' hnew hrest]
  refine sep_mono (bufs_of_arrays5 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.KernelIdeal.Hand

end
-- ==== Proof.Prop6.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.KernelIdeal.Launch
import proofs.«111186_j27504970563868_1_alg».proof.Proof.Gen.KernelIdeal.Skeleton
import proofs.«111186_j27504970563868_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev r6_A : Rect S1024x8192 := Rect.unit (s := S1024x8192) ![0, 0] S1024x8192.size inb_S1024x8192_S1024x8192_0_0
abbrev r6_E : Rect S8192x2 := Rect.unit (s := S8192x2) ![0, 0] S8192x2.size inb_S8192x2_S8192x2_0_0
abbrev r6_d : Rect S1024x1 := Rect.unit (s := S1024x1) ![0, 0] S1024x1.size inb_S1024x1_S1024x1_0_0
abbrev r6_o : Rect S1024x2 := Rect.unit (s := S1024x2) ![0, 0] S1024x2.size inb_S1024x2_S1024x2_0_0

/-- The output window's staging buffer after the body, from the input windows' blocks: its one store read back. -/
def out6_4 (x0 : Vec F S1024x8192 .bf16) (x1 : Vec F S8192x2 .f32) (x2 : Vec F S1024x1 .f32) (x3 : Vec F S1024x2 .f32) : Vec F S1024x2 .f32 :=
  View.canon [⟨r6_o, k6_pay1 (View.ld x1 r6_E) (View.ld x0 r6_A) (View.ld x2 r6_d) (View.ld x3 r6_o)⟩]

/-- The store covers the buffer. -/
theorem cover6_4 (p0 : Vec F S1024x2 .f32) (y : S1024x2.Idx) :
    ∃ pc ∈ ([⟨r6_o, p0⟩] : List (View.Piece (Elt F) S1024x2 .f32)), y ∈ pc.1.set :=
  View.cover_of_tiled [⟨r6_o, p0⟩] S1024x2.size (by rfl) y

set_option maxHeartbeats 2000000 in
/-- The body on whole staging memrefs, the inputs' at contents `xW` and the output's at anything, runs to the
    continuation holding the inputs' as they were and the output's at `out6_4` of them. -/
theorem sound_kernel6 (c : Dev nD) (E : Set ℕ) (i : grid6.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__prop_kernel i arg1 harg1 arg2 harg2 arg3 harg3 arg4 harg4 arg5 harg5) K := by
  simp only [cc6__prop_kernel_eq_skeleton]; unfold cc6__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-! ## The proof data of the region, at the contents `V` it is entered from -/

/-- The arrays as the region finds them; after the body each input's buffer at its block and the output's at
    `out6_4` of the input blocks; the invariant the scoped rest and the generator register, untouched; nothing owed.
    The posterior array is read through windows 1 and 3: each holds one half of the full share of it. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) :
    (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.PropEnds6.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.Prop6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr6_0 : Pipeline.arrRef spec6 0 = main_v0_1 := rfl
theorem arr6_1 : Pipeline.arrRef spec6 1 = main_v26 := rfl
theorem arr6_2 : Pipeline.arrRef spec6 2 = main_v4 := rfl
theorem arr6_3 : Pipeline.arrRef spec6 3 = main_v26 := rfl
theorem arr6_4 : Pipeline.arrRef spec6 4 = main_v27 := rfl

/-- The distinct buffers behind the five windows' arrays: four. -/
theorem image_arr6 : (Finset.univ.image (Pipeline.arrRef spec6) : Finset (Ref sig .tc))
    = insert main_v0_1 (insert main_v26 (insert main_v4 {main_v27})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem6_a : (main_v0_1 : Ref sig .tc) ∉ insert main_v26 (insert main_v4 ({main_v27} : Finset (Ref sig .tc))) := by
  simp only [Finset.mem_insert, Finset.mem_singleton, not_or]; exact ⟨by decide, by decide, by decide⟩
theorem notMem6_b : (main_v26 : Ref sig .tc) ∉ insert main_v4 ({main_v27} : Finset (Ref sig .tc)) := by
  simp only [Finset.mem_insert, Finset.mem_singleton, not_or]; exact ⟨by decide, by decide⟩
theorem notMem6_c : (main_v4 : Ref sig .tc) ∉ ({main_v27} : Finset (Ref sig .tc)) := by
  simp only [Finset.mem_singleton]; decide

/-- The distinct buffers, one by one. -/
theorem arrBufs_eq6 (c : Dev nD) (W : (b : Ref sig .tc) → Buf (Elt F) ((c : Thread nD τ).loc b)) :
    (Pipeline.arrBufs spec6 c W : sProp 𝕄)
      = iprop((((c : Thread nD τ).loc main_v0_1) ↦{fullShare} W main_v0_1) ∗ (((c : Thread nD τ).loc main_v26) ↦{fullShare} W main_v26)
          ∗ (((c : Thread nD τ).loc main_v4) ↦{fullShare} W main_v4) ∗ (((c : Thread nD τ).loc main_v27) ↦{fullShare} W main_v27)) := by
  unfold Pipeline.arrBufs
  rw [image_arr6, bigSep_insert notMem6_a, bigSep_insert notMem6_b, bigSep_insert notMem6_c, bigSep_singleton]
  rfl

/-- Window 0's array at contents `W` of its buffer, at the window's share. -/
theorem arrW6_0 (c : Dev nD) (W : (b : Ref sig .tc) → Buf (Elt F) ((c : Thread nD τ).loc b)) :
    (((cfg6.win 0).arr.view.loc (c : Thread nD τ)) ↦[(cfg6.win 0).arr.view.set]{(dat6 V c).share 0} W (Pipeline.arrRef spec6 0) : sProp 𝕄)
      = (((c : Thread nD τ).loc main_v0_1) ↦{fullShare} W main_v0_1) := by
  rw [(arr_whole6 0).set_eq_univ]; rfl

/-- Window 1's array at contents `W` of its buffer, at the window's share. -/
theorem arrW6_1 (c : Dev nD) (W : (b : Ref sig .tc) → Buf (Elt F) ((c : Thread nD τ).loc b)) :
    (((cfg6.win 1).arr.view.loc (c : Thread nD τ)) ↦[(cfg6.win 1).arr.view.set]{(dat6 V c).share 1} W (Pipeline.arrRef spec6 1) : sProp 𝕄)
      = (((c : Thread nD τ).loc main_v26) ↦{fullShare.left} W main_v26) := by
  rw [(arr_whole6 1).set_eq_univ]; rfl

/-- Window 2's array at contents `W` of its buffer, at the window's share. -/
theorem arrW6_2 (c : Dev nD) (W : (b : Ref sig .tc) → Buf (Elt F) ((c : Thread nD τ).loc b)) :
    (((cfg6.win 2).arr.view.loc (c : Thread nD τ)) ↦[(cfg6.win 2).arr.view.set]{(dat6 V c).share 2} W (Pipeline.arrRef spec6 2) : sProp 𝕄)
      = (((c : Thread nD τ).loc main_v4) ↦{fullShare} W main_v4) := by
  rw [(arr_whole6 2).set_eq_univ]; rfl

/-- Window 3's array at contents `W` of its buffer, at the window's share. -/
theorem arrW6_3 (c : Dev nD) (W : (b : Ref sig .tc) → Buf (Elt F) ((c : Thread nD τ).loc b)) :
    (((cfg6.win 3).arr.view.loc (c : Thread nD τ)) ↦[(cfg6.win 3).arr.view.set]{(dat6 V c).share 3} W (Pipeline.arrRef spec6 3) : sProp 𝕄)
      = (((c : Thread nD τ).loc main_v26) ↦{fullShare.right} W main_v26) := by
  rw [(arr_whole6 3).set_eq_univ]; rfl

/-- Window 4's array at contents `W` of its buffer, at the window's share. -/
theorem arrW6_4 (c : Dev nD) (W : (b : Ref sig .tc) → Buf (Elt F) ((c : Thread nD τ).loc b)) :
    (((cfg6.win 4).arr.view.loc (c : Thread nD τ)) ↦[(cfg6.win 4).arr.view.set]{(dat6 V c).share 4} W (Pipeline.arrRef spec6 4) : sProp 𝕄)
      = (((c : Thread nD τ).loc main_v27) ↦{fullShare} W main_v27) := by
  rw [(arr_whole6 4).set_eq_univ]; rfl

/-- The windows' arrays at contents `W` of the buffers behind them, window by window. -/
theorem arrays_eq6 (c : Dev nD) (W : (b : Ref sig .tc) → Buf (Elt F) ((c : Thread nD τ).loc b)) :
    ((dat6 V c).arrays (fun w => W (Pipeline.arrRef spec6 w)) : sProp 𝕄)
      = iprop((((c : Thread nD τ).loc main_v0_1) ↦{fullShare} W main_v0_1) ∗ (((c : Thread nD τ).loc main_v26) ↦{fullShare.left} W main_v26)
          ∗ (((c : Thread nD τ).loc main_v4) ↦{fullShare} W main_v4) ∗ (((c : Thread nD τ).loc main_v26) ↦{fullShare.right} W main_v26)
          ∗ (((c : Thread nD τ).loc main_v27) ↦{fullShare} W main_v27)) := by
  unfold Dat.arrays
  rw [bigSep_W6]
  exact congrArg₂ BI.sep (arrW6_0 V c W) (congrArg₂ BI.sep (arrW6_1 V c W) (congrArg₂ BI.sep (arrW6_2 V c W) (congrArg₂ BI.sep (arrW6_3 V c W) (arrW6_4 V c W))))

/-- The posterior's buffer whole is its two halves. -/
theorem halves6 (c : Dev nD) (W : (b : Ref sig .tc) → Buf (Elt F) ((c : Thread nD τ).loc b)) :
    ((((c : Thread nD τ).loc main_v26) ↦{fullShare} W main_v26) : sProp 𝕄)
      ⊣⊢ iprop((((c : Thread nD τ).loc main_v26) ↦{fullShare.left} W main_v26) ∗ (((c : Thread nD τ).loc main_v26) ↦{fullShare.right} W main_v26)) :=
  pointsTo_share (PosShare.mem_left_op_right fullShare)

/-- The buffers behind the arrays, each whole at the full share, dealt among the windows. -/
theorem arrays_of_bufs6 (c : Dev nD) (W : (b : Ref sig .tc) → Buf (Elt F) ((c : Thread nD τ).loc b)) :
    (Pipeline.arrBufs spec6 c W : sProp 𝕄) ⊢ (dat6 V c).arrays (fun w => W (Pipeline.arrRef spec6 w)) := by
  rw [arrBufs_eq6, arrays_eq6 V c W]
  iintro ⟨H0, H1, H2, H4⟩
  ihave H13 := (halves6 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays6 (c : Dev nD) (W : (b : Ref sig .tc) → Buf (Elt F) ((c : Thread nD τ).loc b)) :
    ((dat6 V c).arrays (fun w => W (Pipeline.arrRef spec6 w)) : sProp 𝕄) ⊢ Pipeline.arrBufs spec6 c W := by
  rw [arrBufs_eq6, arrays_eq6 V c W]
  iintro ⟨H0, H1, H2, H3, H4⟩
  ihave H13 := (halves6 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry6 (c : Dev nD) :
    (unscopedBufs c (V c) : sProp 𝕄) ⊢ iprop((dat6 V c).arrays ((dat6 V c).arrAt · 0) ∗ Pipeline.unscopedRest spec6 c (V c)) := by
  rw [Pipeline.unscopedBufs_split₀ cfgs 6 winFacts₀6.arr_unscoped c (V c)]
  exact sep_mono (arrays_of_bufs6 V c (V c)) .rfl

/-- What the region's arrays hold after the last point, array by array: an input as the region found it. -/
theorem arrAtN6 (c : Dev nD) (W' : (b : Ref sig .tc) → Buf (Elt F) ((c : Thread nD τ).loc b))
    (hnew : W' main_v27 = (dat6 V c).arrAt 4 cfg6.N) (hrest : ∀ b : Ref sig .tc, b ≠ main_v27 → W' b = V c b) :
    ((dat6 V c).arrAt · cfg6.N) = fun w => W' (Pipeline.arrRef spec6 w) := by
  funext w
  fin_cases w
  · exact ((dat6 V c).arrAt_in 0 rfl _).trans ((A_eq6 V c 0).trans (hrest _ (by decide)).symm)
  · exact ((dat6 V c).arrAt_in 1 rfl _).trans ((A_eq6 V c 1).trans (hrest _ (by decide)).symm)
  · exact ((dat6 V c).arrAt_in 2 rfl _).trans ((A_eq6 V c 2).trans (hrest _ (by decide)).symm)
  · exact ((dat6 V c).arrAt_in 3 rfl _).trans ((A_eq6 V c 3).trans (hrest _ (by decide)).symm)
  · exact hnew.symm

/-- EXIT: the windows' arrays at what the write-backs left and the rest make the unscoped buffers at contents `W'` that
    hold the new posterior at what the region left and every other buffer as the region found it. -/
theorem exit6 (c : Dev nD) (W' : (b : Ref sig .tc) → Buf (Elt F) ((c : Thread nD τ).loc b))
    (hnew : W' main_v27 = (dat6 V c).arrAt 4 cfg6.N) (hrest : ∀ b : Ref sig .tc, b ≠ main_v27 → W' b = V c b) :
    iprop((dat6 V c).arrays ((dat6 V c).arrAt · cfg6.N) ∗ Pipeline.unscopedRest spec6 c (V c)) ⊢ (unscopedBufs c W' : sProp 𝕄) := by
  rw [Pipeline.unscopedBufs_split₀ cfgs 6 winFacts₀6.arr_unscoped c W', arrAtN6 V c W' hnew hrest]
  refine sep_mono (bufs_of_arrays6 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.KernelIdeal.Hand

end
-- ==== Proof.Prop7.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.KernelIdeal.Launch
import proofs.«111186_j27504970563868_1_alg».proof.Proof.Gen.KernelIdeal.Skeleton
import proofs.«111186_j27504970563868_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body loads and stores through. -/
abbrev r7_A : Rect S1024x8192 := Rect.unit (s := S1024x8192) ![0, 0] S1024x8192.size inb_S1024x8192_S1024x8192_0_0
abbrev r7_E : Rect S8192x2 := Rect.unit (s := S8192x2) ![0, 0] S8192x2.size inb_S8192x2_S8192x2_0_0
abbrev r7_d : Rect S1024x1 := Rect.unit (s := S1024x1) ![0, 0] S1024x1.size inb_S1024x1_S1024x1_0_0
abbrev r7_o : Rect S1024x2 := Rect.unit (s := S1024x2) ![0, 0] S1024x2.size inb_S1024x2_S1024x2_0_0

/-- The output window's staging buffer after the body, from the input windows' blocks: its one store read back. -/
def out7_4 (x0 : Vec F S1024x8192 .bf16) (x1 : Vec F S8192x2 .f32) (x2 : Vec F S1024x1 .f32) (x3 : Vec F S1024x2 .f32) : Vec F S1024x2 .f32 :=
  View.canon [⟨r7_o, k7_pay1 (View.ld x1 r7_E) (View.ld x0 r7_A) (View.ld x2 r7_d) (View.ld x3 r7_o)⟩]

/-- The store covers the buffer. -/
theorem cover7_4 (p0 : Vec F S1024x2 .f32) (y : S1024x2.Idx) :
    ∃ pc ∈ ([⟨r7_o, p0⟩] : List (View.Piece (Elt F) S1024x2 .f32)), y ∈ pc.1.set :=
  View.cover_of_tiled [⟨r7_o, p0⟩] S1024x2.size (by rfl) y

set_option maxHeartbeats 2000000 in
/-- The body on whole staging memrefs, the inputs' at contents `xW` and the output's at anything, runs to the
    continuation holding the inputs' as they were and the output's at `out7_4` of them. -/
theorem sound_kernel7 (c : Dev nD) (E : Set ℕ) (i : grid7.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7_4 x0 x1 x2 x3)) -∗ K ⟨⟩))
      ⊢ wp frame (wpE (defs₀ (F := F)) Variants.none c none) E (cc7__prop_kernel i arg1 harg1 arg2 harg2 arg3 harg3 arg4 harg4 arg5 harg5) K := by
  simp only [cc7__prop_kernel_eq_skeleton]; unfold cc7__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The proof data of the region, at the contents `V` it is entered from -/

/-- The arrays as the region finds them; after the body each input's buffer at its block and the output's at
    `out7_4` of the input blocks; the invariant the scoped rest and the generator register, untouched; nothing owed.
    The posterior array is read through windows 1 and 3: each holds one half of the full share of it. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (iblk7 V c 0 t) (iblk7 V c 1 t) (iblk7 V c 2 t) (iblk7 V c 3 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' memrefs hold their blocks, so the body's triple applies; the invariant and what
    the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.PropEnds7.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.Prop7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr7_0 : Pipeline.arrRef spec7 0 = main_v0_1 := rfl
theorem arr7_1 : Pipeline.arrRef spec7 1 = main_v27 := rfl
theorem arr7_2 : Pipeline.arrRef spec7 2 = main_v4 := rfl
theorem arr7_3 : Pipeline.arrRef spec7 3 = main_v27 := rfl
theorem arr7_4 : Pipeline.arrRef spec7 4 = main_v28 := rfl

/-- The distinct buffers behind the five windows' arrays: four. -/
theorem image_arr7 : (Finset.univ.image (Pipeline.arrRef spec7) : Finset (Ref sig .tc))
    = insert main_v0_1 (insert main_v27 (insert main_v4 {main_v28})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem7_a : (main_v0_1 : Ref sig .tc) ∉ insert main_v27 (insert main_v4 ({main_v28} : Finset (Ref sig .tc))) := by
  simp only [Finset.mem_insert, Finset.mem_singleton, not_or]; exact ⟨by decide, by decide, by decide⟩
theorem notMem7_b : (main_v27 : Ref sig .tc) ∉ insert main_v4 ({main_v28} : Finset (Ref sig .tc)) := by
  simp only [Finset.mem_insert, Finset.mem_singleton, not_or]; exact ⟨by decide, by decide⟩
theorem notMem7_c : (main_v4 : Ref sig .tc) ∉ ({main_v28} : Finset (Ref sig .tc)) := by
  simp only [Finset.mem_singleton]; decide

/-- The distinct buffers, one by one. -/
theorem arrBufs_eq7 (c : Dev nD) (W : (b : Ref sig .tc) → Buf (Elt F) ((c : Thread nD τ).loc b)) :
    (Pipeline.arrBufs spec7 c W : sProp 𝕄)
      = iprop((((c : Thread nD τ).loc main_v0_1) ↦{fullShare} W main_v0_1) ∗ (((c : Thread nD τ).loc main_v27) ↦{fullShare} W main_v27)
          ∗ (((c : Thread nD τ).loc main_v4) ↦{fullShare} W main_v4) ∗ (((c : Thread nD τ).loc main_v28) ↦{fullShare} W main_v28)) := by
  unfold Pipeline.arrBufs
  rw [image_arr7, bigSep_insert notMem7_a, bigSep_insert notMem7_b, bigSep_insert notMem7_c, bigSep_singleton]
  rfl

/-- Window 0's array at contents `W` of its buffer, at the window's share. -/
theorem arrW7_0 (c : Dev nD) (W : (b : Ref sig .tc) → Buf (Elt F) ((c : Thread nD τ).loc b)) :
    (((cfg7.win 0).arr.view.loc (c : Thread nD τ)) ↦[(cfg7.win 0).arr.view.set]{(dat7 V c).share 0} W (Pipeline.arrRef spec7 0) : sProp 𝕄)
      = (((c : Thread nD τ).loc main_v0_1) ↦{fullShare} W main_v0_1) := by
  rw [(arr_whole7 0).set_eq_univ]; rfl

/-- Window 1's array at contents `W` of its buffer, at the window's share. -/
theorem arrW7_1 (c : Dev nD) (W : (b : Ref sig .tc) → Buf (Elt F) ((c : Thread nD τ).loc b)) :
    (((cfg7.win 1).arr.view.loc (c : Thread nD τ)) ↦[(cfg7.win 1).arr.view.set]{(dat7 V c).share 1} W (Pipeline.arrRef spec7 1) : sProp 𝕄)
      = (((c : Thread nD τ).loc main_v27) ↦{fullShare.left} W main_v27) := by
  rw [(arr_whole7 1).set_eq_univ]; rfl

/-- Window 2's array at contents `W` of its buffer, at the window's share. -/
theorem arrW7_2 (c : Dev nD) (W : (b : Ref sig .tc) → Buf (Elt F) ((c : Thread nD τ).loc b)) :
    (((cfg7.win 2).arr.view.loc (c : Thread nD τ)) ↦[(cfg7.win 2).arr.view.set]{(dat7 V c).share 2} W (Pipeline.arrRef spec7 2) : sProp 𝕄)
      = (((c : Thread nD τ).loc main_v4) ↦{fullShare} W main_v4) := by
  rw [(arr_whole7 2).set_eq_univ]; rfl

/-- Window 3's array at contents `W` of its buffer, at the window's share. -/
theorem arrW7_3 (c : Dev nD) (W : (b : Ref sig .tc) → Buf (Elt F) ((c : Thread nD τ).loc b)) :
    (((cfg7.win 3).arr.view.loc (c : Thread nD τ)) ↦[(cfg7.win 3).arr.view.set]{(dat7 V c).share 3} W (Pipeline.arrRef spec7 3) : sProp 𝕄)
      = (((c : Thread nD τ).loc main_v27) ↦{fullShare.right} W main_v27) := by
  rw [(arr_whole7 3).set_eq_univ]; rfl

/-- Window 4's array at contents `W` of its buffer, at the window's share. -/
theorem arrW7_4 (c : Dev nD) (W : (b : Ref sig .tc) → Buf (Elt F) ((c : Thread nD τ).loc b)) :
    (((cfg7.win 4).arr.view.loc (c : Thread nD τ)) ↦[(cfg7.win 4).arr.view.set]{(dat7 V c).share 4} W (Pipeline.arrRef spec7 4) : sProp 𝕄)
      = (((c : Thread nD τ).loc main_v28) ↦{fullShare} W main_v28) := by
  rw [(arr_whole7 4).set_eq_univ]; rfl

/-- The windows' arrays at contents `W` of the buffers behind them, window by window. -/
theorem arrays_eq7 (c : Dev nD) (W : (b : Ref sig .tc) → Buf (Elt F) ((c : Thread nD τ).loc b)) :
    ((dat7 V c).arrays (fun w => W (Pipeline.arrRef spec7 w)) : sProp 𝕄)
      = iprop((((c : Thread nD τ).loc main_v0_1) ↦{fullShare} W main_v0_1) ∗ (((c : Thread nD τ).loc main_v27) ↦{fullShare.left} W main_v27)
          ∗ (((c : Thread nD τ).loc main_v4) ↦{fullShare} W main_v4) ∗ (((c : Thread nD τ).loc main_v27) ↦{fullShare.right} W main_v27)
          ∗ (((c : Thread nD τ).loc main_v28) ↦{fullShare} W main_v28)) := by
  unfold Dat.arrays
  rw [bigSep_W7]
  exact congrArg₂ BI.sep (arrW7_0 V c W) (congrArg₂ BI.sep (arrW7_1 V c W) (congrArg₂ BI.sep (arrW7_2 V c W) (congrArg₂ BI.sep (arrW7_3 V c W) (arrW7_4 V c W))))

/-- The posterior's buffer whole is its two halves. -/
theorem halves7 (c : Dev nD) (W : (b : Ref sig .tc) → Buf (Elt F) ((c : Thread nD τ).loc b)) :
    ((((c : Thread nD τ).loc main_v27) ↦{fullShare} W main_v27) : sProp 𝕄)
      ⊣⊢ iprop((((c : Thread nD τ).loc main_v27) ↦{fullShare.left} W main_v27) ∗ (((c : Thread nD τ).loc main_v27) ↦{fullShare.right} W main_v27)) :=
  pointsTo_share (PosShare.mem_left_op_right fullShare)

/-- The buffers behind the arrays, each whole at the full share, dealt among the windows. -/
theorem arrays_of_bufs7 (c : Dev nD) (W : (b : Ref sig .tc) → Buf (Elt F) ((c : Thread nD τ).loc b)) :
    (Pipeline.arrBufs spec7 c W : sProp 𝕄) ⊢ (dat7 V c).arrays (fun w => W (Pipeline.arrRef spec7 w)) := by
  rw [arrBufs_eq7, arrays_eq7 V c W]
  iintro ⟨H0, H1, H2, H4⟩
  ihave H13 := (halves7 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays7 (c : Dev nD) (W : (b : Ref sig .tc) → Buf (Elt F) ((c : Thread nD τ).loc b)) :
    ((dat7 V c).arrays (fun w => W (Pipeline.arrRef spec7 w)) : sProp 𝕄) ⊢ Pipeline.arrBufs spec7 c W := by
  rw [arrBufs_eq7, arrays_eq7 V c W]
  iintro ⟨H0, H1, H2, H3, H4⟩
  ihave H13 := (halves7 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry7 (c : Dev nD) :
    (unscopedBufs c (V c) : sProp 𝕄) ⊢ iprop((dat7 V c).arrays ((dat7 V c).arrAt · 0) ∗ Pipeline.unscopedRest spec7 c (V c)) := by
  rw [Pipeline.unscopedBufs_split₀ cfgs 7 winFacts₀7.arr_unscoped c (V c)]
  exact sep_mono (arrays_of_bufs7 V c (V c)) .rfl

/-- What the region's arrays hold after the last point, array by array: an input as the region found it. -/
theorem arrAtN7 (c : Dev nD) (W' : (b : Ref sig .tc) → Buf (Elt F) ((c : Thread nD τ).loc b))
    (hnew : W' main_v28 = (dat7 V c).arrAt 4 cfg7.N) (hrest : ∀ b : Ref sig .tc, b ≠ main_v28 → W' b = V c b) :
    ((dat7 V c).arrAt · cfg7.N) = fun w => W' (Pipeline.arrRef spec7 w) := by
  funext w
  fin_cases w
  · exact ((dat7 V c).arrAt_in 0 rfl _).trans ((A_eq7 V c 0).trans (hrest _ (by decide)).symm)
  · exact ((dat7 V c).arrAt_in 1 rfl _).trans ((A_eq7 V c 1).trans (hrest _ (by decide)).symm)
  · exact ((dat7 V c).arrAt_in 2 rfl _).trans ((A_eq7 V c 2).trans (hrest _ (by decide)).symm)
  · exact ((dat7 V c).arrAt_in 3 rfl _).trans ((A_eq7 V c 3).trans (hrest _ (by decide)).symm)
  · exact hnew.symm

/-- EXIT: the windows' arrays at what the write-backs left and the rest make the unscoped buffers at contents `W'` that
    hold the new posterior at what the region left and every other buffer as the region found it. -/
theorem exit7 (c : Dev nD) (W' : (b : Ref sig .tc) → Buf (Elt F) ((c : Thread nD τ).loc b))
    (hnew : W' main_v28 = (dat7 V c).arrAt 4 cfg7.N) (hrest : ∀ b : Ref sig .tc, b ≠ main_v28 → W' b = V c b) :
    iprop((dat7 V c).arrays ((dat7 V c).arrAt · cfg7.N) ∗ Pipeline.unscopedRest spec7 c (V c)) ⊢ (unscopedBufs c W' : sProp 𝕄) := by
  rw [Pipeline.unscopedBufs_split₀ cfgs 7 winFacts₀7.arr_unscoped c W', arrAtN7 V c W' hnew hrest]
  refine sep_mono (bufs_of_arrays7 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.KernelIdeal.Hand

end
-- ==== Proof.Prop8.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.KernelIdeal.Launch
import proofs.«111186_j27504970563868_1_alg».proof.Proof.Gen.KernelIdeal.Skeleton
import proofs.«111186_j27504970563868_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- The whole-buffer rectangles the body loads and stores through. -/
abbrev r8_A : Rect S1024x8192 := Rect.unit (s := S1024x8192) ![0, 0] S1024x8192.size inb_S1024x8192_S1024x8192_0_0
abbrev r8_E : Rect S8192x2 := Rect.unit (s := S8192x2) ![0, 0] S8192x2.size inb_S8192x2_S8192x2_0_0
abbrev r8_d : Rect S1024x1 := Rect.unit (s := S1024x1) ![0, 0] S1024x1.size inb_S1024x1_S1024x1_0_0
abbrev r8_o : Rect S1024x2 := Rect.unit (s := S1024x2) ![0, 0] S1024x2.size inb_S1024x2_S1024x2_0_0

/-- The output window's staging buffer after the body, from the input windows' blocks: its one store read back. -/
def out8_4 (x0 : Vec F S1024x8192 .bf16) (x1 : Vec F S8192x2 .f32) (x2 : Vec F S1024x1 .f32) (x3 : Vec F S1024x2 .f32) : Vec F S1024x2 .f32 :=
  View.canon [⟨r8_o, k8_pay1 (View.ld x1 r8_E) (View.ld x0 r8_A) (View.ld x2 r8_d) (View.ld x3 r8_o)⟩]

/-- The store covers the buffer. -/
theorem cover8_4 (p0 : Vec F S1024x2 .f32) (y : S1024x2.Idx) :
    ∃ pc ∈ ([⟨r8_o, p0⟩] : List (View.Piece (Elt F) S1024x2 .f32)), y ∈ pc.1.set :=
  View.cover_of_tiled [⟨r8_o, p0⟩] S1024x2.size (by rfl) y

set_option maxHeartbeats 2000000 in
/-- The body on whole staging memrefs, the inputs' at contents `xW` and the output's at anything, runs to the
    continuation holding the inputs' as they were and the output's at `out8_4` of them. -/
theorem sound_kernel8 (c : Dev nD) (E : Set ℕ) (i : grid8.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out8_4 x0 x1 x2 x3)) -∗ K ⟨⟩))
      ⊢ wp frame (wpE (defs₀ (F := F)) Variants.none c none) E (cc8__prop_kernel i arg1 harg1 arg2 harg2 arg3 harg3 arg4 harg4 arg5 harg5) K := by
  simp only [cc8__prop_kernel_eq_skeleton]; unfold cc8__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8_4 _)

/-! ## The proof data of the region, at the contents `V` it is entered from -/

/-- The arrays as the region finds them; after the body each input's buffer at its block and the output's at
    `out8_4` of the input blocks; the invariant the scoped rest and the generator register, untouched; nothing owed.
    The posterior array is read through windows 1 and 3: each holds one half of the full share of it. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) :
    (dat8 V c).after 4 t = out8_4 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

/-- The body at any point: the inputs' memrefs hold their blocks, so the body's triple applies; the invariant and what
    the core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.PropEnds8.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.Prop8

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr8_0 : Pipeline.arrRef spec8 0 = main_v0_1 := rfl
theorem arr8_1 : Pipeline.arrRef spec8 1 = main_v28 := rfl
theorem arr8_2 : Pipeline.arrRef spec8 2 = main_v4 := rfl
theorem arr8_3 : Pipeline.arrRef spec8 3 = main_v28 := rfl
theorem arr8_4 : Pipeline.arrRef spec8 4 = main_v29 := rfl

/-- The distinct buffers behind the five windows' arrays: four. -/
theorem image_arr8 : (Finset.univ.image (Pipeline.arrRef spec8) : Finset (Ref sig .tc))
    = insert main_v0_1 (insert main_v28 (insert main_v4 {main_v29})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem8_a : (main_v0_1 : Ref sig .tc) ∉ insert main_v28 (insert main_v4 ({main_v29} : Finset (Ref sig .tc))) := by
  simp only [Finset.mem_insert, Finset.mem_singleton, not_or]; exact ⟨by decide, by decide, by decide⟩
theorem notMem8_b : (main_v28 : Ref sig .tc) ∉ insert main_v4 ({main_v29} : Finset (Ref sig .tc)) := by
  simp only [Finset.mem_insert, Finset.mem_singleton, not_or]; exact ⟨by decide, by decide⟩
theorem notMem8_c : (main_v4 : Ref sig .tc) ∉ ({main_v29} : Finset (Ref sig .tc)) := by
  simp only [Finset.mem_singleton]; decide

/-- The distinct buffers, one by one. -/
theorem arrBufs_eq8 (c : Dev nD) (W : (b : Ref sig .tc) → Buf (Elt F) ((c : Thread nD τ).loc b)) :
    (Pipeline.arrBufs spec8 c W : sProp 𝕄)
      = iprop((((c : Thread nD τ).loc main_v0_1) ↦{fullShare} W main_v0_1) ∗ (((c : Thread nD τ).loc main_v28) ↦{fullShare} W main_v28)
          ∗ (((c : Thread nD τ).loc main_v4) ↦{fullShare} W main_v4) ∗ (((c : Thread nD τ).loc main_v29) ↦{fullShare} W main_v29)) := by
  unfold Pipeline.arrBufs
  rw [image_arr8, bigSep_insert notMem8_a, bigSep_insert notMem8_b, bigSep_insert notMem8_c, bigSep_singleton]
  rfl

/-- Window 0's array at contents `W` of its buffer, at the window's share. -/
theorem arrW8_0 (c : Dev nD) (W : (b : Ref sig .tc) → Buf (Elt F) ((c : Thread nD τ).loc b)) :
    (((cfg8.win 0).arr.view.loc (c : Thread nD τ)) ↦[(cfg8.win 0).arr.view.set]{(dat8 V c).share 0} W (Pipeline.arrRef spec8 0) : sProp 𝕄)
      = (((c : Thread nD τ).loc main_v0_1) ↦{fullShare} W main_v0_1) := by
  rw [(arr_whole8 0).set_eq_univ]; rfl

/-- Window 1's array at contents `W` of its buffer, at the window's share. -/
theorem arrW8_1 (c : Dev nD) (W : (b : Ref sig .tc) → Buf (Elt F) ((c : Thread nD τ).loc b)) :
    (((cfg8.win 1).arr.view.loc (c : Thread nD τ)) ↦[(cfg8.win 1).arr.view.set]{(dat8 V c).share 1} W (Pipeline.arrRef spec8 1) : sProp 𝕄)
      = (((c : Thread nD τ).loc main_v28) ↦{fullShare.left} W main_v28) := by
  rw [(arr_whole8 1).set_eq_univ]; rfl

/-- Window 2's array at contents `W` of its buffer, at the window's share. -/
theorem arrW8_2 (c : Dev nD) (W : (b : Ref sig .tc) → Buf (Elt F) ((c : Thread nD τ).loc b)) :
    (((cfg8.win 2).arr.view.loc (c : Thread nD τ)) ↦[(cfg8.win 2).arr.view.set]{(dat8 V c).share 2} W (Pipeline.arrRef spec8 2) : sProp 𝕄)
      = (((c : Thread nD τ).loc main_v4) ↦{fullShare} W main_v4) := by
  rw [(arr_whole8 2).set_eq_univ]; rfl

/-- Window 3's array at contents `W` of its buffer, at the window's share. -/
theorem arrW8_3 (c : Dev nD) (W : (b : Ref sig .tc) → Buf (Elt F) ((c : Thread nD τ).loc b)) :
    (((cfg8.win 3).arr.view.loc (c : Thread nD τ)) ↦[(cfg8.win 3).arr.view.set]{(dat8 V c).share 3} W (Pipeline.arrRef spec8 3) : sProp 𝕄)
      = (((c : Thread nD τ).loc main_v28) ↦{fullShare.right} W main_v28) := by
  rw [(arr_whole8 3).set_eq_univ]; rfl

/-- Window 4's array at contents `W` of its buffer, at the window's share. -/
theorem arrW8_4 (c : Dev nD) (W : (b : Ref sig .tc) → Buf (Elt F) ((c : Thread nD τ).loc b)) :
    (((cfg8.win 4).arr.view.loc (c : Thread nD τ)) ↦[(cfg8.win 4).arr.view.set]{(dat8 V c).share 4} W (Pipeline.arrRef spec8 4) : sProp 𝕄)
      = (((c : Thread nD τ).loc main_v29) ↦{fullShare} W main_v29) := by
  rw [(arr_whole8 4).set_eq_univ]; rfl

/-- The windows' arrays at contents `W` of the buffers behind them, window by window. -/
theorem arrays_eq8 (c : Dev nD) (W : (b : Ref sig .tc) → Buf (Elt F) ((c : Thread nD τ).loc b)) :
    ((dat8 V c).arrays (fun w => W (Pipeline.arrRef spec8 w)) : sProp 𝕄)
      = iprop((((c : Thread nD τ).loc main_v0_1) ↦{fullShare} W main_v0_1) ∗ (((c : Thread nD τ).loc main_v28) ↦{fullShare.left} W main_v28)
          ∗ (((c : Thread nD τ).loc main_v4) ↦{fullShare} W main_v4) ∗ (((c : Thread nD τ).loc main_v28) ↦{fullShare.right} W main_v28)
          ∗ (((c : Thread nD τ).loc main_v29) ↦{fullShare} W main_v29)) := by
  unfold Dat.arrays
  rw [bigSep_W8]
  exact congrArg₂ BI.sep (arrW8_0 V c W) (congrArg₂ BI.sep (arrW8_1 V c W) (congrArg₂ BI.sep (arrW8_2 V c W) (congrArg₂ BI.sep (arrW8_3 V c W) (arrW8_4 V c W))))

/-- The posterior's buffer whole is its two halves. -/
theorem halves8 (c : Dev nD) (W : (b : Ref sig .tc) → Buf (Elt F) ((c : Thread nD τ).loc b)) :
    ((((c : Thread nD τ).loc main_v28) ↦{fullShare} W main_v28) : sProp 𝕄)
      ⊣⊢ iprop((((c : Thread nD τ).loc main_v28) ↦{fullShare.left} W main_v28) ∗ (((c : Thread nD τ).loc main_v28) ↦{fullShare.right} W main_v28)) :=
  pointsTo_share (PosShare.mem_left_op_right fullShare)

/-- The buffers behind the arrays, each whole at the full share, dealt among the windows. -/
theorem arrays_of_bufs8 (c : Dev nD) (W : (b : Ref sig .tc) → Buf (Elt F) ((c : Thread nD τ).loc b)) :
    (Pipeline.arrBufs spec8 c W : sProp 𝕄) ⊢ (dat8 V c).arrays (fun w => W (Pipeline.arrRef spec8 w)) := by
  rw [arrBufs_eq8, arrays_eq8 V c W]
  iintro ⟨H0, H1, H2, H4⟩
  ihave H13 := (halves8 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays8 (c : Dev nD) (W : (b : Ref sig .tc) → Buf (Elt F) ((c : Thread nD τ).loc b)) :
    ((dat8 V c).arrays (fun w => W (Pipeline.arrRef spec8 w)) : sProp 𝕄) ⊢ Pipeline.arrBufs spec8 c W := by
  rw [arrBufs_eq8, arrays_eq8 V c W]
  iintro ⟨H0, H1, H2, H3, H4⟩
  ihave H13 := (halves8 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry8 (c : Dev nD) :
    (unscopedBufs c (V c) : sProp 𝕄) ⊢ iprop((dat8 V c).arrays ((dat8 V c).arrAt · 0) ∗ Pipeline.unscopedRest spec8 c (V c)) := by
  rw [Pipeline.unscopedBufs_split₀ cfgs 8 winFacts₀8.arr_unscoped c (V c)]
  exact sep_mono (arrays_of_bufs8 V c (V c)) .rfl

/-- What the region's arrays hold after the last point, array by array: an input as the region found it. -/
theorem arrAtN8 (c : Dev nD) (W' : (b : Ref sig .tc) → Buf (Elt F) ((c : Thread nD τ).loc b))
    (hnew : W' main_v29 = (dat8 V c).arrAt 4 cfg8.N) (hrest : ∀ b : Ref sig .tc, b ≠ main_v29 → W' b = V c b) :
    ((dat8 V c).arrAt · cfg8.N) = fun w => W' (Pipeline.arrRef spec8 w) := by
  funext w
  fin_cases w
  · exact ((dat8 V c).arrAt_in 0 rfl _).trans ((A_eq8 V c 0).trans (hrest _ (by decide)).symm)
  · exact ((dat8 V c).arrAt_in 1 rfl _).trans ((A_eq8 V c 1).trans (hrest _ (by decide)).symm)
  · exact ((dat8 V c).arrAt_in 2 rfl _).trans ((A_eq8 V c 2).trans (hrest _ (by decide)).symm)
  · exact ((dat8 V c).arrAt_in 3 rfl _).trans ((A_eq8 V c 3).trans (hrest _ (by decide)).symm)
  · exact hnew.symm

/-- EXIT: the windows' arrays at what the write-backs left and the rest make the unscoped buffers at contents `W'` that
    hold the new posterior at what the region left and every other buffer as the region found it. -/
theorem exit8 (c : Dev nD) (W' : (b : Ref sig .tc) → Buf (Elt F) ((c : Thread nD τ).loc b))
    (hnew : W' main_v29 = (dat8 V c).arrAt 4 cfg8.N) (hrest : ∀ b : Ref sig .tc, b ≠ main_v29 → W' b = V c b) :
    iprop((dat8 V c).arrays ((dat8 V c).arrAt · cfg8.N) ∗ Pipeline.unscopedRest spec8 c (V c)) ⊢ (unscopedBufs c W' : sProp 𝕄) := by
  rw [Pipeline.unscopedBufs_split₀ cfgs 8 winFacts₀8.arr_unscoped c W', arrAtN8 V c W' hnew hrest]
  refine sep_mono (bufs_of_arrays8 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.KernelIdeal.Hand

end
-- ==== Proof.Prop9.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.KernelIdeal.Launch
import proofs.«111186_j27504970563868_1_alg».proof.Proof.Gen.KernelIdeal.Skeleton
import proofs.«111186_j27504970563868_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- The whole-buffer rectangles the body loads and stores through. -/
abbrev r9_A : Rect S1024x8192 := Rect.unit (s := S1024x8192) ![0, 0] S1024x8192.size inb_S1024x8192_S1024x8192_0_0
abbrev r9_E : Rect S8192x2 := Rect.unit (s := S8192x2) ![0, 0] S8192x2.size inb_S8192x2_S8192x2_0_0
abbrev r9_d : Rect S1024x1 := Rect.unit (s := S1024x1) ![0, 0] S1024x1.size inb_S1024x1_S1024x1_0_0
abbrev r9_o : Rect S1024x2 := Rect.unit (s := S1024x2) ![0, 0] S1024x2.size inb_S1024x2_S1024x2_0_0

/-- The output window's staging buffer after the body, from the input windows' blocks: its one store read back. -/
def out9_4 (x0 : Vec F S1024x8192 .bf16) (x1 : Vec F S8192x2 .f32) (x2 : Vec F S1024x1 .f32) (x3 : Vec F S1024x2 .f32) : Vec F S1024x2 .f32 :=
  View.canon [⟨r9_o, k9_pay1 (View.ld x1 r9_E) (View.ld x0 r9_A) (View.ld x2 r9_d) (View.ld x3 r9_o)⟩]

/-- The store covers the buffer. -/
theorem cover9_4 (p0 : Vec F S1024x2 .f32) (y : S1024x2.Idx) :
    ∃ pc ∈ ([⟨r9_o, p0⟩] : List (View.Piece (Elt F) S1024x2 .f32)), y ∈ pc.1.set :=
  View.cover_of_tiled [⟨r9_o, p0⟩] S1024x2.size (by rfl) y

set_option maxHeartbeats 2000000 in
/-- The body on whole staging memrefs, the inputs' at contents `xW` and the output's at anything, runs to the
    continuation holding the inputs' as they were and the output's at `out9_4` of them. -/
theorem sound_kernel9 (c : Dev nD) (E : Set ℕ) (i : grid9.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out9_4 x0 x1 x2 x3)) -∗ K ⟨⟩))
      ⊢ wp frame (wpE (defs₀ (F := F)) Variants.none c none) E (cc9__prop_kernel i arg1 harg1 arg2 harg2 arg3 harg3 arg4 harg4 arg5 harg5) K := by
  simp only [cc9__prop_kernel_eq_skeleton]; unfold cc9__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-! ## The proof data of the region, at the contents `V` it is entered from -/

/-- The arrays as the region finds them; after the body each input's buffer at its block and the output's at
    `out9_4` of the input blocks; the invariant the scoped rest and the generator register, untouched; nothing owed.
    The posterior array is read through windows 1 and 3: each holds one half of the full share of it. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' memrefs hold their blocks, so the body's triple applies; the invariant and what
    the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ _ _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.PropEnds9.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.Prop9

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr9_0 : Pipeline.arrRef spec9 0 = main_v0_1 := rfl
theorem arr9_1 : Pipeline.arrRef spec9 1 = main_v29 := rfl
theorem arr9_2 : Pipeline.arrRef spec9 2 = main_v4 := rfl
theorem arr9_3 : Pipeline.arrRef spec9 3 = main_v29 := rfl
theorem arr9_4 : Pipeline.arrRef spec9 4 = main_v30 := rfl

/-- The distinct buffers behind the five windows' arrays: four. -/
theorem image_arr9 : (Finset.univ.image (Pipeline.arrRef spec9) : Finset (Ref sig .tc))
    = insert main_v0_1 (insert main_v29 (insert main_v4 {main_v30})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem9_a : (main_v0_1 : Ref sig .tc) ∉ insert main_v29 (insert main_v4 ({main_v30} : Finset (Ref sig .tc))) := by
  simp only [Finset.mem_insert, Finset.mem_singleton, not_or]; exact ⟨by decide, by decide, by decide⟩
theorem notMem9_b : (main_v29 : Ref sig .tc) ∉ insert main_v4 ({main_v30} : Finset (Ref sig .tc)) := by
  simp only [Finset.mem_insert, Finset.mem_singleton, not_or]; exact ⟨by decide, by decide⟩
theorem notMem9_c : (main_v4 : Ref sig .tc) ∉ ({main_v30} : Finset (Ref sig .tc)) := by
  simp only [Finset.mem_singleton]; decide

/-- The distinct buffers, one by one. -/
theorem arrBufs_eq9 (c : Dev nD) (W : (b : Ref sig .tc) → Buf (Elt F) ((c : Thread nD τ).loc b)) :
    (Pipeline.arrBufs spec9 c W : sProp 𝕄)
      = iprop((((c : Thread nD τ).loc main_v0_1) ↦{fullShare} W main_v0_1) ∗ (((c : Thread nD τ).loc main_v29) ↦{fullShare} W main_v29)
          ∗ (((c : Thread nD τ).loc main_v4) ↦{fullShare} W main_v4) ∗ (((c : Thread nD τ).loc main_v30) ↦{fullShare} W main_v30)) := by
  unfold Pipeline.arrBufs
  rw [image_arr9, bigSep_insert notMem9_a, bigSep_insert notMem9_b, bigSep_insert notMem9_c, bigSep_singleton]
  rfl

/-- Window 0's array at contents `W` of its buffer, at the window's share. -/
theorem arrW9_0 (c : Dev nD) (W : (b : Ref sig .tc) → Buf (Elt F) ((c : Thread nD τ).loc b)) :
    (((cfg9.win 0).arr.view.loc (c : Thread nD τ)) ↦[(cfg9.win 0).arr.view.set]{(dat9 V c).share 0} W (Pipeline.arrRef spec9 0) : sProp 𝕄)
      = (((c : Thread nD τ).loc main_v0_1) ↦{fullShare} W main_v0_1) := by
  rw [(arr_whole9 0).set_eq_univ]; rfl

/-- Window 1's array at contents `W` of its buffer, at the window's share. -/
theorem arrW9_1 (c : Dev nD) (W : (b : Ref sig .tc) → Buf (Elt F) ((c : Thread nD τ).loc b)) :
    (((cfg9.win 1).arr.view.loc (c : Thread nD τ)) ↦[(cfg9.win 1).arr.view.set]{(dat9 V c).share 1} W (Pipeline.arrRef spec9 1) : sProp 𝕄)
      = (((c : Thread nD τ).loc main_v29) ↦{fullShare.left} W main_v29) := by
  rw [(arr_whole9 1).set_eq_univ]; rfl

/-- Window 2's array at contents `W` of its buffer, at the window's share. -/
theorem arrW9_2 (c : Dev nD) (W : (b : Ref sig .tc) → Buf (Elt F) ((c : Thread nD τ).loc b)) :
    (((cfg9.win 2).arr.view.loc (c : Thread nD τ)) ↦[(cfg9.win 2).arr.view.set]{(dat9 V c).share 2} W (Pipeline.arrRef spec9 2) : sProp 𝕄)
      = (((c : Thread nD τ).loc main_v4) ↦{fullShare} W main_v4) := by
  rw [(arr_whole9 2).set_eq_univ]; rfl

/-- Window 3's array at contents `W` of its buffer, at the window's share. -/
theorem arrW9_3 (c : Dev nD) (W : (b : Ref sig .tc) → Buf (Elt F) ((c : Thread nD τ).loc b)) :
    (((cfg9.win 3).arr.view.loc (c : Thread nD τ)) ↦[(cfg9.win 3).arr.view.set]{(dat9 V c).share 3} W (Pipeline.arrRef spec9 3) : sProp 𝕄)
      = (((c : Thread nD τ).loc main_v29) ↦{fullShare.right} W main_v29) := by
  rw [(arr_whole9 3).set_eq_univ]; rfl

/-- Window 4's array at contents `W` of its buffer, at the window's share. -/
theorem arrW9_4 (c : Dev nD) (W : (b : Ref sig .tc) → Buf (Elt F) ((c : Thread nD τ).loc b)) :
    (((cfg9.win 4).arr.view.loc (c : Thread nD τ)) ↦[(cfg9.win 4).arr.view.set]{(dat9 V c).share 4} W (Pipeline.arrRef spec9 4) : sProp 𝕄)
      = (((c : Thread nD τ).loc main_v30) ↦{fullShare} W main_v30) := by
  rw [(arr_whole9 4).set_eq_univ]; rfl

/-- The windows' arrays at contents `W` of the buffers behind them, window by window. -/
theorem arrays_eq9 (c : Dev nD) (W : (b : Ref sig .tc) → Buf (Elt F) ((c : Thread nD τ).loc b)) :
    ((dat9 V c).arrays (fun w => W (Pipeline.arrRef spec9 w)) : sProp 𝕄)
      = iprop((((c : Thread nD τ).loc main_v0_1) ↦{fullShare} W main_v0_1) ∗ (((c : Thread nD τ).loc main_v29) ↦{fullShare.left} W main_v29)
          ∗ (((c : Thread nD τ).loc main_v4) ↦{fullShare} W main_v4) ∗ (((c : Thread nD τ).loc main_v29) ↦{fullShare.right} W main_v29)
          ∗ (((c : Thread nD τ).loc main_v30) ↦{fullShare} W main_v30)) := by
  unfold Dat.arrays
  rw [bigSep_W9]
  exact congrArg₂ BI.sep (arrW9_0 V c W) (congrArg₂ BI.sep (arrW9_1 V c W) (congrArg₂ BI.sep (arrW9_2 V c W) (congrArg₂ BI.sep (arrW9_3 V c W) (arrW9_4 V c W))))

/-- The posterior's buffer whole is its two halves. -/
theorem halves9 (c : Dev nD) (W : (b : Ref sig .tc) → Buf (Elt F) ((c : Thread nD τ).loc b)) :
    ((((c : Thread nD τ).loc main_v29) ↦{fullShare} W main_v29) : sProp 𝕄)
      ⊣⊢ iprop((((c : Thread nD τ).loc main_v29) ↦{fullShare.left} W main_v29) ∗ (((c : Thread nD τ).loc main_v29) ↦{fullShare.right} W main_v29)) :=
  pointsTo_share (PosShare.mem_left_op_right fullShare)

/-- The buffers behind the arrays, each whole at the full share, dealt among the windows. -/
theorem arrays_of_bufs9 (c : Dev nD) (W : (b : Ref sig .tc) → Buf (Elt F) ((c : Thread nD τ).loc b)) :
    (Pipeline.arrBufs spec9 c W : sProp 𝕄) ⊢ (dat9 V c).arrays (fun w => W (Pipeline.arrRef spec9 w)) := by
  rw [arrBufs_eq9, arrays_eq9 V c W]
  iintro ⟨H0, H1, H2, H4⟩
  ihave H13 := (halves9 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays9 (c : Dev nD) (W : (b : Ref sig .tc) → Buf (Elt F) ((c : Thread nD τ).loc b)) :
    ((dat9 V c).arrays (fun w => W (Pipeline.arrRef spec9 w)) : sProp 𝕄) ⊢ Pipeline.arrBufs spec9 c W := by
  rw [arrBufs_eq9, arrays_eq9 V c W]
  iintro ⟨H0, H1, H2, H3, H4⟩
  ihave H13 := (halves9 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry9 (c : Dev nD) :
    (unscopedBufs c (V c) : sProp 𝕄) ⊢ iprop((dat9 V c).arrays ((dat9 V c).arrAt · 0) ∗ Pipeline.unscopedRest spec9 c (V c)) := by
  rw [Pipeline.unscopedBufs_split₀ cfgs 9 winFacts₀9.arr_unscoped c (V c)]
  exact sep_mono (arrays_of_bufs9 V c (V c)) .rfl

/-- What the region's arrays hold after the last point, array by array: an input as the region found it. -/
theorem arrAtN9 (c : Dev nD) (W' : (b : Ref sig .tc) → Buf (Elt F) ((c : Thread nD τ).loc b))
    (hnew : W' main_v30 = (dat9 V c).arrAt 4 cfg9.N) (hrest : ∀ b : Ref sig .tc, b ≠ main_v30 → W' b = V c b) :
    ((dat9 V c).arrAt · cfg9.N) = fun w => W' (Pipeline.arrRef spec9 w) := by
  funext w
  fin_cases w
  · exact ((dat9 V c).arrAt_in 0 rfl _).trans ((A_eq9 V c 0).trans (hrest _ (by decide)).symm)
  · exact ((dat9 V c).arrAt_in 1 rfl _).trans ((A_eq9 V c 1).trans (hrest _ (by decide)).symm)
  · exact ((dat9 V c).arrAt_in 2 rfl _).trans ((A_eq9 V c 2).trans (hrest _ (by decide)).symm)
  · exact ((dat9 V c).arrAt_in 3 rfl _).trans ((A_eq9 V c 3).trans (hrest _ (by decide)).symm)
  · exact hnew.symm

/-- EXIT: the windows' arrays at what the write-backs left and the rest make the unscoped buffers at contents `W'` that
    hold the new posterior at what the region left and every other buffer as the region found it. -/
theorem exit9 (c : Dev nD) (W' : (b : Ref sig .tc) → Buf (Elt F) ((c : Thread nD τ).loc b))
    (hnew : W' main_v30 = (dat9 V c).arrAt 4 cfg9.N) (hrest : ∀ b : Ref sig .tc, b ≠ main_v30 → W' b = V c b) :
    iprop((dat9 V c).arrays ((dat9 V c).arrAt · cfg9.N) ∗ Pipeline.unscopedRest spec9 c (V c)) ⊢ (unscopedBufs c W' : sProp 𝕄) := by
  rw [Pipeline.unscopedBufs_split₀ cfgs 9 winFacts₀9.arr_unscoped c W', arrAtN9 V c W' hnew hrest]
  refine sep_mono (bufs_of_arrays9 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.KernelIdeal.Hand

end
-- ==== Proof.Prop10.lean ====
/-
  One propagation step as a pipeline region: what each window's staging buffer holds when the body runs at a grid
  point (an input's: its block of the array the region found), what the body leaves in the output window's buffer
  (its one store, read back whole), and the body's triple at every point.
  The body reads the whole posterior array E (window 1), a block of 1024 rows of the matrix (window 0), of the
  reciprocal-degree column (window 2) and of E again (window 3), and stores the 1024 new rows
  0.5 * E_rows + 0.5 * (dinv_rows * (A_rows · E)) into window 4.
-/
import proofs.«111186_j27504970563868_1_alg».proof.Proof.Gen.KernelIdeal.Launch
import proofs.«111186_j27504970563868_1_alg».proof.Proof.Gen.KernelIdeal.Skeleton
import proofs.«111186_j27504970563868_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- The whole-buffer rectangles the body loads and stores through. -/
abbrev r10_A : Rect S1024x8192 := Rect.unit (s := S1024x8192) ![0, 0] S1024x8192.size inb_S1024x8192_S1024x8192_0_0
abbrev r10_E : Rect S8192x2 := Rect.unit (s := S8192x2) ![0, 0] S8192x2.size inb_S8192x2_S8192x2_0_0
abbrev r10_d : Rect S1024x1 := Rect.unit (s := S1024x1) ![0, 0] S1024x1.size inb_S1024x1_S1024x1_0_0
abbrev r10_o : Rect S1024x2 := Rect.unit (s := S1024x2) ![0, 0] S1024x2.size inb_S1024x2_S1024x2_0_0

/-- The output window's staging buffer after the body, from the input windows' blocks: its one store read back. -/
def out10_4 (x0 : Vec F S1024x8192 .bf16) (x1 : Vec F S8192x2 .f32) (x2 : Vec F S1024x1 .f32) (x3 : Vec F S1024x2 .f32) : Vec F S1024x2 .f32 :=
  View.canon [⟨r10_o, k10_pay1 (View.ld x1 r10_E) (View.ld x0 r10_A) (View.ld x2 r10_d) (View.ld x3 r10_o)⟩]

/-- The store covers the buffer. -/
theorem cover10_4 (p0 : Vec F S1024x2 .f32) (y : S1024x2.Idx) :
    ∃ pc ∈ ([⟨r10_o, p0⟩] : List (View.Piece (Elt F) S1024x2 .f32)), y ∈ pc.1.set :=
  View.cover_of_tiled [⟨r10_o, p0⟩] S1024x2.size (by rfl) y

set_option maxHeartbeats 2000000 in
/-- The body on whole staging memrefs, the inputs' at contents `xW` and the output's at anything, runs to the
    continuation holding the inputs' as they were and the output's at `out10_4` of them. -/
theorem sound_kernel10 (c : Dev nD) (E : Set ℕ) (i : grid10.Coords)
    (arg1 : Memref sig .tc .vmem S1024x8192 .bf16) (harg1 : arg1.IsWhole) (arg2 : Memref sig .tc .vmem S8192x2 .f32) (harg2 : arg2.IsWhole)
    (arg3 : Memref sig .tc .vmem S1024x1 .f32) (harg3 : arg3.IsWhole) (arg4 : Memref sig .tc .vmem S1024x2 .f32) (harg4 : arg4.IsWhole)
    (arg5 : Memref sig .tc .vmem S1024x2 .f32) (harg5 : arg5.IsWhole)
    (x0 : Vec F S1024x8192 .bf16) (x1 : Vec F S8192x2 .f32) (x2 : Vec F S1024x1 .f32) (x3 : Vec F S1024x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out10_4 x0 x1 x2 x3)) -∗ K ⟨⟩))
      ⊢ wp frame (wpE (defs₀ (F := F)) Variants.none c none) E (cc10__prop_kernel i arg1 harg1 arg2 harg2 arg3 harg3 arg4 harg4 arg5 harg5) K := by
  simp only [cc10__prop_kernel_eq_skeleton]; unfold cc10__prop_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover10_4 _)

/-! ## The proof data of the region, at the contents `V` it is entered from -/

/-- The arrays as the region finds them; after the body each input's buffer at its block and the output's at
    `out10_4` of the input blocks; the invariant the scoped rest and the generator register, untouched; nothing owed.
    The posterior array is read through windows 1 and 3: each holds one half of the full share of it. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t) (iblk10 V c 3 t)
  Φ _ := Pipeline.ΦA spec10 c
  q w := match w with
    | ⟨0, _⟩ => fullShare
    | ⟨1, _⟩ => fullShare.left
    | ⟨2, _⟩ => fullShare
    | ⟨3, _⟩ => fullShare.right
    | ⟨4, _⟩ => fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = out10_4 (iblk10 V c 0 t) (iblk10 V c 1 t) (iblk10 V c 2 t) (iblk10 V c 3 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-! ## The body obligation -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

/-- The body at any point: the inputs' memrefs hold their blocks, so the body's triple applies; the invariant and what
    the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ _ _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.PropEnds10.lean ====
/-
  The two ends of a propagation region. The region reads the posterior array through two windows, so the buffers behind
  the windows' arrays, each held once at the full share, are dealt among the windows at entry — the posterior's buffer
  as its two halves — and put together again at exit, the output's buffer then holding what the write-backs left.
-/
import proofs.«111186_j27504970563868_1_alg».proof.Proof.Prop10

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The arrays behind the five windows, by name: the matrix, the posterior (twice), the reciprocal-degree column, the
    new posterior. -/
theorem arr10_0 : Pipeline.arrRef spec10 0 = main_v0_1 := rfl
theorem arr10_1 : Pipeline.arrRef spec10 1 = main_v30 := rfl
theorem arr10_2 : Pipeline.arrRef spec10 2 = main_v4 := rfl
theorem arr10_3 : Pipeline.arrRef spec10 3 = main_v30 := rfl
theorem arr10_4 : Pipeline.arrRef spec10 4 = main_v31 := rfl

/-- The distinct buffers behind the five windows' arrays: four. -/
theorem image_arr10 : (Finset.univ.image (Pipeline.arrRef spec10) : Finset (Ref sig .tc))
    = insert main_v0_1 (insert main_v30 (insert main_v4 {main_v31})) := by
  ext b
  simp only [Finset.mem_image, Finset.mem_univ, true_and, Finset.mem_insert, Finset.mem_singleton]
  constructor
  · rintro ⟨w, rfl⟩
    fin_cases w
    · exact Or.inl rfl
    · exact Or.inr (Or.inl rfl)
    · exact Or.inr (Or.inr (Or.inl rfl))
    · exact Or.inr (Or.inl rfl)
    · exact Or.inr (Or.inr (Or.inr rfl))
  · rintro (rfl | rfl | rfl | rfl)
    · exact ⟨0, rfl⟩
    · exact ⟨1, rfl⟩
    · exact ⟨2, rfl⟩
    · exact ⟨4, rfl⟩

theorem notMem10_a : (main_v0_1 : Ref sig .tc) ∉ insert main_v30 (insert main_v4 ({main_v31} : Finset (Ref sig .tc))) := by
  simp only [Finset.mem_insert, Finset.mem_singleton, not_or]; exact ⟨by decide, by decide, by decide⟩
theorem notMem10_b : (main_v30 : Ref sig .tc) ∉ insert main_v4 ({main_v31} : Finset (Ref sig .tc)) := by
  simp only [Finset.mem_insert, Finset.mem_singleton, not_or]; exact ⟨by decide, by decide⟩
theorem notMem10_c : (main_v4 : Ref sig .tc) ∉ ({main_v31} : Finset (Ref sig .tc)) := by
  simp only [Finset.mem_singleton]; decide

/-- The distinct buffers, one by one. -/
theorem arrBufs_eq10 (c : Dev nD) (W : (b : Ref sig .tc) → Buf (Elt F) ((c : Thread nD τ).loc b)) :
    (Pipeline.arrBufs spec10 c W : sProp 𝕄)
      = iprop((((c : Thread nD τ).loc main_v0_1) ↦{fullShare} W main_v0_1) ∗ (((c : Thread nD τ).loc main_v30) ↦{fullShare} W main_v30)
          ∗ (((c : Thread nD τ).loc main_v4) ↦{fullShare} W main_v4) ∗ (((c : Thread nD τ).loc main_v31) ↦{fullShare} W main_v31)) := by
  unfold Pipeline.arrBufs
  rw [image_arr10, bigSep_insert notMem10_a, bigSep_insert notMem10_b, bigSep_insert notMem10_c, bigSep_singleton]
  rfl

/-- Window 0's array at contents `W` of its buffer, at the window's share. -/
theorem arrW10_0 (c : Dev nD) (W : (b : Ref sig .tc) → Buf (Elt F) ((c : Thread nD τ).loc b)) :
    (((cfg10.win 0).arr.view.loc (c : Thread nD τ)) ↦[(cfg10.win 0).arr.view.set]{(dat10 V c).share 0} W (Pipeline.arrRef spec10 0) : sProp 𝕄)
      = (((c : Thread nD τ).loc main_v0_1) ↦{fullShare} W main_v0_1) := by
  rw [(arr_whole10 0).set_eq_univ]; rfl

/-- Window 1's array at contents `W` of its buffer, at the window's share. -/
theorem arrW10_1 (c : Dev nD) (W : (b : Ref sig .tc) → Buf (Elt F) ((c : Thread nD τ).loc b)) :
    (((cfg10.win 1).arr.view.loc (c : Thread nD τ)) ↦[(cfg10.win 1).arr.view.set]{(dat10 V c).share 1} W (Pipeline.arrRef spec10 1) : sProp 𝕄)
      = (((c : Thread nD τ).loc main_v30) ↦{fullShare.left} W main_v30) := by
  rw [(arr_whole10 1).set_eq_univ]; rfl

/-- Window 2's array at contents `W` of its buffer, at the window's share. -/
theorem arrW10_2 (c : Dev nD) (W : (b : Ref sig .tc) → Buf (Elt F) ((c : Thread nD τ).loc b)) :
    (((cfg10.win 2).arr.view.loc (c : Thread nD τ)) ↦[(cfg10.win 2).arr.view.set]{(dat10 V c).share 2} W (Pipeline.arrRef spec10 2) : sProp 𝕄)
      = (((c : Thread nD τ).loc main_v4) ↦{fullShare} W main_v4) := by
  rw [(arr_whole10 2).set_eq_univ]; rfl

/-- Window 3's array at contents `W` of its buffer, at the window's share. -/
theorem arrW10_3 (c : Dev nD) (W : (b : Ref sig .tc) → Buf (Elt F) ((c : Thread nD τ).loc b)) :
    (((cfg10.win 3).arr.view.loc (c : Thread nD τ)) ↦[(cfg10.win 3).arr.view.set]{(dat10 V c).share 3} W (Pipeline.arrRef spec10 3) : sProp 𝕄)
      = (((c : Thread nD τ).loc main_v30) ↦{fullShare.right} W main_v30) := by
  rw [(arr_whole10 3).set_eq_univ]; rfl

/-- Window 4's array at contents `W` of its buffer, at the window's share. -/
theorem arrW10_4 (c : Dev nD) (W : (b : Ref sig .tc) → Buf (Elt F) ((c : Thread nD τ).loc b)) :
    (((cfg10.win 4).arr.view.loc (c : Thread nD τ)) ↦[(cfg10.win 4).arr.view.set]{(dat10 V c).share 4} W (Pipeline.arrRef spec10 4) : sProp 𝕄)
      = (((c : Thread nD τ).loc main_v31) ↦{fullShare} W main_v31) := by
  rw [(arr_whole10 4).set_eq_univ]; rfl

/-- The windows' arrays at contents `W` of the buffers behind them, window by window. -/
theorem arrays_eq10 (c : Dev nD) (W : (b : Ref sig .tc) → Buf (Elt F) ((c : Thread nD τ).loc b)) :
    ((dat10 V c).arrays (fun w => W (Pipeline.arrRef spec10 w)) : sProp 𝕄)
      = iprop((((c : Thread nD τ).loc main_v0_1) ↦{fullShare} W main_v0_1) ∗ (((c : Thread nD τ).loc main_v30) ↦{fullShare.left} W main_v30)
          ∗ (((c : Thread nD τ).loc main_v4) ↦{fullShare} W main_v4) ∗ (((c : Thread nD τ).loc main_v30) ↦{fullShare.right} W main_v30)
          ∗ (((c : Thread nD τ).loc main_v31) ↦{fullShare} W main_v31)) := by
  unfold Dat.arrays
  rw [bigSep_W10]
  exact congrArg₂ BI.sep (arrW10_0 V c W) (congrArg₂ BI.sep (arrW10_1 V c W) (congrArg₂ BI.sep (arrW10_2 V c W) (congrArg₂ BI.sep (arrW10_3 V c W) (arrW10_4 V c W))))

/-- The posterior's buffer whole is its two halves. -/
theorem halves10 (c : Dev nD) (W : (b : Ref sig .tc) → Buf (Elt F) ((c : Thread nD τ).loc b)) :
    ((((c : Thread nD τ).loc main_v30) ↦{fullShare} W main_v30) : sProp 𝕄)
      ⊣⊢ iprop((((c : Thread nD τ).loc main_v30) ↦{fullShare.left} W main_v30) ∗ (((c : Thread nD τ).loc main_v30) ↦{fullShare.right} W main_v30)) :=
  pointsTo_share (PosShare.mem_left_op_right fullShare)

/-- The buffers behind the arrays, each whole at the full share, dealt among the windows. -/
theorem arrays_of_bufs10 (c : Dev nD) (W : (b : Ref sig .tc) → Buf (Elt F) ((c : Thread nD τ).loc b)) :
    (Pipeline.arrBufs spec10 c W : sProp 𝕄) ⊢ (dat10 V c).arrays (fun w => W (Pipeline.arrRef spec10 w)) := by
  rw [arrBufs_eq10, arrays_eq10 V c W]
  iintro ⟨H0, H1, H2, H4⟩
  ihave H13 := (halves10 c W).1 $$ H1
  icases H13 with ⟨H1, H3⟩
  isplitl [H0]; · iexact H0
  isplitl [H1]; · iexact H1
  isplitl [H2]; · iexact H2
  isplitl [H3]; · iexact H3
  iexact H4

/-- And put together again. -/
theorem bufs_of_arrays10 (c : Dev nD) (W : (b : Ref sig .tc) → Buf (Elt F) ((c : Thread nD τ).loc b)) :
    ((dat10 V c).arrays (fun w => W (Pipeline.arrRef spec10 w)) : sProp 𝕄) ⊢ Pipeline.arrBufs spec10 c W := by
  rw [arrBufs_eq10, arrays_eq10 V c W]
  iintro ⟨H0, H1, H2, H3, H4⟩
  ihave H13 := (halves10 c W).2 $$ [H1 H3]
  · isplitl [H1]; · iexact H1
    iexact H3
  isplitl [H0]; · iexact H0
  isplitl [H13]; · iexact H13
  isplitl [H2]; · iexact H2
  iexact H4

/-- ENTRY: the core's unscoped buffers at the entry contents are the windows' arrays at them and the rest. -/
theorem entry10 (c : Dev nD) :
    (unscopedBufs c (V c) : sProp 𝕄) ⊢ iprop((dat10 V c).arrays ((dat10 V c).arrAt · 0) ∗ Pipeline.unscopedRest spec10 c (V c)) := by
  rw [Pipeline.unscopedBufs_split₀ cfgs 10 winFacts₀10.arr_unscoped c (V c)]
  exact sep_mono (arrays_of_bufs10 V c (V c)) .rfl

/-- What the region's arrays hold after the last point, array by array: an input as the region found it. -/
theorem arrAtN10 (c : Dev nD) (W' : (b : Ref sig .tc) → Buf (Elt F) ((c : Thread nD τ).loc b))
    (hnew : W' main_v31 = (dat10 V c).arrAt 4 cfg10.N) (hrest : ∀ b : Ref sig .tc, b ≠ main_v31 → W' b = V c b) :
    ((dat10 V c).arrAt · cfg10.N) = fun w => W' (Pipeline.arrRef spec10 w) := by
  funext w
  fin_cases w
  · exact ((dat10 V c).arrAt_in 0 rfl _).trans ((A_eq10 V c 0).trans (hrest _ (by decide)).symm)
  · exact ((dat10 V c).arrAt_in 1 rfl _).trans ((A_eq10 V c 1).trans (hrest _ (by decide)).symm)
  · exact ((dat10 V c).arrAt_in 2 rfl _).trans ((A_eq10 V c 2).trans (hrest _ (by decide)).symm)
  · exact ((dat10 V c).arrAt_in 3 rfl _).trans ((A_eq10 V c 3).trans (hrest _ (by decide)).symm)
  · exact hnew.symm

/-- EXIT: the windows' arrays at what the write-backs left and the rest make the unscoped buffers at contents `W'` that
    hold the new posterior at what the region left and every other buffer as the region found it. -/
theorem exit10 (c : Dev nD) (W' : (b : Ref sig .tc) → Buf (Elt F) ((c : Thread nD τ).loc b))
    (hnew : W' main_v31 = (dat10 V c).arrAt 4 cfg10.N) (hrest : ∀ b : Ref sig .tc, b ≠ main_v31 → W' b = V c b) :
    iprop((dat10 V c).arrays ((dat10 V c).arrAt · cfg10.N) ∗ Pipeline.unscopedRest spec10 c (V c)) ⊢ (unscopedBufs c W' : sProp 𝕄) := by
  rw [Pipeline.unscopedBufs_split₀ cfgs 10 winFacts₀10.arr_unscoped c W', arrAtN10 V c W' hnew hrest]
  refine sep_mono (bufs_of_arrays10 V c W') (Entails.of_eq ?_)
  unfold Pipeline.unscopedRest
  refine bigSep_congr fun b hb => ?_
  rw [hrest b fun e => (Finset.mem_sdiff.mp hb).2 (Finset.mem_image.mpr ⟨4, Finset.mem_univ _, e ▸ rfl⟩)]

end Cert.KernelIdeal.Hand

end
-- ==== Proof.Run.lean ====
/-
  The whole program as a list of segments — host operations, the tile region, host operations, the ten propagation
  regions, host operations — and its run: every weakly fair execution terminates, nothing faulting, and every unscoped
  buffer ends at the last of the boundary contents `W0 … W16` (the launch memory, then each stretch of host operations
  applied, then each region's outputs at what its write-backs left).
-/
import proofs.«111186_j27504970563868_1_alg».proof.Proof.A0
import proofs.«111186_j27504970563868_1_alg».proof.Proof.PropEnds1
import proofs.«111186_j27504970563868_1_alg».proof.Proof.PropEnds2
import proofs.«111186_j27504970563868_1_alg».proof.Proof.PropEnds3
import proofs.«111186_j27504970563868_1_alg».proof.Proof.PropEnds4
import proofs.«111186_j27504970563868_1_alg».proof.Proof.PropEnds5
import proofs.«111186_j27504970563868_1_alg».proof.Proof.PropEnds6
import proofs.«111186_j27504970563868_1_alg».proof.Proof.PropEnds7
import proofs.«111186_j27504970563868_1_alg».proof.Proof.PropEnds8
import proofs.«111186_j27504970563868_1_alg».proof.Proof.PropEnds9
import proofs.«111186_j27504970563868_1_alg».proof.Proof.PropEnds10
import proofs.«111186_j27504970563868_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segments' boundaries -/

abbrev W0 : Dev nD → Valuation τ sig (Elt F) := fun c b => m (c, b)
abbrev W1 : Dev nD → Valuation τ sig (Elt F) := fun c => StableHlo.after hostOps0 (W0 m c)
abbrev T1 : (c : Dev nD) → (b : Ref sig .tc) → Buf (Elt F) ((c : Thread nD τ).loc b) := fun c b => W1 m c b
/-- After the tile region: its four output arrays at what the write-backs left, every other buffer as entered. -/
def W2 (c : Dev nD) : Valuation τ sig (Elt F) :=
  Pipeline.withArrays spec0 c (W1 m c) fun w => (dat0 (T1 m) c).arrAt w cfg0.N
theorem W2_arr (c : Dev nD) (w : Fin cfg0.W) :
    W2 m c (Proc.devRef .tc (Pipeline.arrRef spec0 w)) = (dat0 (T1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev T2 : (c : Dev nD) → (b : Ref sig .tc) → Buf (Elt F) ((c : Thread nD τ).loc b) := fun c b => W2 m c b
theorem hF0 (c : Dev nD) (w : Fin cfg0.W) : (dat0 (T1 m) c).arrAt w cfg0.N = T2 m c (Pipeline.arrRef spec0 w) :=
  (W2_arr m c w).symm
theorem hrest0 (c : Dev nD) : ∀ b, b ∉ Finset.univ.image (Pipeline.arrRef spec0) → T2 m c b = T1 m c b :=
  fun b hb => W2_of_ne m c b fun w e => hb (Finset.mem_image.mpr ⟨w, Finset.mem_univ _, e⟩)
abbrev W3 : Dev nD → Valuation τ sig (Elt F) := fun c => StableHlo.after hostOps1 (W2 m c)
abbrev T3 : (c : Dev nD) → (b : Ref sig .tc) → Buf (Elt F) ((c : Thread nD τ).loc b) := fun c b => W3 m c b

/-- After region 1 (one propagation step): the new posterior's buffer holds what the region's write-backs left, every
    other buffer what it held at entry. -/
def W4 (c : Dev nD) : Valuation τ sig (Elt F) :=
  Function.update (W3 m c) (Proc.devRef .tc main_v22) ((dat1 (T3 m) c).arrAt 4 cfg1.N)
abbrev T4 : (c : Dev nD) → (b : Ref sig .tc) → Buf (Elt F) ((c : Thread nD τ).loc b) := fun c b => W4 m c b
theorem T4_new (c : Dev nD) : T4 m c main_v22 = (dat1 (T3 m) c).arrAt 4 cfg1.N := by
  show W4 m c (Proc.devRef .tc main_v22) = _
  unfold W4; exact Function.update_self _ _ _
theorem T4_of_ne (c : Dev nD) (b : Ref sig .tc) (h : b ≠ main_v22) : T4 m c b = T3 m c b := by
  show W4 m c (Proc.devRef .tc b) = W3 m c (Proc.devRef .tc b)
  unfold W4; exact Function.update_of_ne (StableHlo.devRef_ne_of_ne h) _ _

/-- After region 2 (one propagation step): the new posterior's buffer holds what the region's write-backs left, every
    other buffer what it held at entry. -/
def W5 (c : Dev nD) : Valuation τ sig (Elt F) :=
  Function.update (W4 m c) (Proc.devRef .tc main_v23) ((dat2 (T4 m) c).arrAt 4 cfg2.N)
abbrev T5 : (c : Dev nD) → (b : Ref sig .tc) → Buf (Elt F) ((c : Thread nD τ).loc b) := fun c b => W5 m c b
theorem T5_new (c : Dev nD) : T5 m c main_v23 = (dat2 (T4 m) c).arrAt 4 cfg2.N := by
  show W5 m c (Proc.devRef .tc main_v23) = _
  unfold W5; exact Function.update_self _ _ _
theorem T5_of_ne (c : Dev nD) (b : Ref sig .tc) (h : b ≠ main_v23) : T5 m c b = T4 m c b := by
  show W5 m c (Proc.devRef .tc b) = W4 m c (Proc.devRef .tc b)
  unfold W5; exact Function.update_of_ne (StableHlo.devRef_ne_of_ne h) _ _

/-- After region 3 (one propagation step): the new posterior's buffer holds what the region's write-backs left, every
    other buffer what it held at entry. -/
def W6 (c : Dev nD) : Valuation τ sig (Elt F) :=
  Function.update (W5 m c) (Proc.devRef .tc main_v24) ((dat3 (T5 m) c).arrAt 4 cfg3.N)
abbrev T6 : (c : Dev nD) → (b : Ref sig .tc) → Buf (Elt F) ((c : Thread nD τ).loc b) := fun c b => W6 m c b
theorem T6_new (c : Dev nD) : T6 m c main_v24 = (dat3 (T5 m) c).arrAt 4 cfg3.N := by
  show W6 m c (Proc.devRef .tc main_v24) = _
  unfold W6; exact Function.update_self _ _ _
theorem T6_of_ne (c : Dev nD) (b : Ref sig .tc) (h : b ≠ main_v24) : T6 m c b = T5 m c b := by
  show W6 m c (Proc.devRef .tc b) = W5 m c (Proc.devRef .tc b)
  unfold W6; exact Function.update_of_ne (StableHlo.devRef_ne_of_ne h) _ _

/-- After region 4 (one propagation step): the new posterior's buffer holds what the region's write-backs left, every
    other buffer what it held at entry. -/
def W7 (c : Dev nD) : Valuation τ sig (Elt F) :=
  Function.update (W6 m c) (Proc.devRef .tc main_v25) ((dat4 (T6 m) c).arrAt 4 cfg4.N)
abbrev T7 : (c : Dev nD) → (b : Ref sig .tc) → Buf (Elt F) ((c : Thread nD τ).loc b) := fun c b => W7 m c b
theorem T7_new (c : Dev nD) : T7 m c main_v25 = (dat4 (T6 m) c).arrAt 4 cfg4.N := by
  show W7 m c (Proc.devRef .tc main_v25) = _
  unfold W7; exact Function.update_self _ _ _
theorem T7_of_ne (c : Dev nD) (b : Ref sig .tc) (h : b ≠ main_v25) : T7 m c b = T6 m c b := by
  show W7 m c (Proc.devRef .tc b) = W6 m c (Proc.devRef .tc b)
  unfold W7; exact Function.update_of_ne (StableHlo.devRef_ne_of_ne h) _ _

/-- After region 5 (one propagation step): the new posterior's buffer holds what the region's write-backs left, every
    other buffer what it held at entry. -/
def W8 (c : Dev nD) : Valuation τ sig (Elt F) :=
  Function.update (W7 m c) (Proc.devRef .tc main_v26) ((dat5 (T7 m) c).arrAt 4 cfg5.N)
abbrev T8 : (c : Dev nD) → (b : Ref sig .tc) → Buf (Elt F) ((c : Thread nD τ).loc b) := fun c b => W8 m c b
theorem T8_new (c : Dev nD) : T8 m c main_v26 = (dat5 (T7 m) c).arrAt 4 cfg5.N := by
  show W8 m c (Proc.devRef .tc main_v26) = _
  unfold W8; exact Function.update_self _ _ _
theorem T8_of_ne (c : Dev nD) (b : Ref sig .tc) (h : b ≠ main_v26) : T8 m c b = T7 m c b := by
  show W8 m c (Proc.devRef .tc b) = W7 m c (Proc.devRef .tc b)
  unfold W8; exact Function.update_of_ne (StableHlo.devRef_ne_of_ne h) _ _

/-- After region 6 (one propagation step): the new posterior's buffer holds what the region's write-backs left, every
    other buffer what it held at entry. -/
def W9 (c : Dev nD) : Valuation τ sig (Elt F) :=
  Function.update (W8 m c) (Proc.devRef .tc main_v27) ((dat6 (T8 m) c).arrAt 4 cfg6.N)
abbrev T9 : (c : Dev nD) → (b : Ref sig .tc) → Buf (Elt F) ((c : Thread nD τ).loc b) := fun c b => W9 m c b
theorem T9_new (c : Dev nD) : T9 m c main_v27 = (dat6 (T8 m) c).arrAt 4 cfg6.N := by
  show W9 m c (Proc.devRef .tc main_v27) = _
  unfold W9; exact Function.update_self _ _ _
theorem T9_of_ne (c : Dev nD) (b : Ref sig .tc) (h : b ≠ main_v27) : T9 m c b = T8 m c b := by
  show W9 m c (Proc.devRef .tc b) = W8 m c (Proc.devRef .tc b)
  unfold W9; exact Function.update_of_ne (StableHlo.devRef_ne_of_ne h) _ _

/-- After region 7 (one propagation step): the new posterior's buffer holds what the region's write-backs left, every
    other buffer what it held at entry. -/
def W10 (c : Dev nD) : Valuation τ sig (Elt F) :=
  Function.update (W9 m c) (Proc.devRef .tc main_v28) ((dat7 (T9 m) c).arrAt 4 cfg7.N)
abbrev T10 : (c : Dev nD) → (b : Ref sig .tc) → Buf (Elt F) ((c : Thread nD τ).loc b) := fun c b => W10 m c b
theorem T10_new (c : Dev nD) : T10 m c main_v28 = (dat7 (T9 m) c).arrAt 4 cfg7.N := by
  show W10 m c (Proc.devRef .tc main_v28) = _
  unfold W10; exact Function.update_self _ _ _
theorem T10_of_ne (c : Dev nD) (b : Ref sig .tc) (h : b ≠ main_v28) : T10 m c b = T9 m c b := by
  show W10 m c (Proc.devRef .tc b) = W9 m c (Proc.devRef .tc b)
  unfold W10; exact Function.update_of_ne (StableHlo.devRef_ne_of_ne h) _ _

/-- After region 8 (one propagation step): the new posterior's buffer holds what the region's write-backs left, every
    other buffer what it held at entry. -/
def W11 (c : Dev nD) : Valuation τ sig (Elt F) :=
  Function.update (W10 m c) (Proc.devRef .tc main_v29) ((dat8 (T10 m) c).arrAt 4 cfg8.N)
abbrev T11 : (c : Dev nD) → (b : Ref sig .tc) → Buf (Elt F) ((c : Thread nD τ).loc b) := fun c b => W11 m c b
theorem T11_new (c : Dev nD) : T11 m c main_v29 = (dat8 (T10 m) c).arrAt 4 cfg8.N := by
  show W11 m c (Proc.devRef .tc main_v29) = _
  unfold W11; exact Function.update_self _ _ _
theorem T11_of_ne (c : Dev nD) (b : Ref sig .tc) (h : b ≠ main_v29) : T11 m c b = T10 m c b := by
  show W11 m c (Proc.devRef .tc b) = W10 m c (Proc.devRef .tc b)
  unfold W11; exact Function.update_of_ne (StableHlo.devRef_ne_of_ne h) _ _

/-- After region 9 (one propagation step): the new posterior's buffer holds what the region's write-backs left, every
    other buffer what it held at entry. -/
def W12 (c : Dev nD) : Valuation τ sig (Elt F) :=
  Function.update (W11 m c) (Proc.devRef .tc main_v30) ((dat9 (T11 m) c).arrAt 4 cfg9.N)
abbrev T12 : (c : Dev nD) → (b : Ref sig .tc) → Buf (Elt F) ((c : Thread nD τ).loc b) := fun c b => W12 m c b
theorem T12_new (c : Dev nD) : T12 m c main_v30 = (dat9 (T11 m) c).arrAt 4 cfg9.N := by
  show W12 m c (Proc.devRef .tc main_v30) = _
  unfold W12; exact Function.update_self _ _ _
theorem T12_of_ne (c : Dev nD) (b : Ref sig .tc) (h : b ≠ main_v30) : T12 m c b = T11 m c b := by
  show W12 m c (Proc.devRef .tc b) = W11 m c (Proc.devRef .tc b)
  unfold W12; exact Function.update_of_ne (StableHlo.devRef_ne_of_ne h) _ _

/-- After region 10 (one propagation step): the new posterior's buffer holds what the region's write-backs left, every
    other buffer what it held at entry. -/
def W13 (c : Dev nD) : Valuation τ sig (Elt F) :=
  Function.update (W12 m c) (Proc.devRef .tc main_v31) ((dat10 (T12 m) c).arrAt 4 cfg10.N)
abbrev T13 : (c : Dev nD) → (b : Ref sig .tc) → Buf (Elt F) ((c : Thread nD τ).loc b) := fun c b => W13 m c b
theorem T13_new (c : Dev nD) : T13 m c main_v31 = (dat10 (T12 m) c).arrAt 4 cfg10.N := by
  show W13 m c (Proc.devRef .tc main_v31) = _
  unfold W13; exact Function.update_self _ _ _
theorem T13_of_ne (c : Dev nD) (b : Ref sig .tc) (h : b ≠ main_v31) : T13 m c b = T12 m c b := by
  show W13 m c (Proc.devRef .tc b) = W12 m c (Proc.devRef .tc b)
  unfold W13; exact Function.update_of_ne (StableHlo.devRef_ne_of_ne h) _ _

abbrev W14 : Dev nD → Valuation τ sig (Elt F) := fun c => StableHlo.after hostOps11 (W13 m c)
abbrev W15 : Dev nD → Valuation τ sig (Elt F) := fun c => StableHlo.after hostOps11_1 (W14 m c)
abbrev W16 : Dev nD → Valuation τ sig (Elt F) := fun c => StableHlo.after hostOps11_2 (W15 m c)

/-! ## The proof data family and the thread state -/

abbrev adm : (p : Fin 11) → (pcfgs (F := F) p).Adm := fun p => (cfgs p).toPCfg_adm
/-- Every pipeline's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T4 m) c
  | ⟨3, _⟩ => fun c => dat3 (T5 m) c
  | ⟨4, _⟩ => fun c => dat4 (T6 m) c
  | ⟨5, _⟩ => fun c => dat5 (T7 m) c
  | ⟨6, _⟩ => fun c => dat6 (T8 m) c
  | ⟨7, _⟩ => fun c => dat7 (T9 m) c
  | ⟨8, _⟩ => fun c => dat8 (T10 m) c
  | ⟨9, _⟩ => fun c => dat9 (T11 m) c
  | ⟨10, _⟩ => fun c => dat10 (T12 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 (the tile kernel) over the thread state: entered from every unscoped buffer at `W1`, left at `W2`. Its
    arrays are distinct buffers; the invariant carries the two scratch columns. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (T1 m) c).Φ 0 from rfl]
    iintro ⟨Hp, -, Hr⟩
    iapply (hin0 (T1 m) c)
    unfold Pipeline.ΦA
    isplitl [Hr]; · iexact Hr
    iexact Hp
  hout c := by
    rw [Pipeline.ownSems0_none, show (pdats m 0 c).Φ (Fin.last _) = (dat0 (T1 m) c).Φ (Fin.last cfg0.N) from rfl]
    refine (hout0 (T1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit : (unscopedBufs c (T3 m c) : sProp 𝕄) ⊢ iprop((pdats m 1 c).arrays ((pdats m 1 c).arrAt · 0) ∗ Pipeline.unscopedRest spec1 c (T3 m c)) :=
      entry1 (T3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (T3 m c)) ⊢ (unscopedBufs c (T4 m c) : sProp 𝕄) :=
      exit1 (T3 m) c (T4 m c) (T4_new m c) (T4_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (T4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (T4 m c)
  hentry c := by
    rw [Pipeline.ownSems0_none]
    have hsplit : (unscopedBufs c (T4 m c) : sProp 𝕄) ⊢ iprop((pdats m 2 c).arrays ((pdats m 2 c).arrAt · 0) ∗ Pipeline.unscopedRest spec2 c (T4 m c)) :=
      entry2 (T4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (T4 m c)) ⊢ (unscopedBufs c (T5 m c) : sProp 𝕄) :=
      exit2 (T4 m) c (T5 m c) (T5_new m c) (T5_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W5`, left at `W6`. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (T5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (T5 m c)
  hentry c := by
    rw [Pipeline.ownSems0_none]
    have hsplit : (unscopedBufs c (T5 m c) : sProp 𝕄) ⊢ iprop((pdats m 3 c).arrays ((pdats m 3 c).arrAt · 0) ∗ Pipeline.unscopedRest spec3 c (T5 m c)) :=
      entry3 (T5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (T5 m c)) ⊢ (unscopedBufs c (T6 m c) : sProp 𝕄) :=
      exit3 (T5 m) c (T6 m c) (T6_new m c) (T6_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W6`, left at `W7`. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (T6 m) c).loose
  hwaits := Pipeline.hwaits_of_owed_zero _ _ _ _ L lv 4 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec4 c (T6 m c)
  hentry c := by
    rw [Pipeline.ownSems0_none]
    have hsplit : (unscopedBufs c (T6 m c) : sProp 𝕄) ⊢ iprop((pdats m 4 c).arrays ((pdats m 4 c).arrAt · 0) ∗ Pipeline.unscopedRest spec4 c (T6 m c)) :=
      entry4 (T6 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest spec4 c (T6 m c)) ⊢ (unscopedBufs c (T7 m c) : sProp 𝕄) :=
      exit4 (T6 m) c (T7 m c) (T7_new m c) (T7_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W7`, left at `W8`. -/
def reg5 : Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (body_obligation5 (T7 m) c).loose
  hwaits := Pipeline.hwaits_of_owed_zero _ _ _ _ L lv 5 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec5 c (T7 m c)
  hentry c := by
    rw [Pipeline.ownSems0_none]
    have hsplit : (unscopedBufs c (T7 m c) : sProp 𝕄) ⊢ iprop((pdats m 5 c).arrays ((pdats m 5 c).arrAt · 0) ∗ Pipeline.unscopedRest spec5 c (T7 m c)) :=
      entry5 (T7 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin : iprop((pdats m 5 c).arrays ((pdats m 5 c).arrAt · cfg5.N) ∗ Pipeline.unscopedRest spec5 c (T7 m c)) ⊢ (unscopedBufs c (T8 m c) : sProp 𝕄) :=
      exit5 (T7 m) c (T8 m c) (T8_new m c) (T8_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W8`, left at `W9`. -/
def reg6 : Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (T8 m) c).loose
  hwaits := Pipeline.hwaits_of_owed_zero _ _ _ _ L lv 6 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec6 c (T8 m c)
  hentry c := by
    rw [Pipeline.ownSems0_none]
    have hsplit : (unscopedBufs c (T8 m c) : sProp 𝕄) ⊢ iprop((pdats m 6 c).arrays ((pdats m 6 c).arrAt · 0) ∗ Pipeline.unscopedRest spec6 c (T8 m c)) :=
      entry6 (T8 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin : iprop((pdats m 6 c).arrays ((pdats m 6 c).arrAt · cfg6.N) ∗ Pipeline.unscopedRest spec6 c (T8 m c)) ⊢ (unscopedBufs c (T9 m c) : sProp 𝕄) :=
      exit6 (T8 m) c (T9 m c) (T9_new m c) (T9_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W9`, left at `W10`. -/
def reg7 : Pipeline.RegionSeg (pcfgs (F := F)) adm (pdats m) () defs₀ 𝒱₀ L lv 7 where
  win := winFacts₀7
  block_pos := block_pos7
  stage_whole := stage_whole7
  K := PEmpty
  osem k := k.elim
  ho := Pipeline.OwnSemFacts.none _
  hbody c := (body_obligation7 (T9 m) c).loose
  hwaits := Pipeline.hwaits_of_owed_zero _ _ _ _ L lv 7 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec7 c (T9 m c)
  hentry c := by
    rw [Pipeline.ownSems0_none]
    have hsplit : (unscopedBufs c (T9 m c) : sProp 𝕄) ⊢ iprop((pdats m 7 c).arrays ((pdats m 7 c).arrAt · 0) ∗ Pipeline.unscopedRest spec7 c (T9 m c)) :=
      entry7 (T9 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin : iprop((pdats m 7 c).arrays ((pdats m 7 c).arrAt · cfg7.N) ∗ Pipeline.unscopedRest spec7 c (T9 m c)) ⊢ (unscopedBufs c (T10 m c) : sProp 𝕄) :=
      exit7 (T9 m) c (T10 m c) (T10_new m c) (T10_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W10`, left at `W11`. -/
def reg8 : Pipeline.RegionSeg (pcfgs (F := F)) adm (pdats m) () defs₀ 𝒱₀ L lv 8 where
  win := winFacts₀8
  block_pos := block_pos8
  stage_whole := stage_whole8
  K := PEmpty
  osem k := k.elim
  ho := Pipeline.OwnSemFacts.none _
  hbody c := (body_obligation8 (T10 m) c).loose
  hwaits := Pipeline.hwaits_of_owed_zero _ _ _ _ L lv 8 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec8 c (T10 m c)
  hentry c := by
    rw [Pipeline.ownSems0_none]
    have hsplit : (unscopedBufs c (T10 m c) : sProp 𝕄) ⊢ iprop((pdats m 8 c).arrays ((pdats m 8 c).arrAt · 0) ∗ Pipeline.unscopedRest spec8 c (T10 m c)) :=
      entry8 (T10 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin : iprop((pdats m 8 c).arrays ((pdats m 8 c).arrAt · cfg8.N) ∗ Pipeline.unscopedRest spec8 c (T10 m c)) ⊢ (unscopedBufs c (T11 m c) : sProp 𝕄) :=
      exit8 (T10 m) c (T11 m c) (T11_new m c) (T11_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered from every unscoped buffer at `W11`, left at `W12`. -/
def reg9 : Pipeline.RegionSeg (pcfgs (F := F)) adm (pdats m) () defs₀ 𝒱₀ L lv 9 where
  win := winFacts₀9
  block_pos := block_pos9
  stage_whole := stage_whole9
  K := PEmpty
  osem k := k.elim
  ho := Pipeline.OwnSemFacts.none _
  hbody c := (body_obligation9 (T11 m) c).loose
  hwaits := Pipeline.hwaits_of_owed_zero _ _ _ _ L lv 9 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec9 c (T11 m c)
  hentry c := by
    rw [Pipeline.ownSems0_none]
    have hsplit : (unscopedBufs c (T11 m c) : sProp 𝕄) ⊢ iprop((pdats m 9 c).arrays ((pdats m 9 c).arrAt · 0) ∗ Pipeline.unscopedRest spec9 c (T11 m c)) :=
      entry9 (T11 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin : iprop((pdats m 9 c).arrays ((pdats m 9 c).arrAt · cfg9.N) ∗ Pipeline.unscopedRest spec9 c (T11 m c)) ⊢ (unscopedBufs c (T12 m c) : sProp 𝕄) :=
      exit9 (T11 m) c (T12 m c) (T12_new m c) (T12_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 10 over the thread state: entered from every unscoped buffer at `W12`, left at `W13`. -/
def reg10 : Pipeline.RegionSeg (pcfgs (F := F)) adm (pdats m) () defs₀ 𝒱₀ L lv 10 where
  win := winFacts₀10
  block_pos := block_pos10
  stage_whole := stage_whole10
  K := PEmpty
  osem k := k.elim
  ho := Pipeline.OwnSemFacts.none _
  hbody c := (body_obligation10 (T12 m) c).loose
  hwaits := Pipeline.hwaits_of_owed_zero _ _ _ _ L lv 10 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec10 c (T12 m c)
  hentry c := by
    rw [Pipeline.ownSems0_none]
    have hsplit : (unscopedBufs c (T12 m c) : sProp 𝕄) ⊢ iprop((pdats m 10 c).arrays ((pdats m 10 c).arrAt · 0) ∗ Pipeline.unscopedRest spec10 c (T12 m c)) :=
      entry10 (T12 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin : iprop((pdats m 10 c).arrays ((pdats m 10 c).arrAt · cfg10.N) ∗ Pipeline.unscopedRest spec10 c (T12 m c)) ⊢ (unscopedBufs c (T13 m c) : sProp 𝕄) :=
      exit10 (T12 m) c (T13 m c) (T13_new m c) (T13_of_ne m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .region (reg3 m),
    .region (reg4 m),
    .region (reg5 m),
    .region (reg6 m),
    .region (reg7 m),
    .region (reg8 m),
    .region (reg9 m),
    .region (reg10 m),
    .host (hseg hostOps11 hostOps11_sub hostOps11_fresh (W13 m)),
    .host (hseg hostOps11_1 hostOps11_1_sub hostOps11_1_fresh (W14 m)),
    .host (hseg hostOps11_2 hostOps11_2_sub hostOps11_2_fresh (W15 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every unscoped buffer of every core ends at the last boundary's contents `W16`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W16 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W16 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W16 m c) ∗ R c)
        ⊢ iprop(iprop(StableHlo.held (c : Thread nD τ) (Pipeline.ucRefs τ sig) (W16 m c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c => h c)

end Cert.KernelIdeal.Hand

end
-- ==== Proof.RunReads.lean ====
/-
  The last boundary's contents read at the argument buffers (each as launched: no host operation and no region writes
  an argument) and at the matrix result (what the tile region's write-backs left), and the frame as a corollary of the run.
-/
import proofs.«111186_j27504970563868_1_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_keep (c : Dev nD) (r : Ref sig .tc) (h : r ∉ hostOps0_W) : W1 m c r = W0 m c r :=
  StableHlo.after_of_writes_sub hostOps0 _ hostOps0_writes h
theorem W3_keep (c : Dev nD) (r : Ref sig .tc) (h : r ∉ hostOps1_W) : W3 m c r = W2 m c r :=
  StableHlo.after_of_writes_sub hostOps1 _ hostOps1_writes h
theorem W14_keep (c : Dev nD) (r : Ref sig .tc) (h : r ∉ hostOps11_W) : W14 m c r = W13 m c r :=
  StableHlo.after_of_writes_sub hostOps11 _ hostOps11_writes h
theorem W15_keep (c : Dev nD) (r : Ref sig .tc) (h : r ∉ hostOps11_1_W) : W15 m c r = W14 m c r :=
  StableHlo.after_of_writes_sub hostOps11_1 _ hostOps11_1_writes h
theorem W16_keep (c : Dev nD) (r : Ref sig .tc) (h : r ∉ hostOps11_2_W) : W16 m c r = W15 m c r :=
  StableHlo.after_of_writes_sub hostOps11_2 _ hostOps11_2_writes h

/-- The ten propagation regions' outputs. -/
abbrev stepOuts : List (Ref sig .tc) := [main_v22, main_v23, main_v24, main_v25, main_v26, main_v27, main_v28, main_v29, main_v30, main_v31]

/-- From the end back to after the tile region, at a buffer that no later host stretch and no propagation region writes. -/
theorem W16_of_W2 (c : Dev nD) (r : Ref sig .tc) (h1 : r ∉ hostOps1_W) (hn : ∀ x ∈ stepOuts, r ≠ x)
    (h11 : r ∉ hostOps11_W) (h111 : r ∉ hostOps11_1_W) (h112 : r ∉ hostOps11_2_W) : W16 m c r = W2 m c r :=
  (W16_keep m c r h112).trans <| (W15_keep m c r h111).trans <| (W14_keep m c r h11).trans <|
    (T13_of_ne m c r (hn main_v31 (by decide))).trans <|
    (T12_of_ne m c r (hn main_v30 (by decide))).trans <|
    (T11_of_ne m c r (hn main_v29 (by decide))).trans <|
    (T10_of_ne m c r (hn main_v28 (by decide))).trans <|
    (T9_of_ne m c r (hn main_v27 (by decide))).trans <|
    (T8_of_ne m c r (hn main_v26 (by decide))).trans <|
    (T7_of_ne m c r (hn main_v25 (by decide))).trans <|
    (T6_of_ne m c r (hn main_v24 (by decide))).trans <|
    (T5_of_ne m c r (hn main_v23 (by decide))).trans <|
    (T4_of_ne m c r (hn main_v22 (by decide))).trans <|
    (W3_keep m c r h1)

theorem W16_main_arg0 (c : Dev nD) : W16 m c main_arg0 = m ((c : Thread nD τ).loc main_arg0) :=
  (W16_of_W2 m c main_arg0 (by decide) (fun x hx => by revert x; decide) (by decide) (by decide) (by decide)).trans <|
    (W2_of_ne m c main_arg0 (by decide)).trans <| (W1_keep m c main_arg0 (by decide)).trans rfl
theorem W16_main_arg1 (c : Dev nD) : W16 m c main_arg1 = m ((c : Thread nD τ).loc main_arg1) :=
  (W16_of_W2 m c main_arg1 (by decide) (fun x hx => by revert x; decide) (by decide) (by decide) (by decide)).trans <|
    (W2_of_ne m c main_arg1 (by decide)).trans <| (W1_keep m c main_arg1 (by decide)).trans rfl
theorem W16_main_arg2 (c : Dev nD) : W16 m c main_arg2 = m ((c : Thread nD τ).loc main_arg2) :=
  (W16_of_W2 m c main_arg2 (by decide) (fun x hx => by revert x; decide) (by decide) (by decide) (by decide)).trans <|
    (W2_of_ne m c main_arg2 (by decide)).trans <| (W1_keep m c main_arg2 (by decide)).trans rfl
theorem W16_main_arg3 (c : Dev nD) : W16 m c main_arg3 = m ((c : Thread nD τ).loc main_arg3) :=
  (W16_of_W2 m c main_arg3 (by decide) (fun x hx => by revert x; decide) (by decide) (by decide) (by decide)).trans <|
    (W2_arr m c 0).trans <| ((dat0 (T1 m) c).arrAt_in 0 rfl _).trans <| (A_eq0 (T1 m) c 0).trans <|
      (W1_keep m c main_arg3 (by decide)).trans rfl
theorem W16_main_arg4 (c : Dev nD) : W16 m c main_arg4 = m ((c : Thread nD τ).loc main_arg4) :=
  (W16_of_W2 m c main_arg4 (by decide) (fun x hx => by revert x; decide) (by decide) (by decide) (by decide)).trans <|
    (W2_arr m c 1).trans <| ((dat0 (T1 m) c).arrAt_in 1 rfl _).trans <| (A_eq0 (T1 m) c 1).trans <|
      (W1_keep m c main_arg4 (by decide)).trans rfl

/-- The matrix result's buffer ends at what the tile region's write-backs left in it. -/
theorem W16_main_v0_0 (c : Dev nD) : W16 m c main_v0_0 = (dat0 (T1 m) c).arrAt 2 cfg0.N :=
  (W16_of_W2 m c main_v0_0 (by decide) (fun x hx => by revert x; decide) (by decide) (by decide) (by decide)).trans (W2_arr m c 2)

/-- THE FRAME: every weakly fair execution terminates, nothing faulting, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W16_main_arg0 m c),
     (h c _ (mem_uc main_arg1 (by decide))).trans (W16_main_arg1 m c),
     (h c _ (mem_uc main_arg2 (by decide))).trans (W16_main_arg2 m c),
     (h c _ (mem_uc main_arg3 (by decide))).trans (W16_main_arg3 m c),
     (h c _ (mem_uc main_arg4 (by decide))).trans (W16_main_arg4 m c)⟩) (run m ρ)

end Cert.KernelIdeal.Hand

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.PayProp.lean ====
/-
  The propagation step read at one entry.

  One propagation step replaces the row tile e of the current embedding by
    half * e + half * (d * (Ah · E)),
  where Ah is a [1024, 8192] row tile of the normalised adjacency, E the whole [8192, 2] embedding, d the [1024, 1] column of
  inverse degrees (broadcast along the two lanes) and half the word 0x3F000000.  At the extended reals the narrowing of E to
  the matrix unit's format is the identity and the product into the zero accumulator is the plain sum over the contracted
  index, so entry (p, q) of the step is

    half * e[p, q] + half * (d[p, 0] * ∑ k, Ah[p, k] * E[k, q]).

  The ten steps of the program are the same function of their four operands.
-/
import proofs.«111186_j27504970563868_1_alg».proof.Proof.Gen.KernelIdeal.Skeleton
import proofs.«111186_j27504970563868_1_alg».proof.Proof.LibMatmulNN
import proofs.«111186_j27504970563868_1_alg».proof.Proof.LibColumnLayout
import Idealize.ShloMosaic.Lib.ValueIdx
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The dimension record of the step's product is the plain row-by-column one. -/
theorem dot_eq_plain : dot_S1024x8192_S8192x2_S1024x2_1_0_0_1_n_n = DotDims.plain 1024 8192 2 := rfl

/-- The product of a row tile with the narrowed embedding, into zero, at (p, q): the sum over the contracted index. -/
theorem prod_apply (E : FVec Ideal S8192x2 .f32) (Ah : FVec Ideal S1024x8192 .bf16) (p : Fin 1024) (q : Fin 2) :
    matmul (F := Ideal) dot_S1024x8192_S8192x2_S1024x2_1_0_0_1_n_n none Ah (truncf .bf16 E bitsLt_bf16_f32)
        (constant (F := Ideal) S1024x2 .f32 0x00000000#32) (ix2 p q)
      = ∑ k : Fin 8192, Ah (ix2 p k) * E (ix2 k q) :=
  LibMatmulNN.matmul_zero_apply 1024 8192 2 none Ah (truncf .bf16 E bitsLt_bf16_f32) p q

/-- Entry (p, q) of the first propagation step. -/
theorem k1_pay1_apply (E : Vec Ideal S8192x2 .f32) (Ah : Vec Ideal S1024x8192 .bf16) (d : Vec Ideal S1024x1 .f32)
    (e : Vec Ideal S1024x2 .f32) (p : Fin 1024) (q : Fin 2) :
    k1_pay1 (F := Ideal) E Ah d e (ix2 p q)
      = Ideal.ofBits .f32 0x3F000000#32 * e (ix2 p q)
        + Ideal.ofBits .f32 0x3F000000#32 * (d (ix2 p (0 : Fin 1)) * ∑ k : Fin 8192, Ah (ix2 p k) * E (ix2 k q)) := by
  unfold k1_pay1
  simp only [shapeCast_self]
  show Ideal.ofBits .f32 0x3F000000#32 * e (ix2 p q)
      + Ideal.ofBits .f32 0x3F000000#32 * (broadcastTo S1024x2 d broadcasts_S1024x1_S1024x2 (ix2 p q)
        * matmul (F := Ideal) (φ₁ := .bf16) dot_S1024x8192_S8192x2_S1024x2_1_0_0_1_n_n none Ah
            (truncf .bf16 (φ := .f32) E bitsLt_bf16_f32) (constant (F := Ideal) S1024x2 .f32 0x00000000#32) (ix2 p q)) = _
  have h1 := prod_apply E Ah p q
  have h2 := broadcastTo_a1_ab_apply d broadcasts_S1024x1_S1024x2 p q
  rw [h1, h2]

/-! The nine later steps are the same function. -/

theorem k2_pay1_eq : @k2_pay1 = @k1_pay1 := rfl
theorem k3_pay1_eq : @k3_pay1 = @k1_pay1 := rfl
theorem k4_pay1_eq : @k4_pay1 = @k1_pay1 := rfl
theorem k5_pay1_eq : @k5_pay1 = @k1_pay1 := rfl
theorem k6_pay1_eq : @k6_pay1 = @k1_pay1 := rfl
theorem k7_pay1_eq : @k7_pay1 = @k1_pay1 := rfl
theorem k8_pay1_eq : @k8_pay1 = @k1_pay1 := rfl
theorem k9_pay1_eq : @k9_pay1 = @k1_pay1 := rfl
theorem k10_pay1_eq : @k10_pay1 = @k1_pay1 := rfl

/-- Entry (p, q) of propagation step 2. -/
theorem k2_pay1_apply (E : Vec Ideal S8192x2 .f32) (Ah : Vec Ideal S1024x8192 .bf16) (d : Vec Ideal S1024x1 .f32)
    (e : Vec Ideal S1024x2 .f32) (p : Fin 1024) (q : Fin 2) :
    k2_pay1 (F := Ideal) E Ah d e (ix2 p q)
      = Ideal.ofBits .f32 0x3F000000#32 * e (ix2 p q)
        + Ideal.ofBits .f32 0x3F000000#32 * (d (ix2 p (0 : Fin 1)) * ∑ k : Fin 8192, Ah (ix2 p k) * E (ix2 k q)) :=
  k1_pay1_apply E Ah d e p q

/-- Entry (p, q) of propagation step 3. -/
theorem k3_pay1_apply (E : Vec Ideal S8192x2 .f32) (Ah : Vec Ideal S1024x8192 .bf16) (d : Vec Ideal S1024x1 .f32)
    (e : Vec Ideal S1024x2 .f32) (p : Fin 1024) (q : Fin 2) :
    k3_pay1 (F := Ideal) E Ah d e (ix2 p q)
      = Ideal.ofBits .f32 0x3F000000#32 * e (ix2 p q)
        + Ideal.ofBits .f32 0x3F000000#32 * (d (ix2 p (0 : Fin 1)) * ∑ k : Fin 8192, Ah (ix2 p k) * E (ix2 k q)) :=
  k1_pay1_apply E Ah d e p q

/-- Entry (p, q) of propagation step 4. -/
theorem k4_pay1_apply (E : Vec Ideal S8192x2 .f32) (Ah : Vec Ideal S1024x8192 .bf16) (d : Vec Ideal S1024x1 .f32)
    (e : Vec Ideal S1024x2 .f32) (p : Fin 1024) (q : Fin 2) :
    k4_pay1 (F := Ideal) E Ah d e (ix2 p q)
      = Ideal.ofBits .f32 0x3F000000#32 * e (ix2 p q)
        + Ideal.ofBits .f32 0x3F000000#32 * (d (ix2 p (0 : Fin 1)) * ∑ k : Fin 8192, Ah (ix2 p k) * E (ix2 k q)) :=
  k1_pay1_apply E Ah d e p q

/-- Entry (p, q) of propagation step 5. -/
theorem k5_pay1_apply (E : Vec Ideal S8192x2 .f32) (Ah : Vec Ideal S1024x8192 .bf16) (d : Vec Ideal S1024x1 .f32)
    (e : Vec Ideal S1024x2 .f32) (p : Fin 1024) (q : Fin 2) :
    k5_pay1 (F := Ideal) E Ah d e (ix2 p q)
      = Ideal.ofBits .f32 0x3F000000#32 * e (ix2 p q)
        + Ideal.ofBits .f32 0x3F000000#32 * (d (ix2 p (0 : Fin 1)) * ∑ k : Fin 8192, Ah (ix2 p k) * E (ix2 k q)) :=
  k1_pay1_apply E Ah d e p q

/-- Entry (p, q) of propagation step 6. -/
theorem k6_pay1_apply (E : Vec Ideal S8192x2 .f32) (Ah : Vec Ideal S1024x8192 .bf16) (d : Vec Ideal S1024x1 .f32)
    (e : Vec Ideal S1024x2 .f32) (p : Fin 1024) (q : Fin 2) :
    k6_pay1 (F := Ideal) E Ah d e (ix2 p q)
      = Ideal.ofBits .f32 0x3F000000#32 * e (ix2 p q)
        + Ideal.ofBits .f32 0x3F000000#32 * (d (ix2 p (0 : Fin 1)) * ∑ k : Fin 8192, Ah (ix2 p k) * E (ix2 k q)) :=
  k1_pay1_apply E Ah d e p q

/-- Entry (p, q) of propagation step 7. -/
theorem k7_pay1_apply (E : Vec Ideal S8192x2 .f32) (Ah : Vec Ideal S1024x8192 .bf16) (d : Vec Ideal S1024x1 .f32)
    (e : Vec Ideal S1024x2 .f32) (p : Fin 1024) (q : Fin 2) :
    k7_pay1 (F := Ideal) E Ah d e (ix2 p q)
      = Ideal.ofBits .f32 0x3F000000#32 * e (ix2 p q)
        + Ideal.ofBits .f32 0x3F000000#32 * (d (ix2 p (0 : Fin 1)) * ∑ k : Fin 8192, Ah (ix2 p k) * E (ix2 k q)) :=
  k1_pay1_apply E Ah d e p q

/-- Entry (p, q) of propagation step 8. -/
theorem k8_pay1_apply (E : Vec Ideal S8192x2 .f32) (Ah : Vec Ideal S1024x8192 .bf16) (d : Vec Ideal S1024x1 .f32)
    (e : Vec Ideal S1024x2 .f32) (p : Fin 1024) (q : Fin 2) :
    k8_pay1 (F := Ideal) E Ah d e (ix2 p q)
      = Ideal.ofBits .f32 0x3F000000#32 * e (ix2 p q)
        + Ideal.ofBits .f32 0x3F000000#32 * (d (ix2 p (0 : Fin 1)) * ∑ k : Fin 8192, Ah (ix2 p k) * E (ix2 k q)) :=
  k1_pay1_apply E Ah d e p q

/-- Entry (p, q) of propagation step 9. -/
theorem k9_pay1_apply (E : Vec Ideal S8192x2 .f32) (Ah : Vec Ideal S1024x8192 .bf16) (d : Vec Ideal S1024x1 .f32)
    (e : Vec Ideal S1024x2 .f32) (p : Fin 1024) (q : Fin 2) :
    k9_pay1 (F := Ideal) E Ah d e (ix2 p q)
      = Ideal.ofBits .f32 0x3F000000#32 * e (ix2 p q)
        + Ideal.ofBits .f32 0x3F000000#32 * (d (ix2 p (0 : Fin 1)) * ∑ k : Fin 8192, Ah (ix2 p k) * E (ix2 k q)) :=
  k1_pay1_apply E Ah d e p q

/-- Entry (p, q) of propagation step 10. -/
theorem k10_pay1_apply (E : Vec Ideal S8192x2 .f32) (Ah : Vec Ideal S1024x8192 .bf16) (d : Vec Ideal S1024x1 .f32)
    (e : Vec Ideal S1024x2 .f32) (p : Fin 1024) (q : Fin 2) :
    k10_pay1 (F := Ideal) E Ah d e (ix2 p q)
      = Ideal.ofBits .f32 0x3F000000#32 * e (ix2 p q)
        + Ideal.ofBits .f32 0x3F000000#32 * (d (ix2 p (0 : Fin 1)) * ∑ k : Fin 8192, Ah (ix2 p k) * E (ix2 k q)) :=
  k1_pay1_apply E Ah d e p q

end Cert.KernelIdeal.Pay

end
-- ==== Proof.PropStep.lean ====
/-
  One propagation step on whole arrays.

  From the normalised adjacency Ah ([8192, 8192]), the current embedding E ([8192, 2]) and the column d of inverse degrees
  ([8192, 1]) the step makes the [8192, 2] array whose entry (r, q) is

    half * E[r, q] + half * (d[r, 0] * ∑ k, Ah[r, k] * E[k, q]),

  half being the word 0x3F000000 read at the extended reals.
-/
import Idealize.ShloMosaic.Lib.ValueIdx

noncomputable section

open scoped BigOperators

namespace Cert.KernelIdeal.Pay

open Idealize.ShloMosaic Idealize.ShloMosaic.ValueIdx

/-- Entry (r, q) of the step. -/
def stepAt (Ah : Vec Ideal ⟨2, ![8192, 8192]⟩ .bf16) (E : Vec Ideal ⟨2, ![8192, 2]⟩ .f32) (d : Vec Ideal ⟨2, ![8192, 1]⟩ .f32)
    (r : Fin 8192) (q : Fin 2) : Elt Ideal .f32 :=
  Ideal.ofBits .f32 0x3F000000#32 * E (ix2 r q)
    + Ideal.ofBits .f32 0x3F000000#32 * (d (ix2 r (0 : Fin 1)) * ∑ k : Fin 8192, Ah (ix2 r k) * E (ix2 k q))

/-- The step as an array. -/
def step (Ah : Vec Ideal ⟨2, ![8192, 8192]⟩ .bf16) (E : Vec Ideal ⟨2, ![8192, 2]⟩ .f32) (d : Vec Ideal ⟨2, ![8192, 1]⟩ .f32) :
    Vec Ideal ⟨2, ![8192, 2]⟩ .f32 :=
  fun i => stepAt Ah E d (i 0) (i 1)

/-- The step read at (r, q). -/
theorem step_apply (Ah : Vec Ideal ⟨2, ![8192, 8192]⟩ .bf16) (E : Vec Ideal ⟨2, ![8192, 2]⟩ .f32) (d : Vec Ideal ⟨2, ![8192, 1]⟩ .f32)
    (r : Fin 8192) (q : Fin 2) :
    step Ah E d (ix2 r q)
      = Ideal.ofBits .f32 0x3F000000#32 * E (ix2 r q)
        + Ideal.ofBits .f32 0x3F000000#32 * (d (ix2 r (0 : Fin 1)) * ∑ k : Fin 8192, Ah (ix2 r k) * E (ix2 k q)) := rfl

end Cert.KernelIdeal.Pay

end
-- ==== Proof.PropVal1.lean ====
/-
  What propagation step 1 leaves in its output array.

  The step's grid has 8 points; point t holds rows 1024 * t … 1024 * t + 1023 of the adjacency, of the inverse-degree column
  and of the current embedding, and the whole embedding besides, and writes back rows 1024 * t … of the output.  Each point's
  write-back is that block of rows of the one array "step Ah E d", and the 8 blocks cover the 8192 rows, so the output array
  ends as step Ah E d.
-/
import proofs.«111186_j27504970563868_1_alg».proof.Proof.Prop1
import proofs.«111186_j27504970563868_1_alg».proof.Proof.PayProp
import proofs.«111186_j27504970563868_1_alg».proof.Proof.PropStep
import Idealize.ShloMosaic.Lib.Pipeline.Value

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The body's one store, read back whole, is the step's payload of the four loaded blocks. -/
theorem out1_4_eq (x0 : Vec Ideal S1024x8192 .bf16) (x1 : Vec Ideal S8192x2 .f32) (x2 : Vec Ideal S1024x1 .f32)
    (x3 : Vec Ideal S1024x2 .f32) : out1_4 (F := Ideal) x0 x1 x2 x3 = k1_pay1 (F := Ideal) x1 x0 x2 x3 := by
  unfold out1_4
  rw [View.canon_unit_zero hz1]
  simp only [View.ld_unit_zero (S := S8192x2) hz1, View.ld_unit_zero (S := S1024x8192) hz1,
    View.ld_unit_zero (S := S1024x1) hz1, View.ld_unit_zero (S := S1024x2) hz1]

/-- The printed index maps over the 8 grid points: the row-block windows sit at block row t, column block 0; the whole
    embedding at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- A grid point's rows are rows of the array. -/
theorem row_lt1 (t : Fin cfg1.N) (p : Fin 1024) : 1024 * t.val + p.val < 8192 := by
  have ht : t.val < 8 := N_1 ▸ t.isLt
  have hp := p.isLt
  omega

/-- Where the adjacency block at point t sits in its array: rows 1024 * t …, all columns. -/
theorem emb1_0 (t : Fin cfg1.N) (p : Fin 1024) (k : Fin 8192) :
    ((cfg1.win 0).blk t).view.emb (ix2 p k) = ix2 (⟨1024 * t.val + p.val, row_lt1 t p⟩ : Fin 8192) k := by
  obtain ⟨e00, e01, -⟩ := idx_facts1 t
  funext a; apply Fin.ext
  match a with
  | ⟨0, _⟩ => show win1_0.index t (0 : Fin 2) * 1024 + 1 * p.val = 1024 * t.val + p.val; omega
  | ⟨1, _⟩ => show win1_0.index t (1 : Fin 2) * 8192 + 1 * k.val = k.val; omega

/-- The whole embedding is read in place. -/
theorem emb1_1 (t : Fin cfg1.N) (k : Fin 8192) (q : Fin 2) :
    ((cfg1.win 1).blk t).view.emb (ix2 k q) = ix2 k q := by
  obtain ⟨-, -, e10, e11, -⟩ := idx_facts1 t
  funext a; apply Fin.ext
  match a with
  | ⟨0, _⟩ => show win1_1.index t (0 : Fin 2) * 8192 + 1 * k.val = k.val; omega
  | ⟨1, _⟩ => show win1_1.index t (1 : Fin 2) * 2 + 1 * q.val = q.val; omega

/-- Where the inverse-degree block at point t sits: rows 1024 * t …. -/
theorem emb1_2 (t : Fin cfg1.N) (p : Fin 1024) :
    ((cfg1.win 2).blk t).view.emb (ix2 p (0 : Fin 1)) = ix2 (⟨1024 * t.val + p.val, row_lt1 t p⟩ : Fin 8192) (0 : Fin 1) := by
  obtain ⟨-, -, -, -, e20, e21, -⟩ := idx_facts1 t
  funext a; apply Fin.ext
  match a with
  | ⟨0, _⟩ => show win1_2.index t (0 : Fin 2) * 1024 + 1 * p.val = 1024 * t.val + p.val; omega
  | ⟨1, _⟩ => show win1_2.index t (1 : Fin 2) * 1 + 1 * 0 = 0; omega

/-- Where the embedding's row block at point t sits: rows 1024 * t …. -/
theorem emb1_3 (t : Fin cfg1.N) (p : Fin 1024) (q : Fin 2) :
    ((cfg1.win 3).blk t).view.emb (ix2 p q) = ix2 (⟨1024 * t.val + p.val, row_lt1 t p⟩ : Fin 8192) q := by
  obtain ⟨-, -, -, -, -, -, e30, e31, -⟩ := idx_facts1 t
  funext a; apply Fin.ext
  match a with
  | ⟨0, _⟩ => show win1_3.index t (0 : Fin 2) * 1024 + 1 * p.val = 1024 * t.val + p.val; omega
  | ⟨1, _⟩ => show win1_3.index t (1 : Fin 2) * 2 + 1 * q.val = q.val; omega

/-- Where the output block at point t sits: rows 1024 * t …. -/
theorem emb1_4 (t : Fin cfg1.N) (p : Fin 1024) (q : Fin 2) :
    ((cfg1.win 4).blk t).view.emb (ix2 p q) = ix2 (⟨1024 * t.val + p.val, row_lt1 t p⟩ : Fin 8192) q := by
  obtain ⟨-, -, -, -, -, -, -, -, e40, e41⟩ := idx_facts1 t
  funext a; apply Fin.ext
  match a with
  | ⟨0, _⟩ => show win1_4.index t (0 : Fin 2) * 1024 + 1 * p.val = 1024 * t.val + p.val; omega
  | ⟨1, _⟩ => show win1_4.index t (1 : Fin 2) * 2 + 1 * q.val = q.val; omega

/-- The embedding is one array, read through two windows. -/
theorem arr1_3_eq : Pipeline.arrRef spec1 3 = Pipeline.arrRef spec1 1 := rfl

/-- WHAT POINT t WRITES BACK: its block of rows of the step of the arrays the region found. -/
theorem flushed1_eq (c : Dev nD) (t : Fin cfg1.N) :
    (dat1 (F := Ideal) V c).flushed 4 t
      = ((cfg1.win 4).blk t).view.read (Elt Ideal)
          (step (V c (Pipeline.arrRef spec1 0)) (V c (Pipeline.arrRef spec1 1)) (V c (Pipeline.arrRef spec1 2))) := by
  show (cfg1.win 4).cut (grid1.coords t) ((dat1 (F := Ideal) V c).after 4 t) = _
  rw [after1_4, out1_4_eq]
  funext j
  obtain ⟨p, q, rfl⟩ : ∃ (p : Fin 1024) (q : Fin 2), j = ix2 p q := ⟨j 0, j 1, eq_ix2 j⟩
  show k1_pay1 (F := Ideal) (iblk1 V c 1 t) (iblk1 V c 0 t) (iblk1 V c 2 t) (iblk1 V c 3 t) (ix2 p q)
    = step (V c (Pipeline.arrRef spec1 0)) (V c (Pipeline.arrRef spec1 1)) (V c (Pipeline.arrRef spec1 2))
        (((cfg1.win 4).blk t).view.emb (ix2 p q))
  refine (k1_pay1_apply _ _ _ _ p q).trans ?_
  refine Eq.trans ?_ (congrArg (step (V c (Pipeline.arrRef spec1 0)) (V c (Pipeline.arrRef spec1 1)) (V c (Pipeline.arrRef spec1 2))) (emb1_4 t p q)).symm
  refine Eq.trans ?_ (step_apply _ _ _ _ q).symm
  have h3 : iblk1 V c 3 t (ix2 p q) = V c (Pipeline.arrRef spec1 1) (ix2 (⟨1024 * t.val + p.val, row_lt1 t p⟩ : Fin 8192) q) :=
    congrArg (V c (Pipeline.arrRef spec1 1)) (emb1_3 t p q)
  have h2 : iblk1 V c 2 t (ix2 p (0 : Fin 1)) = V c (Pipeline.arrRef spec1 2) (ix2 (⟨1024 * t.val + p.val, row_lt1 t p⟩ : Fin 8192) (0 : Fin 1)) :=
    congrArg (V c (Pipeline.arrRef spec1 2)) (emb1_2 t p)
  have h0 : ∀ k : Fin 8192, iblk1 V c 0 t (ix2 p k) = V c (Pipeline.arrRef spec1 0) (ix2 (⟨1024 * t.val + p.val, row_lt1 t p⟩ : Fin 8192) k) :=
    fun k => congrArg (V c (Pipeline.arrRef spec1 0)) (emb1_0 t p k)
  have h1 : ∀ k : Fin 8192, iblk1 V c 1 t (ix2 k q) = V c (Pipeline.arrRef spec1 1) (ix2 k q) :=
    fun k => congrArg (V c (Pipeline.arrRef spec1 1)) (emb1_1 t k q)
  rw [h3, h2]
  simp only [h0, h1]

/-- An index of the output array is in point t's block iff each coordinate is in the block's range on its axis. -/
theorem mem_blk1 (t : Fin cfg1.N) (i : S8192x2.Idx) :
    i ∈ ((cfg1.win 4).blk t).view.set
      ↔ ∀ a : Fin 2, win1_4.index t a * S1024x2.size a ≤ (i a).val ∧ (i a).val < win1_4.index t a * S1024x2.size a + S1024x2.size a := by
  show i ∈ ((View.whole main_v22).slice (win1_4.rect t)).set ↔ _
  rw [View.set_slice_whole, Rect.mem_set_unit]
  exact Iff.rfl

/-- The 8 blocks of 1024 rows cover the 8192 rows: row r is in the block of point r / 1024. -/
theorem cover1 (i : S8192x2.Idx) :
    ∃ t : Fin cfg1.N, (cfg1.win 4).flush t = true ∧ i ∈ ((cfg1.win 4).blk t).view.set := by
  have hi0 : (i 0).val < 8192 := (i 0).isLt
  have hi1 : (i 1).val < 2 := (i 1).isLt
  obtain ⟨t, ht⟩ : ∃ t : Fin cfg1.N, t.val = (i 0).val / 1024 :=
    ⟨⟨(i 0).val / 1024, by rw [show cfg1.N = 8 from N_1]; omega⟩, rfl⟩
  obtain ⟨-, -, -, -, -, -, -, -, e40, e41⟩ := idx_facts1 t
  refine ⟨t, flush1_4 t, ?_⟩
  rw [mem_blk1]
  intro a
  match a with
  | ⟨0, _⟩ =>
    show win1_4.index t (0 : Fin 2) * 1024 ≤ (i 0).val ∧ (i 0).val < win1_4.index t (0 : Fin 2) * 1024 + 1024
    omega
  | ⟨1, _⟩ =>
    show win1_4.index t (1 : Fin 2) * 2 ≤ (i 1).val ∧ (i 1).val < win1_4.index t (1 : Fin 2) * 2 + 2
    omega

/-- THE OUTPUT ARRAY after the region: the step of the arrays the region found. -/
theorem final1 (c : Dev nD) :
    (dat1 (F := Ideal) V c).arrAt 4 cfg1.N
      = step (V c (Pipeline.arrRef spec1 0)) (V c (Pipeline.arrRef spec1 1)) (V c (Pipeline.arrRef spec1 2)) :=
  (dat1 (F := Ideal) V c).arrAt_eq_of_cover 4 _ (fun t _ => flushed1_eq V c t) cover1

end Cert.KernelIdeal.Hand

end
-- ==== Proof.PropVal2.lean ====
/-
  What propagation step 2 leaves in its output array.

  The step's grid has 8 points; point t holds rows 1024 * t … 1024 * t + 1023 of the adjacency, of the inverse-degree column
  and of the current embedding, and the whole embedding besides, and writes back rows 1024 * t … of the output.  Each point's
  write-back is that block of rows of the one array "step Ah E d", and the 8 blocks cover the 8192 rows, so the output array
  ends as step Ah E d.
-/
import proofs.«111186_j27504970563868_1_alg».proof.Proof.Prop2
import proofs.«111186_j27504970563868_1_alg».proof.Proof.PayProp
import proofs.«111186_j27504970563868_1_alg».proof.Proof.PropStep
import Idealize.ShloMosaic.Lib.Pipeline.Value

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's one store, read back whole, is the step's payload of the four loaded blocks. -/
theorem out2_4_eq (x0 : Vec Ideal S1024x8192 .bf16) (x1 : Vec Ideal S8192x2 .f32) (x2 : Vec Ideal S1024x1 .f32)
    (x3 : Vec Ideal S1024x2 .f32) : out2_4 (F := Ideal) x0 x1 x2 x3 = k2_pay1 (F := Ideal) x1 x0 x2 x3 := by
  unfold out2_4
  rw [View.canon_unit_zero hz2]
  simp only [View.ld_unit_zero (S := S8192x2) hz2, View.ld_unit_zero (S := S1024x8192) hz2,
    View.ld_unit_zero (S := S1024x1) hz2, View.ld_unit_zero (S := S1024x2) hz2]

/-- The printed index maps over the 8 grid points: the row-block windows sit at block row t, column block 0; the whole
    embedding at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- A grid point's rows are rows of the array. -/
theorem row_lt2 (t : Fin cfg2.N) (p : Fin 1024) : 1024 * t.val + p.val < 8192 := by
  have ht : t.val < 8 := N_2 ▸ t.isLt
  have hp := p.isLt
  omega

/-- Where the adjacency block at point t sits in its array: rows 1024 * t …, all columns. -/
theorem emb2_0 (t : Fin cfg2.N) (p : Fin 1024) (k : Fin 8192) :
    ((cfg2.win 0).blk t).view.emb (ix2 p k) = ix2 (⟨1024 * t.val + p.val, row_lt2 t p⟩ : Fin 8192) k := by
  obtain ⟨e00, e01, -⟩ := idx_facts2 t
  funext a; apply Fin.ext
  match a with
  | ⟨0, _⟩ => show win2_0.index t (0 : Fin 2) * 1024 + 1 * p.val = 1024 * t.val + p.val; omega
  | ⟨1, _⟩ => show win2_0.index t (1 : Fin 2) * 8192 + 1 * k.val = k.val; omega

/-- The whole embedding is read in place. -/
theorem emb2_1 (t : Fin cfg2.N) (k : Fin 8192) (q : Fin 2) :
    ((cfg2.win 1).blk t).view.emb (ix2 k q) = ix2 k q := by
  obtain ⟨-, -, e10, e11, -⟩ := idx_facts2 t
  funext a; apply Fin.ext
  match a with
  | ⟨0, _⟩ => show win2_1.index t (0 : Fin 2) * 8192 + 1 * k.val = k.val; omega
  | ⟨1, _⟩ => show win2_1.index t (1 : Fin 2) * 2 + 1 * q.val = q.val; omega

/-- Where the inverse-degree block at point t sits: rows 1024 * t …. -/
theorem emb2_2 (t : Fin cfg2.N) (p : Fin 1024) :
    ((cfg2.win 2).blk t).view.emb (ix2 p (0 : Fin 1)) = ix2 (⟨1024 * t.val + p.val, row_lt2 t p⟩ : Fin 8192) (0 : Fin 1) := by
  obtain ⟨-, -, -, -, e20, e21, -⟩ := idx_facts2 t
  funext a; apply Fin.ext
  match a with
  | ⟨0, _⟩ => show win2_2.index t (0 : Fin 2) * 1024 + 1 * p.val = 1024 * t.val + p.val; omega
  | ⟨1, _⟩ => show win2_2.index t (1 : Fin 2) * 1 + 1 * 0 = 0; omega

/-- Where the embedding's row block at point t sits: rows 1024 * t …. -/
theorem emb2_3 (t : Fin cfg2.N) (p : Fin 1024) (q : Fin 2) :
    ((cfg2.win 3).blk t).view.emb (ix2 p q) = ix2 (⟨1024 * t.val + p.val, row_lt2 t p⟩ : Fin 8192) q := by
  obtain ⟨-, -, -, -, -, -, e30, e31, -⟩ := idx_facts2 t
  funext a; apply Fin.ext
  match a with
  | ⟨0, _⟩ => show win2_3.index t (0 : Fin 2) * 1024 + 1 * p.val = 1024 * t.val + p.val; omega
  | ⟨1, _⟩ => show win2_3.index t (1 : Fin 2) * 2 + 1 * q.val = q.val; omega

/-- Where the output block at point t sits: rows 1024 * t …. -/
theorem emb2_4 (t : Fin cfg2.N) (p : Fin 1024) (q : Fin 2) :
    ((cfg2.win 4).blk t).view.emb (ix2 p q) = ix2 (⟨1024 * t.val + p.val, row_lt2 t p⟩ : Fin 8192) q := by
  obtain ⟨-, -, -, -, -, -, -, -, e40, e41⟩ := idx_facts2 t
  funext a; apply Fin.ext
  match a with
  | ⟨0, _⟩ => show win2_4.index t (0 : Fin 2) * 1024 + 1 * p.val = 1024 * t.val + p.val; omega
  | ⟨1, _⟩ => show win2_4.index t (1 : Fin 2) * 2 + 1 * q.val = q.val; omega

/-- The embedding is one array, read through two windows. -/
theorem arr2_3_eq : Pipeline.arrRef spec2 3 = Pipeline.arrRef spec2 1 := rfl

/-- WHAT POINT t WRITES BACK: its block of rows of the step of the arrays the region found. -/
theorem flushed2_eq (c : Dev nD) (t : Fin cfg2.N) :
    (dat2 (F := Ideal) V c).flushed 4 t
      = ((cfg2.win 4).blk t).view.read (Elt Ideal)
          (step (V c (Pipeline.arrRef spec2 0)) (V c (Pipeline.arrRef spec2 1)) (V c (Pipeline.arrRef spec2 2))) := by
  show (cfg2.win 4).cut (grid2.coords t) ((dat2 (F := Ideal) V c).after 4 t) = _
  rw [after2_4, out2_4_eq]
  funext j
  obtain ⟨p, q, rfl⟩ : ∃ (p : Fin 1024) (q : Fin 2), j = ix2 p q := ⟨j 0, j 1, eq_ix2 j⟩
  show k2_pay1 (F := Ideal) (iblk2 V c 1 t) (iblk2 V c 0 t) (iblk2 V c 2 t) (iblk2 V c 3 t) (ix2 p q)
    = step (V c (Pipeline.arrRef spec2 0)) (V c (Pipeline.arrRef spec2 1)) (V c (Pipeline.arrRef spec2 2))
        (((cfg2.win 4).blk t).view.emb (ix2 p q))
  refine (k2_pay1_apply _ _ _ _ p q).trans ?_
  refine Eq.trans ?_ (congrArg (step (V c (Pipeline.arrRef spec2 0)) (V c (Pipeline.arrRef spec2 1)) (V c (Pipeline.arrRef spec2 2))) (emb2_4 t p q)).symm
  refine Eq.trans ?_ (step_apply _ _ _ _ q).symm
  have h3 : iblk2 V c 3 t (ix2 p q) = V c (Pipeline.arrRef spec2 1) (ix2 (⟨1024 * t.val + p.val, row_lt2 t p⟩ : Fin 8192) q) :=
    congrArg (V c (Pipeline.arrRef spec2 1)) (emb2_3 t p q)
  have h2 : iblk2 V c 2 t (ix2 p (0 : Fin 1)) = V c (Pipeline.arrRef spec2 2) (ix2 (⟨1024 * t.val + p.val, row_lt2 t p⟩ : Fin 8192) (0 : Fin 1)) :=
    congrArg (V c (Pipeline.arrRef spec2 2)) (emb2_2 t p)
  have h0 : ∀ k : Fin 8192, iblk2 V c 0 t (ix2 p k) = V c (Pipeline.arrRef spec2 0) (ix2 (⟨1024 * t.val + p.val, row_lt2 t p⟩ : Fin 8192) k) :=
    fun k => congrArg (V c (Pipeline.arrRef spec2 0)) (emb2_0 t p k)
  have h1 : ∀ k : Fin 8192, iblk2 V c 1 t (ix2 k q) = V c (Pipeline.arrRef spec2 1) (ix2 k q) :=
    fun k => congrArg (V c (Pipeline.arrRef spec2 1)) (emb2_1 t k q)
  rw [h3, h2]
  simp only [h0, h1]

/-- An index of the output array is in point t's block iff each coordinate is in the block's range on its axis. -/
theorem mem_blk2 (t : Fin cfg2.N) (i : S8192x2.Idx) :
    i ∈ ((cfg2.win 4).blk t).view.set
      ↔ ∀ a : Fin 2, win2_4.index t a * S1024x2.size a ≤ (i a).val ∧ (i a).val < win2_4.index t a * S1024x2.size a + S1024x2.size a := by
  show i ∈ ((View.whole main_v23).slice (win2_4.rect t)).set ↔ _
  rw [View.set_slice_whole, Rect.mem_set_unit]
  exact Iff.rfl

/-- The 8 blocks of 1024 rows cover the 8192 rows: row r is in the block of point r / 1024. -/
theorem cover2 (i : S8192x2.Idx) :
    ∃ t : Fin cfg2.N, (cfg2.win 4).flush t = true ∧ i ∈ ((cfg2.win 4).blk t).view.set := by
  have hi0 : (i 0).val < 8192 := (i 0).isLt
  have hi1 : (i 1).val < 2 := (i 1).isLt
  obtain ⟨t, ht⟩ : ∃ t : Fin cfg2.N, t.val = (i 0).val / 1024 :=
    ⟨⟨(i 0).val / 1024, by rw [show cfg2.N = 8 from N_2]; omega⟩, rfl⟩
  obtain ⟨-, -, -, -, -, -, -, -, e40, e41⟩ := idx_facts2 t
  refine ⟨t, flush2_4 t, ?_⟩
  rw [mem_blk2]
  intro a
  match a with
  | ⟨0, _⟩ =>
    show win2_4.index t (0 : Fin 2) * 1024 ≤ (i 0).val ∧ (i 0).val < win2_4.index t (0 : Fin 2) * 1024 + 1024
    omega
  | ⟨1, _⟩ =>
    show win2_4.index t (1 : Fin 2) * 2 ≤ (i 1).val ∧ (i 1).val < win2_4.index t (1 : Fin 2) * 2 + 2
    omega

/-- THE OUTPUT ARRAY after the region: the step of the arrays the region found. -/
theorem final2 (c : Dev nD) :
    (dat2 (F := Ideal) V c).arrAt 4 cfg2.N
      = step (V c (Pipeline.arrRef spec2 0)) (V c (Pipeline.arrRef spec2 1)) (V c (Pipeline.arrRef spec2 2)) :=
  (dat2 (F := Ideal) V c).arrAt_eq_of_cover 4 _ (fun t _ => flushed2_eq V c t) cover2

end Cert.KernelIdeal.Hand

end
-- ==== Proof.PropVal3.lean ====
/-
  What propagation step 3 leaves in its output array.

  The step's grid has 8 points; point t holds rows 1024 * t … 1024 * t + 1023 of the adjacency, of the inverse-degree column
  and of the current embedding, and the whole embedding besides, and writes back rows 1024 * t … of the output.  Each point's
  write-back is that block of rows of the one array "step Ah E d", and the 8 blocks cover the 8192 rows, so the output array
  ends as step Ah E d.
-/
import proofs.«111186_j27504970563868_1_alg».proof.Proof.Prop3
import proofs.«111186_j27504970563868_1_alg».proof.Proof.PayProp
import proofs.«111186_j27504970563868_1_alg».proof.Proof.PropStep
import Idealize.ShloMosaic.Lib.Pipeline.Value

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The body's one store, read back whole, is the step's payload of the four loaded blocks. -/
theorem out3_4_eq (x0 : Vec Ideal S1024x8192 .bf16) (x1 : Vec Ideal S8192x2 .f32) (x2 : Vec Ideal S1024x1 .f32)
    (x3 : Vec Ideal S1024x2 .f32) : out3_4 (F := Ideal) x0 x1 x2 x3 = k3_pay1 (F := Ideal) x1 x0 x2 x3 := by
  unfold out3_4
  rw [View.canon_unit_zero hz3]
  simp only [View.ld_unit_zero (S := S8192x2) hz3, View.ld_unit_zero (S := S1024x8192) hz3,
    View.ld_unit_zero (S := S1024x1) hz3, View.ld_unit_zero (S := S1024x2) hz3]

/-- The printed index maps over the 8 grid points: the row-block windows sit at block row t, column block 0; the whole
    embedding at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- A grid point's rows are rows of the array. -/
theorem row_lt3 (t : Fin cfg3.N) (p : Fin 1024) : 1024 * t.val + p.val < 8192 := by
  have ht : t.val < 8 := N_3 ▸ t.isLt
  have hp := p.isLt
  omega

/-- Where the adjacency block at point t sits in its array: rows 1024 * t …, all columns. -/
theorem emb3_0 (t : Fin cfg3.N) (p : Fin 1024) (k : Fin 8192) :
    ((cfg3.win 0).blk t).view.emb (ix2 p k) = ix2 (⟨1024 * t.val + p.val, row_lt3 t p⟩ : Fin 8192) k := by
  obtain ⟨e00, e01, -⟩ := idx_facts3 t
  funext a; apply Fin.ext
  match a with
  | ⟨0, _⟩ => show win3_0.index t (0 : Fin 2) * 1024 + 1 * p.val = 1024 * t.val + p.val; omega
  | ⟨1, _⟩ => show win3_0.index t (1 : Fin 2) * 8192 + 1 * k.val = k.val; omega

/-- The whole embedding is read in place. -/
theorem emb3_1 (t : Fin cfg3.N) (k : Fin 8192) (q : Fin 2) :
    ((cfg3.win 1).blk t).view.emb (ix2 k q) = ix2 k q := by
  obtain ⟨-, -, e10, e11, -⟩ := idx_facts3 t
  funext a; apply Fin.ext
  match a with
  | ⟨0, _⟩ => show win3_1.index t (0 : Fin 2) * 8192 + 1 * k.val = k.val; omega
  | ⟨1, _⟩ => show win3_1.index t (1 : Fin 2) * 2 + 1 * q.val = q.val; omega

/-- Where the inverse-degree block at point t sits: rows 1024 * t …. -/
theorem emb3_2 (t : Fin cfg3.N) (p : Fin 1024) :
    ((cfg3.win 2).blk t).view.emb (ix2 p (0 : Fin 1)) = ix2 (⟨1024 * t.val + p.val, row_lt3 t p⟩ : Fin 8192) (0 : Fin 1) := by
  obtain ⟨-, -, -, -, e20, e21, -⟩ := idx_facts3 t
  funext a; apply Fin.ext
  match a with
  | ⟨0, _⟩ => show win3_2.index t (0 : Fin 2) * 1024 + 1 * p.val = 1024 * t.val + p.val; omega
  | ⟨1, _⟩ => show win3_2.index t (1 : Fin 2) * 1 + 1 * 0 = 0; omega

/-- Where the embedding's row block at point t sits: rows 1024 * t …. -/
theorem emb3_3 (t : Fin cfg3.N) (p : Fin 1024) (q : Fin 2) :
    ((cfg3.win 3).blk t).view.emb (ix2 p q) = ix2 (⟨1024 * t.val + p.val, row_lt3 t p⟩ : Fin 8192) q := by
  obtain ⟨-, -, -, -, -, -, e30, e31, -⟩ := idx_facts3 t
  funext a; apply Fin.ext
  match a with
  | ⟨0, _⟩ => show win3_3.index t (0 : Fin 2) * 1024 + 1 * p.val = 1024 * t.val + p.val; omega
  | ⟨1, _⟩ => show win3_3.index t (1 : Fin 2) * 2 + 1 * q.val = q.val; omega

/-- Where the output block at point t sits: rows 1024 * t …. -/
theorem emb3_4 (t : Fin cfg3.N) (p : Fin 1024) (q : Fin 2) :
    ((cfg3.win 4).blk t).view.emb (ix2 p q) = ix2 (⟨1024 * t.val + p.val, row_lt3 t p⟩ : Fin 8192) q := by
  obtain ⟨-, -, -, -, -, -, -, -, e40, e41⟩ := idx_facts3 t
  funext a; apply Fin.ext
  match a with
  | ⟨0, _⟩ => show win3_4.index t (0 : Fin 2) * 1024 + 1 * p.val = 1024 * t.val + p.val; omega
  | ⟨1, _⟩ => show win3_4.index t (1 : Fin 2) * 2 + 1 * q.val = q.val; omega

/-- The embedding is one array, read through two windows. -/
theorem arr3_3_eq : Pipeline.arrRef spec3 3 = Pipeline.arrRef spec3 1 := rfl

/-- WHAT POINT t WRITES BACK: its block of rows of the step of the arrays the region found. -/
theorem flushed3_eq (c : Dev nD) (t : Fin cfg3.N) :
    (dat3 (F := Ideal) V c).flushed 4 t
      = ((cfg3.win 4).blk t).view.read (Elt Ideal)
          (step (V c (Pipeline.arrRef spec3 0)) (V c (Pipeline.arrRef spec3 1)) (V c (Pipeline.arrRef spec3 2))) := by
  show (cfg3.win 4).cut (grid3.coords t) ((dat3 (F := Ideal) V c).after 4 t) = _
  rw [after3_4, out3_4_eq]
  funext j
  obtain ⟨p, q, rfl⟩ : ∃ (p : Fin 1024) (q : Fin 2), j = ix2 p q := ⟨j 0, j 1, eq_ix2 j⟩
  show k3_pay1 (F := Ideal) (iblk3 V c 1 t) (iblk3 V c 0 t) (iblk3 V c 2 t) (iblk3 V c 3 t) (ix2 p q)
    = step (V c (Pipeline.arrRef spec3 0)) (V c (Pipeline.arrRef spec3 1)) (V c (Pipeline.arrRef spec3 2))
        (((cfg3.win 4).blk t).view.emb (ix2 p q))
  refine (k3_pay1_apply _ _ _ _ p q).trans ?_
  refine Eq.trans ?_ (congrArg (step (V c (Pipeline.arrRef spec3 0)) (V c (Pipeline.arrRef spec3 1)) (V c (Pipeline.arrRef spec3 2))) (emb3_4 t p q)).symm
  refine Eq.trans ?_ (step_apply _ _ _ _ q).symm
  have h3 : iblk3 V c 3 t (ix2 p q) = V c (Pipeline.arrRef spec3 1) (ix2 (⟨1024 * t.val + p.val, row_lt3 t p⟩ : Fin 8192) q) :=
    congrArg (V c (Pipeline.arrRef spec3 1)) (emb3_3 t p q)
  have h2 : iblk3 V c 2 t (ix2 p (0 : Fin 1)) = V c (Pipeline.arrRef spec3 2) (ix2 (⟨1024 * t.val + p.val, row_lt3 t p⟩ : Fin 8192) (0 : Fin 1)) :=
    congrArg (V c (Pipeline.arrRef spec3 2)) (emb3_2 t p)
  have h0 : ∀ k : Fin 8192, iblk3 V c 0 t (ix2 p k) = V c (Pipeline.arrRef spec3 0) (ix2 (⟨1024 * t.val + p.val, row_lt3 t p⟩ : Fin 8192) k) :=
    fun k => congrArg (V c (Pipeline.arrRef spec3 0)) (emb3_0 t p k)
  have h1 : ∀ k : Fin 8192, iblk3 V c 1 t (ix2 k q) = V c (Pipeline.arrRef spec3 1) (ix2 k q) :=
    fun k => congrArg (V c (Pipeline.arrRef spec3 1)) (emb3_1 t k q)
  rw [h3, h2]
  simp only [h0, h1]

/-- An index of the output array is in point t's block iff each coordinate is in the block's range on its axis. -/
theorem mem_blk3 (t : Fin cfg3.N) (i : S8192x2.Idx) :
    i ∈ ((cfg3.win 4).blk t).view.set
      ↔ ∀ a : Fin 2, win3_4.index t a * S1024x2.size a ≤ (i a).val ∧ (i a).val < win3_4.index t a * S1024x2.size a + S1024x2.size a := by
  show i ∈ ((View.whole main_v24).slice (win3_4.rect t)).set ↔ _
  rw [View.set_slice_whole, Rect.mem_set_unit]
  exact Iff.rfl

/-- The 8 blocks of 1024 rows cover the 8192 rows: row r is in the block of point r / 1024. -/
theorem cover3 (i : S8192x2.Idx) :
    ∃ t : Fin cfg3.N, (cfg3.win 4).flush t = true ∧ i ∈ ((cfg3.win 4).blk t).view.set := by
  have hi0 : (i 0).val < 8192 := (i 0).isLt
  have hi1 : (i 1).val < 2 := (i 1).isLt
  obtain ⟨t, ht⟩ : ∃ t : Fin cfg3.N, t.val = (i 0).val / 1024 :=
    ⟨⟨(i 0).val / 1024, by rw [show cfg3.N = 8 from N_3]; omega⟩, rfl⟩
  obtain ⟨-, -, -, -, -, -, -, -, e40, e41⟩ := idx_facts3 t
  refine ⟨t, flush3_4 t, ?_⟩
  rw [mem_blk3]
  intro a
  match a with
  | ⟨0, _⟩ =>
    show win3_4.index t (0 : Fin 2) * 1024 ≤ (i 0).val ∧ (i 0).val < win3_4.index t (0 : Fin 2) * 1024 + 1024
    omega
  | ⟨1, _⟩ =>
    show win3_4.index t (1 : Fin 2) * 2 ≤ (i 1).val ∧ (i 1).val < win3_4.index t (1 : Fin 2) * 2 + 2
    omega

/-- THE OUTPUT ARRAY after the region: the step of the arrays the region found. -/
theorem final3 (c : Dev nD) :
    (dat3 (F := Ideal) V c).arrAt 4 cfg3.N
      = step (V c (Pipeline.arrRef spec3 0)) (V c (Pipeline.arrRef spec3 1)) (V c (Pipeline.arrRef spec3 2)) :=
  (dat3 (F := Ideal) V c).arrAt_eq_of_cover 4 _ (fun t _ => flushed3_eq V c t) cover3

end Cert.KernelIdeal.Hand

end
-- ==== Proof.PropVal4.lean ====
/-
  What propagation step 4 leaves in its output array.

  The step's grid has 8 points; point t holds rows 1024 * t … 1024 * t + 1023 of the adjacency, of the inverse-degree column
  and of the current embedding, and the whole embedding besides, and writes back rows 1024 * t … of the output.  Each point's
  write-back is that block of rows of the one array "step Ah E d", and the 8 blocks cover the 8192 rows, so the output array
  ends as step Ah E d.
-/
import proofs.«111186_j27504970563868_1_alg».proof.Proof.Prop4
import proofs.«111186_j27504970563868_1_alg».proof.Proof.PayProp
import proofs.«111186_j27504970563868_1_alg».proof.Proof.PropStep
import Idealize.ShloMosaic.Lib.Pipeline.Value

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The body's one store, read back whole, is the step's payload of the four loaded blocks. -/
theorem out4_4_eq (x0 : Vec Ideal S1024x8192 .bf16) (x1 : Vec Ideal S8192x2 .f32) (x2 : Vec Ideal S1024x1 .f32)
    (x3 : Vec Ideal S1024x2 .f32) : out4_4 (F := Ideal) x0 x1 x2 x3 = k4_pay1 (F := Ideal) x1 x0 x2 x3 := by
  unfold out4_4
  rw [View.canon_unit_zero hz4]
  simp only [View.ld_unit_zero (S := S8192x2) hz4, View.ld_unit_zero (S := S1024x8192) hz4,
    View.ld_unit_zero (S := S1024x1) hz4, View.ld_unit_zero (S := S1024x2) hz4]

/-- The printed index maps over the 8 grid points: the row-block windows sit at block row t, column block 0; the whole
    embedding at block (0, 0). -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- A grid point's rows are rows of the array. -/
theorem row_lt4 (t : Fin cfg4.N) (p : Fin 1024) : 1024 * t.val + p.val < 8192 := by
  have ht : t.val < 8 := N_4 ▸ t.isLt
  have hp := p.isLt
  omega

/-- Where the adjacency block at point t sits in its array: rows 1024 * t …, all columns. -/
theorem emb4_0 (t : Fin cfg4.N) (p : Fin 1024) (k : Fin 8192) :
    ((cfg4.win 0).blk t).view.emb (ix2 p k) = ix2 (⟨1024 * t.val + p.val, row_lt4 t p⟩ : Fin 8192) k := by
  obtain ⟨e00, e01, -⟩ := idx_facts4 t
  funext a; apply Fin.ext
  match a with
  | ⟨0, _⟩ => show win4_0.index t (0 : Fin 2) * 1024 + 1 * p.val = 1024 * t.val + p.val; omega
  | ⟨1, _⟩ => show win4_0.index t (1 : Fin 2) * 8192 + 1 * k.val = k.val; omega

/-- The whole embedding is read in place. -/
theorem emb4_1 (t : Fin cfg4.N) (k : Fin 8192) (q : Fin 2) :
    ((cfg4.win 1).blk t).view.emb (ix2 k q) = ix2 k q := by
  obtain ⟨-, -, e10, e11, -⟩ := idx_facts4 t
  funext a; apply Fin.ext
  match a with
  | ⟨0, _⟩ => show win4_1.index t (0 : Fin 2) * 8192 + 1 * k.val = k.val; omega
  | ⟨1, _⟩ => show win4_1.index t (1 : Fin 2) * 2 + 1 * q.val = q.val; omega

/-- Where the inverse-degree block at point t sits: rows 1024 * t …. -/
theorem emb4_2 (t : Fin cfg4.N) (p : Fin 1024) :
    ((cfg4.win 2).blk t).view.emb (ix2 p (0 : Fin 1)) = ix2 (⟨1024 * t.val + p.val, row_lt4 t p⟩ : Fin 8192) (0 : Fin 1) := by
  obtain ⟨-, -, -, -, e20, e21, -⟩ := idx_facts4 t
  funext a; apply Fin.ext
  match a with
  | ⟨0, _⟩ => show win4_2.index t (0 : Fin 2) * 1024 + 1 * p.val = 1024 * t.val + p.val; omega
  | ⟨1, _⟩ => show win4_2.index t (1 : Fin 2) * 1 + 1 * 0 = 0; omega

/-- Where the embedding's row block at point t sits: rows 1024 * t …. -/
theorem emb4_3 (t : Fin cfg4.N) (p : Fin 1024) (q : Fin 2) :
    ((cfg4.win 3).blk t).view.emb (ix2 p q) = ix2 (⟨1024 * t.val + p.val, row_lt4 t p⟩ : Fin 8192) q := by
  obtain ⟨-, -, -, -, -, -, e30, e31, -⟩ := idx_facts4 t
  funext a; apply Fin.ext
  match a with
  | ⟨0, _⟩ => show win4_3.index t (0 : Fin 2) * 1024 + 1 * p.val = 1024 * t.val + p.val; omega
  | ⟨1, _⟩ => show win4_3.index t (1 : Fin 2) * 2 + 1 * q.val = q.val; omega

/-- Where the output block at point t sits: rows 1024 * t …. -/
theorem emb4_4 (t : Fin cfg4.N) (p : Fin 1024) (q : Fin 2) :
    ((cfg4.win 4).blk t).view.emb (ix2 p q) = ix2 (⟨1024 * t.val + p.val, row_lt4 t p⟩ : Fin 8192) q := by
  obtain ⟨-, -, -, -, -, -, -, -, e40, e41⟩ := idx_facts4 t
  funext a; apply Fin.ext
  match a with
  | ⟨0, _⟩ => show win4_4.index t (0 : Fin 2) * 1024 + 1 * p.val = 1024 * t.val + p.val; omega
  | ⟨1, _⟩ => show win4_4.index t (1 : Fin 2) * 2 + 1 * q.val = q.val; omega

/-- The embedding is one array, read through two windows. -/
theorem arr4_3_eq : Pipeline.arrRef spec4 3 = Pipeline.arrRef spec4 1 := rfl

/-- WHAT POINT t WRITES BACK: its block of rows of the step of the arrays the region found. -/
theorem flushed4_eq (c : Dev nD) (t : Fin cfg4.N) :
    (dat4 (F := Ideal) V c).flushed 4 t
      = ((cfg4.win 4).blk t).view.read (Elt Ideal)
          (step (V c (Pipeline.arrRef spec4 0)) (V c (Pipeline.arrRef spec4 1)) (V c (Pipeline.arrRef spec4 2))) := by
  show (cfg4.win 4).cut (grid4.coords t) ((dat4 (F := Ideal) V c).after 4 t) = _
  rw [after4_4, out4_4_eq]
  funext j
  obtain ⟨p, q, rfl⟩ : ∃ (p : Fin 1024) (q : Fin 2), j = ix2 p q := ⟨j 0, j 1, eq_ix2 j⟩
  show k4_pay1 (F := Ideal) (iblk4 V c 1 t) (iblk4 V c 0 t) (iblk4 V c 2 t) (iblk4 V c 3 t) (ix2 p q)
    = step (V c (Pipeline.arrRef spec4 0)) (V c (Pipeline.arrRef spec4 1)) (V c (Pipeline.arrRef spec4 2))
        (((cfg4.win 4).blk t).view.emb (ix2 p q))
  refine (k4_pay1_apply _ _ _ _ p q).trans ?_
  refine Eq.trans ?_ (congrArg (step (V c (Pipeline.arrRef spec4 0)) (V c (Pipeline.arrRef spec4 1)) (V c (Pipeline.arrRef spec4 2))) (emb4_4 t p q)).symm
  refine Eq.trans ?_ (step_apply _ _ _ _ q).symm
  have h3 : iblk4 V c 3 t (ix2 p q) = V c (Pipeline.arrRef spec4 1) (ix2 (⟨1024 * t.val + p.val, row_lt4 t p⟩ : Fin 8192) q) :=
    congrArg (V c (Pipeline.arrRef spec4 1)) (emb4_3 t p q)
  have h2 : iblk4 V c 2 t (ix2 p (0 : Fin 1)) = V c (Pipeline.arrRef spec4 2) (ix2 (⟨1024 * t.val + p.val, row_lt4 t p⟩ : Fin 8192) (0 : Fin 1)) :=
    congrArg (V c (Pipeline.arrRef spec4 2)) (emb4_2 t p)
  have h0 : ∀ k : Fin 8192, iblk4 V c 0 t (ix2 p k) = V c (Pipeline.arrRef spec4 0) (ix2 (⟨1024 * t.val + p.val, row_lt4 t p⟩ : Fin 8192) k) :=
    fun k => congrArg (V c (Pipeline.arrRef spec4 0)) (emb4_0 t p k)
  have h1 : ∀ k : Fin 8192, iblk4 V c 1 t (ix2 k q) = V c (Pipeline.arrRef spec4 1) (ix2 k q) :=
    fun k => congrArg (V c (Pipeline.arrRef spec4 1)) (emb4_1 t k q)
  rw [h3, h2]
  simp only [h0, h1]

/-- An index of the output array is in point t's block iff each coordinate is in the block's range on its axis. -/
theorem mem_blk4 (t : Fin cfg4.N) (i : S8192x2.Idx) :
    i ∈ ((cfg4.win 4).blk t).view.set
      ↔ ∀ a : Fin 2, win4_4.index t a * S1024x2.size a ≤ (i a).val ∧ (i a).val < win4_4.index t a * S1024x2.size a + S1024x2.size a := by
  show i ∈ ((View.whole main_v25).slice (win4_4.rect t)).set ↔ _
  rw [View.set_slice_whole, Rect.mem_set_unit]
  exact Iff.rfl

/-- The 8 blocks of 1024 rows cover the 8192 rows: row r is in the block of point r / 1024. -/
theorem cover4 (i : S8192x2.Idx) :
    ∃ t : Fin cfg4.N, (cfg4.win 4).flush t = true ∧ i ∈ ((cfg4.win 4).blk t).view.set := by
  have hi0 : (i 0).val < 8192 := (i 0).isLt
  have hi1 : (i 1).val < 2 := (i 1).isLt
  obtain ⟨t, ht⟩ : ∃ t : Fin cfg4.N, t.val = (i 0).val / 1024 :=
    ⟨⟨(i 0).val / 1024, by rw [show cfg4.N = 8 from N_4]; omega⟩, rfl⟩
  obtain ⟨-, -, -, -, -, -, -, -, e40, e41⟩ := idx_facts4 t
  refine ⟨t, flush4_4 t, ?_⟩
  rw [mem_blk4]
  intro a
  match a with
  | ⟨0, _⟩ =>
    show win4_4.index t (0 : Fin 2) * 1024 ≤ (i 0).val ∧ (i 0).val < win4_4.index t (0 : Fin 2) * 1024 + 1024
    omega
  | ⟨1, _⟩ =>
    show win4_4.index t (1 : Fin 2) * 2 ≤ (i 1).val ∧ (i 1).val < win4_4.index t (1 : Fin 2) * 2 + 2
    omega

/-- THE OUTPUT ARRAY after the region: the step of the arrays the region found. -/
theorem final4 (c : Dev nD) :
    (dat4 (F := Ideal) V c).arrAt 4 cfg4.N
      = step (V c (Pipeline.arrRef spec4 0)) (V c (Pipeline.arrRef spec4 1)) (V c (Pipeline.arrRef spec4 2)) :=
  (dat4 (F := Ideal) V c).arrAt_eq_of_cover 4 _ (fun t _ => flushed4_eq V c t) cover4

end Cert.KernelIdeal.Hand

end
-- ==== Proof.PropVal5.lean ====
/-
  What propagation step 5 leaves in its output array.

  The step's grid has 8 points; point t holds rows 1024 * t … 1024 * t + 1023 of the adjacency, of the inverse-degree column
  and of the current embedding, and the whole embedding besides, and writes back rows 1024 * t … of the output.  Each point's
  write-back is that block of rows of the one array "step Ah E d", and the 8 blocks cover the 8192 rows, so the output array
  ends as step Ah E d.
-/
import proofs.«111186_j27504970563868_1_alg».proof.Proof.Prop5
import proofs.«111186_j27504970563868_1_alg».proof.Proof.PayProp
import proofs.«111186_j27504970563868_1_alg».proof.Proof.PropStep
import Idealize.ShloMosaic.Lib.Pipeline.Value

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The body's one store, read back whole, is the step's payload of the four loaded blocks. -/
theorem out5_4_eq (x0 : Vec Ideal S1024x8192 .bf16) (x1 : Vec Ideal S8192x2 .f32) (x2 : Vec Ideal S1024x1 .f32)
    (x3 : Vec Ideal S1024x2 .f32) : out5_4 (F := Ideal) x0 x1 x2 x3 = k5_pay1 (F := Ideal) x1 x0 x2 x3 := by
  unfold out5_4
  rw [View.canon_unit_zero hz5]
  simp only [View.ld_unit_zero (S := S8192x2) hz5, View.ld_unit_zero (S := S1024x8192) hz5,
    View.ld_unit_zero (S := S1024x1) hz5, View.ld_unit_zero (S := S1024x2) hz5]

/-- The printed index maps over the 8 grid points: the row-block windows sit at block row t, column block 0; the whole
    embedding at block (0, 0). -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- A grid point's rows are rows of the array. -/
theorem row_lt5 (t : Fin cfg5.N) (p : Fin 1024) : 1024 * t.val + p.val < 8192 := by
  have ht : t.val < 8 := N_5 ▸ t.isLt
  have hp := p.isLt
  omega

/-- Where the adjacency block at point t sits in its array: rows 1024 * t …, all columns. -/
theorem emb5_0 (t : Fin cfg5.N) (p : Fin 1024) (k : Fin 8192) :
    ((cfg5.win 0).blk t).view.emb (ix2 p k) = ix2 (⟨1024 * t.val + p.val, row_lt5 t p⟩ : Fin 8192) k := by
  obtain ⟨e00, e01, -⟩ := idx_facts5 t
  funext a; apply Fin.ext
  match a with
  | ⟨0, _⟩ => show win5_0.index t (0 : Fin 2) * 1024 + 1 * p.val = 1024 * t.val + p.val; omega
  | ⟨1, _⟩ => show win5_0.index t (1 : Fin 2) * 8192 + 1 * k.val = k.val; omega

/-- The whole embedding is read in place. -/
theorem emb5_1 (t : Fin cfg5.N) (k : Fin 8192) (q : Fin 2) :
    ((cfg5.win 1).blk t).view.emb (ix2 k q) = ix2 k q := by
  obtain ⟨-, -, e10, e11, -⟩ := idx_facts5 t
  funext a; apply Fin.ext
  match a with
  | ⟨0, _⟩ => show win5_1.index t (0 : Fin 2) * 8192 + 1 * k.val = k.val; omega
  | ⟨1, _⟩ => show win5_1.index t (1 : Fin 2) * 2 + 1 * q.val = q.val; omega

/-- Where the inverse-degree block at point t sits: rows 1024 * t …. -/
theorem emb5_2 (t : Fin cfg5.N) (p : Fin 1024) :
    ((cfg5.win 2).blk t).view.emb (ix2 p (0 : Fin 1)) = ix2 (⟨1024 * t.val + p.val, row_lt5 t p⟩ : Fin 8192) (0 : Fin 1) := by
  obtain ⟨-, -, -, -, e20, e21, -⟩ := idx_facts5 t
  funext a; apply Fin.ext
  match a with
  | ⟨0, _⟩ => show win5_2.index t (0 : Fin 2) * 1024 + 1 * p.val = 1024 * t.val + p.val; omega
  | ⟨1, _⟩ => show win5_2.index t (1 : Fin 2) * 1 + 1 * 0 = 0; omega

/-- Where the embedding's row block at point t sits: rows 1024 * t …. -/
theorem emb5_3 (t : Fin cfg5.N) (p : Fin 1024) (q : Fin 2) :
    ((cfg5.win 3).blk t).view.emb (ix2 p q) = ix2 (⟨1024 * t.val + p.val, row_lt5 t p⟩ : Fin 8192) q := by
  obtain ⟨-, -, -, -, -, -, e30, e31, -⟩ := idx_facts5 t
  funext a; apply Fin.ext
  match a with
  | ⟨0, _⟩ => show win5_3.index t (0 : Fin 2) * 1024 + 1 * p.val = 1024 * t.val + p.val; omega
  | ⟨1, _⟩ => show win5_3.index t (1 : Fin 2) * 2 + 1 * q.val = q.val; omega

/-- Where the output block at point t sits: rows 1024 * t …. -/
theorem emb5_4 (t : Fin cfg5.N) (p : Fin 1024) (q : Fin 2) :
    ((cfg5.win 4).blk t).view.emb (ix2 p q) = ix2 (⟨1024 * t.val + p.val, row_lt5 t p⟩ : Fin 8192) q := by
  obtain ⟨-, -, -, -, -, -, -, -, e40, e41⟩ := idx_facts5 t
  funext a; apply Fin.ext
  match a with
  | ⟨0, _⟩ => show win5_4.index t (0 : Fin 2) * 1024 + 1 * p.val = 1024 * t.val + p.val; omega
  | ⟨1, _⟩ => show win5_4.index t (1 : Fin 2) * 2 + 1 * q.val = q.val; omega

/-- The embedding is one array, read through two windows. -/
theorem arr5_3_eq : Pipeline.arrRef spec5 3 = Pipeline.arrRef spec5 1 := rfl

/-- WHAT POINT t WRITES BACK: its block of rows of the step of the arrays the region found. -/
theorem flushed5_eq (c : Dev nD) (t : Fin cfg5.N) :
    (dat5 (F := Ideal) V c).flushed 4 t
      = ((cfg5.win 4).blk t).view.read (Elt Ideal)
          (step (V c (Pipeline.arrRef spec5 0)) (V c (Pipeline.arrRef spec5 1)) (V c (Pipeline.arrRef spec5 2))) := by
  show (cfg5.win 4).cut (grid5.coords t) ((dat5 (F := Ideal) V c).after 4 t) = _
  rw [after5_4, out5_4_eq]
  funext j
  obtain ⟨p, q, rfl⟩ : ∃ (p : Fin 1024) (q : Fin 2), j = ix2 p q := ⟨j 0, j 1, eq_ix2 j⟩
  show k5_pay1 (F := Ideal) (iblk5 V c 1 t) (iblk5 V c 0 t) (iblk5 V c 2 t) (iblk5 V c 3 t) (ix2 p q)
    = step (V c (Pipeline.arrRef spec5 0)) (V c (Pipeline.arrRef spec5 1)) (V c (Pipeline.arrRef spec5 2))
        (((cfg5.win 4).blk t).view.emb (ix2 p q))
  refine (k5_pay1_apply _ _ _ _ p q).trans ?_
  refine Eq.trans ?_ (congrArg (step (V c (Pipeline.arrRef spec5 0)) (V c (Pipeline.arrRef spec5 1)) (V c (Pipeline.arrRef spec5 2))) (emb5_4 t p q)).symm
  refine Eq.trans ?_ (step_apply _ _ _ _ q).symm
  have h3 : iblk5 V c 3 t (ix2 p q) = V c (Pipeline.arrRef spec5 1) (ix2 (⟨1024 * t.val + p.val, row_lt5 t p⟩ : Fin 8192) q) :=
    congrArg (V c (Pipeline.arrRef spec5 1)) (emb5_3 t p q)
  have h2 : iblk5 V c 2 t (ix2 p (0 : Fin 1)) = V c (Pipeline.arrRef spec5 2) (ix2 (⟨1024 * t.val + p.val, row_lt5 t p⟩ : Fin 8192) (0 : Fin 1)) :=
    congrArg (V c (Pipeline.arrRef spec5 2)) (emb5_2 t p)
  have h0 : ∀ k : Fin 8192, iblk5 V c 0 t (ix2 p k) = V c (Pipeline.arrRef spec5 0) (ix2 (⟨1024 * t.val + p.val, row_lt5 t p⟩ : Fin 8192) k) :=
    fun k => congrArg (V c (Pipeline.arrRef spec5 0)) (emb5_0 t p k)
  have h1 : ∀ k : Fin 8192, iblk5 V c 1 t (ix2 k q) = V c (Pipeline.arrRef spec5 1) (ix2 k q) :=
    fun k => congrArg (V c (Pipeline.arrRef spec5 1)) (emb5_1 t k q)
  rw [h3, h2]
  simp only [h0, h1]

/-- An index of the output array is in point t's block iff each coordinate is in the block's range on its axis. -/
theorem mem_blk5 (t : Fin cfg5.N) (i : S8192x2.Idx) :
    i ∈ ((cfg5.win 4).blk t).view.set
      ↔ ∀ a : Fin 2, win5_4.index t a * S1024x2.size a ≤ (i a).val ∧ (i a).val < win5_4.index t a * S1024x2.size a + S1024x2.size a := by
  show i ∈ ((View.whole main_v26).slice (win5_4.rect t)).set ↔ _
  rw [View.set_slice_whole, Rect.mem_set_unit]
  exact Iff.rfl

/-- The 8 blocks of 1024 rows cover the 8192 rows: row r is in the block of point r / 1024. -/
theorem cover5 (i : S8192x2.Idx) :
    ∃ t : Fin cfg5.N, (cfg5.win 4).flush t = true ∧ i ∈ ((cfg5.win 4).blk t).view.set := by
  have hi0 : (i 0).val < 8192 := (i 0).isLt
  have hi1 : (i 1).val < 2 := (i 1).isLt
  obtain ⟨t, ht⟩ : ∃ t : Fin cfg5.N, t.val = (i 0).val / 1024 :=
    ⟨⟨(i 0).val / 1024, by rw [show cfg5.N = 8 from N_5]; omega⟩, rfl⟩
  obtain ⟨-, -, -, -, -, -, -, -, e40, e41⟩ := idx_facts5 t
  refine ⟨t, flush5_4 t, ?_⟩
  rw [mem_blk5]
  intro a
  match a with
  | ⟨0, _⟩ =>
    show win5_4.index t (0 : Fin 2) * 1024 ≤ (i 0).val ∧ (i 0).val < win5_4.index t (0 : Fin 2) * 1024 + 1024
    omega
  | ⟨1, _⟩ =>
    show win5_4.index t (1 : Fin 2) * 2 ≤ (i 1).val ∧ (i 1).val < win5_4.index t (1 : Fin 2) * 2 + 2
    omega

/-- THE OUTPUT ARRAY after the region: the step of the arrays the region found. -/
theorem final5 (c : Dev nD) :
    (dat5 (F := Ideal) V c).arrAt 4 cfg5.N
      = step (V c (Pipeline.arrRef spec5 0)) (V c (Pipeline.arrRef spec5 1)) (V c (Pipeline.arrRef spec5 2)) :=
  (dat5 (F := Ideal) V c).arrAt_eq_of_cover 4 _ (fun t _ => flushed5_eq V c t) cover5

end Cert.KernelIdeal.Hand

end
-- ==== Proof.PropVal6.lean ====
/-
  What propagation step 6 leaves in its output array.

  The step's grid has 8 points; point t holds rows 1024 * t … 1024 * t + 1023 of the adjacency, of the inverse-degree column
  and of the current embedding, and the whole embedding besides, and writes back rows 1024 * t … of the output.  Each point's
  write-back is that block of rows of the one array "step Ah E d", and the 8 blocks cover the 8192 rows, so the output array
  ends as step Ah E d.
-/
import proofs.«111186_j27504970563868_1_alg».proof.Proof.Prop6
import proofs.«111186_j27504970563868_1_alg».proof.Proof.PayProp
import proofs.«111186_j27504970563868_1_alg».proof.Proof.PropStep
import Idealize.ShloMosaic.Lib.Pipeline.Value

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- The body's one store, read back whole, is the step's payload of the four loaded blocks. -/
theorem out6_4_eq (x0 : Vec Ideal S1024x8192 .bf16) (x1 : Vec Ideal S8192x2 .f32) (x2 : Vec Ideal S1024x1 .f32)
    (x3 : Vec Ideal S1024x2 .f32) : out6_4 (F := Ideal) x0 x1 x2 x3 = k6_pay1 (F := Ideal) x1 x0 x2 x3 := by
  unfold out6_4
  rw [View.canon_unit_zero hz6]
  simp only [View.ld_unit_zero (S := S8192x2) hz6, View.ld_unit_zero (S := S1024x8192) hz6,
    View.ld_unit_zero (S := S1024x1) hz6, View.ld_unit_zero (S := S1024x2) hz6]

/-- The printed index maps over the 8 grid points: the row-block windows sit at block row t, column block 0; the whole
    embedding at block (0, 0). -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- A grid point's rows are rows of the array. -/
theorem row_lt6 (t : Fin cfg6.N) (p : Fin 1024) : 1024 * t.val + p.val < 8192 := by
  have ht : t.val < 8 := N_6 ▸ t.isLt
  have hp := p.isLt
  omega

/-- Where the adjacency block at point t sits in its array: rows 1024 * t …, all columns. -/
theorem emb6_0 (t : Fin cfg6.N) (p : Fin 1024) (k : Fin 8192) :
    ((cfg6.win 0).blk t).view.emb (ix2 p k) = ix2 (⟨1024 * t.val + p.val, row_lt6 t p⟩ : Fin 8192) k := by
  obtain ⟨e00, e01, -⟩ := idx_facts6 t
  funext a; apply Fin.ext
  match a with
  | ⟨0, _⟩ => show win6_0.index t (0 : Fin 2) * 1024 + 1 * p.val = 1024 * t.val + p.val; omega
  | ⟨1, _⟩ => show win6_0.index t (1 : Fin 2) * 8192 + 1 * k.val = k.val; omega

/-- The whole embedding is read in place. -/
theorem emb6_1 (t : Fin cfg6.N) (k : Fin 8192) (q : Fin 2) :
    ((cfg6.win 1).blk t).view.emb (ix2 k q) = ix2 k q := by
  obtain ⟨-, -, e10, e11, -⟩ := idx_facts6 t
  funext a; apply Fin.ext
  match a with
  | ⟨0, _⟩ => show win6_1.index t (0 : Fin 2) * 8192 + 1 * k.val = k.val; omega
  | ⟨1, _⟩ => show win6_1.index t (1 : Fin 2) * 2 + 1 * q.val = q.val; omega

/-- Where the inverse-degree block at point t sits: rows 1024 * t …. -/
theorem emb6_2 (t : Fin cfg6.N) (p : Fin 1024) :
    ((cfg6.win 2).blk t).view.emb (ix2 p (0 : Fin 1)) = ix2 (⟨1024 * t.val + p.val, row_lt6 t p⟩ : Fin 8192) (0 : Fin 1) := by
  obtain ⟨-, -, -, -, e20, e21, -⟩ := idx_facts6 t
  funext a; apply Fin.ext
  match a with
  | ⟨0, _⟩ => show win6_2.index t (0 : Fin 2) * 1024 + 1 * p.val = 1024 * t.val + p.val; omega
  | ⟨1, _⟩ => show win6_2.index t (1 : Fin 2) * 1 + 1 * 0 = 0; omega

/-- Where the embedding's row block at point t sits: rows 1024 * t …. -/
theorem emb6_3 (t : Fin cfg6.N) (p : Fin 1024) (q : Fin 2) :
    ((cfg6.win 3).blk t).view.emb (ix2 p q) = ix2 (⟨1024 * t.val + p.val, row_lt6 t p⟩ : Fin 8192) q := by
  obtain ⟨-, -, -, -, -, -, e30, e31, -⟩ := idx_facts6 t
  funext a; apply Fin.ext
  match a with
  | ⟨0, _⟩ => show win6_3.index t (0 : Fin 2) * 1024 + 1 * p.val = 1024 * t.val + p.val; omega
  | ⟨1, _⟩ => show win6_3.index t (1 : Fin 2) * 2 + 1 * q.val = q.val; omega

/-- Where the output block at point t sits: rows 1024 * t …. -/
theorem emb6_4 (t : Fin cfg6.N) (p : Fin 1024) (q : Fin 2) :
    ((cfg6.win 4).blk t).view.emb (ix2 p q) = ix2 (⟨1024 * t.val + p.val, row_lt6 t p⟩ : Fin 8192) q := by
  obtain ⟨-, -, -, -, -, -, -, -, e40, e41⟩ := idx_facts6 t
  funext a; apply Fin.ext
  match a with
  | ⟨0, _⟩ => show win6_4.index t (0 : Fin 2) * 1024 + 1 * p.val = 1024 * t.val + p.val; omega
  | ⟨1, _⟩ => show win6_4.index t (1 : Fin 2) * 2 + 1 * q.val = q.val; omega

/-- The embedding is one array, read through two windows. -/
theorem arr6_3_eq : Pipeline.arrRef spec6 3 = Pipeline.arrRef spec6 1 := rfl

/-- WHAT POINT t WRITES BACK: its block of rows of the step of the arrays the region found. -/
theorem flushed6_eq (c : Dev nD) (t : Fin cfg6.N) :
    (dat6 (F := Ideal) V c).flushed 4 t
      = ((cfg6.win 4).blk t).view.read (Elt Ideal)
          (step (V c (Pipeline.arrRef spec6 0)) (V c (Pipeline.arrRef spec6 1)) (V c (Pipeline.arrRef spec6 2))) := by
  show (cfg6.win 4).cut (grid6.coords t) ((dat6 (F := Ideal) V c).after 4 t) = _
  rw [after6_4, out6_4_eq]
  funext j
  obtain ⟨p, q, rfl⟩ : ∃ (p : Fin 1024) (q : Fin 2), j = ix2 p q := ⟨j 0, j 1, eq_ix2 j⟩
  show k6_pay1 (F := Ideal) (iblk6 V c 1 t) (iblk6 V c 0 t) (iblk6 V c 2 t) (iblk6 V c 3 t) (ix2 p q)
    = step (V c (Pipeline.arrRef spec6 0)) (V c (Pipeline.arrRef spec6 1)) (V c (Pipeline.arrRef spec6 2))
        (((cfg6.win 4).blk t).view.emb (ix2 p q))
  refine (k6_pay1_apply _ _ _ _ p q).trans ?_
  refine Eq.trans ?_ (congrArg (step (V c (Pipeline.arrRef spec6 0)) (V c (Pipeline.arrRef spec6 1)) (V c (Pipeline.arrRef spec6 2))) (emb6_4 t p q)).symm
  refine Eq.trans ?_ (step_apply _ _ _ _ q).symm
  have h3 : iblk6 V c 3 t (ix2 p q) = V c (Pipeline.arrRef spec6 1) (ix2 (⟨1024 * t.val + p.val, row_lt6 t p⟩ : Fin 8192) q) :=
    congrArg (V c (Pipeline.arrRef spec6 1)) (emb6_3 t p q)
  have h2 : iblk6 V c 2 t (ix2 p (0 : Fin 1)) = V c (Pipeline.arrRef spec6 2) (ix2 (⟨1024 * t.val + p.val, row_lt6 t p⟩ : Fin 8192) (0 : Fin 1)) :=
    congrArg (V c (Pipeline.arrRef spec6 2)) (emb6_2 t p)
  have h0 : ∀ k : Fin 8192, iblk6 V c 0 t (ix2 p k) = V c (Pipeline.arrRef spec6 0) (ix2 (⟨1024 * t.val + p.val, row_lt6 t p⟩ : Fin 8192) k) :=
    fun k => congrArg (V c (Pipeline.arrRef spec6 0)) (emb6_0 t p k)
  have h1 : ∀ k : Fin 8192, iblk6 V c 1 t (ix2 k q) = V c (Pipeline.arrRef spec6 1) (ix2 k q) :=
    fun k => congrArg (V c (Pipeline.arrRef spec6 1)) (emb6_1 t k q)
  rw [h3, h2]
  simp only [h0, h1]

/-- An index of the output array is in point t's block iff each coordinate is in the block's range on its axis. -/
theorem mem_blk6 (t : Fin cfg6.N) (i : S8192x2.Idx) :
    i ∈ ((cfg6.win 4).blk t).view.set
      ↔ ∀ a : Fin 2, win6_4.index t a * S1024x2.size a ≤ (i a).val ∧ (i a).val < win6_4.index t a * S1024x2.size a + S1024x2.size a := by
  show i ∈ ((View.whole main_v27).slice (win6_4.rect t)).set ↔ _
  rw [View.set_slice_whole, Rect.mem_set_unit]
  exact Iff.rfl

/-- The 8 blocks of 1024 rows cover the 8192 rows: row r is in the block of point r / 1024. -/
theorem cover6 (i : S8192x2.Idx) :
    ∃ t : Fin cfg6.N, (cfg6.win 4).flush t = true ∧ i ∈ ((cfg6.win 4).blk t).view.set := by
  have hi0 : (i 0).val < 8192 := (i 0).isLt
  have hi1 : (i 1).val < 2 := (i 1).isLt
  obtain ⟨t, ht⟩ : ∃ t : Fin cfg6.N, t.val = (i 0).val / 1024 :=
    ⟨⟨(i 0).val / 1024, by rw [show cfg6.N = 8 from N_6]; omega⟩, rfl⟩
  obtain ⟨-, -, -, -, -, -, -, -, e40, e41⟩ := idx_facts6 t
  refine ⟨t, flush6_4 t, ?_⟩
  rw [mem_blk6]
  intro a
  match a with
  | ⟨0, _⟩ =>
    show win6_4.index t (0 : Fin 2) * 1024 ≤ (i 0).val ∧ (i 0).val < win6_4.index t (0 : Fin 2) * 1024 + 1024
    omega
  | ⟨1, _⟩ =>
    show win6_4.index t (1 : Fin 2) * 2 ≤ (i 1).val ∧ (i 1).val < win6_4.index t (1 : Fin 2) * 2 + 2
    omega

/-- THE OUTPUT ARRAY after the region: the step of the arrays the region found. -/
theorem final6 (c : Dev nD) :
    (dat6 (F := Ideal) V c).arrAt 4 cfg6.N
      = step (V c (Pipeline.arrRef spec6 0)) (V c (Pipeline.arrRef spec6 1)) (V c (Pipeline.arrRef spec6 2)) :=
  (dat6 (F := Ideal) V c).arrAt_eq_of_cover 4 _ (fun t _ => flushed6_eq V c t) cover6

end Cert.KernelIdeal.Hand

end
-- ==== Proof.PropVal7.lean ====
/-
  What propagation step 7 leaves in its output array.

  The step's grid has 8 points; point t holds rows 1024 * t … 1024 * t + 1023 of the adjacency, of the inverse-degree column
  and of the current embedding, and the whole embedding besides, and writes back rows 1024 * t … of the output.  Each point's
  write-back is that block of rows of the one array "step Ah E d", and the 8 blocks cover the 8192 rows, so the output array
  ends as step Ah E d.
-/
import proofs.«111186_j27504970563868_1_alg».proof.Proof.Prop7
import proofs.«111186_j27504970563868_1_alg».proof.Proof.PayProp
import proofs.«111186_j27504970563868_1_alg».proof.Proof.PropStep
import Idealize.ShloMosaic.Lib.Pipeline.Value

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz7 : (![0, 0] : Fin 2 → Nat) = fun _ => 0 := funext fun a => by fin_cases a <;> rfl

/-- The body's one store, read back whole, is the step's payload of the four loaded blocks. -/
theorem out7_4_eq (x0 : Vec Ideal S1024x8192 .bf16) (x1 : Vec Ideal S8192x2 .f32) (x2 : Vec Ideal S1024x1 .f32)
    (x3 : Vec Ideal S1024x2 .f32) : out7_4 (F := Ideal) x0 x1 x2 x3 = k7_pay1 (F := Ideal) x1 x0 x2 x3 := by
  unfold out7_4
  rw [View.canon_unit_zero hz7]
  simp only [View.ld_unit_zero (S := S8192x2) hz7, View.ld_unit_zero (S := S1024x8192) hz7,
    View.ld_unit_zero (S := S1024x1) hz7, View.ld_unit_zero (S := S1024x2) hz7]

/-- The printed index maps over the 8 grid points: the row-block windows sit at block row t, column block 0; the whole
    embedding at block (0, 0). -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- A grid point's rows are rows of the array. -/
theorem row_lt7 (t : Fin cfg7.N) (p : Fin 1024) : 1024 * t.val + p.val < 8192 := by
  have ht : t.val < 8 := N_7 ▸ t.isLt
  have hp := p.isLt
  omega

/-- Where the adjacency block at point t sits in its array: rows 1024 * t …, all columns. -/
theorem emb7_0 (t : Fin cfg7.N) (p : Fin 1024) (k : Fin 8192) :
    ((cfg7.win 0).blk t).view.emb (ix2 p k) = ix2 (⟨1024 * t.val + p.val, row_lt7 t p⟩ : Fin 8192) k := by
  obtain ⟨e00, e01, -⟩ := idx_facts7 t
  funext a; apply Fin.ext
  match a with
  | ⟨0, _⟩ => show win7_0.index t (0 : Fin 2) * 1024 + 1 * p.val = 1024 * t.val + p.val; omega
  | ⟨1, _⟩ => show win7_0.index t (1 : Fin 2) * 8192 + 1 * k.val = k.val; omega

/-- The whole embedding is read in place. -/
theorem emb7_1 (t : Fin cfg7.N) (k : Fin 8192) (q : Fin 2) :
    ((cfg7.win 1).blk t).view.emb (ix2 k q) = ix2 k q := by
  obtain ⟨-, -, e10, e11, -⟩ := idx_facts7 t
  funext a; apply Fin.ext
  match a with
  | ⟨0, _⟩ => show win7_1.index t (0 : Fin 2) * 8192 + 1 * k.val = k.val; omega
  | ⟨1, _⟩ => show win7_1.index t (1 : Fin 2) * 2 + 1 * q.val = q.val; omega

/-- Where the inverse-degree block at point t sits: rows 1024 * t …. -/
theorem emb7_2 (t : Fin cfg7.N) (p : Fin 1024) :
    ((cfg7.win 2).blk t).view.emb (ix2 p (0 : Fin 1)) = ix2 (⟨1024 * t.val + p.val, row_lt7 t p⟩ : Fin 8192) (0 : Fin 1) := by
  obtain ⟨-, -, -, -, e20, e21, -⟩ := idx_facts7 t
  funext a; apply Fin.ext
  match a with
  | ⟨0, _⟩ => show win7_2.index t (0 : Fin 2) * 1024 + 1 * p.val = 1024 * t.val + p.val; omega
  | ⟨1, _⟩ => show win7_2.index t (1 : Fin 2) * 1 + 1 * 0 = 0; omega

/-- Where the embedding's row block at point t sits: rows 1024 * t …. -/
theorem emb7_3 (t : Fin cfg7.N) (p : Fin 1024) (q : Fin 2) :
    ((cfg7.win 3).blk t).view.emb (ix2 p q) = ix2 (⟨1024 * t.val + p.val, row_lt7 t p⟩ : Fin 8192) q := by
  obtain ⟨-, -, -, -, -, -, e30, e31, -⟩ := idx_facts7 t
  funext a; apply Fin.ext
  match a with
  | ⟨0, _⟩ => show win7_3.index t (0 : Fin 2) * 1024 + 1 * p.val = 1024 * t.val + p.val; omega
  | ⟨1, _⟩ => show win7_3.index t (1 : Fin 2) * 2 + 1 * q.val = q.val; omega

/-- Where the output block at point t sits: rows 1024 * t …. -/
theorem emb7_4 (t : Fin cfg7.N) (p : Fin 1024) (q : Fin 2) :
    ((cfg7.win 4).blk t).view.emb (ix2 p q) = ix2 (⟨1024 * t.val + p.val, row_lt7 t p⟩ : Fin 8192) q := by
  obtain ⟨-, -, -, -, -, -, -, -, e40, e41⟩ := idx_facts7 t
  funext a; apply Fin.ext
  match a with
  | ⟨0, _⟩ => show win7_4.index t (0 : Fin 2) * 1024 + 1 * p.val = 1024 * t.val + p.val; omega
  | ⟨1, _⟩ => show win7_4.index t (1 : Fin 2) * 2 + 1 * q.val = q.val; omega

/-- The embedding is one array, read through two windows. -/
theorem arr7_3_eq : Pipeline.arrRef spec7 3 = Pipeline.arrRef spec7 1 := rfl

/-- WHAT POINT t WRITES BACK: its block of rows of the step of the arrays the region found. -/
theorem flushed7_eq (c : Dev nD) (t : Fin cfg7.N) :
    (dat7 (F := Ideal) V c).flushed 4 t
      = ((cfg7.win 4).blk t).view.read (Elt Ideal)
          (step (V c (Pipeline.arrRef spec7 0)) (V c (Pipeline.arrRef spec7 1)) (V c (Pipeline.arrRef spec7 2))) := by
  show (cfg7.win 4).cut (grid7.coords t) ((dat7 (F := Ideal) V c).after 4 t) = _
  rw [after7_4, out7_4_eq]
  funext j
  obtain ⟨p, q, rfl⟩ : ∃ (p : Fin 1024) (q : Fin 2), j = ix2 p q := ⟨j 0, j 1, eq_ix2 j⟩
  show k7_pay1 (F := Ideal) (iblk7 V c 1 t) (iblk7 V c 0 t) (iblk7 V c 2 t) (iblk7 V c 3 t) (ix2 p q)
    = step (V c (Pipeline.arrRef spec7 0)) (V c (Pipeline.arrRef spec7 1)) (V c (Pipeline.arrRef spec7 2))
        (((cfg7.win 4).blk t).view.emb (ix2 p q))
  refine (k7_pay1_apply _ _ _ _ p q).trans ?_
  refine Eq.trans ?_ (congrArg (step (V c (Pipeline.arrRef spec7 0)) (V c (Pipeline.arrRef spec7 1)) (V c (Pipeline.arrRef spec7 2))) (emb7_4 t p q)).symm
  refine Eq.trans ?_ (step_apply _ _ _ _ q).symm
  have h3 : iblk7 V c 3 t (ix2 p q) = V c (Pipeline.arrRef spec7 1) (ix2 (⟨1024 * t.val + p.val, row_lt7 t p⟩ : Fin 8192) q) :=
    congrArg (V c (Pipeline.arrRef spec7 1)) (emb7_3 t p q)
  have h2 : iblk7 V c 2 t (ix2 p (0 : Fin 1)) = V c (Pipeline.arrRef spec7 2) (ix2 (⟨1024 * t.val + p.val, row_lt7 t p⟩ : Fin 8192) (0 : Fin 1)) :=
    congrArg (V c (Pipeline.arrRef spec7 2)) (emb7_2 t p)
  have h0 : ∀ k : Fin 8192, iblk7 V c 0 t (ix2 p k) = V c (Pipeline.arrRef spec7 0) (ix2 (⟨1024 * t.val + p.val, row_lt7 t p⟩ : Fin 8192) k) :=
    fun k => congrArg (V c (Pipeline.arrRef spec7 0)) (emb7_0 t p k)
  have h1 : ∀ k : Fin 8192, iblk7 V c 1 t (ix2 k q) = V c (Pipeline.arrRef spec7 1) (ix2 k q) :=
    fun k => congrArg (V c (Pipeline.arrRef spec7 1)) (emb7_1 t k q)
  rw [h3, h2]
  simp only [h0, h1]

/-- An index of the output array is in point t's block iff each coordinate is in the block's range on its axis. -/
theorem mem_blk7 (t : Fin cfg7.N) (i : S8192x2.Idx) :
    i ∈ ((cfg7.win 4).blk t).view.set
      ↔ ∀ a : Fin 2, win7_4.index t a * S1024x2.size a ≤ (i a).val ∧ (i a).val < win7_4.index t a * S1024x2.size a + S1024x2.size a := by
  show i ∈ ((View.whole main_v28).slice (win7_4.rect t)).set ↔ _
  rw [View.set_slice_whole, Rect.mem_set_unit]
  exact Iff.rfl

/-- The 8 blocks of 1024 rows cover the 8192 rows: row r is in the block of point r / 1024. -/
theorem cover7 (i : S8192x2.Idx) :
    ∃ t : Fin cfg7.N, (cfg7.win 4).flush t = true ∧ i ∈ ((cfg7.win 4).blk t).view.set := by
  have hi0 : (i 0).val < 8192 := (i 0).isLt
  have hi1 : (i 1).val < 2 := (i 1).isLt
  obtain ⟨t, ht⟩ : ∃ t : Fin cfg7.N, t.val = (i 0).val / 1024 :=
    ⟨⟨(i 0).val / 1024, by rw [show cfg7.N = 8 from N_7]; omega⟩, rfl⟩
  obtain ⟨-, -, -, -, -, -, -, -, e40, e41⟩ := idx_facts7 t
  refine ⟨t, flush7_4 t, ?_⟩
  rw [mem_blk7]
  intro a
  match a with
  | ⟨0, _⟩ =>
    show win7_4.index t (0 : Fin 2) * 1024 ≤ (i 0).val ∧ (i 0).val < win7_4.index t (0 : Fin 2) * 1024 + 1024
    omega
  | ⟨1, _⟩ =>
    show win7_4.index t (1 : Fin 2) * 2 ≤ (i 1).val ∧ (i 1).val < win7_4.index t (1 : Fin 2) * 2 + 2
    omega

/-- THE OUTPUT ARRAY after the region: the step of the arrays the region found. -/
theorem final7 (c : Dev nD) :
    (dat7 (F := Ideal) V c).arrAt 4 cfg7.N
      = step (V c (Pipeline.arrRef spec7 0)) (V c (Pipeline.arrRef spec7 1)) (V c (Pipeline.arrRef spec7 2)) :=
  (dat7 (F := Ideal) V c).arrAt_eq_of_cover 4 _ (fun t _ => flushed7_eq V c t) cover7

end Cert.KernelIdeal.Hand

end
-- ==== Proof.PropVal8.lean ====
/-
  What propagation step 8 leaves in its output array.

  The step's grid has 8 points; point t holds rows 1024 * t … 1024 * t + 1023 of the adjacency, of the inverse-degree column
  and of the current embedding, and the whole embedding besides, and writes back rows 1024 * t … of the output.  Each point's
  write-back is that block of rows of the one array "step Ah E d", and the 8 blocks cover the 8192 rows, so the output array
  ends as step Ah E d.
-/
import proofs.«111186_j27504970563868_1_alg».proof.Proof.Prop8
import proofs.«111186_j27504970563868_1_alg».proof.Proof.PayProp
import proofs.«111186_j27504970563868_1_alg».proof.Proof.PropStep
import Idealize.ShloMosaic.Lib.Pipeline.Value

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz8 : (![0, 0] : Fin 2 → Nat) = fun _ => 0 := funext fun a => by fin_cases a <;> rfl

/-- The body's one store, read back whole, is the step's payload of the four loaded blocks. -/
theorem out8_4_eq (x0 : Vec Ideal S1024x8192 .bf16) (x1 : Vec Ideal S8192x2 .f32) (x2 : Vec Ideal S1024x1 .f32)
    (x3 : Vec Ideal S1024x2 .f32) : out8_4 (F := Ideal) x0 x1 x2 x3 = k8_pay1 (F := Ideal) x1 x0 x2 x3 := by
  unfold out8_4
  rw [View.canon_unit_zero hz8]
  simp only [View.ld_unit_zero (S := S8192x2) hz8, View.ld_unit_zero (S := S1024x8192) hz8,
    View.ld_unit_zero (S := S1024x1) hz8, View.ld_unit_zero (S := S1024x2) hz8]

/-- The printed index maps over the 8 grid points: the row-block windows sit at block row t, column block 0; the whole
    embedding at block (0, 0). -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

/-- A grid point's rows are rows of the array. -/
theorem row_lt8 (t : Fin cfg8.N) (p : Fin 1024) : 1024 * t.val + p.val < 8192 := by
  have ht : t.val < 8 := N_8 ▸ t.isLt
  have hp := p.isLt
  omega

/-- Where the adjacency block at point t sits in its array: rows 1024 * t …, all columns. -/
theorem emb8_0 (t : Fin cfg8.N) (p : Fin 1024) (k : Fin 8192) :
    ((cfg8.win 0).blk t).view.emb (ix2 p k) = ix2 (⟨1024 * t.val + p.val, row_lt8 t p⟩ : Fin 8192) k := by
  obtain ⟨e00, e01, -⟩ := idx_facts8 t
  funext a; apply Fin.ext
  match a with
  | ⟨0, _⟩ => show win8_0.index t (0 : Fin 2) * 1024 + 1 * p.val = 1024 * t.val + p.val; omega
  | ⟨1, _⟩ => show win8_0.index t (1 : Fin 2) * 8192 + 1 * k.val = k.val; omega

/-- The whole embedding is read in place. -/
theorem emb8_1 (t : Fin cfg8.N) (k : Fin 8192) (q : Fin 2) :
    ((cfg8.win 1).blk t).view.emb (ix2 k q) = ix2 k q := by
  obtain ⟨-, -, e10, e11, -⟩ := idx_facts8 t
  funext a; apply Fin.ext
  match a with
  | ⟨0, _⟩ => show win8_1.index t (0 : Fin 2) * 8192 + 1 * k.val = k.val; omega
  | ⟨1, _⟩ => show win8_1.index t (1 : Fin 2) * 2 + 1 * q.val = q.val; omega

/-- Where the inverse-degree block at point t sits: rows 1024 * t …. -/
theorem emb8_2 (t : Fin cfg8.N) (p : Fin 1024) :
    ((cfg8.win 2).blk t).view.emb (ix2 p (0 : Fin 1)) = ix2 (⟨1024 * t.val + p.val, row_lt8 t p⟩ : Fin 8192) (0 : Fin 1) := by
  obtain ⟨-, -, -, -, e20, e21, -⟩ := idx_facts8 t
  funext a; apply Fin.ext
  match a with
  | ⟨0, _⟩ => show win8_2.index t (0 : Fin 2) * 1024 + 1 * p.val = 1024 * t.val + p.val; omega
  | ⟨1, _⟩ => show win8_2.index t (1 : Fin 2) * 1 + 1 * 0 = 0; omega

/-- Where the embedding's row block at point t sits: rows 1024 * t …. -/
theorem emb8_3 (t : Fin cfg8.N) (p : Fin 1024) (q : Fin 2) :
    ((cfg8.win 3).blk t).view.emb (ix2 p q) = ix2 (⟨1024 * t.val + p.val, row_lt8 t p⟩ : Fin 8192) q := by
  obtain ⟨-, -, -, -, -, -, e30, e31, -⟩ := idx_facts8 t
  funext a; apply Fin.ext
  match a with
  | ⟨0, _⟩ => show win8_3.index t (0 : Fin 2) * 1024 + 1 * p.val = 1024 * t.val + p.val; omega
  | ⟨1, _⟩ => show win8_3.index t (1 : Fin 2) * 2 + 1 * q.val = q.val; omega

/-- Where the output block at point t sits: rows 1024 * t …. -/
theorem emb8_4 (t : Fin cfg8.N) (p : Fin 1024) (q : Fin 2) :
    ((cfg8.win 4).blk t).view.emb (ix2 p q) = ix2 (⟨1024 * t.val + p.val, row_lt8 t p⟩ : Fin 8192) q := by
  obtain ⟨-, -, -, -, -, -, -, -, e40, e41⟩ := idx_facts8 t
  funext a; apply Fin.ext
  match a with
  | ⟨0, _⟩ => show win8_4.index t (0 : Fin 2) * 1024 + 1 * p.val = 1024 * t.val + p.val; omega
  | ⟨1, _⟩ => show win8_4.index t (1 : Fin 2) * 2 + 1 * q.val = q.val; omega

/-- The embedding is one array, read through two windows. -/
theorem arr8_3_eq : Pipeline.arrRef spec8 3 = Pipeline.arrRef spec8 1 := rfl

/-- WHAT POINT t WRITES BACK: its block of rows of the step of the arrays the region found. -/
theorem flushed8_eq (c : Dev nD) (t : Fin cfg8.N) :
    (dat8 (F := Ideal) V c).flushed 4 t
      = ((cfg8.win 4).blk t).view.read (Elt Ideal)
          (step (V c (Pipeline.arrRef spec8 0)) (V c (Pipeline.arrRef spec8 1)) (V c (Pipeline.arrRef spec8 2))) := by
  show (cfg8.win 4).cut (grid8.coords t) ((dat8 (F := Ideal) V c).after 4 t) = _
  rw [after8_4, out8_4_eq]
  funext j
  obtain ⟨p, q, rfl⟩ : ∃ (p : Fin 1024) (q : Fin 2), j = ix2 p q := ⟨j 0, j 1, eq_ix2 j⟩
  show k8_pay1 (F := Ideal) (iblk8 V c 1 t) (iblk8 V c 0 t) (iblk8 V c 2 t) (iblk8 V c 3 t) (ix2 p q)
    = step (V c (Pipeline.arrRef spec8 0)) (V c (Pipeline.arrRef spec8 1)) (V c (Pipeline.arrRef spec8 2))
        (((cfg8.win 4).blk t).view.emb (ix2 p q))
  refine (k8_pay1_apply _ _ _ _ p q).trans ?_
  refine Eq.trans ?_ (congrArg (step (V c (Pipeline.arrRef spec8 0)) (V c (Pipeline.arrRef spec8 1)) (V c (Pipeline.arrRef spec8 2))) (emb8_4 t p q)).symm
  refine Eq.trans ?_ (step_apply _ _ _ _ q).symm
  have h3 : iblk8 V c 3 t (ix2 p q) = V c (Pipeline.arrRef spec8 1) (ix2 (⟨1024 * t.val + p.val, row_lt8 t p⟩ : Fin 8192) q) :=
    congrArg (V c (Pipeline.arrRef spec8 1)) (emb8_3 t p q)
  have h2 : iblk8 V c 2 t (ix2 p (0 : Fin 1)) = V c (Pipeline.arrRef spec8 2) (ix2 (⟨1024 * t.val + p.val, row_lt8 t p⟩ : Fin 8192) (0 : Fin 1)) :=
    congrArg (V c (Pipeline.arrRef spec8 2)) (emb8_2 t p)
  have h0 : ∀ k : Fin 8192, iblk8 V c 0 t (ix2 p k) = V c (Pipeline.arrRef spec8 0) (ix2 (⟨1024 * t.val + p.val, row_lt8 t p⟩ : Fin 8192) k) :=
    fun k => congrArg (V c (Pipeline.arrRef spec8 0)) (emb8_0 t p k)
  have h1 : ∀ k : Fin 8192, iblk8 V c 1 t (ix2 k q) = V c (Pipeline.arrRef spec8 1) (ix2 k q) :=
    fun k => congrArg (V c (Pipeline.arrRef spec8 1)) (emb8_1 t k q)
  rw [h3, h2]
  simp only [h0, h1]

/-- An index of the output array is in point t's block iff each coordinate is in the block's range on its axis. -/
theorem mem_blk8 (t : Fin cfg8.N) (i : S8192x2.Idx) :
    i ∈ ((cfg8.win 4).blk t).view.set
      ↔ ∀ a : Fin 2, win8_4.index t a * S1024x2.size a ≤ (i a).val ∧ (i a).val < win8_4.index t a * S1024x2.size a + S1024x2.size a := by
  show i ∈ ((View.whole main_v29).slice (win8_4.rect t)).set ↔ _
  rw [View.set_slice_whole, Rect.mem_set_unit]
  exact Iff.rfl

/-- The 8 blocks of 1024 rows cover the 8192 rows: row r is in the block of point r / 1024. -/
theorem cover8 (i : S8192x2.Idx) :
    ∃ t : Fin cfg8.N, (cfg8.win 4).flush t = true ∧ i ∈ ((cfg8.win 4).blk t).view.set := by
  have hi0 : (i 0).val < 8192 := (i 0).isLt
  have hi1 : (i 1).val < 2 := (i 1).isLt
  obtain ⟨t, ht⟩ : ∃ t : Fin cfg8.N, t.val = (i 0).val / 1024 :=
    ⟨⟨(i 0).val / 1024, by rw [show cfg8.N = 8 from N_8]; omega⟩, rfl⟩
  obtain ⟨-, -, -, -, -, -, -, -, e40, e41⟩ := idx_facts8 t
  refine ⟨t, flush8_4 t, ?_⟩
  rw [mem_blk8]
  intro a
  match a with
  | ⟨0, _⟩ =>
    show win8_4.index t (0 : Fin 2) * 1024 ≤ (i 0).val ∧ (i 0).val < win8_4.index t (0 : Fin 2) * 1024 + 1024
    omega
  | ⟨1, _⟩ =>
    show win8_4.index t (1 : Fin 2) * 2 ≤ (i 1).val ∧ (i 1).val < win8_4.index t (1 : Fin 2) * 2 + 2
    omega

/-- THE OUTPUT ARRAY after the region: the step of the arrays the region found. -/
theorem final8 (c : Dev nD) :
    (dat8 (F := Ideal) V c).arrAt 4 cfg8.N
      = step (V c (Pipeline.arrRef spec8 0)) (V c (Pipeline.arrRef spec8 1)) (V c (Pipeline.arrRef spec8 2)) :=
  (dat8 (F := Ideal) V c).arrAt_eq_of_cover 4 _ (fun t _ => flushed8_eq V c t) cover8

end Cert.KernelIdeal.Hand

end
-- ==== Proof.PropVal9.lean ====
/-
  What propagation step 9 leaves in its output array.

  The step's grid has 8 points; point t holds rows 1024 * t … 1024 * t + 1023 of the adjacency, of the inverse-degree column
  and of the current embedding, and the whole embedding besides, and writes back rows 1024 * t … of the output.  Each point's
  write-back is that block of rows of the one array "step Ah E d", and the 8 blocks cover the 8192 rows, so the output array
  ends as step Ah E d.
-/
import proofs.«111186_j27504970563868_1_alg».proof.Proof.Prop9
import proofs.«111186_j27504970563868_1_alg».proof.Proof.PayProp
import proofs.«111186_j27504970563868_1_alg».proof.Proof.PropStep
import Idealize.ShloMosaic.Lib.Pipeline.Value

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz9 : (![0, 0] : Fin 2 → Nat) = fun _ => 0 := funext fun a => by fin_cases a <;> rfl

/-- The body's one store, read back whole, is the step's payload of the four loaded blocks. -/
theorem out9_4_eq (x0 : Vec Ideal S1024x8192 .bf16) (x1 : Vec Ideal S8192x2 .f32) (x2 : Vec Ideal S1024x1 .f32)
    (x3 : Vec Ideal S1024x2 .f32) : out9_4 (F := Ideal) x0 x1 x2 x3 = k9_pay1 (F := Ideal) x1 x0 x2 x3 := by
  unfold out9_4
  rw [View.canon_unit_zero hz9]
  simp only [View.ld_unit_zero (S := S8192x2) hz9, View.ld_unit_zero (S := S1024x8192) hz9,
    View.ld_unit_zero (S := S1024x1) hz9, View.ld_unit_zero (S := S1024x2) hz9]

/-- The printed index maps over the 8 grid points: the row-block windows sit at block row t, column block 0; the whole
    embedding at block (0, 0). -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

/-- A grid point's rows are rows of the array. -/
theorem row_lt9 (t : Fin cfg9.N) (p : Fin 1024) : 1024 * t.val + p.val < 8192 := by
  have ht : t.val < 8 := N_9 ▸ t.isLt
  have hp := p.isLt
  omega

/-- Where the adjacency block at point t sits in its array: rows 1024 * t …, all columns. -/
theorem emb9_0 (t : Fin cfg9.N) (p : Fin 1024) (k : Fin 8192) :
    ((cfg9.win 0).blk t).view.emb (ix2 p k) = ix2 (⟨1024 * t.val + p.val, row_lt9 t p⟩ : Fin 8192) k := by
  obtain ⟨e00, e01, -⟩ := idx_facts9 t
  funext a; apply Fin.ext
  match a with
  | ⟨0, _⟩ => show win9_0.index t (0 : Fin 2) * 1024 + 1 * p.val = 1024 * t.val + p.val; omega
  | ⟨1, _⟩ => show win9_0.index t (1 : Fin 2) * 8192 + 1 * k.val = k.val; omega

/-- The whole embedding is read in place. -/
theorem emb9_1 (t : Fin cfg9.N) (k : Fin 8192) (q : Fin 2) :
    ((cfg9.win 1).blk t).view.emb (ix2 k q) = ix2 k q := by
  obtain ⟨-, -, e10, e11, -⟩ := idx_facts9 t
  funext a; apply Fin.ext
  match a with
  | ⟨0, _⟩ => show win9_1.index t (0 : Fin 2) * 8192 + 1 * k.val = k.val; omega
  | ⟨1, _⟩ => show win9_1.index t (1 : Fin 2) * 2 + 1 * q.val = q.val; omega

/-- Where the inverse-degree block at point t sits: rows 1024 * t …. -/
theorem emb9_2 (t : Fin cfg9.N) (p : Fin 1024) :
    ((cfg9.win 2).blk t).view.emb (ix2 p (0 : Fin 1)) = ix2 (⟨1024 * t.val + p.val, row_lt9 t p⟩ : Fin 8192) (0 : Fin 1) := by
  obtain ⟨-, -, -, -, e20, e21, -⟩ := idx_facts9 t
  funext a; apply Fin.ext
  match a with
  | ⟨0, _⟩ => show win9_2.index t (0 : Fin 2) * 1024 + 1 * p.val = 1024 * t.val + p.val; omega
  | ⟨1, _⟩ => show win9_2.index t (1 : Fin 2) * 1 + 1 * 0 = 0; omega

/-- Where the embedding's row block at point t sits: rows 1024 * t …. -/
theorem emb9_3 (t : Fin cfg9.N) (p : Fin 1024) (q : Fin 2) :
    ((cfg9.win 3).blk t).view.emb (ix2 p q) = ix2 (⟨1024 * t.val + p.val, row_lt9 t p⟩ : Fin 8192) q := by
  obtain ⟨-, -, -, -, -, -, e30, e31, -⟩ := idx_facts9 t
  funext a; apply Fin.ext
  match a with
  | ⟨0, _⟩ => show win9_3.index t (0 : Fin 2) * 1024 + 1 * p.val = 1024 * t.val + p.val; omega
  | ⟨1, _⟩ => show win9_3.index t (1 : Fin 2) * 2 + 1 * q.val = q.val; omega

/-- Where the output block at point t sits: rows 1024 * t …. -/
theorem emb9_4 (t : Fin cfg9.N) (p : Fin 1024) (q : Fin 2) :
    ((cfg9.win 4).blk t).view.emb (ix2 p q) = ix2 (⟨1024 * t.val + p.val, row_lt9 t p⟩ : Fin 8192) q := by
  obtain ⟨-, -, -, -, -, -, -, -, e40, e41⟩ := idx_facts9 t
  funext a; apply Fin.ext
  match a with
  | ⟨0, _⟩ => show win9_4.index t (0 : Fin 2) * 1024 + 1 * p.val = 1024 * t.val + p.val; omega
  | ⟨1, _⟩ => show win9_4.index t (1 : Fin 2) * 2 + 1 * q.val = q.val; omega

/-- The embedding is one array, read through two windows. -/
theorem arr9_3_eq : Pipeline.arrRef spec9 3 = Pipeline.arrRef spec9 1 := rfl

/-- WHAT POINT t WRITES BACK: its block of rows of the step of the arrays the region found. -/
theorem flushed9_eq (c : Dev nD) (t : Fin cfg9.N) :
    (dat9 (F := Ideal) V c).flushed 4 t
      = ((cfg9.win 4).blk t).view.read (Elt Ideal)
          (step (V c (Pipeline.arrRef spec9 0)) (V c (Pipeline.arrRef spec9 1)) (V c (Pipeline.arrRef spec9 2))) := by
  show (cfg9.win 4).cut (grid9.coords t) ((dat9 (F := Ideal) V c).after 4 t) = _
  rw [after9_4, out9_4_eq]
  funext j
  obtain ⟨p, q, rfl⟩ : ∃ (p : Fin 1024) (q : Fin 2), j = ix2 p q := ⟨j 0, j 1, eq_ix2 j⟩
  show k9_pay1 (F := Ideal) (iblk9 V c 1 t) (iblk9 V c 0 t) (iblk9 V c 2 t) (iblk9 V c 3 t) (ix2 p q)
    = step (V c (Pipeline.arrRef spec9 0)) (V c (Pipeline.arrRef spec9 1)) (V c (Pipeline.arrRef spec9 2))
        (((cfg9.win 4).blk t).view.emb (ix2 p q))
  refine (k9_pay1_apply _ _ _ _ p q).trans ?_
  refine Eq.trans ?_ (congrArg (step (V c (Pipeline.arrRef spec9 0)) (V c (Pipeline.arrRef spec9 1)) (V c (Pipeline.arrRef spec9 2))) (emb9_4 t p q)).symm
  refine Eq.trans ?_ (step_apply _ _ _ _ q).symm
  have h3 : iblk9 V c 3 t (ix2 p q) = V c (Pipeline.arrRef spec9 1) (ix2 (⟨1024 * t.val + p.val, row_lt9 t p⟩ : Fin 8192) q) :=
    congrArg (V c (Pipeline.arrRef spec9 1)) (emb9_3 t p q)
  have h2 : iblk9 V c 2 t (ix2 p (0 : Fin 1)) = V c (Pipeline.arrRef spec9 2) (ix2 (⟨1024 * t.val + p.val, row_lt9 t p⟩ : Fin 8192) (0 : Fin 1)) :=
    congrArg (V c (Pipeline.arrRef spec9 2)) (emb9_2 t p)
  have h0 : ∀ k : Fin 8192, iblk9 V c 0 t (ix2 p k) = V c (Pipeline.arrRef spec9 0) (ix2 (⟨1024 * t.val + p.val, row_lt9 t p⟩ : Fin 8192) k) :=
    fun k => congrArg (V c (Pipeline.arrRef spec9 0)) (emb9_0 t p k)
  have h1 : ∀ k : Fin 8192, iblk9 V c 1 t (ix2 k q) = V c (Pipeline.arrRef spec9 1) (ix2 k q) :=
    fun k => congrArg (V c (Pipeline.arrRef spec9 1)) (emb9_1 t k q)
  rw [h3, h2]
  simp only [h0, h1]

/-- An index of the output array is in point t's block iff each coordinate is in the block's range on its axis. -/
theorem mem_blk9 (t : Fin cfg9.N) (i : S8192x2.Idx) :
    i ∈ ((cfg9.win 4).blk t).view.set
      ↔ ∀ a : Fin 2, win9_4.index t a * S1024x2.size a ≤ (i a).val ∧ (i a).val < win9_4.index t a * S1024x2.size a + S1024x2.size a := by
  show i ∈ ((View.whole main_v30).slice (win9_4.rect t)).set ↔ _
  rw [View.set_slice_whole, Rect.mem_set_unit]
  exact Iff.rfl

/-- The 8 blocks of 1024 rows cover the 8192 rows: row r is in the block of point r / 1024. -/
theorem cover9 (i : S8192x2.Idx) :
    ∃ t : Fin cfg9.N, (cfg9.win 4).flush t = true ∧ i ∈ ((cfg9.win 4).blk t).view.set := by
  have hi0 : (i 0).val < 8192 := (i 0).isLt
  have hi1 : (i 1).val < 2 := (i 1).isLt
  obtain ⟨t, ht⟩ : ∃ t : Fin cfg9.N, t.val = (i 0).val / 1024 :=
    ⟨⟨(i 0).val / 1024, by rw [show cfg9.N = 8 from N_9]; omega⟩, rfl⟩
  obtain ⟨-, -, -, -, -, -, -, -, e40, e41⟩ := idx_facts9 t
  refine ⟨t, flush9_4 t, ?_⟩
  rw [mem_blk9]
  intro a
  match a with
  | ⟨0, _⟩ =>
    show win9_4.index t (0 : Fin 2) * 1024 ≤ (i 0).val ∧ (i 0).val < win9_4.index t (0 : Fin 2) * 1024 + 1024
    omega
  | ⟨1, _⟩ =>
    show win9_4.index t (1 : Fin 2) * 2 ≤ (i 1).val ∧ (i 1).val < win9_4.index t (1 : Fin 2) * 2 + 2
    omega

/-- THE OUTPUT ARRAY after the region: the step of the arrays the region found. -/
theorem final9 (c : Dev nD) :
    (dat9 (F := Ideal) V c).arrAt 4 cfg9.N
      = step (V c (Pipeline.arrRef spec9 0)) (V c (Pipeline.arrRef spec9 1)) (V c (Pipeline.arrRef spec9 2)) :=
  (dat9 (F := Ideal) V c).arrAt_eq_of_cover 4 _ (fun t _ => flushed9_eq V c t) cover9

end Cert.KernelIdeal.Hand

end
-- ==== Proof.PropVal10.lean ====
/-
  What propagation step 10 leaves in its output array.

  The step's grid has 8 points; point t holds rows 1024 * t … 1024 * t + 1023 of the adjacency, of the inverse-degree column
  and of the current embedding, and the whole embedding besides, and writes back rows 1024 * t … of the output.  Each point's
  write-back is that block of rows of the one array "step Ah E d", and the 8 blocks cover the 8192 rows, so the output array
  ends as step Ah E d.
-/
import proofs.«111186_j27504970563868_1_alg».proof.Proof.Prop10
import proofs.«111186_j27504970563868_1_alg».proof.Proof.PayProp
import proofs.«111186_j27504970563868_1_alg».proof.Proof.PropStep
import Idealize.ShloMosaic.Lib.Pipeline.Value

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz10 : (![0, 0] : Fin 2 → Nat) = fun _ => 0 := funext fun a => by fin_cases a <;> rfl

/-- The body's one store, read back whole, is the step's payload of the four loaded blocks. -/
theorem out10_4_eq (x0 : Vec Ideal S1024x8192 .bf16) (x1 : Vec Ideal S8192x2 .f32) (x2 : Vec Ideal S1024x1 .f32)
    (x3 : Vec Ideal S1024x2 .f32) : out10_4 (F := Ideal) x0 x1 x2 x3 = k10_pay1 (F := Ideal) x1 x0 x2 x3 := by
  unfold out10_4
  rw [View.canon_unit_zero hz10]
  simp only [View.ld_unit_zero (S := S8192x2) hz10, View.ld_unit_zero (S := S1024x8192) hz10,
    View.ld_unit_zero (S := S1024x1) hz10, View.ld_unit_zero (S := S1024x2) hz10]

/-- The printed index maps over the 8 grid points: the row-block windows sit at block row t, column block 0; the whole
    embedding at block (0, 0). -/
theorem idx_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0 :=
  (by decide +kernel : ∀ t : Fin grid10.N, _)

/-- A grid point's rows are rows of the array. -/
theorem row_lt10 (t : Fin cfg10.N) (p : Fin 1024) : 1024 * t.val + p.val < 8192 := by
  have ht : t.val < 8 := N_10 ▸ t.isLt
  have hp := p.isLt
  omega

/-- Where the adjacency block at point t sits in its array: rows 1024 * t …, all columns. -/
theorem emb10_0 (t : Fin cfg10.N) (p : Fin 1024) (k : Fin 8192) :
    ((cfg10.win 0).blk t).view.emb (ix2 p k) = ix2 (⟨1024 * t.val + p.val, row_lt10 t p⟩ : Fin 8192) k := by
  obtain ⟨e00, e01, -⟩ := idx_facts10 t
  funext a; apply Fin.ext
  match a with
  | ⟨0, _⟩ => show win10_0.index t (0 : Fin 2) * 1024 + 1 * p.val = 1024 * t.val + p.val; omega
  | ⟨1, _⟩ => show win10_0.index t (1 : Fin 2) * 8192 + 1 * k.val = k.val; omega

/-- The whole embedding is read in place. -/
theorem emb10_1 (t : Fin cfg10.N) (k : Fin 8192) (q : Fin 2) :
    ((cfg10.win 1).blk t).view.emb (ix2 k q) = ix2 k q := by
  obtain ⟨-, -, e10, e11, -⟩ := idx_facts10 t
  funext a; apply Fin.ext
  match a with
  | ⟨0, _⟩ => show win10_1.index t (0 : Fin 2) * 8192 + 1 * k.val = k.val; omega
  | ⟨1, _⟩ => show win10_1.index t (1 : Fin 2) * 2 + 1 * q.val = q.val; omega

/-- Where the inverse-degree block at point t sits: rows 1024 * t …. -/
theorem emb10_2 (t : Fin cfg10.N) (p : Fin 1024) :
    ((cfg10.win 2).blk t).view.emb (ix2 p (0 : Fin 1)) = ix2 (⟨1024 * t.val + p.val, row_lt10 t p⟩ : Fin 8192) (0 : Fin 1) := by
  obtain ⟨-, -, -, -, e20, e21, -⟩ := idx_facts10 t
  funext a; apply Fin.ext
  match a with
  | ⟨0, _⟩ => show win10_2.index t (0 : Fin 2) * 1024 + 1 * p.val = 1024 * t.val + p.val; omega
  | ⟨1, _⟩ => show win10_2.index t (1 : Fin 2) * 1 + 1 * 0 = 0; omega

/-- Where the embedding's row block at point t sits: rows 1024 * t …. -/
theorem emb10_3 (t : Fin cfg10.N) (p : Fin 1024) (q : Fin 2) :
    ((cfg10.win 3).blk t).view.emb (ix2 p q) = ix2 (⟨1024 * t.val + p.val, row_lt10 t p⟩ : Fin 8192) q := by
  obtain ⟨-, -, -, -, -, -, e30, e31, -⟩ := idx_facts10 t
  funext a; apply Fin.ext
  match a with
  | ⟨0, _⟩ => show win10_3.index t (0 : Fin 2) * 1024 + 1 * p.val = 1024 * t.val + p.val; omega
  | ⟨1, _⟩ => show win10_3.index t (1 : Fin 2) * 2 + 1 * q.val = q.val; omega

/-- Where the output block at point t sits: rows 1024 * t …. -/
theorem emb10_4 (t : Fin cfg10.N) (p : Fin 1024) (q : Fin 2) :
    ((cfg10.win 4).blk t).view.emb (ix2 p q) = ix2 (⟨1024 * t.val + p.val, row_lt10 t p⟩ : Fin 8192) q := by
  obtain ⟨-, -, -, -, -, -, -, -, e40, e41⟩ := idx_facts10 t
  funext a; apply Fin.ext
  match a with
  | ⟨0, _⟩ => show win10_4.index t (0 : Fin 2) * 1024 + 1 * p.val = 1024 * t.val + p.val; omega
  | ⟨1, _⟩ => show win10_4.index t (1 : Fin 2) * 2 + 1 * q.val = q.val; omega

/-- The embedding is one array, read through two windows. -/
theorem arr10_3_eq : Pipeline.arrRef spec10 3 = Pipeline.arrRef spec10 1 := rfl

/-- WHAT POINT t WRITES BACK: its block of rows of the step of the arrays the region found. -/
theorem flushed10_eq (c : Dev nD) (t : Fin cfg10.N) :
    (dat10 (F := Ideal) V c).flushed 4 t
      = ((cfg10.win 4).blk t).view.read (Elt Ideal)
          (step (V c (Pipeline.arrRef spec10 0)) (V c (Pipeline.arrRef spec10 1)) (V c (Pipeline.arrRef spec10 2))) := by
  show (cfg10.win 4).cut (grid10.coords t) ((dat10 (F := Ideal) V c).after 4 t) = _
  rw [after10_4, out10_4_eq]
  funext j
  obtain ⟨p, q, rfl⟩ : ∃ (p : Fin 1024) (q : Fin 2), j = ix2 p q := ⟨j 0, j 1, eq_ix2 j⟩
  show k10_pay1 (F := Ideal) (iblk10 V c 1 t) (iblk10 V c 0 t) (iblk10 V c 2 t) (iblk10 V c 3 t) (ix2 p q)
    = step (V c (Pipeline.arrRef spec10 0)) (V c (Pipeline.arrRef spec10 1)) (V c (Pipeline.arrRef spec10 2))
        (((cfg10.win 4).blk t).view.emb (ix2 p q))
  refine (k10_pay1_apply _ _ _ _ p q).trans ?_
  refine Eq.trans ?_ (congrArg (step (V c (Pipeline.arrRef spec10 0)) (V c (Pipeline.arrRef spec10 1)) (V c (Pipeline.arrRef spec10 2))) (emb10_4 t p q)).symm
  refine Eq.trans ?_ (step_apply _ _ _ _ q).symm
  have h3 : iblk10 V c 3 t (ix2 p q) = V c (Pipeline.arrRef spec10 1) (ix2 (⟨1024 * t.val + p.val, row_lt10 t p⟩ : Fin 8192) q) :=
    congrArg (V c (Pipeline.arrRef spec10 1)) (emb10_3 t p q)
  have h2 : iblk10 V c 2 t (ix2 p (0 : Fin 1)) = V c (Pipeline.arrRef spec10 2) (ix2 (⟨1024 * t.val + p.val, row_lt10 t p⟩ : Fin 8192) (0 : Fin 1)) :=
    congrArg (V c (Pipeline.arrRef spec10 2)) (emb10_2 t p)
  have h0 : ∀ k : Fin 8192, iblk10 V c 0 t (ix2 p k) = V c (Pipeline.arrRef spec10 0) (ix2 (⟨1024 * t.val + p.val, row_lt10 t p⟩ : Fin 8192) k) :=
    fun k => congrArg (V c (Pipeline.arrRef spec10 0)) (emb10_0 t p k)
  have h1 : ∀ k : Fin 8192, iblk10 V c 1 t (ix2 k q) = V c (Pipeline.arrRef spec10 1) (ix2 k q) :=
    fun k => congrArg (V c (Pipeline.arrRef spec10 1)) (emb10_1 t k q)
  rw [h3, h2]
  simp only [h0, h1]

/-- An index of the output array is in point t's block iff each coordinate is in the block's range on its axis. -/
theorem mem_blk10 (t : Fin cfg10.N) (i : S8192x2.Idx) :
    i ∈ ((cfg10.win 4).blk t).view.set
      ↔ ∀ a : Fin 2, win10_4.index t a * S1024x2.size a ≤ (i a).val ∧ (i a).val < win10_4.index t a * S1024x2.size a + S1024x2.size a := by
  show i ∈ ((View.whole main_v31).slice (win10_4.rect t)).set ↔ _
  rw [View.set_slice_whole, Rect.mem_set_unit]
  exact Iff.rfl

/-- The 8 blocks of 1024 rows cover the 8192 rows: row r is in the block of point r / 1024. -/
theorem cover10 (i : S8192x2.Idx) :
    ∃ t : Fin cfg10.N, (cfg10.win 4).flush t = true ∧ i ∈ ((cfg10.win 4).blk t).view.set := by
  have hi0 : (i 0).val < 8192 := (i 0).isLt
  have hi1 : (i 1).val < 2 := (i 1).isLt
  obtain ⟨t, ht⟩ : ∃ t : Fin cfg10.N, t.val = (i 0).val / 1024 :=
    ⟨⟨(i 0).val / 1024, by rw [show cfg10.N = 8 from N_10]; omega⟩, rfl⟩
  obtain ⟨-, -, -, -, -, -, -, -, e40, e41⟩ := idx_facts10 t
  refine ⟨t, flush10_4 t, ?_⟩
  rw [mem_blk10]
  intro a
  match a with
  | ⟨0, _⟩ =>
    show win10_4.index t (0 : Fin 2) * 1024 ≤ (i 0).val ∧ (i 0).val < win10_4.index t (0 : Fin 2) * 1024 + 1024
    omega
  | ⟨1, _⟩ =>
    show win10_4.index t (1 : Fin 2) * 2 ≤ (i 1).val ∧ (i 1).val < win10_4.index t (1 : Fin 2) * 2 + 2
    omega

/-- THE OUTPUT ARRAY after the region: the step of the arrays the region found. -/
theorem final10 (c : Dev nD) :
    (dat10 (F := Ideal) V c).arrAt 4 cfg10.N
      = step (V c (Pipeline.arrRef spec10 0)) (V c (Pipeline.arrRef spec10 1)) (V c (Pipeline.arrRef spec10 2)) :=
  (dat10 (F := Ideal) V c).arrAt_eq_of_cover 4 _ (fun t _ => flushed10_eq V c t) cover10

end Cert.KernelIdeal.Hand

end
-- ==== Proof.KerHost0.lean ====
/-
  The first host stretch writes two constant pairs, (0, 1) and (1, 0), and nothing else: every other buffer keeps what it held.
-/
import proofs.«111186_j27504970563868_1_alg».proof.Proof.Gen.KernelIdeal.Regions
import Idealize.ShloMosaic.Lib.StableHlo.Run
import Idealize.ShloMosaic.Lib.ValueIdx
import Idealize.ShloMosaic.Lib.IdealHost
import Idealize.ShloMosaic.PureOps.Ideal.Laws

set_option maxRecDepth 16384

noncomputable section

open scoped BigOperators

namespace Cert.KernelIdeal.Host

open Cert.KernelIdeal Cert.KernelIdeal.Gen
open Idealize.ShloMosaic Idealize.ShloMosaic.TcCoe Idealize.ShloMosaic.ValueIdx

variable {F : FTy → Type} [FloatOps F]

/-- The first stretch leaves every buffer other than its two constants as it was. -/
theorem hostOps0_keeps (W : Valuation τ sig (Elt F)) (r : Ref sig .tc) (h : r ∉ hostOps0_W) :
    StableHlo.after hostOps0 W (Proc.devRef .tc r) = W (Proc.devRef .tc r) :=
  StableHlo.after_of_writes_sub hostOps0 W hostOps0_writes h

theorem hostOps0_main_arg0 (W : Valuation τ sig (Elt F)) : StableHlo.after hostOps0 W (Proc.devRef .tc main_arg0) = W (Proc.devRef .tc main_arg0) :=
  hostOps0_keeps W main_arg0 (by decide)
theorem hostOps0_main_arg1 (W : Valuation τ sig (Elt F)) : StableHlo.after hostOps0 W (Proc.devRef .tc main_arg1) = W (Proc.devRef .tc main_arg1) :=
  hostOps0_keeps W main_arg1 (by decide)
theorem hostOps0_main_arg2 (W : Valuation τ sig (Elt F)) : StableHlo.after hostOps0 W (Proc.devRef .tc main_arg2) = W (Proc.devRef .tc main_arg2) :=
  hostOps0_keeps W main_arg2 (by decide)
theorem hostOps0_main_arg3 (W : Valuation τ sig (Elt F)) : StableHlo.after hostOps0 W (Proc.devRef .tc main_arg3) = W (Proc.devRef .tc main_arg3) :=
  hostOps0_keeps W main_arg3 (by decide)
theorem hostOps0_main_arg4 (W : Valuation τ sig (Elt F)) : StableHlo.after hostOps0 W (Proc.devRef .tc main_arg4) = W (Proc.devRef .tc main_arg4) :=
  hostOps0_keeps W main_arg4 (by decide)

/-- The pair (0, 1) and the pair (1, 0), as the first stretch writes them. -/
def pair01 : (⟨S2, .f32⟩ : BufTy).Contents (Elt F) := fun i => FloatOps.ofBits .f32 (lit0 (S2.rowMajor i))
def pair10 : (⟨S2, .f32⟩ : BufTy).Contents (Elt F) := fun i => FloatOps.ofBits .f32 (lit1 (S2.rowMajor i))

theorem hostOps0_main_cst (W : Valuation τ sig (Elt F)) : StableHlo.after hostOps0 W (Proc.devRef .tc main_cst) = pair01 := by
  unfold pair01
  after_results <;> rfl
theorem hostOps0_main_cst_0 (W : Valuation τ sig (Elt F)) : StableHlo.after hostOps0 W (Proc.devRef .tc main_cst_0) = pair10 := by
  unfold pair10
  after_results <;> rfl

end Cert.KernelIdeal.Host

end
-- ==== Proof.KerHost1.lean ====
/-
  The host stretch between the normalisation kernel and the first propagation step.

  It makes the column of inverse degrees, 1 / (deg + eps) with eps the word 0x322BCC77 and 1 the word 0x3F800000, from the
  degree column, and the initial embedding: the constant one half everywhere, then two row scatters — the rows named by
  the first index list set to the pair (0, 1), the rows named by the second set to the pair (1, 0) — a negative index
  counted from the end.  Nothing else that matters is written.
-/
import proofs.«111186_j27504970563868_1_alg».proof.Proof.Gen.KernelIdeal.Regions
import Idealize.ShloMosaic.Lib.StableHlo.Run
import Idealize.ShloMosaic.Lib.ValueIdx
import Idealize.ShloMosaic.Lib.IdealHost
import Idealize.ShloMosaic.PureOps.Ideal.Laws

set_option maxRecDepth 16384

noncomputable section

open scoped BigOperators

namespace Cert.KernelIdeal.Host

open Cert.KernelIdeal Cert.KernelIdeal.Gen
open Idealize.ShloMosaic Idealize.ShloMosaic.TcCoe Idealize.ShloMosaic.ValueIdx

variable {F : FTy → Type} [FloatOps F]

/-- The column of inverse degrees, from the degree column. -/
def dinvK (deg : (⟨S8192x1, .f32⟩ : BufTy).Contents (Elt F)) : (⟨S8192x1, .f32⟩ : BufTy).Contents (Elt F) :=
  Host.divf (broadcastInDim S8192x1 ![] bcast_S_S8192x1 (constant S_ .f32 0x3F800000#32))
    (addf deg (broadcastInDim S8192x1 ![] bcast_S_S8192x1 (constant S_ .f32 0x322BCC77#32)))

/-- A list of row indices with the negative ones counted from the end, as a column. -/
def wrapIdx (idx : (⟨S512, .i32⟩ : BufTy).Contents (Elt F)) : (⟨S512x1, .i32⟩ : BufTy).Contents (Elt F) :=
  broadcastInDim S512x1 ![0] bcast_S512_S512x1_0
    (select (cmpi .slt idx (broadcastInDim S512 ![] bcast_S_S512 (constantI S_ 32 0#32)))
      (addi idx (broadcastInDim S512 ![] bcast_S_S512 (constantI S_ 32 8192#32))) idx)

/-- The initial embedding, from the two constant pairs and the two index lists. -/
def E0K (c01 c10 : (⟨S2, .f32⟩ : BufTy).Contents (Elt F)) (idx1 idx2 : (⟨S512, .i32⟩ : BufTy).Contents (Elt F)) :
    (⟨S8192x2, .f32⟩ : BufTy).Contents (Elt F) :=
  Host.scatter scatter_S8192x2_S512x1_S512x2_1_0_0_1 (fun _ b => b)
    (Host.scatter scatter_S8192x2_S512x1_S512x2_1_0_0_1 (fun _ b => b)
      (broadcastInDim S8192x2 ![] bcast_S_S8192x2 (constant S_ .f32 0x3F000000#32))
      (wrapIdx (F := F) idx1) (broadcastInDim S512x2 ![1] bcast_S2_S512x2_1 c01))
    (wrapIdx (F := F) idx2) (broadcastInDim S512x2 ![1] bcast_S2_S512x2_1 c10)

/-- After the stretch the inverse-degree buffer holds dinvK of the degree column it found. -/
theorem hostOps1_main_v4 (W : Valuation τ sig (Elt F)) :
    StableHlo.after hostOps1 W (Proc.devRef .tc main_v4) = dinvK (W (Proc.devRef .tc main_v0_2)) := by
  unfold dinvK
  after_results <;> rfl

set_option maxHeartbeats 4000000 in
/-- After the stretch the embedding buffer holds E0K of the constant pairs and the index lists it found. -/
theorem hostOps1_main_v21 (W : Valuation τ sig (Elt F)) :
    StableHlo.after hostOps1 W (Proc.devRef .tc main_v21)
      = E0K (W (Proc.devRef .tc main_cst)) (W (Proc.devRef .tc main_cst_0)) (W (Proc.devRef .tc main_arg1)) (W (Proc.devRef .tc main_arg2)) := by
  unfold E0K wrapIdx
  after_results_simp

/-- The stretch leaves every buffer it does not write as it was. -/
theorem hostOps1_keeps (W : Valuation τ sig (Elt F)) (r : Ref sig .tc) (h : r ∉ hostOps1_W) :
    StableHlo.after hostOps1 W (Proc.devRef .tc r) = W (Proc.devRef .tc r) :=
  StableHlo.after_of_writes_sub hostOps1 W hostOps1_writes h

theorem hostOps1_main_v0_0 (W : Valuation τ sig (Elt F)) : StableHlo.after hostOps1 W (Proc.devRef .tc main_v0_0) = W (Proc.devRef .tc main_v0_0) :=
  hostOps1_keeps W main_v0_0 (by decide)
theorem hostOps1_main_v0_1 (W : Valuation τ sig (Elt F)) : StableHlo.after hostOps1 W (Proc.devRef .tc main_v0_1) = W (Proc.devRef .tc main_v0_1) :=
  hostOps1_keeps W main_v0_1 (by decide)
theorem hostOps1_main_v0_2 (W : Valuation τ sig (Elt F)) : StableHlo.after hostOps1 W (Proc.devRef .tc main_v0_2) = W (Proc.devRef .tc main_v0_2) :=
  hostOps1_keeps W main_v0_2 (by decide)
theorem hostOps1_main_v0_3 (W : Valuation τ sig (Elt F)) : StableHlo.after hostOps1 W (Proc.devRef .tc main_v0_3) = W (Proc.devRef .tc main_v0_3) :=
  hostOps1_keeps W main_v0_3 (by decide)
theorem hostOps1_main_arg0 (W : Valuation τ sig (Elt F)) : StableHlo.after hostOps1 W (Proc.devRef .tc main_arg0) = W (Proc.devRef .tc main_arg0) :=
  hostOps1_keeps W main_arg0 (by decide)
theorem hostOps1_main_arg1 (W : Valuation τ sig (Elt F)) : StableHlo.after hostOps1 W (Proc.devRef .tc main_arg1) = W (Proc.devRef .tc main_arg1) :=
  hostOps1_keeps W main_arg1 (by decide)
theorem hostOps1_main_arg2 (W : Valuation τ sig (Elt F)) : StableHlo.after hostOps1 W (Proc.devRef .tc main_arg2) = W (Proc.devRef .tc main_arg2) :=
  hostOps1_keeps W main_arg2 (by decide)
theorem hostOps1_main_arg3 (W : Valuation τ sig (Elt F)) : StableHlo.after hostOps1 W (Proc.devRef .tc main_arg3) = W (Proc.devRef .tc main_arg3) :=
  hostOps1_keeps W main_arg3 (by decide)
theorem hostOps1_main_arg4 (W : Valuation τ sig (Elt F)) : StableHlo.after hostOps1 W (Proc.devRef .tc main_arg4) = W (Proc.devRef .tc main_arg4) :=
  hostOps1_keeps W main_arg4 (by decide)
theorem hostOps1_main_cst (W : Valuation τ sig (Elt F)) : StableHlo.after hostOps1 W (Proc.devRef .tc main_cst) = W (Proc.devRef .tc main_cst) :=
  hostOps1_keeps W main_cst (by decide)
theorem hostOps1_main_cst_0 (W : Valuation τ sig (Elt F)) : StableHlo.after hostOps1 W (Proc.devRef .tc main_cst_0) = W (Proc.devRef .tc main_cst_0) :=
  hostOps1_keeps W main_cst_0 (by decide)

/-- The inverse degree at row r, at the extended reals: one divided by (the degree plus eps). -/
theorem dinvK_apply (d : (⟨S8192x1, .f32⟩ : BufTy).Contents (Elt Ideal)) (r : Fin 8192) :
    dinvK (F := Ideal) d (ix2 r (0 : Fin 1))
      = Ideal.div (Ideal.ofBits .f32 0x3F800000#32) (d (ix2 r (0 : Fin 1)) + Ideal.ofBits .f32 0x322BCC77#32) := rfl

end Cert.KernelIdeal.Host

end
-- ==== Proof.KerHostTail.lean ====
/-
  The host stretches after the last propagation step: the loss.

  From the final embedding E and the two index lists: the entries E[i, 1] at the first list's rows and E[i, 0] at the second
  list's rows are gathered (a negative index counted from the end); of each the logarithm of (entry + the word 0x2EDBE6FF)
  is summed over the 512 entries, divided by the word 0x44000000 and negated; the second of the two is replaced by the word
  0x3FE00000 where it differs from itself (at the extended reals, never); the two are added.  From the column msq of row sums
  of the squared mask: the word 0x3CA3D70A times (their total divided by the word 0x4C800000).  The result is the sum of the
  two terms.  No argument and none of the normalisation kernel's outputs is written.
-/
import proofs.«111186_j27504970563868_1_alg».proof.Proof.Gen.KernelIdeal.Regions
import Idealize.ShloMosaic.Lib.StableHlo.Run
import Idealize.ShloMosaic.Lib.ValueIdx
import Idealize.ShloMosaic.Lib.IdealHost
import Idealize.ShloMosaic.PureOps.Ideal.Laws

set_option maxRecDepth 16384

noncomputable section

open scoped BigOperators

namespace Cert.KernelIdeal.Host

open Cert.KernelIdeal Cert.KernelIdeal.Gen
open Idealize.ShloMosaic Idealize.ShloMosaic.TcCoe Idealize.ShloMosaic.ValueIdx

variable {F : FTy → Type} [FloatOps F]

/-- Two arrays of one shape joined along an axis: the concatenation of the pair, with the two arrays as plain arguments. -/
def cat2 {α : Type} (t : Shape) (ax : Fin t.rank) (s : Shape) (a b : s.Idx → α) (h : Shape.Concatenates [s, s] t ax) : t.Idx → α :=
  concatenate t ax [⟨s, a⟩, ⟨s, b⟩] h

theorem cat2_eq {α : Type} (t : Shape) (ax : Fin t.rank) (s : Shape) (a b : s.Idx → α) (h : Shape.Concatenates [s, s] t ax) :
    concatenate t ax [⟨s, a⟩, ⟨s, b⟩] h = cat2 t ax s a b h := rfl

/-- A list of row indices, negative ones counted from the end, paired with the constant column index col: the [512, 2]
    table of start indices of a point gather. -/
def pointIdx (idx : (⟨S512, .i32⟩ : BufTy).Contents (Elt F)) (col : BitVec 32) : (⟨S512x2, .i32⟩ : BufTy).Contents (Elt F) :=
  concatenate S512x2 1
    [⟨S512x1, broadcastInDim S512x1 ![0] bcast_S512_S512x1_0
        (select (cmpi .slt idx (broadcastInDim S512 ![] bcast_S_S512 (constantI S_ 32 0#32)))
          (addi idx (broadcastInDim S512 ![] bcast_S_S512 (constantI S_ 32 8192#32))) idx)⟩,
     ⟨S512x1, broadcastInDim S512x1 ![0] bcast_S512_S512x1_0
        (id (broadcastInDim S512 ![] bcast_S_S512 (constantI S_ 32 col)))⟩]
    concatenates_S512x1_S512x1_S512x2_d1

/-- Minus the mean of log (x + tiny) over 512 gathered entries. -/
def negMeanLog (x : (⟨S512, .f32⟩ : BufTy).Contents (Elt F)) : (⟨S_, .f32⟩ : BufTy).Contents (Elt F) :=
  Host.negf (Host.divf
    (Host.reduceAdd (Host.log (addf x (broadcastInDim S512 ![] bcast_S_S512 (constant S_ .f32 0x2EDBE6FF#32))))
      (constant S_ .f32 0x00000000#32) reducesTo_S512_S_d0 h_S_)
    (constant S_ .f32 0x44000000#32))

/-- The two log-likelihood terms added, from the final embedding and the two index lists. -/
def lplTailK (E : (⟨S8192x2, .f32⟩ : BufTy).Contents (Elt F)) (idx1 idx2 : (⟨S512, .i32⟩ : BufTy).Contents (Elt F)) :
    (⟨S_, .f32⟩ : BufTy).Contents (Elt F) :=
  addf
    (negMeanLog (F := F) (Host.gather gather_S8192x2_S512x2_S512_n_01_n_n_01_1_11 E (pointIdx (F := F) idx1 1#32)))
    (select
      (cmpf .une (negMeanLog (F := F) (Host.gather gather_S8192x2_S512x2_S512_n_01_n_n_01_1_11 E (pointIdx (F := F) idx2 0#32)))
        (negMeanLog (F := F) (Host.gather gather_S8192x2_S512x2_S512_n_01_n_n_01_1_11 E (pointIdx (F := F) idx2 0#32))))
      (constant S_ .f32 0x3FE00000#32)
      (negMeanLog (F := F) (Host.gather gather_S8192x2_S512x2_S512_n_01_n_n_01_1_11 E (pointIdx (F := F) idx2 0#32))))

/-- The regulariser, from the column of row sums of the squared mask. -/
def regK (msq : (⟨S8192x1, .f32⟩ : BufTy).Contents (Elt F)) : (⟨S_, .f32⟩ : BufTy).Contents (Elt F) :=
  mulf (constant S_ .f32 0x3CA3D70A#32)
    (Host.divf (Host.reduceAdd msq (constant S_ .f32 0x00000000#32) reducesTo_S8192x1_S_d0_1 h_S_)
      (constant S_ .f32 0x4C800000#32))

set_option maxHeartbeats 8000000 in
/-- After the three last stretches the result buffer holds the two terms added. -/
theorem tail_main_v72 (W : Valuation τ sig (Elt F)) :
    StableHlo.after hostOps11_2 (StableHlo.after hostOps11_1 (StableHlo.after hostOps11 W)) (Proc.devRef .tc main_v72)
      = addf (lplTailK (W (Proc.devRef .tc main_v31)) (W (Proc.devRef .tc main_arg1)) (W (Proc.devRef .tc main_arg2)))
          (regK (W (Proc.devRef .tc main_v0_3))) := by
  unfold lplTailK regK negMeanLog pointIdx
  simp (disch := decide) only [StableHlo.after_cons, StableHlo.after_nil, cat2_eq,
    StableHlo.nullary_result', StableHlo.unary_result', StableHlo.binary_result', StableHlo.ternary_result',
    StableHlo.nullary_result_ne', StableHlo.unary_result_ne', StableHlo.binary_result_ne', StableHlo.ternary_result_ne']
  rfl

/-- The three stretches leave every buffer none of them writes as it was. -/
theorem tail_keeps (W : Valuation τ sig (Elt F)) (r : Ref sig .tc) (h11 : r ∉ hostOps11_W) (h11_1 : r ∉ hostOps11_1_W)
    (h11_2 : r ∉ hostOps11_2_W) :
    StableHlo.after hostOps11_2 (StableHlo.after hostOps11_1 (StableHlo.after hostOps11 W)) (Proc.devRef .tc r)
      = W (Proc.devRef .tc r) :=
  (StableHlo.after_of_writes_sub hostOps11_2 _ hostOps11_2_writes h11_2).trans <|
    (StableHlo.after_of_writes_sub hostOps11_1 _ hostOps11_1_writes h11_1).trans <|
      StableHlo.after_of_writes_sub hostOps11 W hostOps11_writes h11

theorem tail_main_v0_0 (W : Valuation τ sig (Elt F)) :
    StableHlo.after hostOps11_2 (StableHlo.after hostOps11_1 (StableHlo.after hostOps11 W)) (Proc.devRef .tc main_v0_0) = W (Proc.devRef .tc main_v0_0) :=
  tail_keeps W main_v0_0 (by decide) (by decide) (by decide)
theorem tail_main_v0_1 (W : Valuation τ sig (Elt F)) :
    StableHlo.after hostOps11_2 (StableHlo.after hostOps11_1 (StableHlo.after hostOps11 W)) (Proc.devRef .tc main_v0_1) = W (Proc.devRef .tc main_v0_1) :=
  tail_keeps W main_v0_1 (by decide) (by decide) (by decide)
theorem tail_main_v0_2 (W : Valuation τ sig (Elt F)) :
    StableHlo.after hostOps11_2 (StableHlo.after hostOps11_1 (StableHlo.after hostOps11 W)) (Proc.devRef .tc main_v0_2) = W (Proc.devRef .tc main_v0_2) :=
  tail_keeps W main_v0_2 (by decide) (by decide) (by decide)
theorem tail_main_v0_3 (W : Valuation τ sig (Elt F)) :
    StableHlo.after hostOps11_2 (StableHlo.after hostOps11_1 (StableHlo.after hostOps11 W)) (Proc.devRef .tc main_v0_3) = W (Proc.devRef .tc main_v0_3) :=
  tail_keeps W main_v0_3 (by decide) (by decide) (by decide)
theorem tail_main_arg0 (W : Valuation τ sig (Elt F)) :
    StableHlo.after hostOps11_2 (StableHlo.after hostOps11_1 (StableHlo.after hostOps11 W)) (Proc.devRef .tc main_arg0) = W (Proc.devRef .tc main_arg0) :=
  tail_keeps W main_arg0 (by decide) (by decide) (by decide)
theorem tail_main_arg1 (W : Valuation τ sig (Elt F)) :
    StableHlo.after hostOps11_2 (StableHlo.after hostOps11_1 (StableHlo.after hostOps11 W)) (Proc.devRef .tc main_arg1) = W (Proc.devRef .tc main_arg1) :=
  tail_keeps W main_arg1 (by decide) (by decide) (by decide)
theorem tail_main_arg2 (W : Valuation τ sig (Elt F)) :
    StableHlo.after hostOps11_2 (StableHlo.after hostOps11_1 (StableHlo.after hostOps11 W)) (Proc.devRef .tc main_arg2) = W (Proc.devRef .tc main_arg2) :=
  tail_keeps W main_arg2 (by decide) (by decide) (by decide)
theorem tail_main_arg3 (W : Valuation τ sig (Elt F)) :
    StableHlo.after hostOps11_2 (StableHlo.after hostOps11_1 (StableHlo.after hostOps11 W)) (Proc.devRef .tc main_arg3) = W (Proc.devRef .tc main_arg3) :=
  tail_keeps W main_arg3 (by decide) (by decide) (by decide)
theorem tail_main_arg4 (W : Valuation τ sig (Elt F)) :
    StableHlo.after hostOps11_2 (StableHlo.after hostOps11_1 (StableHlo.after hostOps11 W)) (Proc.devRef .tc main_arg4) = W (Proc.devRef .tc main_arg4) :=
  tail_keeps W main_arg4 (by decide) (by decide) (by decide)

/-- The regulariser at the extended reals: the word 0x3CA3D70A times ((zero plus the total of the column) divided by the
    word 0x4C800000). -/
theorem regK_apply (msq : (⟨S8192x1, .f32⟩ : BufTy).Contents (Elt Ideal)) :
    regK (F := Ideal) msq ix0
      = Ideal.ofBits .f32 0x3CA3D70A#32
        * Ideal.div (Ideal.ofBits .f32 0x00000000#32 + ∑ r : Fin 8192, msq (ix2 r (0 : Fin 1))) (Ideal.ofBits .f32 0x4C800000#32) := by
  unfold regK
  show Ideal.ofBits .f32 0x3CA3D70A#32
      * Ideal.div (Ideal.hostReduceAdd reducesTo_S8192x1_S_d0_1 msq (Ideal.ofBits .f32 0x00000000#32) ix0) (Ideal.ofBits .f32 0x4C800000#32) = _
  rw [Ideal.hostReduceAdd_total reducesTo_S8192x1_S_d0_1 (fun b => b.elim0) msq _ ix0, sum_idx2]
  refine congrArg (fun x => Ideal.ofBits .f32 0x3CA3D70A#32 * Ideal.div (Ideal.ofBits .f32 0x00000000#32 + x) (Ideal.ofBits .f32 0x4C800000#32)) ?_
  refine Finset.sum_congr rfl fun r _ => ?_
  rw [Fin.sum_univ_one]

end Cert.KernelIdeal.Host

end
-- ==== Proof.KVal.lean ====
/-
  The idealized kernel program's two results as functions of its arguments: the matrix result is what the tile region
  leaves in its first output array; the scalar result is the loss tail of the posterior after ten propagation steps —
  each step the function `step` of the bf16 matrix, the posterior before it and the reciprocal-degree column — plus
  the regulariser of the column of row sums of the squared mask.
-/
import proofs.«111186_j27504970563868_1_alg».proof.Proof.RunReads
import proofs.«111186_j27504970563868_1_alg».proof.Proof.PropVal1
import proofs.«111186_j27504970563868_1_alg».proof.Proof.PropVal2
import proofs.«111186_j27504970563868_1_alg».proof.Proof.PropVal3
import proofs.«111186_j27504970563868_1_alg».proof.Proof.PropVal4
import proofs.«111186_j27504970563868_1_alg».proof.Proof.PropVal5
import proofs.«111186_j27504970563868_1_alg».proof.Proof.PropVal6
import proofs.«111186_j27504970563868_1_alg».proof.Proof.PropVal7
import proofs.«111186_j27504970563868_1_alg».proof.Proof.PropVal8
import proofs.«111186_j27504970563868_1_alg».proof.Proof.PropVal9
import proofs.«111186_j27504970563868_1_alg».proof.Proof.PropVal10
import proofs.«111186_j27504970563868_1_alg».proof.Proof.KerHost0
import proofs.«111186_j27504970563868_1_alg».proof.Proof.KerHost1
import proofs.«111186_j27504970563868_1_alg».proof.Proof.KerHostTail

set_option maxRecDepth 16384

noncomputable section

namespace Cert.KernelIdeal.Hand

open Cert.KernelIdeal Cert.KernelIdeal.Gen Cert.KernelIdeal.Pay Cert.KernelIdeal.Host
open Idealize.ShloMosaic Idealize.ShloMosaic.TcCoe Idealize.SL.Sem
open Idealize.ShloMosaic.Pipeline (Dat)

variable (m : (ℓ : Loc nD τ sig) → Buf (Elt Ideal) ℓ)

/-! ## The tile region's four output arrays -/

/-- The bf16 copy of the matrix, the degree column and the column of row sums of the squared mask, as the tile region's
    write-backs leave them. -/
abbrev ahat16 (c : Dev nD) := (dat0 (F := Ideal) (T1 m) c).arrAt 3 cfg0.N
abbrev degcol (c : Dev nD) := (dat0 (F := Ideal) (T1 m) c).arrAt 4 cfg0.N
abbrev msqcol (c : Dev nD) := (dat0 (F := Ideal) (T1 m) c).arrAt 5 cfg0.N

theorem T1_arg (c : Dev nD) (r : Ref sig .tc) (h : r ∉ hostOps0_W) : T1 m c r = m ((c : Thread nD τ).loc r) :=
  (W1_keep m c r h).trans rfl
theorem T2_arg1 (c : Dev nD) : T2 m c main_arg1 = m ((c : Thread nD τ).loc main_arg1) :=
  (W2_of_ne m c main_arg1 (by decide)).trans (T1_arg m c main_arg1 (by decide))
theorem T2_arg2 (c : Dev nD) : T2 m c main_arg2 = m ((c : Thread nD τ).loc main_arg2) :=
  (W2_of_ne m c main_arg2 (by decide)).trans (T1_arg m c main_arg2 (by decide))
theorem T2_cst (c : Dev nD) : T2 m c main_cst = pair01 (F := Ideal) :=
  (W2_of_ne m c main_cst (by decide)).trans (hostOps0_main_cst (W0 m c))
theorem T2_cst_0 (c : Dev nD) : T2 m c main_cst_0 = pair10 (F := Ideal) :=
  (W2_of_ne m c main_cst_0 (by decide)).trans (hostOps0_main_cst_0 (W0 m c))

/-! ## After the host operations between the tile region and the first propagation region -/

theorem T3_ahat16 (c : Dev nD) : T3 m c main_v0_1 = ahat16 m c :=
  (hostOps1_main_v0_1 (W2 m c)).trans (W2_arr m c 3)
theorem T3_msq (c : Dev nD) : T3 m c main_v0_3 = msqcol m c :=
  (hostOps1_main_v0_3 (W2 m c)).trans (W2_arr m c 5)
theorem T3_dinv (c : Dev nD) : T3 m c main_v4 = dinvK (F := Ideal) (degcol m c) :=
  (hostOps1_main_v4 (W2 m c)).trans (congrArg (dinvK (F := Ideal)) (W2_arr m c 4))
theorem T3_arg1 (c : Dev nD) : T3 m c main_arg1 = m ((c : Thread nD τ).loc main_arg1) :=
  (hostOps1_main_arg1 (W2 m c)).trans (T2_arg1 m c)
theorem T3_arg2 (c : Dev nD) : T3 m c main_arg2 = m ((c : Thread nD τ).loc main_arg2) :=
  (hostOps1_main_arg2 (W2 m c)).trans (T2_arg2 m c)

/-- The posterior after `n` propagation steps. -/
def Ek (c : Dev nD) : ℕ → Vec Ideal ⟨2, ![8192, 2]⟩ .f32
  | 0 => E0K (F := Ideal) (pair01 (F := Ideal)) (pair10 (F := Ideal)) (m ((c : Thread nD τ).loc main_arg1)) (m ((c : Thread nD τ).loc main_arg2))
  | n + 1 => step (ahat16 m c) (Ek c n) (dinvK (F := Ideal) (degcol m c))

theorem T3_E0 (c : Dev nD) : T3 m c main_v21 = Ek m c 0 := by
  have h := hostOps1_main_v21 (F := Ideal) (W2 m c)
  rw [show W2 m c (Proc.devRef .tc main_cst) = pair01 (F := Ideal) from T2_cst m c,
    show W2 m c (Proc.devRef .tc main_cst_0) = pair10 (F := Ideal) from T2_cst_0 m c,
    show W2 m c (Proc.devRef .tc main_arg1) = m ((c : Thread nD τ).loc main_arg1) from T2_arg1 m c,
    show W2 m c (Proc.devRef .tc main_arg2) = m ((c : Thread nD τ).loc main_arg2) from T2_arg2 m c] at h
  exact h

/-! ## Through the ten propagation regions -/

theorem T4_keep (c : Dev nD) (r : Ref sig .tc) (hn : ∀ x ∈ stepOuts, r ≠ x) : T4 m c r = T3 m c r :=
  (T4_of_ne m c r (hn main_v22 (by decide)))
theorem T5_keep (c : Dev nD) (r : Ref sig .tc) (hn : ∀ x ∈ stepOuts, r ≠ x) : T5 m c r = T3 m c r :=
  (T5_of_ne m c r (hn main_v23 (by decide))).trans (T4_keep m c r hn)
theorem T6_keep (c : Dev nD) (r : Ref sig .tc) (hn : ∀ x ∈ stepOuts, r ≠ x) : T6 m c r = T3 m c r :=
  (T6_of_ne m c r (hn main_v24 (by decide))).trans (T5_keep m c r hn)
theorem T7_keep (c : Dev nD) (r : Ref sig .tc) (hn : ∀ x ∈ stepOuts, r ≠ x) : T7 m c r = T3 m c r :=
  (T7_of_ne m c r (hn main_v25 (by decide))).trans (T6_keep m c r hn)
theorem T8_keep (c : Dev nD) (r : Ref sig .tc) (hn : ∀ x ∈ stepOuts, r ≠ x) : T8 m c r = T3 m c r :=
  (T8_of_ne m c r (hn main_v26 (by decide))).trans (T7_keep m c r hn)
theorem T9_keep (c : Dev nD) (r : Ref sig .tc) (hn : ∀ x ∈ stepOuts, r ≠ x) : T9 m c r = T3 m c r :=
  (T9_of_ne m c r (hn main_v27 (by decide))).trans (T8_keep m c r hn)
theorem T10_keep (c : Dev nD) (r : Ref sig .tc) (hn : ∀ x ∈ stepOuts, r ≠ x) : T10 m c r = T3 m c r :=
  (T10_of_ne m c r (hn main_v28 (by decide))).trans (T9_keep m c r hn)
theorem T11_keep (c : Dev nD) (r : Ref sig .tc) (hn : ∀ x ∈ stepOuts, r ≠ x) : T11 m c r = T3 m c r :=
  (T11_of_ne m c r (hn main_v29 (by decide))).trans (T10_keep m c r hn)
theorem T12_keep (c : Dev nD) (r : Ref sig .tc) (hn : ∀ x ∈ stepOuts, r ≠ x) : T12 m c r = T3 m c r :=
  (T12_of_ne m c r (hn main_v30 (by decide))).trans (T11_keep m c r hn)
theorem T13_keep (c : Dev nD) (r : Ref sig .tc) (hn : ∀ x ∈ stepOuts, r ≠ x) : T13 m c r = T3 m c r :=
  (T13_of_ne m c r (hn main_v31 (by decide))).trans (T12_keep m c r hn)

/-- After region 1 the new posterior's buffer holds 1 propagation step of the initial posterior. -/
theorem E_at1 (c : Dev nD) : T4 m c main_v22 = Ek m c 1 := by
  have h0 : T3 m c (Pipeline.arrRef spec1 0) = ahat16 m c := T3_ahat16 m c
  have h1 : T3 m c (Pipeline.arrRef spec1 1) = Ek m c 0 := T3_E0 m c
  have h2 : T3 m c (Pipeline.arrRef spec1 2) = dinvK (F := Ideal) (degcol m c) := T3_dinv m c
  rw [T4_new m c, final1 (T3 m) c, h0, h1, h2]
  rfl

/-- After region 2 the new posterior's buffer holds 2 propagation steps of the initial posterior. -/
theorem E_at2 (c : Dev nD) : T5 m c main_v23 = Ek m c 2 := by
  have h0 : T4 m c (Pipeline.arrRef spec2 0) = ahat16 m c := (T4_keep m c main_v0_1 (fun x hx => by revert x; decide)).trans (T3_ahat16 m c)
  have h1 : T4 m c (Pipeline.arrRef spec2 1) = Ek m c 1 := E_at1 m c
  have h2 : T4 m c (Pipeline.arrRef spec2 2) = dinvK (F := Ideal) (degcol m c) := (T4_keep m c main_v4 (fun x hx => by revert x; decide)).trans (T3_dinv m c)
  rw [T5_new m c, final2 (T4 m) c, h0, h1, h2]
  rfl

/-- After region 3 the new posterior's buffer holds 3 propagation steps of the initial posterior. -/
theorem E_at3 (c : Dev nD) : T6 m c main_v24 = Ek m c 3 := by
  have h0 : T5 m c (Pipeline.arrRef spec3 0) = ahat16 m c := (T5_keep m c main_v0_1 (fun x hx => by revert x; decide)).trans (T3_ahat16 m c)
  have h1 : T5 m c (Pipeline.arrRef spec3 1) = Ek m c 2 := E_at2 m c
  have h2 : T5 m c (Pipeline.arrRef spec3 2) = dinvK (F := Ideal) (degcol m c) := (T5_keep m c main_v4 (fun x hx => by revert x; decide)).trans (T3_dinv m c)
  rw [T6_new m c, final3 (T5 m) c, h0, h1, h2]
  rfl

/-- After region 4 the new posterior's buffer holds 4 propagation steps of the initial posterior. -/
theorem E_at4 (c : Dev nD) : T7 m c main_v25 = Ek m c 4 := by
  have h0 : T6 m c (Pipeline.arrRef spec4 0) = ahat16 m c := (T6_keep m c main_v0_1 (fun x hx => by revert x; decide)).trans (T3_ahat16 m c)
  have h1 : T6 m c (Pipeline.arrRef spec4 1) = Ek m c 3 := E_at3 m c
  have h2 : T6 m c (Pipeline.arrRef spec4 2) = dinvK (F := Ideal) (degcol m c) := (T6_keep m c main_v4 (fun x hx => by revert x; decide)).trans (T3_dinv m c)
  rw [T7_new m c, final4 (T6 m) c, h0, h1, h2]
  rfl

/-- After region 5 the new posterior's buffer holds 5 propagation steps of the initial posterior. -/
theorem E_at5 (c : Dev nD) : T8 m c main_v26 = Ek m c 5 := by
  have h0 : T7 m c (Pipeline.arrRef spec5 0) = ahat16 m c := (T7_keep m c main_v0_1 (fun x hx => by revert x; decide)).trans (T3_ahat16 m c)
  have h1 : T7 m c (Pipeline.arrRef spec5 1) = Ek m c 4 := E_at4 m c
  have h2 : T7 m c (Pipeline.arrRef spec5 2) = dinvK (F := Ideal) (degcol m c) := (T7_keep m c main_v4 (fun x hx => by revert x; decide)).trans (T3_dinv m c)
  rw [T8_new m c, final5 (T7 m) c, h0, h1, h2]
  rfl

/-- After region 6 the new posterior's buffer holds 6 propagation steps of the initial posterior. -/
theorem E_at6 (c : Dev nD) : T9 m c main_v27 = Ek m c 6 := by
  have h0 : T8 m c (Pipeline.arrRef spec6 0) = ahat16 m c := (T8_keep m c main_v0_1 (fun x hx => by revert x; decide)).trans (T3_ahat16 m c)
  have h1 : T8 m c (Pipeline.arrRef spec6 1) = Ek m c 5 := E_at5 m c
  have h2 : T8 m c (Pipeline.arrRef spec6 2) = dinvK (F := Ideal) (degcol m c) := (T8_keep m c main_v4 (fun x hx => by revert x; decide)).trans (T3_dinv m c)
  rw [T9_new m c, final6 (T8 m) c, h0, h1, h2]
  rfl

/-- After region 7 the new posterior's buffer holds 7 propagation steps of the initial posterior. -/
theorem E_at7 (c : Dev nD) : T10 m c main_v28 = Ek m c 7 := by
  have h0 : T9 m c (Pipeline.arrRef spec7 0) = ahat16 m c := (T9_keep m c main_v0_1 (fun x hx => by revert x; decide)).trans (T3_ahat16 m c)
  have h1 : T9 m c (Pipeline.arrRef spec7 1) = Ek m c 6 := E_at6 m c
  have h2 : T9 m c (Pipeline.arrRef spec7 2) = dinvK (F := Ideal) (degcol m c) := (T9_keep m c main_v4 (fun x hx => by revert x; decide)).trans (T3_dinv m c)
  rw [T10_new m c, final7 (T9 m) c, h0, h1, h2]
  rfl

/-- After region 8 the new posterior's buffer holds 8 propagation steps of the initial posterior. -/
theorem E_at8 (c : Dev nD) : T11 m c main_v29 = Ek m c 8 := by
  have h0 : T10 m c (Pipeline.arrRef spec8 0) = ahat16 m c := (T10_keep m c main_v0_1 (fun x hx => by revert x; decide)).trans (T3_ahat16 m c)
  have h1 : T10 m c (Pipeline.arrRef spec8 1) = Ek m c 7 := E_at7 m c
  have h2 : T10 m c (Pipeline.arrRef spec8 2) = dinvK (F := Ideal) (degcol m c) := (T10_keep m c main_v4 (fun x hx => by revert x; decide)).trans (T3_dinv m c)
  rw [T11_new m c, final8 (T10 m) c, h0, h1, h2]
  rfl

/-- After region 9 the new posterior's buffer holds 9 propagation steps of the initial posterior. -/
theorem E_at9 (c : Dev nD) : T12 m c main_v30 = Ek m c 9 := by
  have h0 : T11 m c (Pipeline.arrRef spec9 0) = ahat16 m c := (T11_keep m c main_v0_1 (fun x hx => by revert x; decide)).trans (T3_ahat16 m c)
  have h1 : T11 m c (Pipeline.arrRef spec9 1) = Ek m c 8 := E_at8 m c
  have h2 : T11 m c (Pipeline.arrRef spec9 2) = dinvK (F := Ideal) (degcol m c) := (T11_keep m c main_v4 (fun x hx => by revert x; decide)).trans (T3_dinv m c)
  rw [T12_new m c, final9 (T11 m) c, h0, h1, h2]
  rfl

/-- After region 10 the new posterior's buffer holds 10 propagation steps of the initial posterior. -/
theorem E_at10 (c : Dev nD) : T13 m c main_v31 = Ek m c 10 := by
  have h0 : T12 m c (Pipeline.arrRef spec10 0) = ahat16 m c := (T12_keep m c main_v0_1 (fun x hx => by revert x; decide)).trans (T3_ahat16 m c)
  have h1 : T12 m c (Pipeline.arrRef spec10 1) = Ek m c 9 := E_at9 m c
  have h2 : T12 m c (Pipeline.arrRef spec10 2) = dinvK (F := Ideal) (degcol m c) := (T12_keep m c main_v4 (fun x hx => by revert x; decide)).trans (T3_dinv m c)
  rw [T13_new m c, final10 (T12 m) c, h0, h1, h2]
  rfl

/-! ## The scalar result -/

/-- The scalar result's buffer ends at the loss tail of the posterior after ten steps plus the regulariser. -/
theorem W16_main_v72 (c : Dev nD) :
    W16 m c main_v72 = (addf (F := Ideal) (s := S_) (φ := .f32) (lplTailK (F := Ideal) (Ek m c 10) (m ((c : Thread nD τ).loc main_arg1)) (m ((c : Thread nD τ).loc main_arg2)))
      (regK (F := Ideal) (msqcol m c)) : (⟨S_, .f32⟩ : BufTy).Contents (Elt Ideal)) := by
  have h := tail_main_v72 (F := Ideal) (W13 m c)
  rw [show W13 m c (Proc.devRef .tc main_v31) = Ek m c 10 from E_at10 m c,
    show W13 m c (Proc.devRef .tc main_arg1) = m ((c : Thread nD τ).loc main_arg1) from (T13_keep m c main_arg1 (fun x hx => by revert x; decide)).trans (T3_arg1 m c),
    show W13 m c (Proc.devRef .tc main_arg2) = m ((c : Thread nD τ).loc main_arg2) from (T13_keep m c main_arg2 (fun x hx => by revert x; decide)).trans (T3_arg2 m c),
    show W13 m c (Proc.devRef .tc main_v0_3) = msqcol m c from (T13_keep m c main_v0_3 (fun x hx => by revert x; decide)).trans (T3_msq m c)] at h
  exact h

end Cert.KernelIdeal.Hand

end
-- ==== Proof.RefStages.lean ====
/-
  The reference computation, stage by stage, as functions of plain arrays.

  With N = 8192 nodes and two index lists of 512 entries: the adjacency with self loops `Asl A = A + I` (the identity built
  by comparing a row counter with a column counter), its row sums `deg A`, the inverse degrees `dinv A = 1 / (deg A + ε)`,
  the masked adjacency `Ahat A M = M * (A + I)`; the initial posteriors `E0`: one half everywhere, then the rows listed by
  the first index list set to (0, 1) and the rows listed by the second set to (1, 0) (a negative index counts from the
  end); one propagation `step`: E ↦ ½·E + ½·(dinv · (Ahat · E)); the loss tail `lplTail`: gather column 1 at the first
  list and column 0 at the second, minus the mean of log (p + ε') for each, the second replaced by 1.75 where it is not
  equal to itself, and the two added; the regulariser `reg M = 0.02 · (Σ M² / N²)`; and the loss: the tail after ten
  propagations, plus the regulariser.
-/
import proofs.«111186_j27504970563868_1_alg».proof.Proof.Gen.ReferenceIdeal

noncomputable section

namespace Cert.ReferenceIdeal.Stages

open Cert.ReferenceIdeal Cert.ReferenceIdeal.Gen Idealize.ShloMosaic

variable {F : FTy → Type} [FloatOps F]

/-- The identity matrix: one where the row counter (plus a zero) equals the column counter, zero elsewhere. -/
def eye : FVec F S8192x8192 .f32 :=
  uitofp .f32 (cmpi .eq (addi (iotaInDim S8192x8192 32 0) (broadcastInDim S8192x8192 ![] bcast_S_S8192x8192 (constantI S_ 32 0#32)))
    (iotaInDim S8192x8192 32 1))

/-- The adjacency with self loops, A + I. -/
def Asl (A : FVec F S8192x8192 .f32) : FVec F S8192x8192 .f32 := addf A eye

/-- The degrees: the row sums of A + I, from zero. -/
def deg (A : FVec F S8192x8192 .f32) : FVec F S8192 .f32 :=
  Host.reduceAdd (Asl A) (constant S_ .f32 0x00000000#32) reducesTo_S8192x8192_S8192_d1 h_S_

/-- The inverse degrees, 1 / (deg + ε). -/
def dinv (A : FVec F S8192x8192 .f32) : FVec F S8192 .f32 :=
  Host.divf (broadcastInDim S8192 ![] bcast_S_S8192 (constant S_ .f32 0x3F800000#32))
    (addf (deg A) (broadcastInDim S8192 ![] bcast_S_S8192 (constant S_ .f32 0x322BCC77#32)))

/-- The masked adjacency, M * (A + I), entry by entry. -/
def Ahat (A M : FVec F S8192x8192 .f32) : FVec F S8192x8192 .f32 := mulf M (Asl A)

/-- An index list with its negative entries counted from the end: i + 8192 where i < 0. -/
def wrap (idx : IVec S512 32) : IVec S512 32 :=
  select (cmpi .slt idx (broadcastInDim S512 ![] bcast_S_S512 (constantI S_ 32 0#32)))
    (addi idx (broadcastInDim S512 ![] bcast_S_S512 (constantI S_ 32 8192#32))) idx

/-- The pair (0, 1). -/
def row01 : FVec F S2 .f32 := fun i => FloatOps.ofBits .f32 (lit0 (S2.rowMajor i))
/-- The pair (1, 0). -/
def row10 : FVec F S2 .f32 := fun i => FloatOps.ofBits .f32 (lit1 (S2.rowMajor i))

/-- The rows of `E` listed by `idx` set to the pair `row`. -/
def rowSet (E : FVec F S8192x2 .f32) (idx : IVec S512 32) (row : FVec F S2 .f32) : FVec F S8192x2 .f32 :=
  Host.scatter scatter_S8192x2_S512x1_S512x2_1_0_0_1 (fun _ b => b) E
    (broadcastInDim S512x1 ![0] bcast_S512_S512x1_0 (wrap idx)) (broadcastInDim S512x2 ![1] bcast_S2_S512x2_1 row)

/-- The initial posteriors: one half everywhere, rows of the first list (0, 1), then rows of the second list (1, 0). -/
def E0 (idx1 idx2 : IVec S512 32) : FVec F S8192x2 .f32 :=
  rowSet (rowSet (broadcastInDim S8192x2 ![] bcast_S_S8192x2 (constant S_ .f32 0x3F000000#32)) idx1 row01) idx2 row10

/-- One propagation: ½·E + ½·(dinv · (Ahat · E)), the inverse degree of a row scaling that row of the product. -/
def step (ahat : FVec F S8192x8192 .f32) (dinv : FVec F S8192 .f32) (E : FVec F S8192x2 .f32) : FVec F S8192x2 .f32 :=
  addf (mulf (broadcastInDim S8192x2 ![] bcast_S_S8192x2 (constant S_ .f32 0x3F000000#32)) E)
    (mulf (broadcastInDim S8192x2 ![] bcast_S_S8192x2 (constant S_ .f32 0x3F000000#32))
      (mulf (broadcastInDim S8192x2 ![0, 1] bcast_S8192x1_S8192x2_0_1 (broadcastInDim S8192x1 ![0] bcast_S8192_S8192x1_0 dinv))
        (Host.dotGeneral dot_S8192x8192_S8192x2_S8192x2_1_0_0_1_n_n none ahat E)))

/-- The entries of `E` at the rows listed by `idx` (negative entries from the end) and the one column `col`. -/
def pick (E : FVec F S8192x2 .f32) (idx : IVec S512 32) (col : BitVec 32) : FVec F S512 .f32 :=
  Host.gather gather_S8192x2_S512x2_S512_n_01_n_n_01_1_11 E
    (concatenate S512x2 1
      [⟨S512x1, broadcastInDim S512x1 ![0] bcast_S512_S512x1_0 (wrap idx)⟩,
       ⟨S512x1, broadcastInDim S512x1 ![0] bcast_S512_S512x1_0 (id (broadcastInDim S512 ![] bcast_S_S512 (constantI S_ 32 col)))⟩]
      concatenates_S512x1_S512x1_S512x2_d1)

/-- Minus the mean over the 512 entries of log (p + ε'). -/
def meanNegLog (p : FVec F S512 .f32) : FVec F S_ .f32 :=
  Host.negf (Host.divf
    (Host.reduceAdd (Host.log (addf p (broadcastInDim S512 ![] bcast_S_S512 (constant S_ .f32 0x2EDBE6FF#32))))
      (constant S_ .f32 0x00000000#32) reducesTo_S512_S_d0 h_S_)
    (constant S_ .f32 0x44000000#32))

/-- `x`, or 1.75 where `x` is not equal to itself. -/
def nanTo (x : FVec F S_ .f32) : FVec F S_ .f32 := select (cmpf .une x x) (constant S_ .f32 0x3FE00000#32) x

/-- The loss tail: the positive term at column 1 of the first list, plus the negative term at column 0 of the second. -/
def lplTail (E : FVec F S8192x2 .f32) (idx1 idx2 : IVec S512 32) : FVec F S_ .f32 :=
  addf (meanNegLog (pick E idx1 1#32)) (nanTo (meanNegLog (pick E idx2 0#32)))

/-- The regulariser: 0.02 · (Σ M² / 8192²), the sum over all entries from zero. -/
def reg (M : FVec F S8192x8192 .f32) : FVec F S_ .f32 :=
  mulf (constant S_ .f32 0x3CA3D70A#32)
    (Host.divf (Host.reduceAdd (mulf M M) (constant S_ .f32 0x00000000#32) reducesTo_S8192x8192_S_d0_1 h_S_)
      (constant S_ .f32 0x4C800000#32))

/-- The posteriors after ten propagations. -/
def Efinal (idx1 idx2 : IVec S512 32) (A M : FVec F S8192x8192 .f32) : FVec F S8192x2 .f32 :=
  (step (Ahat A M) (dinv A))^[10] (E0 idx1 idx2)

/-- The loss: the tail after ten propagations, plus the regulariser. -/
def loss (idx1 idx2 : IVec S512 32) (A M : FVec F S8192x8192 .f32) : FVec F S_ .f32 :=
  addf (lplTail (Efinal idx1 idx2 A M) idx1 idx2) (reg M)

end Cert.ReferenceIdeal.Stages

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«111186_j27504970563868_1_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.LibLaneReduce.lean ====
/-
  Reductions along the lanes of an `[r, n]` block, read at a row.

  A kernel that keeps a quantity's index on the rows reduces over the lanes of an `[r, n]` value (axis 1), obtaining a
  vector of length `r`, and views it as an `[r, 1]` column (a sum or a maximum taken with the axis kept).  At the
  extended reals the entry of that column at row `p` is the sum, or the fold of `max` from the accumulator's value, over
  the `n` entries of row `p`; where the maximum is first taken once more against the accumulator's value broadcast (as
  a lowered softmax does), it is the `max` of that value with the fold.  General in both extents.
-/
import Idealize.ShloMosaic.PureOps.Ideal.Laws
import Idealize.ShloMosaic.Lib.ValueIdx
import Idealize.ShloMosaic.Lib.Pipeline.Value

noncomputable section

open scoped BigOperators

namespace LibLaneReduce

open Idealize.ShloMosaic Idealize.ShloMosaic.ValueIdx

variable {r n : Nat}

/-- The reduced index `p` with lane `k` put back is `(p, k)`. -/
theorem lift_lanes (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext c; apply Fin.ext
  fin_cases c <;> rfl

/-- A vector of length `r` viewed as a column `[r, 1]` reads, at `(p, 0)`, the vector at `p`: the reshape keeps the
    row-major position `p = p · 1 + 0`. -/
theorem col_apply {α : Type} (x : (⟨1, ![r]⟩ : Shape).Idx → α) (hs : (⟨1, ![r]⟩ : Shape).ShapeCasts ⟨2, ![r, 1]⟩) (p : Fin r) :
    shapeCast ⟨2, ![r, 1]⟩ x hs (ix2 p (0 : Fin 1)) = x (ix1 p) :=
  shapeCast_apply x hs _ _ (by
    rw [Shape.rowMajor_val_one, Shape.rowMajor_val_two]
    show p.val = p.val * 1 + 0
    omega)

/-- A sum along the lanes kept as a column: at row `p` the sum of row `p`. -/
theorem sumLanes_apply (V : FVec Ideal ⟨2, ![r, n]⟩ .f32) (h : (⟨2, ![r, n]⟩ : Shape).Reduces [1] (⟨1, ![r]⟩ : Shape))
    (hφ : FKind.Formats .f32) (hacc : (0x00000000#32 : BitVec 32) = 0x00000000#32)
    (hs : (⟨1, ![r]⟩ : Shape).ShapeCasts ⟨2, ![r, 1]⟩) (p : Fin r) :
    shapeCast ⟨2, ![r, 1]⟩ (multiReduction .add [1] ⟨1, ![r]⟩ V 0x00000000#32 h hφ hacc) hs (ix2 p (0 : Fin 1))
      = ∑ k : Fin n, V (ix2 p k) := by
  refine (col_apply _ hs p).trans ?_
  refine (Ideal.multiReduction_add_single V 0x00000000#32 h hφ hacc (ix1 p)).trans ?_
  exact Finset.sum_congr rfl fun k _ => congrArg V (lift_lanes h p k)

/-- A maximum along the lanes from the accumulator's value, taken once more against that value, kept as a column:
    at row `p` the `max` of that value with the fold of `max` over row `p`. -/
theorem maxLanes_apply (V : FVec Ideal ⟨2, ![r, n]⟩ .f32) (acc : BitVec 32) (h : (⟨2, ![r, n]⟩ : Shape).Reduces [1] (⟨1, ![r]⟩ : Shape))
    (hφ : FKind.Formats .f32) (hacc' : acc = FKind.maximumf.neutral .f32 hφ)
    (hs : (⟨1, ![r]⟩ : Shape).ShapeCasts ⟨2, ![r, 1]⟩) (p : Fin r) :
    shapeCast ⟨2, ![r, 1]⟩ (maximumf (broadcast ⟨1, ![r]⟩ (Scalar.ofBits .f32 acc)) (multiReduction .maximumf [1] ⟨1, ![r]⟩ V acc h hφ hacc')) hs (ix2 p (0 : Fin 1))
      = max (Ideal.ofBits .f32 acc) ((Finset.univ : Finset (Fin n)).fold max (Ideal.ofBits .f32 acc) fun k => V (ix2 p k)) := by
  refine (col_apply _ hs p).trans ?_
  refine congrArg (max (Ideal.ofBits .f32 acc)) ?_
  refine (Ideal.multiReduction_maximumf_single V acc h hφ hacc' (ix1 p)).trans ?_
  exact congrArg (fun f => Finset.fold max (Ideal.ofBits .f32 acc) f (Finset.univ : Finset (Fin n)))
    (funext fun k => congrArg V (lift_lanes h p k))

end LibLaneReduce

end
-- ==== Proof.LibHostRead.lean ====
/-
  Host reductions and a host product read at an index, on the extended reals. A host sum along the second axis of an
  [r, n] array, at row p: the initial value plus the sum over the n entries of row p. A host sum of a whole vector: the
  initial value plus the sum of its entries. A host dot_general of an [M, K] array with an [N, K] array, both contracted on
  their last axis, at (p, q): the sum over k of x[p, k] · w[q, k]. General in the extents.
-/
import Idealize.ShloMosaic.PureOps.Ideal.Laws
import Idealize.ShloMosaic.Lib.ValueIdx
import proofs.«111186_j27504970563868_1_alg».proof.Proof.LibMatmulNT
import proofs.«111186_j27504970563868_1_alg».proof.Proof.LibLaneReduce

noncomputable section

open scoped BigOperators

namespace LibHostRead

open Idealize.ShloMosaic Idealize.ShloMosaic.ValueIdx

/-- A host sum along the second axis, read at row p. -/
theorem hostRowSum_apply {r n : Nat} {u : Shape} (x : FVec Ideal ⟨2, ![r, n]⟩ .f32) (init : u.Idx → Ideal .f32)
    (h' : (⟨2, ![r, n]⟩ : Shape).ReducesTo [1] ⟨1, ![r]⟩) (hu : 0 < u.numel)
    (h : (⟨2, ![r, n]⟩ : Shape).Reduces [1] ⟨1, ![r]⟩) (p : Fin r) :
    Host.reduceAdd x init h' hu (ix1 p) = init (Shape.Idx.first hu) + ∑ k : Fin n, x (ix2 p k) := by
  show Ideal.hostReduceAdd h' x (init (Shape.Idx.first hu)) (ix1 p) = _
  rw [Ideal.hostReduceAdd_single h' h x _ (ix1 p)]
  exact congrArg (init (Shape.Idx.first hu) + ·) (Finset.sum_congr rfl fun k _ => congrArg x (LibLaneReduce.lift_lanes h p k))

/-- An index of a vector is its one coordinate. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) : ∑ i, f i = ∑ k : Fin n, f (ix1 k) :=
  (Equiv.sum_comp (idxEquiv1 (n := n)).symm f).symm

/-- A host sum of a whole vector. -/
theorem hostTotalSum_apply {n : Nat} {u : Shape} (x : FVec Ideal ⟨1, ![n]⟩ .f32) (init : u.Idx → Ideal .f32)
    (h' : (⟨1, ![n]⟩ : Shape).ReducesTo [0] ⟨0, ![]⟩) (hu : 0 < u.numel) (j : (⟨0, ![]⟩ : Shape).Idx) :
    Host.reduceAdd x init h' hu j = init (Shape.Idx.first hu) + ∑ k : Fin n, x (ix1 k) := by
  show Ideal.hostReduceAdd h' x (init (Shape.Idx.first hu)) j = _
  rw [Ideal.hostReduceAdd_total h' (fun b => b.elim0) x _ j, sum_idx1]

/-- A host product of two arrays contracted on their last axes, read at (p, q). -/
theorem dotGeneralNT_apply {M K N : Nat} {φ₁ φ₂ : FTy} (prec : Option ContractPrecision)
    (x : FVec Ideal ⟨2, ![M, K]⟩ φ₁) (w : FVec Ideal ⟨2, ![N, K]⟩ φ₂) (p : Fin M) (q : Fin N) :
    Host.dotGeneral (DotDims.transposedRhs M K N) prec x w (ix2 p q) = ∑ k : Fin K, x (ix2 p k) * w (ix2 q k) := by
  show FloatOps.dotGeneral (DotDims.transposedRhs M K N) prec .single x w (ix2 p q) = _
  rw [Ideal.dotGeneral_apply, ← Equiv.sum_comp (contrEquiv1 (DotDims.transposedRhs M K N) K rfl rfl).symm]
  refine Finset.sum_congr rfl fun k _ => ?_
  rw [LibMatmulNT.lhsIdx_eq, LibMatmulNT.rhsIdx_eq]

end LibHostRead

end
-- ==== Proof.RefReads.lean ====
/-
  The stages of the reference computation read at an index, on the extended reals.

  Entry (r, k) of the identity the computation builds is 1 on the diagonal and 0 off it; so entry (r, k) of the masked
  adjacency is M[r,k] · (A[r,k] + [r = k]), the degree of row r is the sum over k of A[r,k] + [r = k], the inverse degree
  is 1 / (deg + ε) in the host's division, one propagation at (r, q) is ½·E[r,q] + ½·(dinv[r] · Σ_k Ahat[r,k] · E[k,q]),
  and the regulariser is 0.02 · ((Σ_{r,k} M[r,k]²) / 8192²).
-/
import proofs.«111186_j27504970563868_1_alg».proof.Proof.RefStages
import proofs.«111186_j27504970563868_1_alg».proof.Proof.LibDotGeneralNN
import proofs.«111186_j27504970563868_1_alg».proof.Proof.LibHostRead
import Idealize.ShloMosaic.PureOps.Ideal.Laws
import Idealize.ShloMosaic.Lib.ValueIdx
import Idealize.ShloMosaic.Lib.Pipeline.Value

noncomputable section

open scoped BigOperators

namespace Cert.ReferenceIdeal.StageReads

open Cert.ReferenceIdeal Cert.ReferenceIdeal.Gen Cert.ReferenceIdeal.Stages Idealize.ShloMosaic Idealize.ShloMosaic.ValueIdx

/-- The word 0x3F800000 is the number one. -/
theorem one_word : Ideal.ofBits .f32 0x3F800000#32 = 1 := by
  simp [Ideal.ofBits, Ideal.ieee]
  norm_cast; norm_num

/-- Two naturals below 2³² with the same 32-bit word are equal. -/
theorem ofNat32_inj {a b : Nat} (ha : a < 2 ^ 32) (hb : b < 2 ^ 32) (h : BitVec.ofNat 32 a = BitVec.ofNat 32 b) : a = b := by
  have h' := congrArg BitVec.toNat h
  rw [BitVec.toNat_ofNat, BitVec.toNat_ofNat, Nat.mod_eq_of_lt ha, Nat.mod_eq_of_lt hb] at h'
  exact h'

/-- The identity at (r, k): one on the diagonal, zero off it. -/
theorem eye_apply (r k : Fin 8192) : eye (F := Ideal) (ix2 r k) = if r = k then 1 else 0 := by
  show FloatOps.uitofp (F := Ideal) .f32 (IntOp.cmpi .eq (IntOp.addi (BitVec.ofNat 32 r.val) 0#32) (BitVec.ofNat 32 k.val)) = _
  show (((IntOp.cmpi .eq (IntOp.addi (BitVec.ofNat 32 r.val) 0#32) (BitVec.ofNat 32 k.val)).toNat : ℝ) : EReal) = _
  unfold IntOp.cmpi IntOp.addi
  by_cases h : r = k
  · subst h; simp
  · have hne : BitVec.ofNat 32 r.val ≠ BitVec.ofNat 32 k.val := fun e =>
      h (Fin.ext (ofNat32_inj (by have := r.isLt; omega) (by have := k.isLt; omega) e))
    simp [h, hne]

/-- The adjacency with self loops at (r, k). -/
theorem Asl_apply (A : FVec Ideal S8192x8192 .f32) (r k : Fin 8192) :
    Asl A (ix2 r k) = A (ix2 r k) + if r = k then 1 else 0 := by
  show A (ix2 r k) + eye (F := Ideal) (ix2 r k) = _
  rw [eye_apply]

/-- The masked adjacency at (r, k): the mask entry times the adjacency entry plus the identity entry. -/
theorem Ahat_apply (A M : FVec Ideal S8192x8192 .f32) (r k : Fin 8192) :
    Ahat A M (ix2 r k) = M (ix2 r k) * (A (ix2 r k) + if r = k then 1 else 0) := by
  show M (ix2 r k) * Asl A (ix2 r k) = _
  rw [Asl_apply]

/-- The degree of row r: the sum over the row of the adjacency entry plus the identity entry. -/
theorem deg_apply (A : FVec Ideal S8192x8192 .f32) (r : Fin 8192) :
    deg A (ix1 r) = ∑ k : Fin 8192, (A (ix2 r k) + if r = k then 1 else 0) := by
  unfold deg
  rw [LibHostRead.hostRowSum_apply (Asl A) _ reducesTo_S8192x8192_S8192_d1 h_S_ (by decide) r]
  show Ideal.ofBits .f32 0x00000000#32 + _ = _
  rw [Ideal.ofBits_zero_f32, zero_add]
  exact Finset.sum_congr rfl fun k _ => Asl_apply A r k

/-- The inverse degree of row r: the host's quotient of one by the degree plus ε. -/
theorem dinv_apply (A : FVec Ideal S8192x8192 .f32) (r : Fin 8192) :
    dinv A (ix1 r) = Ideal.div (Ideal.ofBits .f32 0x3F800000#32) (deg A (ix1 r) + Ideal.ofBits .f32 0x322BCC77#32) := rfl

/-- A vector spread along the rows of an [8192, 2] array (through an [8192, 1] column) reads, at (r, q), the vector at r. -/
theorem rowSpread_apply (d : FVec Ideal S8192 .f32) (r : Fin 8192) (q : Fin 2) :
    broadcastInDim S8192x2 ![0, 1] bcast_S8192x1_S8192x2_0_1 (broadcastInDim S8192x1 ![0] bcast_S8192_S8192x1_0 d) (ix2 r q)
      = d (ix1 r) := by
  rw [broadcastInDim_apply _ _ _ _ (ix2 r (0 : Fin 1)) (by intro a; match a with | ⟨0, _⟩ => rfl | ⟨1, _⟩ => rfl)]
  rw [broadcastInDim_apply _ _ _ _ (ix1 r) (by intro a; match a with | ⟨0, _⟩ => rfl)]

/-- The product of an [8192, 8192] array with an [8192, 2] array at (r, q): the sum over k of the products. -/
theorem dot_apply (ahat : FVec Ideal S8192x8192 .f32) (E : FVec Ideal S8192x2 .f32) (r : Fin 8192) (q : Fin 2) :
    Host.dotGeneral dot_S8192x8192_S8192x2_S8192x2_1_0_0_1_n_n none ahat E (ix2 r q)
      = ∑ k : Fin 8192, ahat (ix2 r k) * E (ix2 k q) :=
  LibDotGeneralNN.dotGeneral_apply 8192 8192 2 none .single ahat E r q

/-- One propagation at (r, q): half the entry, plus half of the inverse degree of row r times row r of the masked
    adjacency against column q. -/
theorem step_apply (ahat : FVec Ideal S8192x8192 .f32) (dv : FVec Ideal S8192 .f32) (E : FVec Ideal S8192x2 .f32)
    (r : Fin 8192) (q : Fin 2) :
    step ahat dv E (ix2 r q)
      = Ideal.ofBits .f32 0x3F000000#32 * E (ix2 r q)
        + Ideal.ofBits .f32 0x3F000000#32 * (dv (ix1 r) * ∑ k : Fin 8192, ahat (ix2 r k) * E (ix2 k q)) := by
  unfold step
  show Ideal.ofBits .f32 0x3F000000#32 * E (ix2 r q)
      + Ideal.ofBits .f32 0x3F000000#32
        * (broadcastInDim S8192x2 ![0, 1] bcast_S8192x1_S8192x2_0_1 (broadcastInDim S8192x1 ![0] bcast_S8192_S8192x1_0 dv) (ix2 r q)
          * Host.dotGeneral dot_S8192x8192_S8192x2_S8192x2_1_0_0_1_n_n none ahat E (ix2 r q)) = _
  rw [rowSpread_apply, dot_apply]

/-- The regulariser: 0.02 times the host's quotient of the sum of all squared mask entries by 8192². -/
theorem reg_apply (M : FVec Ideal S8192x8192 .f32) (j : S_.Idx) :
    reg M j = Ideal.ofBits .f32 0x3CA3D70A#32
      * Ideal.div (∑ r : Fin 8192, ∑ k : Fin 8192, M (ix2 r k) * M (ix2 r k)) (Ideal.ofBits .f32 0x4C800000#32) := by
  have hsum : Host.reduceAdd (mulf M M) (constant (F := Ideal) S_ .f32 0x00000000#32) reducesTo_S8192x8192_S_d0_1 h_S_ j
      = ∑ r : Fin 8192, ∑ k : Fin 8192, M (ix2 r k) * M (ix2 r k) := by
    show Ideal.hostReduceAdd reducesTo_S8192x8192_S_d0_1 (mulf M M) (Ideal.ofBits .f32 0x00000000#32) j = _
    rw [Ideal.hostReduceAdd_total _ (fun b => b.elim0), Ideal.ofBits_zero_f32, zero_add, sum_idx2]
    rfl
  unfold reg
  show Ideal.ofBits .f32 0x3CA3D70A#32
      * Ideal.div (Host.reduceAdd (mulf M M) (constant (F := Ideal) S_ .f32 0x00000000#32) reducesTo_S8192x8192_S_d0_1 h_S_ j)
          (Ideal.ofBits .f32 0x4C800000#32) = _
  rw [hsum]

/-- The masked adjacency at (r, k), the identity entry written with the word of the number one. -/
theorem Ahat_apply_word (A M : FVec Ideal S8192x8192 .f32) (r k : Fin 8192) :
    Ahat A M (ix2 r k) = M (ix2 r k) * (A (ix2 r k) + if r = k then Ideal.ofBits .f32 0x3F800000#32 else 0) := by
  rw [Ahat_apply, one_word]

/-- The degree of row r, the identity entry written with the word of the number one. -/
theorem deg_apply_word (A : FVec Ideal S8192x8192 .f32) (r : Fin 8192) :
    deg A (ix1 r) = ∑ k : Fin 8192, (A (ix2 r k) + if r = k then Ideal.ofBits .f32 0x3F800000#32 else 0) := by
  rw [deg_apply, one_word]

end Cert.ReferenceIdeal.StageReads

end
-- ==== Proof.Bridge.lean ====
/-
  The kernel-side stages and the reference-side stages are the same arrays, entry by entry on the extended reals.

  An array whose entry (r, k) is M[r,k] · (A[r,k] + [r = k]) is the masked adjacency. A propagation step written with the
  masked adjacency in a narrower float format and the inverse degrees as a column is the reference's step, once the
  narrower array agrees entry by entry with the reference's and the column with the reference's vector; so are their
  tenfold iterates. The inverse-degree column made from a column of row sums Σ_k (A[r,k] + [r = k]) is the reference's
  inverse-degree vector, row by row.
-/
import proofs.«111186_j27504970563868_1_alg».proof.Proof.RefReads
import proofs.«111186_j27504970563868_1_alg».proof.Proof.PropStep
import proofs.«111186_j27504970563868_1_alg».proof.Proof.KerHost1

noncomputable section

open scoped BigOperators

namespace Cert.Bridge

open Idealize.ShloMosaic Idealize.ShloMosaic.ValueIdx
open Cert.ReferenceIdeal.Stages Cert.ReferenceIdeal.StageReads

/-- An [8192, 8192] array with entries M[r,k] · (A[r,k] + [r = k]) — the diagonal entry of the identity written as
    the word of one, the others as the zero word — is the masked adjacency of A and M. -/
theorem ahat_of_entries (A M X : FVec Ideal ⟨2, ![8192, 8192]⟩ .f32)
    (h : ∀ r k : Fin 8192, X (ix2 r k)
        = M (ix2 r k) * (A (ix2 r k) + (if r = k then Ideal.ofBits .f32 0x3F800000#32 else Ideal.ofBits .f32 0x00000000#32))) :
    X = Ahat A M := by
  funext i
  obtain ⟨r, k, rfl⟩ : ∃ (r k : Fin 8192), i = ix2 r k := ⟨i 0, i 1, eq_ix2 i⟩
  rw [h, Ahat_apply_word, Ideal.ofBits_zero_f32]

/-- One propagation step: with the narrow-format masked adjacency equal entry by entry to the reference's, and the
    inverse-degree column equal row by row to the reference's vector, the two steps of any E are the same array. -/
theorem step_eq (Ah16 : Vec Ideal ⟨2, ![8192, 8192]⟩ .bf16) (ahat : FVec Ideal ⟨2, ![8192, 8192]⟩ .f32)
    (dcol : Vec Ideal ⟨2, ![8192, 1]⟩ .f32) (dvec : FVec Ideal ⟨1, ![8192]⟩ .f32)
    (hA : ∀ r k : Fin 8192, (Ah16 (ix2 r k) : EReal) = ahat (ix2 r k))
    (hd : ∀ r : Fin 8192, dcol (ix2 r (0 : Fin 1)) = dvec (ix1 r)) (E : Vec Ideal ⟨2, ![8192, 2]⟩ .f32) :
    Cert.KernelIdeal.Pay.step Ah16 E dcol = step ahat dvec E := by
  funext i
  obtain ⟨r, q, rfl⟩ : ∃ (r : Fin 8192) (q : Fin 2), i = ix2 r q := ⟨i 0, i 1, eq_ix2 i⟩
  rw [Cert.KernelIdeal.Pay.step_apply, step_apply, hd]
  refine congrArg (fun s => Ideal.ofBits .f32 0x3F000000#32 * E (ix2 r q) + Ideal.ofBits .f32 0x3F000000#32 * (dvec (ix1 r) * s)) ?_
  exact Finset.sum_congr rfl fun k _ => by rw [hA]

/-- Ten propagation steps agree as well. -/
theorem step_iterate_eq (Ah16 : Vec Ideal ⟨2, ![8192, 8192]⟩ .bf16) (ahat : FVec Ideal ⟨2, ![8192, 8192]⟩ .f32)
    (dcol : Vec Ideal ⟨2, ![8192, 1]⟩ .f32) (dvec : FVec Ideal ⟨1, ![8192]⟩ .f32)
    (hA : ∀ r k : Fin 8192, (Ah16 (ix2 r k) : EReal) = ahat (ix2 r k))
    (hd : ∀ r : Fin 8192, dcol (ix2 r (0 : Fin 1)) = dvec (ix1 r)) (E : Vec Ideal ⟨2, ![8192, 2]⟩ .f32) :
    (fun E' => Cert.KernelIdeal.Pay.step Ah16 E' dcol)^[10] E = (step ahat dvec)^[10] E := by
  have hf : (fun E' => Cert.KernelIdeal.Pay.step Ah16 E' dcol) = step ahat dvec := funext (step_eq Ah16 ahat dcol dvec hA hd)
  rw [hf]

/-- The inverse-degree column made from a column of row sums Σ_k (A[r,k] + [r = k]) reads, at row r, the
    reference's inverse degree of row r. -/
theorem dinv_eq (A : FVec Ideal ⟨2, ![8192, 8192]⟩ .f32) (degcol : Vec Ideal ⟨2, ![8192, 1]⟩ .f32)
    (h : ∀ r : Fin 8192, degcol (ix2 r (0 : Fin 1))
        = ∑ k : Fin 8192, (A (ix2 r k) + (if r = k then Ideal.ofBits .f32 0x3F800000#32 else Ideal.ofBits .f32 0x00000000#32)))
    (r : Fin 8192) :
    Cert.KernelIdeal.Host.dinvK (F := Ideal) degcol (ix2 r (0 : Fin 1)) = dinv A (ix1 r) := by
  rw [Cert.KernelIdeal.Host.dinvK_apply, dinv_apply, h, deg_apply_word]
  simp only [Ideal.ofBits_zero_f32]

end Cert.Bridge

end
-- ==== Proof.BridgeReg.lean ====
/-
  The regulariser made from the column of row sums of the squared mask is the reference's regulariser: both are 0.02 times
  the host's quotient of the total of all squared mask entries by 8192², the total taken row sums first on one side and
  over all index pairs on the other.
-/
import proofs.«111186_j27504970563868_1_alg».proof.Proof.RefReads
import proofs.«111186_j27504970563868_1_alg».proof.Proof.KerHostTail

noncomputable section

open scoped BigOperators

namespace Cert.Bridge

open Idealize.ShloMosaic Idealize.ShloMosaic.ValueIdx
open Cert.ReferenceIdeal.Stages Cert.ReferenceIdeal.StageReads

/-- With the column holding, at row r, the sum over k of M[r,k]², the two regularisers are the same scalar array. -/
theorem reg_eq (M : FVec Ideal ⟨2, ![8192, 8192]⟩ .f32) (msqcol : Vec Ideal ⟨2, ![8192, 1]⟩ .f32)
    (h : ∀ r : Fin 8192, msqcol (ix2 r (0 : Fin 1)) = ∑ k : Fin 8192, M (ix2 r k) * M (ix2 r k)) :
    Cert.KernelIdeal.Host.regK (F := Ideal) msqcol = reg M := by
  funext j
  rw [eq_ix0 j, Cert.KernelIdeal.Host.regK_apply, reg_apply, Ideal.ofBits_zero_f32, zero_add]
  simp only [h]

end Cert.Bridge

end
-- ==== Proof.KerRefSame.lean ====
/-
  The two programs' host stages are the same functions.

  The kernel program and the reference program print the initial embedding (one half everywhere, then the two row scatters)
  and the log-likelihood tail (two point gathers, logarithm, mean, negation, the replacement where a value differs from
  itself, the sum) as the same operations over dimension records that each program declares for itself with the same
  fields.  So the stage functions agree, by unfolding both sides.
-/
import proofs.«111186_j27504970563868_1_alg».proof.Proof.KerHost0
import proofs.«111186_j27504970563868_1_alg».proof.Proof.KerHost1
import proofs.«111186_j27504970563868_1_alg».proof.Proof.KerHostTail
import proofs.«111186_j27504970563868_1_alg».proof.Proof.RefStages

set_option maxRecDepth 16384

noncomputable section

namespace Cert.KernelIdeal.Host

open Idealize.ShloMosaic

variable {F : FTy → Type} [FloatOps F]

/-- The constant pairs are the same two literals in both programs. -/
theorem pair01_eq : (pair01 (F := F)) = Cert.ReferenceIdeal.Stages.row01 (F := F) := by
  funext i
  rfl

theorem pair10_eq : (pair10 (F := F)) = Cert.ReferenceIdeal.Stages.row10 (F := F) := by
  funext i
  rfl

/-- The initial embedding: the kernel program's stage at the two constant pairs is the reference program's stage. -/
theorem E0K_eq (idx1 idx2 : (⟨Cert.KernelIdeal.S512, .i32⟩ : BufTy).Contents (Elt F)) :
    E0K (F := F) pair01 pair10 idx1 idx2 = Cert.ReferenceIdeal.Stages.E0 (F := F) idx1 idx2 := by
  unfold E0K wrapIdx Cert.ReferenceIdeal.Stages.E0 Cert.ReferenceIdeal.Stages.rowSet Cert.ReferenceIdeal.Stages.wrap
  rw [pair01_eq, pair10_eq]
  rfl

/-- The log-likelihood tail: the kernel program's stage is the reference program's stage. -/
theorem lplTailK_eq (E : (⟨Cert.KernelIdeal.S8192x2, .f32⟩ : BufTy).Contents (Elt F))
    (idx1 idx2 : (⟨Cert.KernelIdeal.S512, .i32⟩ : BufTy).Contents (Elt F)) :
    lplTailK (F := F) E idx1 idx2 = Cert.ReferenceIdeal.Stages.lplTail (F := F) E idx1 idx2 := by
  unfold lplTailK negMeanLog pointIdx Cert.ReferenceIdeal.Stages.lplTail Cert.ReferenceIdeal.Stages.nanTo
    Cert.ReferenceIdeal.Stages.meanNegLog Cert.ReferenceIdeal.Stages.pick Cert.ReferenceIdeal.Stages.wrap
  rfl

end Cert.KernelIdeal.Host

end
-- ==== Proof.RefKeep.lean ====
/-
  Small facts about lists of host operations: a property of all elements passes to a concatenation; the buffers after a
  concatenation are those after the second list run from those after the first; and a buffer that no operation of a list
  writes keeps its contents, the written buffers being given as a list of references.
-/
import Idealize.ShloMosaic.Lib.StableHlo.Run

namespace Cert.RefLists

open Idealize.ShloMosaic Idealize.SL.Sem Idealize.ShloMosaic.StableHlo

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

variable {τ : Topo} {sig : RefSig} {Val : EltTy → Type}

/-- What the buffers hold after `l₁ ++ l₂` is what they hold after `l₂`, run from what they hold after `l₁`. -/
theorem after_app (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- The one buffer an operation writes is among the device buffers of a list of references that contains its reference. -/
theorem single_sub_map {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem h))

end Cert.RefLists
-- ==== Proof.RefOps0.lean ====
/-
  The first window of the reference program's host operations (operations 1 to 60 of 209), as a list; the
  corresponding window of the program (`main_part0`) is the straight line of this list, every operation touches TensorCore buffers only, and
  every operation determines its results.
-/
import proofs.«111186_j27504970563868_1_alg».proof.Proof.Gen.ReferenceIdeal
import proofs.«111186_j27504970563868_1_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo Cert.RefLists

variable {F : FTy → Type} [FloatOps F]

/-- Operations 1 to 60, in order. -/
abbrev ops0 : List (HloOp τ sig (Elt F)) :=
  [ StableHlo.nullary main_cst (fun i => FloatOps.ofBits .f32 (lit0 (S2.rowMajor i))),
    StableHlo.nullary main_cst_0 (fun i => FloatOps.ofBits .f32 (lit1 (S2.rowMajor i))),
    StableHlo.nullary main_v0 (iotaInDim S8192x8192 32 0),
    StableHlo.nullary main_v1 (iotaInDim S8192x8192 32 1),
    StableHlo.nullary main_c (constantI S_ 32 0#32),
    StableHlo.unary main_c main_v2 (broadcastInDim S8192x8192 ![] bcast_S_S8192x8192 : (⟨S_, .i32⟩ : BufTy).Contents (Elt F) → (⟨S8192x8192, .i32⟩ : BufTy).Contents (Elt F)),
    StableHlo.binary main_v0 main_v2 main_v3 (addi : (⟨S8192x8192, .i32⟩ : BufTy).Contents (Elt F) → (⟨S8192x8192, .i32⟩ : BufTy).Contents (Elt F) → (⟨S8192x8192, .i32⟩ : BufTy).Contents (Elt F)),
    StableHlo.binary main_v3 main_v1 main_v4 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v4 main_v5 (uitofp .f32 : (⟨S8192x8192, .i1⟩ : BufTy).Contents (Elt F) → (⟨S8192x8192, .f32⟩ : BufTy).Contents (Elt F)),
    StableHlo.binary main_arg3 main_v5 main_v6 (addf : (⟨S8192x8192, .f32⟩ : BufTy).Contents (Elt F) → (⟨S8192x8192, .f32⟩ : BufTy).Contents (Elt F) → (⟨S8192x8192, .f32⟩ : BufTy).Contents (Elt F)),
    StableHlo.nullary main_cst_1 (constant S_ .f32 0x00000000#32),
    StableHlo.binary main_v6 main_cst_1 main_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_2 (constant S_ .f32 0x322BCC77#32),
    StableHlo.unary main_cst_2 main_v8 (broadcastInDim S8192 ![] bcast_S_S8192 : (⟨S_, .f32⟩ : BufTy).Contents (Elt F) → (⟨S8192, .f32⟩ : BufTy).Contents (Elt F)),
    StableHlo.binary main_v7 main_v8 main_v9 (addf : (⟨S8192, .f32⟩ : BufTy).Contents (Elt F) → (⟨S8192, .f32⟩ : BufTy).Contents (Elt F) → (⟨S8192, .f32⟩ : BufTy).Contents (Elt F)),
    StableHlo.nullary main_cst_3 (constant S_ .f32 0x3F800000#32),
    StableHlo.unary main_cst_3 main_v10 (broadcastInDim S8192 ![] bcast_S_S8192 : (⟨S_, .f32⟩ : BufTy).Contents (Elt F) → (⟨S8192, .f32⟩ : BufTy).Contents (Elt F)),
    StableHlo.binary main_v10 main_v9 main_v11 (Host.divf : (⟨S8192, .f32⟩ : BufTy).Contents (Elt F) → (⟨S8192, .f32⟩ : BufTy).Contents (Elt F) → (⟨S8192, .f32⟩ : BufTy).Contents (Elt F)),
    StableHlo.nullary main_cst_4 (constant S_ .f32 0x3F000000#32),
    StableHlo.unary main_cst_4 main_v12 (broadcastInDim S8192x2 ![] bcast_S_S8192x2 : (⟨S_, .f32⟩ : BufTy).Contents (Elt F) → (⟨S8192x2, .f32⟩ : BufTy).Contents (Elt F)),
    StableHlo.nullary main_c_5 (constantI S_ 32 0#32),
    StableHlo.unary main_c_5 main_v13 (broadcastInDim S512 ![] bcast_S_S512 : (⟨S_, .i32⟩ : BufTy).Contents (Elt F) → (⟨S512, .i32⟩ : BufTy).Contents (Elt F)),
    StableHlo.binary main_arg1 main_v13 main_v14 (cmpi .slt : (⟨S512, .i32⟩ : BufTy).Contents (Elt F) → (⟨S512, .i32⟩ : BufTy).Contents (Elt F) → (⟨S512, .i1⟩ : BufTy).Contents (Elt F)),
    StableHlo.nullary main_c_6 (constantI S_ 32 8192#32),
    StableHlo.unary main_c_6 main_v15 (broadcastInDim S512 ![] bcast_S_S512 : (⟨S_, .i32⟩ : BufTy).Contents (Elt F) → (⟨S512, .i32⟩ : BufTy).Contents (Elt F)),
    StableHlo.binary main_arg1 main_v15 main_v16 (addi : (⟨S512, .i32⟩ : BufTy).Contents (Elt F) → (⟨S512, .i32⟩ : BufTy).Contents (Elt F) → (⟨S512, .i32⟩ : BufTy).Contents (Elt F)),
    StableHlo.ternary main_v14 main_v16 main_arg1 main_v17 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v17 main_v18 (broadcastInDim S512x1 ![0] bcast_S512_S512x1_0 : (⟨S512, .i32⟩ : BufTy).Contents (Elt F) → (⟨S512x1, .i32⟩ : BufTy).Contents (Elt F)),
    StableHlo.unary main_cst main_v19 (broadcastInDim S512x2 ![1] bcast_S2_S512x2_1 : (⟨S2, .f32⟩ : BufTy).Contents (Elt F) → (⟨S512x2, .f32⟩ : BufTy).Contents (Elt F)),
    StableHlo.ternary main_v12 main_v18 main_v19 main_v20 ((fun x i u => Host.scatter scatter_S8192x2_S512x1_S512x2_1_0_0_1 (fun _ b => b) x i u) : (⟨S8192x2, .f32⟩ : BufTy).Contents (Elt F) → (⟨S512x1, .i32⟩ : BufTy).Contents (Elt F) → (⟨S512x2, .f32⟩ : BufTy).Contents (Elt F) → (⟨S8192x2, .f32⟩ : BufTy).Contents (Elt F)),
    StableHlo.nullary main_c_7 (constantI S_ 32 0#32),
    StableHlo.unary main_c_7 main_v21 (broadcastInDim S512 ![] bcast_S_S512 : (⟨S_, .i32⟩ : BufTy).Contents (Elt F) → (⟨S512, .i32⟩ : BufTy).Contents (Elt F)),
    StableHlo.binary main_arg2 main_v21 main_v22 (cmpi .slt : (⟨S512, .i32⟩ : BufTy).Contents (Elt F) → (⟨S512, .i32⟩ : BufTy).Contents (Elt F) → (⟨S512, .i1⟩ : BufTy).Contents (Elt F)),
    StableHlo.nullary main_c_8 (constantI S_ 32 8192#32),
    StableHlo.unary main_c_8 main_v23 (broadcastInDim S512 ![] bcast_S_S512 : (⟨S_, .i32⟩ : BufTy).Contents (Elt F) → (⟨S512, .i32⟩ : BufTy).Contents (Elt F)),
    StableHlo.binary main_arg2 main_v23 main_v24 (addi : (⟨S512, .i32⟩ : BufTy).Contents (Elt F) → (⟨S512, .i32⟩ : BufTy).Contents (Elt F) → (⟨S512, .i32⟩ : BufTy).Contents (Elt F)),
    StableHlo.ternary main_v22 main_v24 main_arg2 main_v25 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v25 main_v26 (broadcastInDim S512x1 ![0] bcast_S512_S512x1_0 : (⟨S512, .i32⟩ : BufTy).Contents (Elt F) → (⟨S512x1, .i32⟩ : BufTy).Contents (Elt F)),
    StableHlo.unary main_cst_0 main_v27 (broadcastInDim S512x2 ![1] bcast_S2_S512x2_1 : (⟨S2, .f32⟩ : BufTy).Contents (Elt F) → (⟨S512x2, .f32⟩ : BufTy).Contents (Elt F)),
    StableHlo.ternary main_v20 main_v26 main_v27 main_v28 ((fun x i u => Host.scatter scatter_S8192x2_S512x1_S512x2_1_0_0_1 (fun _ b => b) x i u) : (⟨S8192x2, .f32⟩ : BufTy).Contents (Elt F) → (⟨S512x1, .i32⟩ : BufTy).Contents (Elt F) → (⟨S512x2, .f32⟩ : BufTy).Contents (Elt F) → (⟨S8192x2, .f32⟩ : BufTy).Contents (Elt F)),
    StableHlo.binary main_arg4 main_v6 main_v29 (mulf : (⟨S8192x8192, .f32⟩ : BufTy).Contents (Elt F) → (⟨S8192x8192, .f32⟩ : BufTy).Contents (Elt F) → (⟨S8192x8192, .f32⟩ : BufTy).Contents (Elt F)),
    StableHlo.unary main_v11 main_v30 (broadcastInDim S8192x1 ![0] bcast_S8192_S8192x1_0 : (⟨S8192, .f32⟩ : BufTy).Contents (Elt F) → (⟨S8192x1, .f32⟩ : BufTy).Contents (Elt F)),
    StableHlo.binary main_v29 main_v28 main_v31 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v30 main_v32 (broadcastInDim S8192x2 ![0, 1] bcast_S8192x1_S8192x2_0_1 : (⟨S8192x1, .f32⟩ : BufTy).Contents (Elt F) → (⟨S8192x2, .f32⟩ : BufTy).Contents (Elt F)),
    StableHlo.binary main_v32 main_v31 main_v33 (mulf : (⟨S8192x2, .f32⟩ : BufTy).Contents (Elt F) → (⟨S8192x2, .f32⟩ : BufTy).Contents (Elt F) → (⟨S8192x2, .f32⟩ : BufTy).Contents (Elt F)),
    StableHlo.nullary main_cst_9 (constant S_ .f32 0x3F000000#32),
    StableHlo.unary main_cst_9 main_v34 (broadcastInDim S8192x2 ![] bcast_S_S8192x2 : (⟨S_, .f32⟩ : BufTy).Contents (Elt F) → (⟨S8192x2, .f32⟩ : BufTy).Contents (Elt F)),
    StableHlo.binary main_v34 main_v28 main_v35 (mulf : (⟨S8192x2, .f32⟩ : BufTy).Contents (Elt F) → (⟨S8192x2, .f32⟩ : BufTy).Contents (Elt F) → (⟨S8192x2, .f32⟩ : BufTy).Contents (Elt F)),
    StableHlo.nullary main_cst_10 (constant S_ .f32 0x3F000000#32),
    StableHlo.unary main_cst_10 main_v36 (broadcastInDim S8192x2 ![] bcast_S_S8192x2 : (⟨S_, .f32⟩ : BufTy).Contents (Elt F) → (⟨S8192x2, .f32⟩ : BufTy).Contents (Elt F)),
    StableHlo.binary main_v36 main_v33 main_v37 (mulf : (⟨S8192x2, .f32⟩ : BufTy).Contents (Elt F) → (⟨S8192x2, .f32⟩ : BufTy).Contents (Elt F) → (⟨S8192x2, .f32⟩ : BufTy).Contents (Elt F)),
    StableHlo.binary main_v35 main_v37 main_v38 (addf : (⟨S8192x2, .f32⟩ : BufTy).Contents (Elt F) → (⟨S8192x2, .f32⟩ : BufTy).Contents (Elt F) → (⟨S8192x2, .f32⟩ : BufTy).Contents (Elt F)),
    StableHlo.unary main_v11 main_v39 (broadcastInDim S8192x1 ![0] bcast_S8192_S8192x1_0 : (⟨S8192, .f32⟩ : BufTy).Contents (Elt F) → (⟨S8192x1, .f32⟩ : BufTy).Contents (Elt F)),
    StableHlo.binary main_v29 main_v38 main_v40 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v39 main_v41 (broadcastInDim S8192x2 ![0, 1] bcast_S8192x1_S8192x2_0_1 : (⟨S8192x1, .f32⟩ : BufTy).Contents (Elt F) → (⟨S8192x2, .f32⟩ : BufTy).Contents (Elt F)),
    StableHlo.binary main_v41 main_v40 main_v42 (mulf : (⟨S8192x2, .f32⟩ : BufTy).Contents (Elt F) → (⟨S8192x2, .f32⟩ : BufTy).Contents (Elt F) → (⟨S8192x2, .f32⟩ : BufTy).Contents (Elt F)),
    StableHlo.nullary main_cst_11 (constant S_ .f32 0x3F000000#32),
    StableHlo.unary main_cst_11 main_v43 (broadcastInDim S8192x2 ![] bcast_S_S8192x2 : (⟨S_, .f32⟩ : BufTy).Contents (Elt F) → (⟨S8192x2, .f32⟩ : BufTy).Contents (Elt F)),
    StableHlo.binary main_v43 main_v38 main_v44 (mulf : (⟨S8192x2, .f32⟩ : BufTy).Contents (Elt F) → (⟨S8192x2, .f32⟩ : BufTy).Contents (Elt F) → (⟨S8192x2, .f32⟩ : BufTy).Contents (Elt F)),
    StableHlo.nullary main_cst_12 (constant S_ .f32 0x3F000000#32) ]

set_option maxRecDepth 4096 in
theorem part0_eq (c : Dev nD) : main_part0 (F := F) c = seq ops0 := rfl

theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., unary_bufs_sub .., binary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., unary_bufs_sub .., ternary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., unary_bufs_sub .., binary_bufs_sub .., nullary_bufs_sub .., unary_bufs_sub .., binary_bufs_sub .., nullary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references these operations write, in order. -/
abbrev wl0 : List (Ref sig .tc) := [main_cst, main_cst_0, main_v0, main_v1, main_c, main_v2, main_v3, main_v4, main_v5, main_v6, main_cst_1, main_v7, main_cst_2, main_v8, main_v9, main_cst_3, main_v10, main_v11, main_cst_4, main_v12, main_c_5, main_v13, main_v14, main_c_6, main_v15, main_v16, main_v17, main_v18, main_v19, main_v20, main_c_7, main_v21, main_v22, main_c_8, main_v23, main_v24, main_v25, main_v26, main_v27, main_v28, main_v29, main_v30, main_v31, main_v32, main_v33, main_cst_9, main_v34, main_v35, main_cst_10, main_v36, main_v37, main_v38, main_v39, main_v40, main_v41, main_v42, main_cst_11, main_v43, main_v44, main_cst_12]

theorem ops0_writes : (ops0 : List (HloOp τ sig (Elt F))).Forall fun op => op.writes ⊆ (wl0.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem ops0_keep {r : Ref sig .tc} (h : r ∉ wl0) (W : Valuation τ sig (Elt F)) :
    after ops0 W (Proc.devRef .tc r) = W (Proc.devRef .tc r) :=
  after_of_writes_sub ops0 W ops0_writes h

end Cert.ReferenceIdeal.RefRun

end
-- ==== Proof.RefOps1.lean ====
/-
  The second window of the reference program's host operations (operations 61 to 120 of 209), as a list; the
  corresponding window of the program (`main_part1`) is the straight line of this list, every operation touches TensorCore buffers only, and
  every operation determines its results.
-/
import proofs.«111186_j27504970563868_1_alg».proof.Proof.Gen.ReferenceIdeal
import proofs.«111186_j27504970563868_1_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo Cert.RefLists

variable {F : FTy → Type} [FloatOps F]

/-- Operations 61 to 120, in order. -/
abbrev ops1 : List (HloOp τ sig (Elt F)) :=
  [ StableHlo.unary main_cst_12 main_v45 (broadcastInDim S8192x2 ![] bcast_S_S8192x2 : (⟨S_, .f32⟩ : BufTy).Contents (Elt F) → (⟨S8192x2, .f32⟩ : BufTy).Contents (Elt F)),
    StableHlo.binary main_v45 main_v42 main_v46 (mulf : (⟨S8192x2, .f32⟩ : BufTy).Contents (Elt F) → (⟨S8192x2, .f32⟩ : BufTy).Contents (Elt F) → (⟨S8192x2, .f32⟩ : BufTy).Contents (Elt F)),
    StableHlo.binary main_v44 main_v46 main_v47 (addf : (⟨S8192x2, .f32⟩ : BufTy).Contents (Elt F) → (⟨S8192x2, .f32⟩ : BufTy).Contents (Elt F) → (⟨S8192x2, .f32⟩ : BufTy).Contents (Elt F)),
    StableHlo.unary main_v11 main_v48 (broadcastInDim S8192x1 ![0] bcast_S8192_S8192x1_0 : (⟨S8192, .f32⟩ : BufTy).Contents (Elt F) → (⟨S8192x1, .f32⟩ : BufTy).Contents (Elt F)),
    StableHlo.binary main_v29 main_v47 main_v49 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v48 main_v50 (broadcastInDim S8192x2 ![0, 1] bcast_S8192x1_S8192x2_0_1 : (⟨S8192x1, .f32⟩ : BufTy).Contents (Elt F) → (⟨S8192x2, .f32⟩ : BufTy).Contents (Elt F)),
    StableHlo.binary main_v50 main_v49 main_v51 (mulf : (⟨S8192x2, .f32⟩ : BufTy).Contents (Elt F) → (⟨S8192x2, .f32⟩ : BufTy).Contents (Elt F) → (⟨S8192x2, .f32⟩ : BufTy).Contents (Elt F)),
    StableHlo.nullary main_cst_13 (constant S_ .f32 0x3F000000#32),
    StableHlo.unary main_cst_13 main_v52 (broadcastInDim S8192x2 ![] bcast_S_S8192x2 : (⟨S_, .f32⟩ : BufTy).Contents (Elt F) → (⟨S8192x2, .f32⟩ : BufTy).Contents (Elt F)),
    StableHlo.binary main_v52 main_v47 main_v53 (mulf : (⟨S8192x2, .f32⟩ : BufTy).Contents (Elt F) → (⟨S8192x2, .f32⟩ : BufTy).Contents (Elt F) → (⟨S8192x2, .f32⟩ : BufTy).Contents (Elt F)),
    StableHlo.nullary main_cst_14 (constant S_ .f32 0x3F000000#32),
    StableHlo.unary main_cst_14 main_v54 (broadcastInDim S8192x2 ![] bcast_S_S8192x2 : (⟨S_, .f32⟩ : BufTy).Contents (Elt F) → (⟨S8192x2, .f32⟩ : BufTy).Contents (Elt F)),
    StableHlo.binary main_v54 main_v51 main_v55 (mulf : (⟨S8192x2, .f32⟩ : BufTy).Contents (Elt F) → (⟨S8192x2, .f32⟩ : BufTy).Contents (Elt F) → (⟨S8192x2, .f32⟩ : BufTy).Contents (Elt F)),
    StableHlo.binary main_v53 main_v55 main_v56 (addf : (⟨S8192x2, .f32⟩ : BufTy).Contents (Elt F) → (⟨S8192x2, .f32⟩ : BufTy).Contents (Elt F) → (⟨S8192x2, .f32⟩ : BufTy).Contents (Elt F)),
    StableHlo.unary main_v11 main_v57 (broadcastInDim S8192x1 ![0] bcast_S8192_S8192x1_0 : (⟨S8192, .f32⟩ : BufTy).Contents (Elt F) → (⟨S8192x1, .f32⟩ : BufTy).Contents (Elt F)),
    StableHlo.binary main_v29 main_v56 main_v58 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v57 main_v59 (broadcastInDim S8192x2 ![0, 1] bcast_S8192x1_S8192x2_0_1 : (⟨S8192x1, .f32⟩ : BufTy).Contents (Elt F) → (⟨S8192x2, .f32⟩ : BufTy).Contents (Elt F)),
    StableHlo.binary main_v59 main_v58 main_v60 (mulf : (⟨S8192x2, .f32⟩ : BufTy).Contents (Elt F) → (⟨S8192x2, .f32⟩ : BufTy).Contents (Elt F) → (⟨S8192x2, .f32⟩ : BufTy).Contents (Elt F)),
    StableHlo.nullary main_cst_15 (constant S_ .f32 0x3F000000#32),
    StableHlo.unary main_cst_15 main_v61 (broadcastInDim S8192x2 ![] bcast_S_S8192x2 : (⟨S_, .f32⟩ : BufTy).Contents (Elt F) → (⟨S8192x2, .f32⟩ : BufTy).Contents (Elt F)),
    StableHlo.binary main_v61 main_v56 main_v62 (mulf : (⟨S8192x2, .f32⟩ : BufTy).Contents (Elt F) → (⟨S8192x2, .f32⟩ : BufTy).Contents (Elt F) → (⟨S8192x2, .f32⟩ : BufTy).Contents (Elt F)),
    StableHlo.nullary main_cst_16 (constant S_ .f32 0x3F000000#32),
    StableHlo.unary main_cst_16 main_v63 (broadcastInDim S8192x2 ![] bcast_S_S8192x2 : (⟨S_, .f32⟩ : BufTy).Contents (Elt F) → (⟨S8192x2, .f32⟩ : BufTy).Contents (Elt F)),
    StableHlo.binary main_v63 main_v60 main_v64 (mulf : (⟨S8192x2, .f32⟩ : BufTy).Contents (Elt F) → (⟨S8192x2, .f32⟩ : BufTy).Contents (Elt F) → (⟨S8192x2, .f32⟩ : BufTy).Contents (Elt F)),
    StableHlo.binary main_v62 main_v64 main_v65 (addf : (⟨S8192x2, .f32⟩ : BufTy).Contents (Elt F) → (⟨S8192x2, .f32⟩ : BufTy).Contents (Elt F) → (⟨S8192x2, .f32⟩ : BufTy).Contents (Elt F)),
    StableHlo.unary main_v11 main_v66 (broadcastInDim S8192x1 ![0] bcast_S8192_S8192x1_0 : (⟨S8192, .f32⟩ : BufTy).Contents (Elt F) → (⟨S8192x1, .f32⟩ : BufTy).Contents (Elt F)),
    StableHlo.binary main_v29 main_v65 main_v67 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v66 main_v68 (broadcastInDim S8192x2 ![0, 1] bcast_S8192x1_S8192x2_0_1 : (⟨S8192x1, .f32⟩ : BufTy).Contents (Elt F) → (⟨S8192x2, .f32⟩ : BufTy).Contents (Elt F)),
    StableHlo.binary main_v68 main_v67 main_v69 (mulf : (⟨S8192x2, .f32⟩ : BufTy).Contents (Elt F) → (⟨S8192x2, .f32⟩ : BufTy).Contents (Elt F) → (⟨S8192x2, .f32⟩ : BufTy).Contents (Elt F)),
    StableHlo.nullary main_cst_17 (constant S_ .f32 0x3F000000#32),
    StableHlo.unary main_cst_17 main_v70 (broadcastInDim S8192x2 ![] bcast_S_S8192x2 : (⟨S_, .f32⟩ : BufTy).Contents (Elt F) → (⟨S8192x2, .f32⟩ : BufTy).Contents (Elt F)),
    StableHlo.binary main_v70 main_v65 main_v71 (mulf : (⟨S8192x2, .f32⟩ : BufTy).Contents (Elt F) → (⟨S8192x2, .f32⟩ : BufTy).Contents (Elt F) → (⟨S8192x2, .f32⟩ : BufTy).Contents (Elt F)),
    StableHlo.nullary main_cst_18 (constant S_ .f32 0x3F000000#32),
    StableHlo.unary main_cst_18 main_v72 (broadcastInDim S8192x2 ![] bcast_S_S8192x2 : (⟨S_, .f32⟩ : BufTy).Contents (Elt F) → (⟨S8192x2, .f32⟩ : BufTy).Contents (Elt F)),
    StableHlo.binary main_v72 main_v69 main_v73 (mulf : (⟨S8192x2, .f32⟩ : BufTy).Contents (Elt F) → (⟨S8192x2, .f32⟩ : BufTy).Contents (Elt F) → (⟨S8192x2, .f32⟩ : BufTy).Contents (Elt F)),
    StableHlo.binary main_v71 main_v73 main_v74 (addf : (⟨S8192x2, .f32⟩ : BufTy).Contents (Elt F) → (⟨S8192x2, .f32⟩ : BufTy).Contents (Elt F) → (⟨S8192x2, .f32⟩ : BufTy).Contents (Elt F)),
    StableHlo.unary main_v11 main_v75 (broadcastInDim S8192x1 ![0] bcast_S8192_S8192x1_0 : (⟨S8192, .f32⟩ : BufTy).Contents (Elt F) → (⟨S8192x1, .f32⟩ : BufTy).Contents (Elt F)),
    StableHlo.binary main_v29 main_v74 main_v76 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v75 main_v77 (broadcastInDim S8192x2 ![0, 1] bcast_S8192x1_S8192x2_0_1 : (⟨S8192x1, .f32⟩ : BufTy).Contents (Elt F) → (⟨S8192x2, .f32⟩ : BufTy).Contents (Elt F)),
    StableHlo.binary main_v77 main_v76 main_v78 (mulf : (⟨S8192x2, .f32⟩ : BufTy).Contents (Elt F) → (⟨S8192x2, .f32⟩ : BufTy).Contents (Elt F) → (⟨S8192x2, .f32⟩ : BufTy).Contents (Elt F)),
    StableHlo.nullary main_cst_19 (constant S_ .f32 0x3F000000#32),
    StableHlo.unary main_cst_19 main_v79 (broadcastInDim S8192x2 ![] bcast_S_S8192x2 : (⟨S_, .f32⟩ : BufTy).Contents (Elt F) → (⟨S8192x2, .f32⟩ : BufTy).Contents (Elt F)),
    StableHlo.binary main_v79 main_v74 main_v80 (mulf : (⟨S8192x2, .f32⟩ : BufTy).Contents (Elt F) → (⟨S8192x2, .f32⟩ : BufTy).Contents (Elt F) → (⟨S8192x2, .f32⟩ : BufTy).Contents (Elt F)),
    StableHlo.nullary main_cst_20 (constant S_ .f32 0x3F000000#32),
    StableHlo.unary main_cst_20 main_v81 (broadcastInDim S8192x2 ![] bcast_S_S8192x2 : (⟨S_, .f32⟩ : BufTy).Contents (Elt F) → (⟨S8192x2, .f32⟩ : BufTy).Contents (Elt F)),
    StableHlo.binary main_v81 main_v78 main_v82 (mulf : (⟨S8192x2, .f32⟩ : BufTy).Contents (Elt F) → (⟨S8192x2, .f32⟩ : BufTy).Contents (Elt F) → (⟨S8192x2, .f32⟩ : BufTy).Contents (Elt F)),
    StableHlo.binary main_v80 main_v82 main_v83 (addf : (⟨S8192x2, .f32⟩ : BufTy).Contents (Elt F) → (⟨S8192x2, .f32⟩ : BufTy).Contents (Elt F) → (⟨S8192x2, .f32⟩ : BufTy).Contents (Elt F)),
    StableHlo.unary main_v11 main_v84 (broadcastInDim S8192x1 ![0] bcast_S8192_S8192x1_0 : (⟨S8192, .f32⟩ : BufTy).Contents (Elt F) → (⟨S8192x1, .f32⟩ : BufTy).Contents (Elt F)),
    StableHlo.binary main_v29 main_v83 main_v85 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v84 main_v86 (broadcastInDim S8192x2 ![0, 1] bcast_S8192x1_S8192x2_0_1 : (⟨S8192x1, .f32⟩ : BufTy).Contents (Elt F) → (⟨S8192x2, .f32⟩ : BufTy).Contents (Elt F)),
    StableHlo.binary main_v86 main_v85 main_v87 (mulf : (⟨S8192x2, .f32⟩ : BufTy).Contents (Elt F) → (⟨S8192x2, .f32⟩ : BufTy).Contents (Elt F) → (⟨S8192x2, .f32⟩ : BufTy).Contents (Elt F)),
    StableHlo.nullary main_cst_21 (constant S_ .f32 0x3F000000#32),
    StableHlo.unary main_cst_21 main_v88 (broadcastInDim S8192x2 ![] bcast_S_S8192x2 : (⟨S_, .f32⟩ : BufTy).Contents (Elt F) → (⟨S8192x2, .f32⟩ : BufTy).Contents (Elt F)),
    StableHlo.binary main_v88 main_v83 main_v89 (mulf : (⟨S8192x2, .f32⟩ : BufTy).Contents (Elt F) → (⟨S8192x2, .f32⟩ : BufTy).Contents (Elt F) → (⟨S8192x2, .f32⟩ : BufTy).Contents (Elt F)),
    StableHlo.nullary main_cst_22 (constant S_ .f32 0x3F000000#32),
    StableHlo.unary main_cst_22 main_v90 (broadcastInDim S8192x2 ![] bcast_S_S8192x2 : (⟨S_, .f32⟩ : BufTy).Contents (Elt F) → (⟨S8192x2, .f32⟩ : BufTy).Contents (Elt F)),
    StableHlo.binary main_v90 main_v87 main_v91 (mulf : (⟨S8192x2, .f32⟩ : BufTy).Contents (Elt F) → (⟨S8192x2, .f32⟩ : BufTy).Contents (Elt F) → (⟨S8192x2, .f32⟩ : BufTy).Contents (Elt F)),
    StableHlo.binary main_v89 main_v91 main_v92 (addf : (⟨S8192x2, .f32⟩ : BufTy).Contents (Elt F) → (⟨S8192x2, .f32⟩ : BufTy).Contents (Elt F) → (⟨S8192x2, .f32⟩ : BufTy).Contents (Elt F)),
    StableHlo.unary main_v11 main_v93 (broadcastInDim S8192x1 ![0] bcast_S8192_S8192x1_0 : (⟨S8192, .f32⟩ : BufTy).Contents (Elt F) → (⟨S8192x1, .f32⟩ : BufTy).Contents (Elt F)),
    StableHlo.binary main_v29 main_v92 main_v94 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)) ]

set_option maxRecDepth 4096 in
theorem part1_eq (c : Dev nD) : main_part1 (F := F) c = seq ops1 := rfl

theorem ops1_sub : (ops1 : List (HloOp τ sig (Elt F))).Forall fun op => op.bufs ⊆ tcRefs τ sig :=
  ⟨unary_bufs_sub .., binary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references these operations write, in order. -/
abbrev wl1 : List (Ref sig .tc) := [main_v45, main_v46, main_v47, main_v48, main_v49, main_v50, main_v51, main_cst_13, main_v52, main_v53, main_cst_14, main_v54, main_v55, main_v56, main_v57, main_v58, main_v59, main_v60, main_cst_15, main_v61, main_v62, main_cst_16, main_v63, main_v64, main_v65, main_v66, main_v67, main_v68, main_v69, main_cst_17, main_v70, main_v71, main_cst_18, main_v72, main_v73, main_v74, main_v75, main_v76, main_v77, main_v78, main_cst_19, main_v79, main_v80, main_cst_20, main_v81, main_v82, main_v83, main_v84, main_v85, main_v86, main_v87, main_cst_21, main_v88, main_v89, main_cst_22, main_v90, main_v91, main_v92, main_v93, main_v94]

theorem ops1_writes : (ops1 : List (HloOp τ sig (Elt F))).Forall fun op => op.writes ⊆ (wl1.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem ops1_keep {r : Ref sig .tc} (h : r ∉ wl1) (W : Valuation τ sig (Elt F)) :
    after ops1 W (Proc.devRef .tc r) = W (Proc.devRef .tc r) :=
  after_of_writes_sub ops1 W ops1_writes h

end Cert.ReferenceIdeal.RefRun

end
-- ==== Proof.RefOps2.lean ====
/-
  The third window of the reference program's host operations (operations 121 to 180 of 209), as a list; the
  corresponding window of the program (`main_part2`) is the straight line of this list, every operation touches TensorCore buffers only, and
  every operation determines its results.
-/
import proofs.«111186_j27504970563868_1_alg».proof.Proof.Gen.ReferenceIdeal
import proofs.«111186_j27504970563868_1_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo Cert.RefLists

variable {F : FTy → Type} [FloatOps F]

/-- Operations 121 to 180, in order. -/
abbrev ops2 : List (HloOp τ sig (Elt F)) :=
  [ StableHlo.unary main_v93 main_v95 (broadcastInDim S8192x2 ![0, 1] bcast_S8192x1_S8192x2_0_1 : (⟨S8192x1, .f32⟩ : BufTy).Contents (Elt F) → (⟨S8192x2, .f32⟩ : BufTy).Contents (Elt F)),
    StableHlo.binary main_v95 main_v94 main_v96 (mulf : (⟨S8192x2, .f32⟩ : BufTy).Contents (Elt F) → (⟨S8192x2, .f32⟩ : BufTy).Contents (Elt F) → (⟨S8192x2, .f32⟩ : BufTy).Contents (Elt F)),
    StableHlo.nullary main_cst_23 (constant S_ .f32 0x3F000000#32),
    StableHlo.unary main_cst_23 main_v97 (broadcastInDim S8192x2 ![] bcast_S_S8192x2 : (⟨S_, .f32⟩ : BufTy).Contents (Elt F) → (⟨S8192x2, .f32⟩ : BufTy).Contents (Elt F)),
    StableHlo.binary main_v97 main_v92 main_v98 (mulf : (⟨S8192x2, .f32⟩ : BufTy).Contents (Elt F) → (⟨S8192x2, .f32⟩ : BufTy).Contents (Elt F) → (⟨S8192x2, .f32⟩ : BufTy).Contents (Elt F)),
    StableHlo.nullary main_cst_24 (constant S_ .f32 0x3F000000#32),
    StableHlo.unary main_cst_24 main_v99 (broadcastInDim S8192x2 ![] bcast_S_S8192x2 : (⟨S_, .f32⟩ : BufTy).Contents (Elt F) → (⟨S8192x2, .f32⟩ : BufTy).Contents (Elt F)),
    StableHlo.binary main_v99 main_v96 main_v100 (mulf : (⟨S8192x2, .f32⟩ : BufTy).Contents (Elt F) → (⟨S8192x2, .f32⟩ : BufTy).Contents (Elt F) → (⟨S8192x2, .f32⟩ : BufTy).Contents (Elt F)),
    StableHlo.binary main_v98 main_v100 main_v101 (addf : (⟨S8192x2, .f32⟩ : BufTy).Contents (Elt F) → (⟨S8192x2, .f32⟩ : BufTy).Contents (Elt F) → (⟨S8192x2, .f32⟩ : BufTy).Contents (Elt F)),
    StableHlo.unary main_v11 main_v102 (broadcastInDim S8192x1 ![0] bcast_S8192_S8192x1_0 : (⟨S8192, .f32⟩ : BufTy).Contents (Elt F) → (⟨S8192x1, .f32⟩ : BufTy).Contents (Elt F)),
    StableHlo.binary main_v29 main_v101 main_v103 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v102 main_v104 (broadcastInDim S8192x2 ![0, 1] bcast_S8192x1_S8192x2_0_1 : (⟨S8192x1, .f32⟩ : BufTy).Contents (Elt F) → (⟨S8192x2, .f32⟩ : BufTy).Contents (Elt F)),
    StableHlo.binary main_v104 main_v103 main_v105 (mulf : (⟨S8192x2, .f32⟩ : BufTy).Contents (Elt F) → (⟨S8192x2, .f32⟩ : BufTy).Contents (Elt F) → (⟨S8192x2, .f32⟩ : BufTy).Contents (Elt F)),
    StableHlo.nullary main_cst_25 (constant S_ .f32 0x3F000000#32),
    StableHlo.unary main_cst_25 main_v106 (broadcastInDim S8192x2 ![] bcast_S_S8192x2 : (⟨S_, .f32⟩ : BufTy).Contents (Elt F) → (⟨S8192x2, .f32⟩ : BufTy).Contents (Elt F)),
    StableHlo.binary main_v106 main_v101 main_v107 (mulf : (⟨S8192x2, .f32⟩ : BufTy).Contents (Elt F) → (⟨S8192x2, .f32⟩ : BufTy).Contents (Elt F) → (⟨S8192x2, .f32⟩ : BufTy).Contents (Elt F)),
    StableHlo.nullary main_cst_26 (constant S_ .f32 0x3F000000#32),
    StableHlo.unary main_cst_26 main_v108 (broadcastInDim S8192x2 ![] bcast_S_S8192x2 : (⟨S_, .f32⟩ : BufTy).Contents (Elt F) → (⟨S8192x2, .f32⟩ : BufTy).Contents (Elt F)),
    StableHlo.binary main_v108 main_v105 main_v109 (mulf : (⟨S8192x2, .f32⟩ : BufTy).Contents (Elt F) → (⟨S8192x2, .f32⟩ : BufTy).Contents (Elt F) → (⟨S8192x2, .f32⟩ : BufTy).Contents (Elt F)),
    StableHlo.binary main_v107 main_v109 main_v110 (addf : (⟨S8192x2, .f32⟩ : BufTy).Contents (Elt F) → (⟨S8192x2, .f32⟩ : BufTy).Contents (Elt F) → (⟨S8192x2, .f32⟩ : BufTy).Contents (Elt F)),
    StableHlo.unary main_v11 main_v111 (broadcastInDim S8192x1 ![0] bcast_S8192_S8192x1_0 : (⟨S8192, .f32⟩ : BufTy).Contents (Elt F) → (⟨S8192x1, .f32⟩ : BufTy).Contents (Elt F)),
    StableHlo.binary main_v29 main_v110 main_v112 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v111 main_v113 (broadcastInDim S8192x2 ![0, 1] bcast_S8192x1_S8192x2_0_1 : (⟨S8192x1, .f32⟩ : BufTy).Contents (Elt F) → (⟨S8192x2, .f32⟩ : BufTy).Contents (Elt F)),
    StableHlo.binary main_v113 main_v112 main_v114 (mulf : (⟨S8192x2, .f32⟩ : BufTy).Contents (Elt F) → (⟨S8192x2, .f32⟩ : BufTy).Contents (Elt F) → (⟨S8192x2, .f32⟩ : BufTy).Contents (Elt F)),
    StableHlo.nullary main_cst_27 (constant S_ .f32 0x3F000000#32),
    StableHlo.unary main_cst_27 main_v115 (broadcastInDim S8192x2 ![] bcast_S_S8192x2 : (⟨S_, .f32⟩ : BufTy).Contents (Elt F) → (⟨S8192x2, .f32⟩ : BufTy).Contents (Elt F)),
    StableHlo.binary main_v115 main_v110 main_v116 (mulf : (⟨S8192x2, .f32⟩ : BufTy).Contents (Elt F) → (⟨S8192x2, .f32⟩ : BufTy).Contents (Elt F) → (⟨S8192x2, .f32⟩ : BufTy).Contents (Elt F)),
    StableHlo.nullary main_cst_28 (constant S_ .f32 0x3F000000#32),
    StableHlo.unary main_cst_28 main_v117 (broadcastInDim S8192x2 ![] bcast_S_S8192x2 : (⟨S_, .f32⟩ : BufTy).Contents (Elt F) → (⟨S8192x2, .f32⟩ : BufTy).Contents (Elt F)),
    StableHlo.binary main_v117 main_v114 main_v118 (mulf : (⟨S8192x2, .f32⟩ : BufTy).Contents (Elt F) → (⟨S8192x2, .f32⟩ : BufTy).Contents (Elt F) → (⟨S8192x2, .f32⟩ : BufTy).Contents (Elt F)),
    StableHlo.binary main_v116 main_v118 main_v119 (addf : (⟨S8192x2, .f32⟩ : BufTy).Contents (Elt F) → (⟨S8192x2, .f32⟩ : BufTy).Contents (Elt F) → (⟨S8192x2, .f32⟩ : BufTy).Contents (Elt F)),
    StableHlo.nullary main_c_29 (constantI S_ 32 0#32),
    StableHlo.unary main_c_29 main_v120 (broadcastInDim S512 ![] bcast_S_S512 : (⟨S_, .i32⟩ : BufTy).Contents (Elt F) → (⟨S512, .i32⟩ : BufTy).Contents (Elt F)),
    StableHlo.binary main_arg1 main_v120 main_v121 (cmpi .slt : (⟨S512, .i32⟩ : BufTy).Contents (Elt F) → (⟨S512, .i32⟩ : BufTy).Contents (Elt F) → (⟨S512, .i1⟩ : BufTy).Contents (Elt F)),
    StableHlo.nullary main_c_30 (constantI S_ 32 8192#32),
    StableHlo.unary main_c_30 main_v122 (broadcastInDim S512 ![] bcast_S_S512 : (⟨S_, .i32⟩ : BufTy).Contents (Elt F) → (⟨S512, .i32⟩ : BufTy).Contents (Elt F)),
    StableHlo.binary main_arg1 main_v122 main_v123 (addi : (⟨S512, .i32⟩ : BufTy).Contents (Elt F) → (⟨S512, .i32⟩ : BufTy).Contents (Elt F) → (⟨S512, .i32⟩ : BufTy).Contents (Elt F)),
    StableHlo.ternary main_v121 main_v123 main_arg1 main_v124 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.nullary main_c_31 (constantI S_ 32 1#32),
    StableHlo.unary main_c_31 main_v125 (broadcastInDim S512 ![] bcast_S_S512 : (⟨S_, .i32⟩ : BufTy).Contents (Elt F) → (⟨S512, .i32⟩ : BufTy).Contents (Elt F)),
    StableHlo.unary main_v125 main_v126 (id : (⟨S512, .i32⟩ : BufTy).Contents (Elt F) → (⟨S512, .i32⟩ : BufTy).Contents (Elt F)),
    StableHlo.unary main_v124 main_v127 (broadcastInDim S512x1 ![0] bcast_S512_S512x1_0 : (⟨S512, .i32⟩ : BufTy).Contents (Elt F) → (⟨S512x1, .i32⟩ : BufTy).Contents (Elt F)),
    StableHlo.unary main_v126 main_v128 (broadcastInDim S512x1 ![0] bcast_S512_S512x1_0 : (⟨S512, .i32⟩ : BufTy).Contents (Elt F) → (⟨S512x1, .i32⟩ : BufTy).Contents (Elt F)),
    StableHlo.binary main_v127 main_v128 main_v129 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    StableHlo.binary main_v119 main_v129 main_v130 ((fun x i => Host.gather gather_S8192x2_S512x2_S512_n_01_n_n_01_1_11 x i) : (⟨S8192x2, .f32⟩ : BufTy).Contents (Elt F) → (⟨S512x2, .i32⟩ : BufTy).Contents (Elt F) → (⟨S512, .f32⟩ : BufTy).Contents (Elt F)),
    StableHlo.nullary main_c_32 (constantI S_ 32 0#32),
    StableHlo.unary main_c_32 main_v131 (broadcastInDim S512 ![] bcast_S_S512 : (⟨S_, .i32⟩ : BufTy).Contents (Elt F) → (⟨S512, .i32⟩ : BufTy).Contents (Elt F)),
    StableHlo.binary main_arg2 main_v131 main_v132 (cmpi .slt : (⟨S512, .i32⟩ : BufTy).Contents (Elt F) → (⟨S512, .i32⟩ : BufTy).Contents (Elt F) → (⟨S512, .i1⟩ : BufTy).Contents (Elt F)),
    StableHlo.nullary main_c_33 (constantI S_ 32 8192#32),
    StableHlo.unary main_c_33 main_v133 (broadcastInDim S512 ![] bcast_S_S512 : (⟨S_, .i32⟩ : BufTy).Contents (Elt F) → (⟨S512, .i32⟩ : BufTy).Contents (Elt F)),
    StableHlo.binary main_arg2 main_v133 main_v134 (addi : (⟨S512, .i32⟩ : BufTy).Contents (Elt F) → (⟨S512, .i32⟩ : BufTy).Contents (Elt F) → (⟨S512, .i32⟩ : BufTy).Contents (Elt F)),
    StableHlo.ternary main_v132 main_v134 main_arg2 main_v135 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.nullary main_c_34 (constantI S_ 32 0#32),
    StableHlo.unary main_c_34 main_v136 (broadcastInDim S512 ![] bcast_S_S512 : (⟨S_, .i32⟩ : BufTy).Contents (Elt F) → (⟨S512, .i32⟩ : BufTy).Contents (Elt F)),
    StableHlo.unary main_v136 main_v137 (id : (⟨S512, .i32⟩ : BufTy).Contents (Elt F) → (⟨S512, .i32⟩ : BufTy).Contents (Elt F)),
    StableHlo.unary main_v135 main_v138 (broadcastInDim S512x1 ![0] bcast_S512_S512x1_0 : (⟨S512, .i32⟩ : BufTy).Contents (Elt F) → (⟨S512x1, .i32⟩ : BufTy).Contents (Elt F)),
    StableHlo.unary main_v137 main_v139 (broadcastInDim S512x1 ![0] bcast_S512_S512x1_0 : (⟨S512, .i32⟩ : BufTy).Contents (Elt F) → (⟨S512x1, .i32⟩ : BufTy).Contents (Elt F)),
    StableHlo.binary main_v138 main_v139 main_v140 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    StableHlo.binary main_v119 main_v140 main_v141 ((fun x i => Host.gather gather_S8192x2_S512x2_S512_n_01_n_n_01_1_11 x i) : (⟨S8192x2, .f32⟩ : BufTy).Contents (Elt F) → (⟨S512x2, .i32⟩ : BufTy).Contents (Elt F) → (⟨S512, .f32⟩ : BufTy).Contents (Elt F)),
    StableHlo.nullary main_cst_35 (constant S_ .f32 0x2EDBE6FF#32) ]

set_option maxRecDepth 4096 in
theorem part2_eq (c : Dev nD) : main_part2 (F := F) c = seq ops2 := rfl

theorem ops2_sub : (ops2 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., nullary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references these operations write, in order. -/
abbrev wl2 : List (Ref sig .tc) := [main_v95, main_v96, main_cst_23, main_v97, main_v98, main_cst_24, main_v99, main_v100, main_v101, main_v102, main_v103, main_v104, main_v105, main_cst_25, main_v106, main_v107, main_cst_26, main_v108, main_v109, main_v110, main_v111, main_v112, main_v113, main_v114, main_cst_27, main_v115, main_v116, main_cst_28, main_v117, main_v118, main_v119, main_c_29, main_v120, main_v121, main_c_30, main_v122, main_v123, main_v124, main_c_31, main_v125, main_v126, main_v127, main_v128, main_v129, main_v130, main_c_32, main_v131, main_v132, main_c_33, main_v133, main_v134, main_v135, main_c_34, main_v136, main_v137, main_v138, main_v139, main_v140, main_v141, main_cst_35]

theorem ops2_writes : (ops2 : List (HloOp τ sig (Elt F))).Forall fun op => op.writes ⊆ (wl2.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem ops2_keep {r : Ref sig .tc} (h : r ∉ wl2) (W : Valuation τ sig (Elt F)) :
    after ops2 W (Proc.devRef .tc r) = W (Proc.devRef .tc r) :=
  after_of_writes_sub ops2 W ops2_writes h

end Cert.ReferenceIdeal.RefRun

end
-- ==== Proof.RefOps3.lean ====
/-
  The fourth window of the reference program's host operations (operations 181 to 209 of 209), as a list; the
  corresponding window of the program (`main_part3`) is the straight line of this list, every operation touches TensorCore buffers only, and
  every operation determines its results.
-/
import proofs.«111186_j27504970563868_1_alg».proof.Proof.Gen.ReferenceIdeal
import proofs.«111186_j27504970563868_1_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo Cert.RefLists

variable {F : FTy → Type} [FloatOps F]

/-- Operations 181 to 209, in order. -/
abbrev ops3 : List (HloOp τ sig (Elt F)) :=
  [ StableHlo.unary main_cst_35 main_v142 (broadcastInDim S512 ![] bcast_S_S512 : (⟨S_, .f32⟩ : BufTy).Contents (Elt F) → (⟨S512, .f32⟩ : BufTy).Contents (Elt F)),
    StableHlo.binary main_v130 main_v142 main_v143 (addf : (⟨S512, .f32⟩ : BufTy).Contents (Elt F) → (⟨S512, .f32⟩ : BufTy).Contents (Elt F) → (⟨S512, .f32⟩ : BufTy).Contents (Elt F)),
    StableHlo.unary main_v143 main_v144 (Host.log : (⟨S512, .f32⟩ : BufTy).Contents (Elt F) → (⟨S512, .f32⟩ : BufTy).Contents (Elt F)),
    StableHlo.nullary main_cst_36 (constant S_ .f32 0x00000000#32),
    StableHlo.binary main_v144 main_cst_36 main_v145 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.nullary main_cst_37 (constant S_ .f32 0x44000000#32),
    StableHlo.binary main_v145 main_cst_37 main_v146 (Host.divf : (⟨S_, .f32⟩ : BufTy).Contents (Elt F) → (⟨S_, .f32⟩ : BufTy).Contents (Elt F) → (⟨S_, .f32⟩ : BufTy).Contents (Elt F)),
    StableHlo.unary main_v146 main_v147 (Host.negf : (⟨S_, .f32⟩ : BufTy).Contents (Elt F) → (⟨S_, .f32⟩ : BufTy).Contents (Elt F)),
    StableHlo.nullary main_cst_38 (constant S_ .f32 0x2EDBE6FF#32),
    StableHlo.unary main_cst_38 main_v148 (broadcastInDim S512 ![] bcast_S_S512 : (⟨S_, .f32⟩ : BufTy).Contents (Elt F) → (⟨S512, .f32⟩ : BufTy).Contents (Elt F)),
    StableHlo.binary main_v141 main_v148 main_v149 (addf : (⟨S512, .f32⟩ : BufTy).Contents (Elt F) → (⟨S512, .f32⟩ : BufTy).Contents (Elt F) → (⟨S512, .f32⟩ : BufTy).Contents (Elt F)),
    StableHlo.unary main_v149 main_v150 (Host.log : (⟨S512, .f32⟩ : BufTy).Contents (Elt F) → (⟨S512, .f32⟩ : BufTy).Contents (Elt F)),
    StableHlo.nullary main_cst_39 (constant S_ .f32 0x00000000#32),
    StableHlo.binary main_v150 main_cst_39 main_v151 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.nullary main_cst_40 (constant S_ .f32 0x44000000#32),
    StableHlo.binary main_v151 main_cst_40 main_v152 (Host.divf : (⟨S_, .f32⟩ : BufTy).Contents (Elt F) → (⟨S_, .f32⟩ : BufTy).Contents (Elt F) → (⟨S_, .f32⟩ : BufTy).Contents (Elt F)),
    StableHlo.unary main_v152 main_v153 (Host.negf : (⟨S_, .f32⟩ : BufTy).Contents (Elt F) → (⟨S_, .f32⟩ : BufTy).Contents (Elt F)),
    StableHlo.binary main_v153 main_v153 main_v154 (cmpf .une : (⟨S_, .f32⟩ : BufTy).Contents (Elt F) → (⟨S_, .f32⟩ : BufTy).Contents (Elt F) → (⟨S_, .i1⟩ : BufTy).Contents (Elt F)),
    StableHlo.nullary main_cst_41 (constant S_ .f32 0x3FE00000#32),
    StableHlo.TRef.ternary (.of main_v154) (.of main_cst_41) (.of main_v153) main_call0.v0 select,
    StableHlo.binary main_v147 main_v155 main_v156 (addf : (⟨S_, .f32⟩ : BufTy).Contents (Elt F) → (⟨S_, .f32⟩ : BufTy).Contents (Elt F) → (⟨S_, .f32⟩ : BufTy).Contents (Elt F)),
    StableHlo.binary main_arg4 main_arg4 main_v157 (mulf : (⟨S8192x8192, .f32⟩ : BufTy).Contents (Elt F) → (⟨S8192x8192, .f32⟩ : BufTy).Contents (Elt F) → (⟨S8192x8192, .f32⟩ : BufTy).Contents (Elt F)),
    StableHlo.nullary main_cst_42 (constant S_ .f32 0x00000000#32),
    StableHlo.binary main_v157 main_cst_42 main_v158 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.nullary main_cst_43 (constant S_ .f32 0x4C800000#32),
    StableHlo.binary main_v158 main_cst_43 main_v159 (Host.divf : (⟨S_, .f32⟩ : BufTy).Contents (Elt F) → (⟨S_, .f32⟩ : BufTy).Contents (Elt F) → (⟨S_, .f32⟩ : BufTy).Contents (Elt F)),
    StableHlo.nullary main_cst_44 (constant S_ .f32 0x3CA3D70A#32),
    StableHlo.binary main_cst_44 main_v159 main_v160 (mulf : (⟨S_, .f32⟩ : BufTy).Contents (Elt F) → (⟨S_, .f32⟩ : BufTy).Contents (Elt F) → (⟨S_, .f32⟩ : BufTy).Contents (Elt F)),
    StableHlo.binary main_v156 main_v160 main_v161 (addf : (⟨S_, .f32⟩ : BufTy).Contents (Elt F) → (⟨S_, .f32⟩ : BufTy).Contents (Elt F) → (⟨S_, .f32⟩ : BufTy).Contents (Elt F)) ]

set_option maxRecDepth 4096 in
theorem part3_eq (c : Dev nD) : main_part3 (F := F) c = seq ops3 := rfl

theorem ops3_sub : (ops3 : List (HloOp τ sig (Elt F))).Forall fun op => op.bufs ⊆ tcRefs τ sig :=
  ⟨unary_bufs_sub .., binary_bufs_sub .., unary_bufs_sub .., nullary_bufs_sub .., binary_bufs_sub .., nullary_bufs_sub .., binary_bufs_sub .., unary_bufs_sub .., nullary_bufs_sub .., unary_bufs_sub .., binary_bufs_sub .., unary_bufs_sub .., nullary_bufs_sub .., binary_bufs_sub .., nullary_bufs_sub .., binary_bufs_sub .., unary_bufs_sub .., binary_bufs_sub .., nullary_bufs_sub .., ternary_bufs_sub .., binary_bufs_sub .., binary_bufs_sub .., nullary_bufs_sub .., binary_bufs_sub .., nullary_bufs_sub .., binary_bufs_sub .., nullary_bufs_sub .., binary_bufs_sub .., binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The references these operations write, in order. -/
abbrev wl3 : List (Ref sig .tc) := [main_v142, main_v143, main_v144, main_cst_36, main_v145, main_cst_37, main_v146, main_v147, main_cst_38, main_v148, main_v149, main_v150, main_cst_39, main_v151, main_cst_40, main_v152, main_v153, main_v154, main_cst_41, main_v155, main_v156, main_v157, main_cst_42, main_v158, main_cst_43, main_v159, main_cst_44, main_v160, main_v161]

theorem ops3_writes : (ops3 : List (HloOp τ sig (Elt F))).Forall fun op => op.writes ⊆ (wl3.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem ops3_keep {r : Ref sig .tc} (h : r ∉ wl3) (W : Valuation τ sig (Elt F)) :
    after ops3 W (Proc.devRef .tc r) = W (Proc.devRef .tc r) :=
  after_of_writes_sub ops3 W ops3_writes h

end Cert.ReferenceIdeal.RefRun

end
-- ==== Proof.RefOps.lean ====
/-
  The reference program's whole host computation as ONE straight line of 209 operations: its four windows run one
  after the other, so it is the straight line of their concatenation. From that: every weakly fair execution terminates,
  and every TensorCore buffer ends at the fold of the operations' results over the launch contents.
-/
import proofs.«111186_j27504970563868_1_alg».proof.Proof.RefOps0
import proofs.«111186_j27504970563868_1_alg».proof.Proof.RefOps1
import proofs.«111186_j27504970563868_1_alg».proof.Proof.RefOps2
import proofs.«111186_j27504970563868_1_alg».proof.Proof.RefOps3

noncomputable section

namespace Cert.ReferenceIdeal.RefRun

open Cert.ReferenceIdeal Cert.ReferenceIdeal.Gen Idealize.ShloMosaic Idealize.ShloMosaic.TcCoe Idealize.SL.Sem Idealize.ShloMosaic.StableHlo Cert.RefLists

variable {F : FTy → Type} [FloatOps F]

/-- All 209 operations, in order. -/
def ops : List (HloOp τ sig (Elt F)) := ops0 ++ (ops1 ++ (ops2 ++ ops3))

theorem main_eq (c : Dev nD) : main (F := F) c = seq ops := by
  show (main_part0 c >>= fun _ => main_part1 c >>= fun _ => main_part2 c >>= fun _ => main_part3 c) = _
  rw [part0_eq, part1_eq, part2_eq, part3_eq, ← seq_append, ← seq_append, ← seq_append]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append ops0_sub (forall_append ops1_sub (forall_append ops2_sub ops3_sub))

theorem ops_fresh : ∀ op ∈ (ops : List (HloOp τ sig (Elt F))), op.fresh = ∅ :=
  List.forall_iff_forall_mem.mp (forall_append ops0_fresh (forall_append ops1_fresh (forall_append ops2_fresh ops3_fresh)))

/-- On every device, from any memory with zero counters: every weakly fair execution of the reference program terminates,
    and every TensorCore buffer ends at the fold of the 209 operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- A buffer none of the 209 operations writes keeps its contents. -/
theorem ops_keep {r : Ref sig .tc} (h0 : r ∉ wl0) (h1 : r ∉ wl1) (h2 : r ∉ wl2) (h3 : r ∉ wl3) (V : Valuation τ sig (Elt F)) :
    after ops V (Proc.devRef .tc r) = V (Proc.devRef .tc r) := by
  unfold ops
  rw [after_app, after_app, after_app, ops3_keep h3, ops2_keep h2, ops1_keep h1, ops0_keep h0]

/-- Every weakly fair execution of the reference program terminates with its five argument arrays unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_arg0).trans (ops_keep (by decide) (by decide) (by decide) (by decide) _),
     (h c main_arg1).trans (ops_keep (by decide) (by decide) (by decide) (by decide) _),
     (h c main_arg2).trans (ops_keep (by decide) (by decide) (by decide) (by decide) _),
     (h c main_arg3).trans (ops_keep (by decide) (by decide) (by decide) (by decide) _),
     (h c main_arg4).trans (ops_keep (by decide) (by decide) (by decide) (by decide) _)⟩)
    (run_all m ρ)

end Cert.ReferenceIdeal.RefRun

end
-- ==== Proof.RefSegPre.lean ====
/-
  The first 41 operations of the reference computation, read as stages: from any contents of the buffers they leave the
  masked adjacency M * (A + I), the inverse degrees 1 / (rowsum (A + I) + ε) and the initial posteriors in their three
  buffers, as the stage functions of the argument arrays, and touch no other buffer they do not write.
-/
import proofs.«111186_j27504970563868_1_alg».proof.Proof.RefStages
import proofs.«111186_j27504970563868_1_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo Cert.RefLists Cert.ReferenceIdeal.Stages

variable {F : FTy → Type} [FloatOps F]

/-- The operations up to the masked adjacency (operations 1 to 41 of 209), in order. -/
abbrev segPre : List (HloOp τ sig (Elt F)) :=
  [ StableHlo.nullary main_cst (fun i => FloatOps.ofBits .f32 (lit0 (S2.rowMajor i))),
    StableHlo.nullary main_cst_0 (fun i => FloatOps.ofBits .f32 (lit1 (S2.rowMajor i))),
    StableHlo.nullary main_v0 (iotaInDim S8192x8192 32 0),
    StableHlo.nullary main_v1 (iotaInDim S8192x8192 32 1),
    StableHlo.nullary main_c (constantI S_ 32 0#32),
    StableHlo.unary main_c main_v2 (broadcastInDim S8192x8192 ![] bcast_S_S8192x8192 : (⟨S_, .i32⟩ : BufTy).Contents (Elt F) → (⟨S8192x8192, .i32⟩ : BufTy).Contents (Elt F)),
    StableHlo.binary main_v0 main_v2 main_v3 (addi : (⟨S8192x8192, .i32⟩ : BufTy).Contents (Elt F) → (⟨S8192x8192, .i32⟩ : BufTy).Contents (Elt F) → (⟨S8192x8192, .i32⟩ : BufTy).Contents (Elt F)),
    StableHlo.binary main_v3 main_v1 main_v4 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v4 main_v5 (uitofp .f32 : (⟨S8192x8192, .i1⟩ : BufTy).Contents (Elt F) → (⟨S8192x8192, .f32⟩ : BufTy).Contents (Elt F)),
    StableHlo.binary main_arg3 main_v5 main_v6 (addf : (⟨S8192x8192, .f32⟩ : BufTy).Contents (Elt F) → (⟨S8192x8192, .f32⟩ : BufTy).Contents (Elt F) → (⟨S8192x8192, .f32⟩ : BufTy).Contents (Elt F)),
    StableHlo.nullary main_cst_1 (constant S_ .f32 0x00000000#32),
    StableHlo.binary main_v6 main_cst_1 main_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_2 (constant S_ .f32 0x322BCC77#32),
    StableHlo.unary main_cst_2 main_v8 (broadcastInDim S8192 ![] bcast_S_S8192 : (⟨S_, .f32⟩ : BufTy).Contents (Elt F) → (⟨S8192, .f32⟩ : BufTy).Contents (Elt F)),
    StableHlo.binary main_v7 main_v8 main_v9 (addf : (⟨S8192, .f32⟩ : BufTy).Contents (Elt F) → (⟨S8192, .f32⟩ : BufTy).Contents (Elt F) → (⟨S8192, .f32⟩ : BufTy).Contents (Elt F)),
    StableHlo.nullary main_cst_3 (constant S_ .f32 0x3F800000#32),
    StableHlo.unary main_cst_3 main_v10 (broadcastInDim S8192 ![] bcast_S_S8192 : (⟨S_, .f32⟩ : BufTy).Contents (Elt F) → (⟨S8192, .f32⟩ : BufTy).Contents (Elt F)),
    StableHlo.binary main_v10 main_v9 main_v11 (Host.divf : (⟨S8192, .f32⟩ : BufTy).Contents (Elt F) → (⟨S8192, .f32⟩ : BufTy).Contents (Elt F) → (⟨S8192, .f32⟩ : BufTy).Contents (Elt F)),
    StableHlo.nullary main_cst_4 (constant S_ .f32 0x3F000000#32),
    StableHlo.unary main_cst_4 main_v12 (broadcastInDim S8192x2 ![] bcast_S_S8192x2 : (⟨S_, .f32⟩ : BufTy).Contents (Elt F) → (⟨S8192x2, .f32⟩ : BufTy).Contents (Elt F)),
    StableHlo.nullary main_c_5 (constantI S_ 32 0#32),
    StableHlo.unary main_c_5 main_v13 (broadcastInDim S512 ![] bcast_S_S512 : (⟨S_, .i32⟩ : BufTy).Contents (Elt F) → (⟨S512, .i32⟩ : BufTy).Contents (Elt F)),
    StableHlo.binary main_arg1 main_v13 main_v14 (cmpi .slt : (⟨S512, .i32⟩ : BufTy).Contents (Elt F) → (⟨S512, .i32⟩ : BufTy).Contents (Elt F) → (⟨S512, .i1⟩ : BufTy).Contents (Elt F)),
    StableHlo.nullary main_c_6 (constantI S_ 32 8192#32),
    StableHlo.unary main_c_6 main_v15 (broadcastInDim S512 ![] bcast_S_S512 : (⟨S_, .i32⟩ : BufTy).Contents (Elt F) → (⟨S512, .i32⟩ : BufTy).Contents (Elt F)),
    StableHlo.binary main_arg1 main_v15 main_v16 (addi : (⟨S512, .i32⟩ : BufTy).Contents (Elt F) → (⟨S512, .i32⟩ : BufTy).Contents (Elt F) → (⟨S512, .i32⟩ : BufTy).Contents (Elt F)),
    StableHlo.ternary main_v14 main_v16 main_arg1 main_v17 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v17 main_v18 (broadcastInDim S512x1 ![0] bcast_S512_S512x1_0 : (⟨S512, .i32⟩ : BufTy).Contents (Elt F) → (⟨S512x1, .i32⟩ : BufTy).Contents (Elt F)),
    StableHlo.unary main_cst main_v19 (broadcastInDim S512x2 ![1] bcast_S2_S512x2_1 : (⟨S2, .f32⟩ : BufTy).Contents (Elt F) → (⟨S512x2, .f32⟩ : BufTy).Contents (Elt F)),
    StableHlo.ternary main_v12 main_v18 main_v19 main_v20 ((fun x i u => Host.scatter scatter_S8192x2_S512x1_S512x2_1_0_0_1 (fun _ b => b) x i u) : (⟨S8192x2, .f32⟩ : BufTy).Contents (Elt F) → (⟨S512x1, .i32⟩ : BufTy).Contents (Elt F) → (⟨S512x2, .f32⟩ : BufTy).Contents (Elt F) → (⟨S8192x2, .f32⟩ : BufTy).Contents (Elt F)),
    StableHlo.nullary main_c_7 (constantI S_ 32 0#32),
    StableHlo.unary main_c_7 main_v21 (broadcastInDim S512 ![] bcast_S_S512 : (⟨S_, .i32⟩ : BufTy).Contents (Elt F) → (⟨S512, .i32⟩ : BufTy).Contents (Elt F)),
    StableHlo.binary main_arg2 main_v21 main_v22 (cmpi .slt : (⟨S512, .i32⟩ : BufTy).Contents (Elt F) → (⟨S512, .i32⟩ : BufTy).Contents (Elt F) → (⟨S512, .i1⟩ : BufTy).Contents (Elt F)),
    StableHlo.nullary main_c_8 (constantI S_ 32 8192#32),
    StableHlo.unary main_c_8 main_v23 (broadcastInDim S512 ![] bcast_S_S512 : (⟨S_, .i32⟩ : BufTy).Contents (Elt F) → (⟨S512, .i32⟩ : BufTy).Contents (Elt F)),
    StableHlo.binary main_arg2 main_v23 main_v24 (addi : (⟨S512, .i32⟩ : BufTy).Contents (Elt F) → (⟨S512, .i32⟩ : BufTy).Contents (Elt F) → (⟨S512, .i32⟩ : BufTy).Contents (Elt F)),
    StableHlo.ternary main_v22 main_v24 main_arg2 main_v25 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v25 main_v26 (broadcastInDim S512x1 ![0] bcast_S512_S512x1_0 : (⟨S512, .i32⟩ : BufTy).Contents (Elt F) → (⟨S512x1, .i32⟩ : BufTy).Contents (Elt F)),
    StableHlo.unary main_cst_0 main_v27 (broadcastInDim S512x2 ![1] bcast_S2_S512x2_1 : (⟨S2, .f32⟩ : BufTy).Contents (Elt F) → (⟨S512x2, .f32⟩ : BufTy).Contents (Elt F)),
    StableHlo.ternary main_v20 main_v26 main_v27 main_v28 ((fun x i u => Host.scatter scatter_S8192x2_S512x1_S512x2_1_0_0_1 (fun _ b => b) x i u) : (⟨S8192x2, .f32⟩ : BufTy).Contents (Elt F) → (⟨S512x1, .i32⟩ : BufTy).Contents (Elt F) → (⟨S512x2, .f32⟩ : BufTy).Contents (Elt F) → (⟨S8192x2, .f32⟩ : BufTy).Contents (Elt F)),
    StableHlo.binary main_arg4 main_v6 main_v29 (mulf : (⟨S8192x8192, .f32⟩ : BufTy).Contents (Elt F) → (⟨S8192x8192, .f32⟩ : BufTy).Contents (Elt F) → (⟨S8192x8192, .f32⟩ : BufTy).Contents (Elt F)) ]

/-- The references these operations write, in order. -/
abbrev segPre_wl : List (Ref sig .tc) := [main_cst, main_cst_0, main_v0, main_v1, main_c, main_v2, main_v3, main_v4, main_v5, main_v6, main_cst_1, main_v7, main_cst_2, main_v8, main_v9, main_cst_3, main_v10, main_v11, main_cst_4, main_v12, main_c_5, main_v13, main_v14, main_c_6, main_v15, main_v16, main_v17, main_v18, main_v19, main_v20, main_c_7, main_v21, main_v22, main_c_8, main_v23, main_v24, main_v25, main_v26, main_v27, main_v28, main_v29]

theorem segPre_writes : (segPre : List (HloOp τ sig (Elt F))).Forall fun op => op.writes ⊆ (segPre_wl.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem segPre_keep {r : Ref sig .tc} (h : r ∉ segPre_wl) (W : Valuation τ sig (Elt F)) :
    after segPre W (Proc.devRef .tc r) = W (Proc.devRef .tc r) :=
  after_of_writes_sub segPre W segPre_writes h

attribute [local irreducible] Host.reduceAdd Host.scatter in
/-- After them the buffer of %29 holds the masked adjacency of the arguments. -/
theorem pre_v29 (W : Valuation τ sig (Elt F)) :
    after segPre W (Proc.devRef .tc main_v29) = Ahat (W (Proc.devRef .tc main_arg3)) (W (Proc.devRef .tc main_arg4)) := by
  after_results_simp
  rfl

attribute [local irreducible] Host.reduceAdd Host.scatter in
/-- After them the buffer of %11 holds the inverse degrees of the adjacency argument. -/
theorem pre_v11 (W : Valuation τ sig (Elt F)) :
    after segPre W (Proc.devRef .tc main_v11) = dinv (W (Proc.devRef .tc main_arg3)) := by
  after_results_simp
  rfl

attribute [local irreducible] Host.reduceAdd Host.scatter in
/-- After them the buffer of %28 holds the initial posteriors of the two index arguments. -/
theorem pre_v28 (W : Valuation τ sig (Elt F)) :
    after segPre W (Proc.devRef .tc main_v28) = E0 (W (Proc.devRef .tc main_arg1)) (W (Proc.devRef .tc main_arg2)) := by
  after_results_simp
  rfl

end Cert.ReferenceIdeal.RefRun

end
-- ==== Proof.RefSegStepA.lean ====
/-
  Propagations one to five of the reference computation, each eleven operations: from any contents of the buffers, each leaves
  in its result buffer one propagation step E ↦ ½·E + ½·(dinv · (Ahat · E)) of the contents of its input buffer, with Ahat
  and dinv read from the buffers of %29 and %11, and touches no other buffer it does not write.
-/
import proofs.«111186_j27504970563868_1_alg».proof.Proof.RefStages
import proofs.«111186_j27504970563868_1_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo Cert.RefLists Cert.ReferenceIdeal.Stages

variable {F : FTy → Type} [FloatOps F]

/-- Propagation 1 (operations 42 to 52 of 209), in order. -/
abbrev segStep1 : List (HloOp τ sig (Elt F)) :=
  [ StableHlo.unary main_v11 main_v30 (broadcastInDim S8192x1 ![0] bcast_S8192_S8192x1_0 : (⟨S8192, .f32⟩ : BufTy).Contents (Elt F) → (⟨S8192x1, .f32⟩ : BufTy).Contents (Elt F)),
    StableHlo.binary main_v29 main_v28 main_v31 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v30 main_v32 (broadcastInDim S8192x2 ![0, 1] bcast_S8192x1_S8192x2_0_1 : (⟨S8192x1, .f32⟩ : BufTy).Contents (Elt F) → (⟨S8192x2, .f32⟩ : BufTy).Contents (Elt F)),
    StableHlo.binary main_v32 main_v31 main_v33 (mulf : (⟨S8192x2, .f32⟩ : BufTy).Contents (Elt F) → (⟨S8192x2, .f32⟩ : BufTy).Contents (Elt F) → (⟨S8192x2, .f32⟩ : BufTy).Contents (Elt F)),
    StableHlo.nullary main_cst_9 (constant S_ .f32 0x3F000000#32),
    StableHlo.unary main_cst_9 main_v34 (broadcastInDim S8192x2 ![] bcast_S_S8192x2 : (⟨S_, .f32⟩ : BufTy).Contents (Elt F) → (⟨S8192x2, .f32⟩ : BufTy).Contents (Elt F)),
    StableHlo.binary main_v34 main_v28 main_v35 (mulf : (⟨S8192x2, .f32⟩ : BufTy).Contents (Elt F) → (⟨S8192x2, .f32⟩ : BufTy).Contents (Elt F) → (⟨S8192x2, .f32⟩ : BufTy).Contents (Elt F)),
    StableHlo.nullary main_cst_10 (constant S_ .f32 0x3F000000#32),
    StableHlo.unary main_cst_10 main_v36 (broadcastInDim S8192x2 ![] bcast_S_S8192x2 : (⟨S_, .f32⟩ : BufTy).Contents (Elt F) → (⟨S8192x2, .f32⟩ : BufTy).Contents (Elt F)),
    StableHlo.binary main_v36 main_v33 main_v37 (mulf : (⟨S8192x2, .f32⟩ : BufTy).Contents (Elt F) → (⟨S8192x2, .f32⟩ : BufTy).Contents (Elt F) → (⟨S8192x2, .f32⟩ : BufTy).Contents (Elt F)),
    StableHlo.binary main_v35 main_v37 main_v38 (addf : (⟨S8192x2, .f32⟩ : BufTy).Contents (Elt F) → (⟨S8192x2, .f32⟩ : BufTy).Contents (Elt F) → (⟨S8192x2, .f32⟩ : BufTy).Contents (Elt F)) ]

/-- The references these operations write, in order. -/
abbrev segStep1_wl : List (Ref sig .tc) := [main_v30, main_v31, main_v32, main_v33, main_cst_9, main_v34, main_v35, main_cst_10, main_v36, main_v37, main_v38]

theorem segStep1_writes : (segStep1 : List (HloOp τ sig (Elt F))).Forall fun op => op.writes ⊆ (segStep1_wl.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem segStep1_keep {r : Ref sig .tc} (h : r ∉ segStep1_wl) (W : Valuation τ sig (Elt F)) :
    after segStep1 W (Proc.devRef .tc r) = W (Proc.devRef .tc r) :=
  after_of_writes_sub segStep1 W segStep1_writes h

/-- Propagation 1 leaves one step of the contents of its input buffer in its result buffer. -/
theorem step1_out (W : Valuation τ sig (Elt F)) :
    after segStep1 W (Proc.devRef .tc main_v38)
      = step (W (Proc.devRef .tc main_v29)) (W (Proc.devRef .tc main_v11)) (W (Proc.devRef .tc main_v28)) := by
  after_results_simp
  rfl

/-- Propagation 2 (operations 53 to 63 of 209), in order. -/
abbrev segStep2 : List (HloOp τ sig (Elt F)) :=
  [ StableHlo.unary main_v11 main_v39 (broadcastInDim S8192x1 ![0] bcast_S8192_S8192x1_0 : (⟨S8192, .f32⟩ : BufTy).Contents (Elt F) → (⟨S8192x1, .f32⟩ : BufTy).Contents (Elt F)),
    StableHlo.binary main_v29 main_v38 main_v40 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v39 main_v41 (broadcastInDim S8192x2 ![0, 1] bcast_S8192x1_S8192x2_0_1 : (⟨S8192x1, .f32⟩ : BufTy).Contents (Elt F) → (⟨S8192x2, .f32⟩ : BufTy).Contents (Elt F)),
    StableHlo.binary main_v41 main_v40 main_v42 (mulf : (⟨S8192x2, .f32⟩ : BufTy).Contents (Elt F) → (⟨S8192x2, .f32⟩ : BufTy).Contents (Elt F) → (⟨S8192x2, .f32⟩ : BufTy).Contents (Elt F)),
    StableHlo.nullary main_cst_11 (constant S_ .f32 0x3F000000#32),
    StableHlo.unary main_cst_11 main_v43 (broadcastInDim S8192x2 ![] bcast_S_S8192x2 : (⟨S_, .f32⟩ : BufTy).Contents (Elt F) → (⟨S8192x2, .f32⟩ : BufTy).Contents (Elt F)),
    StableHlo.binary main_v43 main_v38 main_v44 (mulf : (⟨S8192x2, .f32⟩ : BufTy).Contents (Elt F) → (⟨S8192x2, .f32⟩ : BufTy).Contents (Elt F) → (⟨S8192x2, .f32⟩ : BufTy).Contents (Elt F)),
    StableHlo.nullary main_cst_12 (constant S_ .f32 0x3F000000#32),
    StableHlo.unary main_cst_12 main_v45 (broadcastInDim S8192x2 ![] bcast_S_S8192x2 : (⟨S_, .f32⟩ : BufTy).Contents (Elt F) → (⟨S8192x2, .f32⟩ : BufTy).Contents (Elt F)),
    StableHlo.binary main_v45 main_v42 main_v46 (mulf : (⟨S8192x2, .f32⟩ : BufTy).Contents (Elt F) → (⟨S8192x2, .f32⟩ : BufTy).Contents (Elt F) → (⟨S8192x2, .f32⟩ : BufTy).Contents (Elt F)),
    StableHlo.binary main_v44 main_v46 main_v47 (addf : (⟨S8192x2, .f32⟩ : BufTy).Contents (Elt F) → (⟨S8192x2, .f32⟩ : BufTy).Contents (Elt F) → (⟨S8192x2, .f32⟩ : BufTy).Contents (Elt F)) ]

/-- The references these operations write, in order. -/
abbrev segStep2_wl : List (Ref sig .tc) := [main_v39, main_v40, main_v41, main_v42, main_cst_11, main_v43, main_v44, main_cst_12, main_v45, main_v46, main_v47]

theorem segStep2_writes : (segStep2 : List (HloOp τ sig (Elt F))).Forall fun op => op.writes ⊆ (segStep2_wl.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem segStep2_keep {r : Ref sig .tc} (h : r ∉ segStep2_wl) (W : Valuation τ sig (Elt F)) :
    after segStep2 W (Proc.devRef .tc r) = W (Proc.devRef .tc r) :=
  after_of_writes_sub segStep2 W segStep2_writes h

/-- Propagation 2 leaves one step of the contents of its input buffer in its result buffer. -/
theorem step2_out (W : Valuation τ sig (Elt F)) :
    after segStep2 W (Proc.devRef .tc main_v47)
      = step (W (Proc.devRef .tc main_v29)) (W (Proc.devRef .tc main_v11)) (W (Proc.devRef .tc main_v38)) := by
  after_results_simp
  rfl

/-- Propagation 3 (operations 64 to 74 of 209), in order. -/
abbrev segStep3 : List (HloOp τ sig (Elt F)) :=
  [ StableHlo.unary main_v11 main_v48 (broadcastInDim S8192x1 ![0] bcast_S8192_S8192x1_0 : (⟨S8192, .f32⟩ : BufTy).Contents (Elt F) → (⟨S8192x1, .f32⟩ : BufTy).Contents (Elt F)),
    StableHlo.binary main_v29 main_v47 main_v49 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v48 main_v50 (broadcastInDim S8192x2 ![0, 1] bcast_S8192x1_S8192x2_0_1 : (⟨S8192x1, .f32⟩ : BufTy).Contents (Elt F) → (⟨S8192x2, .f32⟩ : BufTy).Contents (Elt F)),
    StableHlo.binary main_v50 main_v49 main_v51 (mulf : (⟨S8192x2, .f32⟩ : BufTy).Contents (Elt F) → (⟨S8192x2, .f32⟩ : BufTy).Contents (Elt F) → (⟨S8192x2, .f32⟩ : BufTy).Contents (Elt F)),
    StableHlo.nullary main_cst_13 (constant S_ .f32 0x3F000000#32),
    StableHlo.unary main_cst_13 main_v52 (broadcastInDim S8192x2 ![] bcast_S_S8192x2 : (⟨S_, .f32⟩ : BufTy).Contents (Elt F) → (⟨S8192x2, .f32⟩ : BufTy).Contents (Elt F)),
    StableHlo.binary main_v52 main_v47 main_v53 (mulf : (⟨S8192x2, .f32⟩ : BufTy).Contents (Elt F) → (⟨S8192x2, .f32⟩ : BufTy).Contents (Elt F) → (⟨S8192x2, .f32⟩ : BufTy).Contents (Elt F)),
    StableHlo.nullary main_cst_14 (constant S_ .f32 0x3F000000#32),
    StableHlo.unary main_cst_14 main_v54 (broadcastInDim S8192x2 ![] bcast_S_S8192x2 : (⟨S_, .f32⟩ : BufTy).Contents (Elt F) → (⟨S8192x2, .f32⟩ : BufTy).Contents (Elt F)),
    StableHlo.binary main_v54 main_v51 main_v55 (mulf : (⟨S8192x2, .f32⟩ : BufTy).Contents (Elt F) → (⟨S8192x2, .f32⟩ : BufTy).Contents (Elt F) → (⟨S8192x2, .f32⟩ : BufTy).Contents (Elt F)),
    StableHlo.binary main_v53 main_v55 main_v56 (addf : (⟨S8192x2, .f32⟩ : BufTy).Contents (Elt F) → (⟨S8192x2, .f32⟩ : BufTy).Contents (Elt F) → (⟨S8192x2, .f32⟩ : BufTy).Contents (Elt F)) ]

/-- The references these operations write, in order. -/
abbrev segStep3_wl : List (Ref sig .tc) := [main_v48, main_v49, main_v50, main_v51, main_cst_13, main_v52, main_v53, main_cst_14, main_v54, main_v55, main_v56]

theorem segStep3_writes : (segStep3 : List (HloOp τ sig (Elt F))).Forall fun op => op.writes ⊆ (segStep3_wl.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem segStep3_keep {r : Ref sig .tc} (h : r ∉ segStep3_wl) (W : Valuation τ sig (Elt F)) :
    after segStep3 W (Proc.devRef .tc r) = W (Proc.devRef .tc r) :=
  after_of_writes_sub segStep3 W segStep3_writes h

/-- Propagation 3 leaves one step of the contents of its input buffer in its result buffer. -/
theorem step3_out (W : Valuation τ sig (Elt F)) :
    after segStep3 W (Proc.devRef .tc main_v56)
      = step (W (Proc.devRef .tc main_v29)) (W (Proc.devRef .tc main_v11)) (W (Proc.devRef .tc main_v47)) := by
  after_results_simp
  rfl

/-- Propagation 4 (operations 75 to 85 of 209), in order. -/
abbrev segStep4 : List (HloOp τ sig (Elt F)) :=
  [ StableHlo.unary main_v11 main_v57 (broadcastInDim S8192x1 ![0] bcast_S8192_S8192x1_0 : (⟨S8192, .f32⟩ : BufTy).Contents (Elt F) → (⟨S8192x1, .f32⟩ : BufTy).Contents (Elt F)),
    StableHlo.binary main_v29 main_v56 main_v58 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v57 main_v59 (broadcastInDim S8192x2 ![0, 1] bcast_S8192x1_S8192x2_0_1 : (⟨S8192x1, .f32⟩ : BufTy).Contents (Elt F) → (⟨S8192x2, .f32⟩ : BufTy).Contents (Elt F)),
    StableHlo.binary main_v59 main_v58 main_v60 (mulf : (⟨S8192x2, .f32⟩ : BufTy).Contents (Elt F) → (⟨S8192x2, .f32⟩ : BufTy).Contents (Elt F) → (⟨S8192x2, .f32⟩ : BufTy).Contents (Elt F)),
    StableHlo.nullary main_cst_15 (constant S_ .f32 0x3F000000#32),
    StableHlo.unary main_cst_15 main_v61 (broadcastInDim S8192x2 ![] bcast_S_S8192x2 : (⟨S_, .f32⟩ : BufTy).Contents (Elt F) → (⟨S8192x2, .f32⟩ : BufTy).Contents (Elt F)),
    StableHlo.binary main_v61 main_v56 main_v62 (mulf : (⟨S8192x2, .f32⟩ : BufTy).Contents (Elt F) → (⟨S8192x2, .f32⟩ : BufTy).Contents (Elt F) → (⟨S8192x2, .f32⟩ : BufTy).Contents (Elt F)),
    StableHlo.nullary main_cst_16 (constant S_ .f32 0x3F000000#32),
    StableHlo.unary main_cst_16 main_v63 (broadcastInDim S8192x2 ![] bcast_S_S8192x2 : (⟨S_, .f32⟩ : BufTy).Contents (Elt F) → (⟨S8192x2, .f32⟩ : BufTy).Contents (Elt F)),
    StableHlo.binary main_v63 main_v60 main_v64 (mulf : (⟨S8192x2, .f32⟩ : BufTy).Contents (Elt F) → (⟨S8192x2, .f32⟩ : BufTy).Contents (Elt F) → (⟨S8192x2, .f32⟩ : BufTy).Contents (Elt F)),
    StableHlo.binary main_v62 main_v64 main_v65 (addf : (⟨S8192x2, .f32⟩ : BufTy).Contents (Elt F) → (⟨S8192x2, .f32⟩ : BufTy).Contents (Elt F) → (⟨S8192x2, .f32⟩ : BufTy).Contents (Elt F)) ]

/-- The references these operations write, in order. -/
abbrev segStep4_wl : List (Ref sig .tc) := [main_v57, main_v58, main_v59, main_v60, main_cst_15, main_v61, main_v62, main_cst_16, main_v63, main_v64, main_v65]

theorem segStep4_writes : (segStep4 : List (HloOp τ sig (Elt F))).Forall fun op => op.writes ⊆ (segStep4_wl.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem segStep4_keep {r : Ref sig .tc} (h : r ∉ segStep4_wl) (W : Valuation τ sig (Elt F)) :
    after segStep4 W (Proc.devRef .tc r) = W (Proc.devRef .tc r) :=
  after_of_writes_sub segStep4 W segStep4_writes h

/-- Propagation 4 leaves one step of the contents of its input buffer in its result buffer. -/
theorem step4_out (W : Valuation τ sig (Elt F)) :
    after segStep4 W (Proc.devRef .tc main_v65)
      = step (W (Proc.devRef .tc main_v29)) (W (Proc.devRef .tc main_v11)) (W (Proc.devRef .tc main_v56)) := by
  after_results_simp
  rfl

/-- Propagation 5 (operations 86 to 96 of 209), in order. -/
abbrev segStep5 : List (HloOp τ sig (Elt F)) :=
  [ StableHlo.unary main_v11 main_v66 (broadcastInDim S8192x1 ![0] bcast_S8192_S8192x1_0 : (⟨S8192, .f32⟩ : BufTy).Contents (Elt F) → (⟨S8192x1, .f32⟩ : BufTy).Contents (Elt F)),
    StableHlo.binary main_v29 main_v65 main_v67 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v66 main_v68 (broadcastInDim S8192x2 ![0, 1] bcast_S8192x1_S8192x2_0_1 : (⟨S8192x1, .f32⟩ : BufTy).Contents (Elt F) → (⟨S8192x2, .f32⟩ : BufTy).Contents (Elt F)),
    StableHlo.binary main_v68 main_v67 main_v69 (mulf : (⟨S8192x2, .f32⟩ : BufTy).Contents (Elt F) → (⟨S8192x2, .f32⟩ : BufTy).Contents (Elt F) → (⟨S8192x2, .f32⟩ : BufTy).Contents (Elt F)),
    StableHlo.nullary main_cst_17 (constant S_ .f32 0x3F000000#32),
    StableHlo.unary main_cst_17 main_v70 (broadcastInDim S8192x2 ![] bcast_S_S8192x2 : (⟨S_, .f32⟩ : BufTy).Contents (Elt F) → (⟨S8192x2, .f32⟩ : BufTy).Contents (Elt F)),
    StableHlo.binary main_v70 main_v65 main_v71 (mulf : (⟨S8192x2, .f32⟩ : BufTy).Contents (Elt F) → (⟨S8192x2, .f32⟩ : BufTy).Contents (Elt F) → (⟨S8192x2, .f32⟩ : BufTy).Contents (Elt F)),
    StableHlo.nullary main_cst_18 (constant S_ .f32 0x3F000000#32),
    StableHlo.unary main_cst_18 main_v72 (broadcastInDim S8192x2 ![] bcast_S_S8192x2 : (⟨S_, .f32⟩ : BufTy).Contents (Elt F) → (⟨S8192x2, .f32⟩ : BufTy).Contents (Elt F)),
    StableHlo.binary main_v72 main_v69 main_v73 (mulf : (⟨S8192x2, .f32⟩ : BufTy).Contents (Elt F) → (⟨S8192x2, .f32⟩ : BufTy).Contents (Elt F) → (⟨S8192x2, .f32⟩ : BufTy).Contents (Elt F)),
    StableHlo.binary main_v71 main_v73 main_v74 (addf : (⟨S8192x2, .f32⟩ : BufTy).Contents (Elt F) → (⟨S8192x2, .f32⟩ : BufTy).Contents (Elt F) → (⟨S8192x2, .f32⟩ : BufTy).Contents (Elt F)) ]

/-- The references these operations write, in order. -/
abbrev segStep5_wl : List (Ref sig .tc) := [main_v66, main_v67, main_v68, main_v69, main_cst_17, main_v70, main_v71, main_cst_18, main_v72, main_v73, main_v74]

theorem segStep5_writes : (segStep5 : List (HloOp τ sig (Elt F))).Forall fun op => op.writes ⊆ (segStep5_wl.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem segStep5_keep {r : Ref sig .tc} (h : r ∉ segStep5_wl) (W : Valuation τ sig (Elt F)) :
    after segStep5 W (Proc.devRef .tc r) = W (Proc.devRef .tc r) :=
  after_of_writes_sub segStep5 W segStep5_writes h

/-- Propagation 5 leaves one step of the contents of its input buffer in its result buffer. -/
theorem step5_out (W : Valuation τ sig (Elt F)) :
    after segStep5 W (Proc.devRef .tc main_v74)
      = step (W (Proc.devRef .tc main_v29)) (W (Proc.devRef .tc main_v11)) (W (Proc.devRef .tc main_v65)) := by
  after_results_simp
  rfl

end Cert.ReferenceIdeal.RefRun

end
-- ==== Proof.RefSegStepB.lean ====
/-
  Propagations six to ten of the reference computation, each eleven operations: from any contents of the buffers, each leaves
  in its result buffer one propagation step E ↦ ½·E + ½·(dinv · (Ahat · E)) of the contents of its input buffer, with Ahat
  and dinv read from the buffers of %29 and %11, and touches no other buffer it does not write.
-/
import proofs.«111186_j27504970563868_1_alg».proof.Proof.RefStages
import proofs.«111186_j27504970563868_1_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo Cert.RefLists Cert.ReferenceIdeal.Stages

variable {F : FTy → Type} [FloatOps F]

/-- Propagation 6 (operations 97 to 107 of 209), in order. -/
abbrev segStep6 : List (HloOp τ sig (Elt F)) :=
  [ StableHlo.unary main_v11 main_v75 (broadcastInDim S8192x1 ![0] bcast_S8192_S8192x1_0 : (⟨S8192, .f32⟩ : BufTy).Contents (Elt F) → (⟨S8192x1, .f32⟩ : BufTy).Contents (Elt F)),
    StableHlo.binary main_v29 main_v74 main_v76 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v75 main_v77 (broadcastInDim S8192x2 ![0, 1] bcast_S8192x1_S8192x2_0_1 : (⟨S8192x1, .f32⟩ : BufTy).Contents (Elt F) → (⟨S8192x2, .f32⟩ : BufTy).Contents (Elt F)),
    StableHlo.binary main_v77 main_v76 main_v78 (mulf : (⟨S8192x2, .f32⟩ : BufTy).Contents (Elt F) → (⟨S8192x2, .f32⟩ : BufTy).Contents (Elt F) → (⟨S8192x2, .f32⟩ : BufTy).Contents (Elt F)),
    StableHlo.nullary main_cst_19 (constant S_ .f32 0x3F000000#32),
    StableHlo.unary main_cst_19 main_v79 (broadcastInDim S8192x2 ![] bcast_S_S8192x2 : (⟨S_, .f32⟩ : BufTy).Contents (Elt F) → (⟨S8192x2, .f32⟩ : BufTy).Contents (Elt F)),
    StableHlo.binary main_v79 main_v74 main_v80 (mulf : (⟨S8192x2, .f32⟩ : BufTy).Contents (Elt F) → (⟨S8192x2, .f32⟩ : BufTy).Contents (Elt F) → (⟨S8192x2, .f32⟩ : BufTy).Contents (Elt F)),
    StableHlo.nullary main_cst_20 (constant S_ .f32 0x3F000000#32),
    StableHlo.unary main_cst_20 main_v81 (broadcastInDim S8192x2 ![] bcast_S_S8192x2 : (⟨S_, .f32⟩ : BufTy).Contents (Elt F) → (⟨S8192x2, .f32⟩ : BufTy).Contents (Elt F)),
    StableHlo.binary main_v81 main_v78 main_v82 (mulf : (⟨S8192x2, .f32⟩ : BufTy).Contents (Elt F) → (⟨S8192x2, .f32⟩ : BufTy).Contents (Elt F) → (⟨S8192x2, .f32⟩ : BufTy).Contents (Elt F)),
    StableHlo.binary main_v80 main_v82 main_v83 (addf : (⟨S8192x2, .f32⟩ : BufTy).Contents (Elt F) → (⟨S8192x2, .f32⟩ : BufTy).Contents (Elt F) → (⟨S8192x2, .f32⟩ : BufTy).Contents (Elt F)) ]

/-- The references these operations write, in order. -/
abbrev segStep6_wl : List (Ref sig .tc) := [main_v75, main_v76, main_v77, main_v78, main_cst_19, main_v79, main_v80, main_cst_20, main_v81, main_v82, main_v83]

theorem segStep6_writes : (segStep6 : List (HloOp τ sig (Elt F))).Forall fun op => op.writes ⊆ (segStep6_wl.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem segStep6_keep {r : Ref sig .tc} (h : r ∉ segStep6_wl) (W : Valuation τ sig (Elt F)) :
    after segStep6 W (Proc.devRef .tc r) = W (Proc.devRef .tc r) :=
  after_of_writes_sub segStep6 W segStep6_writes h

/-- Propagation 6 leaves one step of the contents of its input buffer in its result buffer. -/
theorem step6_out (W : Valuation τ sig (Elt F)) :
    after segStep6 W (Proc.devRef .tc main_v83)
      = step (W (Proc.devRef .tc main_v29)) (W (Proc.devRef .tc main_v11)) (W (Proc.devRef .tc main_v74)) := by
  after_results_simp
  rfl

/-- Propagation 7 (operations 108 to 118 of 209), in order. -/
abbrev segStep7 : List (HloOp τ sig (Elt F)) :=
  [ StableHlo.unary main_v11 main_v84 (broadcastInDim S8192x1 ![0] bcast_S8192_S8192x1_0 : (⟨S8192, .f32⟩ : BufTy).Contents (Elt F) → (⟨S8192x1, .f32⟩ : BufTy).Contents (Elt F)),
    StableHlo.binary main_v29 main_v83 main_v85 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v84 main_v86 (broadcastInDim S8192x2 ![0, 1] bcast_S8192x1_S8192x2_0_1 : (⟨S8192x1, .f32⟩ : BufTy).Contents (Elt F) → (⟨S8192x2, .f32⟩ : BufTy).Contents (Elt F)),
    StableHlo.binary main_v86 main_v85 main_v87 (mulf : (⟨S8192x2, .f32⟩ : BufTy).Contents (Elt F) → (⟨S8192x2, .f32⟩ : BufTy).Contents (Elt F) → (⟨S8192x2, .f32⟩ : BufTy).Contents (Elt F)),
    StableHlo.nullary main_cst_21 (constant S_ .f32 0x3F000000#32),
    StableHlo.unary main_cst_21 main_v88 (broadcastInDim S8192x2 ![] bcast_S_S8192x2 : (⟨S_, .f32⟩ : BufTy).Contents (Elt F) → (⟨S8192x2, .f32⟩ : BufTy).Contents (Elt F)),
    StableHlo.binary main_v88 main_v83 main_v89 (mulf : (⟨S8192x2, .f32⟩ : BufTy).Contents (Elt F) → (⟨S8192x2, .f32⟩ : BufTy).Contents (Elt F) → (⟨S8192x2, .f32⟩ : BufTy).Contents (Elt F)),
    StableHlo.nullary main_cst_22 (constant S_ .f32 0x3F000000#32),
    StableHlo.unary main_cst_22 main_v90 (broadcastInDim S8192x2 ![] bcast_S_S8192x2 : (⟨S_, .f32⟩ : BufTy).Contents (Elt F) → (⟨S8192x2, .f32⟩ : BufTy).Contents (Elt F)),
    StableHlo.binary main_v90 main_v87 main_v91 (mulf : (⟨S8192x2, .f32⟩ : BufTy).Contents (Elt F) → (⟨S8192x2, .f32⟩ : BufTy).Contents (Elt F) → (⟨S8192x2, .f32⟩ : BufTy).Contents (Elt F)),
    StableHlo.binary main_v89 main_v91 main_v92 (addf : (⟨S8192x2, .f32⟩ : BufTy).Contents (Elt F) → (⟨S8192x2, .f32⟩ : BufTy).Contents (Elt F) → (⟨S8192x2, .f32⟩ : BufTy).Contents (Elt F)) ]

/-- The references these operations write, in order. -/
abbrev segStep7_wl : List (Ref sig .tc) := [main_v84, main_v85, main_v86, main_v87, main_cst_21, main_v88, main_v89, main_cst_22, main_v90, main_v91, main_v92]

theorem segStep7_writes : (segStep7 : List (HloOp τ sig (Elt F))).Forall fun op => op.writes ⊆ (segStep7_wl.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem segStep7_keep {r : Ref sig .tc} (h : r ∉ segStep7_wl) (W : Valuation τ sig (Elt F)) :
    after segStep7 W (Proc.devRef .tc r) = W (Proc.devRef .tc r) :=
  after_of_writes_sub segStep7 W segStep7_writes h

/-- Propagation 7 leaves one step of the contents of its input buffer in its result buffer. -/
theorem step7_out (W : Valuation τ sig (Elt F)) :
    after segStep7 W (Proc.devRef .tc main_v92)
      = step (W (Proc.devRef .tc main_v29)) (W (Proc.devRef .tc main_v11)) (W (Proc.devRef .tc main_v83)) := by
  after_results_simp
  rfl

/-- Propagation 8 (operations 119 to 129 of 209), in order. -/
abbrev segStep8 : List (HloOp τ sig (Elt F)) :=
  [ StableHlo.unary main_v11 main_v93 (broadcastInDim S8192x1 ![0] bcast_S8192_S8192x1_0 : (⟨S8192, .f32⟩ : BufTy).Contents (Elt F) → (⟨S8192x1, .f32⟩ : BufTy).Contents (Elt F)),
    StableHlo.binary main_v29 main_v92 main_v94 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v93 main_v95 (broadcastInDim S8192x2 ![0, 1] bcast_S8192x1_S8192x2_0_1 : (⟨S8192x1, .f32⟩ : BufTy).Contents (Elt F) → (⟨S8192x2, .f32⟩ : BufTy).Contents (Elt F)),
    StableHlo.binary main_v95 main_v94 main_v96 (mulf : (⟨S8192x2, .f32⟩ : BufTy).Contents (Elt F) → (⟨S8192x2, .f32⟩ : BufTy).Contents (Elt F) → (⟨S8192x2, .f32⟩ : BufTy).Contents (Elt F)),
    StableHlo.nullary main_cst_23 (constant S_ .f32 0x3F000000#32),
    StableHlo.unary main_cst_23 main_v97 (broadcastInDim S8192x2 ![] bcast_S_S8192x2 : (⟨S_, .f32⟩ : BufTy).Contents (Elt F) → (⟨S8192x2, .f32⟩ : BufTy).Contents (Elt F)),
    StableHlo.binary main_v97 main_v92 main_v98 (mulf : (⟨S8192x2, .f32⟩ : BufTy).Contents (Elt F) → (⟨S8192x2, .f32⟩ : BufTy).Contents (Elt F) → (⟨S8192x2, .f32⟩ : BufTy).Contents (Elt F)),
    StableHlo.nullary main_cst_24 (constant S_ .f32 0x3F000000#32),
    StableHlo.unary main_cst_24 main_v99 (broadcastInDim S8192x2 ![] bcast_S_S8192x2 : (⟨S_, .f32⟩ : BufTy).Contents (Elt F) → (⟨S8192x2, .f32⟩ : BufTy).Contents (Elt F)),
    StableHlo.binary main_v99 main_v96 main_v100 (mulf : (⟨S8192x2, .f32⟩ : BufTy).Contents (Elt F) → (⟨S8192x2, .f32⟩ : BufTy).Contents (Elt F) → (⟨S8192x2, .f32⟩ : BufTy).Contents (Elt F)),
    StableHlo.binary main_v98 main_v100 main_v101 (addf : (⟨S8192x2, .f32⟩ : BufTy).Contents (Elt F) → (⟨S8192x2, .f32⟩ : BufTy).Contents (Elt F) → (⟨S8192x2, .f32⟩ : BufTy).Contents (Elt F)) ]

/-- The references these operations write, in order. -/
abbrev segStep8_wl : List (Ref sig .tc) := [main_v93, main_v94, main_v95, main_v96, main_cst_23, main_v97, main_v98, main_cst_24, main_v99, main_v100, main_v101]

theorem segStep8_writes : (segStep8 : List (HloOp τ sig (Elt F))).Forall fun op => op.writes ⊆ (segStep8_wl.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem segStep8_keep {r : Ref sig .tc} (h : r ∉ segStep8_wl) (W : Valuation τ sig (Elt F)) :
    after segStep8 W (Proc.devRef .tc r) = W (Proc.devRef .tc r) :=
  after_of_writes_sub segStep8 W segStep8_writes h

/-- Propagation 8 leaves one step of the contents of its input buffer in its result buffer. -/
theorem step8_out (W : Valuation τ sig (Elt F)) :
    after segStep8 W (Proc.devRef .tc main_v101)
      = step (W (Proc.devRef .tc main_v29)) (W (Proc.devRef .tc main_v11)) (W (Proc.devRef .tc main_v92)) := by
  after_results_simp
  rfl

/-- Propagation 9 (operations 130 to 140 of 209), in order. -/
abbrev segStep9 : List (HloOp τ sig (Elt F)) :=
  [ StableHlo.unary main_v11 main_v102 (broadcastInDim S8192x1 ![0] bcast_S8192_S8192x1_0 : (⟨S8192, .f32⟩ : BufTy).Contents (Elt F) → (⟨S8192x1, .f32⟩ : BufTy).Contents (Elt F)),
    StableHlo.binary main_v29 main_v101 main_v103 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v102 main_v104 (broadcastInDim S8192x2 ![0, 1] bcast_S8192x1_S8192x2_0_1 : (⟨S8192x1, .f32⟩ : BufTy).Contents (Elt F) → (⟨S8192x2, .f32⟩ : BufTy).Contents (Elt F)),
    StableHlo.binary main_v104 main_v103 main_v105 (mulf : (⟨S8192x2, .f32⟩ : BufTy).Contents (Elt F) → (⟨S8192x2, .f32⟩ : BufTy).Contents (Elt F) → (⟨S8192x2, .f32⟩ : BufTy).Contents (Elt F)),
    StableHlo.nullary main_cst_25 (constant S_ .f32 0x3F000000#32),
    StableHlo.unary main_cst_25 main_v106 (broadcastInDim S8192x2 ![] bcast_S_S8192x2 : (⟨S_, .f32⟩ : BufTy).Contents (Elt F) → (⟨S8192x2, .f32⟩ : BufTy).Contents (Elt F)),
    StableHlo.binary main_v106 main_v101 main_v107 (mulf : (⟨S8192x2, .f32⟩ : BufTy).Contents (Elt F) → (⟨S8192x2, .f32⟩ : BufTy).Contents (Elt F) → (⟨S8192x2, .f32⟩ : BufTy).Contents (Elt F)),
    StableHlo.nullary main_cst_26 (constant S_ .f32 0x3F000000#32),
    StableHlo.unary main_cst_26 main_v108 (broadcastInDim S8192x2 ![] bcast_S_S8192x2 : (⟨S_, .f32⟩ : BufTy).Contents (Elt F) → (⟨S8192x2, .f32⟩ : BufTy).Contents (Elt F)),
    StableHlo.binary main_v108 main_v105 main_v109 (mulf : (⟨S8192x2, .f32⟩ : BufTy).Contents (Elt F) → (⟨S8192x2, .f32⟩ : BufTy).Contents (Elt F) → (⟨S8192x2, .f32⟩ : BufTy).Contents (Elt F)),
    StableHlo.binary main_v107 main_v109 main_v110 (addf : (⟨S8192x2, .f32⟩ : BufTy).Contents (Elt F) → (⟨S8192x2, .f32⟩ : BufTy).Contents (Elt F) → (⟨S8192x2, .f32⟩ : BufTy).Contents (Elt F)) ]

/-- The references these operations write, in order. -/
abbrev segStep9_wl : List (Ref sig .tc) := [main_v102, main_v103, main_v104, main_v105, main_cst_25, main_v106, main_v107, main_cst_26, main_v108, main_v109, main_v110]

theorem segStep9_writes : (segStep9 : List (HloOp τ sig (Elt F))).Forall fun op => op.writes ⊆ (segStep9_wl.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem segStep9_keep {r : Ref sig .tc} (h : r ∉ segStep9_wl) (W : Valuation τ sig (Elt F)) :
    after segStep9 W (Proc.devRef .tc r) = W (Proc.devRef .tc r) :=
  after_of_writes_sub segStep9 W segStep9_writes h

/-- Propagation 9 leaves one step of the contents of its input buffer in its result buffer. -/
theorem step9_out (W : Valuation τ sig (Elt F)) :
    after segStep9 W (Proc.devRef .tc main_v110)
      = step (W (Proc.devRef .tc main_v29)) (W (Proc.devRef .tc main_v11)) (W (Proc.devRef .tc main_v101)) := by
  after_results_simp
  rfl

/-- Propagation 10 (operations 141 to 151 of 209), in order. -/
abbrev segStep10 : List (HloOp τ sig (Elt F)) :=
  [ StableHlo.unary main_v11 main_v111 (broadcastInDim S8192x1 ![0] bcast_S8192_S8192x1_0 : (⟨S8192, .f32⟩ : BufTy).Contents (Elt F) → (⟨S8192x1, .f32⟩ : BufTy).Contents (Elt F)),
    StableHlo.binary main_v29 main_v110 main_v112 ((fun l r => Host.dotGeneral dot_S8192x8192_S8192x2_S8192x2_1_0_0_1_n_n none l r) : (⟨S8192x8192, .f32⟩ : BufTy).Contents (Elt F) → (⟨S8192x2, .f32⟩ : BufTy).Contents (Elt F) → (⟨S8192x2, .f32⟩ : BufTy).Contents (Elt F)),
    StableHlo.unary main_v111 main_v113 (broadcastInDim S8192x2 ![0, 1] bcast_S8192x1_S8192x2_0_1 : (⟨S8192x1, .f32⟩ : BufTy).Contents (Elt F) → (⟨S8192x2, .f32⟩ : BufTy).Contents (Elt F)),
    StableHlo.binary main_v113 main_v112 main_v114 (mulf : (⟨S8192x2, .f32⟩ : BufTy).Contents (Elt F) → (⟨S8192x2, .f32⟩ : BufTy).Contents (Elt F) → (⟨S8192x2, .f32⟩ : BufTy).Contents (Elt F)),
    StableHlo.nullary main_cst_27 (constant S_ .f32 0x3F000000#32),
    StableHlo.unary main_cst_27 main_v115 (broadcastInDim S8192x2 ![] bcast_S_S8192x2 : (⟨S_, .f32⟩ : BufTy).Contents (Elt F) → (⟨S8192x2, .f32⟩ : BufTy).Contents (Elt F)),
    StableHlo.binary main_v115 main_v110 main_v116 (mulf : (⟨S8192x2, .f32⟩ : BufTy).Contents (Elt F) → (⟨S8192x2, .f32⟩ : BufTy).Contents (Elt F) → (⟨S8192x2, .f32⟩ : BufTy).Contents (Elt F)),
    StableHlo.nullary main_cst_28 (constant S_ .f32 0x3F000000#32),
    StableHlo.unary main_cst_28 main_v117 (broadcastInDim S8192x2 ![] bcast_S_S8192x2 : (⟨S_, .f32⟩ : BufTy).Contents (Elt F) → (⟨S8192x2, .f32⟩ : BufTy).Contents (Elt F)),
    StableHlo.binary main_v117 main_v114 main_v118 (mulf : (⟨S8192x2, .f32⟩ : BufTy).Contents (Elt F) → (⟨S8192x2, .f32⟩ : BufTy).Contents (Elt F) → (⟨S8192x2, .f32⟩ : BufTy).Contents (Elt F)),
    StableHlo.binary main_v116 main_v118 main_v119 (addf : (⟨S8192x2, .f32⟩ : BufTy).Contents (Elt F) → (⟨S8192x2, .f32⟩ : BufTy).Contents (Elt F) → (⟨S8192x2, .f32⟩ : BufTy).Contents (Elt F)) ]

/-- The references these operations write, in order. -/
abbrev segStep10_wl : List (Ref sig .tc) := [main_v111, main_v112, main_v113, main_v114, main_cst_27, main_v115, main_v116, main_cst_28, main_v117, main_v118, main_v119]

theorem segStep10_writes : (segStep10 : List (HloOp τ sig (Elt F))).Forall fun op => op.writes ⊆ (segStep10_wl.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem segStep10_keep {r : Ref sig .tc} (h : r ∉ segStep10_wl) (W : Valuation τ sig (Elt F)) :
    after segStep10 W (Proc.devRef .tc r) = W (Proc.devRef .tc r) :=
  after_of_writes_sub segStep10 W segStep10_writes h

/-- Propagation 10 leaves one step of the contents of its input buffer in its result buffer. -/
theorem step10_out (W : Valuation τ sig (Elt F)) :
    after segStep10 W (Proc.devRef .tc main_v119)
      = step (W (Proc.devRef .tc main_v29)) (W (Proc.devRef .tc main_v11)) (W (Proc.devRef .tc main_v110)) := by
  after_results_simp
  rfl

end Cert.ReferenceIdeal.RefRun

end
-- ==== Proof.RefSegTail.lean ====
/-
  The last 58 operations of the reference computation, read as stages: from any contents of the buffers they leave in the
  buffer of %161 the loss tail of the contents of the buffer of %119 (the final posteriors) and of the two index arguments,
  plus the regulariser of the mask argument, and touch no other buffer they do not write.
-/
import proofs.«111186_j27504970563868_1_alg».proof.Proof.RefStages
import proofs.«111186_j27504970563868_1_alg».proof.Proof.RefKeep

noncomputable section

namespace Cert.ReferenceIdeal.RefRun

open Cert.ReferenceIdeal Cert.ReferenceIdeal.Gen Idealize.ShloMosaic Idealize.ShloMosaic.TcCoe Idealize.SL.Sem Idealize.ShloMosaic.StableHlo Cert.RefLists Cert.ReferenceIdeal.Stages

variable {F : FTy → Type} [FloatOps F]

/-- The operations after the last propagation (operations 152 to 209 of 209), in order. -/
abbrev segTail : List (HloOp τ sig (Elt F)) :=
  [ StableHlo.nullary main_c_29 (constantI S_ 32 0#32),
    StableHlo.unary main_c_29 main_v120 (broadcastInDim S512 ![] bcast_S_S512 : (⟨S_, .i32⟩ : BufTy).Contents (Elt F) → (⟨S512, .i32⟩ : BufTy).Contents (Elt F)),
    StableHlo.binary main_arg1 main_v120 main_v121 (cmpi .slt : (⟨S512, .i32⟩ : BufTy).Contents (Elt F) → (⟨S512, .i32⟩ : BufTy).Contents (Elt F) → (⟨S512, .i1⟩ : BufTy).Contents (Elt F)),
    StableHlo.nullary main_c_30 (constantI S_ 32 8192#32),
    StableHlo.unary main_c_30 main_v122 (broadcastInDim S512 ![] bcast_S_S512 : (⟨S_, .i32⟩ : BufTy).Contents (Elt F) → (⟨S512, .i32⟩ : BufTy).Contents (Elt F)),
    StableHlo.binary main_arg1 main_v122 main_v123 (addi : (⟨S512, .i32⟩ : BufTy).Contents (Elt F) → (⟨S512, .i32⟩ : BufTy).Contents (Elt F) → (⟨S512, .i32⟩ : BufTy).Contents (Elt F)),
    StableHlo.ternary main_v121 main_v123 main_arg1 main_v124 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.nullary main_c_31 (constantI S_ 32 1#32),
    StableHlo.unary main_c_31 main_v125 (broadcastInDim S512 ![] bcast_S_S512 : (⟨S_, .i32⟩ : BufTy).Contents (Elt F) → (⟨S512, .i32⟩ : BufTy).Contents (Elt F)),
    StableHlo.unary main_v125 main_v126 (id : (⟨S512, .i32⟩ : BufTy).Contents (Elt F) → (⟨S512, .i32⟩ : BufTy).Contents (Elt F)),
    StableHlo.unary main_v124 main_v127 (broadcastInDim S512x1 ![0] bcast_S512_S512x1_0 : (⟨S512, .i32⟩ : BufTy).Contents (Elt F) → (⟨S512x1, .i32⟩ : BufTy).Contents (Elt F)),
    StableHlo.unary main_v126 main_v128 (broadcastInDim S512x1 ![0] bcast_S512_S512x1_0 : (⟨S512, .i32⟩ : BufTy).Contents (Elt F) → (⟨S512x1, .i32⟩ : BufTy).Contents (Elt F)),
    StableHlo.binary main_v127 main_v128 main_v129 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    StableHlo.binary main_v119 main_v129 main_v130 ((fun x i => Host.gather gather_S8192x2_S512x2_S512_n_01_n_n_01_1_11 x i) : (⟨S8192x2, .f32⟩ : BufTy).Contents (Elt F) → (⟨S512x2, .i32⟩ : BufTy).Contents (Elt F) → (⟨S512, .f32⟩ : BufTy).Contents (Elt F)),
    StableHlo.nullary main_c_32 (constantI S_ 32 0#32),
    StableHlo.unary main_c_32 main_v131 (broadcastInDim S512 ![] bcast_S_S512 : (⟨S_, .i32⟩ : BufTy).Contents (Elt F) → (⟨S512, .i32⟩ : BufTy).Contents (Elt F)),
    StableHlo.binary main_arg2 main_v131 main_v132 (cmpi .slt : (⟨S512, .i32⟩ : BufTy).Contents (Elt F) → (⟨S512, .i32⟩ : BufTy).Contents (Elt F) → (⟨S512, .i1⟩ : BufTy).Contents (Elt F)),
    StableHlo.nullary main_c_33 (constantI S_ 32 8192#32),
    StableHlo.unary main_c_33 main_v133 (broadcastInDim S512 ![] bcast_S_S512 : (⟨S_, .i32⟩ : BufTy).Contents (Elt F) → (⟨S512, .i32⟩ : BufTy).Contents (Elt F)),
    StableHlo.binary main_arg2 main_v133 main_v134 (addi : (⟨S512, .i32⟩ : BufTy).Contents (Elt F) → (⟨S512, .i32⟩ : BufTy).Contents (Elt F) → (⟨S512, .i32⟩ : BufTy).Contents (Elt F)),
    StableHlo.ternary main_v132 main_v134 main_arg2 main_v135 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.nullary main_c_34 (constantI S_ 32 0#32),
    StableHlo.unary main_c_34 main_v136 (broadcastInDim S512 ![] bcast_S_S512 : (⟨S_, .i32⟩ : BufTy).Contents (Elt F) → (⟨S512, .i32⟩ : BufTy).Contents (Elt F)),
    StableHlo.unary main_v136 main_v137 (id : (⟨S512, .i32⟩ : BufTy).Contents (Elt F) → (⟨S512, .i32⟩ : BufTy).Contents (Elt F)),
    StableHlo.unary main_v135 main_v138 (broadcastInDim S512x1 ![0] bcast_S512_S512x1_0 : (⟨S512, .i32⟩ : BufTy).Contents (Elt F) → (⟨S512x1, .i32⟩ : BufTy).Contents (Elt F)),
    StableHlo.unary main_v137 main_v139 (broadcastInDim S512x1 ![0] bcast_S512_S512x1_0 : (⟨S512, .i32⟩ : BufTy).Contents (Elt F) → (⟨S512x1, .i32⟩ : BufTy).Contents (Elt F)),
    StableHlo.binary main_v138 main_v139 main_v140 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    StableHlo.binary main_v119 main_v140 main_v141 ((fun x i => Host.gather gather_S8192x2_S512x2_S512_n_01_n_n_01_1_11 x i) : (⟨S8192x2, .f32⟩ : BufTy).Contents (Elt F) → (⟨S512x2, .i32⟩ : BufTy).Contents (Elt F) → (⟨S512, .f32⟩ : BufTy).Contents (Elt F)),
    StableHlo.nullary main_cst_35 (constant S_ .f32 0x2EDBE6FF#32),
    StableHlo.unary main_cst_35 main_v142 (broadcastInDim S512 ![] bcast_S_S512 : (⟨S_, .f32⟩ : BufTy).Contents (Elt F) → (⟨S512, .f32⟩ : BufTy).Contents (Elt F)),
    StableHlo.binary main_v130 main_v142 main_v143 (addf : (⟨S512, .f32⟩ : BufTy).Contents (Elt F) → (⟨S512, .f32⟩ : BufTy).Contents (Elt F) → (⟨S512, .f32⟩ : BufTy).Contents (Elt F)),
    StableHlo.unary main_v143 main_v144 (Host.log : (⟨S512, .f32⟩ : BufTy).Contents (Elt F) → (⟨S512, .f32⟩ : BufTy).Contents (Elt F)),
    StableHlo.nullary main_cst_36 (constant S_ .f32 0x00000000#32),
    StableHlo.binary main_v144 main_cst_36 main_v145 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.nullary main_cst_37 (constant S_ .f32 0x44000000#32),
    StableHlo.binary main_v145 main_cst_37 main_v146 (Host.divf : (⟨S_, .f32⟩ : BufTy).Contents (Elt F) → (⟨S_, .f32⟩ : BufTy).Contents (Elt F) → (⟨S_, .f32⟩ : BufTy).Contents (Elt F)),
    StableHlo.unary main_v146 main_v147 (Host.negf : (⟨S_, .f32⟩ : BufTy).Contents (Elt F) → (⟨S_, .f32⟩ : BufTy).Contents (Elt F)),
    StableHlo.nullary main_cst_38 (constant S_ .f32 0x2EDBE6FF#32),
    StableHlo.unary main_cst_38 main_v148 (broadcastInDim S512 ![] bcast_S_S512 : (⟨S_, .f32⟩ : BufTy).Contents (Elt F) → (⟨S512, .f32⟩ : BufTy).Contents (Elt F)),
    StableHlo.binary main_v141 main_v148 main_v149 (addf : (⟨S512, .f32⟩ : BufTy).Contents (Elt F) → (⟨S512, .f32⟩ : BufTy).Contents (Elt F) → (⟨S512, .f32⟩ : BufTy).Contents (Elt F)),
    StableHlo.unary main_v149 main_v150 (Host.log : (⟨S512, .f32⟩ : BufTy).Contents (Elt F) → (⟨S512, .f32⟩ : BufTy).Contents (Elt F)),
    StableHlo.nullary main_cst_39 (constant S_ .f32 0x00000000#32),
    StableHlo.binary main_v150 main_cst_39 main_v151 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.nullary main_cst_40 (constant S_ .f32 0x44000000#32),
    StableHlo.binary main_v151 main_cst_40 main_v152 (Host.divf : (⟨S_, .f32⟩ : BufTy).Contents (Elt F) → (⟨S_, .f32⟩ : BufTy).Contents (Elt F) → (⟨S_, .f32⟩ : BufTy).Contents (Elt F)),
    StableHlo.unary main_v152 main_v153 (Host.negf : (⟨S_, .f32⟩ : BufTy).Contents (Elt F) → (⟨S_, .f32⟩ : BufTy).Contents (Elt F)),
    StableHlo.binary main_v153 main_v153 main_v154 (cmpf .une : (⟨S_, .f32⟩ : BufTy).Contents (Elt F) → (⟨S_, .f32⟩ : BufTy).Contents (Elt F) → (⟨S_, .i1⟩ : BufTy).Contents (Elt F)),
    StableHlo.nullary main_cst_41 (constant S_ .f32 0x3FE00000#32),
    StableHlo.TRef.ternary (.of main_v154) (.of main_cst_41) (.of main_v153) main_call0.v0 select,
    StableHlo.binary main_v147 main_v155 main_v156 (addf : (⟨S_, .f32⟩ : BufTy).Contents (Elt F) → (⟨S_, .f32⟩ : BufTy).Contents (Elt F) → (⟨S_, .f32⟩ : BufTy).Contents (Elt F)),
    StableHlo.binary main_arg4 main_arg4 main_v157 (mulf : (⟨S8192x8192, .f32⟩ : BufTy).Contents (Elt F) → (⟨S8192x8192, .f32⟩ : BufTy).Contents (Elt F) → (⟨S8192x8192, .f32⟩ : BufTy).Contents (Elt F)),
    StableHlo.nullary main_cst_42 (constant S_ .f32 0x00000000#32),
    StableHlo.binary main_v157 main_cst_42 main_v158 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.nullary main_cst_43 (constant S_ .f32 0x4C800000#32),
    StableHlo.binary main_v158 main_cst_43 main_v159 (Host.divf : (⟨S_, .f32⟩ : BufTy).Contents (Elt F) → (⟨S_, .f32⟩ : BufTy).Contents (Elt F) → (⟨S_, .f32⟩ : BufTy).Contents (Elt F)),
    StableHlo.nullary main_cst_44 (constant S_ .f32 0x3CA3D70A#32),
    StableHlo.binary main_cst_44 main_v159 main_v160 (mulf : (⟨S_, .f32⟩ : BufTy).Contents (Elt F) → (⟨S_, .f32⟩ : BufTy).Contents (Elt F) → (⟨S_, .f32⟩ : BufTy).Contents (Elt F)),
    StableHlo.binary main_v156 main_v160 main_v161 (addf : (⟨S_, .f32⟩ : BufTy).Contents (Elt F) → (⟨S_, .f32⟩ : BufTy).Contents (Elt F) → (⟨S_, .f32⟩ : BufTy).Contents (Elt F)) ]

/-- The references these operations write, in order. -/
abbrev segTail_wl : List (Ref sig .tc) := [main_c_29, main_v120, main_v121, main_c_30, main_v122, main_v123, main_v124, main_c_31, main_v125, main_v126, main_v127, main_v128, main_v129, main_v130, main_c_32, main_v131, main_v132, main_c_33, main_v133, main_v134, main_v135, main_c_34, main_v136, main_v137, main_v138, main_v139, main_v140, main_v141, main_cst_35, main_v142, main_v143, main_v144, main_cst_36, main_v145, main_cst_37, main_v146, main_v147, main_cst_38, main_v148, main_v149, main_v150, main_cst_39, main_v151, main_cst_40, main_v152, main_v153, main_v154, main_cst_41, main_v155, main_v156, main_v157, main_cst_42, main_v158, main_cst_43, main_v159, main_cst_44, main_v160, main_v161]

theorem segTail_writes : (segTail : List (HloOp τ sig (Elt F))).Forall fun op => op.writes ⊆ (segTail_wl.map (Proc.devRef (τ := τ) .tc)).toFinset :=
  ⟨single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide), single_sub_map (by decide)⟩

/-- A buffer none of these operations writes keeps its contents. -/
theorem segTail_keep {r : Ref sig .tc} (h : r ∉ segTail_wl) (W : Valuation τ sig (Elt F)) :
    after segTail W (Proc.devRef .tc r) = W (Proc.devRef .tc r) :=
  after_of_writes_sub segTail W segTail_writes h

attribute [local irreducible] Host.reduceAdd Host.gather concatenate in
/-- After them the buffer of %161 holds the loss tail of the final posteriors plus the regulariser. -/
theorem tail_v161 (W : Valuation τ sig (Elt F)) :
    after segTail W (Proc.devRef .tc main_v161)
      = addf (lplTail (W (Proc.devRef .tc main_v119)) (W (Proc.devRef .tc main_arg1)) (W (Proc.devRef .tc main_arg2)))
          (reg (W (Proc.devRef .tc main_arg4))) := by
  after_results_simp
  rfl

end Cert.ReferenceIdeal.RefRun

end
-- ==== Proof.RefRun.lean ====
/-
  The reference computation's two results as stage functions of its argument arrays. The 209 operations are the first 41
  (which leave the masked adjacency, the inverse degrees and the initial posteriors), ten propagations of eleven operations
  each, and the last 58 (the loss tail and the regulariser). Reading the buffers stretch by stretch — each stretch from
  what the one before left, the buffers it does not write carried over — the loss buffer ends at the loss of the four
  arrays it depends on and the masked-adjacency buffer at M * (A + I). With the run of the whole line this gives: every
  weakly fair execution terminates with those two results and the five arguments unchanged.
-/
import proofs.«111186_j27504970563868_1_alg».proof.Proof.RefOps
import proofs.«111186_j27504970563868_1_alg».proof.Proof.RefSegPre
import proofs.«111186_j27504970563868_1_alg».proof.Proof.RefSegStepA
import proofs.«111186_j27504970563868_1_alg».proof.Proof.RefSegStepB
import proofs.«111186_j27504970563868_1_alg».proof.Proof.RefSegTail

noncomputable section

namespace Cert.ReferenceIdeal.RefRun

open Cert.ReferenceIdeal Cert.ReferenceIdeal.Gen Idealize.ShloMosaic Idealize.ShloMosaic.TcCoe Idealize.SL.Sem Idealize.ShloMosaic.StableHlo Cert.RefLists Cert.ReferenceIdeal.Stages

variable {F : FTy → Type} [FloatOps F]

/-- The 209 operations are the first stretch, the ten propagations and the last stretch, in order. -/
theorem ops_eq : (ops : List (HloOp τ sig (Elt F)))
    = segPre ++ (segStep1 ++ (segStep2 ++ (segStep3 ++ (segStep4 ++ (segStep5 ++ (segStep6 ++ (segStep7 ++ (segStep8 ++ (segStep9 ++ (segStep10 ++ (segTail))))))))))) := rfl

set_option maxHeartbeats 1000000 in
/-- What the two result buffers hold after the 209 operations, from any contents `V`: the loss of the contents of the two
    index arguments, the adjacency argument and the mask argument; and the masked adjacency. -/
theorem results_after (V : Valuation τ sig (Elt F)) :
    after ops V (Proc.devRef .tc main_v161)
        = loss (V (Proc.devRef .tc main_arg1)) (V (Proc.devRef .tc main_arg2)) (V (Proc.devRef .tc main_arg3)) (V (Proc.devRef .tc main_arg4))
      ∧ after ops V (Proc.devRef .tc main_v29) = Ahat (V (Proc.devRef .tc main_arg3)) (V (Proc.devRef .tc main_arg4)) := by
  rw [ops_eq]
  simp only [after_app]
  generalize hW0 : after segPre V = W0
  generalize hW1 : after segStep1 W0 = W1
  generalize hW2 : after segStep2 W1 = W2
  generalize hW3 : after segStep3 W2 = W3
  generalize hW4 : after segStep4 W3 = W4
  generalize hW5 : after segStep5 W4 = W5
  generalize hW6 : after segStep6 W5 = W6
  generalize hW7 : after segStep7 W6 = W7
  generalize hW8 : after segStep8 W7 = W8
  generalize hW9 : after segStep9 W8 = W9
  generalize hW10 : after segStep10 W9 = W10
  have a0 : W0 (Proc.devRef .tc main_v29) = Ahat (V (Proc.devRef .tc main_arg3)) (V (Proc.devRef .tc main_arg4)) := by rw [← hW0, pre_v29]
  have d0 : W0 (Proc.devRef .tc main_v11) = dinv (V (Proc.devRef .tc main_arg3)) := by rw [← hW0, pre_v11]
  have e0 : W0 (Proc.devRef .tc main_v28) = (step (Ahat (V (Proc.devRef .tc main_arg3)) (V (Proc.devRef .tc main_arg4))) (dinv (V (Proc.devRef .tc main_arg3))))^[0] (E0 (V (Proc.devRef .tc main_arg1)) (V (Proc.devRef .tc main_arg2))) := by rw [← hW0, pre_v28]; rfl
  have i0 : W0 (Proc.devRef .tc main_arg1) = V (Proc.devRef .tc main_arg1) := by rw [← hW0]; exact segPre_keep (by decide) V
  have j0 : W0 (Proc.devRef .tc main_arg2) = V (Proc.devRef .tc main_arg2) := by rw [← hW0]; exact segPre_keep (by decide) V
  have m0 : W0 (Proc.devRef .tc main_arg4) = V (Proc.devRef .tc main_arg4) := by rw [← hW0]; exact segPre_keep (by decide) V
  have a1 : W1 (Proc.devRef .tc main_v29) = Ahat (V (Proc.devRef .tc main_arg3)) (V (Proc.devRef .tc main_arg4)) := by rw [← hW1, segStep1_keep (by decide), a0]
  have d1 : W1 (Proc.devRef .tc main_v11) = dinv (V (Proc.devRef .tc main_arg3)) := by rw [← hW1, segStep1_keep (by decide), d0]
  have e1 : W1 (Proc.devRef .tc main_v38) = (step (Ahat (V (Proc.devRef .tc main_arg3)) (V (Proc.devRef .tc main_arg4))) (dinv (V (Proc.devRef .tc main_arg3))))^[1] (E0 (V (Proc.devRef .tc main_arg1)) (V (Proc.devRef .tc main_arg2))) := by rw [← hW1, step1_out, a0, d0, e0]; rfl
  have i1 : W1 (Proc.devRef .tc main_arg1) = V (Proc.devRef .tc main_arg1) := by rw [← hW1, segStep1_keep (by decide), i0]
  have j1 : W1 (Proc.devRef .tc main_arg2) = V (Proc.devRef .tc main_arg2) := by rw [← hW1, segStep1_keep (by decide), j0]
  have m1 : W1 (Proc.devRef .tc main_arg4) = V (Proc.devRef .tc main_arg4) := by rw [← hW1, segStep1_keep (by decide), m0]
  have a2 : W2 (Proc.devRef .tc main_v29) = Ahat (V (Proc.devRef .tc main_arg3)) (V (Proc.devRef .tc main_arg4)) := by rw [← hW2, segStep2_keep (by decide), a1]
  have d2 : W2 (Proc.devRef .tc main_v11) = dinv (V (Proc.devRef .tc main_arg3)) := by rw [← hW2, segStep2_keep (by decide), d1]
  have e2 : W2 (Proc.devRef .tc main_v47) = (step (Ahat (V (Proc.devRef .tc main_arg3)) (V (Proc.devRef .tc main_arg4))) (dinv (V (Proc.devRef .tc main_arg3))))^[2] (E0 (V (Proc.devRef .tc main_arg1)) (V (Proc.devRef .tc main_arg2))) := by rw [← hW2, step2_out, a1, d1, e1]; rfl
  have i2 : W2 (Proc.devRef .tc main_arg1) = V (Proc.devRef .tc main_arg1) := by rw [← hW2, segStep2_keep (by decide), i1]
  have j2 : W2 (Proc.devRef .tc main_arg2) = V (Proc.devRef .tc main_arg2) := by rw [← hW2, segStep2_keep (by decide), j1]
  have m2 : W2 (Proc.devRef .tc main_arg4) = V (Proc.devRef .tc main_arg4) := by rw [← hW2, segStep2_keep (by decide), m1]
  have a3 : W3 (Proc.devRef .tc main_v29) = Ahat (V (Proc.devRef .tc main_arg3)) (V (Proc.devRef .tc main_arg4)) := by rw [← hW3, segStep3_keep (by decide), a2]
  have d3 : W3 (Proc.devRef .tc main_v11) = dinv (V (Proc.devRef .tc main_arg3)) := by rw [← hW3, segStep3_keep (by decide), d2]
  have e3 : W3 (Proc.devRef .tc main_v56) = (step (Ahat (V (Proc.devRef .tc main_arg3)) (V (Proc.devRef .tc main_arg4))) (dinv (V (Proc.devRef .tc main_arg3))))^[3] (E0 (V (Proc.devRef .tc main_arg1)) (V (Proc.devRef .tc main_arg2))) := by rw [← hW3, step3_out, a2, d2, e2]; rfl
  have i3 : W3 (Proc.devRef .tc main_arg1) = V (Proc.devRef .tc main_arg1) := by rw [← hW3, segStep3_keep (by decide), i2]
  have j3 : W3 (Proc.devRef .tc main_arg2) = V (Proc.devRef .tc main_arg2) := by rw [← hW3, segStep3_keep (by decide), j2]
  have m3 : W3 (Proc.devRef .tc main_arg4) = V (Proc.devRef .tc main_arg4) := by rw [← hW3, segStep3_keep (by decide), m2]
  have a4 : W4 (Proc.devRef .tc main_v29) = Ahat (V (Proc.devRef .tc main_arg3)) (V (Proc.devRef .tc main_arg4)) := by rw [← hW4, segStep4_keep (by decide), a3]
  have d4 : W4 (Proc.devRef .tc main_v11) = dinv (V (Proc.devRef .tc main_arg3)) := by rw [← hW4, segStep4_keep (by decide), d3]
  have e4 : W4 (Proc.devRef .tc main_v65) = (step (Ahat (V (Proc.devRef .tc main_arg3)) (V (Proc.devRef .tc main_arg4))) (dinv (V (Proc.devRef .tc main_arg3))))^[4] (E0 (V (Proc.devRef .tc main_arg1)) (V (Proc.devRef .tc main_arg2))) := by rw [← hW4, step4_out, a3, d3, e3]; rfl
  have i4 : W4 (Proc.devRef .tc main_arg1) = V (Proc.devRef .tc main_arg1) := by rw [← hW4, segStep4_keep (by decide), i3]
  have j4 : W4 (Proc.devRef .tc main_arg2) = V (Proc.devRef .tc main_arg2) := by rw [← hW4, segStep4_keep (by decide), j3]
  have m4 : W4 (Proc.devRef .tc main_arg4) = V (Proc.devRef .tc main_arg4) := by rw [← hW4, segStep4_keep (by decide), m3]
  have a5 : W5 (Proc.devRef .tc main_v29) = Ahat (V (Proc.devRef .tc main_arg3)) (V (Proc.devRef .tc main_arg4)) := by rw [← hW5, segStep5_keep (by decide), a4]
  have d5 : W5 (Proc.devRef .tc main_v11) = dinv (V (Proc.devRef .tc main_arg3)) := by rw [← hW5, segStep5_keep (by decide), d4]
  have e5 : W5 (Proc.devRef .tc main_v74) = (step (Ahat (V (Proc.devRef .tc main_arg3)) (V (Proc.devRef .tc main_arg4))) (dinv (V (Proc.devRef .tc main_arg3))))^[5] (E0 (V (Proc.devRef .tc main_arg1)) (V (Proc.devRef .tc main_arg2))) := by rw [← hW5, step5_out, a4, d4, e4]; rfl
  have i5 : W5 (Proc.devRef .tc main_arg1) = V (Proc.devRef .tc main_arg1) := by rw [← hW5, segStep5_keep (by decide), i4]
  have j5 : W5 (Proc.devRef .tc main_arg2) = V (Proc.devRef .tc main_arg2) := by rw [← hW5, segStep5_keep (by decide), j4]
  have m5 : W5 (Proc.devRef .tc main_arg4) = V (Proc.devRef .tc main_arg4) := by rw [← hW5, segStep5_keep (by decide), m4]
  have a6 : W6 (Proc.devRef .tc main_v29) = Ahat (V (Proc.devRef .tc main_arg3)) (V (Proc.devRef .tc main_arg4)) := by rw [← hW6, segStep6_keep (by decide), a5]
  have d6 : W6 (Proc.devRef .tc main_v11) = dinv (V (Proc.devRef .tc main_arg3)) := by rw [← hW6, segStep6_keep (by decide), d5]
  have e6 : W6 (Proc.devRef .tc main_v83) = (step (Ahat (V (Proc.devRef .tc main_arg3)) (V (Proc.devRef .tc main_arg4))) (dinv (V (Proc.devRef .tc main_arg3))))^[6] (E0 (V (Proc.devRef .tc main_arg1)) (V (Proc.devRef .tc main_arg2))) := by rw [← hW6, step6_out, a5, d5, e5]; rfl
  have i6 : W6 (Proc.devRef .tc main_arg1) = V (Proc.devRef .tc main_arg1) := by rw [← hW6, segStep6_keep (by decide), i5]
  have j6 : W6 (Proc.devRef .tc main_arg2) = V (Proc.devRef .tc main_arg2) := by rw [← hW6, segStep6_keep (by decide), j5]
  have m6 : W6 (Proc.devRef .tc main_arg4) = V (Proc.devRef .tc main_arg4) := by rw [← hW6, segStep6_keep (by decide), m5]
  have a7 : W7 (Proc.devRef .tc main_v29) = Ahat (V (Proc.devRef .tc main_arg3)) (V (Proc.devRef .tc main_arg4)) := by rw [← hW7, segStep7_keep (by decide), a6]
  have d7 : W7 (Proc.devRef .tc main_v11) = dinv (V (Proc.devRef .tc main_arg3)) := by rw [← hW7, segStep7_keep (by decide), d6]
  have e7 : W7 (Proc.devRef .tc main_v92) = (step (Ahat (V (Proc.devRef .tc main_arg3)) (V (Proc.devRef .tc main_arg4))) (dinv (V (Proc.devRef .tc main_arg3))))^[7] (E0 (V (Proc.devRef .tc main_arg1)) (V (Proc.devRef .tc main_arg2))) := by rw [← hW7, step7_out, a6, d6, e6]; rfl
  have i7 : W7 (Proc.devRef .tc main_arg1) = V (Proc.devRef .tc main_arg1) := by rw [← hW7, segStep7_keep (by decide), i6]
  have j7 : W7 (Proc.devRef .tc main_arg2) = V (Proc.devRef .tc main_arg2) := by rw [← hW7, segStep7_keep (by decide), j6]
  have m7 : W7 (Proc.devRef .tc main_arg4) = V (Proc.devRef .tc main_arg4) := by rw [← hW7, segStep7_keep (by decide), m6]
  have a8 : W8 (Proc.devRef .tc main_v29) = Ahat (V (Proc.devRef .tc main_arg3)) (V (Proc.devRef .tc main_arg4)) := by rw [← hW8, segStep8_keep (by decide), a7]
  have d8 : W8 (Proc.devRef .tc main_v11) = dinv (V (Proc.devRef .tc main_arg3)) := by rw [← hW8, segStep8_keep (by decide), d7]
  have e8 : W8 (Proc.devRef .tc main_v101) = (step (Ahat (V (Proc.devRef .tc main_arg3)) (V (Proc.devRef .tc main_arg4))) (dinv (V (Proc.devRef .tc main_arg3))))^[8] (E0 (V (Proc.devRef .tc main_arg1)) (V (Proc.devRef .tc main_arg2))) := by rw [← hW8, step8_out, a7, d7, e7]; rfl
  have i8 : W8 (Proc.devRef .tc main_arg1) = V (Proc.devRef .tc main_arg1) := by rw [← hW8, segStep8_keep (by decide), i7]
  have j8 : W8 (Proc.devRef .tc main_arg2) = V (Proc.devRef .tc main_arg2) := by rw [← hW8, segStep8_keep (by decide), j7]
  have m8 : W8 (Proc.devRef .tc main_arg4) = V (Proc.devRef .tc main_arg4) := by rw [← hW8, segStep8_keep (by decide), m7]
  have a9 : W9 (Proc.devRef .tc main_v29) = Ahat (V (Proc.devRef .tc main_arg3)) (V (Proc.devRef .tc main_arg4)) := by rw [← hW9, segStep9_keep (by decide), a8]
  have d9 : W9 (Proc.devRef .tc main_v11) = dinv (V (Proc.devRef .tc main_arg3)) := by rw [← hW9, segStep9_keep (by decide), d8]
  have e9 : W9 (Proc.devRef .tc main_v110) = (step (Ahat (V (Proc.devRef .tc main_arg3)) (V (Proc.devRef .tc main_arg4))) (dinv (V (Proc.devRef .tc main_arg3))))^[9] (E0 (V (Proc.devRef .tc main_arg1)) (V (Proc.devRef .tc main_arg2))) := by rw [← hW9, step9_out, a8, d8, e8]; rfl
  have i9 : W9 (Proc.devRef .tc main_arg1) = V (Proc.devRef .tc main_arg1) := by rw [← hW9, segStep9_keep (by decide), i8]
  have j9 : W9 (Proc.devRef .tc main_arg2) = V (Proc.devRef .tc main_arg2) := by rw [← hW9, segStep9_keep (by decide), j8]
  have m9 : W9 (Proc.devRef .tc main_arg4) = V (Proc.devRef .tc main_arg4) := by rw [← hW9, segStep9_keep (by decide), m8]
  have a10 : W10 (Proc.devRef .tc main_v29) = Ahat (V (Proc.devRef .tc main_arg3)) (V (Proc.devRef .tc main_arg4)) := by rw [← hW10, segStep10_keep (by decide), a9]
  have d10 : W10 (Proc.devRef .tc main_v11) = dinv (V (Proc.devRef .tc main_arg3)) := by rw [← hW10, segStep10_keep (by decide), d9]
  have e10 : W10 (Proc.devRef .tc main_v119) = (step (Ahat (V (Proc.devRef .tc main_arg3)) (V (Proc.devRef .tc main_arg4))) (dinv (V (Proc.devRef .tc main_arg3))))^[10] (E0 (V (Proc.devRef .tc main_arg1)) (V (Proc.devRef .tc main_arg2))) := by rw [← hW10, step10_out, a9, d9, e9]; rfl
  have i10 : W10 (Proc.devRef .tc main_arg1) = V (Proc.devRef .tc main_arg1) := by rw [← hW10, segStep10_keep (by decide), i9]
  have j10 : W10 (Proc.devRef .tc main_arg2) = V (Proc.devRef .tc main_arg2) := by rw [← hW10, segStep10_keep (by decide), j9]
  have m10 : W10 (Proc.devRef .tc main_arg4) = V (Proc.devRef .tc main_arg4) := by rw [← hW10, segStep10_keep (by decide), m9]
  refine ⟨?_, ?_⟩
  · rw [tail_v161, e10, i10, j10, m10]; rfl
  · rw [segTail_keep (by decide), a10]

/-- Every weakly fair execution of the reference program terminates with the loss of its arguments in the buffer of %161,
    the masked adjacency M * (A + I) in the buffer of %29, and its five argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v161)
          = loss (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_v29)
          = Ahat (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v161).trans (results_after (launchContents m c)).1,
     (h c main_v29).trans (results_after (launchContents m c)).2,
     (h c main_arg0).trans (ops_keep (by decide) (by decide) (by decide) (by decide) _),
     (h c main_arg1).trans (ops_keep (by decide) (by decide) (by decide) (by decide) _),
     (h c main_arg2).trans (ops_keep (by decide) (by decide) (by decide) (by decide) _),
     (h c main_arg3).trans (ops_keep (by decide) (by decide) (by decide) (by decide) _),
     (h c main_arg4).trans (ops_keep (by decide) (by decide) (by decide) (by decide) _)⟩)
    (run_all m ρ)

/-- The loss, spelled out: the loss tail of the posteriors after ten propagations with the masked adjacency and the inverse
    degrees, plus the regulariser. -/
theorem loss_eq (idx1 idx2 : IVec S512 32) (A M : FVec F S8192x8192 .f32) :
    loss idx1 idx2 A M = addf (lplTail ((step (Ahat A M) (dinv A))^[10] (E0 idx1 idx2)) idx1 idx2) (reg M) := rfl

/-- The masked adjacency, spelled out: M times (A plus the identity), entry by entry. -/
theorem ahat_eq (A M : FVec F S8192x8192 .f32) : Ahat A M = mulf M (addf A eye) := rfl

end Cert.ReferenceIdeal.RefRun

end
-- ==== Proof.AlgCore.lean ====
/-
  The idealized kernel program's two results are the reference's: the matrix result M * (A + I) entry by entry; the
  scalar result because each propagation step of the kernel is the reference's step (the bf16 matrix is the same array
  of extended reals; the reciprocal-degree column is the reference's vector, the degree being one sum over a row however
  it is tiled), the initial posterior and the loss tail are the same operations, and the regulariser's total of the
  squared mask is one sum however it is grouped.
-/
import proofs.«111186_j27504970563868_1_alg».proof.Proof.KVal
import proofs.«111186_j27504970563868_1_alg».proof.Proof.Bridge
import proofs.«111186_j27504970563868_1_alg».proof.Proof.BridgeReg
import proofs.«111186_j27504970563868_1_alg».proof.Proof.KerRefSame
import proofs.«111186_j27504970563868_1_alg».proof.Proof.RefRun

set_option maxRecDepth 16384

noncomputable section

namespace Cert.KernelIdeal.Hand

open Cert.KernelIdeal Cert.KernelIdeal.Gen Cert.KernelIdeal.Pay Cert.KernelIdeal.Host
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The identity matrix's entry, as the two words. -/
abbrev delta (r k : Fin 8192) : EReal := if r = k then Ideal.ofBits .f32 0x3F800000#32 else Ideal.ofBits .f32 0x00000000#32

/-- The posterior after `n` steps is the `n`-fold iterate of one step. -/
theorem Ek_iterate (c : Dev nD) (n : ℕ) :
    Ek m c n = (fun E' => step (ahat16 m c) E' (dinvK (F := Ideal) (degcol m c)))^[n] (Ek m c 0) := by
  induction n with
  | zero => rfl
  | succ n ih => rw [Function.iterate_succ_apply', ← ih]; rfl

/-- Given what the tile region leaves in its four output arrays, entry by entry, the program's two results are the
    reference's loss and matrix of the same arguments. -/
theorem results_eq (c : Dev nD)
    (A M : FVec Ideal ⟨2, ![8192, 8192]⟩ .f32) (hA : A = m ((c : Thread nD τ).loc main_arg3)) (hM : M = m ((c : Thread nD τ).loc main_arg4))
    (h2 : ∀ r k : Fin 8192, ((dat0 (F := Ideal) (T1 m) c).arrAt 2 cfg0.N : FVec Ideal ⟨2, ![8192, 8192]⟩ .f32) (ix2 r k) = M (ix2 r k) * (A (ix2 r k) + delta r k))
    (h3 : ∀ r k : Fin 8192, ((ahat16 m c : Vec Ideal ⟨2, ![8192, 8192]⟩ .bf16) (ix2 r k) : EReal) = M (ix2 r k) * (A (ix2 r k) + delta r k))
    (h4 : ∀ r : Fin 8192, (degcol m c : Vec Ideal ⟨2, ![8192, 1]⟩ .f32) (ix2 r (0 : Fin 1)) = ∑ k : Fin 8192, (A (ix2 r k) + delta r k))
    (h5 : ∀ r : Fin 8192, (msqcol m c : Vec Ideal ⟨2, ![8192, 1]⟩ .f32) (ix2 r (0 : Fin 1)) = ∑ k : Fin 8192, M (ix2 r k) * M (ix2 r k)) :
    W16 m c main_v72 = Cert.ReferenceIdeal.Stages.loss (F := Ideal) (m ((c : Thread nD τ).loc main_arg1)) (m ((c : Thread nD τ).loc main_arg2)) A M
      ∧ W16 m c main_v0_0 = Cert.ReferenceIdeal.Stages.Ahat (F := Ideal) A M := by
  have hmat : ((dat0 (F := Ideal) (T1 m) c).arrAt 2 cfg0.N : FVec Ideal ⟨2, ![8192, 8192]⟩ .f32) = Cert.ReferenceIdeal.Stages.Ahat (F := Ideal) A M :=
    Cert.Bridge.ahat_of_entries A M _ h2
  refine ⟨?_, (W16_main_v0_0 m c).trans hmat⟩
  have hAh : ∀ r k : Fin 8192, ((ahat16 m c : Vec Ideal ⟨2, ![8192, 8192]⟩ .bf16) (ix2 r k) : EReal) = Cert.ReferenceIdeal.Stages.Ahat (F := Ideal) A M (ix2 r k) :=
    fun r k => (h3 r k).trans ((h2 r k).symm.trans (congrFun hmat (ix2 r k)))
  have hd : ∀ r : Fin 8192, dinvK (F := Ideal) (degcol m c) (ix2 r (0 : Fin 1)) = Cert.ReferenceIdeal.Stages.dinv (F := Ideal) A (ix1 r) :=
    Cert.Bridge.dinv_eq A (degcol m c) h4
  rw [W16_main_v72 m c, Cert.ReferenceIdeal.RefRun.loss_eq, Ek_iterate m c 10,
    Cert.Bridge.step_iterate_eq (ahat16 m c) (Cert.ReferenceIdeal.Stages.Ahat (F := Ideal) A M) (dinvK (F := Ideal) (degcol m c)) (Cert.ReferenceIdeal.Stages.dinv (F := Ideal) A) hAh hd,
    show Ek m c 0 = E0K (F := Ideal) (pair01 (F := Ideal)) (pair10 (F := Ideal)) (m ((c : Thread nD τ).loc main_arg1)) (m ((c : Thread nD τ).loc main_arg2)) from rfl,
    E0K_eq, lplTailK_eq, Cert.Bridge.reg_eq M (msqcol m c) h5]

end Cert.KernelIdeal.Hand

end
-- ==== Proof.A0ValPA.lean ====
/-
  The tile kernel at a first column tile: what its stores leave, read back as values.  The two tile outputs hold the
  masked tile and its narrowed copy; each running column holds the zero column plus the tile's share.
-/
import proofs.«111186_j27504970563868_1_alg».proof.Proof.A0
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz0A : (![0, 0] : Fin 2 → Nat) = fun _ => 0 := funext fun a => by fin_cases a <;> rfl

set_option maxHeartbeats 4000000 in
/-- The f32 tile output read back: the masked tile of the two input blocks. -/
theorem pieceA_2 (c : Dev nD) (t : Fin cfg0.N) (h0 : t.val % 16 = 0) (h1 : ¬t.val % 16 = 15) :
    rb2 (runA V c t h0 h1).1 = k0_pay5 (grid0.coords t) (iblk0 V c 0 t) (iblk0 V c 1 t) := by
  unfold rb2
  rw [View.read_writes_eq_canon _ _ _ (coverA_2 V c t h0 h1)]
  unfold runA kernelRun0_A
  dsimp only
  rw [View.canon_unit_zero hz0A]
  simp only [View.readAt_eq_ld, Memref.IsWhole.read_unread, View.ld_unit_zero (S := S1024x512) hz0A, View.ld_unit_zero (S := S1024x1) hz0A]

set_option maxHeartbeats 4000000 in
/-- The narrowed tile output read back. -/
theorem pieceA_3 (c : Dev nD) (t : Fin cfg0.N) (h0 : t.val % 16 = 0) (h1 : ¬t.val % 16 = 15) :
    rb3 (runA V c t h0 h1).2.1 = k0_pay6 (grid0.coords t) (iblk0 V c 0 t) (iblk0 V c 1 t) := by
  unfold rb3
  rw [View.read_writes_eq_canon _ _ _ (coverA_3 V c t h0 h1)]
  unfold runA kernelRun0_A
  dsimp only
  rw [View.canon_unit_zero hz0A]
  simp only [View.readAt_eq_ld, Memref.IsWhole.read_unread, View.ld_unit_zero (S := S1024x512) hz0A, View.ld_unit_zero (S := S1024x1) hz0A]

set_option maxHeartbeats 4000000 in
/-- The first running column after a first column tile: the zero column plus the tile's row sums. -/
theorem pieceA_s0 (c : Dev nD) (t : Fin cfg0.N) (h0 : t.val % 16 = 0) (h1 : ¬t.val % 16 = 15) :
    rbc (runA V c t h0 h1).2.2.1 = k0_pay7 (grid0.coords t) (iblk0 V c 0 t) (k0_pay2 (F := F)) := by
  unfold rbc
  rw [View.read_writes_eq_canon _ _ _ (coverA_s0 V c t h0 h1)]
  unfold runA kernelRun0_A
  dsimp only
  sl_unfold_words
  rw [View.canon_cons_unit_zero (S := S1024x1) hz0A, View.readCov_unit_zero (S := S1024x1) _ hz0A]
  simp only [View.readAt_eq_ld, Memref.IsWhole.read_unread, View.ld_unit_zero (S := S1024x512) hz0A, View.ld_unit_zero (S := S1024x1) hz0A]

set_option maxHeartbeats 4000000 in
/-- The second running column after a first column tile: the zero column plus the tile's row sums of squares. -/
theorem pieceA_s1 (c : Dev nD) (t : Fin cfg0.N) (h0 : t.val % 16 = 0) (h1 : ¬t.val % 16 = 15) :
    rbc (runA V c t h0 h1).2.2.2.1 = k0_pay1 (k0_pay3 (F := F)) (k0_pay8 (iblk0 V c 1 t)) := by
  unfold rbc
  rw [View.read_writes_eq_canon _ _ _ (coverA_s1 V c t h0 h1)]
  unfold runA kernelRun0_A
  dsimp only
  sl_unfold_words
  rw [View.canon_cons_unit_zero (S := S1024x1) hz0A, View.readCov_unit_zero (S := S1024x1) _ hz0A]
  simp only [View.readAt_eq_ld, Memref.IsWhole.read_unread, View.ld_unit_zero (S := S1024x512) hz0A, View.ld_unit_zero (S := S1024x1) hz0A]

end Cert.KernelIdeal.Hand

end
-- ==== Proof.A0ValPB.lean ====
/-
  The tile kernel at an inner column tile: what its stores leave, read back as values.  The two tile outputs hold the
  masked tile and its narrowed copy; each running column holds what it held plus the tile's share.
-/
import proofs.«111186_j27504970563868_1_alg».proof.Proof.A0
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz0B : (![0, 0] : Fin 2 → Nat) = fun _ => 0 := funext fun a => by fin_cases a <;> rfl

set_option maxHeartbeats 4000000 in
/-- The f32 tile output read back: the masked tile of the two input blocks. -/
theorem pieceB_2 (c : Dev nD) (t : Fin cfg0.N) (h0 : ¬t.val % 16 = 0) (h1 : ¬t.val % 16 = 15) (xs : Vec F S1024x1 .f32 × Vec F S1024x1 .f32) :
    rb2 (runB V c t h0 h1 xs).1 = k0_pay5 (grid0.coords t) (iblk0 V c 0 t) (iblk0 V c 1 t) := by
  unfold rb2
  rw [View.read_writes_eq_canon _ _ _ (coverB_2 V c t h0 h1 xs)]
  unfold runB kernelRun0_B
  dsimp only
  rw [View.canon_unit_zero hz0B]
  simp only [View.readAt_eq_ld, Memref.IsWhole.read_unread, View.ld_unit_zero (S := S1024x512) hz0B, View.ld_unit_zero (S := S1024x1) hz0B]

set_option maxHeartbeats 4000000 in
/-- The narrowed tile output read back. -/
theorem pieceB_3 (c : Dev nD) (t : Fin cfg0.N) (h0 : ¬t.val % 16 = 0) (h1 : ¬t.val % 16 = 15) (xs : Vec F S1024x1 .f32 × Vec F S1024x1 .f32) :
    rb3 (runB V c t h0 h1 xs).2.1 = k0_pay6 (grid0.coords t) (iblk0 V c 0 t) (iblk0 V c 1 t) := by
  unfold rb3
  rw [View.read_writes_eq_canon _ _ _ (coverB_3 V c t h0 h1 xs)]
  unfold runB kernelRun0_B
  dsimp only
  rw [View.canon_unit_zero hz0B]
  simp only [View.readAt_eq_ld, Memref.IsWhole.read_unread, View.ld_unit_zero (S := S1024x512) hz0B, View.ld_unit_zero (S := S1024x1) hz0B]

set_option maxHeartbeats 4000000 in
/-- The first running column after an inner column tile: what it held plus the tile's row sums. -/
theorem pieceB_s0 (c : Dev nD) (t : Fin cfg0.N) (h0 : ¬t.val % 16 = 0) (h1 : ¬t.val % 16 = 15) (xs : Vec F S1024x1 .f32 × Vec F S1024x1 .f32) :
    rbc (runB V c t h0 h1 xs).2.2.1 = k0_pay7 (grid0.coords t) (iblk0 V c 0 t) xs.1 := by
  unfold rbc
  rw [View.read_writes_eq_canon _ _ _ (coverB_s0 V c t h0 h1 xs)]
  unfold runB kernelRun0_B
  dsimp only
  sl_unfold_words
  rw [View.canon_unit_zero hz0B]
  simp only [View.readAt_eq_ld, Memref.IsWhole.read_unread, View.ld_unit_zero (S := S1024x512) hz0B, View.ld_unit_zero (S := S1024x1) hz0B]
  exact congrArg (k0_pay7 (grid0.coords t) (iblk0 V c 0 t)) (Memref.IsWhole.read_unread (Memref.isWhole_whole cc0_scratch0) xs.1)

set_option maxHeartbeats 4000000 in
/-- The second running column after an inner column tile. -/
theorem pieceB_s1 (c : Dev nD) (t : Fin cfg0.N) (h0 : ¬t.val % 16 = 0) (h1 : ¬t.val % 16 = 15) (xs : Vec F S1024x1 .f32 × Vec F S1024x1 .f32) :
    rbc (runB V c t h0 h1 xs).2.2.2.1 = k0_pay1 xs.2 (k0_pay8 (iblk0 V c 1 t)) := by
  unfold rbc
  rw [View.read_writes_eq_canon _ _ _ (coverB_s1 V c t h0 h1 xs)]
  unfold runB kernelRun0_B
  dsimp only
  sl_unfold_words
  rw [View.canon_unit_zero hz0B]
  simp only [View.readAt_eq_ld, Memref.IsWhole.read_unread, View.ld_unit_zero (S := S1024x512) hz0B, View.ld_unit_zero (S := S1024x1) hz0B]
  exact congrArg (fun s => k0_pay1 s (k0_pay8 (iblk0 V c 1 t))) (Memref.IsWhole.read_unread (Memref.isWhole_whole cc0_scratch1) xs.2)

end Cert.KernelIdeal.Hand

end
-- ==== Proof.A0ValPC.lean ====
/-
  The tile kernel at a last column tile: what its stores leave, read back as values.  As at an inner tile, and the two
  column outputs receive the two running columns as they stand after the tile.
-/
import proofs.«111186_j27504970563868_1_alg».proof.Proof.A0
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz0C : (![0, 0] : Fin 2 → Nat) = fun _ => 0 := funext fun a => by fin_cases a <;> rfl

set_option maxHeartbeats 4000000 in
/-- The f32 tile output read back: the masked tile of the two input blocks. -/
theorem pieceC_2 (c : Dev nD) (t : Fin cfg0.N) (h0 : ¬t.val % 16 = 0) (h1 : t.val % 16 = 15) (xs : Vec F S1024x1 .f32 × Vec F S1024x1 .f32) :
    rb2 (runC V c t h0 h1 xs).1 = k0_pay5 (grid0.coords t) (iblk0 V c 0 t) (iblk0 V c 1 t) := by
  unfold rb2
  rw [View.read_writes_eq_canon _ _ _ (coverC_2 V c t h0 h1 xs)]
  unfold runC kernelRun0_C
  dsimp only
  rw [View.canon_unit_zero hz0C]
  simp only [View.readAt_eq_ld, Memref.IsWhole.read_unread, View.ld_unit_zero (S := S1024x512) hz0C, View.ld_unit_zero (S := S1024x1) hz0C]

set_option maxHeartbeats 4000000 in
/-- The narrowed tile output read back. -/
theorem pieceC_3 (c : Dev nD) (t : Fin cfg0.N) (h0 : ¬t.val % 16 = 0) (h1 : t.val % 16 = 15) (xs : Vec F S1024x1 .f32 × Vec F S1024x1 .f32) :
    rb3 (runC V c t h0 h1 xs).2.1 = k0_pay6 (grid0.coords t) (iblk0 V c 0 t) (iblk0 V c 1 t) := by
  unfold rb3
  rw [View.read_writes_eq_canon _ _ _ (coverC_3 V c t h0 h1 xs)]
  unfold runC kernelRun0_C
  dsimp only
  rw [View.canon_unit_zero hz0C]
  simp only [View.readAt_eq_ld, Memref.IsWhole.read_unread, View.ld_unit_zero (S := S1024x512) hz0C, View.ld_unit_zero (S := S1024x1) hz0C]

set_option maxHeartbeats 4000000 in
/-- The first running column after a last column tile. -/
theorem pieceC_s0 (c : Dev nD) (t : Fin cfg0.N) (h0 : ¬t.val % 16 = 0) (h1 : t.val % 16 = 15) (xs : Vec F S1024x1 .f32 × Vec F S1024x1 .f32) :
    rbc (runC V c t h0 h1 xs).2.2.2.2.1 = k0_pay7 (grid0.coords t) (iblk0 V c 0 t) xs.1 := by
  unfold rbc
  rw [View.read_writes_eq_canon _ _ _ (coverC_s0 V c t h0 h1 xs)]
  unfold runC kernelRun0_C
  dsimp only
  sl_unfold_words
  rw [View.canon_unit_zero hz0C]
  simp only [View.readAt_eq_ld, Memref.IsWhole.read_unread, View.ld_unit_zero (S := S1024x512) hz0C, View.ld_unit_zero (S := S1024x1) hz0C]
  exact congrArg (k0_pay7 (grid0.coords t) (iblk0 V c 0 t)) (Memref.IsWhole.read_unread (Memref.isWhole_whole cc0_scratch0) xs.1)

set_option maxHeartbeats 4000000 in
/-- The second running column after a last column tile. -/
theorem pieceC_s1 (c : Dev nD) (t : Fin cfg0.N) (h0 : ¬t.val % 16 = 0) (h1 : t.val % 16 = 15) (xs : Vec F S1024x1 .f32 × Vec F S1024x1 .f32) :
    rbc (runC V c t h0 h1 xs).2.2.2.2.2.1 = k0_pay1 xs.2 (k0_pay8 (iblk0 V c 1 t)) := by
  unfold rbc
  rw [View.read_writes_eq_canon _ _ _ (coverC_s1 V c t h0 h1 xs)]
  unfold runC kernelRun0_C
  dsimp only
  sl_unfold_words
  rw [View.canon_unit_zero hz0C]
  simp only [View.readAt_eq_ld, Memref.IsWhole.read_unread, View.ld_unit_zero (S := S1024x512) hz0C, View.ld_unit_zero (S := S1024x1) hz0C]
  exact congrArg (fun s => k0_pay1 s (k0_pay8 (iblk0 V c 1 t))) (Memref.IsWhole.read_unread (Memref.isWhole_whole cc0_scratch1) xs.2)

set_option maxHeartbeats 4000000 in
/-- The first column output at a last column tile: the first running column after the tile. -/
theorem pieceC_4 (c : Dev nD) (t : Fin cfg0.N) (h0 : ¬t.val % 16 = 0) (h1 : t.val % 16 = 15) (xs : Vec F S1024x1 .f32 × Vec F S1024x1 .f32) :
    rbc (runC V c t h0 h1 xs).2.2.1 = k0_pay7 (grid0.coords t) (iblk0 V c 0 t) xs.1 := by
  unfold rbc
  rw [View.read_writes_eq_canon _ _ _ (coverC_4 V c t h0 h1 xs)]
  unfold runC kernelRun0_C
  dsimp only
  sl_unfold_words
  rw [View.canon_unit_zero hz0C, View.readCov_unit_zero (S := S1024x1) _ hz0C]
  simp only [View.readAt_eq_ld, Memref.IsWhole.read_unread, View.ld_unit_zero (S := S1024x512) hz0C, View.ld_unit_zero (S := S1024x1) hz0C]
  exact congrArg (k0_pay7 (grid0.coords t) (iblk0 V c 0 t)) (Memref.IsWhole.read_unread (Memref.isWhole_whole cc0_scratch0) xs.1)

set_option maxHeartbeats 4000000 in
/-- The second column output at a last column tile: the second running column after the tile. -/
theorem pieceC_5 (c : Dev nD) (t : Fin cfg0.N) (h0 : ¬t.val % 16 = 0) (h1 : t.val % 16 = 15) (xs : Vec F S1024x1 .f32 × Vec F S1024x1 .f32) :
    rbc (runC V c t h0 h1 xs).2.2.2.1 = k0_pay1 xs.2 (k0_pay8 (iblk0 V c 1 t)) := by
  unfold rbc
  rw [View.read_writes_eq_canon _ _ _ (coverC_5 V c t h0 h1 xs)]
  unfold runC kernelRun0_C
  dsimp only
  sl_unfold_words
  rw [View.canon_unit_zero hz0C, View.readCov_unit_zero (S := S1024x1) _ hz0C]
  simp only [View.readAt_eq_ld, Memref.IsWhole.read_unread, View.ld_unit_zero (S := S1024x512) hz0C, View.ld_unit_zero (S := S1024x1) hz0C]
  exact congrArg (fun s => k0_pay1 s (k0_pay8 (iblk0 V c 1 t))) (Memref.IsWhole.read_unread (Memref.isWhole_whole cc0_scratch1) xs.2)

end Cert.KernelIdeal.Hand

end
-- ==== Proof.A0ValLeaves.lean ====
/-
  What a grid point of the tile kernel leaves, component by component, whatever kind of point it is: the two tile outputs
  always hold the masked tile; a running column restarts from zero at a first column tile and continues otherwise; at a
  last column tile the column outputs receive the running columns.
-/
import proofs.«111186_j27504970563868_1_alg».proof.Proof.A0ValPA
import proofs.«111186_j27504970563868_1_alg».proof.Proof.A0ValPB
import proofs.«111186_j27504970563868_1_alg».proof.Proof.A0ValPC
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

set_option maxHeartbeats 4000000 in
/-- Every point leaves the masked tile of its two input blocks in the f32 tile output. -/
theorem leaves0_tile (c : Dev nD) (t : Fin cfg0.N) (xs : Vec F S1024x1 .f32 × Vec F S1024x1 .f32) :
    (leaves0 V c t xs).1 = k0_pay5 (grid0.coords t) (iblk0 V c 0 t) (iblk0 V c 1 t) := by
  by_cases h0 : t.val % 16 = 0
  · have h1 : ¬t.val % 16 = 15 := by omega
    exact (congrArg Prod.fst (leaves0_A V c t xs h0 h1)).trans (pieceA_2 V c t h0 h1)
  · by_cases h1 : t.val % 16 = 15
    · exact (congrArg Prod.fst (leaves0_C V c t xs h0 h1)).trans (pieceC_2 V c t h0 h1 xs)
    · exact (congrArg Prod.fst (leaves0_B V c t xs h0 h1)).trans (pieceB_2 V c t h0 h1 xs)

set_option maxHeartbeats 4000000 in
/-- Every point leaves the narrowed masked tile in the bf16 tile output. -/
theorem leaves0_tile16 (c : Dev nD) (t : Fin cfg0.N) (xs : Vec F S1024x1 .f32 × Vec F S1024x1 .f32) :
    (leaves0 V c t xs).2.1 = k0_pay6 (grid0.coords t) (iblk0 V c 0 t) (iblk0 V c 1 t) := by
  by_cases h0 : t.val % 16 = 0
  · have h1 : ¬t.val % 16 = 15 := by omega
    exact (congrArg (fun x => x.2.1) (leaves0_A V c t xs h0 h1)).trans (pieceA_3 V c t h0 h1)
  · by_cases h1 : t.val % 16 = 15
    · exact (congrArg (fun x => x.2.1) (leaves0_C V c t xs h0 h1)).trans (pieceC_3 V c t h0 h1 xs)
    · exact (congrArg (fun x => x.2.1) (leaves0_B V c t xs h0 h1)).trans (pieceB_3 V c t h0 h1 xs)

set_option maxHeartbeats 4000000 in
/-- The first running column after a first column tile: restarted from the zero column. -/
theorem leaves0_scr0_first (c : Dev nD) (t : Fin cfg0.N) (xs : Vec F S1024x1 .f32 × Vec F S1024x1 .f32) (h0 : t.val % 16 = 0) :
    (leaves0 V c t xs).2.2.2.2.1 = k0_pay7 (grid0.coords t) (iblk0 V c 0 t) (k0_pay2 (F := F)) := by
  have h1 : ¬t.val % 16 = 15 := by omega
  exact (congrArg (fun x => x.2.2.2.2.1) (leaves0_A V c t xs h0 h1)).trans (pieceA_s0 V c t h0 h1)

set_option maxHeartbeats 4000000 in
/-- The first running column after any other column tile: continued from what it held. -/
theorem leaves0_scr0_next (c : Dev nD) (t : Fin cfg0.N) (xs : Vec F S1024x1 .f32 × Vec F S1024x1 .f32) (h0 : ¬t.val % 16 = 0) :
    (leaves0 V c t xs).2.2.2.2.1 = k0_pay7 (grid0.coords t) (iblk0 V c 0 t) xs.1 := by
  by_cases h1 : t.val % 16 = 15
  · exact (congrArg (fun x => x.2.2.2.2.1) (leaves0_C V c t xs h0 h1)).trans (pieceC_s0 V c t h0 h1 xs)
  · exact (congrArg (fun x => x.2.2.2.2.1) (leaves0_B V c t xs h0 h1)).trans (pieceB_s0 V c t h0 h1 xs)

set_option maxHeartbeats 4000000 in
/-- The second running column after a first column tile. -/
theorem leaves0_scr1_first (c : Dev nD) (t : Fin cfg0.N) (xs : Vec F S1024x1 .f32 × Vec F S1024x1 .f32) (h0 : t.val % 16 = 0) :
    (leaves0 V c t xs).2.2.2.2.2 = k0_pay1 (k0_pay3 (F := F)) (k0_pay8 (iblk0 V c 1 t)) := by
  have h1 : ¬t.val % 16 = 15 := by omega
  exact (congrArg (fun x => x.2.2.2.2.2) (leaves0_A V c t xs h0 h1)).trans (pieceA_s1 V c t h0 h1)

set_option maxHeartbeats 4000000 in
/-- The second running column after any other column tile. -/
theorem leaves0_scr1_next (c : Dev nD) (t : Fin cfg0.N) (xs : Vec F S1024x1 .f32 × Vec F S1024x1 .f32) (h0 : ¬t.val % 16 = 0) :
    (leaves0 V c t xs).2.2.2.2.2 = k0_pay1 xs.2 (k0_pay8 (iblk0 V c 1 t)) := by
  by_cases h1 : t.val % 16 = 15
  · exact (congrArg (fun x => x.2.2.2.2.2) (leaves0_C V c t xs h0 h1)).trans (pieceC_s1 V c t h0 h1 xs)
  · exact (congrArg (fun x => x.2.2.2.2.2) (leaves0_B V c t xs h0 h1)).trans (pieceB_s1 V c t h0 h1 xs)

set_option maxHeartbeats 4000000 in
/-- At a last column tile the first column output receives the first running column as it stands after the tile. -/
theorem leaves0_col0_last (c : Dev nD) (t : Fin cfg0.N) (xs : Vec F S1024x1 .f32 × Vec F S1024x1 .f32) (h1 : t.val % 16 = 15) :
    (leaves0 V c t xs).2.2.1 = (leaves0 V c t xs).2.2.2.2.1 := by
  have h0 : ¬t.val % 16 = 0 := by omega
  exact ((congrArg (fun x => x.2.2.1) (leaves0_C V c t xs h0 h1)).trans (pieceC_4 V c t h0 h1 xs)).trans
    ((congrArg (fun x => x.2.2.2.2.1) (leaves0_C V c t xs h0 h1)).trans (pieceC_s0 V c t h0 h1 xs)).symm

set_option maxHeartbeats 4000000 in
/-- At a last column tile the second column output receives the second running column as it stands after the tile. -/
theorem leaves0_col1_last (c : Dev nD) (t : Fin cfg0.N) (xs : Vec F S1024x1 .f32 × Vec F S1024x1 .f32) (h1 : t.val % 16 = 15) :
    (leaves0 V c t xs).2.2.2.1 = (leaves0 V c t xs).2.2.2.2.2 := by
  have h0 : ¬t.val % 16 = 0 := by omega
  exact ((congrArg (fun x => x.2.2.2.1) (leaves0_C V c t xs h0 h1)).trans (pieceC_5 V c t h0 h1 xs)).trans
    ((congrArg (fun x => x.2.2.2.2.2) (leaves0_C V c t xs h0 h1)).trans (pieceC_s1 V c t h0 h1 xs)).symm

end Cert.KernelIdeal.Hand

end
-- ==== Proof.A0ValIdx.lean ====
/-
  The geometry of the tile kernel's grid: 8 row tiles by 16 column tiles, point t = 16 * i + j.  Where each window's block
  sits in its array, which entries a block holds, and that the written-back blocks cover the four output arrays.
-/
import proofs.«111186_j27504970563868_1_alg».proof.Proof.A0
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-- The printed index maps over the 128 grid points: point t is row tile t / 16 and column tile t % 16; the four tile windows
    sit at block (t / 16, t % 16), the two column windows at block (t / 16, 0). -/
theorem idx_facts0 : ∀ t : Fin cfg0.N,
    ((grid0.coords t 0).val = t.val / 16 ∧ (grid0.coords t 1).val = t.val % 16)
    ∧ (win0_0.index t (0 : Fin 2) = t.val / 16 ∧ win0_0.index t (1 : Fin 2) = t.val % 16)
    ∧ (win0_1.index t (0 : Fin 2) = t.val / 16 ∧ win0_1.index t (1 : Fin 2) = t.val % 16)
    ∧ (win0_2.index t (0 : Fin 2) = t.val / 16 ∧ win0_2.index t (1 : Fin 2) = t.val % 16)
    ∧ (win0_3.index t (0 : Fin 2) = t.val / 16 ∧ win0_3.index t (1 : Fin 2) = t.val % 16)
    ∧ (win0_4.index t (0 : Fin 2) = t.val / 16 ∧ win0_4.index t (1 : Fin 2) = 0)
    ∧ (win0_5.index t (0 : Fin 2) = t.val / 16 ∧ win0_5.index t (1 : Fin 2) = 0) :=
  (by decide +kernel : ∀ t : Fin grid0.N, _)

/-- A grid point's rows are rows of the array. -/
theorem row_lt0 (t : Fin cfg0.N) (p : Fin 1024) : 1024 * (t.val / 16) + p.val < 8192 := by
  have ht : t.val < 128 := N_0 ▸ t.isLt
  have hp := p.isLt
  omega

/-- A grid point's columns are columns of the array. -/
theorem col_lt0 (t : Fin cfg0.N) (q : Fin 512) : 512 * (t.val % 16) + q.val < 8192 := by
  have hq := q.isLt
  omega

/-- Global row of local row p at point t. -/
abbrev grow (t : Fin cfg0.N) (p : Fin 1024) : Fin 8192 := ⟨1024 * (t.val / 16) + p.val, row_lt0 t p⟩
/-- Global column of local column q at point t. -/
abbrev gcol (t : Fin cfg0.N) (q : Fin 512) : Fin 8192 := ⟨512 * (t.val % 16) + q.val, col_lt0 t q⟩

/-- Where the first input's tile at point t sits in its array. -/
theorem emb0_0 (t : Fin cfg0.N) (p : Fin 1024) (q : Fin 512) :
    ((cfg0.win 0).blk t).view.emb (ix2 p q) = ix2 (grow t p) (gcol t q) := by
  obtain ⟨-, ⟨e0, e1⟩, -⟩ := idx_facts0 t
  funext a; apply Fin.ext
  match a with
  | ⟨0, _⟩ => show win0_0.index t (0 : Fin 2) * 1024 + 1 * p.val = 1024 * (t.val / 16) + p.val; omega
  | ⟨1, _⟩ => show win0_0.index t (1 : Fin 2) * 512 + 1 * q.val = 512 * (t.val % 16) + q.val; omega

/-- Where the second input's tile at point t sits in its array. -/
theorem emb0_1 (t : Fin cfg0.N) (p : Fin 1024) (q : Fin 512) :
    ((cfg0.win 1).blk t).view.emb (ix2 p q) = ix2 (grow t p) (gcol t q) := by
  obtain ⟨-, -, ⟨e0, e1⟩, -⟩ := idx_facts0 t
  funext a; apply Fin.ext
  match a with
  | ⟨0, _⟩ => show win0_1.index t (0 : Fin 2) * 1024 + 1 * p.val = 1024 * (t.val / 16) + p.val; omega
  | ⟨1, _⟩ => show win0_1.index t (1 : Fin 2) * 512 + 1 * q.val = 512 * (t.val % 16) + q.val; omega

/-- Where the f32 output tile at point t sits in its array. -/
theorem emb0_2 (t : Fin cfg0.N) (p : Fin 1024) (q : Fin 512) :
    ((cfg0.win 2).blk t).view.emb (ix2 p q) = ix2 (grow t p) (gcol t q) := by
  obtain ⟨-, -, -, ⟨e0, e1⟩, -⟩ := idx_facts0 t
  funext a; apply Fin.ext
  match a with
  | ⟨0, _⟩ => show win0_2.index t (0 : Fin 2) * 1024 + 1 * p.val = 1024 * (t.val / 16) + p.val; omega
  | ⟨1, _⟩ => show win0_2.index t (1 : Fin 2) * 512 + 1 * q.val = 512 * (t.val % 16) + q.val; omega

/-- Where the bf16 output tile at point t sits in its array. -/
theorem emb0_3 (t : Fin cfg0.N) (p : Fin 1024) (q : Fin 512) :
    ((cfg0.win 3).blk t).view.emb (ix2 p q) = ix2 (grow t p) (gcol t q) := by
  obtain ⟨-, -, -, -, ⟨e0, e1⟩, -⟩ := idx_facts0 t
  funext a; apply Fin.ext
  match a with
  | ⟨0, _⟩ => show win0_3.index t (0 : Fin 2) * 1024 + 1 * p.val = 1024 * (t.val / 16) + p.val; omega
  | ⟨1, _⟩ => show win0_3.index t (1 : Fin 2) * 512 + 1 * q.val = 512 * (t.val % 16) + q.val; omega

/-- Where the first column output's block at point t sits: rows 1024 * (t / 16) …. -/
theorem emb0_4 (t : Fin cfg0.N) (p : Fin 1024) :
    ((cfg0.win 4).blk t).view.emb (ix2 p (0 : Fin 1)) = ix2 (grow t p) (0 : Fin 1) := by
  obtain ⟨-, -, -, -, -, ⟨e0, e1⟩, -⟩ := idx_facts0 t
  funext a; apply Fin.ext
  match a with
  | ⟨0, _⟩ => show win0_4.index t (0 : Fin 2) * 1024 + 1 * p.val = 1024 * (t.val / 16) + p.val; omega
  | ⟨1, _⟩ => show win0_4.index t (1 : Fin 2) * 1 + 1 * 0 = 0; omega

/-- Where the second column output's block at point t sits. -/
theorem emb0_5 (t : Fin cfg0.N) (p : Fin 1024) :
    ((cfg0.win 5).blk t).view.emb (ix2 p (0 : Fin 1)) = ix2 (grow t p) (0 : Fin 1) := by
  obtain ⟨-, -, -, -, -, -, ⟨e0, e1⟩⟩ := idx_facts0 t
  funext a; apply Fin.ext
  match a with
  | ⟨0, _⟩ => show win0_5.index t (0 : Fin 2) * 1024 + 1 * p.val = 1024 * (t.val / 16) + p.val; omega
  | ⟨1, _⟩ => show win0_5.index t (1 : Fin 2) * 1 + 1 * 0 = 0; omega

/-- An index of the f32 output array is in point t's tile iff each coordinate is in the tile's range on its axis. -/
theorem mem_blk0_2 (t : Fin cfg0.N) (i : S8192x8192.Idx) :
    i ∈ ((cfg0.win 2).blk t).view.set
      ↔ ∀ a : Fin 2, win0_2.index t a * S1024x512.size a ≤ (i a).val ∧ (i a).val < win0_2.index t a * S1024x512.size a + S1024x512.size a := by
  show i ∈ ((View.whole main_v0_0).slice (win0_2.rect t)).set ↔ _
  rw [View.set_slice_whole, Rect.mem_set_unit]
  exact Iff.rfl

theorem mem_blk0_3 (t : Fin cfg0.N) (i : S8192x8192.Idx) :
    i ∈ ((cfg0.win 3).blk t).view.set
      ↔ ∀ a : Fin 2, win0_3.index t a * S1024x512.size a ≤ (i a).val ∧ (i a).val < win0_3.index t a * S1024x512.size a + S1024x512.size a := by
  show i ∈ ((View.whole main_v0_1).slice (win0_3.rect t)).set ↔ _
  rw [View.set_slice_whole, Rect.mem_set_unit]
  exact Iff.rfl

theorem mem_blk0_4 (t : Fin cfg0.N) (i : S8192x1.Idx) :
    i ∈ ((cfg0.win 4).blk t).view.set
      ↔ ∀ a : Fin 2, win0_4.index t a * S1024x1.size a ≤ (i a).val ∧ (i a).val < win0_4.index t a * S1024x1.size a + S1024x1.size a := by
  show i ∈ ((View.whole main_v0_2).slice (win0_4.rect t)).set ↔ _
  rw [View.set_slice_whole, Rect.mem_set_unit]
  exact Iff.rfl

theorem mem_blk0_5 (t : Fin cfg0.N) (i : S8192x1.Idx) :
    i ∈ ((cfg0.win 5).blk t).view.set
      ↔ ∀ a : Fin 2, win0_5.index t a * S1024x1.size a ≤ (i a).val ∧ (i a).val < win0_5.index t a * S1024x1.size a + S1024x1.size a := by
  show i ∈ ((View.whole main_v0_3).slice (win0_5.rect t)).set ↔ _
  rw [View.set_slice_whole, Rect.mem_set_unit]
  exact Iff.rfl

/-- The point whose tile holds entry (r, k): row tile r / 1024, column tile k / 512. -/
def ptOf (r k : ℕ) (hr : r < 8192) (hk : k < 8192) : Fin cfg0.N :=
  ⟨16 * (r / 1024) + k / 512, by rw [show cfg0.N = 128 from N_0]; omega⟩

/-- The 128 tiles cover the f32 output array. -/
theorem cover0_2 (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ : ∃ t : Fin cfg0.N, t.val = 16 * ((i 0).val / 1024) + (i 1).val / 512 := ⟨ptOf _ _ hi0 hi1, rfl⟩
  obtain ⟨-, -, -, ⟨e0, e1⟩, -⟩ := idx_facts0 t
  refine ⟨t, flush0_2 t, ?_⟩
  rw [mem_blk0_2]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-- The 128 tiles cover the bf16 output array. -/
theorem cover0_3 (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ : ∃ t : Fin cfg0.N, t.val = 16 * ((i 0).val / 1024) + (i 1).val / 512 := ⟨ptOf _ _ hi0 hi1, rfl⟩
  obtain ⟨-, -, -, -, ⟨e0, e1⟩, -⟩ := idx_facts0 t
  refine ⟨t, flush0_3 t, ?_⟩
  rw [mem_blk0_3]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-- The last column tiles of the 8 row tiles cover the first column output. -/
theorem cover0_4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  obtain ⟨t, ht⟩ : ∃ t : Fin cfg0.N, t.val = 16 * ((i 0).val / 1024) + 15 :=
    ⟨⟨16 * ((i 0).val / 1024) + 15, by rw [show cfg0.N = 128 from N_0]; omega⟩, rfl⟩
  obtain ⟨-, -, -, -, -, ⟨e0, e1⟩, -⟩ := idx_facts0 t
  refine ⟨t, (flush0_4 t).mpr (by omega), ?_⟩
  rw [mem_blk0_4]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1 ≤ (i 1).val ∧ (i 1).val < win0_4.index t (1 : Fin 2) * 1 + 1
    omega

/-- The last column tiles of the 8 row tiles cover the second column output. -/
theorem cover0_5 (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  obtain ⟨t, ht⟩ : ∃ t : Fin cfg0.N, t.val = 16 * ((i 0).val / 1024) + 15 :=
    ⟨⟨16 * ((i 0).val / 1024) + 15, by rw [show cfg0.N = 128 from N_0]; omega⟩, rfl⟩
  obtain ⟨-, -, -, -, -, -, ⟨e0, e1⟩⟩ := idx_facts0 t
  refine ⟨t, (flush0_5 t).mpr (by omega), ?_⟩
  rw [mem_blk0_5]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1 ≤ (i 1).val ∧ (i 1).val < win0_5.index t (1 : Fin 2) * 1 + 1
    omega

end Cert.KernelIdeal.Hand

end
-- ==== Proof.PayAhat.lean ====
/-
  The normalisation kernel's stores read at one entry.

  At grid point (i0, i1) the kernel holds the [1024, 512] tile of rows 1024 * i0 … and columns 512 * i1 … of the adjacency a
  and of the mask m.  It adds the identity (a one where the global row equals the global column), multiplies by the mask,
  stores that product twice (once narrowed, which changes nothing at the extended reals), adds the tile's row sums of
  a + identity to a running column, and adds the tile's row sums of m * m to another running column.  The two running
  columns start from zero.  Global rows and columns are below 8192, so the 32-bit index arithmetic does not wrap.
-/
import proofs.«111186_j27504970563868_1_alg».proof.Proof.Gen.KernelIdeal.Skeleton
import proofs.«111186_j27504970563868_1_alg».proof.Proof.LibLaneReduce
import Idealize.ShloMosaic.Lib.ValueIdx
import Idealize.ShloMosaic.Lib.Pipeline.Value
import Idealize.ShloMosaic.Lib.Affine
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The comparison of the global row 1024 * x + p with the global column 512 * y + q, made on 32-bit words, is the
    comparison of the natural numbers: every quantity is below 8192. -/
theorem diag_word_iff (x y p q : ℕ) (hx : x < 8) (hy : y < 16) (hp : p < 1024) (hq : q < 512) :
    IntOp.cmpi .eq (IntOp.addi (Scalar.muli (BitVec.ofNat 32 x) 1024#32) (BitVec.ofNat 32 p))
        (IntOp.addi (Scalar.muli (BitVec.ofNat 32 y) 512#32) (BitVec.ofNat 32 q)) = 1#1
      ↔ 1024 * x + p = 512 * y + q := by
  rw [IntOp.cmpi_eq]
  unfold IntOp.addi Scalar.muli IntOp.muli
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-- The tile of a plus the identity, at (p, q). -/
theorem k0_pay4_apply (i : grid0.Coords) (a : Vec Ideal S1024x512 .f32) (p : Fin 1024) (q : Fin 512) :
    k0_pay4 (F := Ideal) i a (ix2 p q)
      = a (ix2 p q) + (if 1024 * (i 0).val + p.val = 512 * (i 1).val + q.val
          then Ideal.ofBits .f32 0x3F800000#32 else Ideal.ofBits .f32 0x00000000#32) := by
  have h0 : (i 0).val < 8 := (i 0).isLt
  have h1 : (i 1).val < 16 := (i 1).isLt
  unfold k0_pay4
  show a (ix2 p q) + Scalar.select
      (IntOp.cmpi .eq
        (IntOp.addi (Scalar.muli (BitVec.ofNat 32 (i 0).val) 1024#32) (iota .tc S1024x512 32 [0] iota_S1024x512_d0_w32 (ix2 p q)))
        (IntOp.addi (Scalar.muli (BitVec.ofNat 32 (i 1).val) 512#32) (iota .tc S1024x512 32 [1] iota_S1024x512_d1_w32 (ix2 p q))))
      (Ideal.ofBits .f32 0x3F800000#32) (Ideal.ofBits .f32 0x00000000#32) = _
  rw [iota_single_apply, iota_single_apply]
  exact congrArg (a (ix2 p q) + ·) (if_congr (diag_word_iff _ _ _ _ h0 h1 p.isLt q.isLt) rfl rfl)

/-- The masked tile, at (p, q): the mask times (a plus the identity). -/
theorem k0_pay5_apply (i : grid0.Coords) (a m : Vec Ideal S1024x512 .f32) (p : Fin 1024) (q : Fin 512) :
    k0_pay5 (F := Ideal) i a m (ix2 p q) = m (ix2 p q) * k0_pay4 (F := Ideal) i a (ix2 p q) := rfl

/-- The narrowed copy of the masked tile is the masked tile, entry by entry. -/
theorem k0_pay6_eq (i : grid0.Coords) (a m : Vec Ideal S1024x512 .f32) (j : S1024x512.Idx) :
    (k0_pay6 (F := Ideal) i a m j : EReal) = (k0_pay5 (F := Ideal) i a m j : EReal) := rfl

/-- The narrowed copy at (p, q). -/
theorem k0_pay6_apply (i : grid0.Coords) (a m : Vec Ideal S1024x512 .f32) (p : Fin 1024) (q : Fin 512) :
    (k0_pay6 (F := Ideal) i a m (ix2 p q) : EReal) = m (ix2 p q) * k0_pay4 (F := Ideal) i a (ix2 p q) := rfl

/-- The running degree column after this tile, at row p: what it held plus the tile's row sum of a plus the identity. -/
theorem k0_pay7_apply (i : grid0.Coords) (a : Vec Ideal S1024x512 .f32) (s : Vec Ideal S1024x1 .f32) (p : Fin 1024) :
    k0_pay7 (F := Ideal) i a s (ix2 p (0 : Fin 1))
      = s (ix2 p (0 : Fin 1)) + ∑ q : Fin 512, k0_pay4 (F := Ideal) i a (ix2 p q) := by
  unfold k0_pay7
  simp only [shapeCast_self]
  exact congrArg (s (ix2 p (0 : Fin 1)) + ·)
    (LibLaneReduce.sumLanes_apply (k0_pay4 (F := Ideal) i a) reduces_S1024x512_S1024 (.inl rfl) rfl shapeCasts_S1024_S1024x1 p)

/-- The tile's row sums of the squared mask, at row p. -/
theorem k0_pay8_apply (m : Vec Ideal S1024x512 .f32) (p : Fin 1024) :
    k0_pay8 (F := Ideal) m (ix1 p) = ∑ q : Fin 512, m (ix2 p q) * m (ix2 p q) := by
  unfold k0_pay8
  refine (Ideal.multiReduction_add_single (mulf (F := Ideal) (φ := .f32) m m) 0x00000000#32 reduces_S1024x512_S1024 (.inl rfl) rfl (ix1 p)).trans ?_
  exact Finset.sum_congr rfl fun k _ =>
    congrArg (mulf (F := Ideal) (φ := .f32) m m) (LibLaneReduce.lift_lanes reduces_S1024x512_S1024 p k)

/-- The running column of squared-mask row sums after this tile, at row p: what it held plus the tile's share. -/
theorem k0_pay1_apply (s : Vec Ideal S1024x1 .f32) (v : FVec Ideal S1024 .f32) (p : Fin 1024) :
    k0_pay1 (F := Ideal) s v (ix2 p (0 : Fin 1)) = s (ix2 p (0 : Fin 1)) + v (ix1 p) := by
  unfold k0_pay1
  simp only [shapeCast_self]
  exact congrArg (s (ix2 p (0 : Fin 1)) + ·) (LibLaneReduce.col_apply v shapeCasts_S1024_S1024x1 p)

/-- The two running columns start as the zero column. -/
theorem k0_pay2_apply (j : S1024x1.Idx) : k0_pay2 (F := Ideal) j = Ideal.ofBits .f32 0x00000000#32 := by
  unfold k0_pay2
  simp only [shapeCast_self]
  rfl

theorem k0_pay3_apply (j : S1024x1.Idx) : k0_pay3 (F := Ideal) j = Ideal.ofBits .f32 0x00000000#32 := by
  unfold k0_pay3
  simp only [shapeCast_self]
  rfl

theorem k0_pay2_zero (j : S1024x1.Idx) : k0_pay2 (F := Ideal) j = (0 : EReal) :=
  (k0_pay2_apply j).trans Ideal.ofBits_zero_f32

theorem k0_pay3_zero (j : S1024x1.Idx) : k0_pay3 (F := Ideal) j = (0 : EReal) :=
  (k0_pay3_apply j).trans Ideal.ofBits_zero_f32

end Cert.KernelIdeal.Pay

end
-- ==== Proof.A0ValAhat.lean ====
/-
  What the tile kernel leaves in its two tile output arrays.

  Point t = 16 * i + j holds the [1024, 512] tile of rows 1024 * i … and columns 512 * j … of the adjacency A and of the
  mask M and writes back the tile of M * (A + I) at the same place, once as f32 and once narrowed (the same extended
  reals).  The 128 tiles cover the [8192, 8192] arrays, so both end as M * (A + I).
-/
import proofs.«111186_j27504970563868_1_alg».proof.Proof.A0ValLeaves
import proofs.«111186_j27504970563868_1_alg».proof.Proof.A0ValIdx
import proofs.«111186_j27504970563868_1_alg».proof.Proof.PayAhat
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal.Pay

variable (V : (c : Dev nD) → (b : Ref sig .tc) → Buf (Elt Ideal) ((c : Thread nD τ).loc b))

/-- The identity matrix's entry (r, k): the word of one on the diagonal, the word of zero off it. -/
def diag (r k : Fin 8192) : Elt Ideal .f32 :=
  if r = k then Ideal.ofBits .f32 0x3F800000#32 else Ideal.ofBits .f32 0x00000000#32

/-- Entry (r, k) of the masked self-looped adjacency: M[r, k] * (A[r, k] + I[r, k]). -/
def AhatAt (A M : Vec Ideal S8192x8192 .f32) (r k : Fin 8192) : Elt Ideal .f32 :=
  M (ix2 r k) * (A (ix2 r k) + diag r k)

/-- The masked self-looped adjacency as an f32 array. -/
def AhatK (A M : Vec Ideal S8192x8192 .f32) : Vec Ideal S8192x8192 .f32 := fun i => AhatAt A M (i 0) (i 1)

/-- The same array at the narrow element type (the same extended reals). -/
def AhatK16 (A M : Vec Ideal S8192x8192 .f32) : Vec Ideal S8192x8192 .bf16 := fun i => (AhatAt A M (i 0) (i 1) : EReal)

theorem AhatK_apply (A M : Vec Ideal S8192x8192 .f32) (r k : Fin 8192) :
    AhatK A M (ix2 r k) = M (ix2 r k) * (A (ix2 r k) + diag r k) := rfl

theorem AhatK16_apply (A M : Vec Ideal S8192x8192 .f32) (r k : Fin 8192) :
    (AhatK16 A M (ix2 r k) : EReal) = M (ix2 r k) * (A (ix2 r k) + diag r k) := rfl

theorem AhatK16_eq (A M : Vec Ideal S8192x8192 .f32) (i : S8192x8192.Idx) :
    (AhatK16 A M i : EReal) = (AhatK A M i : EReal) := rfl

/-- At point t the kernel's test "global row = global column", made on the tile's coordinates, is the test on the array's. -/
theorem diag_iff0 (t : Fin cfg0.N) (p : Fin 1024) (q : Fin 512) :
    1024 * (grid0.coords t 0).val + p.val = 512 * (grid0.coords t 1).val + q.val ↔ grow t p = gcol t q := by
  obtain ⟨⟨ec0, ec1⟩, -⟩ := idx_facts0 t
  rw [ec0, ec1, Fin.ext_iff]

/-- The masked tile of two blocks a, m that sit in the arrays A, M at point t's place: its entry (p, q) is the entry of
    M * (A + I) at the global position. -/
theorem tile_entry0 (t : Fin cfg0.N) (p : Fin 1024) (q : Fin 512) (A M : Vec Ideal S8192x8192 .f32) (a m : Vec Ideal S1024x512 .f32)
    (ha : a (ix2 p q) = A (ix2 (grow t p) (gcol t q))) (hm : m (ix2 p q) = M (ix2 (grow t p) (gcol t q))) :
    m (ix2 p q) * k0_pay4 (F := Ideal) (grid0.coords t) a (ix2 p q) = AhatK A M (ix2 (grow t p) (gcol t q)) := by
  refine (congrArg (m (ix2 p q) * ·) (k0_pay4_apply (grid0.coords t) a p q)).trans ?_
  rw [ha, hm]
  refine Eq.trans ?_ (AhatK_apply A M (grow t p) (gcol t q)).symm
  exact congrArg (fun d => M (ix2 (grow t p) (gcol t q)) * (A (ix2 (grow t p) (gcol t q)) + d))
    (if_congr (diag_iff0 t p q) rfl rfl)

/-- WHAT POINT t WRITES BACK into the f32 output: its tile of the masked self-looped adjacency. -/
theorem flushed0_2_eq (c : Dev nD) (t : Fin cfg0.N) :
    (dat0 (F := Ideal) V c).flushed 2 t
      = ((cfg0.win 2).blk t).view.read (Elt Ideal) (AhatK (V c main_arg3) (V c main_arg4)) := by
  show (cfg0.win 2).cut (grid0.coords t) ((dat0 (F := Ideal) V c).after 2 t) = _
  rw [after0_2, leaves0_tile]
  funext j
  obtain ⟨p, q, rfl⟩ : ∃ (p : Fin 1024) (q : Fin 512), j = ix2 p q := ⟨j 0, j 1, eq_ix2 j⟩
  show k0_pay5 (F := Ideal) (grid0.coords t) (iblk0 V c 0 t) (iblk0 V c 1 t) (ix2 p q)
    = AhatK (V c main_arg3) (V c main_arg4) (((cfg0.win 2).blk t).view.emb (ix2 p q))
  refine (k0_pay5_apply _ _ _ p q).trans ?_
  refine Eq.trans ?_ (congrArg (AhatK (V c main_arg3) (V c main_arg4)) (emb0_2 t p q)).symm
  exact tile_entry0 t p q (V c main_arg3) (V c main_arg4) (iblk0 V c 0 t) (iblk0 V c 1 t)
    (congrArg (V c main_arg3) (emb0_0 t p q)) (congrArg (V c main_arg4) (emb0_1 t p q))

/-- WHAT POINT t WRITES BACK into the bf16 output: the same tile at the narrow element type. -/
theorem flushed0_3_eq (c : Dev nD) (t : Fin cfg0.N) :
    (dat0 (F := Ideal) V c).flushed 3 t
      = ((cfg0.win 3).blk t).view.read (Elt Ideal) (AhatK16 (V c main_arg3) (V c main_arg4)) := by
  show (cfg0.win 3).cut (grid0.coords t) ((dat0 (F := Ideal) V c).after 3 t) = _
  rw [after0_3, leaves0_tile16]
  funext j
  obtain ⟨p, q, rfl⟩ : ∃ (p : Fin 1024) (q : Fin 512), j = ix2 p q := ⟨j 0, j 1, eq_ix2 j⟩
  show k0_pay6 (F := Ideal) (grid0.coords t) (iblk0 V c 0 t) (iblk0 V c 1 t) (ix2 p q)
    = AhatK16 (V c main_arg3) (V c main_arg4) (((cfg0.win 3).blk t).view.emb (ix2 p q))
  refine (k0_pay6_apply _ _ _ p q).trans ?_
  refine Eq.trans ?_ (congrArg (AhatK16 (V c main_arg3) (V c main_arg4)) (emb0_3 t p q)).symm
  exact tile_entry0 t p q (V c main_arg3) (V c main_arg4) (iblk0 V c 0 t) (iblk0 V c 1 t)
    (congrArg (V c main_arg3) (emb0_0 t p q)) (congrArg (V c main_arg4) (emb0_1 t p q))

/-- THE F32 OUTPUT ARRAY after the region: M * (A + I), entry by entry. -/
theorem final0_2 (c : Dev nD) :
    (dat0 (F := Ideal) V c).arrAt 2 cfg0.N = AhatK (V c main_arg3) (V c main_arg4) :=
  (dat0 (F := Ideal) V c).arrAt_eq_of_cover 2 _ (fun t _ => flushed0_2_eq V c t) cover0_2

/-- THE BF16 OUTPUT ARRAY after the region: the same extended reals. -/
theorem final0_3 (c : Dev nD) :
    (dat0 (F := Ideal) V c).arrAt 3 cfg0.N = AhatK16 (V c main_arg3) (V c main_arg4) :=
  (dat0 (F := Ideal) V c).arrAt_eq_of_cover 3 _ (fun t _ => flushed0_3_eq V c t) cover0_3

end Cert.KernelIdeal.Hand

end
-- ==== Proof.SumTiles.lean ====
/-
  Sums taken tile by tile.

  A sum over the 8192 columns of a row is taken in 16 tiles of 512 columns, a sum over the 8192 rows in 8 tiles of 1024
  rows, and a scratch column adds the tiles' shares from left to right starting from zero.  All of this is the
  commutativity and associativity of addition together with 0 + x = x: it holds in every commutative additive monoid, in
  particular on the extended reals with no finiteness assumption.  The statements are given for general tile counts and
  tile sizes and then at the literal extents.
-/
import Mathlib.Algebra.BigOperators.Fin
import Mathlib.Data.Fintype.BigOperators
import Mathlib.Logic.Equiv.Fin.Basic
import Mathlib.Data.EReal.Basic
import Idealize.ShloMosaic.Lib.ValueIdx

noncomputable section

open scoped BigOperators

namespace Cert.KernelIdeal.Sum

open Idealize.ShloMosaic Idealize.ShloMosaic.ValueIdx

/-- Position l of tile j, of a tiles of size b, is below a * b. -/
theorem tile_lt {a b : ℕ} (j : Fin a) (l : Fin b) : b * j.val + l.val < a * b := by
  have hj : j.val + 1 ≤ a := j.isLt
  have hl := l.isLt
  calc b * j.val + l.val < b * j.val + b := by omega
    _ = b * (j.val + 1) := by rw [Nat.mul_add, Nat.mul_one]
    _ ≤ b * a := Nat.mul_le_mul_left b hj
    _ = a * b := Nat.mul_comm b a

/-- A sum over a * b positions is the sum over the a tiles of the sums over each tile's b positions. -/
theorem sum_tiles {M : Type*} [AddCommMonoid M] (a b : ℕ) (f : Fin (a * b) → M) :
    ∑ k : Fin (a * b), f k = ∑ j : Fin a, ∑ l : Fin b, f ⟨b * j.val + l.val, tile_lt j l⟩ := by
  rw [← Equiv.sum_comp finProdFinEquiv f, Fintype.sum_prod_type]
  refine Finset.sum_congr rfl fun j _ => Finset.sum_congr rfl fun l _ => congrArg f (Fin.ext ?_)
  show l.val + b * j.val = b * j.val + l.val
  exact Nat.add_comm _ _

/-- The same with the extent named: n = a * b. -/
theorem sum_tiles_of_eq {M : Type*} [AddCommMonoid M] {n : ℕ} (a b : ℕ) (h : a * b = n) (f : Fin n → M) :
    ∑ k : Fin n, f k = ∑ j : Fin a, ∑ l : Fin b, f ⟨b * j.val + l.val, h ▸ tile_lt j l⟩ := by
  subst h
  exact sum_tiles a b f

/-- (a) The 8192 columns in 16 tiles of 512. -/
theorem sum_cols {M : Type*} [AddCommMonoid M] (f : Fin 8192 → M) :
    ∑ k : Fin 8192, f k
      = ∑ j : Fin 16, ∑ l : Fin 512, f ⟨512 * j.val + l.val, by have := j.isLt; have := l.isLt; omega⟩ :=
  sum_tiles_of_eq 16 512 rfl f

/-- (c) The 8192 rows in 8 tiles of 1024. -/
theorem sum_rows {M : Type*} [AddCommMonoid M] (g : Fin 8192 → M) :
    ∑ r : Fin 8192, g r
      = ∑ i : Fin 8, ∑ p : Fin 1024, g ⟨1024 * i.val + p.val, by have := i.isLt; have := p.isLt; omega⟩ :=
  sum_tiles_of_eq 8 1024 rfl g

/-- (b) A total accumulated from left to right, starting from zero: after tile j it is the sum of the shares of the
    tiles 0, …, j. -/
theorem acc_eq_sum_range {M : Type*} [AddCommMonoid M] (N : ℕ) (s acc : ℕ → M) (h0 : acc 0 = 0 + s 0)
    (hs : ∀ j, j + 1 < N → acc (j + 1) = acc j + s (j + 1)) :
    ∀ j, j < N → acc j = ∑ i ∈ Finset.range (j + 1), s i := by
  intro j
  induction j with
  | zero => intro _; rw [h0, zero_add, Finset.sum_range_one]
  | succ j ih =>
    intro hj
    rw [hs j hj, ih (Nat.lt_of_succ_lt hj), Finset.sum_range_succ _ (j + 1)]

/-- (b) The same over the N tiles indexed by Fin N: after the last tile the total is the sum of all the shares. -/
theorem acc_last_eq_sum {M : Type*} [AddCommMonoid M] (N : ℕ) (s acc : Fin (N + 1) → M) (h0 : acc 0 = 0 + s 0)
    (hs : ∀ (j : ℕ) (h : j + 1 < N + 1), acc ⟨j + 1, h⟩ = acc ⟨j, Nat.lt_of_succ_lt h⟩ + s ⟨j + 1, h⟩) :
    acc (Fin.last N) = ∑ j : Fin (N + 1), s j := by
  let s' : ℕ → M := fun n => if h : n < N + 1 then s ⟨n, h⟩ else 0
  let acc' : ℕ → M := fun n => if h : n < N + 1 then acc ⟨n, h⟩ else 0
  have h0' : acc' 0 = 0 + s' 0 := by
    simp only [s', acc', Nat.zero_lt_succ, dite_true]
    exact h0
  have hs' : ∀ j, j + 1 < N + 1 → acc' (j + 1) = acc' j + s' (j + 1) := by
    intro j hj
    simp only [s', acc', hj, Nat.lt_of_succ_lt hj, dite_true]
    exact hs j hj
  have key := acc_eq_sum_range (N + 1) s' acc' h0' hs' N (Nat.lt_succ_self N)
  have hl : acc' N = acc (Fin.last N) := by
    simp only [acc', Nat.lt_succ_self, dite_true]
    rfl
  rw [← hl, key, Finset.sum_range]
  refine Finset.sum_congr rfl fun j _ => ?_
  simp only [s', j.isLt, dite_true]

/-- (b) At the sixteen column tiles: acc 0 = 0 + s 0 and acc (j + 1) = acc j + s (j + 1) end at the sum of the shares. -/
theorem acc16 {M : Type*} [AddCommMonoid M] (s acc : Fin 16 → M) (h0 : acc 0 = 0 + s 0)
    (hs : ∀ (j : ℕ) (h : j + 1 < 16), acc ⟨j + 1, h⟩ = acc ⟨j, Nat.lt_of_succ_lt h⟩ + s ⟨j + 1, h⟩) :
    acc 15 = ∑ j : Fin 16, s j :=
  acc_last_eq_sum 15 s acc h0 hs

/-- (d) A sum over all index pairs of an [8192, 8192] array is the sum over the rows of the sums along each row. -/
theorem sum_pairs {M : Type*} [AddCommMonoid M] (f : (⟨2, ![8192, 8192]⟩ : Shape).Idx → M) :
    ∑ i, f i = ∑ r : Fin 8192, ∑ k : Fin 8192, f (ix2 r k) :=
  sum_idx2 f

/-- (a), (c), (d) together: the sum over all index pairs, by row tile, row in the tile, column tile, column in the tile. -/
theorem sum_pairs_tiles {M : Type*} [AddCommMonoid M] (f : (⟨2, ![8192, 8192]⟩ : Shape).Idx → M) :
    ∑ x, f x
      = ∑ i : Fin 8, ∑ p : Fin 1024, ∑ j : Fin 16, ∑ l : Fin 512,
          f (ix2 (⟨1024 * i.val + p.val, by have := i.isLt; have := p.isLt; omega⟩ : Fin 8192)
                 (⟨512 * j.val + l.val, by have := j.isLt; have := l.isLt; omega⟩ : Fin 8192)) := by
  rw [sum_pairs, sum_rows]
  refine Finset.sum_congr rfl fun i _ => Finset.sum_congr rfl fun p _ => ?_
  exact sum_cols _

/-- The statements above hold in particular on the extended reals. -/
example (f : Fin 8192 → EReal) :
    ∑ k : Fin 8192, f k
      = ∑ j : Fin 16, ∑ l : Fin 512, f ⟨512 * j.val + l.val, by have := j.isLt; have := l.isLt; omega⟩ :=
  sum_cols f

end Cert.KernelIdeal.Sum

end
-- ==== Proof.A0ValColAcc.lean ====
/-
  The two running columns of the normalisation kernel, in closed form.

  Over the 16 column tiles of a row tile the first running column starts from zero and receives, tile by tile, the tile's
  row sums of the adjacency plus the identity; the second starts from zero and receives the tile's row sums of the squared
  mask.  After the last column tile of row tile i, row p of the first column is the sum over the 16 tiles of their shares,
  which is the sum over all 8192 columns k of a[r, k] + (1 if r = k else 0) at the global row r = 1024 * i + p; row p of the
  second is the sum over k of m[r, k] * m[r, k].
-/
import proofs.«111186_j27504970563868_1_alg».proof.Proof.A0ValLeaves
import proofs.«111186_j27504970563868_1_alg».proof.Proof.A0ValIdx
import proofs.«111186_j27504970563868_1_alg».proof.Proof.PayAhat
import proofs.«111186_j27504970563868_1_alg».proof.Proof.SumTiles
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.KernelIdeal.Pay Cert.KernelIdeal.Sum
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Column tile j of row tile i is a grid point. -/
theorem pos_lt0 (i : Fin 8) (j : Fin 16) : 16 * i.val + j.val < cfg0.N := by
  rw [show cfg0.N = 128 from N_0]; omega

/-- The grid point of row tile i, column tile j. -/
abbrev pt0 (i : Fin 8) (j : Fin 16) : Fin cfg0.N := ⟨16 * i.val + j.val, pos_lt0 i j⟩

/-- The running columns depend on the position only. -/
theorem scrAt0_congr (c : Dev nD) {n n' : ℕ} (e : n = n') (h : n < cfg0.N) (h' : n' < cfg0.N) :
    scrAt0 V c n h = scrAt0 V c n' h' := by
  subst e; rfl

/-! ## A tile's two row sums -/

/-- The row sum, at local row p, of a tile of a plus the identity. -/
def rowDeg (i : grid0.Coords) (a : Vec Ideal S1024x512 .f32) (p : Fin 1024) : EReal :=
  ∑ q : Fin 512, k0_pay4 (F := Ideal) i a (ix2 p q)

/-- The row sum, at local row p, of a tile of the squared mask. -/
def rowSq (m : Vec Ideal S1024x512 .f32) (p : Fin 1024) : EReal :=
  ∑ q : Fin 512, m (ix2 p q) * m (ix2 p q)

/-- A grid point's share of the degree column. -/
def degShare (c : Dev nD) (t : Fin cfg0.N) (p : Fin 1024) : EReal := rowDeg (grid0.coords t) (iblk0 V c 0 t) p

/-- A grid point's share of the squared-mask column. -/
def sqShare (c : Dev nD) (t : Fin cfg0.N) (p : Fin 1024) : EReal := rowSq (iblk0 V c 1 t) p

/-! ## The running columns, step by step -/

/-- After a first column tile the first running column holds zero plus the tile's share. -/
theorem scr0_first (c : Dev nD) (t : Fin cfg0.N) (h0 : t.val % 16 = 0) (p : Fin 1024) :
    (scrAt0 V c t.val t.isLt).1 (ix2 p (0 : Fin 1)) = 0 + degShare V c t p := by
  rw [scrAt0_eq V c t]
  show (leaves0 V c t (scrBefore0 V c t)).2.2.2.2.1 (ix2 p (0 : Fin 1)) = _
  rw [leaves0_scr0_first V c t _ h0]
  refine (k0_pay7_apply _ _ _ p).trans ?_
  rw [k0_pay2_zero]
  rfl

/-- After any other column tile it holds what it held plus the tile's share. -/
theorem scr0_next (c : Dev nD) (t : Fin cfg0.N) (h0 : ¬t.val % 16 = 0) (p : Fin 1024) :
    (scrAt0 V c t.val t.isLt).1 (ix2 p (0 : Fin 1))
      = (scrAt0 V c (t.val - 1) (Nat.lt_of_le_of_lt (Nat.sub_le _ _) t.isLt)).1 (ix2 p (0 : Fin 1)) + degShare V c t p := by
  have hz : t.val ≠ 0 := fun e => h0 (by rw [e])
  rw [scrAt0_eq V c t]
  show (leaves0 V c t (scrBefore0 V c t)).2.2.2.2.1 (ix2 p (0 : Fin 1)) = _
  rw [leaves0_scr0_next V c t _ h0, scrBefore0_pos V c t hz]
  exact k0_pay7_apply _ _ _ p

/-- The same for the second running column. -/
theorem scr1_first (c : Dev nD) (t : Fin cfg0.N) (h0 : t.val % 16 = 0) (p : Fin 1024) :
    (scrAt0 V c t.val t.isLt).2 (ix2 p (0 : Fin 1)) = 0 + sqShare V c t p := by
  rw [scrAt0_eq V c t]
  show (leaves0 V c t (scrBefore0 V c t)).2.2.2.2.2 (ix2 p (0 : Fin 1)) = _
  rw [leaves0_scr1_first V c t _ h0]
  refine (k0_pay1_apply _ _ p).trans ?_
  rw [k0_pay3_zero, k0_pay8_apply]
  rfl

theorem scr1_next (c : Dev nD) (t : Fin cfg0.N) (h0 : ¬t.val % 16 = 0) (p : Fin 1024) :
    (scrAt0 V c t.val t.isLt).2 (ix2 p (0 : Fin 1))
      = (scrAt0 V c (t.val - 1) (Nat.lt_of_le_of_lt (Nat.sub_le _ _) t.isLt)).2 (ix2 p (0 : Fin 1)) + sqShare V c t p := by
  have hz : t.val ≠ 0 := fun e => h0 (by rw [e])
  rw [scrAt0_eq V c t]
  show (leaves0 V c t (scrBefore0 V c t)).2.2.2.2.2 (ix2 p (0 : Fin 1)) = _
  rw [leaves0_scr1_next V c t _ h0, scrBefore0_pos V c t hz]
  refine (k0_pay1_apply _ _ p).trans ?_
  rw [k0_pay8_apply]
  rfl

/-! ## After the last column tile of a row tile -/

/-- The first running column is the sum of the 16 tiles' shares. -/
theorem scr0_last (c : Dev nD) (i : Fin 8) (p : Fin 1024) :
    (scrAt0 V c (pt0 i 15).val (pt0 i 15).isLt).1 (ix2 p (0 : Fin 1)) = ∑ j : Fin 16, degShare V c (pt0 i j) p := by
  refine acc16 (fun j => degShare V c (pt0 i j) p)
    (fun j => (scrAt0 V c (pt0 i j).val (pt0 i j).isLt).1 (ix2 p (0 : Fin 1))) ?_ ?_
  · exact scr0_first V c (pt0 i 0) (by show (16 * i.val + 0) % 16 = 0; omega) p
  · intro j h
    have hn := scr0_next V c (pt0 i ⟨j + 1, h⟩) (by show ¬(16 * i.val + (j + 1)) % 16 = 0; omega) p
    rw [scrAt0_congr V c (show (pt0 i ⟨j + 1, h⟩).val - 1 = (pt0 i ⟨j, Nat.lt_of_succ_lt h⟩).val from by
      show 16 * i.val + (j + 1) - 1 = 16 * i.val + j; omega) _ (pt0 i ⟨j, Nat.lt_of_succ_lt h⟩).isLt] at hn
    exact hn

/-- The second running column is the sum of the 16 tiles' shares. -/
theorem scr1_last (c : Dev nD) (i : Fin 8) (p : Fin 1024) :
    (scrAt0 V c (pt0 i 15).val (pt0 i 15).isLt).2 (ix2 p (0 : Fin 1)) = ∑ j : Fin 16, sqShare V c (pt0 i j) p := by
  refine acc16 (fun j => sqShare V c (pt0 i j) p)
    (fun j => (scrAt0 V c (pt0 i j).val (pt0 i j).isLt).2 (ix2 p (0 : Fin 1))) ?_ ?_
  · exact scr1_first V c (pt0 i 0) (by show (16 * i.val + 0) % 16 = 0; omega) p
  · intro j h
    have hn := scr1_next V c (pt0 i ⟨j + 1, h⟩) (by show ¬(16 * i.val + (j + 1)) % 16 = 0; omega) p
    rw [scrAt0_congr V c (show (pt0 i ⟨j + 1, h⟩).val - 1 = (pt0 i ⟨j, Nat.lt_of_succ_lt h⟩).val from by
      show 16 * i.val + (j + 1) - 1 = 16 * i.val + j; omega) _ (pt0 i ⟨j, Nat.lt_of_succ_lt h⟩).isLt] at hn
    exact hn

/-! ## The shares over the whole arrays -/

/-- The global row of local row p of row tile i. -/
theorem grow_lt (i : Fin 8) (p : Fin 1024) : 1024 * i.val + p.val < 8192 := by
  have := i.isLt; have := p.isLt; omega
abbrev growI (i : Fin 8) (p : Fin 1024) : Fin 8192 := ⟨1024 * i.val + p.val, grow_lt i p⟩

/-- The global column of local column q of column tile j. -/
theorem gcol_lt (j : Fin 16) (q : Fin 512) : 512 * j.val + q.val < 8192 := by
  have := j.isLt; have := q.isLt; omega
abbrev gcolJ (j : Fin 16) (q : Fin 512) : Fin 8192 := ⟨512 * j.val + q.val, gcol_lt j q⟩

theorem grow_pt0 (i : Fin 8) (j : Fin 16) (p : Fin 1024) : grow (pt0 i j) p = growI i p :=
  Fin.ext (by show 1024 * ((16 * i.val + j.val) / 16) + p.val = 1024 * i.val + p.val; have := j.isLt; omega)

theorem gcol_pt0 (i : Fin 8) (j : Fin 16) (q : Fin 512) : gcol (pt0 i j) q = gcolJ j q :=
  Fin.ext (by show 512 * ((16 * i.val + j.val) % 16) + q.val = 512 * j.val + q.val; have := j.isLt; omega)

/-- The degree of global row r: the sum over the columns of a plus the identity. -/
def degAt (A : Vec Ideal S8192x8192 .f32) (r : Fin 8192) : EReal :=
  ∑ k : Fin 8192, (A (ix2 r k) + (if r = k then Ideal.ofBits .f32 0x3F800000#32 else Ideal.ofBits .f32 0x00000000#32))

/-- The squared-mask row sum of global row r. -/
def sqAt (M : Vec Ideal S8192x8192 .f32) (r : Fin 8192) : EReal :=
  ∑ k : Fin 8192, M (ix2 r k) * M (ix2 r k)

/-- Column tile j's part of the degree of global row r. -/
def tileDeg (A : Vec Ideal S8192x8192 .f32) (r : Fin 8192) (j : Fin 16) : EReal :=
  ∑ q : Fin 512, (A (ix2 r (gcolJ j q))
    + (if r = gcolJ j q then Ideal.ofBits .f32 0x3F800000#32 else Ideal.ofBits .f32 0x00000000#32))

/-- Column tile j's part of the squared-mask row sum of global row r. -/
def tileSq (M : Vec Ideal S8192x8192 .f32) (r : Fin 8192) (j : Fin 16) : EReal :=
  ∑ q : Fin 512, M (ix2 r (gcolJ j q)) * M (ix2 r (gcolJ j q))

/-- The degree is the sum of the 16 column tiles' parts. -/
theorem degAt_tiles (A : Vec Ideal S8192x8192 .f32) (r : Fin 8192) : degAt A r = ∑ j : Fin 16, tileDeg A r j := by
  unfold degAt
  rw [sum_cols]
  rfl

theorem sqAt_tiles (M : Vec Ideal S8192x8192 .f32) (r : Fin 8192) : sqAt M r = ∑ j : Fin 16, tileSq M r j := by
  unfold sqAt
  rw [sum_cols]
  rfl

/-- A tile's row sum of a plus the identity, when the tile is the (x, j) tile of the array A. -/
theorem rowDeg_eq (i : grid0.Coords) (a : Vec Ideal S1024x512 .f32) (A : Vec Ideal S8192x8192 .f32) (x : Fin 8) (j : Fin 16)
    (p : Fin 1024) (hi0 : (i 0).val = x.val) (hi1 : (i 1).val = j.val)
    (ha : ∀ q : Fin 512, a (ix2 p q) = A (ix2 (growI x p) (gcolJ j q))) :
    rowDeg i a p = tileDeg A (growI x p) j := by
  unfold rowDeg tileDeg
  refine Finset.sum_congr rfl fun q _ => ?_
  rw [k0_pay4_apply, ha q]
  refine congrArg (A (ix2 (growI x p) (gcolJ j q)) + ·) (if_congr ?_ rfl rfl)
  rw [hi0, hi1]
  exact ⟨fun h => Fin.ext h, fun h => congrArg Fin.val h⟩

/-- A tile's row sum of the squared mask, when the tile is a tile of the array M. -/
theorem rowSq_eq (m : Vec Ideal S1024x512 .f32) (M : Vec Ideal S8192x8192 .f32) (r : Fin 8192) (j : Fin 16) (p : Fin 1024)
    (hm : ∀ q : Fin 512, m (ix2 p q) = M (ix2 r (gcolJ j q))) : rowSq m p = tileSq M r j := by
  unfold rowSq tileSq
  refine Finset.sum_congr rfl fun q _ => ?_
  rw [hm q]

/-- A grid point's share of the degree column over the adjacency the region found. -/
theorem degShare_pt0 (c : Dev nD) (i : Fin 8) (j : Fin 16) (p : Fin 1024) :
    degShare V c (pt0 i j) p = tileDeg (V c (Pipeline.arrRef spec0 0)) (growI i p) j := by
  obtain ⟨⟨c0, c1⟩, -⟩ := idx_facts0 (pt0 i j)
  refine rowDeg_eq (grid0.coords (pt0 i j)) (iblk0 V c 0 (pt0 i j)) (V c (Pipeline.arrRef spec0 0)) i j p ?_ ?_ fun q => ?_
  · rw [c0]; show (16 * i.val + j.val) / 16 = i.val; have := j.isLt; omega
  · rw [c1]; show (16 * i.val + j.val) % 16 = j.val; have := j.isLt; omega
  · refine (congrArg (V c (Pipeline.arrRef spec0 0)) (emb0_0 (pt0 i j) p q)).trans ?_
    rw [grow_pt0, gcol_pt0]

/-- A grid point's share of the squared-mask column over the mask the region found. -/
theorem sqShare_pt0 (c : Dev nD) (i : Fin 8) (j : Fin 16) (p : Fin 1024) :
    sqShare V c (pt0 i j) p = tileSq (V c (Pipeline.arrRef spec0 1)) (growI i p) j := by
  refine rowSq_eq (iblk0 V c 1 (pt0 i j)) (V c (Pipeline.arrRef spec0 1)) (growI i p) j p fun q => ?_
  refine (congrArg (V c (Pipeline.arrRef spec0 1)) (emb0_1 (pt0 i j) p q)).trans ?_
  rw [grow_pt0, gcol_pt0]

/-- THE FIRST RUNNING COLUMN after the last column tile of row tile i, at local row p: the degree of the global row. -/
theorem scr0_last_eq (c : Dev nD) (i : Fin 8) (p : Fin 1024) :
    (scrAt0 V c (pt0 i 15).val (pt0 i 15).isLt).1 (ix2 p (0 : Fin 1))
      = degAt (V c (Pipeline.arrRef spec0 0)) (growI i p) := by
  rw [scr0_last V c i p, degAt_tiles]
  exact Finset.sum_congr rfl fun j _ => degShare_pt0 V c i j p

/-- THE SECOND RUNNING COLUMN after the last column tile of row tile i, at local row p: the squared-mask row sum. -/
theorem scr1_last_eq (c : Dev nD) (i : Fin 8) (p : Fin 1024) :
    (scrAt0 V c (pt0 i 15).val (pt0 i 15).isLt).2 (ix2 p (0 : Fin 1))
      = sqAt (V c (Pipeline.arrRef spec0 1)) (growI i p) := by
  rw [scr1_last V c i p, sqAt_tiles]
  exact Finset.sum_congr rfl fun j _ => sqShare_pt0 V c i j p

end Cert.KernelIdeal.Hand

end
-- ==== Proof.A0ValColFinal.lean ====
/-
  The two column outputs of the normalisation kernel, in closed form.

  A row tile's last column tile writes the two running columns back as rows 1024 * i … of the two column outputs.  So the
  degree column ends holding, at global row r, the sum over k of a[r, k] + (1 if r = k else 0), and the squared-mask column
  the sum over k of m[r, k] * m[r, k]: the 8 written blocks cover the 8192 rows.
-/
import proofs.«111186_j27504970563868_1_alg».proof.Proof.A0ValColAcc
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Cert.KernelIdeal.Pay Cert.KernelIdeal.Sum
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The degree column of an [8192, 8192] array. -/
def degCol (A : Vec Ideal S8192x8192 .f32) : Vec Ideal S8192x1 .f32 := fun x => degAt A (x 0)

/-- The squared-mask column of an [8192, 8192] array. -/
def sqCol (M : Vec Ideal S8192x8192 .f32) : Vec Ideal S8192x1 .f32 := fun x => sqAt M (x 0)

theorem degCol_apply (A : Vec Ideal S8192x8192 .f32) (r : Fin 8192) :
    degCol A (ix2 r (0 : Fin 1))
      = ∑ k : Fin 8192, (A (ix2 r k) + (if r = k then Ideal.ofBits .f32 0x3F800000#32 else Ideal.ofBits .f32 0x00000000#32)) := rfl

theorem sqCol_apply (M : Vec Ideal S8192x8192 .f32) (r : Fin 8192) :
    sqCol M (ix2 r (0 : Fin 1)) = ∑ k : Fin 8192, M (ix2 r k) * M (ix2 r k) := rfl

/-- A last column tile is the last column tile of its row tile. -/
theorem last_pt0 (t : Fin cfg0.N) (h15 : t.val % 16 = 15) :
    ∃ i : Fin 8, t.val = (pt0 i 15).val ∧ ∀ p : Fin 1024, grow t p = growI i p := by
  have ht : t.val < 128 := N_0 ▸ t.isLt
  refine ⟨⟨t.val / 16, by omega⟩, ?_, fun p => rfl⟩
  show t.val = 16 * (t.val / 16) + 15
  omega

/-- WHAT A LAST COLUMN TILE WRITES BACK to the degree column: its rows of the degree column of the adjacency found. -/
theorem flushed0_4_eq (c : Dev nD) (t : Fin cfg0.N) (hf : (cfg0.win 4).flush t = true) :
    (dat0 (F := Ideal) V c).flushed 4 t
      = ((cfg0.win 4).blk t).view.read (Elt Ideal) (degCol (V c (Pipeline.arrRef spec0 0))) := by
  have h15 : t.val % 16 = 15 := (flush0_4 t).mp hf
  obtain ⟨i, hi, hg⟩ := last_pt0 t h15
  show (cfg0.win 4).cut (grid0.coords t) ((dat0 (F := Ideal) V c).after 4 t) = _
  rw [after0_4, leaves0_col0_last V c t _ h15]
  funext y
  obtain ⟨p, z, rfl⟩ : ∃ (p : Fin 1024) (z : Fin 1), y = ix2 p z := ⟨y 0, y 1, eq_ix2 y⟩
  obtain rfl : z = 0 := Subsingleton.elim _ _
  show (leaves0 V c t (scrBefore0 V c t)).2.2.2.2.1 (ix2 p (0 : Fin 1))
    = degCol (V c (Pipeline.arrRef spec0 0)) (((cfg0.win 4).blk t).view.emb (ix2 p (0 : Fin 1)))
  refine Eq.trans ?_ (congrArg (degCol (V c (Pipeline.arrRef spec0 0))) (emb0_4 t p)).symm
  have hs : (scrAt0 V c t.val t.isLt).1 = (leaves0 V c t (scrBefore0 V c t)).2.2.2.2.1 := by
    rw [scrAt0_eq V c t]
  rw [← hs, scrAt0_congr V c hi t.isLt (pt0 i 15).isLt, scr0_last_eq V c i p]
  show degAt _ (growI i p) = degAt _ (grow t p)
  rw [hg p]

/-- WHAT A LAST COLUMN TILE WRITES BACK to the squared-mask column. -/
theorem flushed0_5_eq (c : Dev nD) (t : Fin cfg0.N) (hf : (cfg0.win 5).flush t = true) :
    (dat0 (F := Ideal) V c).flushed 5 t
      = ((cfg0.win 5).blk t).view.read (Elt Ideal) (sqCol (V c (Pipeline.arrRef spec0 1))) := by
  have h15 : t.val % 16 = 15 := (flush0_5 t).mp hf
  obtain ⟨i, hi, hg⟩ := last_pt0 t h15
  show (cfg0.win 5).cut (grid0.coords t) ((dat0 (F := Ideal) V c).after 5 t) = _
  rw [after0_5, leaves0_col1_last V c t _ h15]
  funext y
  obtain ⟨p, z, rfl⟩ : ∃ (p : Fin 1024) (z : Fin 1), y = ix2 p z := ⟨y 0, y 1, eq_ix2 y⟩
  obtain rfl : z = 0 := Subsingleton.elim _ _
  show (leaves0 V c t (scrBefore0 V c t)).2.2.2.2.2 (ix2 p (0 : Fin 1))
    = sqCol (V c (Pipeline.arrRef spec0 1)) (((cfg0.win 5).blk t).view.emb (ix2 p (0 : Fin 1)))
  refine Eq.trans ?_ (congrArg (sqCol (V c (Pipeline.arrRef spec0 1))) (emb0_5 t p)).symm
  have hs : (scrAt0 V c t.val t.isLt).2 = (leaves0 V c t (scrBefore0 V c t)).2.2.2.2.2 := by
    rw [scrAt0_eq V c t]
  rw [← hs, scrAt0_congr V c hi t.isLt (pt0 i 15).isLt, scr1_last_eq V c i p]
  show sqAt _ (growI i p) = sqAt _ (grow t p)
  rw [hg p]

/-- THE DEGREE COLUMN after the region: the degree column of the adjacency the region found. -/
theorem final0_4 (c : Dev nD) :
    (dat0 (F := Ideal) V c).arrAt 4 cfg0.N = degCol (V c (Pipeline.arrRef spec0 0)) :=
  (dat0 (F := Ideal) V c).arrAt_eq_of_cover 4 _ (fun t hf => flushed0_4_eq V c t hf) cover0_4

/-- THE SQUARED-MASK COLUMN after the region. -/
theorem final0_5 (c : Dev nD) :
    (dat0 (F := Ideal) V c).arrAt 5 cfg0.N = sqCol (V c (Pipeline.arrRef spec0 1)) :=
  (dat0 (F := Ideal) V c).arrAt_eq_of_cover 5 _ (fun t hf => flushed0_5_eq V c t hf) cover0_5

/-- The degree column at global row r, over the adjacency argument: degAt unfolds to the sum over k of
    a[r, k] + (1 if r = k else 0). -/
theorem final0_4_apply (c : Dev nD) (r : Fin 8192) :
    (dat0 (F := Ideal) V c).arrAt 4 cfg0.N (ix2 r (0 : Fin 1)) = degAt (V c main_arg3) r := by
  rw [final0_4 V c]
  rfl

/-- The squared-mask column at global row r, over the mask argument: sqAt unfolds to the sum over k of m[r, k] * m[r, k]. -/
theorem final0_5_apply (c : Dev nD) (r : Fin 8192) :
    (dat0 (F := Ideal) V c).arrAt 5 cfg0.N (ix2 r (0 : Fin 1)) = sqAt (V c main_arg4) r := by
  rw [final0_5 V c]
  rfl

/-- degAt and sqAt, unfolded. -/
theorem degAt_apply (A : Vec Ideal S8192x8192 .f32) (r : Fin 8192) :
    degAt A r = ∑ k : Fin 8192, (A (ix2 r k) + (if r = k then Ideal.ofBits .f32 0x3F800000#32 else Ideal.ofBits .f32 0x00000000#32)) := rfl
theorem sqAt_apply (M : Vec Ideal S8192x8192 .f32) (r : Fin 8192) :
    sqAt M r = ∑ k : Fin 8192, M (ix2 r k) * M (ix2 r k) := rfl

end Cert.KernelIdeal.Hand

end
-- ==== Proof.lean ====
/-
  The five claims of this certificate.

  The program builds the masked self-looped adjacency M * (A + I) of an [8192, 8192] graph, the reciprocal of its row
  sums (plus a small word), an initial two-class posterior with two sets of rows clamped, runs ten propagation steps
  E ← 0.5 * E + 0.5 * (dinv * (Ahat · E)), and returns a log-likelihood loss of the final posterior plus 0.02 times the
  mean of M * M, together with M * (A + I).

  The kernel computes this through eleven pipeline regions: a tile region over a grid of 8 × 16 tiles that writes
  M * (A + I) twice (wide and narrow) and accumulates, over the sixteen column tiles of a row tile, the row sums of
  A + I and of M * M; then ten propagation regions, each over eight blocks of 1024 rows, that read the whole posterior
  and a row block of it through two windows. Each program's frame — it terminates, faults nowhere, leaves its argument
  arrays unchanged — is read off its run: for the kernel at the word level and at the extended reals, the run through
  the segments of host operations and regions; for the reference, the run of its host operations.

  At the extended reals the two programs' results agree: a change of float format is the identity, the tile-wise identity
  matrix is the global one, a row sum is the same sum however its columns are tiled, the total of M * M is the same sum
  however it is grouped (addition on the extended reals is commutative and associative, so no finiteness is used), each
  propagation step is the same function of the same arrays, and the clamped initial posterior and the loss tail are the
  same operations.
-/
import proofs.«111186_j27504970563868_1_alg».proof.Defs
import proofs.«111186_j27504970563868_1_alg».proof.Proof.Gen.Kernel
import proofs.«111186_j27504970563868_1_alg».proof.Proof.Gen.KernelIdeal
import proofs.«111186_j27504970563868_1_alg».proof.Proof.Gen.ReferenceIdeal
import proofs.«111186_j27504970563868_1_alg».proof.Proof.Gen.Pre_finite_inputs
import proofs.«111186_j27504970563868_1_alg».proof.Proof.BRunReads
import proofs.«111186_j27504970563868_1_alg».proof.Proof.AlgCore
import proofs.«111186_j27504970563868_1_alg».proof.Proof.A0ValAhat
import proofs.«111186_j27504970563868_1_alg».proof.Proof.A0ValColFinal
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel's frame: its run through the sixteen segments. -/
theorem frame_k : Cert.frame_Kernel := fun m ρ _ => Cert.Kernel.Hand.frame (F := Bits) m ρ
/-- The idealized kernel's frame: the same run at the extended reals. -/
theorem frame_ki : Cert.frame_KernelIdeal := fun m ρ _ => Cert.KernelIdeal.Hand.frame (F := Ideal) m ρ
/-- The reference's frame: the run of its host operations. -/
theorem frame_ri : Cert.frame_ReferenceIdeal := fun m ρ _ => Cert.ReferenceIdeal.RefRun.frame (F := Ideal) m ρ
/-- The ideal pass rewrote no operation. -/
theorem preserves : Cert.preserves_Kernel_KernelIdeal := trivial

/-- At the extended reals, from memories agreeing on the arguments, both programs end with the reference's loss and
    matrix of those arguments. -/
theorem algebraic : Cert.algebraic_KernelIdeal_ReferenceIdeal := by
  intro m ρ m' ρ' _ hagree
  refine ⟨fun c => Cert.ReferenceIdeal.Stages.loss (F := Ideal)
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)),
    fun c => Cert.ReferenceIdeal.Stages.Ahat (F := Ideal)
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)), ?_, ?_⟩
  · refine (θ_run (Cert.KernelIdeal.defs (F := Ideal)) _ _).mono (fun r h c => ?_) (Cert.KernelIdeal.Hand.run (F := Ideal) m ρ)
    obtain ⟨-, e1, e2, e3, e4⟩ := hagree c
    have hT3 : Cert.KernelIdeal.Hand.T1 m c Cert.KernelIdeal.main_arg3 = m ((c.tc : Thread Cert.KernelIdeal.nD Cert.KernelIdeal.τ).loc Cert.KernelIdeal.main_arg3) :=
      Cert.KernelIdeal.Hand.T1_arg m c _ (by decide)
    have hT4 : Cert.KernelIdeal.Hand.T1 m c Cert.KernelIdeal.main_arg4 = m ((c.tc : Thread Cert.KernelIdeal.nD Cert.KernelIdeal.τ).loc Cert.KernelIdeal.main_arg4) :=
      Cert.KernelIdeal.Hand.T1_arg m c _ (by decide)
    have hres := Cert.KernelIdeal.Hand.results_eq m c _ _ rfl rfl
      (fun r k => by rw [Cert.KernelIdeal.Hand.final0_2 (Cert.KernelIdeal.Hand.T1 m) c, hT3, hT4]; rfl)
      (fun r k => by
        show ((Cert.KernelIdeal.Hand.dat0 (F := Ideal) (Cert.KernelIdeal.Hand.T1 m) c).arrAt 3 Cert.KernelIdeal.cfg0.N (ix2 r k) : EReal) = _
        rw [Cert.KernelIdeal.Hand.final0_3 (Cert.KernelIdeal.Hand.T1 m) c, hT3, hT4]; rfl)
      (fun r => (Cert.KernelIdeal.Hand.final0_4_apply (Cert.KernelIdeal.Hand.T1 m) c r).trans (by rw [hT3]; rfl))
      (fun r => (Cert.KernelIdeal.Hand.final0_5_apply (Cert.KernelIdeal.Hand.T1 m) c r).trans (by rw [hT4]; rfl))
    dsimp only
    rw [e1, e2, e3, e4]
    exact ⟨(h c _ (Cert.KernelIdeal.Hand.mem_uc Cert.KernelIdeal.main_v72 (by decide))).trans hres.1,
      (h c _ (Cert.KernelIdeal.Hand.mem_uc Cert.KernelIdeal.main_v0_0 (by decide))).trans hres.2,
      (h c _ (Cert.KernelIdeal.Hand.mem_uc Cert.KernelIdeal.main_arg0 (by decide))).trans (Cert.KernelIdeal.Hand.W16_main_arg0 m c),
      (h c _ (Cert.KernelIdeal.Hand.mem_uc Cert.KernelIdeal.main_arg1 (by decide))).trans (Cert.KernelIdeal.Hand.W16_main_arg1 m c),
      (h c _ (Cert.KernelIdeal.Hand.mem_uc Cert.KernelIdeal.main_arg2 (by decide))).trans (Cert.KernelIdeal.Hand.W16_main_arg2 m c),
      (h c _ (Cert.KernelIdeal.Hand.mem_uc Cert.KernelIdeal.main_arg3 (by decide))).trans (Cert.KernelIdeal.Hand.W16_main_arg3 m c),
      (h c _ (Cert.KernelIdeal.Hand.mem_uc Cert.KernelIdeal.main_arg4 (by decide))).trans (Cert.KernelIdeal.Hand.W16_main_arg4 m c)⟩
  · exact Cert.ReferenceIdeal.RefRun.run (F := Ideal) m' ρ'

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
